-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v422)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v422) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v572) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x96 : Shape := ⟨2, ![256, 96]⟩
abbrev S96 : Shape := ⟨1, ![96]⟩
abbrev S96x64 : Shape := ⟨2, ![96, 64]⟩
abbrev S64 : Shape := ⟨1, ![64]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x96 : S_.BroadcastsInDim S256x96 (![] : Fin 0 → Fin S256x96.rank)
  reducesTo_S256x96_S_d0_1 : S256x96.ReducesTo [0, 1] S_
  bcast_S_S96 : S_.BroadcastsInDim S96 (![] : Fin 0 → Fin S96.rank)
  reducesTo_S96_S_d0 : S96.ReducesTo [0] S_
  bcast_S_S96x64 : S_.BroadcastsInDim S96x64 (![] : Fin 0 → Fin S96x64.rank)
  reducesTo_S96x64_S_d0_1 : S96x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S96 .f32) (main_arg6 : FVec F S96x64 .f32) (main_arg7 : FVec F S64 .f32) (main_v13 : IVec S_ 1) (main_v16 : IVec S96 1) : IVec S_ 1 :=
  let main_c_5 : IVec S_ 1 := constantI S_ 1 1#1
  let main_v17 : IVec S_ 1 := (fun x v => Host.reduce IntOp.andi x v reducesTo_S96_S_d0 h_S_) main_v16 main_c_5
  let main_v18 : IVec S_ 1 := andi main_v13 main_v17
  let main_v19 : FVec F S96 .f32 := Host.absf main_arg5
  let main_cst_6 : FVec F S_ .f32 := constant S_ .f32 0x7F800000#32
  let main_v20 : FVec F S96 .f32 := broadcastInDim S96 ![] bcast_S_S96 main_cst_6
  let main_v21 : IVec S96 1 := cmpf .olt main_v19 main_v20
  let main_c_7 : IVec S_ 1 := constantI S_ 1 1#1
  let main_v22 : IVec S_ 1 := (fun x v => Host.reduce IntOp.andi x v reducesTo_S96_S_d0 h_S_) main_v21 main_c_7
  let main_v23 : IVec S_ 1 := andi main_v18 main_v22
  let main_v24 : FVec F S96x64 .f32 := Host.absf main_arg6
  let main_cst_8 : FVec F S_ .f32 := constant S_ .f32 0x7F800000#32
  let main_v25 : FVec F S96x64 .f32 := broadcastInDim S96x64 ![] bcast_S_S96x64 main_cst_8
  let main_v26 : IVec S96x64 1 := cmpf .olt main_v24 main_v25
  let main_c_9 : IVec S_ 1 := constantI S_ 1 1#1
  let main_v27 : IVec S_ 1 := (fun x v => Host.reduce IntOp.andi x v reducesTo_S96x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x256 .f32) (main_arg1 : IVec S2x800000 32) (main_arg2 : FVec F S256x96 .f32) (main_arg3 : FVec F S96 .f32) (main_arg4 : FVec F S96 .f32) (main_arg5 : FVec F S96 .f32) (main_arg6 : FVec F S96x64 .f32) (main_arg7 : FVec F S64 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x96 .f32 := Host.absf main_arg2
  let main_cst_0 : FVec F S_ .f32 := constant S_ .f32 0x7F800000#32
  let main_v5 : FVec F S256x96 .f32 := broadcastInDim S256x96 ![] bcast_S_S256x96 main_cst_0
  let main_v6 : IVec S256x96 1 := cmpf .olt main_v4 main_v5
  let main_c_1 : IVec S_ 1 := constantI S_ 1 1#1
  let main_v7 : IVec S_ 1 := (fun x v => Host.reduce IntOp.andi x v reducesTo_S256x96_S_d0_1 h_S_) main_v6 main_c_1
  let main_v8 : IVec S_ 1 := andi main_v3 main_v7
  let main_v9 : FVec F S96 .f32 := Host.absf main_arg3
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  let main_v14 : FVec F S96 .f32 := Host.absf main_arg4
  let main_cst_4 : FVec F S_ .f32 := constant S_ .f32 0x7F800000#32
  let main_v15 : FVec F S96 .f32 := broadcastInDim S96 ![] bcast_S_S96 main_cst_4
  let main_v16 : IVec S96 1 := cmpf .olt main_v14 main_v15
  fn_part1 (F := F) main_arg5 main_arg6 main_arg7 main_v13 main_v16
-- ==== Kernel.lean ====
abbrev S50000x256 : Shape := ⟨2, ![50000, 256]⟩
abbrev S2x800000 : Shape := ⟨2, ![2, 800000]⟩
abbrev S256x96 : Shape := ⟨2, ![256, 96]⟩
abbrev S96 : Shape := ⟨1, ![96]⟩
abbrev S96x64 : Shape := ⟨2, ![96, 64]⟩
abbrev S64 : Shape := ⟨1, ![64]⟩
abbrev S1x800000 : Shape := ⟨2, ![1, 800000]⟩
abbrev S800000 : Shape := ⟨1, ![800000]⟩
abbrev S50000x96 : Shape := ⟨2, ![50000, 96]⟩
abbrev S2000x256 : Shape := ⟨2, ![2000, 256]⟩
abbrev S2000x96 : Shape := ⟨2, ![2000, 96]⟩
abbrev S1x96 : Shape := ⟨2, ![1, 96]⟩
abbrev S_ : Shape := ⟨0, ![]⟩
abbrev S50000 : Shape := ⟨1, ![50000]⟩
abbrev S50000x1 : Shape := ⟨2, ![50000, 1]⟩
abbrev S800000x1 : Shape := ⟨2, ![800000, 1]⟩
abbrev S800768 : Shape := ⟨1, ![800768]⟩
abbrev S6256x128 : Shape := ⟨2, ![6256, 128]⟩
abbrev S3128x128 : Shape := ⟨2, ![3128, 128]⟩
abbrev S800000x96 : Shape := ⟨2, ![800000, 96]⟩
abbrev S2000x1 : Shape := ⟨2, ![2000, 1]⟩
abbrev S50000x64 : Shape := ⟨2, ![50000, 64]⟩
abbrev S2000x64 : Shape := ⟨2, ![2000, 64]⟩
abbrev S1x64 : Shape := ⟨2, ![1, 64]⟩

abbrev nBuf : Space → Nat
  | .hbm => 529
  | .vmem => 132
  | .smem => 0
  | _ => 0

abbrev hbmTy0_0 (i : Nat) : BufTy := match i % 128 with
  | 0 => ⟨S50000x256, .f32⟩
  | 1 => ⟨S2x800000, .i32⟩
  | 2 => ⟨S256x96, .f32⟩
  | 3 => ⟨S96, .f32⟩
  | 4 => ⟨S96, .f32⟩
  | 5 => ⟨S96, .f32⟩
  | 6 => ⟨S96x64, .f32⟩
  | 7 => ⟨S64, .f32⟩
  | 8 => ⟨S1x800000, .i32⟩
  | 9 => ⟨S800000, .i32⟩
  | 10 => ⟨S1x800000, .i32⟩
  | 11 => ⟨S800000, .i32⟩
  | 12 => ⟨S50000x96, .f32⟩
  | 13 => ⟨S1x96, .f32⟩
  | 14 => ⟨S50000x96, .f32⟩
  | 15 => ⟨S50000x96, .f32⟩
  | 16 => ⟨S_, .f32⟩
  | 17 => ⟨S50000, .f32⟩
  | 18 => ⟨S50000x1, .f32⟩
  | 19 => ⟨S1x96, .f32⟩
  | 20 => ⟨S50000x96, .f32⟩
  | 21 => ⟨S50000x96, .f32⟩
  | 22 => ⟨S_, .f32⟩
  | 23 => ⟨S50000, .f32⟩
  | 24 => ⟨S50000x1, .f32⟩
  | 25 => ⟨S50000x1, .f32⟩
  | 26 => ⟨S_, .f32⟩
  | 27 => ⟨S50000x1, .f32⟩
  | 28 => ⟨S50000x1, .i1⟩
  | 29 => ⟨S_, .f32⟩
  | 30 => ⟨S50000x1, .f32⟩
  | 31 => ⟨S50000x1, .f32⟩
  | 32 => ⟨S50000x1, .f32⟩
  | 33 => ⟨S50000x1, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000x1, .f32⟩
  | 43 => ⟨S800000, .f32⟩
  | 44 => ⟨S_, .i32⟩
  | 45 => ⟨S_, .f32⟩
  | 46 => ⟨S800768, .f32⟩
  | 47 => ⟨S6256x128, .f32⟩
  | 48 => ⟨S1x96, .f32⟩
  | 49 => ⟨S50000x96, .f32⟩
  | 50 => ⟨S50000x96, .f32⟩
  | 51 => ⟨S_, .f32⟩
  | 52 => ⟨S50000, .f32⟩
  | 53 => ⟨S50000x1, .f32⟩
  | 54 => ⟨S_, .i32⟩
  | 55 => ⟨S800000, .i32⟩
  | 56 => ⟨S800000, .i1⟩
  | 57 => ⟨S_, .i32⟩
  | 58 => ⟨S800000, .i32⟩
  | 59 => ⟨S800000, .i32⟩
  | 60 => ⟨S800000, .i32⟩
  | 61 => ⟨S800000x1, .i32⟩
  | 62 => ⟨S800000x1, .f32⟩
  | 63 => ⟨S800000, .f32⟩
  | 64 => ⟨S_, .i32⟩
  | 65 => ⟨S_, .f32⟩
  | 66 => ⟨S800768, .f32⟩
  | 67 => ⟨S6256x128, .f32⟩
  | 68 => ⟨S6256x128, .f32⟩
  | 69 => ⟨S800768, .f32⟩
  | 70 => ⟨S800000, .f32⟩
  | 71 => ⟨S800000x1, .f32⟩
  | 72 => ⟨S_, .f32⟩
  | 73 => ⟨S50000x1, .f32⟩
  | 74 => ⟨S800000x1, .i32⟩
  | 75 => ⟨S50000x1, .f32⟩
  | 76 => ⟨S50000x1, .f32⟩
  | 77 => ⟨S_, .i32⟩
  | 78 => ⟨S800000, .i32⟩
  | 79 => ⟨S800000, .i1⟩
  | 80 => ⟨S_, .i32⟩
  | 81 => ⟨S800000, .i32⟩
  | 82 => ⟨S800000, .i32⟩
  | 83 => ⟨S800000, .i32⟩
  | 84 => ⟨S800000x1, .i32⟩
  | 85 => ⟨S800000x96, .f32⟩
  | 86 => ⟨S800000x96, .f32⟩
  | 87 => ⟨S800000x96, .f32⟩
  | 88 => ⟨S_, .f32⟩
  | 89 => ⟨S50000x96, .f32⟩
  | 90 => ⟨S800000x1, .i32⟩
  | 91 => ⟨S50000x96, .f32⟩
  | 92 => ⟨S50000x96, .f32⟩
  | 93 => ⟨S50000x96, .f32⟩
  | 94 => ⟨S50000x96, .f32⟩
  | 95 => ⟨S50000x96, .f32⟩
  | 96 => ⟨S1x96, .f32⟩
  | 97 => ⟨S50000x96, .f32⟩
  | 98 => ⟨S50000x96, .f32⟩
  | 99 => ⟨S_, .f32⟩
  | 100 => ⟨S50000, .f32⟩
  | 101 => ⟨S50000x1, .f32⟩
  | 102 => ⟨S_, .i32⟩
  | 103 => ⟨S800000, .i32⟩
  | 104 => ⟨S800000, .i1⟩
  | 105 => ⟨S_, .i32⟩
  | 106 => ⟨S800000, .i32⟩
  | 107 => ⟨S800000, .i32⟩
  | 108 => ⟨S800000, .i32⟩
  | 109 => ⟨S800000x1, .i32⟩
  | 110 => ⟨S800000x1, .f32⟩
  | 111 => ⟨S800000, .f32⟩
  | 112 => ⟨S_, .i32⟩
  | 113 => ⟨S_, .f32⟩
  | 114 => ⟨S800768, .f32⟩
  | 115 => ⟨S6256x128, .f32⟩
  | 116 => ⟨S6256x128, .f32⟩
  | 117 => ⟨S800768, .f32⟩
  | 118 => ⟨S800000, .f32⟩
  | 119 => ⟨S800000x1, .f32⟩
  | 120 => ⟨S_, .f32⟩
  | 121 => ⟨S50000x1, .f32⟩
  | 122 => ⟨S800000x1, .i32⟩
  | 123 => ⟨S50000x1, .f32⟩
  | 124 => ⟨S50000x1, .f32⟩
  | 125 => ⟨S_, .i32⟩
  | 126 => ⟨S800000, .i32⟩
  | 127 => ⟨S800000, .i1⟩
  | _ => ⟨S50000x256, .f32⟩

abbrev hbmTy0_1 (i : Nat) : BufTy := match i % 128 with
  | 0 => ⟨S_, .i32⟩
  | 1 => ⟨S800000, .i32⟩
  | 2 => ⟨S800000, .i32⟩
  | 3 => ⟨S800000, .i32⟩
  | 4 => ⟨S800000x1, .i32⟩
  | 5 => ⟨S800000x96, .f32⟩
  | 6 => ⟨S800000x96, .f32⟩
  | 7 => ⟨S800000x96, .f32⟩
  | 8 => ⟨S_, .f32⟩
  | 9 => ⟨S50000x96, .f32⟩
  | 10 => ⟨S800000x1, .i32⟩
  | 11 => ⟨S50000x96, .f32⟩
  | 12 => ⟨S50000x96, .f32⟩
  | 13 => ⟨S50000x96, .f32⟩
  | 14 => ⟨S50000x96, .f32⟩
  | 15 => ⟨S50000x96, .f32⟩
  | 16 => ⟨S1x96, .f32⟩
  | 17 => ⟨S50000x96, .f32⟩
  | 18 => ⟨S50000x96, .f32⟩
  | 19 => ⟨S_, .f32⟩
  | 20 => ⟨S50000, .f32⟩
  | 21 => ⟨S50000x1, .f32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000x1, .f32⟩
  | 31 => ⟨S800000, .f32⟩
  | 32 => ⟨S_, .i32⟩
  | 33 => ⟨S_, .f32⟩
  | 34 => ⟨S800768, .f32⟩
  | 35 => ⟨S6256x128, .f32⟩
  | 36 => ⟨S6256x128, .f32⟩
  | 37 => ⟨S800768, .f32⟩
  | 38 => ⟨S800000, .f32⟩
  | 39 => ⟨S800000x1, .f32⟩
  | 40 => ⟨S_, .f32⟩
  | 41 => ⟨S50000x1, .f32⟩
  | 42 => ⟨S800000x1, .i32⟩
  | 43 => ⟨S50000x1, .f32⟩
  | 44 => ⟨S50000x1, .f32⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S800000x96, .f32⟩
  | 54 => ⟨S800000x96, .f32⟩
  | 55 => ⟨S800000x96, .f32⟩
  | 56 => ⟨S_, .f32⟩
  | 57 => ⟨S50000x96, .f32⟩
  | 58 => ⟨S800000x1, .i32⟩
  | 59 => ⟨S50000x96, .f32⟩
  | 60 => ⟨S50000x96, .f32⟩
  | 61 => ⟨S50000x96, .f32⟩
  | 62 => ⟨S50000x96, .f32⟩
  | 63 => ⟨S50000x96, .f32⟩
  | 64 => ⟨S1x96, .f32⟩
  | 65 => ⟨S50000x96, .f32⟩
  | 66 => ⟨S50000x96, .f32⟩
  | 67 => ⟨S_, .f32⟩
  | 68 => ⟨S50000, .f32⟩
  | 69 => ⟨S50000x1, .f32⟩
  | 70 => ⟨S_, .i32⟩
  | 71 => ⟨S800000, .i32⟩
  | 72 => ⟨S800000, .i1⟩
  | 73 => ⟨S_, .i32⟩
  | 74 => ⟨S800000, .i32⟩
  | 75 => ⟨S800000, .i32⟩
  | 76 => ⟨S800000, .i32⟩
  | 77 => ⟨S800000x1, .i32⟩
  | 78 => ⟨S800000x1, .f32⟩
  | 79 => ⟨S800000, .f32⟩
  | 80 => ⟨S_, .i32⟩
  | 81 => ⟨S_, .f32⟩
  | 82 => ⟨S800768, .f32⟩
  | 83 => ⟨S6256x128, .f32⟩
  | 84 => ⟨S6256x128, .f32⟩
  | 85 => ⟨S800768, .f32⟩
  | 86 => ⟨S800000, .f32⟩
  | 87 => ⟨S800000x1, .f32⟩
  | 88 => ⟨S_, .f32⟩
  | 89 => ⟨S50000x1, .f32⟩
  | 90 => ⟨S800000x1, .i32⟩
  | 91 => ⟨S50000x1, .f32⟩
  | 92 => ⟨S50000x1, .f32⟩
  | 93 => ⟨S_, .i32⟩
  | 94 => ⟨S800000, .i32⟩
  | 95 => ⟨S800000, .i1⟩
  | 96 => ⟨S_, .i32⟩
  | 97 => ⟨S800000, .i32⟩
  | 98 => ⟨S800000, .i32⟩
  | 99 => ⟨S800000, .i32⟩
  | 100 => ⟨S800000x1, .i32⟩
  | 101 => ⟨S800000x96, .f32⟩
  | 102 => ⟨S800000x96, .f32⟩
  | 103 => ⟨S800000x96, .f32⟩
  | 104 => ⟨S_, .f32⟩
  | 105 => ⟨S50000x96, .f32⟩
  | 106 => ⟨S800000x1, .i32⟩
  | 107 => ⟨S50000x96, .f32⟩
  | 108 => ⟨S50000x96, .f32⟩
  | 109 => ⟨S50000x96, .f32⟩
  | 110 => ⟨S50000x96, .f32⟩
  | 111 => ⟨S50000x96, .f32⟩
  | 112 => ⟨S1x96, .f32⟩
  | 113 => ⟨S50000x96, .f32⟩
  | 114 => ⟨S50000x96, .f32⟩
  | 115 => ⟨S_, .f32⟩
  | 116 => ⟨S50000, .f32⟩
  | 117 => ⟨S50000x1, .f32⟩
  | 118 => ⟨S_, .i32⟩
  | 119 => ⟨S800000, .i32⟩
  | 120 => ⟨S800000, .i1⟩
  | 121 => ⟨S_, .i32⟩
  | 122 => ⟨S800000, .i32⟩
  | 123 => ⟨S800000, .i32⟩
  | 124 => ⟨S800000, .i32⟩
  | 125 => ⟨S800000x1, .i32⟩
  | 126 => ⟨S800000x1, .f32⟩
  | 127 => ⟨S800000, .f32⟩
  | _ => ⟨S50000x256, .f32⟩

abbrev hbmTy0_2 (i : Nat) : BufTy := match i % 128 with
  | 0 => ⟨S_, .i32⟩
  | 1 => ⟨S_, .f32⟩
  | 2 => ⟨S800768, .f32⟩
  | 3 => ⟨S6256x128, .f32⟩
  | 4 => ⟨S6256x128, .f32⟩
  | 5 => ⟨S800768, .f32⟩
  | 6 => ⟨S800000, .f32⟩
  | 7 => ⟨S800000x1, .f32⟩
  | 8 => ⟨S_, .f32⟩
  | 9 => ⟨S50000x1, .f32⟩
  | 10 => ⟨S800000x1, .i32⟩
  | 11 => ⟨S50000x1, .f32⟩
  | 12 => ⟨S50000x1, .f32⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S800000x1, .i32⟩
  | 21 => ⟨S800000x96, .f32⟩
  | 22 => ⟨S800000x96, .f32⟩
  | 23 => ⟨S800000x96, .f32⟩
  | 24 => ⟨S_, .f32⟩
  | 25 => ⟨S50000x96, .f32⟩
  | 26 => ⟨S800000x1, .i32⟩
  | 27 => ⟨S50000x96, .f32⟩
  | 28 => ⟨S50000x96, .f32⟩
  | 29 => ⟨S50000x96, .f32⟩
  | 30 => ⟨S50000x96, .f32⟩
  | 31 => ⟨S50000x96, .f32⟩
  | 32 => ⟨S1x96, .f32⟩
  | 33 => ⟨S50000x96, .f32⟩
  | 34 => ⟨S50000x96, .f32⟩
  | 35 => ⟨S_, .f32⟩
  | 36 => ⟨S50000, .f32⟩
  | 37 => ⟨S50000x1, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000x1, .f32⟩
  | 47 => ⟨S800000, .f32⟩
  | 48 => ⟨S_, .i32⟩
  | 49 => ⟨S_, .f32⟩
  | 50 => ⟨S800768, .f32⟩
  | 51 => ⟨S6256x128, .f32⟩
  | 52 => ⟨S6256x128, .f32⟩
  | 53 => ⟨S800768, .f32⟩
  | 54 => ⟨S800000, .f32⟩
  | 55 => ⟨S800000x1, .f32⟩
  | 56 => ⟨S_, .f32⟩
  | 57 => ⟨S50000x1, .f32⟩
  | 58 => ⟨S800000x1, .i32⟩
  | 59 => ⟨S50000x1, .f32⟩
  | 60 => ⟨S50000x1, .f32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S800000x96, .f32⟩
  | 70 => ⟨S800000x96, .f32⟩
  | 71 => ⟨S800000x96, .f32⟩
  | 72 => ⟨S_, .f32⟩
  | 73 => ⟨S50000x96, .f32⟩
  | 74 => ⟨S800000x1, .i32⟩
  | 75 => ⟨S50000x96, .f32⟩
  | 76 => ⟨S50000x96, .f32⟩
  | 77 => ⟨S50000x96, .f32⟩
  | 78 => ⟨S50000x96, .f32⟩
  | 79 => ⟨S50000x96, .f32⟩
  | 80 => ⟨S1x96, .f32⟩
  | 81 => ⟨S50000x96, .f32⟩
  | 82 => ⟨S50000x96, .f32⟩
  | 83 => ⟨S_, .f32⟩
  | 84 => ⟨S50000, .f32⟩
  | 85 => ⟨S50000x1, .f32⟩
  | 86 => ⟨S_, .i32⟩
  | 87 => ⟨S800000, .i32⟩
  | 88 => ⟨S800000, .i1⟩
  | 89 => ⟨S_, .i32⟩
  | 90 => ⟨S800000, .i32⟩
  | 91 => ⟨S800000, .i32⟩
  | 92 => ⟨S800000, .i32⟩
  | 93 => ⟨S800000x1, .i32⟩
  | 94 => ⟨S800000x1, .f32⟩
  | 95 => ⟨S800000, .f32⟩
  | 96 => ⟨S_, .i32⟩
  | 97 => ⟨S_, .f32⟩
  | 98 => ⟨S800768, .f32⟩
  | 99 => ⟨S6256x128, .f32⟩
  | 100 => ⟨S6256x128, .f32⟩
  | 101 => ⟨S800768, .f32⟩
  | 102 => ⟨S800000, .f32⟩
  | 103 => ⟨S800000x1, .f32⟩
  | 104 => ⟨S_, .f32⟩
  | 105 => ⟨S50000x1, .f32⟩
  | 106 => ⟨S800000x1, .i32⟩
  | 107 => ⟨S50000x1, .f32⟩
  | 108 => ⟨S50000x1, .f32⟩
  | 109 => ⟨S_, .i32⟩
  | 110 => ⟨S800000, .i32⟩
  | 111 => ⟨S800000, .i1⟩
  | 112 => ⟨S_, .i32⟩
  | 113 => ⟨S800000, .i32⟩
  | 114 => ⟨S800000, .i32⟩
  | 115 => ⟨S800000, .i32⟩
  | 116 => ⟨S800000x1, .i32⟩
  | 117 => ⟨S800000x96, .f32⟩
  | 118 => ⟨S800000x96, .f32⟩
  | 119 => ⟨S800000x96, .f32⟩
  | 120 => ⟨S_, .f32⟩
  | 121 => ⟨S50000x96, .f32⟩
  | 122 => ⟨S800000x1, .i32⟩
  | 123 => ⟨S50000x96, .f32⟩
  | 124 => ⟨S50000x96, .f32⟩
  | 125 => ⟨S50000x96, .f32⟩
  | 126 => ⟨S50000x96, .f32⟩
  | 127 => ⟨S50000x96, .f32⟩
  | _ => ⟨S50000x256, .f32⟩

abbrev hbmTy0_3 (i : Nat) : BufTy := match i % 128 with
  | 0 => ⟨S1x96, .f32⟩
  | 1 => ⟨S50000x96, .f32⟩
  | 2 => ⟨S50000x96, .f32⟩
  | 3 => ⟨S_, .f32⟩
  | 4 => ⟨S50000, .f32⟩
  | 5 => ⟨S50000x1, .f32⟩
  | 6 => ⟨S_, .i32⟩
  | 7 => ⟨S800000, .i32⟩
  | 8 => ⟨S800000, .i1⟩
  | 9 => ⟨S_, .i32⟩
  | 10 => ⟨S800000, .i32⟩
  | 11 => ⟨S800000, .i32⟩
  | 12 => ⟨S800000, .i32⟩
  | 13 => ⟨S800000x1, .i32⟩
  | 14 => ⟨S800000x1, .f32⟩
  | 15 => ⟨S800000, .f32⟩
  | 16 => ⟨S_, .i32⟩
  | 17 => ⟨S_, .f32⟩
  | 18 => ⟨S800768, .f32⟩
  | 19 => ⟨S6256x128, .f32⟩
  | 20 => ⟨S6256x128, .f32⟩
  | 21 => ⟨S800768, .f32⟩
  | 22 => ⟨S800000, .f32⟩
  | 23 => ⟨S800000x1, .f32⟩
  | 24 => ⟨S_, .f32⟩
  | 25 => ⟨S50000x1, .f32⟩
  | 26 => ⟨S800000x1, .i32⟩
  | 27 => ⟨S50000x1, .f32⟩
  | 28 => ⟨S50000x1, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000x96, .f32⟩
  | 38 => ⟨S800000x96, .f32⟩
  | 39 => ⟨S800000x96, .f32⟩
  | 40 => ⟨S_, .f32⟩
  | 41 => ⟨S50000x96, .f32⟩
  | 42 => ⟨S800000x1, .i32⟩
  | 43 => ⟨S50000x96, .f32⟩
  | 44 => ⟨S50000x96, .f32⟩
  | 45 => ⟨S50000x96, .f32⟩
  | 46 => ⟨S50000x96, .f32⟩
  | 47 => ⟨S50000x96, .f32⟩
  | 48 => ⟨S1x96, .f32⟩
  | 49 => ⟨S50000x96, .f32⟩
  | 50 => ⟨S50000x96, .f32⟩
  | 51 => ⟨S_, .f32⟩
  | 52 => ⟨S50000, .f32⟩
  | 53 => ⟨S50000x1, .f32⟩
  | 54 => ⟨S_, .i32⟩
  | 55 => ⟨S800000, .i32⟩
  | 56 => ⟨S800000, .i1⟩
  | 57 => ⟨S_, .i32⟩
  | 58 => ⟨S800000, .i32⟩
  | 59 => ⟨S800000, .i32⟩
  | 60 => ⟨S800000, .i32⟩
  | 61 => ⟨S800000x1, .i32⟩
  | 62 => ⟨S800000x1, .f32⟩
  | 63 => ⟨S800000, .f32⟩
  | 64 => ⟨S_, .i32⟩
  | 65 => ⟨S_, .f32⟩
  | 66 => ⟨S800768, .f32⟩
  | 67 => ⟨S6256x128, .f32⟩
  | 68 => ⟨S6256x128, .f32⟩
  | 69 => ⟨S800768, .f32⟩
  | 70 => ⟨S800000, .f32⟩
  | 71 => ⟨S800000x1, .f32⟩
  | 72 => ⟨S_, .f32⟩
  | 73 => ⟨S50000x1, .f32⟩
  | 74 => ⟨S800000x1, .i32⟩
  | 75 => ⟨S50000x1, .f32⟩
  | 76 => ⟨S50000x1, .f32⟩
  | 77 => ⟨S_, .i32⟩
  | 78 => ⟨S800000, .i32⟩
  | 79 => ⟨S800000, .i1⟩
  | 80 => ⟨S_, .i32⟩
  | 81 => ⟨S800000, .i32⟩
  | 82 => ⟨S800000, .i32⟩
  | 83 => ⟨S800000, .i32⟩
  | 84 => ⟨S800000x1, .i32⟩
  | 85 => ⟨S800000x96, .f32⟩
  | 86 => ⟨S800000x96, .f32⟩
  | 87 => ⟨S800000x96, .f32⟩
  | 88 => ⟨S_, .f32⟩
  | 89 => ⟨S50000x96, .f32⟩
  | 90 => ⟨S800000x1, .i32⟩
  | 91 => ⟨S50000x96, .f32⟩
  | 92 => ⟨S50000x96, .f32⟩
  | 93 => ⟨S50000x96, .f32⟩
  | 94 => ⟨S50000x96, .f32⟩
  | 95 => ⟨S50000x96, .f32⟩
  | 96 => ⟨S1x96, .f32⟩
  | 97 => ⟨S50000x96, .f32⟩
  | 98 => ⟨S50000x96, .f32⟩
  | 99 => ⟨S_, .f32⟩
  | 100 => ⟨S50000, .f32⟩
  | 101 => ⟨S50000x1, .f32⟩
  | 102 => ⟨S_, .i32⟩
  | 103 => ⟨S800000, .i32⟩
  | 104 => ⟨S800000, .i1⟩
  | 105 => ⟨S_, .i32⟩
  | 106 => ⟨S800000, .i32⟩
  | 107 => ⟨S800000, .i32⟩
  | 108 => ⟨S800000, .i32⟩
  | 109 => ⟨S800000x1, .i32⟩
  | 110 => ⟨S800000x1, .f32⟩
  | 111 => ⟨S800000, .f32⟩
  | 112 => ⟨S_, .i32⟩
  | 113 => ⟨S_, .f32⟩
  | 114 => ⟨S800768, .f32⟩
  | 115 => ⟨S6256x128, .f32⟩
  | 116 => ⟨S6256x128, .f32⟩
  | 117 => ⟨S800768, .f32⟩
  | 118 => ⟨S800000, .f32⟩
  | 119 => ⟨S800000x1, .f32⟩
  | 120 => ⟨S_, .f32⟩
  | 121 => ⟨S50000x1, .f32⟩
  | 122 => ⟨S800000x1, .i32⟩
  | 123 => ⟨S50000x1, .f32⟩
  | 124 => ⟨S50000x1, .f32⟩
  | 125 => ⟨S_, .i32⟩
  | 126 => ⟨S800000, .i32⟩
  | 127 => ⟨S800000, .i1⟩
  | _ => ⟨S50000x256, .f32⟩

abbrev hbmTy0_4 (i : Nat) : BufTy := match i % 128 with
  | 0 => ⟨S_, .i32⟩
  | 1 => ⟨S800000, .i32⟩
  | 2 => ⟨S800000, .i32⟩
  | 3 => ⟨S800000, .i32⟩
  | 4 => ⟨S800000x1, .i32⟩
  | 5 => ⟨S800000x96, .f32⟩
  | 6 => ⟨S800000x96, .f32⟩
  | 7 => ⟨S800000x96, .f32⟩
  | 8 => ⟨S_, .f32⟩
  | 9 => ⟨S50000x96, .f32⟩
  | 10 => ⟨S800000x1, .i32⟩
  | 11 => ⟨S50000x96, .f32⟩
  | 12 => ⟨S50000x96, .f32⟩
  | 13 => ⟨S50000x96, .f32⟩
  | 14 => ⟨S50000x96, .f32⟩
  | 15 => ⟨S50000x96, .f32⟩
  | 16 => ⟨S50000x64, .f32⟩
  | _ => ⟨S50000x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S50000x256, .f32⟩

abbrev vmemTy0_0 (i : Nat) : BufTy := match i % 128 with
  | 0 => ⟨S2000x256, .f32⟩
  | 1 => ⟨S2000x256, .f32⟩
  | 2 => ⟨S256x96, .f32⟩
  | 3 => ⟨S96, .f32⟩
  | 4 => ⟨S2000x96, .f32⟩
  | 5 => ⟨S2000x96, .f32⟩
  | 6 => ⟨S3128x128, .f32⟩
  | 7 => ⟨S3128x128, .f32⟩
  | 8 => ⟨S3128x128, .f32⟩
  | 9 => ⟨S3128x128, .f32⟩
  | 10 => ⟨S3128x128, .f32⟩
  | 11 => ⟨S3128x128, .f32⟩
  | 12 => ⟨S2000x96, .f32⟩
  | 13 => ⟨S2000x96, .f32⟩
  | 14 => ⟨S2000x1, .f32⟩
  | 15 => ⟨S2000x1, .f32⟩
  | 16 => ⟨S2000x96, .f32⟩
  | 17 => ⟨S2000x96, .f32⟩
  | 18 => ⟨S3128x128, .f32⟩
  | 19 => ⟨S3128x128, .f32⟩
  | 20 => ⟨S3128x128, .f32⟩
  | 21 => ⟨S3128x128, .f32⟩
  | 22 => ⟨S3128x128, .f32⟩
  | 23 => ⟨S3128x128, .f32⟩
  | 24 => ⟨S2000x96, .f32⟩
  | 25 => ⟨S2000x96, .f32⟩
  | 26 => ⟨S2000x1, .f32⟩
  | 27 => ⟨S2000x1, .f32⟩
  | 28 => ⟨S2000x96, .f32⟩
  | 29 => ⟨S2000x96, .f32⟩
  | 30 => ⟨S3128x128, .f32⟩
  | 31 => ⟨S3128x128, .f32⟩
  | 32 => ⟨S3128x128, .f32⟩
  | 33 => ⟨S3128x128, .f32⟩
  | 34 => ⟨S3128x128, .f32⟩
  | 35 => ⟨S3128x128, .f32⟩
  | 36 => ⟨S2000x96, .f32⟩
  | 37 => ⟨S2000x96, .f32⟩
  | 38 => ⟨S2000x1, .f32⟩
  | 39 => ⟨S2000x1, .f32⟩
  | 40 => ⟨S2000x96, .f32⟩
  | 41 => ⟨S2000x96, .f32⟩
  | 42 => ⟨S3128x128, .f32⟩
  | 43 => ⟨S3128x128, .f32⟩
  | 44 => ⟨S3128x128, .f32⟩
  | 45 => ⟨S3128x128, .f32⟩
  | 46 => ⟨S3128x128, .f32⟩
  | 47 => ⟨S3128x128, .f32⟩
  | 48 => ⟨S2000x96, .f32⟩
  | 49 => ⟨S2000x96, .f32⟩
  | 50 => ⟨S2000x1, .f32⟩
  | 51 => ⟨S2000x1, .f32⟩
  | 52 => ⟨S2000x96, .f32⟩
  | 53 => ⟨S2000x96, .f32⟩
  | 54 => ⟨S3128x128, .f32⟩
  | 55 => ⟨S3128x128, .f32⟩
  | 56 => ⟨S3128x128, .f32⟩
  | 57 => ⟨S3128x128, .f32⟩
  | 58 => ⟨S3128x128, .f32⟩
  | 59 => ⟨S3128x128, .f32⟩
  | 60 => ⟨S2000x96, .f32⟩
  | 61 => ⟨S2000x96, .f32⟩
  | 62 => ⟨S2000x1, .f32⟩
  | 63 => ⟨S2000x1, .f32⟩
  | 64 => ⟨S2000x96, .f32⟩
  | 65 => ⟨S2000x96, .f32⟩
  | 66 => ⟨S3128x128, .f32⟩
  | 67 => ⟨S3128x128, .f32⟩
  | 68 => ⟨S3128x128, .f32⟩
  | 69 => ⟨S3128x128, .f32⟩
  | 70 => ⟨S3128x128, .f32⟩
  | 71 => ⟨S3128x128, .f32⟩
  | 72 => ⟨S2000x96, .f32⟩
  | 73 => ⟨S2000x96, .f32⟩
  | 74 => ⟨S2000x1, .f32⟩
  | 75 => ⟨S2000x1, .f32⟩
  | 76 => ⟨S2000x96, .f32⟩
  | 77 => ⟨S2000x96, .f32⟩
  | 78 => ⟨S3128x128, .f32⟩
  | 79 => ⟨S3128x128, .f32⟩
  | 80 => ⟨S3128x128, .f32⟩
  | 81 => ⟨S3128x128, .f32⟩
  | 82 => ⟨S3128x128, .f32⟩
  | 83 => ⟨S3128x128, .f32⟩
  | 84 => ⟨S2000x96, .f32⟩
  | 85 => ⟨S2000x96, .f32⟩
  | 86 => ⟨S2000x1, .f32⟩
  | 87 => ⟨S2000x1, .f32⟩
  | 88 => ⟨S2000x96, .f32⟩
  | 89 => ⟨S2000x96, .f32⟩
  | 90 => ⟨S3128x128, .f32⟩
  | 91 => ⟨S3128x128, .f32⟩
  | 92 => ⟨S3128x128, .f32⟩
  | 93 => ⟨S3128x128, .f32⟩
  | 94 => ⟨S3128x128, .f32⟩
  | 95 => ⟨S3128x128, .f32⟩
  | 96 => ⟨S2000x96, .f32⟩
  | 97 => ⟨S2000x96, .f32⟩
  | 98 => ⟨S2000x1, .f32⟩
  | 99 => ⟨S2000x1, .f32⟩
  | 100 => ⟨S2000x96, .f32⟩
  | 101 => ⟨S2000x96, .f32⟩
  | 102 => ⟨S3128x128, .f32⟩
  | 103 => ⟨S3128x128, .f32⟩
  | 104 => ⟨S3128x128, .f32⟩
  | 105 => ⟨S3128x128, .f32⟩
  | 106 => ⟨S3128x128, .f32⟩
  | 107 => ⟨S3128x128, .f32⟩
  | 108 => ⟨S2000x96, .f32⟩
  | 109 => ⟨S2000x96, .f32⟩
  | 110 => ⟨S2000x1, .f32⟩
  | 111 => ⟨S2000x1, .f32⟩
  | 112 => ⟨S2000x96, .f32⟩
  | 113 => ⟨S2000x96, .f32⟩
  | 114 => ⟨S3128x128, .f32⟩
  | 115 => ⟨S3128x128, .f32⟩
  | 116 => ⟨S3128x128, .f32⟩
  | 117 => ⟨S3128x128, .f32⟩
  | 118 => ⟨S3128x128, .f32⟩
  | 119 => ⟨S3128x128, .f32⟩
  | 120 => ⟨S2000x96, .f32⟩
  | 121 => ⟨S2000x96, .f32⟩
  | 122 => ⟨S2000x1, .f32⟩
  | 123 => ⟨S2000x1, .f32⟩
  | 124 => ⟨S2000x96, .f32⟩
  | 125 => ⟨S2000x96, .f32⟩
  | 126 => ⟨S2000x96, .f32⟩
  | 127 => ⟨S2000x96, .f32⟩
  | _ => ⟨S50000x256, .f32⟩

abbrev vmemTy0_1 (i : Nat) : BufTy := match i % 128 with
  | 0 => ⟨S96x64, .f32⟩
  | 1 => ⟨S64, .f32⟩
  | 2 => ⟨S2000x64, .f32⟩
  | 3 => ⟨S2000x64, .f32⟩
  | _ => ⟨S50000x256, .f32⟩

abbrev vmemTy (i : Nat) : BufTy := match i / 128 with
  | 0 => vmemTy0_0 i
  | 1 => vmemTy0_1 i
  | _ => ⟨S50000x256, .f32⟩

abbrev bufTy : (tb : Table) → Fin (tcTables nBuf tb) → BufTy
  | .hbm, ⟨i, _⟩ => hbmTy i
  | .local _ .vmem, ⟨i, _⟩ => vmemTy i
  | _, _ => ⟨S50000x256, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 132 → Bool
  | ⟨i, _⟩ => dmaSemScopedAt i

abbrev sig : RefSig :=
  ofTc nBuf bufTy 0 132 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c : Ref sig .tc := ⟨.hbm, 34, rfl⟩
abbrev main_v22 : Ref sig .tc := ⟨.hbm, 35, rfl⟩
abbrev main_v23 : Ref sig .tc := ⟨.hbm, 36, rfl⟩
abbrev main_c_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_4 : Ref sig .tc := ⟨.hbm, 44, rfl⟩
abbrev main_call1_v0 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_5 : Ref sig .tc := ⟨.hbm, 51, rfl⟩
abbrev main_v35 : Ref sig .tc := ⟨.hbm, 52, rfl⟩
abbrev main_v36 : Ref sig .tc := ⟨.hbm, 53, rfl⟩
abbrev main_c_6 : Ref sig .tc := ⟨.hbm, 54, rfl⟩
abbrev main_v37 : Ref sig .tc := ⟨.hbm, 55, rfl⟩
abbrev main_v38 : Ref sig .tc := ⟨.hbm, 56, rfl⟩
abbrev main_c_7 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_8 : Ref sig .tc := ⟨.hbm, 64, rfl⟩
abbrev main_call2_v0 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_c_10 : Ref sig .tc := ⟨.hbm, 77, rfl⟩
abbrev main_v55 : Ref sig .tc := ⟨.hbm, 78, rfl⟩
abbrev main_v56 : Ref sig .tc := ⟨.hbm, 79, rfl⟩
abbrev main_c_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_12 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_13 : Ref sig .tc := ⟨.hbm, 99, rfl⟩
abbrev main_v74 : Ref sig .tc := ⟨.hbm, 100, rfl⟩
abbrev main_v75 : Ref sig .tc := ⟨.hbm, 101, rfl⟩
abbrev main_c_14 : Ref sig .tc := ⟨.hbm, 102, rfl⟩
abbrev main_v76 : Ref sig .tc := ⟨.hbm, 103, rfl⟩
abbrev main_v77 : Ref sig .tc := ⟨.hbm, 104, rfl⟩
abbrev main_c_15 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_c_16 : Ref sig .tc := ⟨.hbm, 112, rfl⟩
abbrev main_call3_v0 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_cst_17 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_c_18 : Ref sig .tc := ⟨.hbm, 125, rfl⟩
abbrev main_v94 : Ref sig .tc := ⟨.hbm, 126, rfl⟩
abbrev main_v95 : Ref sig .tc := ⟨.hbm, 127, rfl⟩
abbrev main_c_19 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_cst_20 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_cst_21 : Ref sig .tc := ⟨.hbm, 147, rfl⟩
abbrev main_v113 : Ref sig .tc := ⟨.hbm, 148, rfl⟩
abbrev main_v114 : Ref sig .tc := ⟨.hbm, 149, rfl⟩
abbrev main_c_22 : Ref sig .tc := ⟨.hbm, 150, rfl⟩
abbrev main_v115 : Ref sig .tc := ⟨.hbm, 151, rfl⟩
abbrev main_v116 : Ref sig .tc := ⟨.hbm, 152, rfl⟩
abbrev main_c_23 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_c_24 : Ref sig .tc := ⟨.hbm, 160, rfl⟩
abbrev main_call4_v0 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_cst_25 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_c_26 : Ref sig .tc := ⟨.hbm, 173, rfl⟩
abbrev main_v133 : Ref sig .tc := ⟨.hbm, 174, rfl⟩
abbrev main_v134 : Ref sig .tc := ⟨.hbm, 175, rfl⟩
abbrev main_c_27 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_cst_28 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_cst_29 : Ref sig .tc := ⟨.hbm, 195, rfl⟩
abbrev main_v152 : Ref sig .tc := ⟨.hbm, 196, rfl⟩
abbrev main_v153 : Ref sig .tc := ⟨.hbm, 197, rfl⟩
abbrev main_c_30 : Ref sig .tc := ⟨.hbm, 198, rfl⟩
abbrev main_v154 : Ref sig .tc := ⟨.hbm, 199, rfl⟩
abbrev main_v155 : Ref sig .tc := ⟨.hbm, 200, rfl⟩
abbrev main_c_31 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_c_32 : Ref sig .tc := ⟨.hbm, 208, rfl⟩
abbrev main_call5_v0 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_cst_33 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_c_34 : Ref sig .tc := ⟨.hbm, 221, rfl⟩
abbrev main_v172 : Ref sig .tc := ⟨.hbm, 222, rfl⟩
abbrev main_v173 : Ref sig .tc := ⟨.hbm, 223, rfl⟩
abbrev main_c_35 : Ref sig .tc := ⟨.hbm, 224, rfl⟩
abbrev main_v174 : Ref sig .tc := ⟨.hbm, 225, rfl⟩
abbrev main_v175 : Ref sig .tc := ⟨.hbm, 226, rfl⟩
abbrev main_v176 : Ref sig .tc := ⟨.hbm, 227, rfl⟩
abbrev main_v177 : Ref sig .tc := ⟨.hbm, 228, rfl⟩
abbrev main_v178 : Ref sig .tc := ⟨.hbm, 229, rfl⟩
abbrev main_v179 : Ref sig .tc := ⟨.hbm, 230, rfl⟩
abbrev main_v180 : Ref sig .tc := ⟨.hbm, 231, rfl⟩
abbrev main_cst_36 : Ref sig .tc := ⟨.hbm, 232, rfl⟩
abbrev main_v181 : Ref sig .tc := ⟨.hbm, 233, rfl⟩
abbrev main_v182 : Ref sig .tc := ⟨.hbm, 234, rfl⟩
abbrev main_v183 : Ref sig .tc := ⟨.hbm, 235, rfl⟩
abbrev main_v184 : Ref sig .tc := ⟨.hbm, 236, rfl⟩
abbrev main_v185 : Ref sig .tc := ⟨.hbm, 237, rfl⟩
abbrev main_v186 : Ref sig .tc := ⟨.hbm, 238, rfl⟩
abbrev main_v187 : Ref sig .tc := ⟨.hbm, 239, rfl⟩
abbrev main_v188 : Ref sig .tc := ⟨.hbm, 240, rfl⟩
abbrev main_v189 : Ref sig .tc := ⟨.hbm, 241, rfl⟩
abbrev main_v190 : Ref sig .tc := ⟨.hbm, 242, rfl⟩
abbrev main_cst_37 : Ref sig .tc := ⟨.hbm, 243, rfl⟩
abbrev main_v191 : Ref sig .tc := ⟨.hbm, 244, rfl⟩
abbrev main_v192 : Ref sig .tc := ⟨.hbm, 245, rfl⟩
abbrev main_c_38 : Ref sig .tc := ⟨.hbm, 246, rfl⟩
abbrev main_v193 : Ref sig .tc := ⟨.hbm, 247, rfl⟩
abbrev main_v194 : Ref sig .tc := ⟨.hbm, 248, rfl⟩
abbrev main_c_39 : Ref sig .tc := ⟨.hbm, 249, rfl⟩
abbrev main_v195 : Ref sig .tc := ⟨.hbm, 250, rfl⟩
abbrev main_v196 : Ref sig .tc := ⟨.hbm, 251, rfl⟩
abbrev main_v197 : Ref sig .tc := ⟨.hbm, 252, rfl⟩
abbrev main_v198 : Ref sig .tc := ⟨.hbm, 253, rfl⟩
abbrev main_v199 : Ref sig .tc := ⟨.hbm, 254, rfl⟩
abbrev main_v200 : Ref sig .tc := ⟨.hbm, 255, rfl⟩
abbrev main_c_40 : Ref sig .tc := ⟨.hbm, 256, rfl⟩
abbrev main_call6_v0 : Ref sig .tc := ⟨.hbm, 257, rfl⟩
abbrev main_v201 : Ref sig .tc := ⟨.hbm, 258, rfl⟩
abbrev main_v202 : Ref sig .tc := ⟨.hbm, 259, rfl⟩
abbrev main_v203 : Ref sig .tc := ⟨.hbm, 260, rfl⟩
abbrev main_v204 : Ref sig .tc := ⟨.hbm, 261, rfl⟩
abbrev main_v205 : Ref sig .tc := ⟨.hbm, 262, rfl⟩
abbrev main_v206 : Ref sig .tc := ⟨.hbm, 263, rfl⟩
abbrev main_cst_41 : Ref sig .tc := ⟨.hbm, 264, rfl⟩
abbrev main_v207 : Ref sig .tc := ⟨.hbm, 265, rfl⟩
abbrev main_v208 : Ref sig .tc := ⟨.hbm, 266, rfl⟩
abbrev main_v209 : Ref sig .tc := ⟨.hbm, 267, rfl⟩
abbrev main_v210 : Ref sig .tc := ⟨.hbm, 268, rfl⟩
abbrev main_c_42 : Ref sig .tc := ⟨.hbm, 269, rfl⟩
abbrev main_v211 : Ref sig .tc := ⟨.hbm, 270, rfl⟩
abbrev main_v212 : Ref sig .tc := ⟨.hbm, 271, rfl⟩
abbrev main_c_43 : Ref sig .tc := ⟨.hbm, 272, rfl⟩
abbrev main_v213 : Ref sig .tc := ⟨.hbm, 273, rfl⟩
abbrev main_v214 : Ref sig .tc := ⟨.hbm, 274, rfl⟩
abbrev main_v215 : Ref sig .tc := ⟨.hbm, 275, rfl⟩
abbrev main_v216 : Ref sig .tc := ⟨.hbm, 276, rfl⟩
abbrev main_v217 : Ref sig .tc := ⟨.hbm, 277, rfl⟩
abbrev main_v218 : Ref sig .tc := ⟨.hbm, 278, rfl⟩
abbrev main_v219 : Ref sig .tc := ⟨.hbm, 279, rfl⟩
abbrev main_cst_44 : Ref sig .tc := ⟨.hbm, 280, rfl⟩
abbrev main_v220 : Ref sig .tc := ⟨.hbm, 281, rfl⟩
abbrev main_v221 : Ref sig .tc := ⟨.hbm, 282, rfl⟩
abbrev main_v222 : Ref sig .tc := ⟨.hbm, 283, rfl⟩
abbrev main_v223 : Ref sig .tc := ⟨.hbm, 284, rfl⟩
abbrev main_v224 : Ref sig .tc := ⟨.hbm, 285, rfl⟩
abbrev main_v225 : Ref sig .tc := ⟨.hbm, 286, rfl⟩
abbrev main_v226 : Ref sig .tc := ⟨.hbm, 287, rfl⟩
abbrev main_v227 : Ref sig .tc := ⟨.hbm, 288, rfl⟩
abbrev main_v228 : Ref sig .tc := ⟨.hbm, 289, rfl⟩
abbrev main_v229 : Ref sig .tc := ⟨.hbm, 290, rfl⟩
abbrev main_cst_45 : Ref sig .tc := ⟨.hbm, 291, rfl⟩
abbrev main_v230 : Ref sig .tc := ⟨.hbm, 292, rfl⟩
abbrev main_v231 : Ref sig .tc := ⟨.hbm, 293, rfl⟩
abbrev main_c_46 : Ref sig .tc := ⟨.hbm, 294, rfl⟩
abbrev main_v232 : Ref sig .tc := ⟨.hbm, 295, rfl⟩
abbrev main_v233 : Ref sig .tc := ⟨.hbm, 296, rfl⟩
abbrev main_c_47 : Ref sig .tc := ⟨.hbm, 297, rfl⟩
abbrev main_v234 : Ref sig .tc := ⟨.hbm, 298, rfl⟩
abbrev main_v235 : Ref sig .tc := ⟨.hbm, 299, rfl⟩
abbrev main_v236 : Ref sig .tc := ⟨.hbm, 300, rfl⟩
abbrev main_v237 : Ref sig .tc := ⟨.hbm, 301, rfl⟩
abbrev main_v238 : Ref sig .tc := ⟨.hbm, 302, rfl⟩
abbrev main_v239 : Ref sig .tc := ⟨.hbm, 303, rfl⟩
abbrev main_c_48 : Ref sig .tc := ⟨.hbm, 304, rfl⟩
abbrev main_call7_v0 : Ref sig .tc := ⟨.hbm, 305, rfl⟩
abbrev main_v240 : Ref sig .tc := ⟨.hbm, 306, rfl⟩
abbrev main_v241 : Ref sig .tc := ⟨.hbm, 307, rfl⟩
abbrev main_v242 : Ref sig .tc := ⟨.hbm, 308, rfl⟩
abbrev main_v243 : Ref sig .tc := ⟨.hbm, 309, rfl⟩
abbrev main_v244 : Ref sig .tc := ⟨.hbm, 310, rfl⟩
abbrev main_v245 : Ref sig .tc := ⟨.hbm, 311, rfl⟩
abbrev main_cst_49 : Ref sig .tc := ⟨.hbm, 312, rfl⟩
abbrev main_v246 : Ref sig .tc := ⟨.hbm, 313, rfl⟩
abbrev main_v247 : Ref sig .tc := ⟨.hbm, 314, rfl⟩
abbrev main_v248 : Ref sig .tc := ⟨.hbm, 315, rfl⟩
abbrev main_v249 : Ref sig .tc := ⟨.hbm, 316, rfl⟩
abbrev main_c_50 : Ref sig .tc := ⟨.hbm, 317, rfl⟩
abbrev main_v250 : Ref sig .tc := ⟨.hbm, 318, rfl⟩
abbrev main_v251 : Ref sig .tc := ⟨.hbm, 319, rfl⟩
abbrev main_c_51 : Ref sig .tc := ⟨.hbm, 320, rfl⟩
abbrev main_v252 : Ref sig .tc := ⟨.hbm, 321, rfl⟩
abbrev main_v253 : Ref sig .tc := ⟨.hbm, 322, rfl⟩
abbrev main_v254 : Ref sig .tc := ⟨.hbm, 323, rfl⟩
abbrev main_v255 : Ref sig .tc := ⟨.hbm, 324, rfl⟩
abbrev main_v256 : Ref sig .tc := ⟨.hbm, 325, rfl⟩
abbrev main_v257 : Ref sig .tc := ⟨.hbm, 326, rfl⟩
abbrev main_v258 : Ref sig .tc := ⟨.hbm, 327, rfl⟩
abbrev main_cst_52 : Ref sig .tc := ⟨.hbm, 328, rfl⟩
abbrev main_v259 : Ref sig .tc := ⟨.hbm, 329, rfl⟩
abbrev main_v260 : Ref sig .tc := ⟨.hbm, 330, rfl⟩
abbrev main_v261 : Ref sig .tc := ⟨.hbm, 331, rfl⟩
abbrev main_v262 : Ref sig .tc := ⟨.hbm, 332, rfl⟩
abbrev main_v263 : Ref sig .tc := ⟨.hbm, 333, rfl⟩
abbrev main_v264 : Ref sig .tc := ⟨.hbm, 334, rfl⟩
abbrev main_v265 : Ref sig .tc := ⟨.hbm, 335, rfl⟩
abbrev main_v266 : Ref sig .tc := ⟨.hbm, 336, rfl⟩
abbrev main_v267 : Ref sig .tc := ⟨.hbm, 337, rfl⟩
abbrev main_v268 : Ref sig .tc := ⟨.hbm, 338, rfl⟩
abbrev main_cst_53 : Ref sig .tc := ⟨.hbm, 339, rfl⟩
abbrev main_v269 : Ref sig .tc := ⟨.hbm, 340, rfl⟩
abbrev main_v270 : Ref sig .tc := ⟨.hbm, 341, rfl⟩
abbrev main_c_54 : Ref sig .tc := ⟨.hbm, 342, rfl⟩
abbrev main_v271 : Ref sig .tc := ⟨.hbm, 343, rfl⟩
abbrev main_v272 : Ref sig .tc := ⟨.hbm, 344, rfl⟩
abbrev main_c_55 : Ref sig .tc := ⟨.hbm, 345, rfl⟩
abbrev main_v273 : Ref sig .tc := ⟨.hbm, 346, rfl⟩
abbrev main_v274 : Ref sig .tc := ⟨.hbm, 347, rfl⟩
abbrev main_v275 : Ref sig .tc := ⟨.hbm, 348, rfl⟩
abbrev main_v276 : Ref sig .tc := ⟨.hbm, 349, rfl⟩
abbrev main_v277 : Ref sig .tc := ⟨.hbm, 350, rfl⟩
abbrev main_v278 : Ref sig .tc := ⟨.hbm, 351, rfl⟩
abbrev main_c_56 : Ref sig .tc := ⟨.hbm, 352, rfl⟩
abbrev main_call8_v0 : Ref sig .tc := ⟨.hbm, 353, rfl⟩
abbrev main_v279 : Ref sig .tc := ⟨.hbm, 354, rfl⟩
abbrev main_v280 : Ref sig .tc := ⟨.hbm, 355, rfl⟩
abbrev main_v281 : Ref sig .tc := ⟨.hbm, 356, rfl⟩
abbrev main_v282 : Ref sig .tc := ⟨.hbm, 357, rfl⟩
abbrev main_v283 : Ref sig .tc := ⟨.hbm, 358, rfl⟩
abbrev main_v284 : Ref sig .tc := ⟨.hbm, 359, rfl⟩
abbrev main_cst_57 : Ref sig .tc := ⟨.hbm, 360, rfl⟩
abbrev main_v285 : Ref sig .tc := ⟨.hbm, 361, rfl⟩
abbrev main_v286 : Ref sig .tc := ⟨.hbm, 362, rfl⟩
abbrev main_v287 : Ref sig .tc := ⟨.hbm, 363, rfl⟩
abbrev main_v288 : Ref sig .tc := ⟨.hbm, 364, rfl⟩
abbrev main_c_58 : Ref sig .tc := ⟨.hbm, 365, rfl⟩
abbrev main_v289 : Ref sig .tc := ⟨.hbm, 366, rfl⟩
abbrev main_v290 : Ref sig .tc := ⟨.hbm, 367, rfl⟩
abbrev main_c_59 : Ref sig .tc := ⟨.hbm, 368, rfl⟩
abbrev main_v291 : Ref sig .tc := ⟨.hbm, 369, rfl⟩
abbrev main_v292 : Ref sig .tc := ⟨.hbm, 370, rfl⟩
abbrev main_v293 : Ref sig .tc := ⟨.hbm, 371, rfl⟩
abbrev main_v294 : Ref sig .tc := ⟨.hbm, 372, rfl⟩
abbrev main_v295 : Ref sig .tc := ⟨.hbm, 373, rfl⟩
abbrev main_v296 : Ref sig .tc := ⟨.hbm, 374, rfl⟩
abbrev main_v297 : Ref sig .tc := ⟨.hbm, 375, rfl⟩
abbrev main_cst_60 : Ref sig .tc := ⟨.hbm, 376, rfl⟩
abbrev main_v298 : Ref sig .tc := ⟨.hbm, 377, rfl⟩
abbrev main_v299 : Ref sig .tc := ⟨.hbm, 378, rfl⟩
abbrev main_v300 : Ref sig .tc := ⟨.hbm, 379, rfl⟩
abbrev main_v301 : Ref sig .tc := ⟨.hbm, 380, rfl⟩
abbrev main_v302 : Ref sig .tc := ⟨.hbm, 381, rfl⟩
abbrev main_v303 : Ref sig .tc := ⟨.hbm, 382, rfl⟩
abbrev main_v304 : Ref sig .tc := ⟨.hbm, 383, rfl⟩
abbrev main_v305 : Ref sig .tc := ⟨.hbm, 384, rfl⟩
abbrev main_v306 : Ref sig .tc := ⟨.hbm, 385, rfl⟩
abbrev main_v307 : Ref sig .tc := ⟨.hbm, 386, rfl⟩
abbrev main_cst_61 : Ref sig .tc := ⟨.hbm, 387, rfl⟩
abbrev main_v308 : Ref sig .tc := ⟨.hbm, 388, rfl⟩
abbrev main_v309 : Ref sig .tc := ⟨.hbm, 389, rfl⟩
abbrev main_c_62 : Ref sig .tc := ⟨.hbm, 390, rfl⟩
abbrev main_v310 : Ref sig .tc := ⟨.hbm, 391, rfl⟩
abbrev main_v311 : Ref sig .tc := ⟨.hbm, 392, rfl⟩
abbrev main_c_63 : Ref sig .tc := ⟨.hbm, 393, rfl⟩
abbrev main_v312 : Ref sig .tc := ⟨.hbm, 394, rfl⟩
abbrev main_v313 : Ref sig .tc := ⟨.hbm, 395, rfl⟩
abbrev main_v314 : Ref sig .tc := ⟨.hbm, 396, rfl⟩
abbrev main_v315 : Ref sig .tc := ⟨.hbm, 397, rfl⟩
abbrev main_v316 : Ref sig .tc := ⟨.hbm, 398, rfl⟩
abbrev main_v317 : Ref sig .tc := ⟨.hbm, 399, rfl⟩
abbrev main_c_64 : Ref sig .tc := ⟨.hbm, 400, rfl⟩
abbrev main_call9_v0 : Ref sig .tc := ⟨.hbm, 401, rfl⟩
abbrev main_v318 : Ref sig .tc := ⟨.hbm, 402, rfl⟩
abbrev main_v319 : Ref sig .tc := ⟨.hbm, 403, rfl⟩
abbrev main_v320 : Ref sig .tc := ⟨.hbm, 404, rfl⟩
abbrev main_v321 : Ref sig .tc := ⟨.hbm, 405, rfl⟩
abbrev main_v322 : Ref sig .tc := ⟨.hbm, 406, rfl⟩
abbrev main_v323 : Ref sig .tc := ⟨.hbm, 407, rfl⟩
abbrev main_cst_65 : Ref sig .tc := ⟨.hbm, 408, rfl⟩
abbrev main_v324 : Ref sig .tc := ⟨.hbm, 409, rfl⟩
abbrev main_v325 : Ref sig .tc := ⟨.hbm, 410, rfl⟩
abbrev main_v326 : Ref sig .tc := ⟨.hbm, 411, rfl⟩
abbrev main_v327 : Ref sig .tc := ⟨.hbm, 412, rfl⟩
abbrev main_c_66 : Ref sig .tc := ⟨.hbm, 413, rfl⟩
abbrev main_v328 : Ref sig .tc := ⟨.hbm, 414, rfl⟩
abbrev main_v329 : Ref sig .tc := ⟨.hbm, 415, rfl⟩
abbrev main_c_67 : Ref sig .tc := ⟨.hbm, 416, rfl⟩
abbrev main_v330 : Ref sig .tc := ⟨.hbm, 417, rfl⟩
abbrev main_v331 : Ref sig .tc := ⟨.hbm, 418, rfl⟩
abbrev main_v332 : Ref sig .tc := ⟨.hbm, 419, rfl⟩
abbrev main_v333 : Ref sig .tc := ⟨.hbm, 420, rfl⟩
abbrev main_v334 : Ref sig .tc := ⟨.hbm, 421, rfl⟩
abbrev main_v335 : Ref sig .tc := ⟨.hbm, 422, rfl⟩
abbrev main_v336 : Ref sig .tc := ⟨.hbm, 423, rfl⟩
abbrev main_cst_68 : Ref sig .tc := ⟨.hbm, 424, rfl⟩
abbrev main_v337 : Ref sig .tc := ⟨.hbm, 425, rfl⟩
abbrev main_v338 : Ref sig .tc := ⟨.hbm, 426, rfl⟩
abbrev main_v339 : Ref sig .tc := ⟨.hbm, 427, rfl⟩
abbrev main_v340 : Ref sig .tc := ⟨.hbm, 428, rfl⟩
abbrev main_v341 : Ref sig .tc := ⟨.hbm, 429, rfl⟩
abbrev main_v342 : Ref sig .tc := ⟨.hbm, 430, rfl⟩
abbrev main_v343 : Ref sig .tc := ⟨.hbm, 431, rfl⟩
abbrev main_v344 : Ref sig .tc := ⟨.hbm, 432, rfl⟩
abbrev main_v345 : Ref sig .tc := ⟨.hbm, 433, rfl⟩
abbrev main_v346 : Ref sig .tc := ⟨.hbm, 434, rfl⟩
abbrev main_cst_69 : Ref sig .tc := ⟨.hbm, 435, rfl⟩
abbrev main_v347 : Ref sig .tc := ⟨.hbm, 436, rfl⟩
abbrev main_v348 : Ref sig .tc := ⟨.hbm, 437, rfl⟩
abbrev main_c_70 : Ref sig .tc := ⟨.hbm, 438, rfl⟩
abbrev main_v349 : Ref sig .tc := ⟨.hbm, 439, rfl⟩
abbrev main_v350 : Ref sig .tc := ⟨.hbm, 440, rfl⟩
abbrev main_c_71 : Ref sig .tc := ⟨.hbm, 441, rfl⟩
abbrev main_v351 : Ref sig .tc := ⟨.hbm, 442, rfl⟩
abbrev main_v352 : Ref sig .tc := ⟨.hbm, 443, rfl⟩
abbrev main_v353 : Ref sig .tc := ⟨.hbm, 444, rfl⟩
abbrev main_v354 : Ref sig .tc := ⟨.hbm, 445, rfl⟩
abbrev main_v355 : Ref sig .tc := ⟨.hbm, 446, rfl⟩
abbrev main_v356 : Ref sig .tc := ⟨.hbm, 447, rfl⟩
abbrev main_c_72 : Ref sig .tc := ⟨.hbm, 448, rfl⟩
abbrev main_call10_v0 : Ref sig .tc := ⟨.hbm, 449, rfl⟩
abbrev main_v357 : Ref sig .tc := ⟨.hbm, 450, rfl⟩
abbrev main_v358 : Ref sig .tc := ⟨.hbm, 451, rfl⟩
abbrev main_v359 : Ref sig .tc := ⟨.hbm, 452, rfl⟩
abbrev main_v360 : Ref sig .tc := ⟨.hbm, 453, rfl⟩
abbrev main_v361 : Ref sig .tc := ⟨.hbm, 454, rfl⟩
abbrev main_v362 : Ref sig .tc := ⟨.hbm, 455, rfl⟩
abbrev main_cst_73 : Ref sig .tc := ⟨.hbm, 456, rfl⟩
abbrev main_v363 : Ref sig .tc := ⟨.hbm, 457, rfl⟩
abbrev main_v364 : Ref sig .tc := ⟨.hbm, 458, rfl⟩
abbrev main_v365 : Ref sig .tc := ⟨.hbm, 459, rfl⟩
abbrev main_v366 : Ref sig .tc := ⟨.hbm, 460, rfl⟩
abbrev main_c_74 : Ref sig .tc := ⟨.hbm, 461, rfl⟩
abbrev main_v367 : Ref sig .tc := ⟨.hbm, 462, rfl⟩
abbrev main_v368 : Ref sig .tc := ⟨.hbm, 463, rfl⟩
abbrev main_c_75 : Ref sig .tc := ⟨.hbm, 464, rfl⟩
abbrev main_v369 : Ref sig .tc := ⟨.hbm, 465, rfl⟩
abbrev main_v370 : Ref sig .tc := ⟨.hbm, 466, rfl⟩
abbrev main_v371 : Ref sig .tc := ⟨.hbm, 467, rfl⟩
abbrev main_v372 : Ref sig .tc := ⟨.hbm, 468, rfl⟩
abbrev main_v373 : Ref sig .tc := ⟨.hbm, 469, rfl⟩
abbrev main_v374 : Ref sig .tc := ⟨.hbm, 470, rfl⟩
abbrev main_v375 : Ref sig .tc := ⟨.hbm, 471, rfl⟩
abbrev main_cst_76 : Ref sig .tc := ⟨.hbm, 472, rfl⟩
abbrev main_v376 : Ref sig .tc := ⟨.hbm, 473, rfl⟩
abbrev main_v377 : Ref sig .tc := ⟨.hbm, 474, rfl⟩
abbrev main_v378 : Ref sig .tc := ⟨.hbm, 475, rfl⟩
abbrev main_v379 : Ref sig .tc := ⟨.hbm, 476, rfl⟩
abbrev main_v380 : Ref sig .tc := ⟨.hbm, 477, rfl⟩
abbrev main_v381 : Ref sig .tc := ⟨.hbm, 478, rfl⟩
abbrev main_v382 : Ref sig .tc := ⟨.hbm, 479, rfl⟩
abbrev main_v383 : Ref sig .tc := ⟨.hbm, 480, rfl⟩
abbrev main_v384 : Ref sig .tc := ⟨.hbm, 481, rfl⟩
abbrev main_v385 : Ref sig .tc := ⟨.hbm, 482, rfl⟩
abbrev main_cst_77 : Ref sig .tc := ⟨.hbm, 483, rfl⟩
abbrev main_v386 : Ref sig .tc := ⟨.hbm, 484, rfl⟩
abbrev main_v387 : Ref sig .tc := ⟨.hbm, 485, rfl⟩
abbrev main_c_78 : Ref sig .tc := ⟨.hbm, 486, rfl⟩
abbrev main_v388 : Ref sig .tc := ⟨.hbm, 487, rfl⟩
abbrev main_v389 : Ref sig .tc := ⟨.hbm, 488, rfl⟩
abbrev main_c_79 : Ref sig .tc := ⟨.hbm, 489, rfl⟩
abbrev main_v390 : Ref sig .tc := ⟨.hbm, 490, rfl⟩
abbrev main_v391 : Ref sig .tc := ⟨.hbm, 491, rfl⟩
abbrev main_v392 : Ref sig .tc := ⟨.hbm, 492, rfl⟩
abbrev main_v393 : Ref sig .tc := ⟨.hbm, 493, rfl⟩
abbrev main_v394 : Ref sig .tc := ⟨.hbm, 494, rfl⟩
abbrev main_v395 : Ref sig .tc := ⟨.hbm, 495, rfl⟩
abbrev main_c_80 : Ref sig .tc := ⟨.hbm, 496, rfl⟩
abbrev main_call11_v0 : Ref sig .tc := ⟨.hbm, 497, rfl⟩
abbrev main_v396 : Ref sig .tc := ⟨.hbm, 498, rfl⟩
abbrev main_v397 : Ref sig .tc := ⟨.hbm, 499, rfl⟩
abbrev main_v398 : Ref sig .tc := ⟨.hbm, 500, rfl⟩
abbrev main_v399 : Ref sig .tc := ⟨.hbm, 501, rfl⟩
abbrev main_v400 : Ref sig .tc := ⟨.hbm, 502, rfl⟩
abbrev main_v401 : Ref sig .tc := ⟨.hbm, 503, rfl⟩
abbrev main_cst_81 : Ref sig .tc := ⟨.hbm, 504, rfl⟩
abbrev main_v402 : Ref sig .tc := ⟨.hbm, 505, rfl⟩
abbrev main_v403 : Ref sig .tc := ⟨.hbm, 506, rfl⟩
abbrev main_v404 : Ref sig .tc := ⟨.hbm, 507, rfl⟩
abbrev main_v405 : Ref sig .tc := ⟨.hbm, 508, rfl⟩
abbrev main_c_82 : Ref sig .tc := ⟨.hbm, 509, rfl⟩
abbrev main_v406 : Ref sig .tc := ⟨.hbm, 510, rfl⟩
abbrev main_v407 : Ref sig .tc := ⟨.hbm, 511, rfl⟩
abbrev main_c_83 : Ref sig .tc := ⟨.hbm, 512, rfl⟩
abbrev main_v408 : Ref sig .tc := ⟨.hbm, 513, rfl⟩
abbrev main_v409 : Ref sig .tc := ⟨.hbm, 514, rfl⟩
abbrev main_v410 : Ref sig .tc := ⟨.hbm, 515, rfl⟩
abbrev main_v411 : Ref sig .tc := ⟨.hbm, 516, rfl⟩
abbrev main_v412 : Ref sig .tc := ⟨.hbm, 517, rfl⟩
abbrev main_v413 : Ref sig .tc := ⟨.hbm, 518, rfl⟩
abbrev main_v414 : Ref sig .tc := ⟨.hbm, 519, rfl⟩
abbrev main_cst_84 : Ref sig .tc := ⟨.hbm, 520, rfl⟩
abbrev main_v415 : Ref sig .tc := ⟨.hbm, 521, rfl⟩
abbrev main_v416 : Ref sig .tc := ⟨.hbm, 522, rfl⟩
abbrev main_v417 : Ref sig .tc := ⟨.hbm, 523, rfl⟩
abbrev main_v418 : Ref sig .tc := ⟨.hbm, 524, rfl⟩
abbrev main_v419 : Ref sig .tc := ⟨.hbm, 525, rfl⟩
abbrev main_v420 : Ref sig .tc := ⟨.hbm, 526, rfl⟩
abbrev main_v421 : Ref sig .tc := ⟨.hbm, 527, rfl⟩
abbrev main_v422 : Ref sig .tc := ⟨.hbm, 528, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg2_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg1_1 : Ref sig .tc := ⟨.vmem, 39, rfl⟩
abbrev cc6_stg2_0 : Ref sig .tc := ⟨.vmem, 40, rfl⟩
abbrev cc6_stg2_1 : Ref sig .tc := ⟨.vmem, 41, rfl⟩
abbrev cc7_stg0_0 : Ref sig .tc := ⟨.vmem, 42, rfl⟩
abbrev cc7_stg0_1 : Ref sig .tc := ⟨.vmem, 43, rfl⟩
abbrev cc7_stg1_0 : Ref sig .tc := ⟨.vmem, 44, rfl⟩
abbrev cc7_stg1_1 : Ref sig .tc := ⟨.vmem, 45, rfl⟩
abbrev cc7_stg2_0 : Ref sig .tc := ⟨.vmem, 46, rfl⟩
abbrev cc7_stg2_1 : Ref sig .tc := ⟨.vmem, 47, rfl⟩
abbrev cc8_stg0_0 : Ref sig .tc := ⟨.vmem, 48, rfl⟩
abbrev cc8_stg0_1 : Ref sig .tc := ⟨.vmem, 49, rfl⟩
abbrev cc8_stg1_0 : Ref sig .tc := ⟨.vmem, 50, rfl⟩
abbrev cc8_stg1_1 : Ref sig .tc := ⟨.vmem, 51, rfl⟩
abbrev cc8_stg2_0 : Ref sig .tc := ⟨.vmem, 52, rfl⟩
abbrev cc8_stg2_1 : Ref sig .tc := ⟨.vmem, 53, rfl⟩
abbrev cc9_stg0_0 : Ref sig .tc := ⟨.vmem, 54, rfl⟩
abbrev cc9_stg0_1 : Ref sig .tc := ⟨.vmem, 55, rfl⟩
abbrev cc9_stg1_0 : Ref sig .tc := ⟨.vmem, 56, rfl⟩
abbrev cc9_stg1_1 : Ref sig .tc := ⟨.vmem, 57, rfl⟩
abbrev cc9_stg2_0 : Ref sig .tc := ⟨.vmem, 58, rfl⟩
abbrev cc9_stg2_1 : Ref sig .tc := ⟨.vmem, 59, rfl⟩
abbrev cc10_stg0_0 : Ref sig .tc := ⟨.vmem, 60, rfl⟩
abbrev cc10_stg0_1 : Ref sig .tc := ⟨.vmem, 61, rfl⟩
abbrev cc10_stg1_0 : Ref sig .tc := ⟨.vmem, 62, rfl⟩
abbrev cc10_stg1_1 : Ref sig .tc := ⟨.vmem, 63, rfl⟩
abbrev cc10_stg2_0 : Ref sig .tc := ⟨.vmem, 64, rfl⟩
abbrev cc10_stg2_1 : Ref sig .tc := ⟨.vmem, 65, rfl⟩
abbrev cc11_stg0_0 : Ref sig .tc := ⟨.vmem, 66, rfl⟩
abbrev cc11_stg0_1 : Ref sig .tc := ⟨.vmem, 67, rfl⟩
abbrev cc11_stg1_0 : Ref sig .tc := ⟨.vmem, 68, rfl⟩
abbrev cc11_stg1_1 : Ref sig .tc := ⟨.vmem, 69, rfl⟩
abbrev cc11_stg2_0 : Ref sig .tc := ⟨.vmem, 70, rfl⟩
abbrev cc11_stg2_1 : Ref sig .tc := ⟨.vmem, 71, rfl⟩
abbrev cc12_stg0_0 : Ref sig .tc := ⟨.vmem, 72, rfl⟩
abbrev cc12_stg0_1 : Ref sig .tc := ⟨.vmem, 73, rfl⟩
abbrev cc12_stg1_0 : Ref sig .tc := ⟨.vmem, 74, rfl⟩
abbrev cc12_stg1_1 : Ref sig .tc := ⟨.vmem, 75, rfl⟩
abbrev cc12_stg2_0 : Ref sig .tc := ⟨.vmem, 76, rfl⟩
abbrev cc12_stg2_1 : Ref sig .tc := ⟨.vmem, 77, rfl⟩
abbrev cc13_stg0_0 : Ref sig .tc := ⟨.vmem, 78, rfl⟩
abbrev cc13_stg0_1 : Ref sig .tc := ⟨.vmem, 79, rfl⟩
abbrev cc13_stg1_0 : Ref sig .tc := ⟨.vmem, 80, rfl⟩
abbrev cc13_stg1_1 : Ref sig .tc := ⟨.vmem, 81, rfl⟩
abbrev cc13_stg2_0 : Ref sig .tc := ⟨.vmem, 82, rfl⟩
abbrev cc13_stg2_1 : Ref sig .tc := ⟨.vmem, 83, rfl⟩
abbrev cc14_stg0_0 : Ref sig .tc := ⟨.vmem, 84, rfl⟩
abbrev cc14_stg0_1 : Ref sig .tc := ⟨.vmem, 85, rfl⟩
abbrev cc14_stg1_0 : Ref sig .tc := ⟨.vmem, 86, rfl⟩
abbrev cc14_stg1_1 : Ref sig .tc := ⟨.vmem, 87, rfl⟩
abbrev cc14_stg2_0 : Ref sig .tc := ⟨.vmem, 88, rfl⟩
abbrev cc14_stg2_1 : Ref sig .tc := ⟨.vmem, 89, rfl⟩
abbrev cc15_stg0_0 : Ref sig .tc := ⟨.vmem, 90, rfl⟩
abbrev cc15_stg0_1 : Ref sig .tc := ⟨.vmem, 91, rfl⟩
abbrev cc15_stg1_0 : Ref sig .tc := ⟨.vmem, 92, rfl⟩
abbrev cc15_stg1_1 : Ref sig .tc := ⟨.vmem, 93, rfl⟩
abbrev cc15_stg2_0 : Ref sig .tc := ⟨.vmem, 94, rfl⟩
abbrev cc15_stg2_1 : Ref sig .tc := ⟨.vmem, 95, rfl⟩
abbrev cc16_stg0_0 : Ref sig .tc := ⟨.vmem, 96, rfl⟩
abbrev cc16_stg0_1 : Ref sig .tc := ⟨.vmem, 97, rfl⟩
abbrev cc16_stg1_0 : Ref sig .tc := ⟨.vmem, 98, rfl⟩
abbrev cc16_stg1_1 : Ref sig .tc := ⟨.vmem, 99, rfl⟩
abbrev cc16_stg2_0 : Ref sig .tc := ⟨.vmem, 100, rfl⟩
abbrev cc16_stg2_1 : Ref sig .tc := ⟨.vmem, 101, rfl⟩
abbrev cc17_stg0_0 : Ref sig .tc := ⟨.vmem, 102, rfl⟩
abbrev cc17_stg0_1 : Ref sig .tc := ⟨.vmem, 103, rfl⟩
abbrev cc17_stg1_0 : Ref sig .tc := ⟨.vmem, 104, rfl⟩
abbrev cc17_stg1_1 : Ref sig .tc := ⟨.vmem, 105, rfl⟩
abbrev cc17_stg2_0 : Ref sig .tc := ⟨.vmem, 106, rfl⟩
abbrev cc17_stg2_1 : Ref sig .tc := ⟨.vmem, 107, rfl⟩
abbrev cc18_stg0_0 : Ref sig .tc := ⟨.vmem, 108, rfl⟩
abbrev cc18_stg0_1 : Ref sig .tc := ⟨.vmem, 109, rfl⟩
abbrev cc18_stg1_0 : Ref sig .tc := ⟨.vmem, 110, rfl⟩
abbrev cc18_stg1_1 : Ref sig .tc := ⟨.vmem, 111, rfl⟩
abbrev cc18_stg2_0 : Ref sig .tc := ⟨.vmem, 112, rfl⟩
abbrev cc18_stg2_1 : Ref sig .tc := ⟨.vmem, 113, rfl⟩
abbrev cc19_stg0_0 : Ref sig .tc := ⟨.vmem, 114, rfl⟩
abbrev cc19_stg0_1 : Ref sig .tc := ⟨.vmem, 115, rfl⟩
abbrev cc19_stg1_0 : Ref sig .tc := ⟨.vmem, 116, rfl⟩
abbrev cc19_stg1_1 : Ref sig .tc := ⟨.vmem, 117, rfl⟩
abbrev cc19_stg2_0 : Ref sig .tc := ⟨.vmem, 118, rfl⟩
abbrev cc19_stg2_1 : Ref sig .tc := ⟨.vmem, 119, rfl⟩
abbrev cc20_stg0_0 : Ref sig .tc := ⟨.vmem, 120, rfl⟩
abbrev cc20_stg0_1 : Ref sig .tc := ⟨.vmem, 121, rfl⟩
abbrev cc20_stg1_0 : Ref sig .tc := ⟨.vmem, 122, rfl⟩
abbrev cc20_stg1_1 : Ref sig .tc := ⟨.vmem, 123, rfl⟩
abbrev cc20_stg2_0 : Ref sig .tc := ⟨.vmem, 124, rfl⟩
abbrev cc20_stg2_1 : Ref sig .tc := ⟨.vmem, 125, rfl⟩
abbrev cc21_stg0_0 : Ref sig .tc := ⟨.vmem, 126, rfl⟩
abbrev cc21_stg0_1 : Ref sig .tc := ⟨.vmem, 127, rfl⟩
abbrev cc21_stg1_0 : Ref sig .tc := ⟨.vmem, 128, rfl⟩
abbrev cc21_stg2_0 : Ref sig .tc := ⟨.vmem, 129, rfl⟩
abbrev cc21_stg3_0 : Ref sig .tc := ⟨.vmem, 130, rfl⟩
abbrev cc21_stg3_1 : Ref sig .tc := ⟨.vmem, 131, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35
abbrev cc6_sem0_0 : DmaSem sig := 36
abbrev cc6_sem0_1 : DmaSem sig := 37
abbrev cc6_sem1_0 : DmaSem sig := 38
abbrev cc6_sem1_1 : DmaSem sig := 39
abbrev cc6_sem2_0 : DmaSem sig := 40
abbrev cc6_sem2_1 : DmaSem sig := 41
abbrev cc7_sem0_0 : DmaSem sig := 42
abbrev cc7_sem0_1 : DmaSem sig := 43
abbrev cc7_sem1_0 : DmaSem sig := 44
abbrev cc7_sem1_1 : DmaSem sig := 45
abbrev cc7_sem2_0 : DmaSem sig := 46
abbrev cc7_sem2_1 : DmaSem sig := 47
abbrev cc8_sem0_0 : DmaSem sig := 48
abbrev cc8_sem0_1 : DmaSem sig := 49
abbrev cc8_sem1_0 : DmaSem sig := 50
abbrev cc8_sem1_1 : DmaSem sig := 51
abbrev cc8_sem2_0 : DmaSem sig := 52
abbrev cc8_sem2_1 : DmaSem sig := 53
abbrev cc9_sem0_0 : DmaSem sig := 54
abbrev cc9_sem0_1 : DmaSem sig := 55
abbrev cc9_sem1_0 : DmaSem sig := 56
abbrev cc9_sem1_1 : DmaSem sig := 57
abbrev cc9_sem2_0 : DmaSem sig := 58
abbrev cc9_sem2_1 : DmaSem sig := 59
abbrev cc10_sem0_0 : DmaSem sig := 60
abbrev cc10_sem0_1 : DmaSem sig := 61
abbrev cc10_sem1_0 : DmaSem sig := 62
abbrev cc10_sem1_1 : DmaSem sig := 63
abbrev cc10_sem2_0 : DmaSem sig := 64
abbrev cc10_sem2_1 : DmaSem sig := 65
abbrev cc11_sem0_0 : DmaSem sig := 66
abbrev cc11_sem0_1 : DmaSem sig := 67
abbrev cc11_sem1_0 : DmaSem sig := 68
abbrev cc11_sem1_1 : DmaSem sig := 69
abbrev cc11_sem2_0 : DmaSem sig := 70
abbrev cc11_sem2_1 : DmaSem sig := 71
abbrev cc12_sem0_0 : DmaSem sig := 72
abbrev cc12_sem0_1 : DmaSem sig := 73
abbrev cc12_sem1_0 : DmaSem sig := 74
abbrev cc12_sem1_1 : DmaSem sig := 75
abbrev cc12_sem2_0 : DmaSem sig := 76
abbrev cc12_sem2_1 : DmaSem sig := 77
abbrev cc13_sem0_0 : DmaSem sig := 78
abbrev cc13_sem0_1 : DmaSem sig := 79
abbrev cc13_sem1_0 : DmaSem sig := 80
abbrev cc13_sem1_1 : DmaSem sig := 81
abbrev cc13_sem2_0 : DmaSem sig := 82
abbrev cc13_sem2_1 : DmaSem sig := 83
abbrev cc14_sem0_0 : DmaSem sig := 84
abbrev cc14_sem0_1 : DmaSem sig := 85
abbrev cc14_sem1_0 : DmaSem sig := 86
abbrev cc14_sem1_1 : DmaSem sig := 87
abbrev cc14_sem2_0 : DmaSem sig := 88
abbrev cc14_sem2_1 : DmaSem sig := 89
abbrev cc15_sem0_0 : DmaSem sig := 90
abbrev cc15_sem0_1 : DmaSem sig := 91
abbrev cc15_sem1_0 : DmaSem sig := 92
abbrev cc15_sem1_1 : DmaSem sig := 93
abbrev cc15_sem2_0 : DmaSem sig := 94
abbrev cc15_sem2_1 : DmaSem sig := 95
abbrev cc16_sem0_0 : DmaSem sig := 96
abbrev cc16_sem0_1 : DmaSem sig := 97
abbrev cc16_sem1_0 : DmaSem sig := 98
abbrev cc16_sem1_1 : DmaSem sig := 99
abbrev cc16_sem2_0 : DmaSem sig := 100
abbrev cc16_sem2_1 : DmaSem sig := 101
abbrev cc17_sem0_0 : DmaSem sig := 102
abbrev cc17_sem0_1 : DmaSem sig := 103
abbrev cc17_sem1_0 : DmaSem sig := 104
abbrev cc17_sem1_1 : DmaSem sig := 105
abbrev cc17_sem2_0 : DmaSem sig := 106
abbrev cc17_sem2_1 : DmaSem sig := 107
abbrev cc18_sem0_0 : DmaSem sig := 108
abbrev cc18_sem0_1 : DmaSem sig := 109
abbrev cc18_sem1_0 : DmaSem sig := 110
abbrev cc18_sem1_1 : DmaSem sig := 111
abbrev cc18_sem2_0 : DmaSem sig := 112
abbrev cc18_sem2_1 : DmaSem sig := 113
abbrev cc19_sem0_0 : DmaSem sig := 114
abbrev cc19_sem0_1 : DmaSem sig := 115
abbrev cc19_sem1_0 : DmaSem sig := 116
abbrev cc19_sem1_1 : DmaSem sig := 117
abbrev cc19_sem2_0 : DmaSem sig := 118
abbrev cc19_sem2_1 : DmaSem sig := 119
abbrev cc20_sem0_0 : DmaSem sig := 120
abbrev cc20_sem0_1 : DmaSem sig := 121
abbrev cc20_sem1_0 : DmaSem sig := 122
abbrev cc20_sem1_1 : DmaSem sig := 123
abbrev cc20_sem2_0 : DmaSem sig := 124
abbrev cc20_sem2_1 : DmaSem sig := 125
abbrev cc21_sem0_0 : DmaSem sig := 126
abbrev cc21_sem0_1 : DmaSem sig := 127
abbrev cc21_sem1_0 : DmaSem sig := 128
abbrev cc21_sem2_0 : DmaSem sig := 129
abbrev cc21_sem3_0 : DmaSem sig := 130
abbrev cc21_sem3_1 : DmaSem sig := 131

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x96 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3128x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S3128x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x96 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![2], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S3128x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S3128x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S3128x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x96 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x96 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![2], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S3128x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S3128x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S3128x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x96 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S2000x96 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![2], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S3128x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S3128x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S3128x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x96 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S2000x1 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S2000x96 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![2], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S3128x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S3128x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S3128x128 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![25], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S2000x96 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S2000x1 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S2000x96 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![2], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S3128x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S3128x128 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 2 → Memref sig .tc .vmem S3128x128 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev grid12 : Pipeline.Grid := ⟨1, ![25], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S2000x96 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S2000x1 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 2 → Memref sig .tc .vmem S2000x96 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev grid13 : Pipeline.Grid := ⟨1, ![2], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S3128x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S3128x128 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 2 → Memref sig .tc .vmem S3128x128 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]

abbrev grid14 : Pipeline.Grid := ⟨1, ![25], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_2 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S2000x96 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 2 → Memref sig .tc .vmem S2000x1 .f32 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![true]

abbrev stage14_2 : Fin 2 → Memref sig .tc .vmem S2000x96 .f32 := fun | 0 => Memref.whole cc14_stg2_0 | 1 => Memref.whole cc14_stg2_1 | ⟨_ + 2, h⟩ => absurd h (Nat.not_lt.2 (Nat.le_add_left _ _))
abbrev sem14_2 : Fin 2 → DmaSem sig := fun | 0 => cc14_sem2_0 | 1 => cc14_sem2_1 | ⟨_ + 2, h⟩ => absurd h (Nat.not_lt.2 (Nat.le_add_left _ _))
abbrev reads14_2 : Fin grid14.rank → Bool := ![true]

abbrev grid15 : Pipeline.Grid := ⟨1, ![2], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_2 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S3128x128 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 2 → Memref sig .tc .vmem S3128x128 .f32 := fun | 0 => Memref.whole cc15_stg1_0 | 1 => Memref.whole cc15_stg1_1 | ⟨_ + 2, h⟩ => absurd h (Nat.not_lt.2 (Nat.le_add_left _ _))
abbrev sem15_1 : Fin 2 → DmaSem sig := fun | 0 => cc15_sem1_0 | 1 => cc15_sem1_1 | ⟨_ + 2, h⟩ => absurd h (Nat.not_lt.2 (Nat.le_add_left _ _))
abbrev reads15_1 : Fin grid15.rank → Bool := ![true]

abbrev stage15_2 : Fin 2 → Memref sig .tc .vmem S3128x128 .f32 := fun | 0 => Memref.whole cc15_stg2_0 | 1 => Memref.whole cc15_stg2_1 | ⟨_ + 2, h⟩ => absurd h (Nat.not_lt.2 (Nat.le_add_left _ _))
abbrev sem15_2 : Fin 2 → DmaSem sig := fun | 0 => cc15_sem2_0 | 1 => cc15_sem2_1 | ⟨_ + 2, h⟩ => absurd h (Nat.not_lt.2 (Nat.le_add_left _ _))
abbrev reads15_2 : Fin grid15.rank → Bool := ![true]

abbrev grid16 : Pipeline.Grid := ⟨1, ![25], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_2 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage16_0 : Fin 2 → Memref sig .tc .vmem S2000x96 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 2 → Memref sig .tc .vmem S2000x1 .f32 := fun | 0 => Memref.whole cc16_stg1_0 | 1 => Memref.whole cc16_stg1_1 | ⟨_ + 2, h⟩ => absurd h (Nat.not_lt.2 (Nat.le_add_left _ _))
abbrev sem16_1 : Fin 2 → DmaSem sig := fun | 0 => cc16_sem1_0 | 1 => cc16_sem1_1 | ⟨_ + 2, h⟩ => absurd h (Nat.not_lt.2 (Nat.le_add_left _ _))
abbrev reads16_1 : Fin grid16.rank → Bool := ![true]

abbrev stage16_2 : Fin 2 → Memref sig .tc .vmem S2000x96 .f32 := fun | 0 => Memref.whole cc16_stg2_0 | 1 => Memref.whole cc16_stg2_1 | ⟨_ + 2, h⟩ => absurd h (Nat.not_lt.2 (Nat.le_add_left _ _))
abbrev sem16_2 : Fin 2 → DmaSem sig := fun | 0 => cc16_sem2_0 | 1 => cc16_sem2_1 | ⟨_ + 2, h⟩ => absurd h (Nat.not_lt.2 (Nat.le_add_left _ _))
abbrev reads16_2 : Fin grid16.rank → Bool := ![true]

abbrev grid17 : Pipeline.Grid := ⟨1, ![2], ![false]⟩

def cc17_transform_0 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_1 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_2 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage17_0 : Fin 2 → Memref sig .tc .vmem S3128x128 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true]

abbrev stage17_1 : Fin 2 → Memref sig .tc .vmem S3128x128 .f32 := fun | 0 => Memref.whole cc17_stg1_0 | 1 => Memref.whole cc17_stg1_1 | ⟨_ + 2, h⟩ => absurd h (Nat.not_lt.2 (Nat.le_add_left _ _))
abbrev sem17_1 : Fin 2 → DmaSem sig := fun | 0 => cc17_sem1_0 | 1 => cc17_sem1_1 | ⟨_ + 2, h⟩ => absurd h (Nat.not_lt.2 (Nat.le_add_left _ _))
abbrev reads17_1 : Fin grid17.rank → Bool := ![true]

abbrev stage17_2 : Fin 2 → Memref sig .tc .vmem S3128x128 .f32 := fun | 0 => Memref.whole cc17_stg2_0 | 1 => Memref.whole cc17_stg2_1 | ⟨_ + 2, h⟩ => absurd h (Nat.not_lt.2 (Nat.le_add_left _ _))
abbrev sem17_2 : Fin 2 → DmaSem sig := fun | 0 => cc17_sem2_0 | 1 => cc17_sem2_1 | ⟨_ + 2, h⟩ => absurd h (Nat.not_lt.2 (Nat.le_add_left _ _))
abbrev reads17_2 : Fin grid17.rank → Bool := ![true]

abbrev grid18 : Pipeline.Grid := ⟨1, ![25], ![false]⟩

def cc18_transform_0 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_1 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_2 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage18_0 : Fin 2 → Memref sig .tc .vmem S2000x96 .f32 := fun | 0 => Memref.whole cc18_stg0_0 | 1 => Memref.whole cc18_stg0_1 | ⟨_ + 2, h⟩ => absurd h (Nat.not_lt.2 (Nat.le_add_left _ _))
abbrev sem18_0 : Fin 2 → DmaSem sig := fun | 0 => cc18_sem0_0 | 1 => cc18_sem0_1 | ⟨_ + 2, h⟩ => absurd h (Nat.not_lt.2 (Nat.le_add_left _ _))
abbrev reads18_0 : Fin grid18.rank → Bool := ![true]

abbrev stage18_1 : Fin 2 → Memref sig .tc .vmem S2000x1 .f32 := fun | 0 => Memref.whole cc18_stg1_0 | 1 => Memref.whole cc18_stg1_1 | ⟨_ + 2, h⟩ => absurd h (Nat.not_lt.2 (Nat.le_add_left _ _))
abbrev sem18_1 : Fin 2 → DmaSem sig := fun | 0 => cc18_sem1_0 | 1 => cc18_sem1_1 | ⟨_ + 2, h⟩ => absurd h (Nat.not_lt.2 (Nat.le_add_left _ _))
abbrev reads18_1 : Fin grid18.rank → Bool := ![true]

abbrev stage18_2 : Fin 2 → Memref sig .tc .vmem S2000x96 .f32 := fun | 0 => Memref.whole cc18_stg2_0 | 1 => Memref.whole cc18_stg2_1 | ⟨_ + 2, h⟩ => absurd h (Nat.not_lt.2 (Nat.le_add_left _ _))
abbrev sem18_2 : Fin 2 → DmaSem sig := fun | 0 => cc18_sem2_0 | 1 => cc18_sem2_1 | ⟨_ + 2, h⟩ => absurd h (Nat.not_lt.2 (Nat.le_add_left _ _))
abbrev reads18_2 : Fin grid18.rank → Bool := ![true]

abbrev grid19 : Pipeline.Grid := ⟨1, ![2], ![false]⟩

def cc19_transform_0 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_1 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_2 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage19_0 : Fin 2 → Memref sig .tc .vmem S3128x128 .f32 := fun | 0 => Memref.whole cc19_stg0_0 | 1 => Memref.whole cc19_stg0_1 | ⟨_ + 2, h⟩ => absurd h (Nat.not_lt.2 (Nat.le_add_left _ _))
abbrev sem19_0 : Fin 2 → DmaSem sig := fun | 0 => cc19_sem0_0 | 1 => cc19_sem0_1 | ⟨_ + 2, h⟩ => absurd h (Nat.not_lt.2 (Nat.le_add_left _ _))
abbrev reads19_0 : Fin grid19.rank → Bool := ![true]

abbrev stage19_1 : Fin 2 → Memref sig .tc .vmem S3128x128 .f32 := fun | 0 => Memref.whole cc19_stg1_0 | 1 => Memref.whole cc19_stg1_1 | ⟨_ + 2, h⟩ => absurd h (Nat.not_lt.2 (Nat.le_add_left _ _))
abbrev sem19_1 : Fin 2 → DmaSem sig := fun | 0 => cc19_sem1_0 | 1 => cc19_sem1_1 | ⟨_ + 2, h⟩ => absurd h (Nat.not_lt.2 (Nat.le_add_left _ _))
abbrev reads19_1 : Fin grid19.rank → Bool := ![true]

abbrev stage19_2 : Fin 2 → Memref sig .tc .vmem S3128x128 .f32 := fun | 0 => Memref.whole cc19_stg2_0 | 1 => Memref.whole cc19_stg2_1 | ⟨_ + 2, h⟩ => absurd h (Nat.not_lt.2 (Nat.le_add_left _ _))
abbrev sem19_2 : Fin 2 → DmaSem sig := fun | 0 => cc19_sem2_0 | 1 => cc19_sem2_1 | ⟨_ + 2, h⟩ => absurd h (Nat.not_lt.2 (Nat.le_add_left _ _))
abbrev reads19_2 : Fin grid19.rank → Bool := ![true]

abbrev grid20 : Pipeline.Grid := ⟨1, ![25], ![false]⟩

def cc20_transform_0 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_1 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_2 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage20_0 : Fin 2 → Memref sig .tc .vmem S2000x96 .f32 := fun | 0 => Memref.whole cc20_stg0_0 | 1 => Memref.whole cc20_stg0_1 | ⟨_ + 2, h⟩ => absurd h (Nat.not_lt.2 (Nat.le_add_left _ _))
abbrev sem20_0 : Fin 2 → DmaSem sig := fun | 0 => cc20_sem0_0 | 1 => cc20_sem0_1 | ⟨_ + 2, h⟩ => absurd h (Nat.not_lt.2 (Nat.le_add_left _ _))
abbrev reads20_0 : Fin grid20.rank → Bool := ![true]

abbrev stage20_1 : Fin 2 → Memref sig .tc .vmem S2000x1 .f32 := fun | 0 => Memref.whole cc20_stg1_0 | 1 => Memref.whole cc20_stg1_1 | ⟨_ + 2, h⟩ => absurd h (Nat.not_lt.2 (Nat.le_add_left _ _))
abbrev sem20_1 : Fin 2 → DmaSem sig := fun | 0 => cc20_sem1_0 | 1 => cc20_sem1_1 | ⟨_ + 2, h⟩ => absurd h (Nat.not_lt.2 (Nat.le_add_left _ _))
abbrev reads20_1 : Fin grid20.rank → Bool := ![true]

abbrev stage20_2 : Fin 2 → Memref sig .tc .vmem S2000x96 .f32 := fun | 0 => Memref.whole cc20_stg2_0 | 1 => Memref.whole cc20_stg2_1 | ⟨_ + 2, h⟩ => absurd h (Nat.not_lt.2 (Nat.le_add_left _ _))
abbrev sem20_2 : Fin 2 → DmaSem sig := fun | 0 => cc20_sem2_0 | 1 => cc20_sem2_1 | ⟨_ + 2, h⟩ => absurd h (Nat.not_lt.2 (Nat.le_add_left _ _))
abbrev reads20_2 : Fin grid20.rank → Bool := ![true]

abbrev grid21 : Pipeline.Grid := ⟨1, ![25], ![false]⟩

def cc21_transform_0 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

def cc21_transform_1 (i : grid21.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc21_transform_2 (i : grid21.Coords) : Fin 1 → Nat :=
  let arg0 : BitVec 32 := BitVec.ofNat 32 (i 0).val
  let c0_i32 : BitVec 32 := 0#32
  let c0_i32_0 : BitVec 32 := 0#32
  ![c0_i32.toNat]

def cc21_transform_3 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage21_0 : Fin 2 → Memref sig .tc .vmem S2000x96 .f32 := fun | 0 => Memref.whole cc21_stg0_0 | 1 => Memref.whole cc21_stg0_1 | ⟨_ + 2, h⟩ => absurd h (Nat.not_lt.2 (Nat.le_add_left _ _))
abbrev sem21_0 : Fin 2 → DmaSem sig := fun | 0 => cc21_sem0_0 | 1 => cc21_sem0_1 | ⟨_ + 2, h⟩ => absurd h (Nat.not_lt.2 (Nat.le_add_left _ _))
abbrev reads21_0 : Fin grid21.rank → Bool := ![true]

abbrev stage21_1 : Fin 1 → Memref sig .tc .vmem S96x64 .f32 := fun | 0 => Memref.whole cc21_stg1_0 | ⟨_ + 1, h⟩ => absurd h (Nat.not_lt.2 (Nat.le_add_left _ _))
abbrev sem21_1 : Fin 1 → DmaSem sig := fun | 0 => cc21_sem1_0 | ⟨_ + 1, h⟩ => absurd h (Nat.not_lt.2 (Nat.le_add_left _ _))
abbrev reads21_1 : Fin grid21.rank → Bool := ![false]

abbrev stage21_2 : Fin 1 → Memref sig .tc .vmem S64 .f32 := fun | 0 => Memref.whole cc21_stg2_0 | ⟨_ + 1, h⟩ => absurd h (Nat.not_lt.2 (Nat.le_add_left _ _))
abbrev sem21_2 : Fin 1 → DmaSem sig := fun | 0 => cc21_sem2_0 | ⟨_ + 1, h⟩ => absurd h (Nat.not_lt.2 (Nat.le_add_left _ _))
abbrev reads21_2 : Fin grid21.rank → Bool := ![false]

abbrev stage21_3 : Fin 2 → Memref sig .tc .vmem S2000x64 .f32 := fun | 0 => Memref.whole cc21_stg3_0 | 1 => Memref.whole cc21_stg3_1 | ⟨_ + 2, h⟩ => absurd h (Nat.not_lt.2 (Nat.le_add_left _ _))
abbrev sem21_3 : Fin 2 → DmaSem sig := fun | 0 => cc21_sem3_0 | 1 => cc21_sem3_1 | ⟨_ + 2, h⟩ => absurd h (Nat.not_lt.2 (Nat.le_add_left _ _))
abbrev reads21_3 : Fin grid21.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x96_S256x96_0_0 : ∀ a, (![0, 0] : Fin 2 → Nat) a + S256x96.size a ≤ S256x96.size a
  h_S256x96 : 0 < S256x96.numel
  inb_S96_S96_0 : ∀ a, (![0] : Fin 1 → Nat) a + S96.size a ≤ S96.size a
  h_S96 : 0 < S96.numel
  shapeCasts_S96_S1x96 : S96.ShapeCasts S1x96
  broadcasts_S1x96_S2000x96 : S1x96.Broadcasts S2000x96
  inb_S2000x96_S2000x96_0_0 : ∀ a, (![0, 0] : Fin 2 → Nat) a + S2000x96.size a ≤ S2000x96.size a
  h_S2000x96 : 0 < S2000x96.numel
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  reducesTo_S50000x96_S50000_d1 : S50000x96.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S_S800000 : S_.BroadcastsInDim S800000 (![] : Fin 0 → Fin S800000.rank)
  bcast_S800000_S800000x1_0 : S800000.BroadcastsInDim S800000x1 (![0] : Fin 1 → Fin S800000x1.rank)
  shapeCasts_S800000x1_S800000 : S800000x1.ShapeCasts S800000
  pads_S800000_S800768_07680 : S800000.Pads (![0] : Fin 1 → Nat) ![768] ![0] S800768
  shapeCasts_S800768_S6256x128 : S800768.ShapeCasts S6256x128
  inb_S3128x128_S3128x128_0_0 : ∀ a, (![0, 0] : Fin 2 → Nat) a + S3128x128.size a ≤ S3128x128.size a
  h_S3128x128 : 0 < S3128x128.numel
  shapeCasts_S3128x128_S3128x128 : S3128x128.ShapeCasts S3128x128
  shapeCasts_S6256x128_S800768 : S6256x128.ShapeCasts S800768
  slices_S800768_S800000_0 : S800768.Slices ![0] S800000
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  bcast_S50000x1_S50000x96_0_1 : S50000x1.BroadcastsInDim S50000x96 (![0, 1] : Fin 2 → Fin S50000x96.rank)
  shapeCasts_S2000x96_S2000x96 : S2000x96.ShapeCasts S2000x96
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x96 : S2000x1.Broadcasts S2000x96
  inb_S96x64_S96x64_0_0 : ∀ a, (![0, 0] : Fin 2 → Nat) a + S96x64.size a ≤ S96x64.size a
  h_S96x64 : 0 < S96x64.numel
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  dot_S2000x256_S256x96_S2000x96_1_0_0_1_n_n_wf : DotDims.WF S2000x256 S256x96 S2000x96 [1] [0] [0] [1] [] []
  gather_S50000x1_S800000x1_S800000x1_1_0_n_n_0_1_11_wf : GatherDims.WF S50000x1 S800000x1 S800000x1 [1] [0] [] [0] [] 1 ![1, 1]
  scatter_S50000x1_S800000x1_S800000x1_1_0_0_1_wf : ScatterDims.WF S50000x1 S800000x1 S800000x1 [1] [0] [0] 1
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S2000x96_S96x64_S2000x64_1_0_0_1_n_n_wf : DotDims.WF S2000x96 S96x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x96.size a ≤ S256x96.size a
  hwx0_1 : ∀ i : grid0.Coords, EltTy.bits .f32 = 32 ∨ (Rect.block (s := S256x96) S256x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S96.size a ≤ S96.size a
  hwx0_2 : ∀ i : grid0.Coords, EltTy.bits .f32 = 32 ∨ (Rect.block (s := S96) S96.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x96.size a ≤ S50000x96.size a
  hwx0_3 : ∀ i : grid0.Coords, EltTy.bits .f32 = 32 ∨ (Rect.block (s := S50000x96) S2000x96.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3128x128.size a ≤ S6256x128.size a
  hwx1_0 : ∀ i : grid1.Coords, EltTy.bits .f32 = 32 ∨ (Rect.block (s := S6256x128) S3128x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3128x128.size a ≤ S6256x128.size a
  hwx1_1 : ∀ i : grid1.Coords, EltTy.bits .f32 = 32 ∨ (Rect.block (s := S6256x128) S3128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S3128x128.size a ≤ S6256x128.size a
  hwx1_2 : ∀ i : grid1.Coords, EltTy.bits .f32 = 32 ∨ (Rect.block (s := S6256x128) S3128x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x96.size a ≤ S50000x96.size a
  hwx2_0 : ∀ i : grid2.Coords, EltTy.bits .f32 = 32 ∨ (Rect.block (s := S50000x96) S2000x96.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x96.size a ≤ S50000x96.size a
  hwx2_2 : ∀ i : grid2.Coords, EltTy.bits .f32 = 32 ∨ (Rect.block (s := S50000x96) S2000x96.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S3128x128.size a ≤ S6256x128.size a
  hwx3_0 : ∀ i : grid3.Coords, EltTy.bits .f32 = 32 ∨ (Rect.block (s := S6256x128) S3128x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S3128x128.size a ≤ S6256x128.size a
  hwx3_1 : ∀ i : grid3.Coords, EltTy.bits .f32 = 32 ∨ (Rect.block (s := S6256x128) S3128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S3128x128.size a ≤ S6256x128.size a
  hwx3_2 : ∀ i : grid3.Coords, EltTy.bits .f32 = 32 ∨ (Rect.block (s := S6256x128) S3128x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x96.size a ≤ S50000x96.size a
  hwx4_0 : ∀ i : grid4.Coords, EltTy.bits .f32 = 32 ∨ (Rect.block (s := S50000x96) S2000x96.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x1.size a ≤ S50000x1.size a
  hwx4_1 : ∀ i : grid4.Coords, EltTy.bits .f32 = 32 ∨ (Rect.block (s := S50000x1) S2000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x96.size a ≤ S50000x96.size a
  hwx4_2 : ∀ i : grid4.Coords, EltTy.bits .f32 = 32 ∨ (Rect.block (s := S50000x96) S2000x96.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S3128x128.size a ≤ S6256x128.size a
  hwx5_0 : ∀ i : grid5.Coords, EltTy.bits .f32 = 32 ∨ (Rect.block (s := S6256x128) S3128x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S3128x128.size a ≤ S6256x128.size a
  hwx5_1 : ∀ i : grid5.Coords, EltTy.bits .f32 = 32 ∨ (Rect.block (s := S6256x128) S3128x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S3128x128.size a ≤ S6256x128.size a
  hwx5_2 : ∀ i : grid5.Coords, EltTy.bits .f32 = 32 ∨ (Rect.block (s := S6256x128) S3128x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x96.size a ≤ S50000x96.size a
  hwx6_0 : ∀ i : grid6.Coords, EltTy.bits .f32 = 32 ∨ (Rect.block (s := S50000x96) S2000x96.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x1.size a ≤ S50000x1.size a
  hwx6_1 : ∀ i : grid6.Coords, EltTy.bits .f32 = 32 ∨ (Rect.block (s := S50000x1) S2000x1.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x96.size a ≤ S50000x96.size a
  hwx6_2 : ∀ i : grid6.Coords, EltTy.bits .f32 = 32 ∨ (Rect.block (s := S50000x96) S2000x96.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S3128x128.size a ≤ S6256x128.size a
  hwx7_0 : ∀ i : grid7.Coords, EltTy.bits .f32 = 32 ∨ (Rect.block (s := S6256x128) S3128x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S3128x128.size a ≤ S6256x128.size a
  hwx7_1 : ∀ i : grid7.Coords, EltTy.bits .f32 = 32 ∨ (Rect.block (s := S6256x128) S3128x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S3128x128.size a ≤ S6256x128.size a
  hwx7_2 : ∀ i : grid7.Coords, EltTy.bits .f32 = 32 ∨ (Rect.block (s := S6256x128) S3128x128.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x96.size a ≤ S50000x96.size a
  hwx8_0 : ∀ i : grid8.Coords, EltTy.bits .f32 = 32 ∨ (Rect.block (s := S50000x96) S2000x96.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S2000x1.size a ≤ S50000x1.size a
  hwx8_1 : ∀ i : grid8.Coords, EltTy.bits .f32 = 32 ∨ (Rect.block (s := S50000x1) S2000x1.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S2000x96.size a ≤ S50000x96.size a
  hwx8_2 : ∀ i : grid8.Coords, EltTy.bits .f32 = 32 ∨ (Rect.block (s := S50000x96) S2000x96.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S3128x128.size a ≤ S6256x128.size a
  hwx9_0 : ∀ i : grid9.Coords, EltTy.bits .f32 = 32 ∨ (Rect.block (s := S6256x128) S3128x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S3128x128.size a ≤ S6256x128.size a
  hwx9_1 : ∀ i : grid9.Coords, EltTy.bits .f32 = 32 ∨ (Rect.block (s := S6256x128) S3128x128.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S3128x128.size a ≤ S6256x128.size a
  hwx9_2 : ∀ i : grid9.Coords, EltTy.bits .f32 = 32 ∨ (Rect.block (s := S6256x128) S3128x128.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2000x96.size a ≤ S50000x96.size a
  hwx10_0 : ∀ i : grid10.Coords, EltTy.bits .f32 = 32 ∨ (Rect.block (s := S50000x96) S2000x96.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S2000x1.size a ≤ S50000x1.size a
  hwx10_1 : ∀ i : grid10.Coords, EltTy.bits .f32 = 32 ∨ (Rect.block (s := S50000x1) S2000x1.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S2000x96.size a ≤ S50000x96.size a
  hwx10_2 : ∀ i : grid10.Coords, EltTy.bits .f32 = 32 ∨ (Rect.block (s := S50000x96) S2000x96.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S3128x128.size a ≤ S6256x128.size a
  hwx11_0 : ∀ i : grid11.Coords, EltTy.bits .f32 = 32 ∨ (Rect.block (s := S6256x128) S3128x128.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S3128x128.size a ≤ S6256x128.size a
  hwx11_1 : ∀ i : grid11.Coords, EltTy.bits .f32 = 32 ∨ (Rect.block (s := S6256x128) S3128x128.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S3128x128.size a ≤ S6256x128.size a
  hwx11_2 : ∀ i : grid11.Coords, EltTy.bits .f32 = 32 ∨ (Rect.block (s := S6256x128) S3128x128.size (cc11_transform_2 i) (hinb11_2 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S2000x96.size a ≤ S50000x96.size a
  hwx12_0 : ∀ i : grid12.Coords, EltTy.bits .f32 = 32 ∨ (Rect.block (s := S50000x96) S2000x96.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S2000x1.size a ≤ S50000x1.size a
  hwx12_1 : ∀ i : grid12.Coords, EltTy.bits .f32 = 32 ∨ (Rect.block (s := S50000x1) S2000x1.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S2000x96.size a ≤ S50000x96.size a
  hwx12_2 : ∀ i : grid12.Coords, EltTy.bits .f32 = 32 ∨ (Rect.block (s := S50000x96) S2000x96.size (cc12_transform_2 i) (hinb12_2 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S3128x128.size a ≤ S6256x128.size a
  hwx13_0 : ∀ i : grid13.Coords, EltTy.bits .f32 = 32 ∨ (Rect.block (s := S6256x128) S3128x128.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S3128x128.size a ≤ S6256x128.size a
  hwx13_1 : ∀ i : grid13.Coords, EltTy.bits .f32 = 32 ∨ (Rect.block (s := S6256x128) S3128x128.size (cc13_transform_1 i) (hinb13_1 i)).WholeWords (EltTy.packing .f32)
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hinb13_2 : ∀ (i : grid13.Coords) a, (cc13_transform_2 i a + 1) * S3128x128.size a ≤ S6256x128.size a
  hwx13_2 : ∀ i : grid13.Coords, EltTy.bits .f32 = 32 ∨ (Rect.block (s := S6256x128) S3128x128.size (cc13_transform_2 i) (hinb13_2 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S2000x96.size a ≤ S50000x96.size a
  hwx14_0 : ∀ i : grid14.Coords, EltTy.bits .f32 = 32 ∨ (Rect.block (s := S50000x96) S2000x96.size (cc14_transform_0 i) (hinb14_0 i)).WholeWords (EltTy.packing .f32)
  hstage14_1 : ∀ j, (stage14_1 j).IsWhole
  nbuf14_1 : grid14.bufCount reads14_1 false = 2
  hreads14_1 : ∀ i i' : grid14.Coords, (∀ a, reads14_1 a = true → i a = i' a) → cc14_transform_1 i = cc14_transform_1 i'
  hinb14_1 : ∀ (i : grid14.Coords) a, (cc14_transform_1 i a + 1) * S2000x1.size a ≤ S50000x1.size a
  hwx14_1 : ∀ i : grid14.Coords, EltTy.bits .f32 = 32 ∨ (Rect.block (s := S50000x1) S2000x1.size (cc14_transform_1 i) (hinb14_1 i)).WholeWords (EltTy.packing .f32)
  hstage14_2 : ∀ j, (stage14_2 j).IsWhole
  nbuf14_2 : grid14.bufCount reads14_2 false = 2
  hreads14_2 : ∀ i i' : grid14.Coords, (∀ a, reads14_2 a = true → i a = i' a) → cc14_transform_2 i = cc14_transform_2 i'
  hinb14_2 : ∀ (i : grid14.Coords) a, (cc14_transform_2 i a + 1) * S2000x96.size a ≤ S50000x96.size a
  hwx14_2 : ∀ i : grid14.Coords, EltTy.bits .f32 = 32 ∨ (Rect.block (s := S50000x96) S2000x96.size (cc14_transform_2 i) (hinb14_2 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S3128x128.size a ≤ S6256x128.size a
  hwx15_0 : ∀ i : grid15.Coords, EltTy.bits .f32 = 32 ∨ (Rect.block (s := S6256x128) S3128x128.size (cc15_transform_0 i) (hinb15_0 i)).WholeWords (EltTy.packing .f32)
  hstage15_1 : ∀ j, (stage15_1 j).IsWhole
  nbuf15_1 : grid15.bufCount reads15_1 false = 2
  hreads15_1 : ∀ i i' : grid15.Coords, (∀ a, reads15_1 a = true → i a = i' a) → cc15_transform_1 i = cc15_transform_1 i'
  hinb15_1 : ∀ (i : grid15.Coords) a, (cc15_transform_1 i a + 1) * S3128x128.size a ≤ S6256x128.size a
  hwx15_1 : ∀ i : grid15.Coords, EltTy.bits .f32 = 32 ∨ (Rect.block (s := S6256x128) S3128x128.size (cc15_transform_1 i) (hinb15_1 i)).WholeWords (EltTy.packing .f32)
  hstage15_2 : ∀ j, (stage15_2 j).IsWhole
  nbuf15_2 : grid15.bufCount reads15_2 false = 2
  hreads15_2 : ∀ i i' : grid15.Coords, (∀ a, reads15_2 a = true → i a = i' a) → cc15_transform_2 i = cc15_transform_2 i'
  hinb15_2 : ∀ (i : grid15.Coords) a, (cc15_transform_2 i a + 1) * S3128x128.size a ≤ S6256x128.size a
  hwx15_2 : ∀ i : grid15.Coords, EltTy.bits .f32 = 32 ∨ (Rect.block (s := S6256x128) S3128x128.size (cc15_transform_2 i) (hinb15_2 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S2000x96.size a ≤ S50000x96.size a
  hwx16_0 : ∀ i : grid16.Coords, EltTy.bits .f32 = 32 ∨ (Rect.block (s := S50000x96) S2000x96.size (cc16_transform_0 i) (hinb16_0 i)).WholeWords (EltTy.packing .f32)
  hstage16_1 : ∀ j, (stage16_1 j).IsWhole
  nbuf16_1 : grid16.bufCount reads16_1 false = 2
  hreads16_1 : ∀ i i' : grid16.Coords, (∀ a, reads16_1 a = true → i a = i' a) → cc16_transform_1 i = cc16_transform_1 i'
  hinb16_1 : ∀ (i : grid16.Coords) a, (cc16_transform_1 i a + 1) * S2000x1.size a ≤ S50000x1.size a
  hwx16_1 : ∀ i : grid16.Coords, EltTy.bits .f32 = 32 ∨ (Rect.block (s := S50000x1) S2000x1.size (cc16_transform_1 i) (hinb16_1 i)).WholeWords (EltTy.packing .f32)
  hstage16_2 : ∀ j, (stage16_2 j).IsWhole
  nbuf16_2 : grid16.bufCount reads16_2 false = 2
  hreads16_2 : ∀ i i' : grid16.Coords, (∀ a, reads16_2 a = true → i a = i' a) → cc16_transform_2 i = cc16_transform_2 i'
  hinb16_2 : ∀ (i : grid16.Coords) a, (cc16_transform_2 i a + 1) * S2000x96.size a ≤ S50000x96.size a
  hwx16_2 : ∀ i : grid16.Coords, EltTy.bits .f32 = 32 ∨ (Rect.block (s := S50000x96) S2000x96.size (cc16_transform_2 i) (hinb16_2 i)).WholeWords (EltTy.packing .f32)
  hrank17 : 0 < grid17.rank
  hstage17_0 : ∀ j, (stage17_0 j).IsWhole
  nbuf17_0 : grid17.bufCount reads17_0 false = 2
  hreads17_0 : ∀ i i' : grid17.Coords, (∀ a, reads17_0 a = true → i a = i' a) → cc17_transform_0 i = cc17_transform_0 i'
  hinb17_0 : ∀ (i : grid17.Coords) a, (cc17_transform_0 i a + 1) * S3128x128.size a ≤ S6256x128.size a
  hwx17_0 : ∀ i : grid17.Coords, EltTy.bits .f32 = 32 ∨ (Rect.block (s := S6256x128) S3128x128.size (cc17_transform_0 i) (hinb17_0 i)).WholeWords (EltTy.packing .f32)
  hstage17_1 : ∀ j, (stage17_1 j).IsWhole
  nbuf17_1 : grid17.bufCount reads17_1 false = 2
  hreads17_1 : ∀ i i' : grid17.Coords, (∀ a, reads17_1 a = true → i a = i' a) → cc17_transform_1 i = cc17_transform_1 i'
  hinb17_1 : ∀ (i : grid17.Coords) a, (cc17_transform_1 i a + 1) * S3128x128.size a ≤ S6256x128.size a
  hwx17_1 : ∀ i : grid17.Coords, EltTy.bits .f32 = 32 ∨ (Rect.block (s := S6256x128) S3128x128.size (cc17_transform_1 i) (hinb17_1 i)).WholeWords (EltTy.packing .f32)
  hstage17_2 : ∀ j, (stage17_2 j).IsWhole
  nbuf17_2 : grid17.bufCount reads17_2 false = 2
  hreads17_2 : ∀ i i' : grid17.Coords, (∀ a, reads17_2 a = true → i a = i' a) → cc17_transform_2 i = cc17_transform_2 i'
  hinb17_2 : ∀ (i : grid17.Coords) a, (cc17_transform_2 i a + 1) * S3128x128.size a ≤ S6256x128.size a
  hwx17_2 : ∀ i : grid17.Coords, EltTy.bits .f32 = 32 ∨ (Rect.block (s := S6256x128) S3128x128.size (cc17_transform_2 i) (hinb17_2 i)).WholeWords (EltTy.packing .f32)
  hrank18 : 0 < grid18.rank
  hstage18_0 : ∀ j, (stage18_0 j).IsWhole
  nbuf18_0 : grid18.bufCount reads18_0 false = 2
  hreads18_0 : ∀ i i' : grid18.Coords, (∀ a, reads18_0 a = true → i a = i' a) → cc18_transform_0 i = cc18_transform_0 i'
  hinb18_0 : ∀ (i : grid18.Coords) a, (cc18_transform_0 i a + 1) * S2000x96.size a ≤ S50000x96.size a
  hwx18_0 : ∀ i : grid18.Coords, EltTy.bits .f32 = 32 ∨ (Rect.block (s := S50000x96) S2000x96.size (cc18_transform_0 i) (hinb18_0 i)).WholeWords (EltTy.packing .f32)
  hstage18_1 : ∀ j, (stage18_1 j).IsWhole
  nbuf18_1 : grid18.bufCount reads18_1 false = 2
  hreads18_1 : ∀ i i' : grid18.Coords, (∀ a, reads18_1 a = true → i a = i' a) → cc18_transform_1 i = cc18_transform_1 i'
  hinb18_1 : ∀ (i : grid18.Coords) a, (cc18_transform_1 i a + 1) * S2000x1.size a ≤ S50000x1.size a
  hwx18_1 : ∀ i : grid18.Coords, EltTy.bits .f32 = 32 ∨ (Rect.block (s := S50000x1) S2000x1.size (cc18_transform_1 i) (hinb18_1 i)).WholeWords (EltTy.packing .f32)
  hstage18_2 : ∀ j, (stage18_2 j).IsWhole
  nbuf18_2 : grid18.bufCount reads18_2 false = 2
  hreads18_2 : ∀ i i' : grid18.Coords, (∀ a, reads18_2 a = true → i a = i' a) → cc18_transform_2 i = cc18_transform_2 i'
  hinb18_2 : ∀ (i : grid18.Coords) a, (cc18_transform_2 i a + 1) * S2000x96.size a ≤ S50000x96.size a
  hwx18_2 : ∀ i : grid18.Coords, EltTy.bits .f32 = 32 ∨ (Rect.block (s := S50000x96) S2000x96.size (cc18_transform_2 i) (hinb18_2 i)).WholeWords (EltTy.packing .f32)
  hrank19 : 0 < grid19.rank
  hstage19_0 : ∀ j, (stage19_0 j).IsWhole
  nbuf19_0 : grid19.bufCount reads19_0 false = 2
  hreads19_0 : ∀ i i' : grid19.Coords, (∀ a, reads19_0 a = true → i a = i' a) → cc19_transform_0 i = cc19_transform_0 i'
  hinb19_0 : ∀ (i : grid19.Coords) a, (cc19_transform_0 i a + 1) * S3128x128.size a ≤ S6256x128.size a
  hwx19_0 : ∀ i : grid19.Coords, EltTy.bits .f32 = 32 ∨ (Rect.block (s := S6256x128) S3128x128.size (cc19_transform_0 i) (hinb19_0 i)).WholeWords (EltTy.packing .f32)
  hstage19_1 : ∀ j, (stage19_1 j).IsWhole
  nbuf19_1 : grid19.bufCount reads19_1 false = 2
  hreads19_1 : ∀ i i' : grid19.Coords, (∀ a, reads19_1 a = true → i a = i' a) → cc19_transform_1 i = cc19_transform_1 i'
  hinb19_1 : ∀ (i : grid19.Coords) a, (cc19_transform_1 i a + 1) * S3128x128.size a ≤ S6256x128.size a
  hwx19_1 : ∀ i : grid19.Coords, EltTy.bits .f32 = 32 ∨ (Rect.block (s := S6256x128) S3128x128.size (cc19_transform_1 i) (hinb19_1 i)).WholeWords (EltTy.packing .f32)
  hstage19_2 : ∀ j, (stage19_2 j).IsWhole
  nbuf19_2 : grid19.bufCount reads19_2 false = 2
  hreads19_2 : ∀ i i' : grid19.Coords, (∀ a, reads19_2 a = true → i a = i' a) → cc19_transform_2 i = cc19_transform_2 i'
  hinb19_2 : ∀ (i : grid19.Coords) a, (cc19_transform_2 i a + 1) * S3128x128.size a ≤ S6256x128.size a
  hwx19_2 : ∀ i : grid19.Coords, EltTy.bits .f32 = 32 ∨ (Rect.block (s := S6256x128) S3128x128.size (cc19_transform_2 i) (hinb19_2 i)).WholeWords (EltTy.packing .f32)
  hrank20 : 0 < grid20.rank
  hstage20_0 : ∀ j, (stage20_0 j).IsWhole
  nbuf20_0 : grid20.bufCount reads20_0 false = 2
  hreads20_0 : ∀ i i' : grid20.Coords, (∀ a, reads20_0 a = true → i a = i' a) → cc20_transform_0 i = cc20_transform_0 i'
  hinb20_0 : ∀ (i : grid20.Coords) a, (cc20_transform_0 i a + 1) * S2000x96.size a ≤ S50000x96.size a
  hwx20_0 : ∀ i : grid20.Coords, EltTy.bits .f32 = 32 ∨ (Rect.block (s := S50000x96) S2000x96.size (cc20_transform_0 i) (hinb20_0 i)).WholeWords (EltTy.packing .f32)
  hstage20_1 : ∀ j, (stage20_1 j).IsWhole
  nbuf20_1 : grid20.bufCount reads20_1 false = 2
  hreads20_1 : ∀ i i' : grid20.Coords, (∀ a, reads20_1 a = true → i a = i' a) → cc20_transform_1 i = cc20_transform_1 i'
  hinb20_1 : ∀ (i : grid20.Coords) a, (cc20_transform_1 i a + 1) * S2000x1.size a ≤ S50000x1.size a
  hwx20_1 : ∀ i : grid20.Coords, EltTy.bits .f32 = 32 ∨ (Rect.block (s := S50000x1) S2000x1.size (cc20_transform_1 i) (hinb20_1 i)).WholeWords (EltTy.packing .f32)
  hstage20_2 : ∀ j, (stage20_2 j).IsWhole
  nbuf20_2 : grid20.bufCount reads20_2 false = 2
  hreads20_2 : ∀ i i' : grid20.Coords, (∀ a, reads20_2 a = true → i a = i' a) → cc20_transform_2 i = cc20_transform_2 i'
  hinb20_2 : ∀ (i : grid20.Coords) a, (cc20_transform_2 i a + 1) * S2000x96.size a ≤ S50000x96.size a
  hwx20_2 : ∀ i : grid20.Coords, EltTy.bits .f32 = 32 ∨ (Rect.block (s := S50000x96) S2000x96.size (cc20_transform_2 i) (hinb20_2 i)).WholeWords (EltTy.packing .f32)
  hrank21 : 0 < grid21.rank
  hstage21_0 : ∀ j, (stage21_0 j).IsWhole
  nbuf21_0 : grid21.bufCount reads21_0 false = 2
  hreads21_0 : ∀ i i' : grid21.Coords, (∀ a, reads21_0 a = true → i a = i' a) → cc21_transform_0 i = cc21_transform_0 i'
  hinb21_0 : ∀ (i : grid21.Coords) a, (cc21_transform_0 i a + 1) * S2000x96.size a ≤ S50000x96.size a
  hwx21_0 : ∀ i : grid21.Coords, EltTy.bits .f32 = 32 ∨ (Rect.block (s := S50000x96) S2000x96.size (cc21_transform_0 i) (hinb21_0 i)).WholeWords (EltTy.packing .f32)
  hstage21_1 : ∀ j, (stage21_1 j).IsWhole
  nbuf21_1 : grid21.bufCount reads21_1 true = 1
  hreads21_1 : ∀ i i' : grid21.Coords, (∀ a, reads21_1 a = true → i a = i' a) → cc21_transform_1 i = cc21_transform_1 i'
  hinb21_1 : ∀ (i : grid21.Coords) a, (cc21_transform_1 i a + 1) * S96x64.size a ≤ S96x64.size a
  hwx21_1 : ∀ i : grid21.Coords, EltTy.bits .f32 = 32 ∨ (Rect.block (s := S96x64) S96x64.size (cc21_transform_1 i) (hinb21_1 i)).WholeWords (EltTy.packing .f32)
  hstage21_2 : ∀ j, (stage21_2 j).IsWhole
  nbuf21_2 : grid21.bufCount reads21_2 true = 1
  hreads21_2 : ∀ i i' : grid21.Coords, (∀ a, reads21_2 a = true → i a = i' a) → cc21_transform_2 i = cc21_transform_2 i'
  hinb21_2 : ∀ (i : grid21.Coords) a, (cc21_transform_2 i a + 1) * S64.size a ≤ S64.size a
  hwx21_2 : ∀ i : grid21.Coords, EltTy.bits .f32 = 32 ∨ (Rect.block (s := S64) S64.size (cc21_transform_2 i) (hinb21_2 i)).WholeWords (EltTy.packing .f32)
  hstage21_3 : ∀ j, (stage21_3 j).IsWhole
  nbuf21_3 : grid21.bufCount reads21_3 false = 2
  hreads21_3 : ∀ i i' : grid21.Coords, (∀ a, reads21_3 a = true → i a = i' a) → cc21_transform_3 i = cc21_transform_3 i'
  hinb21_3 : ∀ (i : grid21.Coords) a, (cc21_transform_3 i a + 1) * S2000x64.size a ≤ S50000x64.size a
  hwx21_3 : ∀ i : grid21.Coords, EltTy.bits .f32 = 32 ∨ (Rect.block (s := S50000x64) S2000x64.size (cc21_transform_3 i) (hinb21_3 i)).WholeWords (EltTy.packing .f32)

variable [Facts₀]

def dot_S2000x256_S256x96_S2000x96_1_0_0_1_n_n : DotDims S2000x256 S256x96 S2000x96 where
  lhsContracting := [1]
  rhsContracting := [0]
  lhsNonContracting := [0]
  rhsNonContracting := [1]
  lhsBatch := []
  rhsBatch := []
  wf := dot_S2000x256_S256x96_S2000x96_1_0_0_1_n_n_wf
def gather_S50000x1_S800000x1_S800000x1_1_0_n_n_0_1_11 : GatherDims S50000x1 S800000x1 S800000x1 where
  offsetDims := [1]
  collapsedSliceDims := [0]
  operandBatchingDims := []
  startIndicesBatchingDims := []
  startIndexMap := [0]
  indexVectorDim := 1
  sliceSizes := ![1, 1]
  wf := gather_S50000x1_S800000x1_S800000x1_1_0_n_n_0_1_11_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S2000x96_S96x64_S2000x64_1_0_0_1_n_n : DotDims S2000x96 S96x64 S2000x64 where
  lhsContracting := [1]
  rhsContracting := [0]
  lhsNonContracting := [0]
  rhsNonContracting := [1]
  lhsBatch := []
  rhsBatch := []
  wf := dot_S2000x96_S96x64_S2000x64_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2000x96.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v31) S3128x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S3128x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v47) S3128x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v69) S2000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v54) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v70) S2000x96.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v31) S3128x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v85) S3128x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v86) S3128x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v108) S2000x96.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v93) S2000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v109) S2000x96.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v31) S3128x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v124) S3128x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v125) S3128x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v147) S2000x96.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v132) S2000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v148) S2000x96.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v31) S3128x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v163) S3128x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v164) S3128x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v186) S2000x96.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v171) S2000x1.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v187) S2000x96.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v31) S3128x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v202) S3128x128.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v203) S3128x128.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v225) S2000x96.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v210) S2000x1.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v226) S2000x96.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v31) S3128x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v241) S3128x128.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v242) S3128x128.size cc11_transform_2 reads11_2 true false 2 stage11_2 sem11_2
    hrank11 hreads11_2 hinb11_2 nbuf11_2 (Memref.isWhole_whole _) hwx11_2 hstage11_2

abbrev win11 : Fin 3 → Pipeline.Window sig grid11 := fun | 0 => win11_0 | 1 => win11_1 | 2 => win11_2 | ⟨_ + 3, h⟩ => absurd h (Nat.not_lt.2 (Nat.le_add_left _ _))
abbrev spec11 : Fin 3 → Pipeline.WinSpec sig grid11.rank := fun w => (win11 w).toWinSpec

abbrev win12_0 : Pipeline.Window sig grid12 :=
  Pipeline.Window.ofSpec (Memref.whole main_v264) S2000x96.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v249) S2000x1.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v265) S2000x96.size cc12_transform_2 reads12_2 true false 2 stage12_2 sem12_2
    hrank12 hreads12_2 hinb12_2 nbuf12_2 (Memref.isWhole_whole _) hwx12_2 hstage12_2

abbrev win12 : Fin 3 → Pipeline.Window sig grid12 := fun | 0 => win12_0 | 1 => win12_1 | 2 => win12_2 | ⟨_ + 3, h⟩ => absurd h (Nat.not_lt.2 (Nat.le_add_left _ _))
abbrev spec12 : Fin 3 → Pipeline.WinSpec sig grid12.rank := fun w => (win12 w).toWinSpec

abbrev win13_0 : Pipeline.Window sig grid13 :=
  Pipeline.Window.ofSpec (Memref.whole main_v31) S3128x128.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v280) S3128x128.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v281) S3128x128.size cc13_transform_2 reads13_2 true false 2 stage13_2 sem13_2
    hrank13 hreads13_2 hinb13_2 nbuf13_2 (Memref.isWhole_whole _) hwx13_2 hstage13_2

abbrev win13 : Fin 3 → Pipeline.Window sig grid13 := fun | 0 => win13_0 | 1 => win13_1 | 2 => win13_2 | ⟨_ + 3, h⟩ => absurd h (Nat.not_lt.2 (Nat.le_add_left _ _))
abbrev spec13 : Fin 3 → Pipeline.WinSpec sig grid13.rank := fun w => (win13 w).toWinSpec

abbrev win14_0 : Pipeline.Window sig grid14 :=
  Pipeline.Window.ofSpec (Memref.whole main_v303) S2000x96.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v288) S2000x1.size cc14_transform_1 reads14_1 false false 2 stage14_1 sem14_1
    hrank14 hreads14_1 hinb14_1 nbuf14_1 (Memref.isWhole_whole _) hwx14_1 hstage14_1

abbrev win14_2 : Pipeline.Window sig grid14 :=
  Pipeline.Window.ofSpec (Memref.whole main_v304) S2000x96.size cc14_transform_2 reads14_2 true false 2 stage14_2 sem14_2
    hrank14 hreads14_2 hinb14_2 nbuf14_2 (Memref.isWhole_whole _) hwx14_2 hstage14_2

abbrev win14 : Fin 3 → Pipeline.Window sig grid14 := fun | 0 => win14_0 | 1 => win14_1 | 2 => win14_2 | ⟨_ + 3, h⟩ => absurd h (Nat.not_lt.2 (Nat.le_add_left _ _))
abbrev spec14 : Fin 3 → Pipeline.WinSpec sig grid14.rank := fun w => (win14 w).toWinSpec

abbrev win15_0 : Pipeline.Window sig grid15 :=
  Pipeline.Window.ofSpec (Memref.whole main_v31) S3128x128.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v319) S3128x128.size cc15_transform_1 reads15_1 false false 2 stage15_1 sem15_1
    hrank15 hreads15_1 hinb15_1 nbuf15_1 (Memref.isWhole_whole _) hwx15_1 hstage15_1

abbrev win15_2 : Pipeline.Window sig grid15 :=
  Pipeline.Window.ofSpec (Memref.whole main_v320) S3128x128.size cc15_transform_2 reads15_2 true false 2 stage15_2 sem15_2
    hrank15 hreads15_2 hinb15_2 nbuf15_2 (Memref.isWhole_whole _) hwx15_2 hstage15_2

abbrev win15 : Fin 3 → Pipeline.Window sig grid15 := fun | 0 => win15_0 | 1 => win15_1 | 2 => win15_2 | ⟨_ + 3, h⟩ => absurd h (Nat.not_lt.2 (Nat.le_add_left _ _))
abbrev spec15 : Fin 3 → Pipeline.WinSpec sig grid15.rank := fun w => (win15 w).toWinSpec

abbrev win16_0 : Pipeline.Window sig grid16 :=
  Pipeline.Window.ofSpec (Memref.whole main_v342) S2000x96.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v327) S2000x1.size cc16_transform_1 reads16_1 false false 2 stage16_1 sem16_1
    hrank16 hreads16_1 hinb16_1 nbuf16_1 (Memref.isWhole_whole _) hwx16_1 hstage16_1

abbrev win16_2 : Pipeline.Window sig grid16 :=
  Pipeline.Window.ofSpec (Memref.whole main_v343) S2000x96.size cc16_transform_2 reads16_2 true false 2 stage16_2 sem16_2
    hrank16 hreads16_2 hinb16_2 nbuf16_2 (Memref.isWhole_whole _) hwx16_2 hstage16_2

abbrev win16 : Fin 3 → Pipeline.Window sig grid16 := fun | 0 => win16_0 | 1 => win16_1 | 2 => win16_2 | ⟨_ + 3, h⟩ => absurd h (Nat.not_lt.2 (Nat.le_add_left _ _))
abbrev spec16 : Fin 3 → Pipeline.WinSpec sig grid16.rank := fun w => (win16 w).toWinSpec

abbrev win17_0 : Pipeline.Window sig grid17 :=
  Pipeline.Window.ofSpec (Memref.whole main_v31) S3128x128.size cc17_transform_0 reads17_0 false false 2 stage17_0 sem17_0
    hrank17 hreads17_0 hinb17_0 nbuf17_0 (Memref.isWhole_whole _) hwx17_0 hstage17_0

abbrev win17_1 : Pipeline.Window sig grid17 :=
  Pipeline.Window.ofSpec (Memref.whole main_v358) S3128x128.size cc17_transform_1 reads17_1 false false 2 stage17_1 sem17_1
    hrank17 hreads17_1 hinb17_1 nbuf17_1 (Memref.isWhole_whole _) hwx17_1 hstage17_1

abbrev win17_2 : Pipeline.Window sig grid17 :=
  Pipeline.Window.ofSpec (Memref.whole main_v359) S3128x128.size cc17_transform_2 reads17_2 true false 2 stage17_2 sem17_2
    hrank17 hreads17_2 hinb17_2 nbuf17_2 (Memref.isWhole_whole _) hwx17_2 hstage17_2

abbrev win17 : Fin 3 → Pipeline.Window sig grid17 := fun | 0 => win17_0 | 1 => win17_1 | 2 => win17_2 | ⟨_ + 3, h⟩ => absurd h (Nat.not_lt.2 (Nat.le_add_left _ _))
abbrev spec17 : Fin 3 → Pipeline.WinSpec sig grid17.rank := fun w => (win17 w).toWinSpec

abbrev win18_0 : Pipeline.Window sig grid18 :=
  Pipeline.Window.ofSpec (Memref.whole main_v381) S2000x96.size cc18_transform_0 reads18_0 false false 2 stage18_0 sem18_0
    hrank18 hreads18_0 hinb18_0 nbuf18_0 (Memref.isWhole_whole _) hwx18_0 hstage18_0

abbrev win18_1 : Pipeline.Window sig grid18 :=
  Pipeline.Window.ofSpec (Memref.whole main_v366) S2000x1.size cc18_transform_1 reads18_1 false false 2 stage18_1 sem18_1
    hrank18 hreads18_1 hinb18_1 nbuf18_1 (Memref.isWhole_whole _) hwx18_1 hstage18_1

abbrev win18_2 : Pipeline.Window sig grid18 :=
  Pipeline.Window.ofSpec (Memref.whole main_v382) S2000x96.size cc18_transform_2 reads18_2 true false 2 stage18_2 sem18_2
    hrank18 hreads18_2 hinb18_2 nbuf18_2 (Memref.isWhole_whole _) hwx18_2 hstage18_2

abbrev win18 : Fin 3 → Pipeline.Window sig grid18 := fun | 0 => win18_0 | 1 => win18_1 | 2 => win18_2 | ⟨_ + 3, h⟩ => absurd h (Nat.not_lt.2 (Nat.le_add_left _ _))
abbrev spec18 : Fin 3 → Pipeline.WinSpec sig grid18.rank := fun w => (win18 w).toWinSpec

abbrev win19_0 : Pipeline.Window sig grid19 :=
  Pipeline.Window.ofSpec (Memref.whole main_v31) S3128x128.size cc19_transform_0 reads19_0 false false 2 stage19_0 sem19_0
    hrank19 hreads19_0 hinb19_0 nbuf19_0 (Memref.isWhole_whole _) hwx19_0 hstage19_0

abbrev win19_1 : Pipeline.Window sig grid19 :=
  Pipeline.Window.ofSpec (Memref.whole main_v397) S3128x128.size cc19_transform_1 reads19_1 false false 2 stage19_1 sem19_1
    hrank19 hreads19_1 hinb19_1 nbuf19_1 (Memref.isWhole_whole _) hwx19_1 hstage19_1

abbrev win19_2 : Pipeline.Window sig grid19 :=
  Pipeline.Window.ofSpec (Memref.whole main_v398) S3128x128.size cc19_transform_2 reads19_2 true false 2 stage19_2 sem19_2
    hrank19 hreads19_2 hinb19_2 nbuf19_2 (Memref.isWhole_whole _) hwx19_2 hstage19_2

abbrev win19 : Fin 3 → Pipeline.Window sig grid19 := fun | 0 => win19_0 | 1 => win19_1 | 2 => win19_2 | ⟨_ + 3, h⟩ => absurd h (Nat.not_lt.2 (Nat.le_add_left _ _))
abbrev spec19 : Fin 3 → Pipeline.WinSpec sig grid19.rank := fun w => (win19 w).toWinSpec

abbrev win20_0 : Pipeline.Window sig grid20 :=
  Pipeline.Window.ofSpec (Memref.whole main_v420) S2000x96.size cc20_transform_0 reads20_0 false false 2 stage20_0 sem20_0
    hrank20 hreads20_0 hinb20_0 nbuf20_0 (Memref.isWhole_whole _) hwx20_0 hstage20_0

abbrev win20_1 : Pipeline.Window sig grid20 :=
  Pipeline.Window.ofSpec (Memref.whole main_v405) S2000x1.size cc20_transform_1 reads20_1 false false 2 stage20_1 sem20_1
    hrank20 hreads20_1 hinb20_1 nbuf20_1 (Memref.isWhole_whole _) hwx20_1 hstage20_1

abbrev win20_2 : Pipeline.Window sig grid20 :=
  Pipeline.Window.ofSpec (Memref.whole main_v421) S2000x96.size cc20_transform_2 reads20_2 true false 2 stage20_2 sem20_2
    hrank20 hreads20_2 hinb20_2 nbuf20_2 (Memref.isWhole_whole _) hwx20_2 hstage20_2

abbrev win20 : Fin 3 → Pipeline.Window sig grid20 := fun | 0 => win20_0 | 1 => win20_1 | 2 => win20_2 | ⟨_ + 3, h⟩ => absurd h (Nat.not_lt.2 (Nat.le_add_left _ _))
abbrev spec20 : Fin 3 → Pipeline.WinSpec sig grid20.rank := fun w => (win20 w).toWinSpec

abbrev win21_0 : Pipeline.Window sig grid21 :=
  Pipeline.Window.ofSpec (Memref.whole main_v421) S2000x96.size cc21_transform_0 reads21_0 false false 2 stage21_0 sem21_0
    hrank21 hreads21_0 hinb21_0 nbuf21_0 (Memref.isWhole_whole _) hwx21_0 hstage21_0

abbrev win21_1 : Pipeline.Window sig grid21 :=
  Pipeline.Window.ofSpec (Memref.whole main_arg6) S96x64.size cc21_transform_1 reads21_1 false true 1 stage21_1 sem21_1
    hrank21 hreads21_1 hinb21_1 nbuf21_1 (Memref.isWhole_whole _) hwx21_1 hstage21_1

abbrev win21_2 : Pipeline.Window sig grid21 :=
  Pipeline.Window.ofSpec (Memref.whole main_arg7) S64.size cc21_transform_2 reads21_2 false true 1 stage21_2 sem21_2
    hrank21 hreads21_2 hinb21_2 nbuf21_2 (Memref.isWhole_whole _) hwx21_2 hstage21_2

abbrev win21_3 : Pipeline.Window sig grid21 :=
  Pipeline.Window.ofSpec (Memref.whole main_v422) S2000x64.size cc21_transform_3 reads21_3 true false 2 stage21_3 sem21_3
    hrank21 hreads21_3 hinb21_3 nbuf21_3 (Memref.isWhole_whole _) hwx21_3 hstage21_3

abbrev win21 : Fin 4 → Pipeline.Window sig grid21 := fun | 0 => win21_0 | 1 => win21_1 | 2 => win21_2 | 3 => win21_3 | ⟨_ + 4, h⟩ => absurd h (Nat.not_lt.2 (Nat.le_add_left _ _))
abbrev spec21 : Fin 4 → Pipeline.WinSpec sig grid21.rank := fun w => (win21 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x96 : Shape := ⟨2, ![256, 96]⟩
abbrev S96 : Shape := ⟨1, ![96]⟩
abbrev S96x64 : Shape := ⟨2, ![96, 64]⟩
abbrev S64 : Shape := ⟨1, ![64]⟩
abbrev S1x800000 : Shape := ⟨2, ![1, 800000]⟩
abbrev S800000 : Shape := ⟨1, ![800000]⟩
abbrev S50000x96 : Shape := ⟨2, ![50000, 96]⟩
abbrev S1x96 : Shape := ⟨2, ![1, 96]⟩
abbrev S_ : Shape := ⟨0, ![]⟩
abbrev S96x1 : Shape := ⟨2, ![96, 1]⟩
abbrev S50000x1 : Shape := ⟨2, ![50000, 1]⟩
abbrev S800000x1 : Shape := ⟨2, ![800000, 1]⟩
abbrev S800000x96 : Shape := ⟨2, ![800000, 96]⟩
abbrev S50000x64 : Shape := ⟨2, ![50000, 64]⟩
abbrev S1x64 : Shape := ⟨2, ![1, 64]⟩

abbrev nBuf : Space → Nat
  | .hbm => 843
  | .vmem => 0
  | .smem => 0
  | _ => 0

abbrev hbmTy0_0 (i : Nat) : BufTy := match i % 128 with
  | 0 => ⟨S50000x256, .f32⟩
  | 1 => ⟨S2x800000, .i32⟩
  | 2 => ⟨S256x96, .f32⟩
  | 3 => ⟨S96, .f32⟩
  | 4 => ⟨S96, .f32⟩
  | 5 => ⟨S96, .f32⟩
  | 6 => ⟨S96x64, .f32⟩
  | 7 => ⟨S64, .f32⟩
  | 8 => ⟨S1x800000, .i32⟩
  | 9 => ⟨S800000, .i32⟩
  | 10 => ⟨S1x800000, .i32⟩
  | 11 => ⟨S800000, .i32⟩
  | 12 => ⟨S50000x96, .f32⟩
  | 13 => ⟨S1x96, .f32⟩
  | 14 => ⟨S50000x96, .f32⟩
  | 15 => ⟨S50000x96, .f32⟩
  | 16 => ⟨S_, .f32⟩
  | 17 => ⟨S50000x96, .f32⟩
  | 18 => ⟨S50000x96, .f32⟩
  | 19 => ⟨S96x1, .f32⟩
  | 20 => ⟨S50000x1, .f32⟩
  | 21 => ⟨S96x1, .f32⟩
  | 22 => ⟨S50000x1, .f32⟩
  | 23 => ⟨S50000x1, .f32⟩
  | 24 => ⟨S_, .f32⟩
  | 25 => ⟨S50000x1, .f32⟩
  | 26 => ⟨S50000x1, .i1⟩
  | 27 => ⟨S_, .f32⟩
  | 28 => ⟨S50000x1, .f32⟩
  | 29 => ⟨S50000x1, .f32⟩
  | 30 => ⟨S50000x1, .f32⟩
  | 31 => ⟨S50000x1, .f32⟩
  | 32 => ⟨S96x1, .f32⟩
  | 33 => ⟨S50000x1, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000x1, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000x1, .f32⟩
  | 52 => ⟨S800000x1, .f32⟩
  | 53 => ⟨S_, .f32⟩
  | 54 => ⟨S800000x1, .f32⟩
  | 55 => ⟨S800000x1, .i1⟩
  | 56 => ⟨S_, .f32⟩
  | 57 => ⟨S800000x1, .f32⟩
  | 58 => ⟨S800000x1, .f32⟩
  | 59 => ⟨S800000x1, .f32⟩
  | 60 => ⟨S800000x1, .f32⟩
  | 61 => ⟨S_, .f32⟩
  | 62 => ⟨S50000x1, .f32⟩
  | 63 => ⟨S800000x1, .i32⟩
  | 64 => ⟨S50000x1, .f32⟩
  | 65 => ⟨S50000x1, .f32⟩
  | 66 => ⟨S_, .i32⟩
  | 67 => ⟨S800000, .i32⟩
  | 68 => ⟨S800000, .i1⟩
  | 69 => ⟨S_, .i32⟩
  | 70 => ⟨S800000, .i32⟩
  | 71 => ⟨S800000, .i32⟩
  | 72 => ⟨S800000, .i32⟩
  | 73 => ⟨S800000x1, .i32⟩
  | 74 => ⟨S800000x96, .f32⟩
  | 75 => ⟨S800000x96, .f32⟩
  | 76 => ⟨S800000x96, .f32⟩
  | 77 => ⟨S_, .f32⟩
  | 78 => ⟨S50000x96, .f32⟩
  | 79 => ⟨S800000x1, .i32⟩
  | 80 => ⟨S50000x96, .f32⟩
  | 81 => ⟨S50000x96, .f32⟩
  | 82 => ⟨S50000x96, .f32⟩
  | 83 => ⟨S50000x96, .f32⟩
  | 84 => ⟨S50000x96, .f32⟩
  | 85 => ⟨S50000x96, .f32⟩
  | 86 => ⟨S_, .f32⟩
  | 87 => ⟨S50000x96, .f32⟩
  | 88 => ⟨S50000x96, .i1⟩
  | 89 => ⟨S_, .f32⟩
  | 90 => ⟨S50000x96, .f32⟩
  | 91 => ⟨S50000x96, .i1⟩
  | 92 => ⟨S_, .f32⟩
  | 93 => ⟨S_, .f32⟩
  | 94 => ⟨S50000x96, .f32⟩
  | 95 => ⟨S50000x96, .f32⟩
  | 96 => ⟨S50000x96, .f32⟩
  | 97 => ⟨S_, .f32⟩
  | 98 => ⟨S50000x96, .f32⟩
  | 99 => ⟨S50000x96, .f32⟩
  | 100 => ⟨S50000x96, .f32⟩
  | 101 => ⟨S96x1, .f32⟩
  | 102 => ⟨S50000x1, .f32⟩
  | 103 => ⟨S96x1, .f32⟩
  | 104 => ⟨S50000x1, .f32⟩
  | 105 => ⟨S50000x1, .f32⟩
  | 106 => ⟨S_, .f32⟩
  | 107 => ⟨S50000x1, .f32⟩
  | 108 => ⟨S50000x1, .i1⟩
  | 109 => ⟨S_, .f32⟩
  | 110 => ⟨S50000x1, .f32⟩
  | 111 => ⟨S50000x1, .f32⟩
  | 112 => ⟨S50000x1, .f32⟩
  | 113 => ⟨S50000x1, .f32⟩
  | 114 => ⟨S96x1, .f32⟩
  | 115 => ⟨S50000x1, .f32⟩
  | 116 => ⟨S_, .i32⟩
  | 117 => ⟨S800000, .i32⟩
  | 118 => ⟨S800000, .i1⟩
  | 119 => ⟨S_, .i32⟩
  | 120 => ⟨S800000, .i32⟩
  | 121 => ⟨S800000, .i32⟩
  | 122 => ⟨S800000, .i32⟩
  | 123 => ⟨S800000x1, .i32⟩
  | 124 => ⟨S800000x1, .f32⟩
  | 125 => ⟨S_, .i32⟩
  | 126 => ⟨S800000, .i32⟩
  | 127 => ⟨S800000, .i1⟩
  | _ => ⟨S50000x256, .f32⟩

abbrev hbmTy0_1 (i : Nat) : BufTy := match i % 128 with
  | 0 => ⟨S_, .i32⟩
  | 1 => ⟨S800000, .i32⟩
  | 2 => ⟨S800000, .i32⟩
  | 3 => ⟨S800000, .i32⟩
  | 4 => ⟨S800000x1, .i32⟩
  | 5 => ⟨S800000x1, .f32⟩
  | 6 => ⟨S800000x1, .f32⟩
  | 7 => ⟨S_, .f32⟩
  | 8 => ⟨S800000x1, .f32⟩
  | 9 => ⟨S800000x1, .i1⟩
  | 10 => ⟨S_, .f32⟩
  | 11 => ⟨S800000x1, .f32⟩
  | 12 => ⟨S800000x1, .f32⟩
  | 13 => ⟨S800000x1, .f32⟩
  | 14 => ⟨S800000x1, .f32⟩
  | 15 => ⟨S_, .f32⟩
  | 16 => ⟨S50000x1, .f32⟩
  | 17 => ⟨S800000x1, .i32⟩
  | 18 => ⟨S50000x1, .f32⟩
  | 19 => ⟨S50000x1, .f32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S800000x96, .f32⟩
  | 29 => ⟨S800000x96, .f32⟩
  | 30 => ⟨S800000x96, .f32⟩
  | 31 => ⟨S_, .f32⟩
  | 32 => ⟨S50000x96, .f32⟩
  | 33 => ⟨S800000x1, .i32⟩
  | 34 => ⟨S50000x96, .f32⟩
  | 35 => ⟨S50000x96, .f32⟩
  | 36 => ⟨S50000x96, .f32⟩
  | 37 => ⟨S50000x96, .f32⟩
  | 38 => ⟨S50000x96, .f32⟩
  | 39 => ⟨S50000x96, .f32⟩
  | 40 => ⟨S_, .f32⟩
  | 41 => ⟨S50000x96, .f32⟩
  | 42 => ⟨S50000x96, .i1⟩
  | 43 => ⟨S_, .f32⟩
  | 44 => ⟨S50000x96, .f32⟩
  | 45 => ⟨S50000x96, .i1⟩
  | 46 => ⟨S_, .f32⟩
  | 47 => ⟨S_, .f32⟩
  | 48 => ⟨S50000x96, .f32⟩
  | 49 => ⟨S50000x96, .f32⟩
  | 50 => ⟨S50000x96, .f32⟩
  | 51 => ⟨S_, .f32⟩
  | 52 => ⟨S50000x96, .f32⟩
  | 53 => ⟨S50000x96, .f32⟩
  | 54 => ⟨S50000x96, .f32⟩
  | 55 => ⟨S96x1, .f32⟩
  | 56 => ⟨S50000x1, .f32⟩
  | 57 => ⟨S96x1, .f32⟩
  | 58 => ⟨S50000x1, .f32⟩
  | 59 => ⟨S50000x1, .f32⟩
  | 60 => ⟨S_, .f32⟩
  | 61 => ⟨S50000x1, .f32⟩
  | 62 => ⟨S50000x1, .i1⟩
  | 63 => ⟨S_, .f32⟩
  | 64 => ⟨S50000x1, .f32⟩
  | 65 => ⟨S50000x1, .f32⟩
  | 66 => ⟨S50000x1, .f32⟩
  | 67 => ⟨S50000x1, .f32⟩
  | 68 => ⟨S96x1, .f32⟩
  | 69 => ⟨S50000x1, .f32⟩
  | 70 => ⟨S_, .i32⟩
  | 71 => ⟨S800000, .i32⟩
  | 72 => ⟨S800000, .i1⟩
  | 73 => ⟨S_, .i32⟩
  | 74 => ⟨S800000, .i32⟩
  | 75 => ⟨S800000, .i32⟩
  | 76 => ⟨S800000, .i32⟩
  | 77 => ⟨S800000x1, .i32⟩
  | 78 => ⟨S800000x1, .f32⟩
  | 79 => ⟨S_, .i32⟩
  | 80 => ⟨S800000, .i32⟩
  | 81 => ⟨S800000, .i1⟩
  | 82 => ⟨S_, .i32⟩
  | 83 => ⟨S800000, .i32⟩
  | 84 => ⟨S800000, .i32⟩
  | 85 => ⟨S800000, .i32⟩
  | 86 => ⟨S800000x1, .i32⟩
  | 87 => ⟨S800000x1, .f32⟩
  | 88 => ⟨S800000x1, .f32⟩
  | 89 => ⟨S_, .f32⟩
  | 90 => ⟨S800000x1, .f32⟩
  | 91 => ⟨S800000x1, .i1⟩
  | 92 => ⟨S_, .f32⟩
  | 93 => ⟨S800000x1, .f32⟩
  | 94 => ⟨S800000x1, .f32⟩
  | 95 => ⟨S800000x1, .f32⟩
  | 96 => ⟨S800000x1, .f32⟩
  | 97 => ⟨S_, .f32⟩
  | 98 => ⟨S50000x1, .f32⟩
  | 99 => ⟨S800000x1, .i32⟩
  | 100 => ⟨S50000x1, .f32⟩
  | 101 => ⟨S50000x1, .f32⟩
  | 102 => ⟨S_, .i32⟩
  | 103 => ⟨S800000, .i32⟩
  | 104 => ⟨S800000, .i1⟩
  | 105 => ⟨S_, .i32⟩
  | 106 => ⟨S800000, .i32⟩
  | 107 => ⟨S800000, .i32⟩
  | 108 => ⟨S800000, .i32⟩
  | 109 => ⟨S800000x1, .i32⟩
  | 110 => ⟨S800000x96, .f32⟩
  | 111 => ⟨S800000x96, .f32⟩
  | 112 => ⟨S800000x96, .f32⟩
  | 113 => ⟨S_, .f32⟩
  | 114 => ⟨S50000x96, .f32⟩
  | 115 => ⟨S800000x1, .i32⟩
  | 116 => ⟨S50000x96, .f32⟩
  | 117 => ⟨S50000x96, .f32⟩
  | 118 => ⟨S50000x96, .f32⟩
  | 119 => ⟨S50000x96, .f32⟩
  | 120 => ⟨S50000x96, .f32⟩
  | 121 => ⟨S50000x96, .f32⟩
  | 122 => ⟨S_, .f32⟩
  | 123 => ⟨S50000x96, .f32⟩
  | 124 => ⟨S50000x96, .i1⟩
  | 125 => ⟨S_, .f32⟩
  | 126 => ⟨S50000x96, .f32⟩
  | 127 => ⟨S50000x96, .i1⟩
  | _ => ⟨S50000x256, .f32⟩

abbrev hbmTy0_2 (i : Nat) : BufTy := match i % 128 with
  | 0 => ⟨S_, .f32⟩
  | 1 => ⟨S_, .f32⟩
  | 2 => ⟨S50000x96, .f32⟩
  | 3 => ⟨S50000x96, .f32⟩
  | 4 => ⟨S50000x96, .f32⟩
  | 5 => ⟨S_, .f32⟩
  | 6 => ⟨S50000x96, .f32⟩
  | 7 => ⟨S50000x96, .f32⟩
  | 8 => ⟨S50000x96, .f32⟩
  | 9 => ⟨S96x1, .f32⟩
  | 10 => ⟨S50000x1, .f32⟩
  | 11 => ⟨S96x1, .f32⟩
  | 12 => ⟨S50000x1, .f32⟩
  | 13 => ⟨S50000x1, .f32⟩
  | 14 => ⟨S_, .f32⟩
  | 15 => ⟨S50000x1, .f32⟩
  | 16 => ⟨S50000x1, .i1⟩
  | 17 => ⟨S_, .f32⟩
  | 18 => ⟨S50000x1, .f32⟩
  | 19 => ⟨S50000x1, .f32⟩
  | 20 => ⟨S50000x1, .f32⟩
  | 21 => ⟨S50000x1, .f32⟩
  | 22 => ⟨S96x1, .f32⟩
  | 23 => ⟨S50000x1, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000x1, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000x1, .f32⟩
  | 42 => ⟨S800000x1, .f32⟩
  | 43 => ⟨S_, .f32⟩
  | 44 => ⟨S800000x1, .f32⟩
  | 45 => ⟨S800000x1, .i1⟩
  | 46 => ⟨S_, .f32⟩
  | 47 => ⟨S800000x1, .f32⟩
  | 48 => ⟨S800000x1, .f32⟩
  | 49 => ⟨S800000x1, .f32⟩
  | 50 => ⟨S800000x1, .f32⟩
  | 51 => ⟨S_, .f32⟩
  | 52 => ⟨S50000x1, .f32⟩
  | 53 => ⟨S800000x1, .i32⟩
  | 54 => ⟨S50000x1, .f32⟩
  | 55 => ⟨S50000x1, .f32⟩
  | 56 => ⟨S_, .i32⟩
  | 57 => ⟨S800000, .i32⟩
  | 58 => ⟨S800000, .i1⟩
  | 59 => ⟨S_, .i32⟩
  | 60 => ⟨S800000, .i32⟩
  | 61 => ⟨S800000, .i32⟩
  | 62 => ⟨S800000, .i32⟩
  | 63 => ⟨S800000x1, .i32⟩
  | 64 => ⟨S800000x96, .f32⟩
  | 65 => ⟨S800000x96, .f32⟩
  | 66 => ⟨S800000x96, .f32⟩
  | 67 => ⟨S_, .f32⟩
  | 68 => ⟨S50000x96, .f32⟩
  | 69 => ⟨S800000x1, .i32⟩
  | 70 => ⟨S50000x96, .f32⟩
  | 71 => ⟨S50000x96, .f32⟩
  | 72 => ⟨S50000x96, .f32⟩
  | 73 => ⟨S50000x96, .f32⟩
  | 74 => ⟨S50000x96, .f32⟩
  | 75 => ⟨S50000x96, .f32⟩
  | 76 => ⟨S_, .f32⟩
  | 77 => ⟨S50000x96, .f32⟩
  | 78 => ⟨S50000x96, .i1⟩
  | 79 => ⟨S_, .f32⟩
  | 80 => ⟨S50000x96, .f32⟩
  | 81 => ⟨S50000x96, .i1⟩
  | 82 => ⟨S_, .f32⟩
  | 83 => ⟨S_, .f32⟩
  | 84 => ⟨S50000x96, .f32⟩
  | 85 => ⟨S50000x96, .f32⟩
  | 86 => ⟨S50000x96, .f32⟩
  | 87 => ⟨S_, .f32⟩
  | 88 => ⟨S50000x96, .f32⟩
  | 89 => ⟨S50000x96, .f32⟩
  | 90 => ⟨S50000x96, .f32⟩
  | 91 => ⟨S96x1, .f32⟩
  | 92 => ⟨S50000x1, .f32⟩
  | 93 => ⟨S96x1, .f32⟩
  | 94 => ⟨S50000x1, .f32⟩
  | 95 => ⟨S50000x1, .f32⟩
  | 96 => ⟨S_, .f32⟩
  | 97 => ⟨S50000x1, .f32⟩
  | 98 => ⟨S50000x1, .i1⟩
  | 99 => ⟨S_, .f32⟩
  | 100 => ⟨S50000x1, .f32⟩
  | 101 => ⟨S50000x1, .f32⟩
  | 102 => ⟨S50000x1, .f32⟩
  | 103 => ⟨S50000x1, .f32⟩
  | 104 => ⟨S96x1, .f32⟩
  | 105 => ⟨S50000x1, .f32⟩
  | 106 => ⟨S_, .i32⟩
  | 107 => ⟨S800000, .i32⟩
  | 108 => ⟨S800000, .i1⟩
  | 109 => ⟨S_, .i32⟩
  | 110 => ⟨S800000, .i32⟩
  | 111 => ⟨S800000, .i32⟩
  | 112 => ⟨S800000, .i32⟩
  | 113 => ⟨S800000x1, .i32⟩
  | 114 => ⟨S800000x1, .f32⟩
  | 115 => ⟨S_, .i32⟩
  | 116 => ⟨S800000, .i32⟩
  | 117 => ⟨S800000, .i1⟩
  | 118 => ⟨S_, .i32⟩
  | 119 => ⟨S800000, .i32⟩
  | 120 => ⟨S800000, .i32⟩
  | 121 => ⟨S800000, .i32⟩
  | 122 => ⟨S800000x1, .i32⟩
  | 123 => ⟨S800000x1, .f32⟩
  | 124 => ⟨S800000x1, .f32⟩
  | 125 => ⟨S_, .f32⟩
  | 126 => ⟨S800000x1, .f32⟩
  | 127 => ⟨S800000x1, .i1⟩
  | _ => ⟨S50000x256, .f32⟩

abbrev hbmTy0_3 (i : Nat) : BufTy := match i % 128 with
  | 0 => ⟨S_, .f32⟩
  | 1 => ⟨S800000x1, .f32⟩
  | 2 => ⟨S800000x1, .f32⟩
  | 3 => ⟨S800000x1, .f32⟩
  | 4 => ⟨S800000x1, .f32⟩
  | 5 => ⟨S_, .f32⟩
  | 6 => ⟨S50000x1, .f32⟩
  | 7 => ⟨S800000x1, .i32⟩
  | 8 => ⟨S50000x1, .f32⟩
  | 9 => ⟨S50000x1, .f32⟩
  | 10 => ⟨S_, .i32⟩
  | 11 => ⟨S800000, .i32⟩
  | 12 => ⟨S800000, .i1⟩
  | 13 => ⟨S_, .i32⟩
  | 14 => ⟨S800000, .i32⟩
  | 15 => ⟨S800000, .i32⟩
  | 16 => ⟨S800000, .i32⟩
  | 17 => ⟨S800000x1, .i32⟩
  | 18 => ⟨S800000x96, .f32⟩
  | 19 => ⟨S800000x96, .f32⟩
  | 20 => ⟨S800000x96, .f32⟩
  | 21 => ⟨S_, .f32⟩
  | 22 => ⟨S50000x96, .f32⟩
  | 23 => ⟨S800000x1, .i32⟩
  | 24 => ⟨S50000x96, .f32⟩
  | 25 => ⟨S50000x96, .f32⟩
  | 26 => ⟨S50000x96, .f32⟩
  | 27 => ⟨S50000x96, .f32⟩
  | 28 => ⟨S50000x96, .f32⟩
  | 29 => ⟨S50000x96, .f32⟩
  | 30 => ⟨S_, .f32⟩
  | 31 => ⟨S50000x96, .f32⟩
  | 32 => ⟨S50000x96, .i1⟩
  | 33 => ⟨S_, .f32⟩
  | 34 => ⟨S50000x96, .f32⟩
  | 35 => ⟨S50000x96, .i1⟩
  | 36 => ⟨S_, .f32⟩
  | 37 => ⟨S_, .f32⟩
  | 38 => ⟨S50000x96, .f32⟩
  | 39 => ⟨S50000x96, .f32⟩
  | 40 => ⟨S50000x96, .f32⟩
  | 41 => ⟨S_, .f32⟩
  | 42 => ⟨S50000x96, .f32⟩
  | 43 => ⟨S50000x96, .f32⟩
  | 44 => ⟨S50000x96, .f32⟩
  | 45 => ⟨S96x1, .f32⟩
  | 46 => ⟨S50000x1, .f32⟩
  | 47 => ⟨S96x1, .f32⟩
  | 48 => ⟨S50000x1, .f32⟩
  | 49 => ⟨S50000x1, .f32⟩
  | 50 => ⟨S_, .f32⟩
  | 51 => ⟨S50000x1, .f32⟩
  | 52 => ⟨S50000x1, .i1⟩
  | 53 => ⟨S_, .f32⟩
  | 54 => ⟨S50000x1, .f32⟩
  | 55 => ⟨S50000x1, .f32⟩
  | 56 => ⟨S50000x1, .f32⟩
  | 57 => ⟨S50000x1, .f32⟩
  | 58 => ⟨S96x1, .f32⟩
  | 59 => ⟨S50000x1, .f32⟩
  | 60 => ⟨S_, .i32⟩
  | 61 => ⟨S800000, .i32⟩
  | 62 => ⟨S800000, .i1⟩
  | 63 => ⟨S_, .i32⟩
  | 64 => ⟨S800000, .i32⟩
  | 65 => ⟨S800000, .i32⟩
  | 66 => ⟨S800000, .i32⟩
  | 67 => ⟨S800000x1, .i32⟩
  | 68 => ⟨S800000x1, .f32⟩
  | 69 => ⟨S_, .i32⟩
  | 70 => ⟨S800000, .i32⟩
  | 71 => ⟨S800000, .i1⟩
  | 72 => ⟨S_, .i32⟩
  | 73 => ⟨S800000, .i32⟩
  | 74 => ⟨S800000, .i32⟩
  | 75 => ⟨S800000, .i32⟩
  | 76 => ⟨S800000x1, .i32⟩
  | 77 => ⟨S800000x1, .f32⟩
  | 78 => ⟨S800000x1, .f32⟩
  | 79 => ⟨S_, .f32⟩
  | 80 => ⟨S800000x1, .f32⟩
  | 81 => ⟨S800000x1, .i1⟩
  | 82 => ⟨S_, .f32⟩
  | 83 => ⟨S800000x1, .f32⟩
  | 84 => ⟨S800000x1, .f32⟩
  | 85 => ⟨S800000x1, .f32⟩
  | 86 => ⟨S800000x1, .f32⟩
  | 87 => ⟨S_, .f32⟩
  | 88 => ⟨S50000x1, .f32⟩
  | 89 => ⟨S800000x1, .i32⟩
  | 90 => ⟨S50000x1, .f32⟩
  | 91 => ⟨S50000x1, .f32⟩
  | 92 => ⟨S_, .i32⟩
  | 93 => ⟨S800000, .i32⟩
  | 94 => ⟨S800000, .i1⟩
  | 95 => ⟨S_, .i32⟩
  | 96 => ⟨S800000, .i32⟩
  | 97 => ⟨S800000, .i32⟩
  | 98 => ⟨S800000, .i32⟩
  | 99 => ⟨S800000x1, .i32⟩
  | 100 => ⟨S800000x96, .f32⟩
  | 101 => ⟨S800000x96, .f32⟩
  | 102 => ⟨S800000x96, .f32⟩
  | 103 => ⟨S_, .f32⟩
  | 104 => ⟨S50000x96, .f32⟩
  | 105 => ⟨S800000x1, .i32⟩
  | 106 => ⟨S50000x96, .f32⟩
  | 107 => ⟨S50000x96, .f32⟩
  | 108 => ⟨S50000x96, .f32⟩
  | 109 => ⟨S50000x96, .f32⟩
  | 110 => ⟨S50000x96, .f32⟩
  | 111 => ⟨S50000x96, .f32⟩
  | 112 => ⟨S_, .f32⟩
  | 113 => ⟨S50000x96, .f32⟩
  | 114 => ⟨S50000x96, .i1⟩
  | 115 => ⟨S_, .f32⟩
  | 116 => ⟨S50000x96, .f32⟩
  | 117 => ⟨S50000x96, .i1⟩
  | 118 => ⟨S_, .f32⟩
  | 119 => ⟨S_, .f32⟩
  | 120 => ⟨S50000x96, .f32⟩
  | 121 => ⟨S50000x96, .f32⟩
  | 122 => ⟨S50000x96, .f32⟩
  | 123 => ⟨S_, .f32⟩
  | 124 => ⟨S50000x96, .f32⟩
  | 125 => ⟨S50000x96, .f32⟩
  | 126 => ⟨S50000x96, .f32⟩
  | 127 => ⟨S96x1, .f32⟩
  | _ => ⟨S50000x256, .f32⟩

abbrev hbmTy0_4 (i : Nat) : BufTy := match i % 128 with
  | 0 => ⟨S50000x1, .f32⟩
  | 1 => ⟨S96x1, .f32⟩
  | 2 => ⟨S50000x1, .f32⟩
  | 3 => ⟨S50000x1, .f32⟩
  | 4 => ⟨S_, .f32⟩
  | 5 => ⟨S50000x1, .f32⟩
  | 6 => ⟨S50000x1, .i1⟩
  | 7 => ⟨S_, .f32⟩
  | 8 => ⟨S50000x1, .f32⟩
  | 9 => ⟨S50000x1, .f32⟩
  | 10 => ⟨S50000x1, .f32⟩
  | 11 => ⟨S50000x1, .f32⟩
  | 12 => ⟨S96x1, .f32⟩
  | 13 => ⟨S50000x1, .f32⟩
  | 14 => ⟨S_, .i32⟩
  | 15 => ⟨S800000, .i32⟩
  | 16 => ⟨S800000, .i1⟩
  | 17 => ⟨S_, .i32⟩
  | 18 => ⟨S800000, .i32⟩
  | 19 => ⟨S800000, .i32⟩
  | 20 => ⟨S800000, .i32⟩
  | 21 => ⟨S800000x1, .i32⟩
  | 22 => ⟨S800000x1, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000x1, .f32⟩
  | 32 => ⟨S800000x1, .f32⟩
  | 33 => ⟨S_, .f32⟩
  | 34 => ⟨S800000x1, .f32⟩
  | 35 => ⟨S800000x1, .i1⟩
  | 36 => ⟨S_, .f32⟩
  | 37 => ⟨S800000x1, .f32⟩
  | 38 => ⟨S800000x1, .f32⟩
  | 39 => ⟨S800000x1, .f32⟩
  | 40 => ⟨S800000x1, .f32⟩
  | 41 => ⟨S_, .f32⟩
  | 42 => ⟨S50000x1, .f32⟩
  | 43 => ⟨S800000x1, .i32⟩
  | 44 => ⟨S50000x1, .f32⟩
  | 45 => ⟨S50000x1, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x96, .f32⟩
  | 55 => ⟨S800000x96, .f32⟩
  | 56 => ⟨S800000x96, .f32⟩
  | 57 => ⟨S_, .f32⟩
  | 58 => ⟨S50000x96, .f32⟩
  | 59 => ⟨S800000x1, .i32⟩
  | 60 => ⟨S50000x96, .f32⟩
  | 61 => ⟨S50000x96, .f32⟩
  | 62 => ⟨S50000x96, .f32⟩
  | 63 => ⟨S50000x96, .f32⟩
  | 64 => ⟨S50000x96, .f32⟩
  | 65 => ⟨S50000x96, .f32⟩
  | 66 => ⟨S_, .f32⟩
  | 67 => ⟨S50000x96, .f32⟩
  | 68 => ⟨S50000x96, .i1⟩
  | 69 => ⟨S_, .f32⟩
  | 70 => ⟨S50000x96, .f32⟩
  | 71 => ⟨S50000x96, .i1⟩
  | 72 => ⟨S_, .f32⟩
  | 73 => ⟨S_, .f32⟩
  | 74 => ⟨S50000x96, .f32⟩
  | 75 => ⟨S50000x96, .f32⟩
  | 76 => ⟨S50000x96, .f32⟩
  | 77 => ⟨S_, .f32⟩
  | 78 => ⟨S50000x96, .f32⟩
  | 79 => ⟨S50000x96, .f32⟩
  | 80 => ⟨S50000x96, .f32⟩
  | 81 => ⟨S96x1, .f32⟩
  | 82 => ⟨S50000x1, .f32⟩
  | 83 => ⟨S96x1, .f32⟩
  | 84 => ⟨S50000x1, .f32⟩
  | 85 => ⟨S50000x1, .f32⟩
  | 86 => ⟨S_, .f32⟩
  | 87 => ⟨S50000x1, .f32⟩
  | 88 => ⟨S50000x1, .i1⟩
  | 89 => ⟨S_, .f32⟩
  | 90 => ⟨S50000x1, .f32⟩
  | 91 => ⟨S50000x1, .f32⟩
  | 92 => ⟨S50000x1, .f32⟩
  | 93 => ⟨S50000x1, .f32⟩
  | 94 => ⟨S96x1, .f32⟩
  | 95 => ⟨S50000x1, .f32⟩
  | 96 => ⟨S_, .i32⟩
  | 97 => ⟨S800000, .i32⟩
  | 98 => ⟨S800000, .i1⟩
  | 99 => ⟨S_, .i32⟩
  | 100 => ⟨S800000, .i32⟩
  | 101 => ⟨S800000, .i32⟩
  | 102 => ⟨S800000, .i32⟩
  | 103 => ⟨S800000x1, .i32⟩
  | 104 => ⟨S800000x1, .f32⟩
  | 105 => ⟨S_, .i32⟩
  | 106 => ⟨S800000, .i32⟩
  | 107 => ⟨S800000, .i1⟩
  | 108 => ⟨S_, .i32⟩
  | 109 => ⟨S800000, .i32⟩
  | 110 => ⟨S800000, .i32⟩
  | 111 => ⟨S800000, .i32⟩
  | 112 => ⟨S800000x1, .i32⟩
  | 113 => ⟨S800000x1, .f32⟩
  | 114 => ⟨S800000x1, .f32⟩
  | 115 => ⟨S_, .f32⟩
  | 116 => ⟨S800000x1, .f32⟩
  | 117 => ⟨S800000x1, .i1⟩
  | 118 => ⟨S_, .f32⟩
  | 119 => ⟨S800000x1, .f32⟩
  | 120 => ⟨S800000x1, .f32⟩
  | 121 => ⟨S800000x1, .f32⟩
  | 122 => ⟨S800000x1, .f32⟩
  | 123 => ⟨S_, .f32⟩
  | 124 => ⟨S50000x1, .f32⟩
  | 125 => ⟨S800000x1, .i32⟩
  | 126 => ⟨S50000x1, .f32⟩
  | 127 => ⟨S50000x1, .f32⟩
  | _ => ⟨S50000x256, .f32⟩

abbrev hbmTy0_5 (i : Nat) : BufTy := match i % 128 with
  | 0 => ⟨S_, .i32⟩
  | 1 => ⟨S800000, .i32⟩
  | 2 => ⟨S800000, .i1⟩
  | 3 => ⟨S_, .i32⟩
  | 4 => ⟨S800000, .i32⟩
  | 5 => ⟨S800000, .i32⟩
  | 6 => ⟨S800000, .i32⟩
  | 7 => ⟨S800000x1, .i32⟩
  | 8 => ⟨S800000x96, .f32⟩
  | 9 => ⟨S800000x96, .f32⟩
  | 10 => ⟨S800000x96, .f32⟩
  | 11 => ⟨S_, .f32⟩
  | 12 => ⟨S50000x96, .f32⟩
  | 13 => ⟨S800000x1, .i32⟩
  | 14 => ⟨S50000x96, .f32⟩
  | 15 => ⟨S50000x96, .f32⟩
  | 16 => ⟨S50000x96, .f32⟩
  | 17 => ⟨S50000x96, .f32⟩
  | 18 => ⟨S50000x96, .f32⟩
  | 19 => ⟨S50000x96, .f32⟩
  | 20 => ⟨S_, .f32⟩
  | 21 => ⟨S50000x96, .f32⟩
  | 22 => ⟨S50000x96, .i1⟩
  | 23 => ⟨S_, .f32⟩
  | 24 => ⟨S50000x96, .f32⟩
  | 25 => ⟨S50000x96, .i1⟩
  | 26 => ⟨S_, .f32⟩
  | 27 => ⟨S_, .f32⟩
  | 28 => ⟨S50000x96, .f32⟩
  | 29 => ⟨S50000x96, .f32⟩
  | 30 => ⟨S50000x96, .f32⟩
  | 31 => ⟨S_, .f32⟩
  | 32 => ⟨S50000x96, .f32⟩
  | 33 => ⟨S50000x96, .f32⟩
  | 34 => ⟨S50000x96, .f32⟩
  | 35 => ⟨S96x1, .f32⟩
  | 36 => ⟨S50000x1, .f32⟩
  | 37 => ⟨S96x1, .f32⟩
  | 38 => ⟨S50000x1, .f32⟩
  | 39 => ⟨S50000x1, .f32⟩
  | 40 => ⟨S_, .f32⟩
  | 41 => ⟨S50000x1, .f32⟩
  | 42 => ⟨S50000x1, .i1⟩
  | 43 => ⟨S_, .f32⟩
  | 44 => ⟨S50000x1, .f32⟩
  | 45 => ⟨S50000x1, .f32⟩
  | 46 => ⟨S50000x1, .f32⟩
  | 47 => ⟨S50000x1, .f32⟩
  | 48 => ⟨S96x1, .f32⟩
  | 49 => ⟨S50000x1, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000x1, .f32⟩
  | 59 => ⟨S_, .i32⟩
  | 60 => ⟨S800000, .i32⟩
  | 61 => ⟨S800000, .i1⟩
  | 62 => ⟨S_, .i32⟩
  | 63 => ⟨S800000, .i32⟩
  | 64 => ⟨S800000, .i32⟩
  | 65 => ⟨S800000, .i32⟩
  | 66 => ⟨S800000x1, .i32⟩
  | 67 => ⟨S800000x1, .f32⟩
  | 68 => ⟨S800000x1, .f32⟩
  | 69 => ⟨S_, .f32⟩
  | 70 => ⟨S800000x1, .f32⟩
  | 71 => ⟨S800000x1, .i1⟩
  | 72 => ⟨S_, .f32⟩
  | 73 => ⟨S800000x1, .f32⟩
  | 74 => ⟨S800000x1, .f32⟩
  | 75 => ⟨S800000x1, .f32⟩
  | 76 => ⟨S800000x1, .f32⟩
  | 77 => ⟨S_, .f32⟩
  | 78 => ⟨S50000x1, .f32⟩
  | 79 => ⟨S800000x1, .i32⟩
  | 80 => ⟨S50000x1, .f32⟩
  | 81 => ⟨S50000x1, .f32⟩
  | 82 => ⟨S_, .i32⟩
  | 83 => ⟨S800000, .i32⟩
  | 84 => ⟨S800000, .i1⟩
  | 85 => ⟨S_, .i32⟩
  | 86 => ⟨S800000, .i32⟩
  | 87 => ⟨S800000, .i32⟩
  | 88 => ⟨S800000, .i32⟩
  | 89 => ⟨S800000x1, .i32⟩
  | 90 => ⟨S800000x96, .f32⟩
  | 91 => ⟨S800000x96, .f32⟩
  | 92 => ⟨S800000x96, .f32⟩
  | 93 => ⟨S_, .f32⟩
  | 94 => ⟨S50000x96, .f32⟩
  | 95 => ⟨S800000x1, .i32⟩
  | 96 => ⟨S50000x96, .f32⟩
  | 97 => ⟨S50000x96, .f32⟩
  | 98 => ⟨S50000x96, .f32⟩
  | 99 => ⟨S50000x96, .f32⟩
  | 100 => ⟨S50000x96, .f32⟩
  | 101 => ⟨S50000x96, .f32⟩
  | 102 => ⟨S_, .f32⟩
  | 103 => ⟨S50000x96, .f32⟩
  | 104 => ⟨S50000x96, .i1⟩
  | 105 => ⟨S_, .f32⟩
  | 106 => ⟨S50000x96, .f32⟩
  | 107 => ⟨S50000x96, .i1⟩
  | 108 => ⟨S_, .f32⟩
  | 109 => ⟨S_, .f32⟩
  | 110 => ⟨S50000x96, .f32⟩
  | 111 => ⟨S50000x96, .f32⟩
  | 112 => ⟨S50000x96, .f32⟩
  | 113 => ⟨S_, .f32⟩
  | 114 => ⟨S50000x96, .f32⟩
  | 115 => ⟨S50000x96, .f32⟩
  | 116 => ⟨S50000x96, .f32⟩
  | 117 => ⟨S96x1, .f32⟩
  | 118 => ⟨S50000x1, .f32⟩
  | 119 => ⟨S96x1, .f32⟩
  | 120 => ⟨S50000x1, .f32⟩
  | 121 => ⟨S50000x1, .f32⟩
  | 122 => ⟨S_, .f32⟩
  | 123 => ⟨S50000x1, .f32⟩
  | 124 => ⟨S50000x1, .i1⟩
  | 125 => ⟨S_, .f32⟩
  | 126 => ⟨S50000x1, .f32⟩
  | 127 => ⟨S50000x1, .f32⟩
  | _ => ⟨S50000x256, .f32⟩

abbrev hbmTy0_6 (i : Nat) : BufTy := match i % 128 with
  | 0 => ⟨S50000x1, .f32⟩
  | 1 => ⟨S50000x1, .f32⟩
  | 2 => ⟨S96x1, .f32⟩
  | 3 => ⟨S50000x1, .f32⟩
  | 4 => ⟨S_, .i32⟩
  | 5 => ⟨S800000, .i32⟩
  | 6 => ⟨S800000, .i1⟩
  | 7 => ⟨S_, .i32⟩
  | 8 => ⟨S800000, .i32⟩
  | 9 => ⟨S800000, .i32⟩
  | 10 => ⟨S800000, .i32⟩
  | 11 => ⟨S800000x1, .i32⟩
  | 12 => ⟨S800000x1, .f32⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S800000x1, .i32⟩
  | 21 => ⟨S800000x1, .f32⟩
  | 22 => ⟨S800000x1, .f32⟩
  | 23 => ⟨S_, .f32⟩
  | 24 => ⟨S800000x1, .f32⟩
  | 25 => ⟨S800000x1, .i1⟩
  | 26 => ⟨S_, .f32⟩
  | 27 => ⟨S800000x1, .f32⟩
  | 28 => ⟨S800000x1, .f32⟩
  | 29 => ⟨S800000x1, .f32⟩
  | 30 => ⟨S800000x1, .f32⟩
  | 31 => ⟨S_, .f32⟩
  | 32 => ⟨S50000x1, .f32⟩
  | 33 => ⟨S800000x1, .i32⟩
  | 34 => ⟨S50000x1, .f32⟩
  | 35 => ⟨S50000x1, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000x96, .f32⟩
  | 45 => ⟨S800000x96, .f32⟩
  | 46 => ⟨S800000x96, .f32⟩
  | 47 => ⟨S_, .f32⟩
  | 48 => ⟨S50000x96, .f32⟩
  | 49 => ⟨S800000x1, .i32⟩
  | 50 => ⟨S50000x96, .f32⟩
  | 51 => ⟨S50000x96, .f32⟩
  | 52 => ⟨S50000x96, .f32⟩
  | 53 => ⟨S50000x96, .f32⟩
  | 54 => ⟨S50000x96, .f32⟩
  | 55 => ⟨S50000x96, .f32⟩
  | 56 => ⟨S_, .f32⟩
  | 57 => ⟨S50000x96, .f32⟩
  | 58 => ⟨S50000x96, .i1⟩
  | 59 => ⟨S_, .f32⟩
  | 60 => ⟨S50000x96, .f32⟩
  | 61 => ⟨S50000x96, .i1⟩
  | 62 => ⟨S_, .f32⟩
  | 63 => ⟨S_, .f32⟩
  | 64 => ⟨S50000x96, .f32⟩
  | 65 => ⟨S50000x96, .f32⟩
  | 66 => ⟨S50000x96, .f32⟩
  | 67 => ⟨S_, .f32⟩
  | 68 => ⟨S50000x96, .f32⟩
  | 69 => ⟨S50000x96, .f32⟩
  | 70 => ⟨S50000x96, .f32⟩
  | 71 => ⟨S50000x64, .f32⟩
  | 72 => ⟨S1x64, .f32⟩
  | 73 => ⟨S50000x64, .f32⟩
  | 74 => ⟨S50000x64, .f32⟩
  | _ => ⟨S50000x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_call0_cst : Ref sig .tc := ⟨.hbm, 16, rfl⟩
abbrev main_call0_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c : Ref sig .tc := ⟨.hbm, 34, rfl⟩
abbrev main_v22 : Ref sig .tc := ⟨.hbm, 35, rfl⟩
abbrev main_v23 : Ref sig .tc := ⟨.hbm, 36, rfl⟩
abbrev main_c_1 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_2 : Ref sig .tc := ⟨.hbm, 43, rfl⟩
abbrev main_v29 : Ref sig .tc := ⟨.hbm, 44, rfl⟩
abbrev main_v30 : Ref sig .tc := ⟨.hbm, 45, rfl⟩
abbrev main_c_3 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_4 : Ref sig .tc := ⟨.hbm, 53, rfl⟩
abbrev main_v37 : Ref sig .tc := ⟨.hbm, 54, rfl⟩
abbrev main_v38 : Ref sig .tc := ⟨.hbm, 55, rfl⟩
abbrev main_cst_5 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_6 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_7 : Ref sig .tc := ⟨.hbm, 66, rfl⟩
abbrev main_v47 : Ref sig .tc := ⟨.hbm, 67, rfl⟩
abbrev main_v48 : Ref sig .tc := ⟨.hbm, 68, rfl⟩
abbrev main_c_8 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_call3_cst : Ref sig .tc := ⟨.hbm, 86, rfl⟩
abbrev main_call3_v0 : Ref sig .tc := ⟨.hbm, 87, rfl⟩
abbrev main_call3_v1 : Ref sig .tc := ⟨.hbm, 88, rfl⟩
abbrev main_call3_cst_0 : Ref sig .tc := ⟨.hbm, 89, rfl⟩
abbrev main_call3_v2 : Ref sig .tc := ⟨.hbm, 90, rfl⟩
abbrev main_call3_v3 : Ref sig .tc := ⟨.hbm, 91, rfl⟩
abbrev main_call3_cst_1 : Ref sig .tc := ⟨.hbm, 92, rfl⟩
abbrev main_call3_call0_v0 : Ref sig .tc := ⟨.hbm, 93, rfl⟩
abbrev main_call3_call0_v1 : Ref sig .tc := ⟨.hbm, 94, rfl⟩
abbrev main_call3_v4 : Ref sig .tc := ⟨.hbm, 95, rfl⟩
abbrev main_call3_v5 : Ref sig .tc := ⟨.hbm, 96, rfl⟩
abbrev main_call3_cst_2 : Ref sig .tc := ⟨.hbm, 97, rfl⟩
abbrev main_call3_v6 : Ref sig .tc := ⟨.hbm, 98, rfl⟩
abbrev main_call3_v7 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_cst_10 : Ref sig .tc := ⟨.hbm, 106, rfl⟩
abbrev main_v70 : Ref sig .tc := ⟨.hbm, 107, rfl⟩
abbrev main_v71 : Ref sig .tc := ⟨.hbm, 108, rfl⟩
abbrev main_cst_11 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_c_12 : Ref sig .tc := ⟨.hbm, 116, rfl⟩
abbrev main_v78 : Ref sig .tc := ⟨.hbm, 117, rfl⟩
abbrev main_v79 : Ref sig .tc := ⟨.hbm, 118, rfl⟩
abbrev main_c_13 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_c_14 : Ref sig .tc := ⟨.hbm, 125, rfl⟩
abbrev main_v85 : Ref sig .tc := ⟨.hbm, 126, rfl⟩
abbrev main_v86 : Ref sig .tc := ⟨.hbm, 127, rfl⟩
abbrev main_c_15 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_cst_16 : Ref sig .tc := ⟨.hbm, 135, rfl⟩
abbrev main_v93 : Ref sig .tc := ⟨.hbm, 136, rfl⟩
abbrev main_v94 : Ref sig .tc := ⟨.hbm, 137, rfl⟩
abbrev main_cst_17 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_cst_18 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_c_19 : Ref sig .tc := ⟨.hbm, 148, rfl⟩
abbrev main_v103 : Ref sig .tc := ⟨.hbm, 149, rfl⟩
abbrev main_v104 : Ref sig .tc := ⟨.hbm, 150, rfl⟩
abbrev main_c_20 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_cst_21 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_call6_cst : Ref sig .tc := ⟨.hbm, 168, rfl⟩
abbrev main_call6_v0 : Ref sig .tc := ⟨.hbm, 169, rfl⟩
abbrev main_call6_v1 : Ref sig .tc := ⟨.hbm, 170, rfl⟩
abbrev main_call6_cst_0 : Ref sig .tc := ⟨.hbm, 171, rfl⟩
abbrev main_call6_v2 : Ref sig .tc := ⟨.hbm, 172, rfl⟩
abbrev main_call6_v3 : Ref sig .tc := ⟨.hbm, 173, rfl⟩
abbrev main_call6_cst_1 : Ref sig .tc := ⟨.hbm, 174, rfl⟩
abbrev main_call6_call0_v0 : Ref sig .tc := ⟨.hbm, 175, rfl⟩
abbrev main_call6_call0_v1 : Ref sig .tc := ⟨.hbm, 176, rfl⟩
abbrev main_call6_v4 : Ref sig .tc := ⟨.hbm, 177, rfl⟩
abbrev main_call6_v5 : Ref sig .tc := ⟨.hbm, 178, rfl⟩
abbrev main_call6_cst_2 : Ref sig .tc := ⟨.hbm, 179, rfl⟩
abbrev main_call6_v6 : Ref sig .tc := ⟨.hbm, 180, rfl⟩
abbrev main_call6_v7 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_cst_22 : Ref sig .tc := ⟨.hbm, 188, rfl⟩
abbrev main_v126 : Ref sig .tc := ⟨.hbm, 189, rfl⟩
abbrev main_v127 : Ref sig .tc := ⟨.hbm, 190, rfl⟩
abbrev main_cst_23 : Ref sig .tc := ⟨.hbm, 191, rfl⟩
abbrev main_v128 : Ref sig .tc := ⟨.hbm, 192, rfl⟩
abbrev main_v129 : Ref sig .tc := ⟨.hbm, 193, rfl⟩
abbrev main_v130 : Ref sig .tc := ⟨.hbm, 194, rfl⟩
abbrev main_v131 : Ref sig .tc := ⟨.hbm, 195, rfl⟩
abbrev main_v132 : Ref sig .tc := ⟨.hbm, 196, rfl⟩
abbrev main_v133 : Ref sig .tc := ⟨.hbm, 197, rfl⟩
abbrev main_c_24 : Ref sig .tc := ⟨.hbm, 198, rfl⟩
abbrev main_v134 : Ref sig .tc := ⟨.hbm, 199, rfl⟩
abbrev main_v135 : Ref sig .tc := ⟨.hbm, 200, rfl⟩
abbrev main_c_25 : Ref sig .tc := ⟨.hbm, 201, rfl⟩
abbrev main_v136 : Ref sig .tc := ⟨.hbm, 202, rfl⟩
abbrev main_v137 : Ref sig .tc := ⟨.hbm, 203, rfl⟩
abbrev main_v138 : Ref sig .tc := ⟨.hbm, 204, rfl⟩
abbrev main_v139 : Ref sig .tc := ⟨.hbm, 205, rfl⟩
abbrev main_v140 : Ref sig .tc := ⟨.hbm, 206, rfl⟩
abbrev main_c_26 : Ref sig .tc := ⟨.hbm, 207, rfl⟩
abbrev main_v141 : Ref sig .tc := ⟨.hbm, 208, rfl⟩
abbrev main_v142 : Ref sig .tc := ⟨.hbm, 209, rfl⟩
abbrev main_c_27 : Ref sig .tc := ⟨.hbm, 210, rfl⟩
abbrev main_v143 : Ref sig .tc := ⟨.hbm, 211, rfl⟩
abbrev main_v144 : Ref sig .tc := ⟨.hbm, 212, rfl⟩
abbrev main_v145 : Ref sig .tc := ⟨.hbm, 213, rfl⟩
abbrev main_v146 : Ref sig .tc := ⟨.hbm, 214, rfl⟩
abbrev main_v147 : Ref sig .tc := ⟨.hbm, 215, rfl⟩
abbrev main_v148 : Ref sig .tc := ⟨.hbm, 216, rfl⟩
abbrev main_cst_28 : Ref sig .tc := ⟨.hbm, 217, rfl⟩
abbrev main_v149 : Ref sig .tc := ⟨.hbm, 218, rfl⟩
abbrev main_v150 : Ref sig .tc := ⟨.hbm, 219, rfl⟩
abbrev main_cst_29 : Ref sig .tc := ⟨.hbm, 220, rfl⟩
abbrev main_v151 : Ref sig .tc := ⟨.hbm, 221, rfl⟩
abbrev main_v152 : Ref sig .tc := ⟨.hbm, 222, rfl⟩
abbrev main_v153 : Ref sig .tc := ⟨.hbm, 223, rfl⟩
abbrev main_v154 : Ref sig .tc := ⟨.hbm, 224, rfl⟩
abbrev main_cst_30 : Ref sig .tc := ⟨.hbm, 225, rfl⟩
abbrev main_v155 : Ref sig .tc := ⟨.hbm, 226, rfl⟩
abbrev main_v156 : Ref sig .tc := ⟨.hbm, 227, rfl⟩
abbrev main_v157 : Ref sig .tc := ⟨.hbm, 228, rfl⟩
abbrev main_v158 : Ref sig .tc := ⟨.hbm, 229, rfl⟩
abbrev main_c_31 : Ref sig .tc := ⟨.hbm, 230, rfl⟩
abbrev main_v159 : Ref sig .tc := ⟨.hbm, 231, rfl⟩
abbrev main_v160 : Ref sig .tc := ⟨.hbm, 232, rfl⟩
abbrev main_c_32 : Ref sig .tc := ⟨.hbm, 233, rfl⟩
abbrev main_v161 : Ref sig .tc := ⟨.hbm, 234, rfl⟩
abbrev main_v162 : Ref sig .tc := ⟨.hbm, 235, rfl⟩
abbrev main_v163 : Ref sig .tc := ⟨.hbm, 236, rfl⟩
abbrev main_v164 : Ref sig .tc := ⟨.hbm, 237, rfl⟩
abbrev main_v165 : Ref sig .tc := ⟨.hbm, 238, rfl⟩
abbrev main_v166 : Ref sig .tc := ⟨.hbm, 239, rfl⟩
abbrev main_v167 : Ref sig .tc := ⟨.hbm, 240, rfl⟩
abbrev main_cst_33 : Ref sig .tc := ⟨.hbm, 241, rfl⟩
abbrev main_v168 : Ref sig .tc := ⟨.hbm, 242, rfl⟩
abbrev main_v169 : Ref sig .tc := ⟨.hbm, 243, rfl⟩
abbrev main_v170 : Ref sig .tc := ⟨.hbm, 244, rfl⟩
abbrev main_v171 : Ref sig .tc := ⟨.hbm, 245, rfl⟩
abbrev main_v172 : Ref sig .tc := ⟨.hbm, 246, rfl⟩
abbrev main_v173 : Ref sig .tc := ⟨.hbm, 247, rfl⟩
abbrev main_v174 : Ref sig .tc := ⟨.hbm, 248, rfl⟩
abbrev main_v175 : Ref sig .tc := ⟨.hbm, 249, rfl⟩
abbrev main_call9_cst : Ref sig .tc := ⟨.hbm, 250, rfl⟩
abbrev main_call9_v0 : Ref sig .tc := ⟨.hbm, 251, rfl⟩
abbrev main_call9_v1 : Ref sig .tc := ⟨.hbm, 252, rfl⟩
abbrev main_call9_cst_0 : Ref sig .tc := ⟨.hbm, 253, rfl⟩
abbrev main_call9_v2 : Ref sig .tc := ⟨.hbm, 254, rfl⟩
abbrev main_call9_v3 : Ref sig .tc := ⟨.hbm, 255, rfl⟩
abbrev main_call9_cst_1 : Ref sig .tc := ⟨.hbm, 256, rfl⟩
abbrev main_call9_call0_v0 : Ref sig .tc := ⟨.hbm, 257, rfl⟩
abbrev main_call9_call0_v1 : Ref sig .tc := ⟨.hbm, 258, rfl⟩
abbrev main_call9_v4 : Ref sig .tc := ⟨.hbm, 259, rfl⟩
abbrev main_call9_v5 : Ref sig .tc := ⟨.hbm, 260, rfl⟩
abbrev main_call9_cst_2 : Ref sig .tc := ⟨.hbm, 261, rfl⟩
abbrev main_call9_v6 : Ref sig .tc := ⟨.hbm, 262, rfl⟩
abbrev main_call9_v7 : Ref sig .tc := ⟨.hbm, 263, rfl⟩
abbrev main_v176 : Ref sig .tc := ⟨.hbm, 264, rfl⟩
abbrev main_v177 : Ref sig .tc := ⟨.hbm, 265, rfl⟩
abbrev main_v178 : Ref sig .tc := ⟨.hbm, 266, rfl⟩
abbrev main_v179 : Ref sig .tc := ⟨.hbm, 267, rfl⟩
abbrev main_v180 : Ref sig .tc := ⟨.hbm, 268, rfl⟩
abbrev main_v181 : Ref sig .tc := ⟨.hbm, 269, rfl⟩
abbrev main_cst_34 : Ref sig .tc := ⟨.hbm, 270, rfl⟩
abbrev main_v182 : Ref sig .tc := ⟨.hbm, 271, rfl⟩
abbrev main_v183 : Ref sig .tc := ⟨.hbm, 272, rfl⟩
abbrev main_cst_35 : Ref sig .tc := ⟨.hbm, 273, rfl⟩
abbrev main_v184 : Ref sig .tc := ⟨.hbm, 274, rfl⟩
abbrev main_v185 : Ref sig .tc := ⟨.hbm, 275, rfl⟩
abbrev main_v186 : Ref sig .tc := ⟨.hbm, 276, rfl⟩
abbrev main_v187 : Ref sig .tc := ⟨.hbm, 277, rfl⟩
abbrev main_v188 : Ref sig .tc := ⟨.hbm, 278, rfl⟩
abbrev main_v189 : Ref sig .tc := ⟨.hbm, 279, rfl⟩
abbrev main_c_36 : Ref sig .tc := ⟨.hbm, 280, rfl⟩
abbrev main_v190 : Ref sig .tc := ⟨.hbm, 281, rfl⟩
abbrev main_v191 : Ref sig .tc := ⟨.hbm, 282, rfl⟩
abbrev main_c_37 : Ref sig .tc := ⟨.hbm, 283, rfl⟩
abbrev main_v192 : Ref sig .tc := ⟨.hbm, 284, rfl⟩
abbrev main_v193 : Ref sig .tc := ⟨.hbm, 285, rfl⟩
abbrev main_v194 : Ref sig .tc := ⟨.hbm, 286, rfl⟩
abbrev main_v195 : Ref sig .tc := ⟨.hbm, 287, rfl⟩
abbrev main_v196 : Ref sig .tc := ⟨.hbm, 288, rfl⟩
abbrev main_c_38 : Ref sig .tc := ⟨.hbm, 289, rfl⟩
abbrev main_v197 : Ref sig .tc := ⟨.hbm, 290, rfl⟩
abbrev main_v198 : Ref sig .tc := ⟨.hbm, 291, rfl⟩
abbrev main_c_39 : Ref sig .tc := ⟨.hbm, 292, rfl⟩
abbrev main_v199 : Ref sig .tc := ⟨.hbm, 293, rfl⟩
abbrev main_v200 : Ref sig .tc := ⟨.hbm, 294, rfl⟩
abbrev main_v201 : Ref sig .tc := ⟨.hbm, 295, rfl⟩
abbrev main_v202 : Ref sig .tc := ⟨.hbm, 296, rfl⟩
abbrev main_v203 : Ref sig .tc := ⟨.hbm, 297, rfl⟩
abbrev main_v204 : Ref sig .tc := ⟨.hbm, 298, rfl⟩
abbrev main_cst_40 : Ref sig .tc := ⟨.hbm, 299, rfl⟩
abbrev main_v205 : Ref sig .tc := ⟨.hbm, 300, rfl⟩
abbrev main_v206 : Ref sig .tc := ⟨.hbm, 301, rfl⟩
abbrev main_cst_41 : Ref sig .tc := ⟨.hbm, 302, rfl⟩
abbrev main_v207 : Ref sig .tc := ⟨.hbm, 303, rfl⟩
abbrev main_v208 : Ref sig .tc := ⟨.hbm, 304, rfl⟩
abbrev main_v209 : Ref sig .tc := ⟨.hbm, 305, rfl⟩
abbrev main_v210 : Ref sig .tc := ⟨.hbm, 306, rfl⟩
abbrev main_cst_42 : Ref sig .tc := ⟨.hbm, 307, rfl⟩
abbrev main_v211 : Ref sig .tc := ⟨.hbm, 308, rfl⟩
abbrev main_v212 : Ref sig .tc := ⟨.hbm, 309, rfl⟩
abbrev main_v213 : Ref sig .tc := ⟨.hbm, 310, rfl⟩
abbrev main_v214 : Ref sig .tc := ⟨.hbm, 311, rfl⟩
abbrev main_c_43 : Ref sig .tc := ⟨.hbm, 312, rfl⟩
abbrev main_v215 : Ref sig .tc := ⟨.hbm, 313, rfl⟩
abbrev main_v216 : Ref sig .tc := ⟨.hbm, 314, rfl⟩
abbrev main_c_44 : Ref sig .tc := ⟨.hbm, 315, rfl⟩
abbrev main_v217 : Ref sig .tc := ⟨.hbm, 316, rfl⟩
abbrev main_v218 : Ref sig .tc := ⟨.hbm, 317, rfl⟩
abbrev main_v219 : Ref sig .tc := ⟨.hbm, 318, rfl⟩
abbrev main_v220 : Ref sig .tc := ⟨.hbm, 319, rfl⟩
abbrev main_v221 : Ref sig .tc := ⟨.hbm, 320, rfl⟩
abbrev main_v222 : Ref sig .tc := ⟨.hbm, 321, rfl⟩
abbrev main_v223 : Ref sig .tc := ⟨.hbm, 322, rfl⟩
abbrev main_cst_45 : Ref sig .tc := ⟨.hbm, 323, rfl⟩
abbrev main_v224 : Ref sig .tc := ⟨.hbm, 324, rfl⟩
abbrev main_v225 : Ref sig .tc := ⟨.hbm, 325, rfl⟩
abbrev main_v226 : Ref sig .tc := ⟨.hbm, 326, rfl⟩
abbrev main_v227 : Ref sig .tc := ⟨.hbm, 327, rfl⟩
abbrev main_v228 : Ref sig .tc := ⟨.hbm, 328, rfl⟩
abbrev main_v229 : Ref sig .tc := ⟨.hbm, 329, rfl⟩
abbrev main_v230 : Ref sig .tc := ⟨.hbm, 330, rfl⟩
abbrev main_v231 : Ref sig .tc := ⟨.hbm, 331, rfl⟩
abbrev main_call12_cst : Ref sig .tc := ⟨.hbm, 332, rfl⟩
abbrev main_call12_v0 : Ref sig .tc := ⟨.hbm, 333, rfl⟩
abbrev main_call12_v1 : Ref sig .tc := ⟨.hbm, 334, rfl⟩
abbrev main_call12_cst_0 : Ref sig .tc := ⟨.hbm, 335, rfl⟩
abbrev main_call12_v2 : Ref sig .tc := ⟨.hbm, 336, rfl⟩
abbrev main_call12_v3 : Ref sig .tc := ⟨.hbm, 337, rfl⟩
abbrev main_call12_cst_1 : Ref sig .tc := ⟨.hbm, 338, rfl⟩
abbrev main_call12_call0_v0 : Ref sig .tc := ⟨.hbm, 339, rfl⟩
abbrev main_call12_call0_v1 : Ref sig .tc := ⟨.hbm, 340, rfl⟩
abbrev main_call12_v4 : Ref sig .tc := ⟨.hbm, 341, rfl⟩
abbrev main_call12_v5 : Ref sig .tc := ⟨.hbm, 342, rfl⟩
abbrev main_call12_cst_2 : Ref sig .tc := ⟨.hbm, 343, rfl⟩
abbrev main_call12_v6 : Ref sig .tc := ⟨.hbm, 344, rfl⟩
abbrev main_call12_v7 : Ref sig .tc := ⟨.hbm, 345, rfl⟩
abbrev main_v232 : Ref sig .tc := ⟨.hbm, 346, rfl⟩
abbrev main_v233 : Ref sig .tc := ⟨.hbm, 347, rfl⟩
abbrev main_v234 : Ref sig .tc := ⟨.hbm, 348, rfl⟩
abbrev main_v235 : Ref sig .tc := ⟨.hbm, 349, rfl⟩
abbrev main_v236 : Ref sig .tc := ⟨.hbm, 350, rfl⟩
abbrev main_v237 : Ref sig .tc := ⟨.hbm, 351, rfl⟩
abbrev main_cst_46 : Ref sig .tc := ⟨.hbm, 352, rfl⟩
abbrev main_v238 : Ref sig .tc := ⟨.hbm, 353, rfl⟩
abbrev main_v239 : Ref sig .tc := ⟨.hbm, 354, rfl⟩
abbrev main_cst_47 : Ref sig .tc := ⟨.hbm, 355, rfl⟩
abbrev main_v240 : Ref sig .tc := ⟨.hbm, 356, rfl⟩
abbrev main_v241 : Ref sig .tc := ⟨.hbm, 357, rfl⟩
abbrev main_v242 : Ref sig .tc := ⟨.hbm, 358, rfl⟩
abbrev main_v243 : Ref sig .tc := ⟨.hbm, 359, rfl⟩
abbrev main_v244 : Ref sig .tc := ⟨.hbm, 360, rfl⟩
abbrev main_v245 : Ref sig .tc := ⟨.hbm, 361, rfl⟩
abbrev main_c_48 : Ref sig .tc := ⟨.hbm, 362, rfl⟩
abbrev main_v246 : Ref sig .tc := ⟨.hbm, 363, rfl⟩
abbrev main_v247 : Ref sig .tc := ⟨.hbm, 364, rfl⟩
abbrev main_c_49 : Ref sig .tc := ⟨.hbm, 365, rfl⟩
abbrev main_v248 : Ref sig .tc := ⟨.hbm, 366, rfl⟩
abbrev main_v249 : Ref sig .tc := ⟨.hbm, 367, rfl⟩
abbrev main_v250 : Ref sig .tc := ⟨.hbm, 368, rfl⟩
abbrev main_v251 : Ref sig .tc := ⟨.hbm, 369, rfl⟩
abbrev main_v252 : Ref sig .tc := ⟨.hbm, 370, rfl⟩
abbrev main_c_50 : Ref sig .tc := ⟨.hbm, 371, rfl⟩
abbrev main_v253 : Ref sig .tc := ⟨.hbm, 372, rfl⟩
abbrev main_v254 : Ref sig .tc := ⟨.hbm, 373, rfl⟩
abbrev main_c_51 : Ref sig .tc := ⟨.hbm, 374, rfl⟩
abbrev main_v255 : Ref sig .tc := ⟨.hbm, 375, rfl⟩
abbrev main_v256 : Ref sig .tc := ⟨.hbm, 376, rfl⟩
abbrev main_v257 : Ref sig .tc := ⟨.hbm, 377, rfl⟩
abbrev main_v258 : Ref sig .tc := ⟨.hbm, 378, rfl⟩
abbrev main_v259 : Ref sig .tc := ⟨.hbm, 379, rfl⟩
abbrev main_v260 : Ref sig .tc := ⟨.hbm, 380, rfl⟩
abbrev main_cst_52 : Ref sig .tc := ⟨.hbm, 381, rfl⟩
abbrev main_v261 : Ref sig .tc := ⟨.hbm, 382, rfl⟩
abbrev main_v262 : Ref sig .tc := ⟨.hbm, 383, rfl⟩
abbrev main_cst_53 : Ref sig .tc := ⟨.hbm, 384, rfl⟩
abbrev main_v263 : Ref sig .tc := ⟨.hbm, 385, rfl⟩
abbrev main_v264 : Ref sig .tc := ⟨.hbm, 386, rfl⟩
abbrev main_v265 : Ref sig .tc := ⟨.hbm, 387, rfl⟩
abbrev main_v266 : Ref sig .tc := ⟨.hbm, 388, rfl⟩
abbrev main_cst_54 : Ref sig .tc := ⟨.hbm, 389, rfl⟩
abbrev main_v267 : Ref sig .tc := ⟨.hbm, 390, rfl⟩
abbrev main_v268 : Ref sig .tc := ⟨.hbm, 391, rfl⟩
abbrev main_v269 : Ref sig .tc := ⟨.hbm, 392, rfl⟩
abbrev main_v270 : Ref sig .tc := ⟨.hbm, 393, rfl⟩
abbrev main_c_55 : Ref sig .tc := ⟨.hbm, 394, rfl⟩
abbrev main_v271 : Ref sig .tc := ⟨.hbm, 395, rfl⟩
abbrev main_v272 : Ref sig .tc := ⟨.hbm, 396, rfl⟩
abbrev main_c_56 : Ref sig .tc := ⟨.hbm, 397, rfl⟩
abbrev main_v273 : Ref sig .tc := ⟨.hbm, 398, rfl⟩
abbrev main_v274 : Ref sig .tc := ⟨.hbm, 399, rfl⟩
abbrev main_v275 : Ref sig .tc := ⟨.hbm, 400, rfl⟩
abbrev main_v276 : Ref sig .tc := ⟨.hbm, 401, rfl⟩
abbrev main_v277 : Ref sig .tc := ⟨.hbm, 402, rfl⟩
abbrev main_v278 : Ref sig .tc := ⟨.hbm, 403, rfl⟩
abbrev main_v279 : Ref sig .tc := ⟨.hbm, 404, rfl⟩
abbrev main_cst_57 : Ref sig .tc := ⟨.hbm, 405, rfl⟩
abbrev main_v280 : Ref sig .tc := ⟨.hbm, 406, rfl⟩
abbrev main_v281 : Ref sig .tc := ⟨.hbm, 407, rfl⟩
abbrev main_v282 : Ref sig .tc := ⟨.hbm, 408, rfl⟩
abbrev main_v283 : Ref sig .tc := ⟨.hbm, 409, rfl⟩
abbrev main_v284 : Ref sig .tc := ⟨.hbm, 410, rfl⟩
abbrev main_v285 : Ref sig .tc := ⟨.hbm, 411, rfl⟩
abbrev main_v286 : Ref sig .tc := ⟨.hbm, 412, rfl⟩
abbrev main_v287 : Ref sig .tc := ⟨.hbm, 413, rfl⟩
abbrev main_call15_cst : Ref sig .tc := ⟨.hbm, 414, rfl⟩
abbrev main_call15_v0 : Ref sig .tc := ⟨.hbm, 415, rfl⟩
abbrev main_call15_v1 : Ref sig .tc := ⟨.hbm, 416, rfl⟩
abbrev main_call15_cst_0 : Ref sig .tc := ⟨.hbm, 417, rfl⟩
abbrev main_call15_v2 : Ref sig .tc := ⟨.hbm, 418, rfl⟩
abbrev main_call15_v3 : Ref sig .tc := ⟨.hbm, 419, rfl⟩
abbrev main_call15_cst_1 : Ref sig .tc := ⟨.hbm, 420, rfl⟩
abbrev main_call15_call0_v0 : Ref sig .tc := ⟨.hbm, 421, rfl⟩
abbrev main_call15_call0_v1 : Ref sig .tc := ⟨.hbm, 422, rfl⟩
abbrev main_call15_v4 : Ref sig .tc := ⟨.hbm, 423, rfl⟩
abbrev main_call15_v5 : Ref sig .tc := ⟨.hbm, 424, rfl⟩
abbrev main_call15_cst_2 : Ref sig .tc := ⟨.hbm, 425, rfl⟩
abbrev main_call15_v6 : Ref sig .tc := ⟨.hbm, 426, rfl⟩
abbrev main_call15_v7 : Ref sig .tc := ⟨.hbm, 427, rfl⟩
abbrev main_v288 : Ref sig .tc := ⟨.hbm, 428, rfl⟩
abbrev main_v289 : Ref sig .tc := ⟨.hbm, 429, rfl⟩
abbrev main_v290 : Ref sig .tc := ⟨.hbm, 430, rfl⟩
abbrev main_v291 : Ref sig .tc := ⟨.hbm, 431, rfl⟩
abbrev main_v292 : Ref sig .tc := ⟨.hbm, 432, rfl⟩
abbrev main_v293 : Ref sig .tc := ⟨.hbm, 433, rfl⟩
abbrev main_cst_58 : Ref sig .tc := ⟨.hbm, 434, rfl⟩
abbrev main_v294 : Ref sig .tc := ⟨.hbm, 435, rfl⟩
abbrev main_v295 : Ref sig .tc := ⟨.hbm, 436, rfl⟩
abbrev main_cst_59 : Ref sig .tc := ⟨.hbm, 437, rfl⟩
abbrev main_v296 : Ref sig .tc := ⟨.hbm, 438, rfl⟩
abbrev main_v297 : Ref sig .tc := ⟨.hbm, 439, rfl⟩
abbrev main_v298 : Ref sig .tc := ⟨.hbm, 440, rfl⟩
abbrev main_v299 : Ref sig .tc := ⟨.hbm, 441, rfl⟩
abbrev main_v300 : Ref sig .tc := ⟨.hbm, 442, rfl⟩
abbrev main_v301 : Ref sig .tc := ⟨.hbm, 443, rfl⟩
abbrev main_c_60 : Ref sig .tc := ⟨.hbm, 444, rfl⟩
abbrev main_v302 : Ref sig .tc := ⟨.hbm, 445, rfl⟩
abbrev main_v303 : Ref sig .tc := ⟨.hbm, 446, rfl⟩
abbrev main_c_61 : Ref sig .tc := ⟨.hbm, 447, rfl⟩
abbrev main_v304 : Ref sig .tc := ⟨.hbm, 448, rfl⟩
abbrev main_v305 : Ref sig .tc := ⟨.hbm, 449, rfl⟩
abbrev main_v306 : Ref sig .tc := ⟨.hbm, 450, rfl⟩
abbrev main_v307 : Ref sig .tc := ⟨.hbm, 451, rfl⟩
abbrev main_v308 : Ref sig .tc := ⟨.hbm, 452, rfl⟩
abbrev main_c_62 : Ref sig .tc := ⟨.hbm, 453, rfl⟩
abbrev main_v309 : Ref sig .tc := ⟨.hbm, 454, rfl⟩
abbrev main_v310 : Ref sig .tc := ⟨.hbm, 455, rfl⟩
abbrev main_c_63 : Ref sig .tc := ⟨.hbm, 456, rfl⟩
abbrev main_v311 : Ref sig .tc := ⟨.hbm, 457, rfl⟩
abbrev main_v312 : Ref sig .tc := ⟨.hbm, 458, rfl⟩
abbrev main_v313 : Ref sig .tc := ⟨.hbm, 459, rfl⟩
abbrev main_v314 : Ref sig .tc := ⟨.hbm, 460, rfl⟩
abbrev main_v315 : Ref sig .tc := ⟨.hbm, 461, rfl⟩
abbrev main_v316 : Ref sig .tc := ⟨.hbm, 462, rfl⟩
abbrev main_cst_64 : Ref sig .tc := ⟨.hbm, 463, rfl⟩
abbrev main_v317 : Ref sig .tc := ⟨.hbm, 464, rfl⟩
abbrev main_v318 : Ref sig .tc := ⟨.hbm, 465, rfl⟩
abbrev main_cst_65 : Ref sig .tc := ⟨.hbm, 466, rfl⟩
abbrev main_v319 : Ref sig .tc := ⟨.hbm, 467, rfl⟩
abbrev main_v320 : Ref sig .tc := ⟨.hbm, 468, rfl⟩
abbrev main_v321 : Ref sig .tc := ⟨.hbm, 469, rfl⟩
abbrev main_v322 : Ref sig .tc := ⟨.hbm, 470, rfl⟩
abbrev main_cst_66 : Ref sig .tc := ⟨.hbm, 471, rfl⟩
abbrev main_v323 : Ref sig .tc := ⟨.hbm, 472, rfl⟩
abbrev main_v324 : Ref sig .tc := ⟨.hbm, 473, rfl⟩
abbrev main_v325 : Ref sig .tc := ⟨.hbm, 474, rfl⟩
abbrev main_v326 : Ref sig .tc := ⟨.hbm, 475, rfl⟩
abbrev main_c_67 : Ref sig .tc := ⟨.hbm, 476, rfl⟩
abbrev main_v327 : Ref sig .tc := ⟨.hbm, 477, rfl⟩
abbrev main_v328 : Ref sig .tc := ⟨.hbm, 478, rfl⟩
abbrev main_c_68 : Ref sig .tc := ⟨.hbm, 479, rfl⟩
abbrev main_v329 : Ref sig .tc := ⟨.hbm, 480, rfl⟩
abbrev main_v330 : Ref sig .tc := ⟨.hbm, 481, rfl⟩
abbrev main_v331 : Ref sig .tc := ⟨.hbm, 482, rfl⟩
abbrev main_v332 : Ref sig .tc := ⟨.hbm, 483, rfl⟩
abbrev main_v333 : Ref sig .tc := ⟨.hbm, 484, rfl⟩
abbrev main_v334 : Ref sig .tc := ⟨.hbm, 485, rfl⟩
abbrev main_v335 : Ref sig .tc := ⟨.hbm, 486, rfl⟩
abbrev main_cst_69 : Ref sig .tc := ⟨.hbm, 487, rfl⟩
abbrev main_v336 : Ref sig .tc := ⟨.hbm, 488, rfl⟩
abbrev main_v337 : Ref sig .tc := ⟨.hbm, 489, rfl⟩
abbrev main_v338 : Ref sig .tc := ⟨.hbm, 490, rfl⟩
abbrev main_v339 : Ref sig .tc := ⟨.hbm, 491, rfl⟩
abbrev main_v340 : Ref sig .tc := ⟨.hbm, 492, rfl⟩
abbrev main_v341 : Ref sig .tc := ⟨.hbm, 493, rfl⟩
abbrev main_v342 : Ref sig .tc := ⟨.hbm, 494, rfl⟩
abbrev main_v343 : Ref sig .tc := ⟨.hbm, 495, rfl⟩
abbrev main_call18_cst : Ref sig .tc := ⟨.hbm, 496, rfl⟩
abbrev main_call18_v0 : Ref sig .tc := ⟨.hbm, 497, rfl⟩
abbrev main_call18_v1 : Ref sig .tc := ⟨.hbm, 498, rfl⟩
abbrev main_call18_cst_0 : Ref sig .tc := ⟨.hbm, 499, rfl⟩
abbrev main_call18_v2 : Ref sig .tc := ⟨.hbm, 500, rfl⟩
abbrev main_call18_v3 : Ref sig .tc := ⟨.hbm, 501, rfl⟩
abbrev main_call18_cst_1 : Ref sig .tc := ⟨.hbm, 502, rfl⟩
abbrev main_call18_call0_v0 : Ref sig .tc := ⟨.hbm, 503, rfl⟩
abbrev main_call18_call0_v1 : Ref sig .tc := ⟨.hbm, 504, rfl⟩
abbrev main_call18_v4 : Ref sig .tc := ⟨.hbm, 505, rfl⟩
abbrev main_call18_v5 : Ref sig .tc := ⟨.hbm, 506, rfl⟩
abbrev main_call18_cst_2 : Ref sig .tc := ⟨.hbm, 507, rfl⟩
abbrev main_call18_v6 : Ref sig .tc := ⟨.hbm, 508, rfl⟩
abbrev main_call18_v7 : Ref sig .tc := ⟨.hbm, 509, rfl⟩
abbrev main_v344 : Ref sig .tc := ⟨.hbm, 510, rfl⟩
abbrev main_v345 : Ref sig .tc := ⟨.hbm, 511, rfl⟩
abbrev main_v346 : Ref sig .tc := ⟨.hbm, 512, rfl⟩
abbrev main_v347 : Ref sig .tc := ⟨.hbm, 513, rfl⟩
abbrev main_v348 : Ref sig .tc := ⟨.hbm, 514, rfl⟩
abbrev main_v349 : Ref sig .tc := ⟨.hbm, 515, rfl⟩
abbrev main_cst_70 : Ref sig .tc := ⟨.hbm, 516, rfl⟩
abbrev main_v350 : Ref sig .tc := ⟨.hbm, 517, rfl⟩
abbrev main_v351 : Ref sig .tc := ⟨.hbm, 518, rfl⟩
abbrev main_cst_71 : Ref sig .tc := ⟨.hbm, 519, rfl⟩
abbrev main_v352 : Ref sig .tc := ⟨.hbm, 520, rfl⟩
abbrev main_v353 : Ref sig .tc := ⟨.hbm, 521, rfl⟩
abbrev main_v354 : Ref sig .tc := ⟨.hbm, 522, rfl⟩
abbrev main_v355 : Ref sig .tc := ⟨.hbm, 523, rfl⟩
abbrev main_v356 : Ref sig .tc := ⟨.hbm, 524, rfl⟩
abbrev main_v357 : Ref sig .tc := ⟨.hbm, 525, rfl⟩
abbrev main_c_72 : Ref sig .tc := ⟨.hbm, 526, rfl⟩
abbrev main_v358 : Ref sig .tc := ⟨.hbm, 527, rfl⟩
abbrev main_v359 : Ref sig .tc := ⟨.hbm, 528, rfl⟩
abbrev main_c_73 : Ref sig .tc := ⟨.hbm, 529, rfl⟩
abbrev main_v360 : Ref sig .tc := ⟨.hbm, 530, rfl⟩
abbrev main_v361 : Ref sig .tc := ⟨.hbm, 531, rfl⟩
abbrev main_v362 : Ref sig .tc := ⟨.hbm, 532, rfl⟩
abbrev main_v363 : Ref sig .tc := ⟨.hbm, 533, rfl⟩
abbrev main_v364 : Ref sig .tc := ⟨.hbm, 534, rfl⟩
abbrev main_c_74 : Ref sig .tc := ⟨.hbm, 535, rfl⟩
abbrev main_v365 : Ref sig .tc := ⟨.hbm, 536, rfl⟩
abbrev main_v366 : Ref sig .tc := ⟨.hbm, 537, rfl⟩
abbrev main_c_75 : Ref sig .tc := ⟨.hbm, 538, rfl⟩
abbrev main_v367 : Ref sig .tc := ⟨.hbm, 539, rfl⟩
abbrev main_v368 : Ref sig .tc := ⟨.hbm, 540, rfl⟩
abbrev main_v369 : Ref sig .tc := ⟨.hbm, 541, rfl⟩
abbrev main_v370 : Ref sig .tc := ⟨.hbm, 542, rfl⟩
abbrev main_v371 : Ref sig .tc := ⟨.hbm, 543, rfl⟩
abbrev main_v372 : Ref sig .tc := ⟨.hbm, 544, rfl⟩
abbrev main_cst_76 : Ref sig .tc := ⟨.hbm, 545, rfl⟩
abbrev main_v373 : Ref sig .tc := ⟨.hbm, 546, rfl⟩
abbrev main_v374 : Ref sig .tc := ⟨.hbm, 547, rfl⟩
abbrev main_cst_77 : Ref sig .tc := ⟨.hbm, 548, rfl⟩
abbrev main_v375 : Ref sig .tc := ⟨.hbm, 549, rfl⟩
abbrev main_v376 : Ref sig .tc := ⟨.hbm, 550, rfl⟩
abbrev main_v377 : Ref sig .tc := ⟨.hbm, 551, rfl⟩
abbrev main_v378 : Ref sig .tc := ⟨.hbm, 552, rfl⟩
abbrev main_cst_78 : Ref sig .tc := ⟨.hbm, 553, rfl⟩
abbrev main_v379 : Ref sig .tc := ⟨.hbm, 554, rfl⟩
abbrev main_v380 : Ref sig .tc := ⟨.hbm, 555, rfl⟩
abbrev main_v381 : Ref sig .tc := ⟨.hbm, 556, rfl⟩
abbrev main_v382 : Ref sig .tc := ⟨.hbm, 557, rfl⟩
abbrev main_c_79 : Ref sig .tc := ⟨.hbm, 558, rfl⟩
abbrev main_v383 : Ref sig .tc := ⟨.hbm, 559, rfl⟩
abbrev main_v384 : Ref sig .tc := ⟨.hbm, 560, rfl⟩
abbrev main_c_80 : Ref sig .tc := ⟨.hbm, 561, rfl⟩
abbrev main_v385 : Ref sig .tc := ⟨.hbm, 562, rfl⟩
abbrev main_v386 : Ref sig .tc := ⟨.hbm, 563, rfl⟩
abbrev main_v387 : Ref sig .tc := ⟨.hbm, 564, rfl⟩
abbrev main_v388 : Ref sig .tc := ⟨.hbm, 565, rfl⟩
abbrev main_v389 : Ref sig .tc := ⟨.hbm, 566, rfl⟩
abbrev main_v390 : Ref sig .tc := ⟨.hbm, 567, rfl⟩
abbrev main_v391 : Ref sig .tc := ⟨.hbm, 568, rfl⟩
abbrev main_cst_81 : Ref sig .tc := ⟨.hbm, 569, rfl⟩
abbrev main_v392 : Ref sig .tc := ⟨.hbm, 570, rfl⟩
abbrev main_v393 : Ref sig .tc := ⟨.hbm, 571, rfl⟩
abbrev main_v394 : Ref sig .tc := ⟨.hbm, 572, rfl⟩
abbrev main_v395 : Ref sig .tc := ⟨.hbm, 573, rfl⟩
abbrev main_v396 : Ref sig .tc := ⟨.hbm, 574, rfl⟩
abbrev main_v397 : Ref sig .tc := ⟨.hbm, 575, rfl⟩
abbrev main_v398 : Ref sig .tc := ⟨.hbm, 576, rfl⟩
abbrev main_v399 : Ref sig .tc := ⟨.hbm, 577, rfl⟩
abbrev main_call21_cst : Ref sig .tc := ⟨.hbm, 578, rfl⟩
abbrev main_call21_v0 : Ref sig .tc := ⟨.hbm, 579, rfl⟩
abbrev main_call21_v1 : Ref sig .tc := ⟨.hbm, 580, rfl⟩
abbrev main_call21_cst_0 : Ref sig .tc := ⟨.hbm, 581, rfl⟩
abbrev main_call21_v2 : Ref sig .tc := ⟨.hbm, 582, rfl⟩
abbrev main_call21_v3 : Ref sig .tc := ⟨.hbm, 583, rfl⟩
abbrev main_call21_cst_1 : Ref sig .tc := ⟨.hbm, 584, rfl⟩
abbrev main_call21_call0_v0 : Ref sig .tc := ⟨.hbm, 585, rfl⟩
abbrev main_call21_call0_v1 : Ref sig .tc := ⟨.hbm, 586, rfl⟩
abbrev main_call21_v4 : Ref sig .tc := ⟨.hbm, 587, rfl⟩
abbrev main_call21_v5 : Ref sig .tc := ⟨.hbm, 588, rfl⟩
abbrev main_call21_cst_2 : Ref sig .tc := ⟨.hbm, 589, rfl⟩
abbrev main_call21_v6 : Ref sig .tc := ⟨.hbm, 590, rfl⟩
abbrev main_call21_v7 : Ref sig .tc := ⟨.hbm, 591, rfl⟩
abbrev main_v400 : Ref sig .tc := ⟨.hbm, 592, rfl⟩
abbrev main_v401 : Ref sig .tc := ⟨.hbm, 593, rfl⟩
abbrev main_v402 : Ref sig .tc := ⟨.hbm, 594, rfl⟩
abbrev main_v403 : Ref sig .tc := ⟨.hbm, 595, rfl⟩
abbrev main_v404 : Ref sig .tc := ⟨.hbm, 596, rfl⟩
abbrev main_v405 : Ref sig .tc := ⟨.hbm, 597, rfl⟩
abbrev main_cst_82 : Ref sig .tc := ⟨.hbm, 598, rfl⟩
abbrev main_v406 : Ref sig .tc := ⟨.hbm, 599, rfl⟩
abbrev main_v407 : Ref sig .tc := ⟨.hbm, 600, rfl⟩
abbrev main_cst_83 : Ref sig .tc := ⟨.hbm, 601, rfl⟩
abbrev main_v408 : Ref sig .tc := ⟨.hbm, 602, rfl⟩
abbrev main_v409 : Ref sig .tc := ⟨.hbm, 603, rfl⟩
abbrev main_v410 : Ref sig .tc := ⟨.hbm, 604, rfl⟩
abbrev main_v411 : Ref sig .tc := ⟨.hbm, 605, rfl⟩
abbrev main_v412 : Ref sig .tc := ⟨.hbm, 606, rfl⟩
abbrev main_v413 : Ref sig .tc := ⟨.hbm, 607, rfl⟩
abbrev main_c_84 : Ref sig .tc := ⟨.hbm, 608, rfl⟩
abbrev main_v414 : Ref sig .tc := ⟨.hbm, 609, rfl⟩
abbrev main_v415 : Ref sig .tc := ⟨.hbm, 610, rfl⟩
abbrev main_c_85 : Ref sig .tc := ⟨.hbm, 611, rfl⟩
abbrev main_v416 : Ref sig .tc := ⟨.hbm, 612, rfl⟩
abbrev main_v417 : Ref sig .tc := ⟨.hbm, 613, rfl⟩
abbrev main_v418 : Ref sig .tc := ⟨.hbm, 614, rfl⟩
abbrev main_v419 : Ref sig .tc := ⟨.hbm, 615, rfl⟩
abbrev main_v420 : Ref sig .tc := ⟨.hbm, 616, rfl⟩
abbrev main_c_86 : Ref sig .tc := ⟨.hbm, 617, rfl⟩
abbrev main_v421 : Ref sig .tc := ⟨.hbm, 618, rfl⟩
abbrev main_v422 : Ref sig .tc := ⟨.hbm, 619, rfl⟩
abbrev main_c_87 : Ref sig .tc := ⟨.hbm, 620, rfl⟩
abbrev main_v423 : Ref sig .tc := ⟨.hbm, 621, rfl⟩
abbrev main_v424 : Ref sig .tc := ⟨.hbm, 622, rfl⟩
abbrev main_v425 : Ref sig .tc := ⟨.hbm, 623, rfl⟩
abbrev main_v426 : Ref sig .tc := ⟨.hbm, 624, rfl⟩
abbrev main_v427 : Ref sig .tc := ⟨.hbm, 625, rfl⟩
abbrev main_v428 : Ref sig .tc := ⟨.hbm, 626, rfl⟩
abbrev main_cst_88 : Ref sig .tc := ⟨.hbm, 627, rfl⟩
abbrev main_v429 : Ref sig .tc := ⟨.hbm, 628, rfl⟩
abbrev main_v430 : Ref sig .tc := ⟨.hbm, 629, rfl⟩
abbrev main_cst_89 : Ref sig .tc := ⟨.hbm, 630, rfl⟩
abbrev main_v431 : Ref sig .tc := ⟨.hbm, 631, rfl⟩
abbrev main_v432 : Ref sig .tc := ⟨.hbm, 632, rfl⟩
abbrev main_v433 : Ref sig .tc := ⟨.hbm, 633, rfl⟩
abbrev main_v434 : Ref sig .tc := ⟨.hbm, 634, rfl⟩
abbrev main_cst_90 : Ref sig .tc := ⟨.hbm, 635, rfl⟩
abbrev main_v435 : Ref sig .tc := ⟨.hbm, 636, rfl⟩
abbrev main_v436 : Ref sig .tc := ⟨.hbm, 637, rfl⟩
abbrev main_v437 : Ref sig .tc := ⟨.hbm, 638, rfl⟩
abbrev main_v438 : Ref sig .tc := ⟨.hbm, 639, rfl⟩
abbrev main_c_91 : Ref sig .tc := ⟨.hbm, 640, rfl⟩
abbrev main_v439 : Ref sig .tc := ⟨.hbm, 641, rfl⟩
abbrev main_v440 : Ref sig .tc := ⟨.hbm, 642, rfl⟩
abbrev main_c_92 : Ref sig .tc := ⟨.hbm, 643, rfl⟩
abbrev main_v441 : Ref sig .tc := ⟨.hbm, 644, rfl⟩
abbrev main_v442 : Ref sig .tc := ⟨.hbm, 645, rfl⟩
abbrev main_v443 : Ref sig .tc := ⟨.hbm, 646, rfl⟩
abbrev main_v444 : Ref sig .tc := ⟨.hbm, 647, rfl⟩
abbrev main_v445 : Ref sig .tc := ⟨.hbm, 648, rfl⟩
abbrev main_v446 : Ref sig .tc := ⟨.hbm, 649, rfl⟩
abbrev main_v447 : Ref sig .tc := ⟨.hbm, 650, rfl⟩
abbrev main_cst_93 : Ref sig .tc := ⟨.hbm, 651, rfl⟩
abbrev main_v448 : Ref sig .tc := ⟨.hbm, 652, rfl⟩
abbrev main_v449 : Ref sig .tc := ⟨.hbm, 653, rfl⟩
abbrev main_v450 : Ref sig .tc := ⟨.hbm, 654, rfl⟩
abbrev main_v451 : Ref sig .tc := ⟨.hbm, 655, rfl⟩
abbrev main_v452 : Ref sig .tc := ⟨.hbm, 656, rfl⟩
abbrev main_v453 : Ref sig .tc := ⟨.hbm, 657, rfl⟩
abbrev main_v454 : Ref sig .tc := ⟨.hbm, 658, rfl⟩
abbrev main_v455 : Ref sig .tc := ⟨.hbm, 659, rfl⟩
abbrev main_call24_cst : Ref sig .tc := ⟨.hbm, 660, rfl⟩
abbrev main_call24_v0 : Ref sig .tc := ⟨.hbm, 661, rfl⟩
abbrev main_call24_v1 : Ref sig .tc := ⟨.hbm, 662, rfl⟩
abbrev main_call24_cst_0 : Ref sig .tc := ⟨.hbm, 663, rfl⟩
abbrev main_call24_v2 : Ref sig .tc := ⟨.hbm, 664, rfl⟩
abbrev main_call24_v3 : Ref sig .tc := ⟨.hbm, 665, rfl⟩
abbrev main_call24_cst_1 : Ref sig .tc := ⟨.hbm, 666, rfl⟩
abbrev main_call24_call0_v0 : Ref sig .tc := ⟨.hbm, 667, rfl⟩
abbrev main_call24_call0_v1 : Ref sig .tc := ⟨.hbm, 668, rfl⟩
abbrev main_call24_v4 : Ref sig .tc := ⟨.hbm, 669, rfl⟩
abbrev main_call24_v5 : Ref sig .tc := ⟨.hbm, 670, rfl⟩
abbrev main_call24_cst_2 : Ref sig .tc := ⟨.hbm, 671, rfl⟩
abbrev main_call24_v6 : Ref sig .tc := ⟨.hbm, 672, rfl⟩
abbrev main_call24_v7 : Ref sig .tc := ⟨.hbm, 673, rfl⟩
abbrev main_v456 : Ref sig .tc := ⟨.hbm, 674, rfl⟩
abbrev main_v457 : Ref sig .tc := ⟨.hbm, 675, rfl⟩
abbrev main_v458 : Ref sig .tc := ⟨.hbm, 676, rfl⟩
abbrev main_v459 : Ref sig .tc := ⟨.hbm, 677, rfl⟩
abbrev main_v460 : Ref sig .tc := ⟨.hbm, 678, rfl⟩
abbrev main_v461 : Ref sig .tc := ⟨.hbm, 679, rfl⟩
abbrev main_cst_94 : Ref sig .tc := ⟨.hbm, 680, rfl⟩
abbrev main_v462 : Ref sig .tc := ⟨.hbm, 681, rfl⟩
abbrev main_v463 : Ref sig .tc := ⟨.hbm, 682, rfl⟩
abbrev main_cst_95 : Ref sig .tc := ⟨.hbm, 683, rfl⟩
abbrev main_v464 : Ref sig .tc := ⟨.hbm, 684, rfl⟩
abbrev main_v465 : Ref sig .tc := ⟨.hbm, 685, rfl⟩
abbrev main_v466 : Ref sig .tc := ⟨.hbm, 686, rfl⟩
abbrev main_v467 : Ref sig .tc := ⟨.hbm, 687, rfl⟩
abbrev main_v468 : Ref sig .tc := ⟨.hbm, 688, rfl⟩
abbrev main_v469 : Ref sig .tc := ⟨.hbm, 689, rfl⟩
abbrev main_c_96 : Ref sig .tc := ⟨.hbm, 690, rfl⟩
abbrev main_v470 : Ref sig .tc := ⟨.hbm, 691, rfl⟩
abbrev main_v471 : Ref sig .tc := ⟨.hbm, 692, rfl⟩
abbrev main_c_97 : Ref sig .tc := ⟨.hbm, 693, rfl⟩
abbrev main_v472 : Ref sig .tc := ⟨.hbm, 694, rfl⟩
abbrev main_v473 : Ref sig .tc := ⟨.hbm, 695, rfl⟩
abbrev main_v474 : Ref sig .tc := ⟨.hbm, 696, rfl⟩
abbrev main_v475 : Ref sig .tc := ⟨.hbm, 697, rfl⟩
abbrev main_v476 : Ref sig .tc := ⟨.hbm, 698, rfl⟩
abbrev main_c_98 : Ref sig .tc := ⟨.hbm, 699, rfl⟩
abbrev main_v477 : Ref sig .tc := ⟨.hbm, 700, rfl⟩
abbrev main_v478 : Ref sig .tc := ⟨.hbm, 701, rfl⟩
abbrev main_c_99 : Ref sig .tc := ⟨.hbm, 702, rfl⟩
abbrev main_v479 : Ref sig .tc := ⟨.hbm, 703, rfl⟩
abbrev main_v480 : Ref sig .tc := ⟨.hbm, 704, rfl⟩
abbrev main_v481 : Ref sig .tc := ⟨.hbm, 705, rfl⟩
abbrev main_v482 : Ref sig .tc := ⟨.hbm, 706, rfl⟩
abbrev main_v483 : Ref sig .tc := ⟨.hbm, 707, rfl⟩
abbrev main_v484 : Ref sig .tc := ⟨.hbm, 708, rfl⟩
abbrev main_cst_100 : Ref sig .tc := ⟨.hbm, 709, rfl⟩
abbrev main_v485 : Ref sig .tc := ⟨.hbm, 710, rfl⟩
abbrev main_v486 : Ref sig .tc := ⟨.hbm, 711, rfl⟩
abbrev main_cst_101 : Ref sig .tc := ⟨.hbm, 712, rfl⟩
abbrev main_v487 : Ref sig .tc := ⟨.hbm, 713, rfl⟩
abbrev main_v488 : Ref sig .tc := ⟨.hbm, 714, rfl⟩
abbrev main_v489 : Ref sig .tc := ⟨.hbm, 715, rfl⟩
abbrev main_v490 : Ref sig .tc := ⟨.hbm, 716, rfl⟩
abbrev main_cst_102 : Ref sig .tc := ⟨.hbm, 717, rfl⟩
abbrev main_v491 : Ref sig .tc := ⟨.hbm, 718, rfl⟩
abbrev main_v492 : Ref sig .tc := ⟨.hbm, 719, rfl⟩
abbrev main_v493 : Ref sig .tc := ⟨.hbm, 720, rfl⟩
abbrev main_v494 : Ref sig .tc := ⟨.hbm, 721, rfl⟩
abbrev main_c_103 : Ref sig .tc := ⟨.hbm, 722, rfl⟩
abbrev main_v495 : Ref sig .tc := ⟨.hbm, 723, rfl⟩
abbrev main_v496 : Ref sig .tc := ⟨.hbm, 724, rfl⟩
abbrev main_c_104 : Ref sig .tc := ⟨.hbm, 725, rfl⟩
abbrev main_v497 : Ref sig .tc := ⟨.hbm, 726, rfl⟩
abbrev main_v498 : Ref sig .tc := ⟨.hbm, 727, rfl⟩
abbrev main_v499 : Ref sig .tc := ⟨.hbm, 728, rfl⟩
abbrev main_v500 : Ref sig .tc := ⟨.hbm, 729, rfl⟩
abbrev main_v501 : Ref sig .tc := ⟨.hbm, 730, rfl⟩
abbrev main_v502 : Ref sig .tc := ⟨.hbm, 731, rfl⟩
abbrev main_v503 : Ref sig .tc := ⟨.hbm, 732, rfl⟩
abbrev main_cst_105 : Ref sig .tc := ⟨.hbm, 733, rfl⟩
abbrev main_v504 : Ref sig .tc := ⟨.hbm, 734, rfl⟩
abbrev main_v505 : Ref sig .tc := ⟨.hbm, 735, rfl⟩
abbrev main_v506 : Ref sig .tc := ⟨.hbm, 736, rfl⟩
abbrev main_v507 : Ref sig .tc := ⟨.hbm, 737, rfl⟩
abbrev main_v508 : Ref sig .tc := ⟨.hbm, 738, rfl⟩
abbrev main_v509 : Ref sig .tc := ⟨.hbm, 739, rfl⟩
abbrev main_v510 : Ref sig .tc := ⟨.hbm, 740, rfl⟩
abbrev main_v511 : Ref sig .tc := ⟨.hbm, 741, rfl⟩
abbrev main_call27_cst : Ref sig .tc := ⟨.hbm, 742, rfl⟩
abbrev main_call27_v0 : Ref sig .tc := ⟨.hbm, 743, rfl⟩
abbrev main_call27_v1 : Ref sig .tc := ⟨.hbm, 744, rfl⟩
abbrev main_call27_cst_0 : Ref sig .tc := ⟨.hbm, 745, rfl⟩
abbrev main_call27_v2 : Ref sig .tc := ⟨.hbm, 746, rfl⟩
abbrev main_call27_v3 : Ref sig .tc := ⟨.hbm, 747, rfl⟩
abbrev main_call27_cst_1 : Ref sig .tc := ⟨.hbm, 748, rfl⟩
abbrev main_call27_call0_v0 : Ref sig .tc := ⟨.hbm, 749, rfl⟩
abbrev main_call27_call0_v1 : Ref sig .tc := ⟨.hbm, 750, rfl⟩
abbrev main_call27_v4 : Ref sig .tc := ⟨.hbm, 751, rfl⟩
abbrev main_call27_v5 : Ref sig .tc := ⟨.hbm, 752, rfl⟩
abbrev main_call27_cst_2 : Ref sig .tc := ⟨.hbm, 753, rfl⟩
abbrev main_call27_v6 : Ref sig .tc := ⟨.hbm, 754, rfl⟩
abbrev main_call27_v7 : Ref sig .tc := ⟨.hbm, 755, rfl⟩
abbrev main_v512 : Ref sig .tc := ⟨.hbm, 756, rfl⟩
abbrev main_v513 : Ref sig .tc := ⟨.hbm, 757, rfl⟩
abbrev main_v514 : Ref sig .tc := ⟨.hbm, 758, rfl⟩
abbrev main_v515 : Ref sig .tc := ⟨.hbm, 759, rfl⟩
abbrev main_v516 : Ref sig .tc := ⟨.hbm, 760, rfl⟩
abbrev main_v517 : Ref sig .tc := ⟨.hbm, 761, rfl⟩
abbrev main_cst_106 : Ref sig .tc := ⟨.hbm, 762, rfl⟩
abbrev main_v518 : Ref sig .tc := ⟨.hbm, 763, rfl⟩
abbrev main_v519 : Ref sig .tc := ⟨.hbm, 764, rfl⟩
abbrev main_cst_107 : Ref sig .tc := ⟨.hbm, 765, rfl⟩
abbrev main_v520 : Ref sig .tc := ⟨.hbm, 766, rfl⟩
abbrev main_v521 : Ref sig .tc := ⟨.hbm, 767, rfl⟩
abbrev main_v522 : Ref sig .tc := ⟨.hbm, 768, rfl⟩
abbrev main_v523 : Ref sig .tc := ⟨.hbm, 769, rfl⟩
abbrev main_v524 : Ref sig .tc := ⟨.hbm, 770, rfl⟩
abbrev main_v525 : Ref sig .tc := ⟨.hbm, 771, rfl⟩
abbrev main_c_108 : Ref sig .tc := ⟨.hbm, 772, rfl⟩
abbrev main_v526 : Ref sig .tc := ⟨.hbm, 773, rfl⟩
abbrev main_v527 : Ref sig .tc := ⟨.hbm, 774, rfl⟩
abbrev main_c_109 : Ref sig .tc := ⟨.hbm, 775, rfl⟩
abbrev main_v528 : Ref sig .tc := ⟨.hbm, 776, rfl⟩
abbrev main_v529 : Ref sig .tc := ⟨.hbm, 777, rfl⟩
abbrev main_v530 : Ref sig .tc := ⟨.hbm, 778, rfl⟩
abbrev main_v531 : Ref sig .tc := ⟨.hbm, 779, rfl⟩
abbrev main_v532 : Ref sig .tc := ⟨.hbm, 780, rfl⟩
abbrev main_c_110 : Ref sig .tc := ⟨.hbm, 781, rfl⟩
abbrev main_v533 : Ref sig .tc := ⟨.hbm, 782, rfl⟩
abbrev main_v534 : Ref sig .tc := ⟨.hbm, 783, rfl⟩
abbrev main_c_111 : Ref sig .tc := ⟨.hbm, 784, rfl⟩
abbrev main_v535 : Ref sig .tc := ⟨.hbm, 785, rfl⟩
abbrev main_v536 : Ref sig .tc := ⟨.hbm, 786, rfl⟩
abbrev main_v537 : Ref sig .tc := ⟨.hbm, 787, rfl⟩
abbrev main_v538 : Ref sig .tc := ⟨.hbm, 788, rfl⟩
abbrev main_v539 : Ref sig .tc := ⟨.hbm, 789, rfl⟩
abbrev main_v540 : Ref sig .tc := ⟨.hbm, 790, rfl⟩
abbrev main_cst_112 : Ref sig .tc := ⟨.hbm, 791, rfl⟩
abbrev main_v541 : Ref sig .tc := ⟨.hbm, 792, rfl⟩
abbrev main_v542 : Ref sig .tc := ⟨.hbm, 793, rfl⟩
abbrev main_cst_113 : Ref sig .tc := ⟨.hbm, 794, rfl⟩
abbrev main_v543 : Ref sig .tc := ⟨.hbm, 795, rfl⟩
abbrev main_v544 : Ref sig .tc := ⟨.hbm, 796, rfl⟩
abbrev main_v545 : Ref sig .tc := ⟨.hbm, 797, rfl⟩
abbrev main_v546 : Ref sig .tc := ⟨.hbm, 798, rfl⟩
abbrev main_cst_114 : Ref sig .tc := ⟨.hbm, 799, rfl⟩
abbrev main_v547 : Ref sig .tc := ⟨.hbm, 800, rfl⟩
abbrev main_v548 : Ref sig .tc := ⟨.hbm, 801, rfl⟩
abbrev main_v549 : Ref sig .tc := ⟨.hbm, 802, rfl⟩
abbrev main_v550 : Ref sig .tc := ⟨.hbm, 803, rfl⟩
abbrev main_c_115 : Ref sig .tc := ⟨.hbm, 804, rfl⟩
abbrev main_v551 : Ref sig .tc := ⟨.hbm, 805, rfl⟩
abbrev main_v552 : Ref sig .tc := ⟨.hbm, 806, rfl⟩
abbrev main_c_116 : Ref sig .tc := ⟨.hbm, 807, rfl⟩
abbrev main_v553 : Ref sig .tc := ⟨.hbm, 808, rfl⟩
abbrev main_v554 : Ref sig .tc := ⟨.hbm, 809, rfl⟩
abbrev main_v555 : Ref sig .tc := ⟨.hbm, 810, rfl⟩
abbrev main_v556 : Ref sig .tc := ⟨.hbm, 811, rfl⟩
abbrev main_v557 : Ref sig .tc := ⟨.hbm, 812, rfl⟩
abbrev main_v558 : Ref sig .tc := ⟨.hbm, 813, rfl⟩
abbrev main_v559 : Ref sig .tc := ⟨.hbm, 814, rfl⟩
abbrev main_cst_117 : Ref sig .tc := ⟨.hbm, 815, rfl⟩
abbrev main_v560 : Ref sig .tc := ⟨.hbm, 816, rfl⟩
abbrev main_v561 : Ref sig .tc := ⟨.hbm, 817, rfl⟩
abbrev main_v562 : Ref sig .tc := ⟨.hbm, 818, rfl⟩
abbrev main_v563 : Ref sig .tc := ⟨.hbm, 819, rfl⟩
abbrev main_v564 : Ref sig .tc := ⟨.hbm, 820, rfl⟩
abbrev main_v565 : Ref sig .tc := ⟨.hbm, 821, rfl⟩
abbrev main_v566 : Ref sig .tc := ⟨.hbm, 822, rfl⟩
abbrev main_v567 : Ref sig .tc := ⟨.hbm, 823, rfl⟩
abbrev main_call30_cst : Ref sig .tc := ⟨.hbm, 824, rfl⟩
abbrev main_call30_v0 : Ref sig .tc := ⟨.hbm, 825, rfl⟩
abbrev main_call30_v1 : Ref sig .tc := ⟨.hbm, 826, rfl⟩
abbrev main_call30_cst_0 : Ref sig .tc := ⟨.hbm, 827, rfl⟩
abbrev main_call30_v2 : Ref sig .tc := ⟨.hbm, 828, rfl⟩
abbrev main_call30_v3 : Ref sig .tc := ⟨.hbm, 829, rfl⟩
abbrev main_call30_cst_1 : Ref sig .tc := ⟨.hbm, 830, rfl⟩
abbrev main_call30_call0_v0 : Ref sig .tc := ⟨.hbm, 831, rfl⟩
abbrev main_call30_call0_v1 : Ref sig .tc := ⟨.hbm, 832, rfl⟩
abbrev main_call30_v4 : Ref sig .tc := ⟨.hbm, 833, rfl⟩
abbrev main_call30_v5 : Ref sig .tc := ⟨.hbm, 834, rfl⟩
abbrev main_call30_cst_2 : Ref sig .tc := ⟨.hbm, 835, rfl⟩
abbrev main_call30_v6 : Ref sig .tc := ⟨.hbm, 836, rfl⟩
abbrev main_call30_v7 : Ref sig .tc := ⟨.hbm, 837, rfl⟩
abbrev main_v568 : Ref sig .tc := ⟨.hbm, 838, rfl⟩
abbrev main_v569 : Ref sig .tc := ⟨.hbm, 839, rfl⟩
abbrev main_v570 : Ref sig .tc := ⟨.hbm, 840, rfl⟩
abbrev main_v571 : Ref sig .tc := ⟨.hbm, 841, rfl⟩
abbrev main_v572 : Ref sig .tc := ⟨.hbm, 842, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  bcast_S_S50000x96 : S_.BroadcastsInDim S50000x96 (![] : Fin 0 → Fin S50000x96.rank)
  bcast_S96_S96x1_0 : S96.BroadcastsInDim S96x1 (![0] : Fin 1 → Fin S96x1.rank)
  bcast_S_S50000x1 : S_.BroadcastsInDim S50000x1 (![] : Fin 0 → Fin S50000x1.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S800000x1_S800000x96_0_1 : S800000x1.BroadcastsInDim S800000x96 (![0, 1] : Fin 2 → Fin S800000x96.rank)
  bcast_S50000x1_S50000x96_0_1 : S50000x1.BroadcastsInDim S50000x96 (![0, 1] : Fin 2 → Fin S50000x96.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x256_S256x96_S50000x96_1_0_0_1_n_n_wf : DotDims.WF S50000x256 S256x96 S50000x96 [1] [0] [0] [1] [] []
  dot_S50000x96_S96x1_S50000x1_1_0_0_1_n_n_wf : DotDims.WF S50000x96 S96x1 S50000x1 [1] [0] [0] [1] [] []
  gather_S50000x1_S800000x1_S800000x1_1_0_n_n_0_1_11_wf : GatherDims.WF S50000x1 S800000x1 S800000x1 [1] [0] [] [0] [] 1 ![1, 1]
  scatter_S50000x1_S800000x1_S800000x1_1_0_0_1_wf : ScatterDims.WF S50000x1 S800000x1 S800000x1 [1] [0] [0] 1
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S50000x96_S96x64_S50000x64_1_0_0_1_n_n_wf : DotDims.WF S50000x96 S96x64 S50000x64 [1] [0] [0] [1] [] []

variable [Facts₀]

def dot_S50000x256_S256x96_S50000x96_1_0_0_1_n_n : DotDims S50000x256 S256x96 S50000x96 where
  lhsContracting := [1]
  rhsContracting := [0]
  lhsNonContracting := [0]
  rhsNonContracting := [1]
  lhsBatch := []
  rhsBatch := []
  wf := dot_S50000x256_S256x96_S50000x96_1_0_0_1_n_n_wf
def dot_S50000x96_S96x1_S50000x1_1_0_0_1_n_n : DotDims S50000x96 S96x1 S50000x1 where
  lhsContracting := [1]
  rhsContracting := [0]
  lhsNonContracting := [0]
  rhsNonContracting := [1]
  lhsBatch := []
  rhsBatch := []
  wf := dot_S50000x96_S96x1_S50000x1_1_0_0_1_n_n_wf
def gather_S50000x1_S800000x1_S800000x1_1_0_n_n_0_1_11 : GatherDims S50000x1 S800000x1 S800000x1 where
  offsetDims := [1]
  collapsedSliceDims := [0]
  operandBatchingDims := []
  startIndicesBatchingDims := []
  startIndexMap := [0]
  indexVectorDim := 1
  sliceSizes := ![1, 1]
  wf := gather_S50000x1_S800000x1_S800000x1_1_0_n_n_0_1_11_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x96_S96x64_S50000x64_1_0_0_1_n_n : DotDims S50000x96 S96x64 S50000x64 where
  lhsContracting := [1]
  rhsContracting := [0]
  lhsNonContracting := [0]
  rhsNonContracting := [1]
  lhsBatch := []
  rhsBatch := []
  wf := dot_S50000x96_S96x64_S50000x64_1_0_0_1_n_n_wf

class Facts : Prop extends Facts₀ where

variable [Facts]
-- ==== Proof.RefRun.lean ====
/-
  The reference program's run, read back. Its entry function is a straight line of host operations once every
  outlined function (relu, the three-way select, elu with its two inner selects) is listed at its call site over
  that call's own buffers: twelve consecutive stretches of the line, their concatenation, and the fact that every
  weakly fair execution from any launch memory terminates with every buffer at the fold of the operations'
  results over the launch contents.
-/
import proofs.«105152_j14491219657222_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Stretch 0 of the reference's line of operations (the called functions' operations in place). -/
def ops0 : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.binary main_arg0 main_arg2 main_v4 ((fun l r => Host.dotGeneral dot_S50000x256_S256x96_S50000x96_1_0_0_1_n_n none l r) : (⟨S50000x256, .f32⟩ : BufTy).Contents (Elt F) → (⟨S256x96, .f32⟩ : BufTy).Contents (Elt F) → (⟨S50000x96, .f32⟩ : BufTy).Contents (Elt F)),
    StableHlo.unary main_arg3 main_v5 (broadcastInDim S1x96 ![1] bcast_S96_S1x96_1 : (⟨S96, .f32⟩ : BufTy).Contents (Elt F) → (⟨S1x96, .f32⟩ : BufTy).Contents (Elt F)),
    StableHlo.unary main_v5 main_v6 (broadcastInDim S50000x96 ![0, 1] bcast_S1x96_S50000x96_0_1 : (⟨S1x96, .f32⟩ : BufTy).Contents (Elt F) → (⟨S50000x96, .f32⟩ : BufTy).Contents (Elt F)),
    StableHlo.binary main_v4 main_v6 main_v7 (addf : (⟨S50000x96, .f32⟩ : BufTy).Contents (Elt F) → (⟨S50000x96, .f32⟩ : BufTy).Contents (Elt F) → (⟨S50000x96, .f32⟩ : BufTy).Contents (Elt F)),
    StableHlo.TRef.nullary main_call0.cst (constant S_ .f32 0x00000000#32),
    StableHlo.TRef.unary main_call0.cst main_call0.v0 (broadcastInDim S50000x96 ![] bcast_S_S50000x96),
    StableHlo.TRef.binary (.of main_v7 : StableHlo.TRef sig ⟨S50000x96, .f32⟩) main_call0.v0 main_call0.v1 maximumf,
    StableHlo.unary main_arg4 main_v9 (broadcastInDim S96x1 ![0] bcast_S96_S96x1_0 : (⟨S96, .f32⟩ : BufTy).Contents (Elt F) → (⟨S96x1, .f32⟩ : BufTy).Contents (Elt F)),
    StableHlo.binary main_v8 main_v9 main_v10 ((fun l r => Host.dotGeneral dot_S50000x96_S96x1_S50000x1_1_0_0_1_n_n none l r) : (⟨S50000x96, .f32⟩ : BufTy).Contents (Elt F) → (⟨S96x1, .f32⟩ : BufTy).Contents (Elt F) → (⟨S50000x1, .f32⟩ : BufTy).Contents (Elt F)),
    StableHlo.unary main_arg5 main_v11 (broadcastInDim S96x1 ![0] bcast_S96_S96x1_0 : (⟨S96, .f32⟩ : BufTy).Contents (Elt F) → (⟨S96x1, .f32⟩ : BufTy).Contents (Elt F)),
    StableHlo.binary main_v8 main_v11 main_v12 ((fun l r => Host.dotGeneral dot_S50000x96_S96x1_S50000x1_1_0_0_1_n_n none l r) : (⟨S50000x96, .f32⟩ : BufTy).Contents (Elt F) → (⟨S96x1, .f32⟩ : BufTy).Contents (Elt F) → (⟨S50000x1, .f32⟩ : BufTy).Contents (Elt F)),
    StableHlo.binary main_v10 main_v12 main_v13 (addf : (⟨S50000x1, .f32⟩ : BufTy).Contents (Elt F) → (⟨S50000x1, .f32⟩ : BufTy).Contents (Elt F) → (⟨S50000x1, .f32⟩ : BufTy).Contents (Elt F)),
    StableHlo.nullary main_cst (constant S_ .f32 0x00000000#32),
    StableHlo.unary main_cst main_v14 (broadcastInDim S50000x1 ![] bcast_S_S50000x1 : (⟨S_, .f32⟩ : BufTy).Contents (Elt F) → (⟨S50000x1, .f32⟩ : BufTy).Contents (Elt F)),
    StableHlo.binary main_v13 main_v14 main_v15 (cmpf .oge : (⟨S50000x1, .f32⟩ : BufTy).Contents (Elt F) → (⟨S50000x1, .f32⟩ : BufTy).Contents (Elt F) → (⟨S50000x1, .i1⟩ : BufTy).Contents (Elt F)),
    StableHlo.nullary main_cst_0 (constant S_ .f32 0x3E4CCCCD#32),
    StableHlo.unary main_cst_0 main_v16 (broadcastInDim S50000x1 ![] bcast_S_S50000x1 : (⟨S_, .f32⟩ : BufTy).Contents (Elt F) → (⟨S50000x1, .f32⟩ : BufTy).Contents (Elt F)),
    StableHlo.binary main_v16 main_v13 main_v17 (mulf : (⟨S50000x1, .f32⟩ : BufTy).Contents (Elt F) → (⟨S50000x1, .f32⟩ : BufTy).Contents (Elt F) → (⟨S50000x1, .f32⟩ : BufTy).Contents (Elt F)),
    StableHlo.TRef.ternary (.of main_v15 : StableHlo.TRef sig ⟨S50000x1, .i1⟩) (.of main_v13 : StableHlo.TRef sig ⟨S50000x1, .f32⟩) (.of main_v17 : StableHlo.TRef sig ⟨S50000x1, .f32⟩) main_call1.v0 select,
    StableHlo.unary main_v18 main_v19 (Host.exp : (⟨S50000x1, .f32⟩ : BufTy).Contents (Elt F) → (⟨S50000x1, .f32⟩ : BufTy).Contents (Elt F)),
    StableHlo.unary main_arg5 main_v20 (broadcastInDim S96x1 ![0] bcast_S96_S96x1_0 : (⟨S96, .f32⟩ : BufTy).Contents (Elt F) → (⟨S96x1, .f32⟩ : BufTy).Contents (Elt F)),
    StableHlo.binary main_v8 main_v20 main_v21 ((fun l r => Host.dotGeneral dot_S50000x96_S96x1_S50000x1_1_0_0_1_n_n none l r) : (⟨S50000x96, .f32⟩ : BufTy).Contents (Elt F) → (⟨S96x1, .f32⟩ : BufTy).Contents (Elt F) → (⟨S50000x1, .f32⟩ : BufTy).Contents (Elt F)),
    StableHlo.nullary main_c (constantI S_ 32 0#32),
    StableHlo.unary main_c main_v22 (broadcastInDim S800000 ![] bcast_S_S800000 : (⟨S_, .i32⟩ : BufTy).Contents (Elt F) → (⟨S800000, .i32⟩ : BufTy).Contents (Elt F)),
    StableHlo.binary main_v1 main_v22 main_v23 (cmpi .slt : (⟨S800000, .i32⟩ : BufTy).Contents (Elt F) → (⟨S800000, .i32⟩ : BufTy).Contents (Elt F) → (⟨S800000, .i1⟩ : BufTy).Contents (Elt F)),
    StableHlo.nullary main_c_1 (constantI S_ 32 50000#32),
    StableHlo.unary main_c_1 main_v24 (broadcastInDim S800000 ![] bcast_S_S800000 : (⟨S_, .i32⟩ : BufTy).Contents (Elt F) → (⟨S800000, .i32⟩ : BufTy).Contents (Elt F)),
    StableHlo.binary main_v1 main_v24 main_v25 (addi : (⟨S800000, .i32⟩ : BufTy).Contents (Elt F) → (⟨S800000, .i32⟩ : BufTy).Contents (Elt F) → (⟨S800000, .i32⟩ : BufTy).Contents (Elt F)),
    StableHlo.ternary main_v23 main_v25 main_v1 main_v26 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v26 main_v27 (broadcastInDim S800000x1 ![0] bcast_S800000_S800000x1_0 : (⟨S800000, .i32⟩ : BufTy).Contents (Elt F) → (⟨S800000x1, .i32⟩ : BufTy).Contents (Elt F)),
    StableHlo.binary main_v10 main_v27 main_v28 ((fun x i => Host.gather gather_S50000x1_S800000x1_S800000x1_1_0_n_n_0_1_11 x i) : (⟨S50000x1, .f32⟩ : BufTy).Contents (Elt F) → (⟨S800000x1, .i32⟩ : BufTy).Contents (Elt F) → (⟨S800000x1, .f32⟩ : BufTy).Contents (Elt F)),
    StableHlo.nullary main_c_2 (constantI S_ 32 0#32),
    StableHlo.unary main_c_2 main_v29 (broadcastInDim S800000 ![] bcast_S_S800000 : (⟨S_, .i32⟩ : BufTy).Contents (Elt F) → (⟨S800000, .i32⟩ : BufTy).Contents (Elt F)),
    StableHlo.binary main_v3 main_v29 main_v30 (cmpi .slt : (⟨S800000, .i32⟩ : BufTy).Contents (Elt F) → (⟨S800000, .i32⟩ : BufTy).Contents (Elt F) → (⟨S800000, .i1⟩ : BufTy).Contents (Elt F)),
    StableHlo.nullary main_c_3 (constantI S_ 32 50000#32),
    StableHlo.unary main_c_3 main_v31 (broadcastInDim S800000 ![] bcast_S_S800000 : (⟨S_, .i32⟩ : BufTy).Contents (Elt F) → (⟨S800000, .i32⟩ : BufTy).Contents (Elt F)),
    StableHlo.binary main_v3 main_v31 main_v32 (addi : (⟨S800000, .i32⟩ : BufTy).Contents (Elt F) → (⟨S800000, .i32⟩ : BufTy).Contents (Elt F) → (⟨S800000, .i32⟩ : BufTy).Contents (Elt F)),
    StableHlo.ternary main_v30 main_v32 main_v3 main_v33 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v33 main_v34 (broadcastInDim S800000x1 ![0] bcast_S800000_S800000x1_0 : (⟨S800000, .i32⟩ : BufTy).Contents (Elt F) → (⟨S800000x1, .i32⟩ : BufTy).Contents (Elt F)),
    StableHlo.binary main_v21 main_v34 main_v35 ((fun x i => Host.gather gather_S50000x1_S800000x1_S800000x1_1_0_n_n_0_1_11 x i) : (⟨S50000x1, .f32⟩ : BufTy).Contents (Elt F) → (⟨S800000x1, .i32⟩ : BufTy).Contents (Elt F) → (⟨S800000x1, .f32⟩ : BufTy).Contents (Elt F)),
    StableHlo.binary main_v28 main_v35 main_v36 (addf : (⟨S800000x1, .f32⟩ : BufTy).Contents (Elt F) → (⟨S800000x1, .f32⟩ : BufTy).Contents (Elt F) → (⟨S800000x1, .f32⟩ : BufTy).Contents (Elt F)),
    StableHlo.nullary main_cst_4 (constant S_ .f32 0x00000000#32),
    StableHlo.unary main_cst_4 main_v37 (broadcastInDim S800000x1 ![] bcast_S_S800000x1 : (⟨S_, .f32⟩ : BufTy).Contents (Elt F) → (⟨S800000x1, .f32⟩ : BufTy).Contents (Elt F)),
    StableHlo.binary main_v36 main_v37 main_v38 (cmpf .oge : (⟨S800000x1, .f32⟩ : BufTy).Contents (Elt F) → (⟨S800000x1, .f32⟩ : BufTy).Contents (Elt F) → (⟨S800000x1, .i1⟩ : BufTy).Contents (Elt F)),
    StableHlo.nullary main_cst_5 (constant S_ .f32 0x3E4CCCCD#32),
    StableHlo.unary main_cst_5 main_v39 (broadcastInDim S800000x1 ![] bcast_S_S800000x1 : (⟨S_, .f32⟩ : BufTy).Contents (Elt F) → (⟨S800000x1, .f32⟩ : BufTy).Contents (Elt F)),
    StableHlo.binary main_v39 main_v36 main_v40 (mulf : (⟨S800000x1, .f32⟩ : BufTy).Contents (Elt F) → (⟨S800000x1, .f32⟩ : BufTy).Contents (Elt F) → (⟨S800000x1, .f32⟩ : BufTy).Contents (Elt F)),
    StableHlo.TRef.ternary (.of main_v38 : StableHlo.TRef sig ⟨S800000x1, .i1⟩) (.of main_v36 : StableHlo.TRef sig ⟨S800000x1, .f32⟩) (.of main_v40 : StableHlo.TRef sig ⟨S800000x1, .f32⟩) main_call2.v0 select,
    StableHlo.unary main_v41 main_v42 (Host.exp : (⟨S800000x1, .f32⟩ : BufTy).Contents (Elt F) → (⟨S800000x1, .f32⟩ : BufTy).Contents (Elt F)),
    StableHlo.nullary main_cst_6 (constant S_ .f32 0x00000000#32),
    StableHlo.unary main_cst_6 main_v43 (broadcastInDim S50000x1 ![] bcast_S_S50000x1 : (⟨S_, .f32⟩ : BufTy).Contents (Elt F) → (⟨S50000x1, .f32⟩ : BufTy).Contents (Elt F)),
    StableHlo.unary main_v1 main_v44 (broadcastInDim S800000x1 ![0] bcast_S800000_S800000x1_0 : (⟨S800000, .i32⟩ : BufTy).Contents (Elt F) → (⟨S800000x1, .i32⟩ : BufTy).Contents (Elt F)),
    StableHlo.ternary main_v43 main_v44 main_v42 main_v45 ((fun x i u => Host.scatterAdd scatter_S50000x1_S800000x1_S800000x1_1_0_0_1 x i u) : (⟨S50000x1, .f32⟩ : BufTy).Contents (Elt F) → (⟨S800000x1, .i32⟩ : BufTy).Contents (Elt F) → (⟨S800000x1, .f32⟩ : BufTy).Contents (Elt F) → (⟨S50000x1, .f32⟩ : BufTy).Contents (Elt F)),
    StableHlo.binary main_v45 main_v19 main_v46 (addf : (⟨S50000x1, .f32⟩ : BufTy).Contents (Elt F) → (⟨S50000x1, .f32⟩ : BufTy).Contents (Elt F) → (⟨S50000x1, .f32⟩ : BufTy).Contents (Elt F)),
    StableHlo.nullary main_c_7 (constantI S_ 32 0#32),
    StableHlo.unary main_c_7 main_v47 (broadcastInDim S800000 ![] bcast_S_S800000 : (⟨S_, .i32⟩ : BufTy).Contents (Elt F) → (⟨S800000, .i32⟩ : BufTy).Contents (Elt F)),
    StableHlo.binary main_v3 main_v47 main_v48 (cmpi .slt : (⟨S800000, .i32⟩ : BufTy).Contents (Elt F) → (⟨S800000, .i32⟩ : BufTy).Contents (Elt F) → (⟨S800000, .i1⟩ : BufTy).Contents (Elt F)),
    StableHlo.nullary main_c_8 (constantI S_ 32 50000#32) ]

/-- Stretch 1 of the reference's line of operations (the called functions' operations in place). -/
def ops1 : List (HloOp τ sig (Elt F)) :=
  [ StableHlo.unary main_c_8 main_v49 (broadcastInDim S800000 ![] bcast_S_S800000 : (⟨S_, .i32⟩ : BufTy).Contents (Elt F) → (⟨S800000, .i32⟩ : BufTy).Contents (Elt F)),
    StableHlo.binary main_v3 main_v49 main_v50 (addi : (⟨S800000, .i32⟩ : BufTy).Contents (Elt F) → (⟨S800000, .i32⟩ : BufTy).Contents (Elt F) → (⟨S800000, .i32⟩ : BufTy).Contents (Elt F)),
    StableHlo.ternary main_v48 main_v50 main_v3 main_v51 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v51 main_v52 (broadcastInDim S800000x1 ![0] bcast_S800000_S800000x1_0 : (⟨S800000, .i32⟩ : BufTy).Contents (Elt F) → (⟨S800000x1, .i32⟩ : BufTy).Contents (Elt F)),
    StableHlo.binary main_v8 main_v52 main_v53 ((fun x i => Host.gather gather_S50000x96_S800000x1_S800000x96_1_0_n_n_0_1_196 x i) : (⟨S50000x96, .f32⟩ : BufTy).Contents (Elt F) → (⟨S800000x1, .i32⟩ : BufTy).Contents (Elt F) → (⟨S800000x96, .f32⟩ : BufTy).Contents (Elt F)),
    StableHlo.unary main_v42 main_v54 (broadcastInDim S800000x96 ![0, 1] bcast_S800000x1_S800000x96_0_1 : (⟨S800000x1, .f32⟩ : BufTy).Contents (Elt F) → (⟨S800000x96, .f32⟩ : BufTy).Contents (Elt F)),
    StableHlo.binary main_v54 main_v53 main_v55 (mulf : (⟨S800000x96, .f32⟩ : BufTy).Contents (Elt F) → (⟨S800000x96, .f32⟩ : BufTy).Contents (Elt F) → (⟨S800000x96, .f32⟩ : BufTy).Contents (Elt F)),
    StableHlo.nullary main_cst_9 (constant S_ .f32 0x00000000#32),
    StableHlo.unary main_cst_9 main_v56 (broadcastInDim S50000x96 ![] bcast_S_S50000x96 : (⟨S_, .f32⟩ : BufTy).Contents (Elt F) → (⟨S50000x96, .f32⟩ : BufTy).Contents (Elt F)),
    StableHlo.unary main_v1 main_v57 (broadcastInDim S800000x1 ![0] bcast_S800000_S800000x1_0 : (⟨S800000, .i32⟩ : BufTy).Contents (Elt F) → (⟨S800000x1, .i32⟩ : BufTy).Contents (Elt F)),
    StableHlo.ternary main_v56 main_v57 main_v55 main_v58 ((fun x i u => Host.scatterAdd scatter_S50000x96_S800000x1_S800000x96_1_0_0_1 x i u) : (⟨S50000x96, .f32⟩ : BufTy).Contents (Elt F) → (⟨S800000x1, .i32⟩ : BufTy).Contents (Elt F) → (⟨S800000x96, .f32⟩ : BufTy).Contents (Elt F) → (⟨S50000x96, .f32⟩ : BufTy).Contents (Elt F)),
    StableHlo.unary main_v19 main_v59 (broadcastInDim S50000x96 ![0, 1] bcast_S50000x1_S50000x96_0_1 : (⟨S50000x1, .f32⟩ : BufTy).Contents (Elt F) → (⟨S50000x96, .f32⟩ : BufTy).Contents (Elt F)),
    StableHlo.binary main_v59 main_v8 main_v60 (mulf : (⟨S50000x96, .f32⟩ : BufTy).Contents (Elt F) → (⟨S50000x96, .f32⟩ : BufTy).Contents (Elt F) → (⟨S50000x96, .f32⟩ : BufTy).Contents (Elt F)),
    StableHlo.binary main_v58 main_v60 main_v61 (addf : (⟨S50000x96, .f32⟩ : BufTy).Contents (Elt F) → (⟨S50000x96, .f32⟩ : BufTy).Contents (Elt F) → (⟨S50000x96, .f32⟩ : BufTy).Contents (Elt F)),
    StableHlo.unary main_v46 main_v62 (broadcastInDim S50000x96 ![0, 1] bcast_S50000x1_S50000x96_0_1 : (⟨S50000x1, .f32⟩ : BufTy).Contents (Elt F) → (⟨S50000x96, .f32⟩ : BufTy).Contents (Elt F)),
    StableHlo.binary main_v61 main_v62 main_v63 (Host.divf : (⟨S50000x96, .f32⟩ : BufTy).Contents (Elt F) → (⟨S50000x96, .f32⟩ : BufTy).Contents (Elt F) → (⟨S50000x96, .f32⟩ : BufTy).Contents (Elt F)),
    StableHlo.TRef.nullary main_call3.cst (constant S_ .f32 0x00000000#32),
    StableHlo.TRef.unary main_call3.cst main_call3.v0 (broadcastInDim S50000x96 ![] bcast_S_S50000x96),
    StableHlo.TRef.binary (.of main_v63 : StableHlo.TRef sig ⟨S50000x96, .f32⟩) main_call3.v0 main_call3.v1 (cmpf .ogt),
    StableHlo.TRef.nullary main_call3.cst_0 (constant S_ .f32 0x00000000#32),
    StableHlo.TRef.unary main_call3.cst_0 main_call3.v2 (broadcastInDim S50000x96 ![] bcast_S_S50000x96),
    StableHlo.TRef.binary (.of main_v63 : StableHlo.TRef sig ⟨S50000x96, .f32⟩) main_call3.v2 main_call3.v3 (cmpf .ogt),
    StableHlo.TRef.nullary main_call3.cst_1 (constant S_ .f32 0x00000000#32),
    StableHlo.TRef.unary main_call3.cst_1 main_call3.call0.v0 id,
    StableHlo.TRef.unary main_call3.call0.v0 main_call3.call0.v1 (broadcastInDim S50000x96 ![] bcast_S_S50000x96),
    StableHlo.TRef.ternary main_call3.v3 main_call3.call0.v1 (.of main_v63 : StableHlo.TRef sig ⟨S50000x96, .f32⟩) main_call3.call0.v2 select,
    StableHlo.TRef.unary main_call3.call0.v2 main_call3.v5 Host.expm1,
    StableHlo.TRef.nullary main_call3.cst_2 (constant S_ .f32 0x3F800000#32),
    StableHlo.TRef.unary main_call3.cst_2 main_call3.v6 (broadcastInDim S50000x96 ![] bcast_S_S50000x96),
    StableHlo.TRef.binary main_call3.v6 main_call3.v5 main_call3.v7 mulf,
    StableHlo.TRef.ternary main_call3.v1 (.of main_v63 : StableHlo.TRef sig ⟨S50000x96, .f32⟩) main_call3.v7 main_call3.call1.v0 select,
    StableHlo.unary main_arg4 main_v65 (broadcastInDim S96x1 ![0] bcast_S96_S96x1_0 : (⟨S96, .f32⟩ : BufTy).Contents (Elt F) → (⟨S96x1, .f32⟩ : BufTy).Contents (Elt F)),
    StableHlo.binary main_v8 main_v65 main_v66 ((fun l r => Host.dotGeneral dot_S50000x96_S96x1_S50000x1_1_0_0_1_n_n none l r) : (⟨S50000x96, .f32⟩ : BufTy).Contents (Elt F) → (⟨S96x1, .f32⟩ : BufTy).Contents (Elt F) → (⟨S50000x1, .f32⟩ : BufTy).Contents (Elt F)),
    StableHlo.unary main_arg5 main_v67 (broadcastInDim S96x1 ![0] bcast_S96_S96x1_0 : (⟨S96, .f32⟩ : BufTy).Contents (Elt F) → (⟨S96x1, .f32⟩ : BufTy).Contents (Elt F)),
    StableHlo.binary main_v8 main_v67 main_v68 ((fun l r => Host.dotGeneral dot_S50000x96_S96x1_S50000x1_1_0_0_1_n_n none l r) : (⟨S50000x96, .f32⟩ : BufTy).Contents (Elt F) → (⟨S96x1, .f32⟩ : BufTy).Contents (Elt F) → (⟨S50000x1, .f32⟩ : BufTy).Contents (Elt F)),
    StableHlo.binary main_v66 main_v68 main_v69 (addf : (⟨S50000x1, .f32⟩ : BufTy).Contents (Elt F) → (⟨S50000x1, .f32⟩ : BufTy).Contents (Elt F) → (⟨S50000x1, .f32⟩ : BufTy).Contents (Elt F)),
    StableHlo.nullary main_cst_10 (constant S_ .f32 0x00000000#32),
    StableHlo.unary main_cst_10 main_v70 (broadcastInDim S50000x1 ![] bcast_S_S50000x1 : (⟨S_, .f32⟩ : BufTy).Contents (Elt F) → (⟨S50000x1, .f32⟩ : BufTy).Contents (Elt F)),
    StableHlo.binary main_v69 main_v70 main_v71 (cmpf .oge : (⟨S50000x1, .f32⟩ : BufTy).Contents (Elt F) → (⟨S50000x1, .f32⟩ : BufTy).Contents (Elt F) → (⟨S50000x1, .i1⟩ : BufTy).Contents (Elt F)),
    StableHlo.nullary main_cst_11 (constant S_ .f32 0x3E4CCCCD#32),
    StableHlo.unary main_cst_11 main_v72 (broadcastInDim S50000x1 ![] bcast_S_S50000x1 : (⟨S_, .f32⟩ : BufTy).Contents (Elt F) → (⟨S50000x1, .f32⟩ : BufTy).Contents (Elt F)),
    StableHlo.binary main_v72 main_v69 main_v73 (mulf : (⟨S50000x1, .f32⟩ : BufTy).Contents (Elt F) → (⟨S50000x1, .f32⟩ : BufTy).Contents (Elt F) → (⟨S50000x1, .f32⟩ : BufTy).Contents (Elt F)),
    StableHlo.TRef.ternary (.of main_v71 : StableHlo.TRef sig ⟨S50000x1, .i1⟩) (.of main_v69 : StableHlo.TRef sig ⟨S50000x1, .f32⟩) (.of main_v73 : StableHlo.TRef sig ⟨S50000x1, .f32⟩) main_call4.v0 select,
    StableHlo.unary main_v74 main_v75 (Host.exp : (⟨S50000x1, .f32⟩ : BufTy).Contents (Elt F) → (⟨S50000x1, .f32⟩ : BufTy).Contents (Elt F)),
    StableHlo.unary main_arg5 main_v76 (broadcastInDim S96x1 ![0] bcast_S96_S96x1_0 : (⟨S96, .f32⟩ : BufTy).Contents (Elt F) → (⟨S96x1, .f32⟩ : BufTy).Contents (Elt F)),
    StableHlo.binary main_v64 main_v76 main_v77 ((fun l r => Host.dotGeneral dot_S50000x96_S96x1_S50000x1_1_0_0_1_n_n none l r) : (⟨S50000x96, .f32⟩ : BufTy).Contents (Elt F) → (⟨S96x1, .f32⟩ : BufTy).Contents (Elt F) → (⟨S50000x1, .f32⟩ : BufTy).Contents (Elt F)),
    StableHlo.nullary main_c_12 (constantI S_ 32 0#32),
    StableHlo.unary main_c_12 main_v78 (broadcastInDim S800000 ![] bcast_S_S800000 : (⟨S_, .i32⟩ : BufTy).Contents (Elt F) → (⟨S800000, .i32⟩ : BufTy).Contents (Elt F)),
    StableHlo.binary main_v1 main_v78 main_v79 (cmpi .slt : (⟨S800000, .i32⟩ : BufTy).Contents (Elt F) → (⟨S800000, .i32⟩ : BufTy).Contents (Elt F) → (⟨S800000, .i1⟩ : BufTy).Contents (Elt F)),
    StableHlo.nullary main_c_13 (constantI S_ 32 50000#32),
    StableHlo.unary main_c_13 main_v80 (broadcastInDim S800000 ![] bcast_S_S800000 : (⟨S_, .i32⟩ : BufTy).Contents (Elt F) → (⟨S800000, .i32⟩ : BufTy).Contents (Elt F)),
    StableHlo.binary main_v1 main_v80 main_v81 (addi : (⟨S800000, .i32⟩ : BufTy).Contents (Elt F) → (⟨S800000, .i32⟩ : BufTy).Contents (Elt F) → (⟨S800000, .i32⟩ : BufTy).Contents (Elt F)),
    StableHlo.ternary main_v79 main_v81 main_v1 main_v82 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v82 main_v83 (broadcastInDim S800000x1 ![0] bcast_S800000_S800000x1_0 : (⟨S800000, .i32⟩ : BufTy).Contents (Elt F) → (⟨S800000x1, .i32⟩ : BufTy).Contents (Elt F)),
    StableHlo.binary main_v66 main_v83 main_v84 ((fun x i => Host.gather gather_S50000x1_S800000x1_S800000x1_1_0_n_n_0_1_11 x i) : (⟨S50000x1, .f32⟩ : BufTy).Contents (Elt F) → (⟨S800000x1, .i32⟩ : BufTy).Contents (Elt F) → (⟨S800000x1, .f32⟩ : BufTy).Contents (Elt F)),
    StableHlo.nullary main_c_14 (constantI S_ 32 0#32),
    StableHlo.unary main_c_14 main_v85 (broadcastInDim S800000 ![] bcast_S_S800000 : (⟨S_, .i32⟩ : BufTy).Contents (Elt F) → (⟨S800000, .i32⟩ : BufTy).Contents (Elt F)),
    StableHlo.binary main_v3 main_v85 main_v86 (cmpi .slt : (⟨S800000, .i32⟩ : BufTy).Contents (Elt F) → (⟨S800000, .i32⟩ : BufTy).Contents (Elt F) → (⟨S800000, .i1⟩ : BufTy).Contents (Elt F)),
    StableHlo.nullary main_c_15 (constantI S_ 32 50000#32),
    StableHlo.unary main_c_15 main_v87 (broadcastInDim S800000 ![] bcast_S_S800000 : (⟨S_, .i32⟩ : BufTy).Contents (Elt F) → (⟨S800000, .i32⟩ : BufTy).Contents (Elt F)),
    StableHlo.binary main_v3 main_v87 main_v88 (addi : (⟨S800000, .i32⟩ : BufTy).Contents (Elt F) → (⟨S800000, .i32⟩ : BufTy).Contents (Elt F) → (⟨S800000, .i32⟩ : BufTy).Contents (Elt F)),
    StableHlo.ternary main_v86 main_v88 main_v3 main_v89 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v89 main_v90 (broadcastInDim S800000x1 ![0] bcast_S800000_S800000x1_0 : (⟨S800000, .i32⟩ : BufTy).Contents (Elt F) → (⟨S800000x1, .i32⟩ : BufTy).Contents (Elt F)),
    StableHlo.binary main_v77 main_v90 main_v91 ((fun x i => Host.gather gather_S50000x1_S800000x1_S800000x1_1_0_n_n_0_1_11 x i) : (⟨S50000x1, .f32⟩ : BufTy).Contents (Elt F) → (⟨S800000x1, .i32⟩ : BufTy).Contents (Elt F) → (⟨S800000x1, .f32⟩ : BufTy).Contents (Elt F)),
    StableHlo.binary main_v84 main_v91 main_v92 (addf : (⟨S800000x1, .f32⟩ : BufTy).Contents (Elt F) → (⟨S800000x1, .f32⟩ : BufTy).Contents (Elt F) → (⟨S800000x1, .f32⟩ : BufTy).Contents (Elt F)),
    StableHlo.nullary main_cst_16 (constant S_ .f32 0x00000000#32),
    StableHlo.unary main_cst_16 main_v93 (broadcastInDim S800000x1 ![] bcast_S_S800000x1 : (⟨S_, .f32⟩ : BufTy).Contents (Elt F) → (⟨S800000x1, .f32⟩ : BufTy).Contents (Elt F)),
    StableHlo.binary main_v92 main_v93 main_v94 (cmpf .oge : (⟨S800000x1, .f32⟩ : BufTy).Contents (Elt F) → (⟨S800000x1, .f32⟩ : BufTy).Contents (Elt F) → (⟨S800000x1, .i1⟩ : BufTy).Contents (Elt F)),
    StableHlo.nullary main_cst_17 (constant S_ .f32 0x3E4CCCCD#32),
    StableHlo.unary main_cst_17 main_v95 (broadcastInDim S800000x1 ![] bcast_S_S800000x1 : (⟨S_, .f32⟩ : BufTy).Contents (Elt F) → (⟨S800000x1, .f32⟩ : BufTy).Contents (Elt F)),
    StableHlo.binary main_v95 main_v92 main_v96 (mulf : (⟨S800000x1, .f32⟩ : BufTy).Contents (Elt F) → (⟨S800000x1, .f32⟩ : BufTy).Contents (Elt F) → (⟨S800000x1, .f32⟩ : BufTy).Contents (Elt F)),
    StableHlo.TRef.ternary (.of main_v94 : StableHlo.TRef sig ⟨S800000x1, .i1⟩) (.of main_v92 : StableHlo.TRef sig ⟨S800000x1, .f32⟩) (.of main_v96 : StableHlo.TRef sig ⟨S800000x1, .f32⟩) main_call5.v0 select,
    StableHlo.unary main_v97 main_v98 (Host.exp : (⟨S800000x1, .f32⟩ : BufTy).Contents (Elt F) → (⟨S800000x1, .f32⟩ : BufTy).Contents (Elt F)),
    StableHlo.nullary main_cst_18 (constant S_ .f32 0x00000000#32) ]

/-- Stretch 2 of the reference's line of operations (the called functions' operations in place). -/
def ops2 : List (HloOp τ sig (Elt F)) :=
  [ StableHlo.unary main_cst_18 main_v99 (broadcastInDim S50000x1 ![] bcast_S_S50000x1 : (⟨S_, .f32⟩ : BufTy).Contents (Elt F) → (⟨S50000x1, .f32⟩ : BufTy).Contents (Elt F)),
    StableHlo.unary main_v1 main_v100 (broadcastInDim S800000x1 ![0] bcast_S800000_S800000x1_0 : (⟨S800000, .i32⟩ : BufTy).Contents (Elt F) → (⟨S800000x1, .i32⟩ : BufTy).Contents (Elt F)),
    StableHlo.ternary main_v99 main_v100 main_v98 main_v101 ((fun x i u => Host.scatterAdd scatter_S50000x1_S800000x1_S800000x1_1_0_0_1 x i u) : (⟨S50000x1, .f32⟩ : BufTy).Contents (Elt F) → (⟨S800000x1, .i32⟩ : BufTy).Contents (Elt F) → (⟨S800000x1, .f32⟩ : BufTy).Contents (Elt F) → (⟨S50000x1, .f32⟩ : BufTy).Contents (Elt F)),
    StableHlo.binary main_v101 main_v75 main_v102 (addf : (⟨S50000x1, .f32⟩ : BufTy).Contents (Elt F) → (⟨S50000x1, .f32⟩ : BufTy).Contents (Elt F) → (⟨S50000x1, .f32⟩ : BufTy).Contents (Elt F)),
    StableHlo.nullary main_c_19 (constantI S_ 32 0#32),
    StableHlo.unary main_c_19 main_v103 (broadcastInDim S800000 ![] bcast_S_S800000 : (⟨S_, .i32⟩ : BufTy).Contents (Elt F) → (⟨S800000, .i32⟩ : BufTy).Contents (Elt F)),
    StableHlo.binary main_v3 main_v103 main_v104 (cmpi .slt : (⟨S800000, .i32⟩ : BufTy).Contents (Elt F) → (⟨S800000, .i32⟩ : BufTy).Contents (Elt F) → (⟨S800000, .i1⟩ : BufTy).Contents (Elt F)),
    StableHlo.nullary main_c_20 (constantI S_ 32 50000#32),
    StableHlo.unary main_c_20 main_v105 (broadcastInDim S800000 ![] bcast_S_S800000 : (⟨S_, .i32⟩ : BufTy).Contents (Elt F) → (⟨S800000, .i32⟩ : BufTy).Contents (Elt F)),
    StableHlo.binary main_v3 main_v105 main_v106 (addi : (⟨S800000, .i32⟩ : BufTy).Contents (Elt F) → (⟨S800000, .i32⟩ : BufTy).Contents (Elt F) → (⟨S800000, .i32⟩ : BufTy).Contents (Elt F)),
    StableHlo.ternary main_v104 main_v106 main_v3 main_v107 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v107 main_v108 (broadcastInDim S800000x1 ![0] bcast_S800000_S800000x1_0 : (⟨S800000, .i32⟩ : BufTy).Contents (Elt F) → (⟨S800000x1, .i32⟩ : BufTy).Contents (Elt F)),
    StableHlo.binary main_v64 main_v108 main_v109 ((fun x i => Host.gather gather_S50000x96_S800000x1_S800000x96_1_0_n_n_0_1_196 x i) : (⟨S50000x96, .f32⟩ : BufTy).Contents (Elt F) → (⟨S800000x1, .i32⟩ : BufTy).Contents (Elt F) → (⟨S800000x96, .f32⟩ : BufTy).Contents (Elt F)),
    StableHlo.unary main_v98 main_v110 (broadcastInDim S800000x96 ![0, 1] bcast_S800000x1_S800000x96_0_1 : (⟨S800000x1, .f32⟩ : BufTy).Contents (Elt F) → (⟨S800000x96, .f32⟩ : BufTy).Contents (Elt F)),
    StableHlo.binary main_v110 main_v109 main_v111 (mulf : (⟨S800000x96, .f32⟩ : BufTy).Contents (Elt F) → (⟨S800000x96, .f32⟩ : BufTy).Contents (Elt F) → (⟨S800000x96, .f32⟩ : BufTy).Contents (Elt F)),
    StableHlo.nullary main_cst_21 (constant S_ .f32 0x00000000#32),
    StableHlo.unary main_cst_21 main_v112 (broadcastInDim S50000x96 ![] bcast_S_S50000x96 : (⟨S_, .f32⟩ : BufTy).Contents (Elt F) → (⟨S50000x96, .f32⟩ : BufTy).Contents (Elt F)),
    StableHlo.unary main_v1 main_v113 (broadcastInDim S800000x1 ![0] bcast_S800000_S800000x1_0 : (⟨S800000, .i32⟩ : BufTy).Contents (Elt F) → (⟨S800000x1, .i32⟩ : BufTy).Contents (Elt F)),
    StableHlo.ternary main_v112 main_v113 main_v111 main_v114 ((fun x i u => Host.scatterAdd scatter_S50000x96_S800000x1_S800000x96_1_0_0_1 x i u) : (⟨S50000x96, .f32⟩ : BufTy).Contents (Elt F) → (⟨S800000x1, .i32⟩ : BufTy).Contents (Elt F) → (⟨S800000x96, .f32⟩ : BufTy).Contents (Elt F) → (⟨S50000x96, .f32⟩ : BufTy).Contents (Elt F)),
    StableHlo.unary main_v75 main_v115 (broadcastInDim S50000x96 ![0, 1] bcast_S50000x1_S50000x96_0_1 : (⟨S50000x1, .f32⟩ : BufTy).Contents (Elt F) → (⟨S50000x96, .f32⟩ : BufTy).Contents (Elt F)),
    StableHlo.binary main_v115 main_v8 main_v116 (mulf : (⟨S50000x96, .f32⟩ : BufTy).Contents (Elt F) → (⟨S50000x96, .f32⟩ : BufTy).Contents (Elt F) → (⟨S50000x96, .f32⟩ : BufTy).Contents (Elt F)),
    StableHlo.binary main_v114 main_v116 main_v117 (addf : (⟨S50000x96, .f32⟩ : BufTy).Contents (Elt F) → (⟨S50000x96, .f32⟩ : BufTy).Contents (Elt F) → (⟨S50000x96, .f32⟩ : BufTy).Contents (Elt F)),
    StableHlo.unary main_v102 main_v118 (broadcastInDim S50000x96 ![0, 1] bcast_S50000x1_S50000x96_0_1 : (⟨S50000x1, .f32⟩ : BufTy).Contents (Elt F) → (⟨S50000x96, .f32⟩ : BufTy).Contents (Elt F)),
    StableHlo.binary main_v117 main_v118 main_v119 (Host.divf : (⟨S50000x96, .f32⟩ : BufTy).Contents (Elt F) → (⟨S50000x96, .f32⟩ : BufTy).Contents (Elt F) → (⟨S50000x96, .f32⟩ : BufTy).Contents (Elt F)),
    StableHlo.TRef.nullary main_call6.cst (constant S_ .f32 0x00000000#32),
    StableHlo.TRef.unary main_call6.cst main_call6.v0 (broadcastInDim S50000x96 ![] bcast_S_S50000x96),
    StableHlo.TRef.binary (.of main_v119 : StableHlo.TRef sig ⟨S50000x96, .f32⟩) main_call6.v0 main_call6.v1 (cmpf .ogt),
    StableHlo.TRef.nullary main_call6.cst_0 (constant S_ .f32 0x00000000#32),
    StableHlo.TRef.unary main_call6.cst_0 main_call6.v2 (broadcastInDim S50000x96 ![] bcast_S_S50000x96),
    StableHlo.TRef.binary (.of main_v119 : StableHlo.TRef sig ⟨S50000x96, .f32⟩) main_call6.v2 main_call6.v3 (cmpf .ogt),
    StableHlo.TRef.nullary main_call6.cst_1 (constant S_ .f32 0x00000000#32),
    StableHlo.TRef.unary main_call6.cst_1 main_call6.call0.v0 id,
    StableHlo.TRef.unary main_call6.call0.v0 main_call6.call0.v1 (broadcastInDim S50000x96 ![] bcast_S_S50000x96),
    StableHlo.TRef.ternary main_call6.v3 main_call6.call0.v1 (.of main_v119 : StableHlo.TRef sig ⟨S50000x96, .f32⟩) main_call6.call0.v2 select,
    StableHlo.TRef.unary main_call6.call0.v2 main_call6.v5 Host.expm1,
    StableHlo.TRef.nullary main_call6.cst_2 (constant S_ .f32 0x3F800000#32),
    StableHlo.TRef.unary main_call6.cst_2 main_call6.v6 (broadcastInDim S50000x96 ![] bcast_S_S50000x96),
    StableHlo.TRef.binary main_call6.v6 main_call6.v5 main_call6.v7 mulf,
    StableHlo.TRef.ternary main_call6.v1 (.of main_v119 : StableHlo.TRef sig ⟨S50000x96, .f32⟩) main_call6.v7 main_call6.call1.v0 select,
    StableHlo.unary main_arg4 main_v121 (broadcastInDim S96x1 ![0] bcast_S96_S96x1_0 : (⟨S96, .f32⟩ : BufTy).Contents (Elt F) → (⟨S96x1, .f32⟩ : BufTy).Contents (Elt F)),
    StableHlo.binary main_v8 main_v121 main_v122 ((fun l r => Host.dotGeneral dot_S50000x96_S96x1_S50000x1_1_0_0_1_n_n none l r) : (⟨S50000x96, .f32⟩ : BufTy).Contents (Elt F) → (⟨S96x1, .f32⟩ : BufTy).Contents (Elt F) → (⟨S50000x1, .f32⟩ : BufTy).Contents (Elt F)),
    StableHlo.unary main_arg5 main_v123 (broadcastInDim S96x1 ![0] bcast_S96_S96x1_0 : (⟨S96, .f32⟩ : BufTy).Contents (Elt F) → (⟨S96x1, .f32⟩ : BufTy).Contents (Elt F)),
    StableHlo.binary main_v8 main_v123 main_v124 ((fun l r => Host.dotGeneral dot_S50000x96_S96x1_S50000x1_1_0_0_1_n_n none l r) : (⟨S50000x96, .f32⟩ : BufTy).Contents (Elt F) → (⟨S96x1, .f32⟩ : BufTy).Contents (Elt F) → (⟨S50000x1, .f32⟩ : BufTy).Contents (Elt F)),
    StableHlo.binary main_v122 main_v124 main_v125 (addf : (⟨S50000x1, .f32⟩ : BufTy).Contents (Elt F) → (⟨S50000x1, .f32⟩ : BufTy).Contents (Elt F) → (⟨S50000x1, .f32⟩ : BufTy).Contents (Elt F)),
    StableHlo.nullary main_cst_22 (constant S_ .f32 0x00000000#32),
    StableHlo.unary main_cst_22 main_v126 (broadcastInDim S50000x1 ![] bcast_S_S50000x1 : (⟨S_, .f32⟩ : BufTy).Contents (Elt F) → (⟨S50000x1, .f32⟩ : BufTy).Contents (Elt F)),
    StableHlo.binary main_v125 main_v126 main_v127 (cmpf .oge : (⟨S50000x1, .f32⟩ : BufTy).Contents (Elt F) → (⟨S50000x1, .f32⟩ : BufTy).Contents (Elt F) → (⟨S50000x1, .i1⟩ : BufTy).Contents (Elt F)),
    StableHlo.nullary main_cst_23 (constant S_ .f32 0x3E4CCCCD#32),
    StableHlo.unary main_cst_23 main_v128 (broadcastInDim S50000x1 ![] bcast_S_S50000x1 : (⟨S_, .f32⟩ : BufTy).Contents (Elt F) → (⟨S50000x1, .f32⟩ : BufTy).Contents (Elt F)),
    StableHlo.binary main_v128 main_v125 main_v129 (mulf : (⟨S50000x1, .f32⟩ : BufTy).Contents (Elt F) → (⟨S50000x1, .f32⟩ : BufTy).Contents (Elt F) → (⟨S50000x1, .f32⟩ : BufTy).Contents (Elt F)),
    StableHlo.TRef.ternary (.of main_v127 : StableHlo.TRef sig ⟨S50000x1, .i1⟩) (.of main_v125 : StableHlo.TRef sig ⟨S50000x1, .f32⟩) (.of main_v129 : StableHlo.TRef sig ⟨S50000x1, .f32⟩) main_call7.v0 select,
    StableHlo.unary main_v130 main_v131 (Host.exp : (⟨S50000x1, .f32⟩ : BufTy).Contents (Elt F) → (⟨S50000x1, .f32⟩ : BufTy).Contents (Elt F)),
    StableHlo.unary main_arg5 main_v132 (broadcastInDim S96x1 ![0] bcast_S96_S96x1_0 : (⟨S96, .f32⟩ : BufTy).Contents (Elt F) → (⟨S96x1, .f32⟩ : BufTy).Contents (Elt F)),
    StableHlo.binary main_v120 main_v132 main_v133 ((fun l r => Host.dotGeneral dot_S50000x96_S96x1_S50000x1_1_0_0_1_n_n none l r) : (⟨S50000x96, .f32⟩ : BufTy).Contents (Elt F) → (⟨S96x1, .f32⟩ : BufTy).Contents (Elt F) → (⟨S50000x1, .f32⟩ : BufTy).Contents (Elt F)),
    StableHlo.nullary main_c_24 (constantI S_ 32 0#32),
    StableHlo.unary main_c_24 main_v134 (broadcastInDim S800000 ![] bcast_S_S800000 : (⟨S_, .i32⟩ : BufTy).Contents (Elt F) → (⟨S800000, .i32⟩ : BufTy).Contents (Elt F)),
    StableHlo.binary main_v1 main_v134 main_v135 (cmpi .slt : (⟨S800000, .i32⟩ : BufTy).Contents (Elt F) → (⟨S800000, .i32⟩ : BufTy).Contents (Elt F) → (⟨S800000, .i1⟩ : BufTy).Contents (Elt F)),
    StableHlo.nullary main_c_25 (constantI S_ 32 50000#32),
    StableHlo.unary main_c_25 main_v136 (broadcastInDim S800000 ![] bcast_S_S800000 : (⟨S_, .i32⟩ : BufTy).Contents (Elt F) → (⟨S800000, .i32⟩ : BufTy).Contents (Elt F)),
    StableHlo.binary main_v1 main_v136 main_v137 (addi : (⟨S800000, .i32⟩ : BufTy).Contents (Elt F) → (⟨S800000, .i32⟩ : BufTy).Contents (Elt F) → (⟨S800000, .i32⟩ : BufTy).Contents (Elt F)),
    StableHlo.ternary main_v135 main_v137 main_v1 main_v138 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v138 main_v139 (broadcastInDim S800000x1 ![0] bcast_S800000_S800000x1_0 : (⟨S800000, .i32⟩ : BufTy).Contents (Elt F) → (⟨S800000x1, .i32⟩ : BufTy).Contents (Elt F)),
    StableHlo.binary main_v122 main_v139 main_v140 ((fun x i => Host.gather gather_S50000x1_S800000x1_S800000x1_1_0_n_n_0_1_11 x i) : (⟨S50000x1, .f32⟩ : BufTy).Contents (Elt F) → (⟨S800000x1, .i32⟩ : BufTy).Contents (Elt F) → (⟨S800000x1, .f32⟩ : BufTy).Contents (Elt F)),
    StableHlo.nullary main_c_26 (constantI S_ 32 0#32),
    StableHlo.unary main_c_26 main_v141 (broadcastInDim S800000 ![] bcast_S_S800000 : (⟨S_, .i32⟩ : BufTy).Contents (Elt F) → (⟨S800000, .i32⟩ : BufTy).Contents (Elt F)),
    StableHlo.binary main_v3 main_v141 main_v142 (cmpi .slt : (⟨S800000, .i32⟩ : BufTy).Contents (Elt F) → (⟨S800000, .i32⟩ : BufTy).Contents (Elt F) → (⟨S800000, .i1⟩ : BufTy).Contents (Elt F)),
    StableHlo.nullary main_c_27 (constantI S_ 32 50000#32),
    StableHlo.unary main_c_27 main_v143 (broadcastInDim S800000 ![] bcast_S_S800000 : (⟨S_, .i32⟩ : BufTy).Contents (Elt F) → (⟨S800000, .i32⟩ : BufTy).Contents (Elt F)),
    StableHlo.binary main_v3 main_v143 main_v144 (addi : (⟨S800000, .i32⟩ : BufTy).Contents (Elt F) → (⟨S800000, .i32⟩ : BufTy).Contents (Elt F) → (⟨S800000, .i32⟩ : BufTy).Contents (Elt F)),
    StableHlo.ternary main_v142 main_v144 main_v3 main_v145 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v145 main_v146 (broadcastInDim S800000x1 ![0] bcast_S800000_S800000x1_0 : (⟨S800000, .i32⟩ : BufTy).Contents (Elt F) → (⟨S800000x1, .i32⟩ : BufTy).Contents (Elt F)),
    StableHlo.binary main_v133 main_v146 main_v147 ((fun x i => Host.gather gather_S50000x1_S800000x1_S800000x1_1_0_n_n_0_1_11 x i) : (⟨S50000x1, .f32⟩ : BufTy).Contents (Elt F) → (⟨S800000x1, .i32⟩ : BufTy).Contents (Elt F) → (⟨S800000x1, .f32⟩ : BufTy).Contents (Elt F)),
    StableHlo.binary main_v140 main_v147 main_v148 (addf : (⟨S800000x1, .f32⟩ : BufTy).Contents (Elt F) → (⟨S800000x1, .f32⟩ : BufTy).Contents (Elt F) → (⟨S800000x1, .f32⟩ : BufTy).Contents (Elt F)),
    StableHlo.nullary main_cst_28 (constant S_ .f32 0x00000000#32) ]

/-- Stretch 3 of the reference's line of operations (the called functions' operations in place). -/
def ops3 : List (HloOp τ sig (Elt F)) :=
  [ StableHlo.unary main_cst_28 main_v149 (broadcastInDim S800000x1 ![] bcast_S_S800000x1 : (⟨S_, .f32⟩ : BufTy).Contents (Elt F) → (⟨S800000x1, .f32⟩ : BufTy).Contents (Elt F)),
    StableHlo.binary main_v148 main_v149 main_v150 (cmpf .oge : (⟨S800000x1, .f32⟩ : BufTy).Contents (Elt F) → (⟨S800000x1, .f32⟩ : BufTy).Contents (Elt F) → (⟨S800000x1, .i1⟩ : BufTy).Contents (Elt F)),
    StableHlo.nullary main_cst_29 (constant S_ .f32 0x3E4CCCCD#32),
    StableHlo.unary main_cst_29 main_v151 (broadcastInDim S800000x1 ![] bcast_S_S800000x1 : (⟨S_, .f32⟩ : BufTy).Contents (Elt F) → (⟨S800000x1, .f32⟩ : BufTy).Contents (Elt F)),
    StableHlo.binary main_v151 main_v148 main_v152 (mulf : (⟨S800000x1, .f32⟩ : BufTy).Contents (Elt F) → (⟨S800000x1, .f32⟩ : BufTy).Contents (Elt F) → (⟨S800000x1, .f32⟩ : BufTy).Contents (Elt F)),
    StableHlo.TRef.ternary (.of main_v150 : StableHlo.TRef sig ⟨S800000x1, .i1⟩) (.of main_v148 : StableHlo.TRef sig ⟨S800000x1, .f32⟩) (.of main_v152 : StableHlo.TRef sig ⟨S800000x1, .f32⟩) main_call8.v0 select,
    StableHlo.unary main_v153 main_v154 (Host.exp : (⟨S800000x1, .f32⟩ : BufTy).Contents (Elt F) → (⟨S800000x1, .f32⟩ : BufTy).Contents (Elt F)),
    StableHlo.nullary main_cst_30 (constant S_ .f32 0x00000000#32),
    StableHlo.unary main_cst_30 main_v155 (broadcastInDim S50000x1 ![] bcast_S_S50000x1 : (⟨S_, .f32⟩ : BufTy).Contents (Elt F) → (⟨S50000x1, .f32⟩ : BufTy).Contents (Elt F)),
    StableHlo.unary main_v1 main_v156 (broadcastInDim S800000x1 ![0] bcast_S800000_S800000x1_0 : (⟨S800000, .i32⟩ : BufTy).Contents (Elt F) → (⟨S800000x1, .i32⟩ : BufTy).Contents (Elt F)),
    StableHlo.ternary main_v155 main_v156 main_v154 main_v157 ((fun x i u => Host.scatterAdd scatter_S50000x1_S800000x1_S800000x1_1_0_0_1 x i u) : (⟨S50000x1, .f32⟩ : BufTy).Contents (Elt F) → (⟨S800000x1, .i32⟩ : BufTy).Contents (Elt F) → (⟨S800000x1, .f32⟩ : BufTy).Contents (Elt F) → (⟨S50000x1, .f32⟩ : BufTy).Contents (Elt F)),
    StableHlo.binary main_v157 main_v131 main_v158 (addf : (⟨S50000x1, .f32⟩ : BufTy).Contents (Elt F) → (⟨S50000x1, .f32⟩ : BufTy).Contents (Elt F) → (⟨S50000x1, .f32⟩ : BufTy).Contents (Elt F)),
    StableHlo.nullary main_c_31 (constantI S_ 32 0#32),
    StableHlo.unary main_c_31 main_v159 (broadcastInDim S800000 ![] bcast_S_S800000 : (⟨S_, .i32⟩ : BufTy).Contents (Elt F) → (⟨S800000, .i32⟩ : BufTy).Contents (Elt F)),
    StableHlo.binary main_v3 main_v159 main_v160 (cmpi .slt : (⟨S800000, .i32⟩ : BufTy).Contents (Elt F) → (⟨S800000, .i32⟩ : BufTy).Contents (Elt F) → (⟨S800000, .i1⟩ : BufTy).Contents (Elt F)),
    StableHlo.nullary main_c_32 (constantI S_ 32 50000#32),
    StableHlo.unary main_c_32 main_v161 (broadcastInDim S800000 ![] bcast_S_S800000 : (⟨S_, .i32⟩ : BufTy).Contents (Elt F) → (⟨S800000, .i32⟩ : BufTy).Contents (Elt F)),
    StableHlo.binary main_v3 main_v161 main_v162 (addi : (⟨S800000, .i32⟩ : BufTy).Contents (Elt F) → (⟨S800000, .i32⟩ : BufTy).Contents (Elt F) → (⟨S800000, .i32⟩ : BufTy).Contents (Elt F)),
    StableHlo.ternary main_v160 main_v162 main_v3 main_v163 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v163 main_v164 (broadcastInDim S800000x1 ![0] bcast_S800000_S800000x1_0 : (⟨S800000, .i32⟩ : BufTy).Contents (Elt F) → (⟨S800000x1, .i32⟩ : BufTy).Contents (Elt F)),
    StableHlo.binary main_v120 main_v164 main_v165 ((fun x i => Host.gather gather_S50000x96_S800000x1_S800000x96_1_0_n_n_0_1_196 x i) : (⟨S50000x96, .f32⟩ : BufTy).Contents (Elt F) → (⟨S800000x1, .i32⟩ : BufTy).Contents (Elt F) → (⟨S800000x96, .f32⟩ : BufTy).Contents (Elt F)),
    StableHlo.unary main_v154 main_v166 (broadcastInDim S800000x96 ![0, 1] bcast_S800000x1_S800000x96_0_1 : (⟨S800000x1, .f32⟩ : BufTy).Contents (Elt F) → (⟨S800000x96, .f32⟩ : BufTy).Contents (Elt F)),
    StableHlo.binary main_v166 main_v165 main_v167 (mulf : (⟨S800000x96, .f32⟩ : BufTy).Contents (Elt F) → (⟨S800000x96, .f32⟩ : BufTy).Contents (Elt F) → (⟨S800000x96, .f32⟩ : BufTy).Contents (Elt F)),
    StableHlo.nullary main_cst_33 (constant S_ .f32 0x00000000#32),
    StableHlo.unary main_cst_33 main_v168 (broadcastInDim S50000x96 ![] bcast_S_S50000x96 : (⟨S_, .f32⟩ : BufTy).Contents (Elt F) → (⟨S50000x96, .f32⟩ : BufTy).Contents (Elt F)),
    StableHlo.unary main_v1 main_v169 (broadcastInDim S800000x1 ![0] bcast_S800000_S800000x1_0 : (⟨S800000, .i32⟩ : BufTy).Contents (Elt F) → (⟨S800000x1, .i32⟩ : BufTy).Contents (Elt F)),
    StableHlo.ternary main_v168 main_v169 main_v167 main_v170 ((fun x i u => Host.scatterAdd scatter_S50000x96_S800000x1_S800000x96_1_0_0_1 x i u) : (⟨S50000x96, .f32⟩ : BufTy).Contents (Elt F) → (⟨S800000x1, .i32⟩ : BufTy).Contents (Elt F) → (⟨S800000x96, .f32⟩ : BufTy).Contents (Elt F) → (⟨S50000x96, .f32⟩ : BufTy).Contents (Elt F)),
    StableHlo.unary main_v131 main_v171 (broadcastInDim S50000x96 ![0, 1] bcast_S50000x1_S50000x96_0_1 : (⟨S50000x1, .f32⟩ : BufTy).Contents (Elt F) → (⟨S50000x96, .f32⟩ : BufTy).Contents (Elt F)),
    StableHlo.binary main_v171 main_v8 main_v172 (mulf : (⟨S50000x96, .f32⟩ : BufTy).Contents (Elt F) → (⟨S50000x96, .f32⟩ : BufTy).Contents (Elt F) → (⟨S50000x96, .f32⟩ : BufTy).Contents (Elt F)),
    StableHlo.binary main_v170 main_v172 main_v173 (addf : (⟨S50000x96, .f32⟩ : BufTy).Contents (Elt F) → (⟨S50000x96, .f32⟩ : BufTy).Contents (Elt F) → (⟨S50000x96, .f32⟩ : BufTy).Contents (Elt F)),
    StableHlo.unary main_v158 main_v174 (broadcastInDim S50000x96 ![0, 1] bcast_S50000x1_S50000x96_0_1 : (⟨S50000x1, .f32⟩ : BufTy).Contents (Elt F) → (⟨S50000x96, .f32⟩ : BufTy).Contents (Elt F)),
    StableHlo.binary main_v173 main_v174 main_v175 (Host.divf : (⟨S50000x96, .f32⟩ : BufTy).Contents (Elt F) → (⟨S50000x96, .f32⟩ : BufTy).Contents (Elt F) → (⟨S50000x96, .f32⟩ : BufTy).Contents (Elt F)),
    StableHlo.TRef.nullary main_call9.cst (constant S_ .f32 0x00000000#32),
    StableHlo.TRef.unary main_call9.cst main_call9.v0 (broadcastInDim S50000x96 ![] bcast_S_S50000x96),
    StableHlo.TRef.binary (.of main_v175 : StableHlo.TRef sig ⟨S50000x96, .f32⟩) main_call9.v0 main_call9.v1 (cmpf .ogt),
    StableHlo.TRef.nullary main_call9.cst_0 (constant S_ .f32 0x00000000#32),
    StableHlo.TRef.unary main_call9.cst_0 main_call9.v2 (broadcastInDim S50000x96 ![] bcast_S_S50000x96),
    StableHlo.TRef.binary (.of main_v175 : StableHlo.TRef sig ⟨S50000x96, .f32⟩) main_call9.v2 main_call9.v3 (cmpf .ogt),
    StableHlo.TRef.nullary main_call9.cst_1 (constant S_ .f32 0x00000000#32),
    StableHlo.TRef.unary main_call9.cst_1 main_call9.call0.v0 id,
    StableHlo.TRef.unary main_call9.call0.v0 main_call9.call0.v1 (broadcastInDim S50000x96 ![] bcast_S_S50000x96),
    StableHlo.TRef.ternary main_call9.v3 main_call9.call0.v1 (.of main_v175 : StableHlo.TRef sig ⟨S50000x96, .f32⟩) main_call9.call0.v2 select,
    StableHlo.TRef.unary main_call9.call0.v2 main_call9.v5 Host.expm1,
    StableHlo.TRef.nullary main_call9.cst_2 (constant S_ .f32 0x3F800000#32),
    StableHlo.TRef.unary main_call9.cst_2 main_call9.v6 (broadcastInDim S50000x96 ![] bcast_S_S50000x96),
    StableHlo.TRef.binary main_call9.v6 main_call9.v5 main_call9.v7 mulf,
    StableHlo.TRef.ternary main_call9.v1 (.of main_v175 : StableHlo.TRef sig ⟨S50000x96, .f32⟩) main_call9.v7 main_call9.call1.v0 select,
    StableHlo.unary main_arg4 main_v177 (broadcastInDim S96x1 ![0] bcast_S96_S96x1_0 : (⟨S96, .f32⟩ : BufTy).Contents (Elt F) → (⟨S96x1, .f32⟩ : BufTy).Contents (Elt F)),
    StableHlo.binary main_v8 main_v177 main_v178 ((fun l r => Host.dotGeneral dot_S50000x96_S96x1_S50000x1_1_0_0_1_n_n none l r) : (⟨S50000x96, .f32⟩ : BufTy).Contents (Elt F) → (⟨S96x1, .f32⟩ : BufTy).Contents (Elt F) → (⟨S50000x1, .f32⟩ : BufTy).Contents (Elt F)),
    StableHlo.unary main_arg5 main_v179 (broadcastInDim S96x1 ![0] bcast_S96_S96x1_0 : (⟨S96, .f32⟩ : BufTy).Contents (Elt F) → (⟨S96x1, .f32⟩ : BufTy).Contents (Elt F)),
    StableHlo.binary main_v8 main_v179 main_v180 ((fun l r => Host.dotGeneral dot_S50000x96_S96x1_S50000x1_1_0_0_1_n_n none l r) : (⟨S50000x96, .f32⟩ : BufTy).Contents (Elt F) → (⟨S96x1, .f32⟩ : BufTy).Contents (Elt F) → (⟨S50000x1, .f32⟩ : BufTy).Contents (Elt F)),
    StableHlo.binary main_v178 main_v180 main_v181 (addf : (⟨S50000x1, .f32⟩ : BufTy).Contents (Elt F) → (⟨S50000x1, .f32⟩ : BufTy).Contents (Elt F) → (⟨S50000x1, .f32⟩ : BufTy).Contents (Elt F)),
    StableHlo.nullary main_cst_34 (constant S_ .f32 0x00000000#32),
    StableHlo.unary main_cst_34 main_v182 (broadcastInDim S50000x1 ![] bcast_S_S50000x1 : (⟨S_, .f32⟩ : BufTy).Contents (Elt F) → (⟨S50000x1, .f32⟩ : BufTy).Contents (Elt F)),
    StableHlo.binary main_v181 main_v182 main_v183 (cmpf .oge : (⟨S50000x1, .f32⟩ : BufTy).Contents (Elt F) → (⟨S50000x1, .f32⟩ : BufTy).Contents (Elt F) → (⟨S50000x1, .i1⟩ : BufTy).Contents (Elt F)),
    StableHlo.nullary main_cst_35 (constant S_ .f32 0x3E4CCCCD#32),
    StableHlo.unary main_cst_35 main_v184 (broadcastInDim S50000x1 ![] bcast_S_S50000x1 : (⟨S_, .f32⟩ : BufTy).Contents (Elt F) → (⟨S50000x1, .f32⟩ : BufTy).Contents (Elt F)),
    StableHlo.binary main_v184 main_v181 main_v185 (mulf : (⟨S50000x1, .f32⟩ : BufTy).Contents (Elt F) → (⟨S50000x1, .f32⟩ : BufTy).Contents (Elt F) → (⟨S50000x1, .f32⟩ : BufTy).Contents (Elt F)),
    StableHlo.TRef.ternary (.of main_v183 : StableHlo.TRef sig ⟨S50000x1, .i1⟩) (.of main_v181 : StableHlo.TRef sig ⟨S50000x1, .f32⟩) (.of main_v185 : StableHlo.TRef sig ⟨S50000x1, .f32⟩) main_call10.v0 select,
    StableHlo.unary main_v186 main_v187 (Host.exp : (⟨S50000x1, .f32⟩ : BufTy).Contents (Elt F) → (⟨S50000x1, .f32⟩ : BufTy).Contents (Elt F)),
    StableHlo.unary main_arg5 main_v188 (broadcastInDim S96x1 ![0] bcast_S96_S96x1_0 : (⟨S96, .f32⟩ : BufTy).Contents (Elt F) → (⟨S96x1, .f32⟩ : BufTy).Contents (Elt F)),
    StableHlo.binary main_v176 main_v188 main_v189 ((fun l r => Host.dotGeneral dot_S50000x96_S96x1_S50000x1_1_0_0_1_n_n none l r) : (⟨S50000x96, .f32⟩ : BufTy).Contents (Elt F) → (⟨S96x1, .f32⟩ : BufTy).Contents (Elt F) → (⟨S50000x1, .f32⟩ : BufTy).Contents (Elt F)),
    StableHlo.nullary main_c_36 (constantI S_ 32 0#32),
    StableHlo.unary main_c_36 main_v190 (broadcastInDim S800000 ![] bcast_S_S800000 : (⟨S_, .i32⟩ : BufTy).Contents (Elt F) → (⟨S800000, .i32⟩ : BufTy).Contents (Elt F)),
    StableHlo.binary main_v1 main_v190 main_v191 (cmpi .slt : (⟨S800000, .i32⟩ : BufTy).Contents (Elt F) → (⟨S800000, .i32⟩ : BufTy).Contents (Elt F) → (⟨S800000, .i1⟩ : BufTy).Contents (Elt F)),
    StableHlo.nullary main_c_37 (constantI S_ 32 50000#32),
    StableHlo.unary main_c_37 main_v192 (broadcastInDim S800000 ![] bcast_S_S800000 : (⟨S_, .i32⟩ : BufTy).Contents (Elt F) → (⟨S800000, .i32⟩ : BufTy).Contents (Elt F)),
    StableHlo.binary main_v1 main_v192 main_v193 (addi : (⟨S800000, .i32⟩ : BufTy).Contents (Elt F) → (⟨S800000, .i32⟩ : BufTy).Contents (Elt F) → (⟨S800000, .i32⟩ : BufTy).Contents (Elt F)),
    StableHlo.ternary main_v191 main_v193 main_v1 main_v194 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v194 main_v195 (broadcastInDim S800000x1 ![0] bcast_S800000_S800000x1_0 : (⟨S800000, .i32⟩ : BufTy).Contents (Elt F) → (⟨S800000x1, .i32⟩ : BufTy).Contents (Elt F)),
    StableHlo.binary main_v178 main_v195 main_v196 ((fun x i => Host.gather gather_S50000x1_S800000x1_S800000x1_1_0_n_n_0_1_11 x i) : (⟨S50000x1, .f32⟩ : BufTy).Contents (Elt F) → (⟨S800000x1, .i32⟩ : BufTy).Contents (Elt F) → (⟨S800000x1, .f32⟩ : BufTy).Contents (Elt F)),
    StableHlo.nullary main_c_38 (constantI S_ 32 0#32),
    StableHlo.unary main_c_38 main_v197 (broadcastInDim S800000 ![] bcast_S_S800000 : (⟨S_, .i32⟩ : BufTy).Contents (Elt F) → (⟨S800000, .i32⟩ : BufTy).Contents (Elt F)),
    StableHlo.binary main_v3 main_v197 main_v198 (cmpi .slt : (⟨S800000, .i32⟩ : BufTy).Contents (Elt F) → (⟨S800000, .i32⟩ : BufTy).Contents (Elt F) → (⟨S800000, .i1⟩ : BufTy).Contents (Elt F)) ]

/-- Stretch 4 of the reference's line of operations (the called functions' operations in place). -/
def ops4 : List (HloOp τ sig (Elt F)) :=
  [ StableHlo.nullary main_c_39 (constantI S_ 32 50000#32),
    StableHlo.unary main_c_39 main_v199 (broadcastInDim S800000 ![] bcast_S_S800000 : (⟨S_, .i32⟩ : BufTy).Contents (Elt F) → (⟨S800000, .i32⟩ : BufTy).Contents (Elt F)),
    StableHlo.binary main_v3 main_v199 main_v200 (addi : (⟨S800000, .i32⟩ : BufTy).Contents (Elt F) → (⟨S800000, .i32⟩ : BufTy).Contents (Elt F) → (⟨S800000, .i32⟩ : BufTy).Contents (Elt F)),
    StableHlo.ternary main_v198 main_v200 main_v3 main_v201 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v201 main_v202 (broadcastInDim S800000x1 ![0] bcast_S800000_S800000x1_0 : (⟨S800000, .i32⟩ : BufTy).Contents (Elt F) → (⟨S800000x1, .i32⟩ : BufTy).Contents (Elt F)),
    StableHlo.binary main_v189 main_v202 main_v203 ((fun x i => Host.gather gather_S50000x1_S800000x1_S800000x1_1_0_n_n_0_1_11 x i) : (⟨S50000x1, .f32⟩ : BufTy).Contents (Elt F) → (⟨S800000x1, .i32⟩ : BufTy).Contents (Elt F) → (⟨S800000x1, .f32⟩ : BufTy).Contents (Elt F)),
    StableHlo.binary main_v196 main_v203 main_v204 (addf : (⟨S800000x1, .f32⟩ : BufTy).Contents (Elt F) → (⟨S800000x1, .f32⟩ : BufTy).Contents (Elt F) → (⟨S800000x1, .f32⟩ : BufTy).Contents (Elt F)),
    StableHlo.nullary main_cst_40 (constant S_ .f32 0x00000000#32),
    StableHlo.unary main_cst_40 main_v205 (broadcastInDim S800000x1 ![] bcast_S_S800000x1 : (⟨S_, .f32⟩ : BufTy).Contents (Elt F) → (⟨S800000x1, .f32⟩ : BufTy).Contents (Elt F)),
    StableHlo.binary main_v204 main_v205 main_v206 (cmpf .oge : (⟨S800000x1, .f32⟩ : BufTy).Contents (Elt F) → (⟨S800000x1, .f32⟩ : BufTy).Contents (Elt F) → (⟨S800000x1, .i1⟩ : BufTy).Contents (Elt F)),
    StableHlo.nullary main_cst_41 (constant S_ .f32 0x3E4CCCCD#32),
    StableHlo.unary main_cst_41 main_v207 (broadcastInDim S800000x1 ![] bcast_S_S800000x1 : (⟨S_, .f32⟩ : BufTy).Contents (Elt F) → (⟨S800000x1, .f32⟩ : BufTy).Contents (Elt F)),
    StableHlo.binary main_v207 main_v204 main_v208 (mulf : (⟨S800000x1, .f32⟩ : BufTy).Contents (Elt F) → (⟨S800000x1, .f32⟩ : BufTy).Contents (Elt F) → (⟨S800000x1, .f32⟩ : BufTy).Contents (Elt F)),
    StableHlo.TRef.ternary (.of main_v206 : StableHlo.TRef sig ⟨S800000x1, .i1⟩) (.of main_v204 : StableHlo.TRef sig ⟨S800000x1, .f32⟩) (.of main_v208 : StableHlo.TRef sig ⟨S800000x1, .f32⟩) main_call11.v0 select,
    StableHlo.unary main_v209 main_v210 (Host.exp : (⟨S800000x1, .f32⟩ : BufTy).Contents (Elt F) → (⟨S800000x1, .f32⟩ : BufTy).Contents (Elt F)),
    StableHlo.nullary main_cst_42 (constant S_ .f32 0x00000000#32),
    StableHlo.unary main_cst_42 main_v211 (broadcastInDim S50000x1 ![] bcast_S_S50000x1 : (⟨S_, .f32⟩ : BufTy).Contents (Elt F) → (⟨S50000x1, .f32⟩ : BufTy).Contents (Elt F)),
    StableHlo.unary main_v1 main_v212 (broadcastInDim S800000x1 ![0] bcast_S800000_S800000x1_0 : (⟨S800000, .i32⟩ : BufTy).Contents (Elt F) → (⟨S800000x1, .i32⟩ : BufTy).Contents (Elt F)),
    StableHlo.ternary main_v211 main_v212 main_v210 main_v213 ((fun x i u => Host.scatterAdd scatter_S50000x1_S800000x1_S800000x1_1_0_0_1 x i u) : (⟨S50000x1, .f32⟩ : BufTy).Contents (Elt F) → (⟨S800000x1, .i32⟩ : BufTy).Contents (Elt F) → (⟨S800000x1, .f32⟩ : BufTy).Contents (Elt F) → (⟨S50000x1, .f32⟩ : BufTy).Contents (Elt F)),
    StableHlo.binary main_v213 main_v187 main_v214 (addf : (⟨S50000x1, .f32⟩ : BufTy).Contents (Elt F) → (⟨S50000x1, .f32⟩ : BufTy).Contents (Elt F) → (⟨S50000x1, .f32⟩ : BufTy).Contents (Elt F)),
    StableHlo.nullary main_c_43 (constantI S_ 32 0#32),
    StableHlo.unary main_c_43 main_v215 (broadcastInDim S800000 ![] bcast_S_S800000 : (⟨S_, .i32⟩ : BufTy).Contents (Elt F) → (⟨S800000, .i32⟩ : BufTy).Contents (Elt F)),
    StableHlo.binary main_v3 main_v215 main_v216 (cmpi .slt : (⟨S800000, .i32⟩ : BufTy).Contents (Elt F) → (⟨S800000, .i32⟩ : BufTy).Contents (Elt F) → (⟨S800000, .i1⟩ : BufTy).Contents (Elt F)),
    StableHlo.nullary main_c_44 (constantI S_ 32 50000#32),
    StableHlo.unary main_c_44 main_v217 (broadcastInDim S800000 ![] bcast_S_S800000 : (⟨S_, .i32⟩ : BufTy).Contents (Elt F) → (⟨S800000, .i32⟩ : BufTy).Contents (Elt F)),
    StableHlo.binary main_v3 main_v217 main_v218 (addi : (⟨S800000, .i32⟩ : BufTy).Contents (Elt F) → (⟨S800000, .i32⟩ : BufTy).Contents (Elt F) → (⟨S800000, .i32⟩ : BufTy).Contents (Elt F)),
    StableHlo.ternary main_v216 main_v218 main_v3 main_v219 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v219 main_v220 (broadcastInDim S800000x1 ![0] bcast_S800000_S800000x1_0 : (⟨S800000, .i32⟩ : BufTy).Contents (Elt F) → (⟨S800000x1, .i32⟩ : BufTy).Contents (Elt F)),
    StableHlo.binary main_v176 main_v220 main_v221 ((fun x i => Host.gather gather_S50000x96_S800000x1_S800000x96_1_0_n_n_0_1_196 x i) : (⟨S50000x96, .f32⟩ : BufTy).Contents (Elt F) → (⟨S800000x1, .i32⟩ : BufTy).Contents (Elt F) → (⟨S800000x96, .f32⟩ : BufTy).Contents (Elt F)),
    StableHlo.unary main_v210 main_v222 (broadcastInDim S800000x96 ![0, 1] bcast_S800000x1_S800000x96_0_1 : (⟨S800000x1, .f32⟩ : BufTy).Contents (Elt F) → (⟨S800000x96, .f32⟩ : BufTy).Contents (Elt F)),
    StableHlo.binary main_v222 main_v221 main_v223 (mulf : (⟨S800000x96, .f32⟩ : BufTy).Contents (Elt F) → (⟨S800000x96, .f32⟩ : BufTy).Contents (Elt F) → (⟨S800000x96, .f32⟩ : BufTy).Contents (Elt F)),
    StableHlo.nullary main_cst_45 (constant S_ .f32 0x00000000#32),
    StableHlo.unary main_cst_45 main_v224 (broadcastInDim S50000x96 ![] bcast_S_S50000x96 : (⟨S_, .f32⟩ : BufTy).Contents (Elt F) → (⟨S50000x96, .f32⟩ : BufTy).Contents (Elt F)),
    StableHlo.unary main_v1 main_v225 (broadcastInDim S800000x1 ![0] bcast_S800000_S800000x1_0 : (⟨S800000, .i32⟩ : BufTy).Contents (Elt F) → (⟨S800000x1, .i32⟩ : BufTy).Contents (Elt F)),
    StableHlo.ternary main_v224 main_v225 main_v223 main_v226 ((fun x i u => Host.scatterAdd scatter_S50000x96_S800000x1_S800000x96_1_0_0_1 x i u) : (⟨S50000x96, .f32⟩ : BufTy).Contents (Elt F) → (⟨S800000x1, .i32⟩ : BufTy).Contents (Elt F) → (⟨S800000x96, .f32⟩ : BufTy).Contents (Elt F) → (⟨S50000x96, .f32⟩ : BufTy).Contents (Elt F)),
    StableHlo.unary main_v187 main_v227 (broadcastInDim S50000x96 ![0, 1] bcast_S50000x1_S50000x96_0_1 : (⟨S50000x1, .f32⟩ : BufTy).Contents (Elt F) → (⟨S50000x96, .f32⟩ : BufTy).Contents (Elt F)),
    StableHlo.binary main_v227 main_v8 main_v228 (mulf : (⟨S50000x96, .f32⟩ : BufTy).Contents (Elt F) → (⟨S50000x96, .f32⟩ : BufTy).Contents (Elt F) → (⟨S50000x96, .f32⟩ : BufTy).Contents (Elt F)),
    StableHlo.binary main_v226 main_v228 main_v229 (addf : (⟨S50000x96, .f32⟩ : BufTy).Contents (Elt F) → (⟨S50000x96, .f32⟩ : BufTy).Contents (Elt F) → (⟨S50000x96, .f32⟩ : BufTy).Contents (Elt F)),
    StableHlo.unary main_v214 main_v230 (broadcastInDim S50000x96 ![0, 1] bcast_S50000x1_S50000x96_0_1 : (⟨S50000x1, .f32⟩ : BufTy).Contents (Elt F) → (⟨S50000x96, .f32⟩ : BufTy).Contents (Elt F)),
    StableHlo.binary main_v229 main_v230 main_v231 (Host.divf : (⟨S50000x96, .f32⟩ : BufTy).Contents (Elt F) → (⟨S50000x96, .f32⟩ : BufTy).Contents (Elt F) → (⟨S50000x96, .f32⟩ : BufTy).Contents (Elt F)),
    StableHlo.TRef.nullary main_call12.cst (constant S_ .f32 0x00000000#32),
    StableHlo.TRef.unary main_call12.cst main_call12.v0 (broadcastInDim S50000x96 ![] bcast_S_S50000x96),
    StableHlo.TRef.binary (.of main_v231 : StableHlo.TRef sig ⟨S50000x96, .f32⟩) main_call12.v0 main_call12.v1 (cmpf .ogt),
    StableHlo.TRef.nullary main_call12.cst_0 (constant S_ .f32 0x00000000#32),
    StableHlo.TRef.unary main_call12.cst_0 main_call12.v2 (broadcastInDim S50000x96 ![] bcast_S_S50000x96),
    StableHlo.TRef.binary (.of main_v231 : StableHlo.TRef sig ⟨S50000x96, .f32⟩) main_call12.v2 main_call12.v3 (cmpf .ogt),
    StableHlo.TRef.nullary main_call12.cst_1 (constant S_ .f32 0x00000000#32),
    StableHlo.TRef.unary main_call12.cst_1 main_call12.call0.v0 id,
    StableHlo.TRef.unary main_call12.call0.v0 main_call12.call0.v1 (broadcastInDim S50000x96 ![] bcast_S_S50000x96),
    StableHlo.TRef.ternary main_call12.v3 main_call12.call0.v1 (.of main_v231 : StableHlo.TRef sig ⟨S50000x96, .f32⟩) main_call12.call0.v2 select,
    StableHlo.TRef.unary main_call12.call0.v2 main_call12.v5 Host.expm1,
    StableHlo.TRef.nullary main_call12.cst_2 (constant S_ .f32 0x3F800000#32),
    StableHlo.TRef.unary main_call12.cst_2 main_call12.v6 (broadcastInDim S50000x96 ![] bcast_S_S50000x96),
    StableHlo.TRef.binary main_call12.v6 main_call12.v5 main_call12.v7 mulf,
    StableHlo.TRef.ternary main_call12.v1 (.of main_v231 : StableHlo.TRef sig ⟨S50000x96, .f32⟩) main_call12.v7 main_call12.call1.v0 select,
    StableHlo.unary main_arg4 main_v233 (broadcastInDim S96x1 ![0] bcast_S96_S96x1_0 : (⟨S96, .f32⟩ : BufTy).Contents (Elt F) → (⟨S96x1, .f32⟩ : BufTy).Contents (Elt F)),
    StableHlo.binary main_v8 main_v233 main_v234 ((fun l r => Host.dotGeneral dot_S50000x96_S96x1_S50000x1_1_0_0_1_n_n none l r) : (⟨S50000x96, .f32⟩ : BufTy).Contents (Elt F) → (⟨S96x1, .f32⟩ : BufTy).Contents (Elt F) → (⟨S50000x1, .f32⟩ : BufTy).Contents (Elt F)),
    StableHlo.unary main_arg5 main_v235 (broadcastInDim S96x1 ![0] bcast_S96_S96x1_0 : (⟨S96, .f32⟩ : BufTy).Contents (Elt F) → (⟨S96x1, .f32⟩ : BufTy).Contents (Elt F)),
    StableHlo.binary main_v8 main_v235 main_v236 ((fun l r => Host.dotGeneral dot_S50000x96_S96x1_S50000x1_1_0_0_1_n_n none l r) : (⟨S50000x96, .f32⟩ : BufTy).Contents (Elt F) → (⟨S96x1, .f32⟩ : BufTy).Contents (Elt F) → (⟨S50000x1, .f32⟩ : BufTy).Contents (Elt F)),
    StableHlo.binary main_v234 main_v236 main_v237 (addf : (⟨S50000x1, .f32⟩ : BufTy).Contents (Elt F) → (⟨S50000x1, .f32⟩ : BufTy).Contents (Elt F) → (⟨S50000x1, .f32⟩ : BufTy).Contents (Elt F)),
    StableHlo.nullary main_cst_46 (constant S_ .f32 0x00000000#32),
    StableHlo.unary main_cst_46 main_v238 (broadcastInDim S50000x1 ![] bcast_S_S50000x1 : (⟨S_, .f32⟩ : BufTy).Contents (Elt F) → (⟨S50000x1, .f32⟩ : BufTy).Contents (Elt F)),
    StableHlo.binary main_v237 main_v238 main_v239 (cmpf .oge : (⟨S50000x1, .f32⟩ : BufTy).Contents (Elt F) → (⟨S50000x1, .f32⟩ : BufTy).Contents (Elt F) → (⟨S50000x1, .i1⟩ : BufTy).Contents (Elt F)),
    StableHlo.nullary main_cst_47 (constant S_ .f32 0x3E4CCCCD#32),
    StableHlo.unary main_cst_47 main_v240 (broadcastInDim S50000x1 ![] bcast_S_S50000x1 : (⟨S_, .f32⟩ : BufTy).Contents (Elt F) → (⟨S50000x1, .f32⟩ : BufTy).Contents (Elt F)),
    StableHlo.binary main_v240 main_v237 main_v241 (mulf : (⟨S50000x1, .f32⟩ : BufTy).Contents (Elt F) → (⟨S50000x1, .f32⟩ : BufTy).Contents (Elt F) → (⟨S50000x1, .f32⟩ : BufTy).Contents (Elt F)),
    StableHlo.TRef.ternary (.of main_v239 : StableHlo.TRef sig ⟨S50000x1, .i1⟩) (.of main_v237 : StableHlo.TRef sig ⟨S50000x1, .f32⟩) (.of main_v241 : StableHlo.TRef sig ⟨S50000x1, .f32⟩) main_call13.v0 select,
    StableHlo.unary main_v242 main_v243 (Host.exp : (⟨S50000x1, .f32⟩ : BufTy).Contents (Elt F) → (⟨S50000x1, .f32⟩ : BufTy).Contents (Elt F)),
    StableHlo.unary main_arg5 main_v244 (broadcastInDim S96x1 ![0] bcast_S96_S96x1_0 : (⟨S96, .f32⟩ : BufTy).Contents (Elt F) → (⟨S96x1, .f32⟩ : BufTy).Contents (Elt F)),
    StableHlo.binary main_v232 main_v244 main_v245 ((fun l r => Host.dotGeneral dot_S50000x96_S96x1_S50000x1_1_0_0_1_n_n none l r) : (⟨S50000x96, .f32⟩ : BufTy).Contents (Elt F) → (⟨S96x1, .f32⟩ : BufTy).Contents (Elt F) → (⟨S50000x1, .f32⟩ : BufTy).Contents (Elt F)),
    StableHlo.nullary main_c_48 (constantI S_ 32 0#32),
    StableHlo.unary main_c_48 main_v246 (broadcastInDim S800000 ![] bcast_S_S800000 : (⟨S_, .i32⟩ : BufTy).Contents (Elt F) → (⟨S800000, .i32⟩ : BufTy).Contents (Elt F)),
    StableHlo.binary main_v1 main_v246 main_v247 (cmpi .slt : (⟨S800000, .i32⟩ : BufTy).Contents (Elt F) → (⟨S800000, .i32⟩ : BufTy).Contents (Elt F) → (⟨S800000, .i1⟩ : BufTy).Contents (Elt F)),
    StableHlo.nullary main_c_49 (constantI S_ 32 50000#32) ]

/-- Stretch 5 of the reference's line of operations (the called functions' operations in place). -/
def ops5 : List (HloOp τ sig (Elt F)) :=
  [ StableHlo.unary main_c_49 main_v248 (broadcastInDim S800000 ![] bcast_S_S800000 : (⟨S_, .i32⟩ : BufTy).Contents (Elt F) → (⟨S800000, .i32⟩ : BufTy).Contents (Elt F)),
    StableHlo.binary main_v1 main_v248 main_v249 (addi : (⟨S800000, .i32⟩ : BufTy).Contents (Elt F) → (⟨S800000, .i32⟩ : BufTy).Contents (Elt F) → (⟨S800000, .i32⟩ : BufTy).Contents (Elt F)),
    StableHlo.ternary main_v247 main_v249 main_v1 main_v250 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v250 main_v251 (broadcastInDim S800000x1 ![0] bcast_S800000_S800000x1_0 : (⟨S800000, .i32⟩ : BufTy).Contents (Elt F) → (⟨S800000x1, .i32⟩ : BufTy).Contents (Elt F)),
    StableHlo.binary main_v234 main_v251 main_v252 ((fun x i => Host.gather gather_S50000x1_S800000x1_S800000x1_1_0_n_n_0_1_11 x i) : (⟨S50000x1, .f32⟩ : BufTy).Contents (Elt F) → (⟨S800000x1, .i32⟩ : BufTy).Contents (Elt F) → (⟨S800000x1, .f32⟩ : BufTy).Contents (Elt F)),
    StableHlo.nullary main_c_50 (constantI S_ 32 0#32),
    StableHlo.unary main_c_50 main_v253 (broadcastInDim S800000 ![] bcast_S_S800000 : (⟨S_, .i32⟩ : BufTy).Contents (Elt F) → (⟨S800000, .i32⟩ : BufTy).Contents (Elt F)),
    StableHlo.binary main_v3 main_v253 main_v254 (cmpi .slt : (⟨S800000, .i32⟩ : BufTy).Contents (Elt F) → (⟨S800000, .i32⟩ : BufTy).Contents (Elt F) → (⟨S800000, .i1⟩ : BufTy).Contents (Elt F)),
    StableHlo.nullary main_c_51 (constantI S_ 32 50000#32),
    StableHlo.unary main_c_51 main_v255 (broadcastInDim S800000 ![] bcast_S_S800000 : (⟨S_, .i32⟩ : BufTy).Contents (Elt F) → (⟨S800000, .i32⟩ : BufTy).Contents (Elt F)),
    StableHlo.binary main_v3 main_v255 main_v256 (addi : (⟨S800000, .i32⟩ : BufTy).Contents (Elt F) → (⟨S800000, .i32⟩ : BufTy).Contents (Elt F) → (⟨S800000, .i32⟩ : BufTy).Contents (Elt F)),
    StableHlo.ternary main_v254 main_v256 main_v3 main_v257 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v257 main_v258 (broadcastInDim S800000x1 ![0] bcast_S800000_S800000x1_0 : (⟨S800000, .i32⟩ : BufTy).Contents (Elt F) → (⟨S800000x1, .i32⟩ : BufTy).Contents (Elt F)),
    StableHlo.binary main_v245 main_v258 main_v259 ((fun x i => Host.gather gather_S50000x1_S800000x1_S800000x1_1_0_n_n_0_1_11 x i) : (⟨S50000x1, .f32⟩ : BufTy).Contents (Elt F) → (⟨S800000x1, .i32⟩ : BufTy).Contents (Elt F) → (⟨S800000x1, .f32⟩ : BufTy).Contents (Elt F)),
    StableHlo.binary main_v252 main_v259 main_v260 (addf : (⟨S800000x1, .f32⟩ : BufTy).Contents (Elt F) → (⟨S800000x1, .f32⟩ : BufTy).Contents (Elt F) → (⟨S800000x1, .f32⟩ : BufTy).Contents (Elt F)),
    StableHlo.nullary main_cst_52 (constant S_ .f32 0x00000000#32),
    StableHlo.unary main_cst_52 main_v261 (broadcastInDim S800000x1 ![] bcast_S_S800000x1 : (⟨S_, .f32⟩ : BufTy).Contents (Elt F) → (⟨S800000x1, .f32⟩ : BufTy).Contents (Elt F)),
    StableHlo.binary main_v260 main_v261 main_v262 (cmpf .oge : (⟨S800000x1, .f32⟩ : BufTy).Contents (Elt F) → (⟨S800000x1, .f32⟩ : BufTy).Contents (Elt F) → (⟨S800000x1, .i1⟩ : BufTy).Contents (Elt F)),
    StableHlo.nullary main_cst_53 (constant S_ .f32 0x3E4CCCCD#32),
    StableHlo.unary main_cst_53 main_v263 (broadcastInDim S800000x1 ![] bcast_S_S800000x1 : (⟨S_, .f32⟩ : BufTy).Contents (Elt F) → (⟨S800000x1, .f32⟩ : BufTy).Contents (Elt F)),
    StableHlo.binary main_v263 main_v260 main_v264 (mulf : (⟨S800000x1, .f32⟩ : BufTy).Contents (Elt F) → (⟨S800000x1, .f32⟩ : BufTy).Contents (Elt F) → (⟨S800000x1, .f32⟩ : BufTy).Contents (Elt F)),
    StableHlo.TRef.ternary (.of main_v262 : StableHlo.TRef sig ⟨S800000x1, .i1⟩) (.of main_v260 : StableHlo.TRef sig ⟨S800000x1, .f32⟩) (.of main_v264 : StableHlo.TRef sig ⟨S800000x1, .f32⟩) main_call14.v0 select,
    StableHlo.unary main_v265 main_v266 (Host.exp : (⟨S800000x1, .f32⟩ : BufTy).Contents (Elt F) → (⟨S800000x1, .f32⟩ : BufTy).Contents (Elt F)),
    StableHlo.nullary main_cst_54 (constant S_ .f32 0x00000000#32),
    StableHlo.unary main_cst_54 main_v267 (broadcastInDim S50000x1 ![] bcast_S_S50000x1 : (⟨S_, .f32⟩ : BufTy).Contents (Elt F) → (⟨S50000x1, .f32⟩ : BufTy).Contents (Elt F)),
    StableHlo.unary main_v1 main_v268 (broadcastInDim S800000x1 ![0] bcast_S800000_S800000x1_0 : (⟨S800000, .i32⟩ : BufTy).Contents (Elt F) → (⟨S800000x1, .i32⟩ : BufTy).Contents (Elt F)),
    StableHlo.ternary main_v267 main_v268 main_v266 main_v269 ((fun x i u => Host.scatterAdd scatter_S50000x1_S800000x1_S800000x1_1_0_0_1 x i u) : (⟨S50000x1, .f32⟩ : BufTy).Contents (Elt F) → (⟨S800000x1, .i32⟩ : BufTy).Contents (Elt F) → (⟨S800000x1, .f32⟩ : BufTy).Contents (Elt F) → (⟨S50000x1, .f32⟩ : BufTy).Contents (Elt F)),
    StableHlo.binary main_v269 main_v243 main_v270 (addf : (⟨S50000x1, .f32⟩ : BufTy).Contents (Elt F) → (⟨S50000x1, .f32⟩ : BufTy).Contents (Elt F) → (⟨S50000x1, .f32⟩ : BufTy).Contents (Elt F)),
    StableHlo.nullary main_c_55 (constantI S_ 32 0#32),
    StableHlo.unary main_c_55 main_v271 (broadcastInDim S800000 ![] bcast_S_S800000 : (⟨S_, .i32⟩ : BufTy).Contents (Elt F) → (⟨S800000, .i32⟩ : BufTy).Contents (Elt F)),
    StableHlo.binary main_v3 main_v271 main_v272 (cmpi .slt : (⟨S800000, .i32⟩ : BufTy).Contents (Elt F) → (⟨S800000, .i32⟩ : BufTy).Contents (Elt F) → (⟨S800000, .i1⟩ : BufTy).Contents (Elt F)),
    StableHlo.nullary main_c_56 (constantI S_ 32 50000#32),
    StableHlo.unary main_c_56 main_v273 (broadcastInDim S800000 ![] bcast_S_S800000 : (⟨S_, .i32⟩ : BufTy).Contents (Elt F) → (⟨S800000, .i32⟩ : BufTy).Contents (Elt F)),
    StableHlo.binary main_v3 main_v273 main_v274 (addi : (⟨S800000, .i32⟩ : BufTy).Contents (Elt F) → (⟨S800000, .i32⟩ : BufTy).Contents (Elt F) → (⟨S800000, .i32⟩ : BufTy).Contents (Elt F)),
    StableHlo.ternary main_v272 main_v274 main_v3 main_v275 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v275 main_v276 (broadcastInDim S800000x1 ![0] bcast_S800000_S800000x1_0 : (⟨S800000, .i32⟩ : BufTy).Contents (Elt F) → (⟨S800000x1, .i32⟩ : BufTy).Contents (Elt F)),
    StableHlo.binary main_v232 main_v276 main_v277 ((fun x i => Host.gather gather_S50000x96_S800000x1_S800000x96_1_0_n_n_0_1_196 x i) : (⟨S50000x96, .f32⟩ : BufTy).Contents (Elt F) → (⟨S800000x1, .i32⟩ : BufTy).Contents (Elt F) → (⟨S800000x96, .f32⟩ : BufTy).Contents (Elt F)),
    StableHlo.unary main_v266 main_v278 (broadcastInDim S800000x96 ![0, 1] bcast_S800000x1_S800000x96_0_1 : (⟨S800000x1, .f32⟩ : BufTy).Contents (Elt F) → (⟨S800000x96, .f32⟩ : BufTy).Contents (Elt F)),
    StableHlo.binary main_v278 main_v277 main_v279 (mulf : (⟨S800000x96, .f32⟩ : BufTy).Contents (Elt F) → (⟨S800000x96, .f32⟩ : BufTy).Contents (Elt F) → (⟨S800000x96, .f32⟩ : BufTy).Contents (Elt F)),
    StableHlo.nullary main_cst_57 (constant S_ .f32 0x00000000#32),
    StableHlo.unary main_cst_57 main_v280 (broadcastInDim S50000x96 ![] bcast_S_S50000x96 : (⟨S_, .f32⟩ : BufTy).Contents (Elt F) → (⟨S50000x96, .f32⟩ : BufTy).Contents (Elt F)),
    StableHlo.unary main_v1 main_v281 (broadcastInDim S800000x1 ![0] bcast_S800000_S800000x1_0 : (⟨S800000, .i32⟩ : BufTy).Contents (Elt F) → (⟨S800000x1, .i32⟩ : BufTy).Contents (Elt F)),
    StableHlo.ternary main_v280 main_v281 main_v279 main_v282 ((fun x i u => Host.scatterAdd scatter_S50000x96_S800000x1_S800000x96_1_0_0_1 x i u) : (⟨S50000x96, .f32⟩ : BufTy).Contents (Elt F) → (⟨S800000x1, .i32⟩ : BufTy).Contents (Elt F) → (⟨S800000x96, .f32⟩ : BufTy).Contents (Elt F) → (⟨S50000x96, .f32⟩ : BufTy).Contents (Elt F)),
    StableHlo.unary main_v243 main_v283 (broadcastInDim S50000x96 ![0, 1] bcast_S50000x1_S50000x96_0_1 : (⟨S50000x1, .f32⟩ : BufTy).Contents (Elt F) → (⟨S50000x96, .f32⟩ : BufTy).Contents (Elt F)),
    StableHlo.binary main_v283 main_v8 main_v284 (mulf : (⟨S50000x96, .f32⟩ : BufTy).Contents (Elt F) → (⟨S50000x96, .f32⟩ : BufTy).Contents (Elt F) → (⟨S50000x96, .f32⟩ : BufTy).Contents (Elt F)),
    StableHlo.binary main_v282 main_v284 main_v285 (addf : (⟨S50000x96, .f32⟩ : BufTy).Contents (Elt F) → (⟨S50000x96, .f32⟩ : BufTy).Contents (Elt F) → (⟨S50000x96, .f32⟩ : BufTy).Contents (Elt F)),
    StableHlo.unary main_v270 main_v286 (broadcastInDim S50000x96 ![0, 1] bcast_S50000x1_S50000x96_0_1 : (⟨S50000x1, .f32⟩ : BufTy).Contents (Elt F) → (⟨S50000x96, .f32⟩ : BufTy).Contents (Elt F)),
    StableHlo.binary main_v285 main_v286 main_v287 (Host.divf : (⟨S50000x96, .f32⟩ : BufTy).Contents (Elt F) → (⟨S50000x96, .f32⟩ : BufTy).Contents (Elt F) → (⟨S50000x96, .f32⟩ : BufTy).Contents (Elt F)),
    StableHlo.TRef.nullary main_call15.cst (constant S_ .f32 0x00000000#32),
    StableHlo.TRef.unary main_call15.cst main_call15.v0 (broadcastInDim S50000x96 ![] bcast_S_S50000x96),
    StableHlo.TRef.binary (.of main_v287 : StableHlo.TRef sig ⟨S50000x96, .f32⟩) main_call15.v0 main_call15.v1 (cmpf .ogt),
    StableHlo.TRef.nullary main_call15.cst_0 (constant S_ .f32 0x00000000#32),
    StableHlo.TRef.unary main_call15.cst_0 main_call15.v2 (broadcastInDim S50000x96 ![] bcast_S_S50000x96),
    StableHlo.TRef.binary (.of main_v287 : StableHlo.TRef sig ⟨S50000x96, .f32⟩) main_call15.v2 main_call15.v3 (cmpf .ogt),
    StableHlo.TRef.nullary main_call15.cst_1 (constant S_ .f32 0x00000000#32),
    StableHlo.TRef.unary main_call15.cst_1 main_call15.call0.v0 id,
    StableHlo.TRef.unary main_call15.call0.v0 main_call15.call0.v1 (broadcastInDim S50000x96 ![] bcast_S_S50000x96),
    StableHlo.TRef.ternary main_call15.v3 main_call15.call0.v1 (.of main_v287 : StableHlo.TRef sig ⟨S50000x96, .f32⟩) main_call15.call0.v2 select,
    StableHlo.TRef.unary main_call15.call0.v2 main_call15.v5 Host.expm1,
    StableHlo.TRef.nullary main_call15.cst_2 (constant S_ .f32 0x3F800000#32),
    StableHlo.TRef.unary main_call15.cst_2 main_call15.v6 (broadcastInDim S50000x96 ![] bcast_S_S50000x96),
    StableHlo.TRef.binary main_call15.v6 main_call15.v5 main_call15.v7 mulf,
    StableHlo.TRef.ternary main_call15.v1 (.of main_v287 : StableHlo.TRef sig ⟨S50000x96, .f32⟩) main_call15.v7 main_call15.call1.v0 select,
    StableHlo.unary main_arg4 main_v289 (broadcastInDim S96x1 ![0] bcast_S96_S96x1_0 : (⟨S96, .f32⟩ : BufTy).Contents (Elt F) → (⟨S96x1, .f32⟩ : BufTy).Contents (Elt F)),
    StableHlo.binary main_v8 main_v289 main_v290 ((fun l r => Host.dotGeneral dot_S50000x96_S96x1_S50000x1_1_0_0_1_n_n none l r) : (⟨S50000x96, .f32⟩ : BufTy).Contents (Elt F) → (⟨S96x1, .f32⟩ : BufTy).Contents (Elt F) → (⟨S50000x1, .f32⟩ : BufTy).Contents (Elt F)),
    StableHlo.unary main_arg5 main_v291 (broadcastInDim S96x1 ![0] bcast_S96_S96x1_0 : (⟨S96, .f32⟩ : BufTy).Contents (Elt F) → (⟨S96x1, .f32⟩ : BufTy).Contents (Elt F)),
    StableHlo.binary main_v8 main_v291 main_v292 ((fun l r => Host.dotGeneral dot_S50000x96_S96x1_S50000x1_1_0_0_1_n_n none l r) : (⟨S50000x96, .f32⟩ : BufTy).Contents (Elt F) → (⟨S96x1, .f32⟩ : BufTy).Contents (Elt F) → (⟨S50000x1, .f32⟩ : BufTy).Contents (Elt F)),
    StableHlo.binary main_v290 main_v292 main_v293 (addf : (⟨S50000x1, .f32⟩ : BufTy).Contents (Elt F) → (⟨S50000x1, .f32⟩ : BufTy).Contents (Elt F) → (⟨S50000x1, .f32⟩ : BufTy).Contents (Elt F)),
    StableHlo.nullary main_cst_58 (constant S_ .f32 0x00000000#32),
    StableHlo.unary main_cst_58 main_v294 (broadcastInDim S50000x1 ![] bcast_S_S50000x1 : (⟨S_, .f32⟩ : BufTy).Contents (Elt F) → (⟨S50000x1, .f32⟩ : BufTy).Contents (Elt F)),
    StableHlo.binary main_v293 main_v294 main_v295 (cmpf .oge : (⟨S50000x1, .f32⟩ : BufTy).Contents (Elt F) → (⟨S50000x1, .f32⟩ : BufTy).Contents (Elt F) → (⟨S50000x1, .i1⟩ : BufTy).Contents (Elt F)),
    StableHlo.nullary main_cst_59 (constant S_ .f32 0x3E4CCCCD#32),
    StableHlo.unary main_cst_59 main_v296 (broadcastInDim S50000x1 ![] bcast_S_S50000x1 : (⟨S_, .f32⟩ : BufTy).Contents (Elt F) → (⟨S50000x1, .f32⟩ : BufTy).Contents (Elt F)),
    StableHlo.binary main_v296 main_v293 main_v297 (mulf : (⟨S50000x1, .f32⟩ : BufTy).Contents (Elt F) → (⟨S50000x1, .f32⟩ : BufTy).Contents (Elt F) → (⟨S50000x1, .f32⟩ : BufTy).Contents (Elt F)) ]

/-- Stretch 6 of the reference's line of operations (the called functions' operations in place). -/
def ops6 : List (HloOp τ sig (Elt F)) :=
  [ StableHlo.TRef.ternary (.of main_v295 : StableHlo.TRef sig ⟨S50000x1, .i1⟩) (.of main_v293 : StableHlo.TRef sig ⟨S50000x1, .f32⟩) (.of main_v297 : StableHlo.TRef sig ⟨S50000x1, .f32⟩) main_call16.v0 select,
    StableHlo.unary main_v298 main_v299 (Host.exp : (⟨S50000x1, .f32⟩ : BufTy).Contents (Elt F) → (⟨S50000x1, .f32⟩ : BufTy).Contents (Elt F)),
    StableHlo.unary main_arg5 main_v300 (broadcastInDim S96x1 ![0] bcast_S96_S96x1_0 : (⟨S96, .f32⟩ : BufTy).Contents (Elt F) → (⟨S96x1, .f32⟩ : BufTy).Contents (Elt F)),
    StableHlo.binary main_v288 main_v300 main_v301 ((fun l r => Host.dotGeneral dot_S50000x96_S96x1_S50000x1_1_0_0_1_n_n none l r) : (⟨S50000x96, .f32⟩ : BufTy).Contents (Elt F) → (⟨S96x1, .f32⟩ : BufTy).Contents (Elt F) → (⟨S50000x1, .f32⟩ : BufTy).Contents (Elt F)),
    StableHlo.nullary main_c_60 (constantI S_ 32 0#32),
    StableHlo.unary main_c_60 main_v302 (broadcastInDim S800000 ![] bcast_S_S800000 : (⟨S_, .i32⟩ : BufTy).Contents (Elt F) → (⟨S800000, .i32⟩ : BufTy).Contents (Elt F)),
    StableHlo.binary main_v1 main_v302 main_v303 (cmpi .slt : (⟨S800000, .i32⟩ : BufTy).Contents (Elt F) → (⟨S800000, .i32⟩ : BufTy).Contents (Elt F) → (⟨S800000, .i1⟩ : BufTy).Contents (Elt F)),
    StableHlo.nullary main_c_61 (constantI S_ 32 50000#32),
    StableHlo.unary main_c_61 main_v304 (broadcastInDim S800000 ![] bcast_S_S800000 : (⟨S_, .i32⟩ : BufTy).Contents (Elt F) → (⟨S800000, .i32⟩ : BufTy).Contents (Elt F)),
    StableHlo.binary main_v1 main_v304 main_v305 (addi : (⟨S800000, .i32⟩ : BufTy).Contents (Elt F) → (⟨S800000, .i32⟩ : BufTy).Contents (Elt F) → (⟨S800000, .i32⟩ : BufTy).Contents (Elt F)),
    StableHlo.ternary main_v303 main_v305 main_v1 main_v306 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v306 main_v307 (broadcastInDim S800000x1 ![0] bcast_S800000_S800000x1_0 : (⟨S800000, .i32⟩ : BufTy).Contents (Elt F) → (⟨S800000x1, .i32⟩ : BufTy).Contents (Elt F)),
    StableHlo.binary main_v290 main_v307 main_v308 ((fun x i => Host.gather gather_S50000x1_S800000x1_S800000x1_1_0_n_n_0_1_11 x i) : (⟨S50000x1, .f32⟩ : BufTy).Contents (Elt F) → (⟨S800000x1, .i32⟩ : BufTy).Contents (Elt F) → (⟨S800000x1, .f32⟩ : BufTy).Contents (Elt F)),
    StableHlo.nullary main_c_62 (constantI S_ 32 0#32),
    StableHlo.unary main_c_62 main_v309 (broadcastInDim S800000 ![] bcast_S_S800000 : (⟨S_, .i32⟩ : BufTy).Contents (Elt F) → (⟨S800000, .i32⟩ : BufTy).Contents (Elt F)),
    StableHlo.binary main_v3 main_v309 main_v310 (cmpi .slt : (⟨S800000, .i32⟩ : BufTy).Contents (Elt F) → (⟨S800000, .i32⟩ : BufTy).Contents (Elt F) → (⟨S800000, .i1⟩ : BufTy).Contents (Elt F)),
    StableHlo.nullary main_c_63 (constantI S_ 32 50000#32),
    StableHlo.unary main_c_63 main_v311 (broadcastInDim S800000 ![] bcast_S_S800000 : (⟨S_, .i32⟩ : BufTy).Contents (Elt F) → (⟨S800000, .i32⟩ : BufTy).Contents (Elt F)),
    StableHlo.binary main_v3 main_v311 main_v312 (addi : (⟨S800000, .i32⟩ : BufTy).Contents (Elt F) → (⟨S800000, .i32⟩ : BufTy).Contents (Elt F) → (⟨S800000, .i32⟩ : BufTy).Contents (Elt F)),
    StableHlo.ternary main_v310 main_v312 main_v3 main_v313 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v313 main_v314 (broadcastInDim S800000x1 ![0] bcast_S800000_S800000x1_0 : (⟨S800000, .i32⟩ : BufTy).Contents (Elt F) → (⟨S800000x1, .i32⟩ : BufTy).Contents (Elt F)),
    StableHlo.binary main_v301 main_v314 main_v315 ((fun x i => Host.gather gather_S50000x1_S800000x1_S800000x1_1_0_n_n_0_1_11 x i) : (⟨S50000x1, .f32⟩ : BufTy).Contents (Elt F) → (⟨S800000x1, .i32⟩ : BufTy).Contents (Elt F) → (⟨S800000x1, .f32⟩ : BufTy).Contents (Elt F)),
    StableHlo.binary main_v308 main_v315 main_v316 (addf : (⟨S800000x1, .f32⟩ : BufTy).Contents (Elt F) → (⟨S800000x1, .f32⟩ : BufTy).Contents (Elt F) → (⟨S800000x1, .f32⟩ : BufTy).Contents (Elt F)),
    StableHlo.nullary main_cst_64 (constant S_ .f32 0x00000000#32),
    StableHlo.unary main_cst_64 main_v317 (broadcastInDim S800000x1 ![] bcast_S_S800000x1 : (⟨S_, .f32⟩ : BufTy).Contents (Elt F) → (⟨S800000x1, .f32⟩ : BufTy).Contents (Elt F)),
    StableHlo.binary main_v316 main_v317 main_v318 (cmpf .oge : (⟨S800000x1, .f32⟩ : BufTy).Contents (Elt F) → (⟨S800000x1, .f32⟩ : BufTy).Contents (Elt F) → (⟨S800000x1, .i1⟩ : BufTy).Contents (Elt F)),
    StableHlo.nullary main_cst_65 (constant S_ .f32 0x3E4CCCCD#32),
    StableHlo.unary main_cst_65 main_v319 (broadcastInDim S800000x1 ![] bcast_S_S800000x1 : (⟨S_, .f32⟩ : BufTy).Contents (Elt F) → (⟨S800000x1, .f32⟩ : BufTy).Contents (Elt F)),
    StableHlo.binary main_v319 main_v316 main_v320 (mulf : (⟨S800000x1, .f32⟩ : BufTy).Contents (Elt F) → (⟨S800000x1, .f32⟩ : BufTy).Contents (Elt F) → (⟨S800000x1, .f32⟩ : BufTy).Contents (Elt F)),
    StableHlo.TRef.ternary (.of main_v318 : StableHlo.TRef sig ⟨S800000x1, .i1⟩) (.of main_v316 : StableHlo.TRef sig ⟨S800000x1, .f32⟩) (.of main_v320 : StableHlo.TRef sig ⟨S800000x1, .f32⟩) main_call17.v0 select,
    StableHlo.unary main_v321 main_v322 (Host.exp : (⟨S800000x1, .f32⟩ : BufTy).Contents (Elt F) → (⟨S800000x1, .f32⟩ : BufTy).Contents (Elt F)),
    StableHlo.nullary main_cst_66 (constant S_ .f32 0x00000000#32),
    StableHlo.unary main_cst_66 main_v323 (broadcastInDim S50000x1 ![] bcast_S_S50000x1 : (⟨S_, .f32⟩ : BufTy).Contents (Elt F) → (⟨S50000x1, .f32⟩ : BufTy).Contents (Elt F)),
    StableHlo.unary main_v1 main_v324 (broadcastInDim S800000x1 ![0] bcast_S800000_S800000x1_0 : (⟨S800000, .i32⟩ : BufTy).Contents (Elt F) → (⟨S800000x1, .i32⟩ : BufTy).Contents (Elt F)),
    StableHlo.ternary main_v323 main_v324 main_v322 main_v325 ((fun x i u => Host.scatterAdd scatter_S50000x1_S800000x1_S800000x1_1_0_0_1 x i u) : (⟨S50000x1, .f32⟩ : BufTy).Contents (Elt F) → (⟨S800000x1, .i32⟩ : BufTy).Contents (Elt F) → (⟨S800000x1, .f32⟩ : BufTy).Contents (Elt F) → (⟨S50000x1, .f32⟩ : BufTy).Contents (Elt F)),
    StableHlo.binary main_v325 main_v299 main_v326 (addf : (⟨S50000x1, .f32⟩ : BufTy).Contents (Elt F) → (⟨S50000x1, .f32⟩ : BufTy).Contents (Elt F) → (⟨S50000x1, .f32⟩ : BufTy).Contents (Elt F)),
    StableHlo.nullary main_c_67 (constantI S_ 32 0#32),
    StableHlo.unary main_c_67 main_v327 (broadcastInDim S800000 ![] bcast_S_S800000 : (⟨S_, .i32⟩ : BufTy).Contents (Elt F) → (⟨S800000, .i32⟩ : BufTy).Contents (Elt F)),
    StableHlo.binary main_v3 main_v327 main_v328 (cmpi .slt : (⟨S800000, .i32⟩ : BufTy).Contents (Elt F) → (⟨S800000, .i32⟩ : BufTy).Contents (Elt F) → (⟨S800000, .i1⟩ : BufTy).Contents (Elt F)),
    StableHlo.nullary main_c_68 (constantI S_ 32 50000#32),
    StableHlo.unary main_c_68 main_v329 (broadcastInDim S800000 ![] bcast_S_S800000 : (⟨S_, .i32⟩ : BufTy).Contents (Elt F) → (⟨S800000, .i32⟩ : BufTy).Contents (Elt F)),
    StableHlo.binary main_v3 main_v329 main_v330 (addi : (⟨S800000, .i32⟩ : BufTy).Contents (Elt F) → (⟨S800000, .i32⟩ : BufTy).Contents (Elt F) → (⟨S800000, .i32⟩ : BufTy).Contents (Elt F)),
    StableHlo.ternary main_v328 main_v330 main_v3 main_v331 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v331 main_v332 (broadcastInDim S800000x1 ![0] bcast_S800000_S800000x1_0 : (⟨S800000, .i32⟩ : BufTy).Contents (Elt F) → (⟨S800000x1, .i32⟩ : BufTy).Contents (Elt F)),
    StableHlo.binary main_v288 main_v332 main_v333 ((fun x i => Host.gather gather_S50000x96_S800000x1_S800000x96_1_0_n_n_0_1_196 x i) : (⟨S50000x96, .f32⟩ : BufTy).Contents (Elt F) → (⟨S800000x1, .i32⟩ : BufTy).Contents (Elt F) → (⟨S800000x96, .f32⟩ : BufTy).Contents (Elt F)),
    StableHlo.unary main_v322 main_v334 (broadcastInDim S800000x96 ![0, 1] bcast_S800000x1_S800000x96_0_1 : (⟨S800000x1, .f32⟩ : BufTy).Contents (Elt F) → (⟨S800000x96, .f32⟩ : BufTy).Contents (Elt F)),
    StableHlo.binary main_v334 main_v333 main_v335 (mulf : (⟨S800000x96, .f32⟩ : BufTy).Contents (Elt F) → (⟨S800000x96, .f32⟩ : BufTy).Contents (Elt F) → (⟨S800000x96, .f32⟩ : BufTy).Contents (Elt F)),
    StableHlo.nullary main_cst_69 (constant S_ .f32 0x00000000#32),
    StableHlo.unary main_cst_69 main_v336 (broadcastInDim S50000x96 ![] bcast_S_S50000x96 : (⟨S_, .f32⟩ : BufTy).Contents (Elt F) → (⟨S50000x96, .f32⟩ : BufTy).Contents (Elt F)),
    StableHlo.unary main_v1 main_v337 (broadcastInDim S800000x1 ![0] bcast_S800000_S800000x1_0 : (⟨S800000, .i32⟩ : BufTy).Contents (Elt F) → (⟨S800000x1, .i32⟩ : BufTy).Contents (Elt F)),
    StableHlo.ternary main_v336 main_v337 main_v335 main_v338 ((fun x i u => Host.scatterAdd scatter_S50000x96_S800000x1_S800000x96_1_0_0_1 x i u) : (⟨S50000x96, .f32⟩ : BufTy).Contents (Elt F) → (⟨S800000x1, .i32⟩ : BufTy).Contents (Elt F) → (⟨S800000x96, .f32⟩ : BufTy).Contents (Elt F) → (⟨S50000x96, .f32⟩ : BufTy).Contents (Elt F)),
    StableHlo.unary main_v299 main_v339 (broadcastInDim S50000x96 ![0, 1] bcast_S50000x1_S50000x96_0_1 : (⟨S50000x1, .f32⟩ : BufTy).Contents (Elt F) → (⟨S50000x96, .f32⟩ : BufTy).Contents (Elt F)),
    StableHlo.binary main_v339 main_v8 main_v340 (mulf : (⟨S50000x96, .f32⟩ : BufTy).Contents (Elt F) → (⟨S50000x96, .f32⟩ : BufTy).Contents (Elt F) → (⟨S50000x96, .f32⟩ : BufTy).Contents (Elt F)),
    StableHlo.binary main_v338 main_v340 main_v341 (addf : (⟨S50000x96, .f32⟩ : BufTy).Contents (Elt F) → (⟨S50000x96, .f32⟩ : BufTy).Contents (Elt F) → (⟨S50000x96, .f32⟩ : BufTy).Contents (Elt F)),
    StableHlo.unary main_v326 main_v342 (broadcastInDim S50000x96 ![0, 1] bcast_S50000x1_S50000x96_0_1 : (⟨S50000x1, .f32⟩ : BufTy).Contents (Elt F) → (⟨S50000x96, .f32⟩ : BufTy).Contents (Elt F)),
    StableHlo.binary main_v341 main_v342 main_v343 (Host.divf : (⟨S50000x96, .f32⟩ : BufTy).Contents (Elt F) → (⟨S50000x96, .f32⟩ : BufTy).Contents (Elt F) → (⟨S50000x96, .f32⟩ : BufTy).Contents (Elt F)),
    StableHlo.TRef.nullary main_call18.cst (constant S_ .f32 0x00000000#32),
    StableHlo.TRef.unary main_call18.cst main_call18.v0 (broadcastInDim S50000x96 ![] bcast_S_S50000x96),
    StableHlo.TRef.binary (.of main_v343 : StableHlo.TRef sig ⟨S50000x96, .f32⟩) main_call18.v0 main_call18.v1 (cmpf .ogt),
    StableHlo.TRef.nullary main_call18.cst_0 (constant S_ .f32 0x00000000#32),
    StableHlo.TRef.unary main_call18.cst_0 main_call18.v2 (broadcastInDim S50000x96 ![] bcast_S_S50000x96),
    StableHlo.TRef.binary (.of main_v343 : StableHlo.TRef sig ⟨S50000x96, .f32⟩) main_call18.v2 main_call18.v3 (cmpf .ogt),
    StableHlo.TRef.nullary main_call18.cst_1 (constant S_ .f32 0x00000000#32),
    StableHlo.TRef.unary main_call18.cst_1 main_call18.call0.v0 id,
    StableHlo.TRef.unary main_call18.call0.v0 main_call18.call0.v1 (broadcastInDim S50000x96 ![] bcast_S_S50000x96),
    StableHlo.TRef.ternary main_call18.v3 main_call18.call0.v1 (.of main_v343 : StableHlo.TRef sig ⟨S50000x96, .f32⟩) main_call18.call0.v2 select,
    StableHlo.TRef.unary main_call18.call0.v2 main_call18.v5 Host.expm1,
    StableHlo.TRef.nullary main_call18.cst_2 (constant S_ .f32 0x3F800000#32),
    StableHlo.TRef.unary main_call18.cst_2 main_call18.v6 (broadcastInDim S50000x96 ![] bcast_S_S50000x96),
    StableHlo.TRef.binary main_call18.v6 main_call18.v5 main_call18.v7 mulf,
    StableHlo.TRef.ternary main_call18.v1 (.of main_v343 : StableHlo.TRef sig ⟨S50000x96, .f32⟩) main_call18.v7 main_call18.call1.v0 select,
    StableHlo.unary main_arg4 main_v345 (broadcastInDim S96x1 ![0] bcast_S96_S96x1_0 : (⟨S96, .f32⟩ : BufTy).Contents (Elt F) → (⟨S96x1, .f32⟩ : BufTy).Contents (Elt F)),
    StableHlo.binary main_v8 main_v345 main_v346 ((fun l r => Host.dotGeneral dot_S50000x96_S96x1_S50000x1_1_0_0_1_n_n none l r) : (⟨S50000x96, .f32⟩ : BufTy).Contents (Elt F) → (⟨S96x1, .f32⟩ : BufTy).Contents (Elt F) → (⟨S50000x1, .f32⟩ : BufTy).Contents (Elt F)),
    StableHlo.unary main_arg5 main_v347 (broadcastInDim S96x1 ![0] bcast_S96_S96x1_0 : (⟨S96, .f32⟩ : BufTy).Contents (Elt F) → (⟨S96x1, .f32⟩ : BufTy).Contents (Elt F)) ]

/-- Stretch 7 of the reference's line of operations (the called functions' operations in place). -/
def ops7 : List (HloOp τ sig (Elt F)) :=
  [ StableHlo.binary main_v8 main_v347 main_v348 ((fun l r => Host.dotGeneral dot_S50000x96_S96x1_S50000x1_1_0_0_1_n_n none l r) : (⟨S50000x96, .f32⟩ : BufTy).Contents (Elt F) → (⟨S96x1, .f32⟩ : BufTy).Contents (Elt F) → (⟨S50000x1, .f32⟩ : BufTy).Contents (Elt F)),
    StableHlo.binary main_v346 main_v348 main_v349 (addf : (⟨S50000x1, .f32⟩ : BufTy).Contents (Elt F) → (⟨S50000x1, .f32⟩ : BufTy).Contents (Elt F) → (⟨S50000x1, .f32⟩ : BufTy).Contents (Elt F)),
    StableHlo.nullary main_cst_70 (constant S_ .f32 0x00000000#32),
    StableHlo.unary main_cst_70 main_v350 (broadcastInDim S50000x1 ![] bcast_S_S50000x1 : (⟨S_, .f32⟩ : BufTy).Contents (Elt F) → (⟨S50000x1, .f32⟩ : BufTy).Contents (Elt F)),
    StableHlo.binary main_v349 main_v350 main_v351 (cmpf .oge : (⟨S50000x1, .f32⟩ : BufTy).Contents (Elt F) → (⟨S50000x1, .f32⟩ : BufTy).Contents (Elt F) → (⟨S50000x1, .i1⟩ : BufTy).Contents (Elt F)),
    StableHlo.nullary main_cst_71 (constant S_ .f32 0x3E4CCCCD#32),
    StableHlo.unary main_cst_71 main_v352 (broadcastInDim S50000x1 ![] bcast_S_S50000x1 : (⟨S_, .f32⟩ : BufTy).Contents (Elt F) → (⟨S50000x1, .f32⟩ : BufTy).Contents (Elt F)),
    StableHlo.binary main_v352 main_v349 main_v353 (mulf : (⟨S50000x1, .f32⟩ : BufTy).Contents (Elt F) → (⟨S50000x1, .f32⟩ : BufTy).Contents (Elt F) → (⟨S50000x1, .f32⟩ : BufTy).Contents (Elt F)),
    StableHlo.TRef.ternary (.of main_v351 : StableHlo.TRef sig ⟨S50000x1, .i1⟩) (.of main_v349 : StableHlo.TRef sig ⟨S50000x1, .f32⟩) (.of main_v353 : StableHlo.TRef sig ⟨S50000x1, .f32⟩) main_call19.v0 select,
    StableHlo.unary main_v354 main_v355 (Host.exp : (⟨S50000x1, .f32⟩ : BufTy).Contents (Elt F) → (⟨S50000x1, .f32⟩ : BufTy).Contents (Elt F)),
    StableHlo.unary main_arg5 main_v356 (broadcastInDim S96x1 ![0] bcast_S96_S96x1_0 : (⟨S96, .f32⟩ : BufTy).Contents (Elt F) → (⟨S96x1, .f32⟩ : BufTy).Contents (Elt F)),
    StableHlo.binary main_v344 main_v356 main_v357 ((fun l r => Host.dotGeneral dot_S50000x96_S96x1_S50000x1_1_0_0_1_n_n none l r) : (⟨S50000x96, .f32⟩ : BufTy).Contents (Elt F) → (⟨S96x1, .f32⟩ : BufTy).Contents (Elt F) → (⟨S50000x1, .f32⟩ : BufTy).Contents (Elt F)),
    StableHlo.nullary main_c_72 (constantI S_ 32 0#32),
    StableHlo.unary main_c_72 main_v358 (broadcastInDim S800000 ![] bcast_S_S800000 : (⟨S_, .i32⟩ : BufTy).Contents (Elt F) → (⟨S800000, .i32⟩ : BufTy).Contents (Elt F)),
    StableHlo.binary main_v1 main_v358 main_v359 (cmpi .slt : (⟨S800000, .i32⟩ : BufTy).Contents (Elt F) → (⟨S800000, .i32⟩ : BufTy).Contents (Elt F) → (⟨S800000, .i1⟩ : BufTy).Contents (Elt F)),
    StableHlo.nullary main_c_73 (constantI S_ 32 50000#32),
    StableHlo.unary main_c_73 main_v360 (broadcastInDim S800000 ![] bcast_S_S800000 : (⟨S_, .i32⟩ : BufTy).Contents (Elt F) → (⟨S800000, .i32⟩ : BufTy).Contents (Elt F)),
    StableHlo.binary main_v1 main_v360 main_v361 (addi : (⟨S800000, .i32⟩ : BufTy).Contents (Elt F) → (⟨S800000, .i32⟩ : BufTy).Contents (Elt F) → (⟨S800000, .i32⟩ : BufTy).Contents (Elt F)),
    StableHlo.ternary main_v359 main_v361 main_v1 main_v362 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v362 main_v363 (broadcastInDim S800000x1 ![0] bcast_S800000_S800000x1_0 : (⟨S800000, .i32⟩ : BufTy).Contents (Elt F) → (⟨S800000x1, .i32⟩ : BufTy).Contents (Elt F)),
    StableHlo.binary main_v346 main_v363 main_v364 ((fun x i => Host.gather gather_S50000x1_S800000x1_S800000x1_1_0_n_n_0_1_11 x i) : (⟨S50000x1, .f32⟩ : BufTy).Contents (Elt F) → (⟨S800000x1, .i32⟩ : BufTy).Contents (Elt F) → (⟨S800000x1, .f32⟩ : BufTy).Contents (Elt F)),
    StableHlo.nullary main_c_74 (constantI S_ 32 0#32),
    StableHlo.unary main_c_74 main_v365 (broadcastInDim S800000 ![] bcast_S_S800000 : (⟨S_, .i32⟩ : BufTy).Contents (Elt F) → (⟨S800000, .i32⟩ : BufTy).Contents (Elt F)),
    StableHlo.binary main_v3 main_v365 main_v366 (cmpi .slt : (⟨S800000, .i32⟩ : BufTy).Contents (Elt F) → (⟨S800000, .i32⟩ : BufTy).Contents (Elt F) → (⟨S800000, .i1⟩ : BufTy).Contents (Elt F)),
    StableHlo.nullary main_c_75 (constantI S_ 32 50000#32),
    StableHlo.unary main_c_75 main_v367 (broadcastInDim S800000 ![] bcast_S_S800000 : (⟨S_, .i32⟩ : BufTy).Contents (Elt F) → (⟨S800000, .i32⟩ : BufTy).Contents (Elt F)),
    StableHlo.binary main_v3 main_v367 main_v368 (addi : (⟨S800000, .i32⟩ : BufTy).Contents (Elt F) → (⟨S800000, .i32⟩ : BufTy).Contents (Elt F) → (⟨S800000, .i32⟩ : BufTy).Contents (Elt F)),
    StableHlo.ternary main_v366 main_v368 main_v3 main_v369 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v369 main_v370 (broadcastInDim S800000x1 ![0] bcast_S800000_S800000x1_0 : (⟨S800000, .i32⟩ : BufTy).Contents (Elt F) → (⟨S800000x1, .i32⟩ : BufTy).Contents (Elt F)),
    StableHlo.binary main_v357 main_v370 main_v371 ((fun x i => Host.gather gather_S50000x1_S800000x1_S800000x1_1_0_n_n_0_1_11 x i) : (⟨S50000x1, .f32⟩ : BufTy).Contents (Elt F) → (⟨S800000x1, .i32⟩ : BufTy).Contents (Elt F) → (⟨S800000x1, .f32⟩ : BufTy).Contents (Elt F)),
    StableHlo.binary main_v364 main_v371 main_v372 (addf : (⟨S800000x1, .f32⟩ : BufTy).Contents (Elt F) → (⟨S800000x1, .f32⟩ : BufTy).Contents (Elt F) → (⟨S800000x1, .f32⟩ : BufTy).Contents (Elt F)),
    StableHlo.nullary main_cst_76 (constant S_ .f32 0x00000000#32),
    StableHlo.unary main_cst_76 main_v373 (broadcastInDim S800000x1 ![] bcast_S_S800000x1 : (⟨S_, .f32⟩ : BufTy).Contents (Elt F) → (⟨S800000x1, .f32⟩ : BufTy).Contents (Elt F)),
    StableHlo.binary main_v372 main_v373 main_v374 (cmpf .oge : (⟨S800000x1, .f32⟩ : BufTy).Contents (Elt F) → (⟨S800000x1, .f32⟩ : BufTy).Contents (Elt F) → (⟨S800000x1, .i1⟩ : BufTy).Contents (Elt F)),
    StableHlo.nullary main_cst_77 (constant S_ .f32 0x3E4CCCCD#32),
    StableHlo.unary main_cst_77 main_v375 (broadcastInDim S800000x1 ![] bcast_S_S800000x1 : (⟨S_, .f32⟩ : BufTy).Contents (Elt F) → (⟨S800000x1, .f32⟩ : BufTy).Contents (Elt F)),
    StableHlo.binary main_v375 main_v372 main_v376 (mulf : (⟨S800000x1, .f32⟩ : BufTy).Contents (Elt F) → (⟨S800000x1, .f32⟩ : BufTy).Contents (Elt F) → (⟨S800000x1, .f32⟩ : BufTy).Contents (Elt F)),
    StableHlo.TRef.ternary (.of main_v374 : StableHlo.TRef sig ⟨S800000x1, .i1⟩) (.of main_v372 : StableHlo.TRef sig ⟨S800000x1, .f32⟩) (.of main_v376 : StableHlo.TRef sig ⟨S800000x1, .f32⟩) main_call20.v0 select,
    StableHlo.unary main_v377 main_v378 (Host.exp : (⟨S800000x1, .f32⟩ : BufTy).Contents (Elt F) → (⟨S800000x1, .f32⟩ : BufTy).Contents (Elt F)),
    StableHlo.nullary main_cst_78 (constant S_ .f32 0x00000000#32),
    StableHlo.unary main_cst_78 main_v379 (broadcastInDim S50000x1 ![] bcast_S_S50000x1 : (⟨S_, .f32⟩ : BufTy).Contents (Elt F) → (⟨S50000x1, .f32⟩ : BufTy).Contents (Elt F)),
    StableHlo.unary main_v1 main_v380 (broadcastInDim S800000x1 ![0] bcast_S800000_S800000x1_0 : (⟨S800000, .i32⟩ : BufTy).Contents (Elt F) → (⟨S800000x1, .i32⟩ : BufTy).Contents (Elt F)),
    StableHlo.ternary main_v379 main_v380 main_v378 main_v381 ((fun x i u => Host.scatterAdd scatter_S50000x1_S800000x1_S800000x1_1_0_0_1 x i u) : (⟨S50000x1, .f32⟩ : BufTy).Contents (Elt F) → (⟨S800000x1, .i32⟩ : BufTy).Contents (Elt F) → (⟨S800000x1, .f32⟩ : BufTy).Contents (Elt F) → (⟨S50000x1, .f32⟩ : BufTy).Contents (Elt F)),
    StableHlo.binary main_v381 main_v355 main_v382 (addf : (⟨S50000x1, .f32⟩ : BufTy).Contents (Elt F) → (⟨S50000x1, .f32⟩ : BufTy).Contents (Elt F) → (⟨S50000x1, .f32⟩ : BufTy).Contents (Elt F)),
    StableHlo.nullary main_c_79 (constantI S_ 32 0#32),
    StableHlo.unary main_c_79 main_v383 (broadcastInDim S800000 ![] bcast_S_S800000 : (⟨S_, .i32⟩ : BufTy).Contents (Elt F) → (⟨S800000, .i32⟩ : BufTy).Contents (Elt F)),
    StableHlo.binary main_v3 main_v383 main_v384 (cmpi .slt : (⟨S800000, .i32⟩ : BufTy).Contents (Elt F) → (⟨S800000, .i32⟩ : BufTy).Contents (Elt F) → (⟨S800000, .i1⟩ : BufTy).Contents (Elt F)),
    StableHlo.nullary main_c_80 (constantI S_ 32 50000#32),
    StableHlo.unary main_c_80 main_v385 (broadcastInDim S800000 ![] bcast_S_S800000 : (⟨S_, .i32⟩ : BufTy).Contents (Elt F) → (⟨S800000, .i32⟩ : BufTy).Contents (Elt F)),
    StableHlo.binary main_v3 main_v385 main_v386 (addi : (⟨S800000, .i32⟩ : BufTy).Contents (Elt F) → (⟨S800000, .i32⟩ : BufTy).Contents (Elt F) → (⟨S800000, .i32⟩ : BufTy).Contents (Elt F)),
    StableHlo.ternary main_v384 main_v386 main_v3 main_v387 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v387 main_v388 (broadcastInDim S800000x1 ![0] bcast_S800000_S800000x1_0 : (⟨S800000, .i32⟩ : BufTy).Contents (Elt F) → (⟨S800000x1, .i32⟩ : BufTy).Contents (Elt F)),
    StableHlo.binary main_v344 main_v388 main_v389 ((fun x i => Host.gather gather_S50000x96_S800000x1_S800000x96_1_0_n_n_0_1_196 x i) : (⟨S50000x96, .f32⟩ : BufTy).Contents (Elt F) → (⟨S800000x1, .i32⟩ : BufTy).Contents (Elt F) → (⟨S800000x96, .f32⟩ : BufTy).Contents (Elt F)),
    StableHlo.unary main_v378 main_v390 (broadcastInDim S800000x96 ![0, 1] bcast_S800000x1_S800000x96_0_1 : (⟨S800000x1, .f32⟩ : BufTy).Contents (Elt F) → (⟨S800000x96, .f32⟩ : BufTy).Contents (Elt F)),
    StableHlo.binary main_v390 main_v389 main_v391 (mulf : (⟨S800000x96, .f32⟩ : BufTy).Contents (Elt F) → (⟨S800000x96, .f32⟩ : BufTy).Contents (Elt F) → (⟨S800000x96, .f32⟩ : BufTy).Contents (Elt F)),
    StableHlo.nullary main_cst_81 (constant S_ .f32 0x00000000#32),
    StableHlo.unary main_cst_81 main_v392 (broadcastInDim S50000x96 ![] bcast_S_S50000x96 : (⟨S_, .f32⟩ : BufTy).Contents (Elt F) → (⟨S50000x96, .f32⟩ : BufTy).Contents (Elt F)),
    StableHlo.unary main_v1 main_v393 (broadcastInDim S800000x1 ![0] bcast_S800000_S800000x1_0 : (⟨S800000, .i32⟩ : BufTy).Contents (Elt F) → (⟨S800000x1, .i32⟩ : BufTy).Contents (Elt F)),
    StableHlo.ternary main_v392 main_v393 main_v391 main_v394 ((fun x i u => Host.scatterAdd scatter_S50000x96_S800000x1_S800000x96_1_0_0_1 x i u) : (⟨S50000x96, .f32⟩ : BufTy).Contents (Elt F) → (⟨S800000x1, .i32⟩ : BufTy).Contents (Elt F) → (⟨S800000x96, .f32⟩ : BufTy).Contents (Elt F) → (⟨S50000x96, .f32⟩ : BufTy).Contents (Elt F)),
    StableHlo.unary main_v355 main_v395 (broadcastInDim S50000x96 ![0, 1] bcast_S50000x1_S50000x96_0_1 : (⟨S50000x1, .f32⟩ : BufTy).Contents (Elt F) → (⟨S50000x96, .f32⟩ : BufTy).Contents (Elt F)) ]

/-- Stretch 8 of the reference's line of operations (the called functions' operations in place). -/
def ops8 : List (HloOp τ sig (Elt F)) :=
  [ StableHlo.binary main_v395 main_v8 main_v396 (mulf : (⟨S50000x96, .f32⟩ : BufTy).Contents (Elt F) → (⟨S50000x96, .f32⟩ : BufTy).Contents (Elt F) → (⟨S50000x96, .f32⟩ : BufTy).Contents (Elt F)),
    StableHlo.binary main_v394 main_v396 main_v397 (addf : (⟨S50000x96, .f32⟩ : BufTy).Contents (Elt F) → (⟨S50000x96, .f32⟩ : BufTy).Contents (Elt F) → (⟨S50000x96, .f32⟩ : BufTy).Contents (Elt F)),
    StableHlo.unary main_v382 main_v398 (broadcastInDim S50000x96 ![0, 1] bcast_S50000x1_S50000x96_0_1 : (⟨S50000x1, .f32⟩ : BufTy).Contents (Elt F) → (⟨S50000x96, .f32⟩ : BufTy).Contents (Elt F)),
    StableHlo.binary main_v397 main_v398 main_v399 (Host.divf : (⟨S50000x96, .f32⟩ : BufTy).Contents (Elt F) → (⟨S50000x96, .f32⟩ : BufTy).Contents (Elt F) → (⟨S50000x96, .f32⟩ : BufTy).Contents (Elt F)),
    StableHlo.TRef.nullary main_call21.cst (constant S_ .f32 0x00000000#32),
    StableHlo.TRef.unary main_call21.cst main_call21.v0 (broadcastInDim S50000x96 ![] bcast_S_S50000x96),
    StableHlo.TRef.binary (.of main_v399 : StableHlo.TRef sig ⟨S50000x96, .f32⟩) main_call21.v0 main_call21.v1 (cmpf .ogt),
    StableHlo.TRef.nullary main_call21.cst_0 (constant S_ .f32 0x00000000#32),
    StableHlo.TRef.unary main_call21.cst_0 main_call21.v2 (broadcastInDim S50000x96 ![] bcast_S_S50000x96),
    StableHlo.TRef.binary (.of main_v399 : StableHlo.TRef sig ⟨S50000x96, .f32⟩) main_call21.v2 main_call21.v3 (cmpf .ogt),
    StableHlo.TRef.nullary main_call21.cst_1 (constant S_ .f32 0x00000000#32),
    StableHlo.TRef.unary main_call21.cst_1 main_call21.call0.v0 id,
    StableHlo.TRef.unary main_call21.call0.v0 main_call21.call0.v1 (broadcastInDim S50000x96 ![] bcast_S_S50000x96),
    StableHlo.TRef.ternary main_call21.v3 main_call21.call0.v1 (.of main_v399 : StableHlo.TRef sig ⟨S50000x96, .f32⟩) main_call21.call0.v2 select,
    StableHlo.TRef.unary main_call21.call0.v2 main_call21.v5 Host.expm1,
    StableHlo.TRef.nullary main_call21.cst_2 (constant S_ .f32 0x3F800000#32),
    StableHlo.TRef.unary main_call21.cst_2 main_call21.v6 (broadcastInDim S50000x96 ![] bcast_S_S50000x96),
    StableHlo.TRef.binary main_call21.v6 main_call21.v5 main_call21.v7 mulf,
    StableHlo.TRef.ternary main_call21.v1 (.of main_v399 : StableHlo.TRef sig ⟨S50000x96, .f32⟩) main_call21.v7 main_call21.call1.v0 select,
    StableHlo.unary main_arg4 main_v401 (broadcastInDim S96x1 ![0] bcast_S96_S96x1_0 : (⟨S96, .f32⟩ : BufTy).Contents (Elt F) → (⟨S96x1, .f32⟩ : BufTy).Contents (Elt F)),
    StableHlo.binary main_v8 main_v401 main_v402 ((fun l r => Host.dotGeneral dot_S50000x96_S96x1_S50000x1_1_0_0_1_n_n none l r) : (⟨S50000x96, .f32⟩ : BufTy).Contents (Elt F) → (⟨S96x1, .f32⟩ : BufTy).Contents (Elt F) → (⟨S50000x1, .f32⟩ : BufTy).Contents (Elt F)),
    StableHlo.unary main_arg5 main_v403 (broadcastInDim S96x1 ![0] bcast_S96_S96x1_0 : (⟨S96, .f32⟩ : BufTy).Contents (Elt F) → (⟨S96x1, .f32⟩ : BufTy).Contents (Elt F)),
    StableHlo.binary main_v8 main_v403 main_v404 ((fun l r => Host.dotGeneral dot_S50000x96_S96x1_S50000x1_1_0_0_1_n_n none l r) : (⟨S50000x96, .f32⟩ : BufTy).Contents (Elt F) → (⟨S96x1, .f32⟩ : BufTy).Contents (Elt F) → (⟨S50000x1, .f32⟩ : BufTy).Contents (Elt F)),
    StableHlo.binary main_v402 main_v404 main_v405 (addf : (⟨S50000x1, .f32⟩ : BufTy).Contents (Elt F) → (⟨S50000x1, .f32⟩ : BufTy).Contents (Elt F) → (⟨S50000x1, .f32⟩ : BufTy).Contents (Elt F)),
    StableHlo.nullary main_cst_82 (constant S_ .f32 0x00000000#32),
    StableHlo.unary main_cst_82 main_v406 (broadcastInDim S50000x1 ![] bcast_S_S50000x1 : (⟨S_, .f32⟩ : BufTy).Contents (Elt F) → (⟨S50000x1, .f32⟩ : BufTy).Contents (Elt F)),
    StableHlo.binary main_v405 main_v406 main_v407 (cmpf .oge : (⟨S50000x1, .f32⟩ : BufTy).Contents (Elt F) → (⟨S50000x1, .f32⟩ : BufTy).Contents (Elt F) → (⟨S50000x1, .i1⟩ : BufTy).Contents (Elt F)),
    StableHlo.nullary main_cst_83 (constant S_ .f32 0x3E4CCCCD#32),
    StableHlo.unary main_cst_83 main_v408 (broadcastInDim S50000x1 ![] bcast_S_S50000x1 : (⟨S_, .f32⟩ : BufTy).Contents (Elt F) → (⟨S50000x1, .f32⟩ : BufTy).Contents (Elt F)),
    StableHlo.binary main_v408 main_v405 main_v409 (mulf : (⟨S50000x1, .f32⟩ : BufTy).Contents (Elt F) → (⟨S50000x1, .f32⟩ : BufTy).Contents (Elt F) → (⟨S50000x1, .f32⟩ : BufTy).Contents (Elt F)),
    StableHlo.TRef.ternary (.of main_v407 : StableHlo.TRef sig ⟨S50000x1, .i1⟩) (.of main_v405 : StableHlo.TRef sig ⟨S50000x1, .f32⟩) (.of main_v409 : StableHlo.TRef sig ⟨S50000x1, .f32⟩) main_call22.v0 select,
    StableHlo.unary main_v410 main_v411 (Host.exp : (⟨S50000x1, .f32⟩ : BufTy).Contents (Elt F) → (⟨S50000x1, .f32⟩ : BufTy).Contents (Elt F)),
    StableHlo.unary main_arg5 main_v412 (broadcastInDim S96x1 ![0] bcast_S96_S96x1_0 : (⟨S96, .f32⟩ : BufTy).Contents (Elt F) → (⟨S96x1, .f32⟩ : BufTy).Contents (Elt F)),
    StableHlo.binary main_v400 main_v412 main_v413 ((fun l r => Host.dotGeneral dot_S50000x96_S96x1_S50000x1_1_0_0_1_n_n none l r) : (⟨S50000x96, .f32⟩ : BufTy).Contents (Elt F) → (⟨S96x1, .f32⟩ : BufTy).Contents (Elt F) → (⟨S50000x1, .f32⟩ : BufTy).Contents (Elt F)),
    StableHlo.nullary main_c_84 (constantI S_ 32 0#32),
    StableHlo.unary main_c_84 main_v414 (broadcastInDim S800000 ![] bcast_S_S800000 : (⟨S_, .i32⟩ : BufTy).Contents (Elt F) → (⟨S800000, .i32⟩ : BufTy).Contents (Elt F)),
    StableHlo.binary main_v1 main_v414 main_v415 (cmpi .slt : (⟨S800000, .i32⟩ : BufTy).Contents (Elt F) → (⟨S800000, .i32⟩ : BufTy).Contents (Elt F) → (⟨S800000, .i1⟩ : BufTy).Contents (Elt F)),
    StableHlo.nullary main_c_85 (constantI S_ 32 50000#32),
    StableHlo.unary main_c_85 main_v416 (broadcastInDim S800000 ![] bcast_S_S800000 : (⟨S_, .i32⟩ : BufTy).Contents (Elt F) → (⟨S800000, .i32⟩ : BufTy).Contents (Elt F)),
    StableHlo.binary main_v1 main_v416 main_v417 (addi : (⟨S800000, .i32⟩ : BufTy).Contents (Elt F) → (⟨S800000, .i32⟩ : BufTy).Contents (Elt F) → (⟨S800000, .i32⟩ : BufTy).Contents (Elt F)),
    StableHlo.ternary main_v415 main_v417 main_v1 main_v418 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v418 main_v419 (broadcastInDim S800000x1 ![0] bcast_S800000_S800000x1_0 : (⟨S800000, .i32⟩ : BufTy).Contents (Elt F) → (⟨S800000x1, .i32⟩ : BufTy).Contents (Elt F)),
    StableHlo.binary main_v402 main_v419 main_v420 ((fun x i => Host.gather gather_S50000x1_S800000x1_S800000x1_1_0_n_n_0_1_11 x i) : (⟨S50000x1, .f32⟩ : BufTy).Contents (Elt F) → (⟨S800000x1, .i32⟩ : BufTy).Contents (Elt F) → (⟨S800000x1, .f32⟩ : BufTy).Contents (Elt F)),
    StableHlo.nullary main_c_86 (constantI S_ 32 0#32),
    StableHlo.unary main_c_86 main_v421 (broadcastInDim S800000 ![] bcast_S_S800000 : (⟨S_, .i32⟩ : BufTy).Contents (Elt F) → (⟨S800000, .i32⟩ : BufTy).Contents (Elt F)),
    StableHlo.binary main_v3 main_v421 main_v422 (cmpi .slt : (⟨S800000, .i32⟩ : BufTy).Contents (Elt F) → (⟨S800000, .i32⟩ : BufTy).Contents (Elt F) → (⟨S800000, .i1⟩ : BufTy).Contents (Elt F)),
    StableHlo.nullary main_c_87 (constantI S_ 32 50000#32),
    StableHlo.unary main_c_87 main_v423 (broadcastInDim S800000 ![] bcast_S_S800000 : (⟨S_, .i32⟩ : BufTy).Contents (Elt F) → (⟨S800000, .i32⟩ : BufTy).Contents (Elt F)),
    StableHlo.binary main_v3 main_v423 main_v424 (addi : (⟨S800000, .i32⟩ : BufTy).Contents (Elt F) → (⟨S800000, .i32⟩ : BufTy).Contents (Elt F) → (⟨S800000, .i32⟩ : BufTy).Contents (Elt F)),
    StableHlo.ternary main_v422 main_v424 main_v3 main_v425 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v425 main_v426 (broadcastInDim S800000x1 ![0] bcast_S800000_S800000x1_0 : (⟨S800000, .i32⟩ : BufTy).Contents (Elt F) → (⟨S800000x1, .i32⟩ : BufTy).Contents (Elt F)),
    StableHlo.binary main_v413 main_v426 main_v427 ((fun x i => Host.gather gather_S50000x1_S800000x1_S800000x1_1_0_n_n_0_1_11 x i) : (⟨S50000x1, .f32⟩ : BufTy).Contents (Elt F) → (⟨S800000x1, .i32⟩ : BufTy).Contents (Elt F) → (⟨S800000x1, .f32⟩ : BufTy).Contents (Elt F)),
    StableHlo.binary main_v420 main_v427 main_v428 (addf : (⟨S800000x1, .f32⟩ : BufTy).Contents (Elt F) → (⟨S800000x1, .f32⟩ : BufTy).Contents (Elt F) → (⟨S800000x1, .f32⟩ : BufTy).Contents (Elt F)),
    StableHlo.nullary main_cst_88 (constant S_ .f32 0x00000000#32),
    StableHlo.unary main_cst_88 main_v429 (broadcastInDim S800000x1 ![] bcast_S_S800000x1 : (⟨S_, .f32⟩ : BufTy).Contents (Elt F) → (⟨S800000x1, .f32⟩ : BufTy).Contents (Elt F)),
    StableHlo.binary main_v428 main_v429 main_v430 (cmpf .oge : (⟨S800000x1, .f32⟩ : BufTy).Contents (Elt F) → (⟨S800000x1, .f32⟩ : BufTy).Contents (Elt F) → (⟨S800000x1, .i1⟩ : BufTy).Contents (Elt F)),
    StableHlo.nullary main_cst_89 (constant S_ .f32 0x3E4CCCCD#32),
    StableHlo.unary main_cst_89 main_v431 (broadcastInDim S800000x1 ![] bcast_S_S800000x1 : (⟨S_, .f32⟩ : BufTy).Contents (Elt F) → (⟨S800000x1, .f32⟩ : BufTy).Contents (Elt F)),
    StableHlo.binary main_v431 main_v428 main_v432 (mulf : (⟨S800000x1, .f32⟩ : BufTy).Contents (Elt F) → (⟨S800000x1, .f32⟩ : BufTy).Contents (Elt F) → (⟨S800000x1, .f32⟩ : BufTy).Contents (Elt F)),
    StableHlo.TRef.ternary (.of main_v430 : StableHlo.TRef sig ⟨S800000x1, .i1⟩) (.of main_v428 : StableHlo.TRef sig ⟨S800000x1, .f32⟩) (.of main_v432 : StableHlo.TRef sig ⟨S800000x1, .f32⟩) main_call23.v0 select,
    StableHlo.unary main_v433 main_v434 (Host.exp : (⟨S800000x1, .f32⟩ : BufTy).Contents (Elt F) → (⟨S800000x1, .f32⟩ : BufTy).Contents (Elt F)),
    StableHlo.nullary main_cst_90 (constant S_ .f32 0x00000000#32),
    StableHlo.unary main_cst_90 main_v435 (broadcastInDim S50000x1 ![] bcast_S_S50000x1 : (⟨S_, .f32⟩ : BufTy).Contents (Elt F) → (⟨S50000x1, .f32⟩ : BufTy).Contents (Elt F)),
    StableHlo.unary main_v1 main_v436 (broadcastInDim S800000x1 ![0] bcast_S800000_S800000x1_0 : (⟨S800000, .i32⟩ : BufTy).Contents (Elt F) → (⟨S800000x1, .i32⟩ : BufTy).Contents (Elt F)),
    StableHlo.ternary main_v435 main_v436 main_v434 main_v437 ((fun x i u => Host.scatterAdd scatter_S50000x1_S800000x1_S800000x1_1_0_0_1 x i u) : (⟨S50000x1, .f32⟩ : BufTy).Contents (Elt F) → (⟨S800000x1, .i32⟩ : BufTy).Contents (Elt F) → (⟨S800000x1, .f32⟩ : BufTy).Contents (Elt F) → (⟨S50000x1, .f32⟩ : BufTy).Contents (Elt F)),
    StableHlo.binary main_v437 main_v411 main_v438 (addf : (⟨S50000x1, .f32⟩ : BufTy).Contents (Elt F) → (⟨S50000x1, .f32⟩ : BufTy).Contents (Elt F) → (⟨S50000x1, .f32⟩ : BufTy).Contents (Elt F)),
    StableHlo.nullary main_c_91 (constantI S_ 32 0#32),
    StableHlo.unary main_c_91 main_v439 (broadcastInDim S800000 ![] bcast_S_S800000 : (⟨S_, .i32⟩ : BufTy).Contents (Elt F) → (⟨S800000, .i32⟩ : BufTy).Contents (Elt F)),
    StableHlo.binary main_v3 main_v439 main_v440 (cmpi .slt : (⟨S800000, .i32⟩ : BufTy).Contents (Elt F) → (⟨S800000, .i32⟩ : BufTy).Contents (Elt F) → (⟨S800000, .i1⟩ : BufTy).Contents (Elt F)),
    StableHlo.nullary main_c_92 (constantI S_ 32 50000#32),
    StableHlo.unary main_c_92 main_v441 (broadcastInDim S800000 ![] bcast_S_S800000 : (⟨S_, .i32⟩ : BufTy).Contents (Elt F) → (⟨S800000, .i32⟩ : BufTy).Contents (Elt F)),
    StableHlo.binary main_v3 main_v441 main_v442 (addi : (⟨S800000, .i32⟩ : BufTy).Contents (Elt F) → (⟨S800000, .i32⟩ : BufTy).Contents (Elt F) → (⟨S800000, .i32⟩ : BufTy).Contents (Elt F)),
    StableHlo.ternary main_v440 main_v442 main_v3 main_v443 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v443 main_v444 (broadcastInDim S800000x1 ![0] bcast_S800000_S800000x1_0 : (⟨S800000, .i32⟩ : BufTy).Contents (Elt F) → (⟨S800000x1, .i32⟩ : BufTy).Contents (Elt F)) ]

/-- Stretch 9 of the reference's line of operations (the called functions' operations in place). -/
def ops9 : List (HloOp τ sig (Elt F)) :=
  [ StableHlo.binary main_v400 main_v444 main_v445 ((fun x i => Host.gather gather_S50000x96_S800000x1_S800000x96_1_0_n_n_0_1_196 x i) : (⟨S50000x96, .f32⟩ : BufTy).Contents (Elt F) → (⟨S800000x1, .i32⟩ : BufTy).Contents (Elt F) → (⟨S800000x96, .f32⟩ : BufTy).Contents (Elt F)),
    StableHlo.unary main_v434 main_v446 (broadcastInDim S800000x96 ![0, 1] bcast_S800000x1_S800000x96_0_1 : (⟨S800000x1, .f32⟩ : BufTy).Contents (Elt F) → (⟨S800000x96, .f32⟩ : BufTy).Contents (Elt F)),
    StableHlo.binary main_v446 main_v445 main_v447 (mulf : (⟨S800000x96, .f32⟩ : BufTy).Contents (Elt F) → (⟨S800000x96, .f32⟩ : BufTy).Contents (Elt F) → (⟨S800000x96, .f32⟩ : BufTy).Contents (Elt F)),
    StableHlo.nullary main_cst_93 (constant S_ .f32 0x00000000#32),
    StableHlo.unary main_cst_93 main_v448 (broadcastInDim S50000x96 ![] bcast_S_S50000x96 : (⟨S_, .f32⟩ : BufTy).Contents (Elt F) → (⟨S50000x96, .f32⟩ : BufTy).Contents (Elt F)),
    StableHlo.unary main_v1 main_v449 (broadcastInDim S800000x1 ![0] bcast_S800000_S800000x1_0 : (⟨S800000, .i32⟩ : BufTy).Contents (Elt F) → (⟨S800000x1, .i32⟩ : BufTy).Contents (Elt F)),
    StableHlo.ternary main_v448 main_v449 main_v447 main_v450 ((fun x i u => Host.scatterAdd scatter_S50000x96_S800000x1_S800000x96_1_0_0_1 x i u) : (⟨S50000x96, .f32⟩ : BufTy).Contents (Elt F) → (⟨S800000x1, .i32⟩ : BufTy).Contents (Elt F) → (⟨S800000x96, .f32⟩ : BufTy).Contents (Elt F) → (⟨S50000x96, .f32⟩ : BufTy).Contents (Elt F)),
    StableHlo.unary main_v411 main_v451 (broadcastInDim S50000x96 ![0, 1] bcast_S50000x1_S50000x96_0_1 : (⟨S50000x1, .f32⟩ : BufTy).Contents (Elt F) → (⟨S50000x96, .f32⟩ : BufTy).Contents (Elt F)),
    StableHlo.binary main_v451 main_v8 main_v452 (mulf : (⟨S50000x96, .f32⟩ : BufTy).Contents (Elt F) → (⟨S50000x96, .f32⟩ : BufTy).Contents (Elt F) → (⟨S50000x96, .f32⟩ : BufTy).Contents (Elt F)),
    StableHlo.binary main_v450 main_v452 main_v453 (addf : (⟨S50000x96, .f32⟩ : BufTy).Contents (Elt F) → (⟨S50000x96, .f32⟩ : BufTy).Contents (Elt F) → (⟨S50000x96, .f32⟩ : BufTy).Contents (Elt F)),
    StableHlo.unary main_v438 main_v454 (broadcastInDim S50000x96 ![0, 1] bcast_S50000x1_S50000x96_0_1 : (⟨S50000x1, .f32⟩ : BufTy).Contents (Elt F) → (⟨S50000x96, .f32⟩ : BufTy).Contents (Elt F)),
    StableHlo.binary main_v453 main_v454 main_v455 (Host.divf : (⟨S50000x96, .f32⟩ : BufTy).Contents (Elt F) → (⟨S50000x96, .f32⟩ : BufTy).Contents (Elt F) → (⟨S50000x96, .f32⟩ : BufTy).Contents (Elt F)),
    StableHlo.TRef.nullary main_call24.cst (constant S_ .f32 0x00000000#32),
    StableHlo.TRef.unary main_call24.cst main_call24.v0 (broadcastInDim S50000x96 ![] bcast_S_S50000x96),
    StableHlo.TRef.binary (.of main_v455 : StableHlo.TRef sig ⟨S50000x96, .f32⟩) main_call24.v0 main_call24.v1 (cmpf .ogt),
    StableHlo.TRef.nullary main_call24.cst_0 (constant S_ .f32 0x00000000#32),
    StableHlo.TRef.unary main_call24.cst_0 main_call24.v2 (broadcastInDim S50000x96 ![] bcast_S_S50000x96),
    StableHlo.TRef.binary (.of main_v455 : StableHlo.TRef sig ⟨S50000x96, .f32⟩) main_call24.v2 main_call24.v3 (cmpf .ogt),
    StableHlo.TRef.nullary main_call24.cst_1 (constant S_ .f32 0x00000000#32),
    StableHlo.TRef.unary main_call24.cst_1 main_call24.call0.v0 id,
    StableHlo.TRef.unary main_call24.call0.v0 main_call24.call0.v1 (broadcastInDim S50000x96 ![] bcast_S_S50000x96),
    StableHlo.TRef.ternary main_call24.v3 main_call24.call0.v1 (.of main_v455 : StableHlo.TRef sig ⟨S50000x96, .f32⟩) main_call24.call0.v2 select,
    StableHlo.TRef.unary main_call24.call0.v2 main_call24.v5 Host.expm1,
    StableHlo.TRef.nullary main_call24.cst_2 (constant S_ .f32 0x3F800000#32),
    StableHlo.TRef.unary main_call24.cst_2 main_call24.v6 (broadcastInDim S50000x96 ![] bcast_S_S50000x96),
    StableHlo.TRef.binary main_call24.v6 main_call24.v5 main_call24.v7 mulf,
    StableHlo.TRef.ternary main_call24.v1 (.of main_v455 : StableHlo.TRef sig ⟨S50000x96, .f32⟩) main_call24.v7 main_call24.call1.v0 select,
    StableHlo.unary main_arg4 main_v457 (broadcastInDim S96x1 ![0] bcast_S96_S96x1_0 : (⟨S96, .f32⟩ : BufTy).Contents (Elt F) → (⟨S96x1, .f32⟩ : BufTy).Contents (Elt F)),
    StableHlo.binary main_v8 main_v457 main_v458 ((fun l r => Host.dotGeneral dot_S50000x96_S96x1_S50000x1_1_0_0_1_n_n none l r) : (⟨S50000x96, .f32⟩ : BufTy).Contents (Elt F) → (⟨S96x1, .f32⟩ : BufTy).Contents (Elt F) → (⟨S50000x1, .f32⟩ : BufTy).Contents (Elt F)),
    StableHlo.unary main_arg5 main_v459 (broadcastInDim S96x1 ![0] bcast_S96_S96x1_0 : (⟨S96, .f32⟩ : BufTy).Contents (Elt F) → (⟨S96x1, .f32⟩ : BufTy).Contents (Elt F)),
    StableHlo.binary main_v8 main_v459 main_v460 ((fun l r => Host.dotGeneral dot_S50000x96_S96x1_S50000x1_1_0_0_1_n_n none l r) : (⟨S50000x96, .f32⟩ : BufTy).Contents (Elt F) → (⟨S96x1, .f32⟩ : BufTy).Contents (Elt F) → (⟨S50000x1, .f32⟩ : BufTy).Contents (Elt F)),
    StableHlo.binary main_v458 main_v460 main_v461 (addf : (⟨S50000x1, .f32⟩ : BufTy).Contents (Elt F) → (⟨S50000x1, .f32⟩ : BufTy).Contents (Elt F) → (⟨S50000x1, .f32⟩ : BufTy).Contents (Elt F)),
    StableHlo.nullary main_cst_94 (constant S_ .f32 0x00000000#32),
    StableHlo.unary main_cst_94 main_v462 (broadcastInDim S50000x1 ![] bcast_S_S50000x1 : (⟨S_, .f32⟩ : BufTy).Contents (Elt F) → (⟨S50000x1, .f32⟩ : BufTy).Contents (Elt F)),
    StableHlo.binary main_v461 main_v462 main_v463 (cmpf .oge : (⟨S50000x1, .f32⟩ : BufTy).Contents (Elt F) → (⟨S50000x1, .f32⟩ : BufTy).Contents (Elt F) → (⟨S50000x1, .i1⟩ : BufTy).Contents (Elt F)),
    StableHlo.nullary main_cst_95 (constant S_ .f32 0x3E4CCCCD#32),
    StableHlo.unary main_cst_95 main_v464 (broadcastInDim S50000x1 ![] bcast_S_S50000x1 : (⟨S_, .f32⟩ : BufTy).Contents (Elt F) → (⟨S50000x1, .f32⟩ : BufTy).Contents (Elt F)),
    StableHlo.binary main_v464 main_v461 main_v465 (mulf : (⟨S50000x1, .f32⟩ : BufTy).Contents (Elt F) → (⟨S50000x1, .f32⟩ : BufTy).Contents (Elt F) → (⟨S50000x1, .f32⟩ : BufTy).Contents (Elt F)),
    StableHlo.TRef.ternary (.of main_v463 : StableHlo.TRef sig ⟨S50000x1, .i1⟩) (.of main_v461 : StableHlo.TRef sig ⟨S50000x1, .f32⟩) (.of main_v465 : StableHlo.TRef sig ⟨S50000x1, .f32⟩) main_call25.v0 select,
    StableHlo.unary main_v466 main_v467 (Host.exp : (⟨S50000x1, .f32⟩ : BufTy).Contents (Elt F) → (⟨S50000x1, .f32⟩ : BufTy).Contents (Elt F)),
    StableHlo.unary main_arg5 main_v468 (broadcastInDim S96x1 ![0] bcast_S96_S96x1_0 : (⟨S96, .f32⟩ : BufTy).Contents (Elt F) → (⟨S96x1, .f32⟩ : BufTy).Contents (Elt F)),
    StableHlo.binary main_v456 main_v468 main_v469 ((fun l r => Host.dotGeneral dot_S50000x96_S96x1_S50000x1_1_0_0_1_n_n none l r) : (⟨S50000x96, .f32⟩ : BufTy).Contents (Elt F) → (⟨S96x1, .f32⟩ : BufTy).Contents (Elt F) → (⟨S50000x1, .f32⟩ : BufTy).Contents (Elt F)),
    StableHlo.nullary main_c_96 (constantI S_ 32 0#32),
    StableHlo.unary main_c_96 main_v470 (broadcastInDim S800000 ![] bcast_S_S800000 : (⟨S_, .i32⟩ : BufTy).Contents (Elt F) → (⟨S800000, .i32⟩ : BufTy).Contents (Elt F)),
    StableHlo.binary main_v1 main_v470 main_v471 (cmpi .slt : (⟨S800000, .i32⟩ : BufTy).Contents (Elt F) → (⟨S800000, .i32⟩ : BufTy).Contents (Elt F) → (⟨S800000, .i1⟩ : BufTy).Contents (Elt F)),
    StableHlo.nullary main_c_97 (constantI S_ 32 50000#32),
    StableHlo.unary main_c_97 main_v472 (broadcastInDim S800000 ![] bcast_S_S800000 : (⟨S_, .i32⟩ : BufTy).Contents (Elt F) → (⟨S800000, .i32⟩ : BufTy).Contents (Elt F)),
    StableHlo.binary main_v1 main_v472 main_v473 (addi : (⟨S800000, .i32⟩ : BufTy).Contents (Elt F) → (⟨S800000, .i32⟩ : BufTy).Contents (Elt F) → (⟨S800000, .i32⟩ : BufTy).Contents (Elt F)),
    StableHlo.ternary main_v471 main_v473 main_v1 main_v474 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v474 main_v475 (broadcastInDim S800000x1 ![0] bcast_S800000_S800000x1_0 : (⟨S800000, .i32⟩ : BufTy).Contents (Elt F) → (⟨S800000x1, .i32⟩ : BufTy).Contents (Elt F)),
    StableHlo.binary main_v458 main_v475 main_v476 ((fun x i => Host.gather gather_S50000x1_S800000x1_S800000x1_1_0_n_n_0_1_11 x i) : (⟨S50000x1, .f32⟩ : BufTy).Contents (Elt F) → (⟨S800000x1, .i32⟩ : BufTy).Contents (Elt F) → (⟨S800000x1, .f32⟩ : BufTy).Contents (Elt F)),
    StableHlo.nullary main_c_98 (constantI S_ 32 0#32),
    StableHlo.unary main_c_98 main_v477 (broadcastInDim S800000 ![] bcast_S_S800000 : (⟨S_, .i32⟩ : BufTy).Contents (Elt F) → (⟨S800000, .i32⟩ : BufTy).Contents (Elt F)),
    StableHlo.binary main_v3 main_v477 main_v478 (cmpi .slt : (⟨S800000, .i32⟩ : BufTy).Contents (Elt F) → (⟨S800000, .i32⟩ : BufTy).Contents (Elt F) → (⟨S800000, .i1⟩ : BufTy).Contents (Elt F)),
    StableHlo.nullary main_c_99 (constantI S_ 32 50000#32),
    StableHlo.unary main_c_99 main_v479 (broadcastInDim S800000 ![] bcast_S_S800000 : (⟨S_, .i32⟩ : BufTy).Contents (Elt F) → (⟨S800000, .i32⟩ : BufTy).Contents (Elt F)),
    StableHlo.binary main_v3 main_v479 main_v480 (addi : (⟨S800000, .i32⟩ : BufTy).Contents (Elt F) → (⟨S800000, .i32⟩ : BufTy).Contents (Elt F) → (⟨S800000, .i32⟩ : BufTy).Contents (Elt F)),
    StableHlo.ternary main_v478 main_v480 main_v3 main_v481 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v481 main_v482 (broadcastInDim S800000x1 ![0] bcast_S800000_S800000x1_0 : (⟨S800000, .i32⟩ : BufTy).Contents (Elt F) → (⟨S800000x1, .i32⟩ : BufTy).Contents (Elt F)),
    StableHlo.binary main_v469 main_v482 main_v483 ((fun x i => Host.gather gather_S50000x1_S800000x1_S800000x1_1_0_n_n_0_1_11 x i) : (⟨S50000x1, .f32⟩ : BufTy).Contents (Elt F) → (⟨S800000x1, .i32⟩ : BufTy).Contents (Elt F) → (⟨S800000x1, .f32⟩ : BufTy).Contents (Elt F)),
    StableHlo.binary main_v476 main_v483 main_v484 (addf : (⟨S800000x1, .f32⟩ : BufTy).Contents (Elt F) → (⟨S800000x1, .f32⟩ : BufTy).Contents (Elt F) → (⟨S800000x1, .f32⟩ : BufTy).Contents (Elt F)),
    StableHlo.nullary main_cst_100 (constant S_ .f32 0x00000000#32),
    StableHlo.unary main_cst_100 main_v485 (broadcastInDim S800000x1 ![] bcast_S_S800000x1 : (⟨S_, .f32⟩ : BufTy).Contents (Elt F) → (⟨S800000x1, .f32⟩ : BufTy).Contents (Elt F)),
    StableHlo.binary main_v484 main_v485 main_v486 (cmpf .oge : (⟨S800000x1, .f32⟩ : BufTy).Contents (Elt F) → (⟨S800000x1, .f32⟩ : BufTy).Contents (Elt F) → (⟨S800000x1, .i1⟩ : BufTy).Contents (Elt F)),
    StableHlo.nullary main_cst_101 (constant S_ .f32 0x3E4CCCCD#32),
    StableHlo.unary main_cst_101 main_v487 (broadcastInDim S800000x1 ![] bcast_S_S800000x1 : (⟨S_, .f32⟩ : BufTy).Contents (Elt F) → (⟨S800000x1, .f32⟩ : BufTy).Contents (Elt F)),
    StableHlo.binary main_v487 main_v484 main_v488 (mulf : (⟨S800000x1, .f32⟩ : BufTy).Contents (Elt F) → (⟨S800000x1, .f32⟩ : BufTy).Contents (Elt F) → (⟨S800000x1, .f32⟩ : BufTy).Contents (Elt F)),
    StableHlo.TRef.ternary (.of main_v486 : StableHlo.TRef sig ⟨S800000x1, .i1⟩) (.of main_v484 : StableHlo.TRef sig ⟨S800000x1, .f32⟩) (.of main_v488 : StableHlo.TRef sig ⟨S800000x1, .f32⟩) main_call26.v0 select,
    StableHlo.unary main_v489 main_v490 (Host.exp : (⟨S800000x1, .f32⟩ : BufTy).Contents (Elt F) → (⟨S800000x1, .f32⟩ : BufTy).Contents (Elt F)),
    StableHlo.nullary main_cst_102 (constant S_ .f32 0x00000000#32),
    StableHlo.unary main_cst_102 main_v491 (broadcastInDim S50000x1 ![] bcast_S_S50000x1 : (⟨S_, .f32⟩ : BufTy).Contents (Elt F) → (⟨S50000x1, .f32⟩ : BufTy).Contents (Elt F)),
    StableHlo.unary main_v1 main_v492 (broadcastInDim S800000x1 ![0] bcast_S800000_S800000x1_0 : (⟨S800000, .i32⟩ : BufTy).Contents (Elt F) → (⟨S800000x1, .i32⟩ : BufTy).Contents (Elt F)),
    StableHlo.ternary main_v491 main_v492 main_v490 main_v493 ((fun x i u => Host.scatterAdd scatter_S50000x1_S800000x1_S800000x1_1_0_0_1 x i u) : (⟨S50000x1, .f32⟩ : BufTy).Contents (Elt F) → (⟨S800000x1, .i32⟩ : BufTy).Contents (Elt F) → (⟨S800000x1, .f32⟩ : BufTy).Contents (Elt F) → (⟨S50000x1, .f32⟩ : BufTy).Contents (Elt F)),
    StableHlo.binary main_v493 main_v467 main_v494 (addf : (⟨S50000x1, .f32⟩ : BufTy).Contents (Elt F) → (⟨S50000x1, .f32⟩ : BufTy).Contents (Elt F) → (⟨S50000x1, .f32⟩ : BufTy).Contents (Elt F)) ]

/-- Stretch 10 of the reference's line of operations (the called functions' operations in place). -/
def ops10 : List (HloOp τ sig (Elt F)) :=
  [ StableHlo.nullary main_c_103 (constantI S_ 32 0#32),
    StableHlo.unary main_c_103 main_v495 (broadcastInDim S800000 ![] bcast_S_S800000 : (⟨S_, .i32⟩ : BufTy).Contents (Elt F) → (⟨S800000, .i32⟩ : BufTy).Contents (Elt F)),
    StableHlo.binary main_v3 main_v495 main_v496 (cmpi .slt : (⟨S800000, .i32⟩ : BufTy).Contents (Elt F) → (⟨S800000, .i32⟩ : BufTy).Contents (Elt F) → (⟨S800000, .i1⟩ : BufTy).Contents (Elt F)),
    StableHlo.nullary main_c_104 (constantI S_ 32 50000#32),
    StableHlo.unary main_c_104 main_v497 (broadcastInDim S800000 ![] bcast_S_S800000 : (⟨S_, .i32⟩ : BufTy).Contents (Elt F) → (⟨S800000, .i32⟩ : BufTy).Contents (Elt F)),
    StableHlo.binary main_v3 main_v497 main_v498 (addi : (⟨S800000, .i32⟩ : BufTy).Contents (Elt F) → (⟨S800000, .i32⟩ : BufTy).Contents (Elt F) → (⟨S800000, .i32⟩ : BufTy).Contents (Elt F)),
    StableHlo.ternary main_v496 main_v498 main_v3 main_v499 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v499 main_v500 (broadcastInDim S800000x1 ![0] bcast_S800000_S800000x1_0 : (⟨S800000, .i32⟩ : BufTy).Contents (Elt F) → (⟨S800000x1, .i32⟩ : BufTy).Contents (Elt F)),
    StableHlo.binary main_v456 main_v500 main_v501 ((fun x i => Host.gather gather_S50000x96_S800000x1_S800000x96_1_0_n_n_0_1_196 x i) : (⟨S50000x96, .f32⟩ : BufTy).Contents (Elt F) → (⟨S800000x1, .i32⟩ : BufTy).Contents (Elt F) → (⟨S800000x96, .f32⟩ : BufTy).Contents (Elt F)),
    StableHlo.unary main_v490 main_v502 (broadcastInDim S800000x96 ![0, 1] bcast_S800000x1_S800000x96_0_1 : (⟨S800000x1, .f32⟩ : BufTy).Contents (Elt F) → (⟨S800000x96, .f32⟩ : BufTy).Contents (Elt F)),
    StableHlo.binary main_v502 main_v501 main_v503 (mulf : (⟨S800000x96, .f32⟩ : BufTy).Contents (Elt F) → (⟨S800000x96, .f32⟩ : BufTy).Contents (Elt F) → (⟨S800000x96, .f32⟩ : BufTy).Contents (Elt F)),
    StableHlo.nullary main_cst_105 (constant S_ .f32 0x00000000#32),
    StableHlo.unary main_cst_105 main_v504 (broadcastInDim S50000x96 ![] bcast_S_S50000x96 : (⟨S_, .f32⟩ : BufTy).Contents (Elt F) → (⟨S50000x96, .f32⟩ : BufTy).Contents (Elt F)),
    StableHlo.unary main_v1 main_v505 (broadcastInDim S800000x1 ![0] bcast_S800000_S800000x1_0 : (⟨S800000, .i32⟩ : BufTy).Contents (Elt F) → (⟨S800000x1, .i32⟩ : BufTy).Contents (Elt F)),
    StableHlo.ternary main_v504 main_v505 main_v503 main_v506 ((fun x i u => Host.scatterAdd scatter_S50000x96_S800000x1_S800000x96_1_0_0_1 x i u) : (⟨S50000x96, .f32⟩ : BufTy).Contents (Elt F) → (⟨S800000x1, .i32⟩ : BufTy).Contents (Elt F) → (⟨S800000x96, .f32⟩ : BufTy).Contents (Elt F) → (⟨S50000x96, .f32⟩ : BufTy).Contents (Elt F)),
    StableHlo.unary main_v467 main_v507 (broadcastInDim S50000x96 ![0, 1] bcast_S50000x1_S50000x96_0_1 : (⟨S50000x1, .f32⟩ : BufTy).Contents (Elt F) → (⟨S50000x96, .f32⟩ : BufTy).Contents (Elt F)),
    StableHlo.binary main_v507 main_v8 main_v508 (mulf : (⟨S50000x96, .f32⟩ : BufTy).Contents (Elt F) → (⟨S50000x96, .f32⟩ : BufTy).Contents (Elt F) → (⟨S50000x96, .f32⟩ : BufTy).Contents (Elt F)),
    StableHlo.binary main_v506 main_v508 main_v509 (addf : (⟨S50000x96, .f32⟩ : BufTy).Contents (Elt F) → (⟨S50000x96, .f32⟩ : BufTy).Contents (Elt F) → (⟨S50000x96, .f32⟩ : BufTy).Contents (Elt F)),
    StableHlo.unary main_v494 main_v510 (broadcastInDim S50000x96 ![0, 1] bcast_S50000x1_S50000x96_0_1 : (⟨S50000x1, .f32⟩ : BufTy).Contents (Elt F) → (⟨S50000x96, .f32⟩ : BufTy).Contents (Elt F)),
    StableHlo.binary main_v509 main_v510 main_v511 (Host.divf : (⟨S50000x96, .f32⟩ : BufTy).Contents (Elt F) → (⟨S50000x96, .f32⟩ : BufTy).Contents (Elt F) → (⟨S50000x96, .f32⟩ : BufTy).Contents (Elt F)),
    StableHlo.TRef.nullary main_call27.cst (constant S_ .f32 0x00000000#32),
    StableHlo.TRef.unary main_call27.cst main_call27.v0 (broadcastInDim S50000x96 ![] bcast_S_S50000x96),
    StableHlo.TRef.binary (.of main_v511 : StableHlo.TRef sig ⟨S50000x96, .f32⟩) main_call27.v0 main_call27.v1 (cmpf .ogt),
    StableHlo.TRef.nullary main_call27.cst_0 (constant S_ .f32 0x00000000#32),
    StableHlo.TRef.unary main_call27.cst_0 main_call27.v2 (broadcastInDim S50000x96 ![] bcast_S_S50000x96),
    StableHlo.TRef.binary (.of main_v511 : StableHlo.TRef sig ⟨S50000x96, .f32⟩) main_call27.v2 main_call27.v3 (cmpf .ogt),
    StableHlo.TRef.nullary main_call27.cst_1 (constant S_ .f32 0x00000000#32),
    StableHlo.TRef.unary main_call27.cst_1 main_call27.call0.v0 id,
    StableHlo.TRef.unary main_call27.call0.v0 main_call27.call0.v1 (broadcastInDim S50000x96 ![] bcast_S_S50000x96),
    StableHlo.TRef.ternary main_call27.v3 main_call27.call0.v1 (.of main_v511 : StableHlo.TRef sig ⟨S50000x96, .f32⟩) main_call27.call0.v2 select,
    StableHlo.TRef.unary main_call27.call0.v2 main_call27.v5 Host.expm1,
    StableHlo.TRef.nullary main_call27.cst_2 (constant S_ .f32 0x3F800000#32),
    StableHlo.TRef.unary main_call27.cst_2 main_call27.v6 (broadcastInDim S50000x96 ![] bcast_S_S50000x96),
    StableHlo.TRef.binary main_call27.v6 main_call27.v5 main_call27.v7 mulf,
    StableHlo.TRef.ternary main_call27.v1 (.of main_v511 : StableHlo.TRef sig ⟨S50000x96, .f32⟩) main_call27.v7 main_call27.call1.v0 select,
    StableHlo.unary main_arg4 main_v513 (broadcastInDim S96x1 ![0] bcast_S96_S96x1_0 : (⟨S96, .f32⟩ : BufTy).Contents (Elt F) → (⟨S96x1, .f32⟩ : BufTy).Contents (Elt F)),
    StableHlo.binary main_v8 main_v513 main_v514 ((fun l r => Host.dotGeneral dot_S50000x96_S96x1_S50000x1_1_0_0_1_n_n none l r) : (⟨S50000x96, .f32⟩ : BufTy).Contents (Elt F) → (⟨S96x1, .f32⟩ : BufTy).Contents (Elt F) → (⟨S50000x1, .f32⟩ : BufTy).Contents (Elt F)),
    StableHlo.unary main_arg5 main_v515 (broadcastInDim S96x1 ![0] bcast_S96_S96x1_0 : (⟨S96, .f32⟩ : BufTy).Contents (Elt F) → (⟨S96x1, .f32⟩ : BufTy).Contents (Elt F)),
    StableHlo.binary main_v8 main_v515 main_v516 ((fun l r => Host.dotGeneral dot_S50000x96_S96x1_S50000x1_1_0_0_1_n_n none l r) : (⟨S50000x96, .f32⟩ : BufTy).Contents (Elt F) → (⟨S96x1, .f32⟩ : BufTy).Contents (Elt F) → (⟨S50000x1, .f32⟩ : BufTy).Contents (Elt F)),
    StableHlo.binary main_v514 main_v516 main_v517 (addf : (⟨S50000x1, .f32⟩ : BufTy).Contents (Elt F) → (⟨S50000x1, .f32⟩ : BufTy).Contents (Elt F) → (⟨S50000x1, .f32⟩ : BufTy).Contents (Elt F)),
    StableHlo.nullary main_cst_106 (constant S_ .f32 0x00000000#32),
    StableHlo.unary main_cst_106 main_v518 (broadcastInDim S50000x1 ![] bcast_S_S50000x1 : (⟨S_, .f32⟩ : BufTy).Contents (Elt F) → (⟨S50000x1, .f32⟩ : BufTy).Contents (Elt F)),
    StableHlo.binary main_v517 main_v518 main_v519 (cmpf .oge : (⟨S50000x1, .f32⟩ : BufTy).Contents (Elt F) → (⟨S50000x1, .f32⟩ : BufTy).Contents (Elt F) → (⟨S50000x1, .i1⟩ : BufTy).Contents (Elt F)),
    StableHlo.nullary main_cst_107 (constant S_ .f32 0x3E4CCCCD#32),
    StableHlo.unary main_cst_107 main_v520 (broadcastInDim S50000x1 ![] bcast_S_S50000x1 : (⟨S_, .f32⟩ : BufTy).Contents (Elt F) → (⟨S50000x1, .f32⟩ : BufTy).Contents (Elt F)),
    StableHlo.binary main_v520 main_v517 main_v521 (mulf : (⟨S50000x1, .f32⟩ : BufTy).Contents (Elt F) → (⟨S50000x1, .f32⟩ : BufTy).Contents (Elt F) → (⟨S50000x1, .f32⟩ : BufTy).Contents (Elt F)),
    StableHlo.TRef.ternary (.of main_v519 : StableHlo.TRef sig ⟨S50000x1, .i1⟩) (.of main_v517 : StableHlo.TRef sig ⟨S50000x1, .f32⟩) (.of main_v521 : StableHlo.TRef sig ⟨S50000x1, .f32⟩) main_call28.v0 select,
    StableHlo.unary main_v522 main_v523 (Host.exp : (⟨S50000x1, .f32⟩ : BufTy).Contents (Elt F) → (⟨S50000x1, .f32⟩ : BufTy).Contents (Elt F)),
    StableHlo.unary main_arg5 main_v524 (broadcastInDim S96x1 ![0] bcast_S96_S96x1_0 : (⟨S96, .f32⟩ : BufTy).Contents (Elt F) → (⟨S96x1, .f32⟩ : BufTy).Contents (Elt F)),
    StableHlo.binary main_v512 main_v524 main_v525 ((fun l r => Host.dotGeneral dot_S50000x96_S96x1_S50000x1_1_0_0_1_n_n none l r) : (⟨S50000x96, .f32⟩ : BufTy).Contents (Elt F) → (⟨S96x1, .f32⟩ : BufTy).Contents (Elt F) → (⟨S50000x1, .f32⟩ : BufTy).Contents (Elt F)),
    StableHlo.nullary main_c_108 (constantI S_ 32 0#32),
    StableHlo.unary main_c_108 main_v526 (broadcastInDim S800000 ![] bcast_S_S800000 : (⟨S_, .i32⟩ : BufTy).Contents (Elt F) → (⟨S800000, .i32⟩ : BufTy).Contents (Elt F)),
    StableHlo.binary main_v1 main_v526 main_v527 (cmpi .slt : (⟨S800000, .i32⟩ : BufTy).Contents (Elt F) → (⟨S800000, .i32⟩ : BufTy).Contents (Elt F) → (⟨S800000, .i1⟩ : BufTy).Contents (Elt F)),
    StableHlo.nullary main_c_109 (constantI S_ 32 50000#32),
    StableHlo.unary main_c_109 main_v528 (broadcastInDim S800000 ![] bcast_S_S800000 : (⟨S_, .i32⟩ : BufTy).Contents (Elt F) → (⟨S800000, .i32⟩ : BufTy).Contents (Elt F)),
    StableHlo.binary main_v1 main_v528 main_v529 (addi : (⟨S800000, .i32⟩ : BufTy).Contents (Elt F) → (⟨S800000, .i32⟩ : BufTy).Contents (Elt F) → (⟨S800000, .i32⟩ : BufTy).Contents (Elt F)),
    StableHlo.ternary main_v527 main_v529 main_v1 main_v530 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v530 main_v531 (broadcastInDim S800000x1 ![0] bcast_S800000_S800000x1_0 : (⟨S800000, .i32⟩ : BufTy).Contents (Elt F) → (⟨S800000x1, .i32⟩ : BufTy).Contents (Elt F)),
    StableHlo.binary main_v514 main_v531 main_v532 ((fun x i => Host.gather gather_S50000x1_S800000x1_S800000x1_1_0_n_n_0_1_11 x i) : (⟨S50000x1, .f32⟩ : BufTy).Contents (Elt F) → (⟨S800000x1, .i32⟩ : BufTy).Contents (Elt F) → (⟨S800000x1, .f32⟩ : BufTy).Contents (Elt F)),
    StableHlo.nullary main_c_110 (constantI S_ 32 0#32),
    StableHlo.unary main_c_110 main_v533 (broadcastInDim S800000 ![] bcast_S_S800000 : (⟨S_, .i32⟩ : BufTy).Contents (Elt F) → (⟨S800000, .i32⟩ : BufTy).Contents (Elt F)),
    StableHlo.binary main_v3 main_v533 main_v534 (cmpi .slt : (⟨S800000, .i32⟩ : BufTy).Contents (Elt F) → (⟨S800000, .i32⟩ : BufTy).Contents (Elt F) → (⟨S800000, .i1⟩ : BufTy).Contents (Elt F)),
    StableHlo.nullary main_c_111 (constantI S_ 32 50000#32),
    StableHlo.unary main_c_111 main_v535 (broadcastInDim S800000 ![] bcast_S_S800000 : (⟨S_, .i32⟩ : BufTy).Contents (Elt F) → (⟨S800000, .i32⟩ : BufTy).Contents (Elt F)),
    StableHlo.binary main_v3 main_v535 main_v536 (addi : (⟨S800000, .i32⟩ : BufTy).Contents (Elt F) → (⟨S800000, .i32⟩ : BufTy).Contents (Elt F) → (⟨S800000, .i32⟩ : BufTy).Contents (Elt F)),
    StableHlo.ternary main_v534 main_v536 main_v3 main_v537 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v537 main_v538 (broadcastInDim S800000x1 ![0] bcast_S800000_S800000x1_0 : (⟨S800000, .i32⟩ : BufTy).Contents (Elt F) → (⟨S800000x1, .i32⟩ : BufTy).Contents (Elt F)),
    StableHlo.binary main_v525 main_v538 main_v539 ((fun x i => Host.gather gather_S50000x1_S800000x1_S800000x1_1_0_n_n_0_1_11 x i) : (⟨S50000x1, .f32⟩ : BufTy).Contents (Elt F) → (⟨S800000x1, .i32⟩ : BufTy).Contents (Elt F) → (⟨S800000x1, .f32⟩ : BufTy).Contents (Elt F)),
    StableHlo.binary main_v532 main_v539 main_v540 (addf : (⟨S800000x1, .f32⟩ : BufTy).Contents (Elt F) → (⟨S800000x1, .f32⟩ : BufTy).Contents (Elt F) → (⟨S800000x1, .f32⟩ : BufTy).Contents (Elt F)),
    StableHlo.nullary main_cst_112 (constant S_ .f32 0x00000000#32),
    StableHlo.unary main_cst_112 main_v541 (broadcastInDim S800000x1 ![] bcast_S_S800000x1 : (⟨S_, .f32⟩ : BufTy).Contents (Elt F) → (⟨S800000x1, .f32⟩ : BufTy).Contents (Elt F)),
    StableHlo.binary main_v540 main_v541 main_v542 (cmpf .oge : (⟨S800000x1, .f32⟩ : BufTy).Contents (Elt F) → (⟨S800000x1, .f32⟩ : BufTy).Contents (Elt F) → (⟨S800000x1, .i1⟩ : BufTy).Contents (Elt F)),
    StableHlo.nullary main_cst_113 (constant S_ .f32 0x3E4CCCCD#32),
    StableHlo.unary main_cst_113 main_v543 (broadcastInDim S800000x1 ![] bcast_S_S800000x1 : (⟨S_, .f32⟩ : BufTy).Contents (Elt F) → (⟨S800000x1, .f32⟩ : BufTy).Contents (Elt F)) ]

/-- Stretch 11 of the reference's line of operations (the called functions' operations in place). -/
def ops11 : List (HloOp τ sig (Elt F)) :=
  [ StableHlo.binary main_v543 main_v540 main_v544 (mulf : (⟨S800000x1, .f32⟩ : BufTy).Contents (Elt F) → (⟨S800000x1, .f32⟩ : BufTy).Contents (Elt F) → (⟨S800000x1, .f32⟩ : BufTy).Contents (Elt F)),
    StableHlo.TRef.ternary (.of main_v542 : StableHlo.TRef sig ⟨S800000x1, .i1⟩) (.of main_v540 : StableHlo.TRef sig ⟨S800000x1, .f32⟩) (.of main_v544 : StableHlo.TRef sig ⟨S800000x1, .f32⟩) main_call29.v0 select,
    StableHlo.unary main_v545 main_v546 (Host.exp : (⟨S800000x1, .f32⟩ : BufTy).Contents (Elt F) → (⟨S800000x1, .f32⟩ : BufTy).Contents (Elt F)),
    StableHlo.nullary main_cst_114 (constant S_ .f32 0x00000000#32),
    StableHlo.unary main_cst_114 main_v547 (broadcastInDim S50000x1 ![] bcast_S_S50000x1 : (⟨S_, .f32⟩ : BufTy).Contents (Elt F) → (⟨S50000x1, .f32⟩ : BufTy).Contents (Elt F)),
    StableHlo.unary main_v1 main_v548 (broadcastInDim S800000x1 ![0] bcast_S800000_S800000x1_0 : (⟨S800000, .i32⟩ : BufTy).Contents (Elt F) → (⟨S800000x1, .i32⟩ : BufTy).Contents (Elt F)),
    StableHlo.ternary main_v547 main_v548 main_v546 main_v549 ((fun x i u => Host.scatterAdd scatter_S50000x1_S800000x1_S800000x1_1_0_0_1 x i u) : (⟨S50000x1, .f32⟩ : BufTy).Contents (Elt F) → (⟨S800000x1, .i32⟩ : BufTy).Contents (Elt F) → (⟨S800000x1, .f32⟩ : BufTy).Contents (Elt F) → (⟨S50000x1, .f32⟩ : BufTy).Contents (Elt F)),
    StableHlo.binary main_v549 main_v523 main_v550 (addf : (⟨S50000x1, .f32⟩ : BufTy).Contents (Elt F) → (⟨S50000x1, .f32⟩ : BufTy).Contents (Elt F) → (⟨S50000x1, .f32⟩ : BufTy).Contents (Elt F)),
    StableHlo.nullary main_c_115 (constantI S_ 32 0#32),
    StableHlo.unary main_c_115 main_v551 (broadcastInDim S800000 ![] bcast_S_S800000 : (⟨S_, .i32⟩ : BufTy).Contents (Elt F) → (⟨S800000, .i32⟩ : BufTy).Contents (Elt F)),
    StableHlo.binary main_v3 main_v551 main_v552 (cmpi .slt : (⟨S800000, .i32⟩ : BufTy).Contents (Elt F) → (⟨S800000, .i32⟩ : BufTy).Contents (Elt F) → (⟨S800000, .i1⟩ : BufTy).Contents (Elt F)),
    StableHlo.nullary main_c_116 (constantI S_ 32 50000#32),
    StableHlo.unary main_c_116 main_v553 (broadcastInDim S800000 ![] bcast_S_S800000 : (⟨S_, .i32⟩ : BufTy).Contents (Elt F) → (⟨S800000, .i32⟩ : BufTy).Contents (Elt F)),
    StableHlo.binary main_v3 main_v553 main_v554 (addi : (⟨S800000, .i32⟩ : BufTy).Contents (Elt F) → (⟨S800000, .i32⟩ : BufTy).Contents (Elt F) → (⟨S800000, .i32⟩ : BufTy).Contents (Elt F)),
    StableHlo.ternary main_v552 main_v554 main_v3 main_v555 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v555 main_v556 (broadcastInDim S800000x1 ![0] bcast_S800000_S800000x1_0 : (⟨S800000, .i32⟩ : BufTy).Contents (Elt F) → (⟨S800000x1, .i32⟩ : BufTy).Contents (Elt F)),
    StableHlo.binary main_v512 main_v556 main_v557 ((fun x i => Host.gather gather_S50000x96_S800000x1_S800000x96_1_0_n_n_0_1_196 x i) : (⟨S50000x96, .f32⟩ : BufTy).Contents (Elt F) → (⟨S800000x1, .i32⟩ : BufTy).Contents (Elt F) → (⟨S800000x96, .f32⟩ : BufTy).Contents (Elt F)),
    StableHlo.unary main_v546 main_v558 (broadcastInDim S800000x96 ![0, 1] bcast_S800000x1_S800000x96_0_1 : (⟨S800000x1, .f32⟩ : BufTy).Contents (Elt F) → (⟨S800000x96, .f32⟩ : BufTy).Contents (Elt F)),
    StableHlo.binary main_v558 main_v557 main_v559 (mulf : (⟨S800000x96, .f32⟩ : BufTy).Contents (Elt F) → (⟨S800000x96, .f32⟩ : BufTy).Contents (Elt F) → (⟨S800000x96, .f32⟩ : BufTy).Contents (Elt F)),
    StableHlo.nullary main_cst_117 (constant S_ .f32 0x00000000#32),
    StableHlo.unary main_cst_117 main_v560 (broadcastInDim S50000x96 ![] bcast_S_S50000x96 : (⟨S_, .f32⟩ : BufTy).Contents (Elt F) → (⟨S50000x96, .f32⟩ : BufTy).Contents (Elt F)),
    StableHlo.unary main_v1 main_v561 (broadcastInDim S800000x1 ![0] bcast_S800000_S800000x1_0 : (⟨S800000, .i32⟩ : BufTy).Contents (Elt F) → (⟨S800000x1, .i32⟩ : BufTy).Contents (Elt F)),
    StableHlo.ternary main_v560 main_v561 main_v559 main_v562 ((fun x i u => Host.scatterAdd scatter_S50000x96_S800000x1_S800000x96_1_0_0_1 x i u) : (⟨S50000x96, .f32⟩ : BufTy).Contents (Elt F) → (⟨S800000x1, .i32⟩ : BufTy).Contents (Elt F) → (⟨S800000x96, .f32⟩ : BufTy).Contents (Elt F) → (⟨S50000x96, .f32⟩ : BufTy).Contents (Elt F)),
    StableHlo.unary main_v523 main_v563 (broadcastInDim S50000x96 ![0, 1] bcast_S50000x1_S50000x96_0_1 : (⟨S50000x1, .f32⟩ : BufTy).Contents (Elt F) → (⟨S50000x96, .f32⟩ : BufTy).Contents (Elt F)),
    StableHlo.binary main_v563 main_v8 main_v564 (mulf : (⟨S50000x96, .f32⟩ : BufTy).Contents (Elt F) → (⟨S50000x96, .f32⟩ : BufTy).Contents (Elt F) → (⟨S50000x96, .f32⟩ : BufTy).Contents (Elt F)),
    StableHlo.binary main_v562 main_v564 main_v565 (addf : (⟨S50000x96, .f32⟩ : BufTy).Contents (Elt F) → (⟨S50000x96, .f32⟩ : BufTy).Contents (Elt F) → (⟨S50000x96, .f32⟩ : BufTy).Contents (Elt F)),
    StableHlo.unary main_v550 main_v566 (broadcastInDim S50000x96 ![0, 1] bcast_S50000x1_S50000x96_0_1 : (⟨S50000x1, .f32⟩ : BufTy).Contents (Elt F) → (⟨S50000x96, .f32⟩ : BufTy).Contents (Elt F)),
    StableHlo.binary main_v565 main_v566 main_v567 (Host.divf : (⟨S50000x96, .f32⟩ : BufTy).Contents (Elt F) → (⟨S50000x96, .f32⟩ : BufTy).Contents (Elt F) → (⟨S50000x96, .f32⟩ : BufTy).Contents (Elt F)),
    StableHlo.TRef.nullary main_call30.cst (constant S_ .f32 0x00000000#32),
    StableHlo.TRef.unary main_call30.cst main_call30.v0 (broadcastInDim S50000x96 ![] bcast_S_S50000x96),
    StableHlo.TRef.binary (.of main_v567 : StableHlo.TRef sig ⟨S50000x96, .f32⟩) main_call30.v0 main_call30.v1 (cmpf .ogt),
    StableHlo.TRef.nullary main_call30.cst_0 (constant S_ .f32 0x00000000#32),
    StableHlo.TRef.unary main_call30.cst_0 main_call30.v2 (broadcastInDim S50000x96 ![] bcast_S_S50000x96),
    StableHlo.TRef.binary (.of main_v567 : StableHlo.TRef sig ⟨S50000x96, .f32⟩) main_call30.v2 main_call30.v3 (cmpf .ogt),
    StableHlo.TRef.nullary main_call30.cst_1 (constant S_ .f32 0x00000000#32),
    StableHlo.TRef.unary main_call30.cst_1 main_call30.call0.v0 id,
    StableHlo.TRef.unary main_call30.call0.v0 main_call30.call0.v1 (broadcastInDim S50000x96 ![] bcast_S_S50000x96),
    StableHlo.TRef.ternary main_call30.v3 main_call30.call0.v1 (.of main_v567 : StableHlo.TRef sig ⟨S50000x96, .f32⟩) main_call30.call0.v2 select,
    StableHlo.TRef.unary main_call30.call0.v2 main_call30.v5 Host.expm1,
    StableHlo.TRef.nullary main_call30.cst_2 (constant S_ .f32 0x3F800000#32),
    StableHlo.TRef.unary main_call30.cst_2 main_call30.v6 (broadcastInDim S50000x96 ![] bcast_S_S50000x96),
    StableHlo.TRef.binary main_call30.v6 main_call30.v5 main_call30.v7 mulf,
    StableHlo.TRef.ternary main_call30.v1 (.of main_v567 : StableHlo.TRef sig ⟨S50000x96, .f32⟩) main_call30.v7 main_call30.call1.v0 select,
    StableHlo.binary main_v568 main_arg6 main_v569 ((fun l r => Host.dotGeneral dot_S50000x96_S96x64_S50000x64_1_0_0_1_n_n none l r) : (⟨S50000x96, .f32⟩ : BufTy).Contents (Elt F) → (⟨S96x64, .f32⟩ : BufTy).Contents (Elt F) → (⟨S50000x64, .f32⟩ : BufTy).Contents (Elt F)),
    StableHlo.unary main_arg7 main_v570 (broadcastInDim S1x64 ![1] bcast_S64_S1x64_1 : (⟨S64, .f32⟩ : BufTy).Contents (Elt F) → (⟨S1x64, .f32⟩ : BufTy).Contents (Elt F)),
    StableHlo.unary main_v570 main_v571 (broadcastInDim S50000x64 ![0, 1] bcast_S1x64_S50000x64_0_1 : (⟨S1x64, .f32⟩ : BufTy).Contents (Elt F) → (⟨S50000x64, .f32⟩ : BufTy).Contents (Elt F)),
    StableHlo.binary main_v569 main_v571 main_v572 (addf : (⟨S50000x64, .f32⟩ : BufTy).Contents (Elt F) → (⟨S50000x64, .f32⟩ : BufTy).Contents (Elt F) → (⟨S50000x64, .f32⟩ : BufTy).Contents (Elt F)) ]

/-- The whole line. -/
def ops : List (HloOp τ sig (Elt F)) := ops0 ++ (ops1 ++ (ops2 ++ (ops3 ++ (ops4 ++ (ops5 ++ (ops6 ++ (ops7 ++ (ops8 ++ (ops9 ++ (ops10 ++ (ops11)))))))))))

set_option maxRecDepth 8192 in
set_option maxHeartbeats 4000000 in
/-- Stretch 0 of the entry function is its list run in order: the called bodies unfold at their calls. -/
theorem part0_eq (c : Dev nD) : main_part0 (F := F) c = seq ops0 := by
  simp only [main_part0, ops0, fn_relu.body, fn_where.body, fn_where_0.body, fn_where_1.body, fn_where_2.body, fn_elu.body, seq, bind_assoc, pure_bind] <;> rfl

set_option maxRecDepth 8192 in
set_option maxHeartbeats 4000000 in
/-- Stretch 1 of the entry function is its list run in order: the called bodies unfold at their calls. -/
theorem part1_eq (c : Dev nD) : main_part1 (F := F) c = seq ops1 := by
  simp only [main_part1, ops1, fn_relu.body, fn_where.body, fn_where_0.body, fn_where_1.body, fn_where_2.body, fn_elu.body, seq, bind_assoc, pure_bind] <;> rfl

set_option maxRecDepth 8192 in
set_option maxHeartbeats 4000000 in
/-- Stretch 2 of the entry function is its list run in order: the called bodies unfold at their calls. -/
theorem part2_eq (c : Dev nD) : main_part2 (F := F) c = seq ops2 := by
  simp only [main_part2, ops2, fn_relu.body, fn_where.body, fn_where_0.body, fn_where_1.body, fn_where_2.body, fn_elu.body, seq, bind_assoc, pure_bind] <;> rfl

set_option maxRecDepth 8192 in
set_option maxHeartbeats 4000000 in
/-- Stretch 3 of the entry function is its list run in order: the called bodies unfold at their calls. -/
theorem part3_eq (c : Dev nD) : main_part3 (F := F) c = seq ops3 := by
  simp only [main_part3, ops3, fn_relu.body, fn_where.body, fn_where_0.body, fn_where_1.body, fn_where_2.body, fn_elu.body, seq, bind_assoc, pure_bind] <;> rfl

set_option maxRecDepth 8192 in
set_option maxHeartbeats 4000000 in
/-- Stretch 4 of the entry function is its list run in order: the called bodies unfold at their calls. -/
theorem part4_eq (c : Dev nD) : main_part4 (F := F) c = seq ops4 := by
  simp only [main_part4, ops4, fn_relu.body, fn_where.body, fn_where_0.body, fn_where_1.body, fn_where_2.body, fn_elu.body, seq, bind_assoc, pure_bind] <;> rfl

set_option maxRecDepth 8192 in
set_option maxHeartbeats 4000000 in
/-- Stretch 5 of the entry function is its list run in order: the called bodies unfold at their calls. -/
theorem part5_eq (c : Dev nD) : main_part5 (F := F) c = seq ops5 := by
  simp only [main_part5, ops5, fn_relu.body, fn_where.body, fn_where_0.body, fn_where_1.body, fn_where_2.body, fn_elu.body, seq, bind_assoc, pure_bind] <;> rfl

set_option maxRecDepth 8192 in
set_option maxHeartbeats 4000000 in
/-- Stretch 6 of the entry function is its list run in order: the called bodies unfold at their calls. -/
theorem part6_eq (c : Dev nD) : main_part6 (F := F) c = seq ops6 := by
  simp only [main_part6, ops6, fn_relu.body, fn_where.body, fn_where_0.body, fn_where_1.body, fn_where_2.body, fn_elu.body, seq, bind_assoc, pure_bind] <;> rfl

set_option maxRecDepth 8192 in
set_option maxHeartbeats 4000000 in
/-- Stretch 7 of the entry function is its list run in order: the called bodies unfold at their calls. -/
theorem part7_eq (c : Dev nD) : main_part7 (F := F) c = seq ops7 := by
  simp only [main_part7, ops7, fn_relu.body, fn_where.body, fn_where_0.body, fn_where_1.body, fn_where_2.body, fn_elu.body, seq, bind_assoc, pure_bind] <;> rfl

set_option maxRecDepth 8192 in
set_option maxHeartbeats 4000000 in
/-- Stretch 8 of the entry function is its list run in order: the called bodies unfold at their calls. -/
theorem part8_eq (c : Dev nD) : main_part8 (F := F) c = seq ops8 := by
  simp only [main_part8, ops8, fn_relu.body, fn_where.body, fn_where_0.body, fn_where_1.body, fn_where_2.body, fn_elu.body, seq, bind_assoc, pure_bind] <;> rfl

set_option maxRecDepth 8192 in
set_option maxHeartbeats 4000000 in
/-- Stretch 9 of the entry function is its list run in order: the called bodies unfold at their calls. -/
theorem part9_eq (c : Dev nD) : main_part9 (F := F) c = seq ops9 := by
  simp only [main_part9, ops9, fn_relu.body, fn_where.body, fn_where_0.body, fn_where_1.body, fn_where_2.body, fn_elu.body, seq, bind_assoc, pure_bind] <;> rfl

set_option maxRecDepth 8192 in
set_option maxHeartbeats 4000000 in
/-- Stretch 10 of the entry function is its list run in order: the called bodies unfold at their calls. -/
theorem part10_eq (c : Dev nD) : main_part10 (F := F) c = seq ops10 := by
  simp only [main_part10, ops10, fn_relu.body, fn_where.body, fn_where_0.body, fn_where_1.body, fn_where_2.body, fn_elu.body, seq, bind_assoc, pure_bind] <;> rfl

set_option maxRecDepth 8192 in
set_option maxHeartbeats 4000000 in
/-- Stretch 11 of the entry function is its list run in order: the called bodies unfold at their calls. -/
theorem part11_eq (c : Dev nD) : main_part11 (F := F) c = seq ops11 := by
  simp only [main_part11, ops11, fn_relu.body, fn_where.body, fn_where_0.body, fn_where_1.body, fn_where_2.body, fn_elu.body, seq, bind_assoc, pure_bind] <;> rfl

set_option maxRecDepth 8192 in
/-- The entry function is the whole line run in order. -/
theorem main_eq (c : Dev nD) : main (F := F) c = seq ops := by
  simp only [ops, seq_append, ← part0_eq c, ← part1_eq c, ← part2_eq c, ← part3_eq c, ← part4_eq c, ← part5_eq c, ← part6_eq c, ← part7_eq c, ← part8_eq c, ← part9_eq c, ← part10_eq c, ← part11_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation of stretch 0 touches TensorCore buffers only. -/
theorem ops0_sub : (ops0 : List (HloOp τ sig (Elt F))).Forall fun op => op.bufs ⊆ tcRefs τ sig := by
  unfold ops0
  exact ⟨unary_bufs_sub .., reshape_bufs_sub .., unary_bufs_sub .., reshape_bufs_sub .., binary_bufs_sub .., unary_bufs_sub .., unary_bufs_sub .., binary_bufs_sub .., nullary_bufs_sub .., unary_bufs_sub .., binary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., unary_bufs_sub .., ternary_bufs_sub .., binary_bufs_sub .., nullary_bufs_sub .., unary_bufs_sub .., binary_bufs_sub .., nullary_bufs_sub ..⟩

set_option maxRecDepth 8192 in
/-- No operation of stretch 0 allocates a buffer. -/
theorem ops0_fresh : (ops0 : List (HloOp τ sig (Elt F))).Forall fun op => op.fresh = ∅ := by
  unfold ops0
  simp only [List.Forall]; repeat' constructor

set_option maxRecDepth 8192 in
/-- Every operation of stretch 1 touches TensorCore buffers only. -/
theorem ops1_sub : (ops1 : List (HloOp τ sig (Elt F))).Forall fun op => op.bufs ⊆ tcRefs τ sig := by
  unfold ops1
  exact ⟨unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., binary_bufs_sub .., binary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., nullary_bufs_sub ..⟩

set_option maxRecDepth 8192 in
/-- No operation of stretch 1 allocates a buffer. -/
theorem ops1_fresh : (ops1 : List (HloOp τ sig (Elt F))).Forall fun op => op.fresh = ∅ := by
  unfold ops1
  simp only [List.Forall]; repeat' constructor

set_option maxRecDepth 8192 in
/-- Every operation of stretch 2 touches TensorCore buffers only. -/
theorem ops2_sub : (ops2 : List (HloOp τ sig (Elt F))).Forall fun op => op.bufs ⊆ tcRefs τ sig := by
  unfold ops2
  exact ⟨unary_bufs_sub .., unary_bufs_sub .., ternary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., binary_bufs_sub .., binary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub ..⟩

set_option maxRecDepth 8192 in
/-- No operation of stretch 2 allocates a buffer. -/
theorem ops2_fresh : (ops2 : List (HloOp τ sig (Elt F))).Forall fun op => op.fresh = ∅ := by
  unfold ops2
  simp only [List.Forall]; repeat' constructor

set_option maxRecDepth 8192 in
/-- Every operation of stretch 3 touches TensorCore buffers only. -/
theorem ops3_sub : (ops3 : List (HloOp τ sig (Elt F))).Forall fun op => op.bufs ⊆ tcRefs τ sig := by
  unfold ops3
  exact ⟨unary_bufs_sub .., binary_bufs_sub .., nullary_bufs_sub .., unary_bufs_sub .., binary_bufs_sub .., ternary_bufs_sub .., unary_bufs_sub .., nullary_bufs_sub .., unary_bufs_sub .., unary_bufs_sub .., ternary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., binary_bufs_sub .., binary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub ..⟩

set_option maxRecDepth 8192 in
/-- No operation of stretch 3 allocates a buffer. -/
theorem ops3_fresh : (ops3 : List (HloOp τ sig (Elt F))).Forall fun op => op.fresh = ∅ := by
  unfold ops3
  simp only [List.Forall]; repeat' constructor

set_option maxRecDepth 8192 in
/-- Every operation of stretch 4 touches TensorCore buffers only. -/
theorem ops4_sub : (ops4 : List (HloOp τ sig (Elt F))).Forall fun op => op.bufs ⊆ tcRefs τ sig := by
  unfold ops4
  exact ⟨nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., unary_bufs_sub .., ternary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., binary_bufs_sub .., binary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., unary_bufs_sub .., binary_bufs_sub .., nullary_bufs_sub .., unary_bufs_sub .., binary_bufs_sub .., nullary_bufs_sub ..⟩

set_option maxRecDepth 8192 in
/-- No operation of stretch 4 allocates a buffer. -/
theorem ops4_fresh : (ops4 : List (HloOp τ sig (Elt F))).Forall fun op => op.fresh = ∅ := by
  unfold ops4
  simp only [List.Forall]; repeat' constructor

set_option maxRecDepth 8192 in
/-- Every operation of stretch 5 touches TensorCore buffers only. -/
theorem ops5_sub : (ops5 : List (HloOp τ sig (Elt F))).Forall fun op => op.bufs ⊆ tcRefs τ sig := by
  unfold ops5
  exact ⟨unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., unary_bufs_sub .., ternary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., binary_bufs_sub .., binary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub ..⟩

set_option maxRecDepth 8192 in
/-- No operation of stretch 5 allocates a buffer. -/
theorem ops5_fresh : (ops5 : List (HloOp τ sig (Elt F))).Forall fun op => op.fresh = ∅ := by
  unfold ops5
  simp only [List.Forall]; repeat' constructor

set_option maxRecDepth 8192 in
/-- Every operation of stretch 6 touches TensorCore buffers only. -/
theorem ops6_sub : (ops6 : List (HloOp τ sig (Elt F))).Forall fun op => op.bufs ⊆ tcRefs τ sig := by
  unfold ops6
  exact ⟨ternary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., unary_bufs_sub .., ternary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., binary_bufs_sub .., binary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., unary_bufs_sub .., binary_bufs_sub .., unary_bufs_sub ..⟩

set_option maxRecDepth 8192 in
/-- No operation of stretch 6 allocates a buffer. -/
theorem ops6_fresh : (ops6 : List (HloOp τ sig (Elt F))).Forall fun op => op.fresh = ∅ := by
  unfold ops6
  simp only [List.Forall]; repeat' constructor

set_option maxRecDepth 8192 in
/-- Every operation of stretch 7 touches TensorCore buffers only. -/
theorem ops7_sub : (ops7 : List (HloOp τ sig (Elt F))).Forall fun op => op.bufs ⊆ tcRefs τ sig := by
  unfold ops7
  exact ⟨binary_bufs_sub .., binary_bufs_sub .., nullary_bufs_sub .., unary_bufs_sub .., binary_bufs_sub .., nullary_bufs_sub .., unary_bufs_sub .., binary_bufs_sub .., ternary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., unary_bufs_sub .., ternary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub ..⟩

set_option maxRecDepth 8192 in
/-- No operation of stretch 7 allocates a buffer. -/
theorem ops7_fresh : (ops7 : List (HloOp τ sig (Elt F))).Forall fun op => op.fresh = ∅ := by
  unfold ops7
  simp only [List.Forall]; repeat' constructor

set_option maxRecDepth 8192 in
/-- Every operation of stretch 8 touches TensorCore buffers only. -/
theorem ops8_sub : (ops8 : List (HloOp τ sig (Elt F))).Forall fun op => op.bufs ⊆ tcRefs τ sig := by
  unfold ops8
  exact ⟨binary_bufs_sub .., binary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., unary_bufs_sub .., ternary_bufs_sub .., binary_bufs_sub .., nullary_bufs_sub .., unary_bufs_sub .., binary_bufs_sub .., nullary_bufs_sub .., unary_bufs_sub .., binary_bufs_sub .., ternary_bufs_sub .., unary_bufs_sub ..⟩

set_option maxRecDepth 8192 in
/-- No operation of stretch 8 allocates a buffer. -/
theorem ops8_fresh : (ops8 : List (HloOp τ sig (Elt F))).Forall fun op => op.fresh = ∅ := by
  unfold ops8
  simp only [List.Forall]; repeat' constructor

set_option maxRecDepth 8192 in
/-- Every operation of stretch 9 touches TensorCore buffers only. -/
theorem ops9_sub : (ops9 : List (HloOp τ sig (Elt F))).Forall fun op => op.bufs ⊆ tcRefs τ sig := by
  unfold ops9
  exact ⟨binary_bufs_sub .., unary_bufs_sub .., binary_bufs_sub .., nullary_bufs_sub .., unary_bufs_sub .., unary_bufs_sub .., ternary_bufs_sub .., unary_bufs_sub .., binary_bufs_sub .., binary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., unary_bufs_sub .., ternary_bufs_sub .., binary_bufs_sub ..⟩

set_option maxRecDepth 8192 in
/-- No operation of stretch 9 allocates a buffer. -/
theorem ops9_fresh : (ops9 : List (HloOp τ sig (Elt F))).Forall fun op => op.fresh = ∅ := by
  unfold ops9
  simp only [List.Forall]; repeat' constructor

set_option maxRecDepth 8192 in
/-- Every operation of stretch 10 touches TensorCore buffers only. -/
theorem ops10_sub : (ops10 : List (HloOp τ sig (Elt F))).Forall fun op => op.bufs ⊆ tcRefs τ sig := by
  unfold ops10
  exact ⟨nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., binary_bufs_sub .., binary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub ..⟩

set_option maxRecDepth 8192 in
/-- No operation of stretch 10 allocates a buffer. -/
theorem ops10_fresh : (ops10 : List (HloOp τ sig (Elt F))).Forall fun op => op.fresh = ∅ := by
  unfold ops10
  simp only [List.Forall]; repeat' constructor

set_option maxRecDepth 8192 in
/-- Every operation of stretch 11 touches TensorCore buffers only. -/
theorem ops11_sub : (ops11 : List (HloOp τ sig (Elt F))).Forall fun op => op.bufs ⊆ tcRefs τ sig := by
  unfold ops11
  exact ⟨binary_bufs_sub .., ternary_bufs_sub .., unary_bufs_sub .., nullary_bufs_sub .., unary_bufs_sub .., unary_bufs_sub .., ternary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., binary_bufs_sub .., binary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub .., unary_bufs_sub .., unary_bufs_sub .., binary_bufs_sub ..⟩

set_option maxRecDepth 8192 in
/-- No operation of stretch 11 allocates a buffer. -/
theorem ops11_fresh : (ops11 : List (HloOp τ sig (Elt F))).Forall fun op => op.fresh = ∅ := by
  unfold ops11
  simp only [List.Forall]; repeat' constructor

theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h | h | h
    exacts [List.forall_iff_forall_mem.mp ops0_sub op h, List.forall_iff_forall_mem.mp ops1_sub op h, List.forall_iff_forall_mem.mp ops2_sub op h, List.forall_iff_forall_mem.mp ops3_sub op h, List.forall_iff_forall_mem.mp ops4_sub op h, List.forall_iff_forall_mem.mp ops5_sub op h, List.forall_iff_forall_mem.mp ops6_sub op h, List.forall_iff_forall_mem.mp ops7_sub op h, List.forall_iff_forall_mem.mp ops8_sub op h, List.forall_iff_forall_mem.mp ops9_sub op h, List.forall_iff_forall_mem.mp ops10_sub op h, List.forall_iff_forall_mem.mp ops11_sub op h]

theorem ops_fresh : ∀ op ∈ (ops : List (HloOp τ sig (Elt F))), op.fresh = ∅ := fun op h => by
    simp only [ops, List.mem_append] at h
    rcases h with h | h | h | h | h | h | h | h | h | h | h | h
    exacts [List.forall_iff_forall_mem.mp ops0_fresh op h, List.forall_iff_forall_mem.mp ops1_fresh op h, List.forall_iff_forall_mem.mp ops2_fresh op h, List.forall_iff_forall_mem.mp ops3_fresh op h, List.forall_iff_forall_mem.mp ops4_fresh op h, List.forall_iff_forall_mem.mp ops5_fresh op h, List.forall_iff_forall_mem.mp ops6_fresh op h, List.forall_iff_forall_mem.mp ops7_fresh op h, List.forall_iff_forall_mem.mp ops8_fresh op h, List.forall_iff_forall_mem.mp ops9_fresh op h, List.forall_iff_forall_mem.mp ops10_fresh op h, List.forall_iff_forall_mem.mp ops11_fresh op h]

/-- From any launch memory with zero counters, every weakly fair execution of the reference terminates, nothing
    faulting, and every buffer ends at the fold of the line's operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefRun

end
-- ==== Proof.RefHops.lean ====
/-
  The reference's line of operations cut where its mathematics cuts it: the dense projection with its rectifier
  (and the two index rows), ten identical message-passing hops, and the output projection. One hop, as a function
  of the two index rows s and t, the projected features x, the current features h and the two attention vectors:

      x₁ = x·a₁ ,  w₂ = exp (lrelu (x₁ + x·a₂)) ,  h₁ = h·a₂ ,
      w₁[e] = exp (lrelu (x₁[s e] + h₁[t e])) ,
      div = Σ_{s e = ·} w₁[e] + w₂ ,  num = Σ_{s e = ·} w₁[e]·h[t e] + w₂·x ,  h' = elu (num / div) ,

  with lrelu v = v for v ≥ 0 and 0.2·v otherwise, the sums scatter-adds onto zero, the rows read by gathers after
  negative indices are wrapped. Each stretch of the line computes its function of the buffers it reads and leaves
  the others alone, so the whole line's result is the output projection of the hop iterated ten times from x.
-/
import proofs.«105152_j14491219657222_1_alg».proof.Proof.RefRun
import Idealize.ShloMosaic.Lib.Pipeline.Frame

noncomputable section

namespace Cert.ReferenceIdeal.RefHops

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

/-- The operations up to the projected features: the two index rows, the dense projection, its rectifier. -/
def pre : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.binary main_arg0 main_arg2 main_v4 ((fun l r => Host.dotGeneral dot_S50000x256_S256x96_S50000x96_1_0_0_1_n_n none l r) : (⟨S50000x256, .f32⟩ : BufTy).Contents (Elt F) → (⟨S256x96, .f32⟩ : BufTy).Contents (Elt F) → (⟨S50000x96, .f32⟩ : BufTy).Contents (Elt F)),
    StableHlo.unary main_arg3 main_v5 (broadcastInDim S1x96 ![1] bcast_S96_S1x96_1 : (⟨S96, .f32⟩ : BufTy).Contents (Elt F) → (⟨S1x96, .f32⟩ : BufTy).Contents (Elt F)),
    StableHlo.unary main_v5 main_v6 (broadcastInDim S50000x96 ![0, 1] bcast_S1x96_S50000x96_0_1 : (⟨S1x96, .f32⟩ : BufTy).Contents (Elt F) → (⟨S50000x96, .f32⟩ : BufTy).Contents (Elt F)),
    StableHlo.binary main_v4 main_v6 main_v7 (addf : (⟨S50000x96, .f32⟩ : BufTy).Contents (Elt F) → (⟨S50000x96, .f32⟩ : BufTy).Contents (Elt F) → (⟨S50000x96, .f32⟩ : BufTy).Contents (Elt F)),
    StableHlo.TRef.nullary main_call0.cst (constant S_ .f32 0x00000000#32),
    StableHlo.TRef.unary main_call0.cst main_call0.v0 (broadcastInDim S50000x96 ![] bcast_S_S50000x96),
    StableHlo.TRef.binary (.of main_v7 : StableHlo.TRef sig ⟨S50000x96, .f32⟩) main_call0.v0 main_call0.v1 maximumf ]

/-- The operations of hop 1. -/
def hop1 : List (HloOp τ sig (Elt F)) :=
  [ StableHlo.unary main_arg4 main_v9 (broadcastInDim S96x1 ![0] bcast_S96_S96x1_0 : (⟨S96, .f32⟩ : BufTy).Contents (Elt F) → (⟨S96x1, .f32⟩ : BufTy).Contents (Elt F)),
    StableHlo.binary main_v8 main_v9 main_v10 ((fun l r => Host.dotGeneral dot_S50000x96_S96x1_S50000x1_1_0_0_1_n_n none l r) : (⟨S50000x96, .f32⟩ : BufTy).Contents (Elt F) → (⟨S96x1, .f32⟩ : BufTy).Contents (Elt F) → (⟨S50000x1, .f32⟩ : BufTy).Contents (Elt F)),
    StableHlo.unary main_arg5 main_v11 (broadcastInDim S96x1 ![0] bcast_S96_S96x1_0 : (⟨S96, .f32⟩ : BufTy).Contents (Elt F) → (⟨S96x1, .f32⟩ : BufTy).Contents (Elt F)),
    StableHlo.binary main_v8 main_v11 main_v12 ((fun l r => Host.dotGeneral dot_S50000x96_S96x1_S50000x1_1_0_0_1_n_n none l r) : (⟨S50000x96, .f32⟩ : BufTy).Contents (Elt F) → (⟨S96x1, .f32⟩ : BufTy).Contents (Elt F) → (⟨S50000x1, .f32⟩ : BufTy).Contents (Elt F)),
    StableHlo.binary main_v10 main_v12 main_v13 (addf : (⟨S50000x1, .f32⟩ : BufTy).Contents (Elt F) → (⟨S50000x1, .f32⟩ : BufTy).Contents (Elt F) → (⟨S50000x1, .f32⟩ : BufTy).Contents (Elt F)),
    StableHlo.nullary main_cst (constant S_ .f32 0x00000000#32),
    StableHlo.unary main_cst main_v14 (broadcastInDim S50000x1 ![] bcast_S_S50000x1 : (⟨S_, .f32⟩ : BufTy).Contents (Elt F) → (⟨S50000x1, .f32⟩ : BufTy).Contents (Elt F)),
    StableHlo.binary main_v13 main_v14 main_v15 (cmpf .oge : (⟨S50000x1, .f32⟩ : BufTy).Contents (Elt F) → (⟨S50000x1, .f32⟩ : BufTy).Contents (Elt F) → (⟨S50000x1, .i1⟩ : BufTy).Contents (Elt F)),
    StableHlo.nullary main_cst_0 (constant S_ .f32 0x3E4CCCCD#32),
    StableHlo.unary main_cst_0 main_v16 (broadcastInDim S50000x1 ![] bcast_S_S50000x1 : (⟨S_, .f32⟩ : BufTy).Contents (Elt F) → (⟨S50000x1, .f32⟩ : BufTy).Contents (Elt F)),
    StableHlo.binary main_v16 main_v13 main_v17 (mulf : (⟨S50000x1, .f32⟩ : BufTy).Contents (Elt F) → (⟨S50000x1, .f32⟩ : BufTy).Contents (Elt F) → (⟨S50000x1, .f32⟩ : BufTy).Contents (Elt F)),
    StableHlo.TRef.ternary (.of main_v15 : StableHlo.TRef sig ⟨S50000x1, .i1⟩) (.of main_v13 : StableHlo.TRef sig ⟨S50000x1, .f32⟩) (.of main_v17 : StableHlo.TRef sig ⟨S50000x1, .f32⟩) main_call1.v0 select,
    StableHlo.unary main_v18 main_v19 (Host.exp : (⟨S50000x1, .f32⟩ : BufTy).Contents (Elt F) → (⟨S50000x1, .f32⟩ : BufTy).Contents (Elt F)),
    StableHlo.unary main_arg5 main_v20 (broadcastInDim S96x1 ![0] bcast_S96_S96x1_0 : (⟨S96, .f32⟩ : BufTy).Contents (Elt F) → (⟨S96x1, .f32⟩ : BufTy).Contents (Elt F)),
    StableHlo.binary main_v8 main_v20 main_v21 ((fun l r => Host.dotGeneral dot_S50000x96_S96x1_S50000x1_1_0_0_1_n_n none l r) : (⟨S50000x96, .f32⟩ : BufTy).Contents (Elt F) → (⟨S96x1, .f32⟩ : BufTy).Contents (Elt F) → (⟨S50000x1, .f32⟩ : BufTy).Contents (Elt F)),
    StableHlo.nullary main_c (constantI S_ 32 0#32),
    StableHlo.unary main_c main_v22 (broadcastInDim S800000 ![] bcast_S_S800000 : (⟨S_, .i32⟩ : BufTy).Contents (Elt F) → (⟨S800000, .i32⟩ : BufTy).Contents (Elt F)),
    StableHlo.binary main_v1 main_v22 main_v23 (cmpi .slt : (⟨S800000, .i32⟩ : BufTy).Contents (Elt F) → (⟨S800000, .i32⟩ : BufTy).Contents (Elt F) → (⟨S800000, .i1⟩ : BufTy).Contents (Elt F)),
    StableHlo.nullary main_c_1 (constantI S_ 32 50000#32),
    StableHlo.unary main_c_1 main_v24 (broadcastInDim S800000 ![] bcast_S_S800000 : (⟨S_, .i32⟩ : BufTy).Contents (Elt F) → (⟨S800000, .i32⟩ : BufTy).Contents (Elt F)),
    StableHlo.binary main_v1 main_v24 main_v25 (addi : (⟨S800000, .i32⟩ : BufTy).Contents (Elt F) → (⟨S800000, .i32⟩ : BufTy).Contents (Elt F) → (⟨S800000, .i32⟩ : BufTy).Contents (Elt F)),
    StableHlo.ternary main_v23 main_v25 main_v1 main_v26 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v26 main_v27 (broadcastInDim S800000x1 ![0] bcast_S800000_S800000x1_0 : (⟨S800000, .i32⟩ : BufTy).Contents (Elt F) → (⟨S800000x1, .i32⟩ : BufTy).Contents (Elt F)),
    StableHlo.binary main_v10 main_v27 main_v28 ((fun x i => Host.gather gather_S50000x1_S800000x1_S800000x1_1_0_n_n_0_1_11 x i) : (⟨S50000x1, .f32⟩ : BufTy).Contents (Elt F) → (⟨S800000x1, .i32⟩ : BufTy).Contents (Elt F) → (⟨S800000x1, .f32⟩ : BufTy).Contents (Elt F)),
    StableHlo.nullary main_c_2 (constantI S_ 32 0#32),
    StableHlo.unary main_c_2 main_v29 (broadcastInDim S800000 ![] bcast_S_S800000 : (⟨S_, .i32⟩ : BufTy).Contents (Elt F) → (⟨S800000, .i32⟩ : BufTy).Contents (Elt F)),
    StableHlo.binary main_v3 main_v29 main_v30 (cmpi .slt : (⟨S800000, .i32⟩ : BufTy).Contents (Elt F) → (⟨S800000, .i32⟩ : BufTy).Contents (Elt F) → (⟨S800000, .i1⟩ : BufTy).Contents (Elt F)),
    StableHlo.nullary main_c_3 (constantI S_ 32 50000#32),
    StableHlo.unary main_c_3 main_v31 (broadcastInDim S800000 ![] bcast_S_S800000 : (⟨S_, .i32⟩ : BufTy).Contents (Elt F) → (⟨S800000, .i32⟩ : BufTy).Contents (Elt F)),
    StableHlo.binary main_v3 main_v31 main_v32 (addi : (⟨S800000, .i32⟩ : BufTy).Contents (Elt F) → (⟨S800000, .i32⟩ : BufTy).Contents (Elt F) → (⟨S800000, .i32⟩ : BufTy).Contents (Elt F)),
    StableHlo.ternary main_v30 main_v32 main_v3 main_v33 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v33 main_v34 (broadcastInDim S800000x1 ![0] bcast_S800000_S800000x1_0 : (⟨S800000, .i32⟩ : BufTy).Contents (Elt F) → (⟨S800000x1, .i32⟩ : BufTy).Contents (Elt F)),
    StableHlo.binary main_v21 main_v34 main_v35 ((fun x i => Host.gather gather_S50000x1_S800000x1_S800000x1_1_0_n_n_0_1_11 x i) : (⟨S50000x1, .f32⟩ : BufTy).Contents (Elt F) → (⟨S800000x1, .i32⟩ : BufTy).Contents (Elt F) → (⟨S800000x1, .f32⟩ : BufTy).Contents (Elt F)),
    StableHlo.binary main_v28 main_v35 main_v36 (addf : (⟨S800000x1, .f32⟩ : BufTy).Contents (Elt F) → (⟨S800000x1, .f32⟩ : BufTy).Contents (Elt F) → (⟨S800000x1, .f32⟩ : BufTy).Contents (Elt F)),
    StableHlo.nullary main_cst_4 (constant S_ .f32 0x00000000#32),
    StableHlo.unary main_cst_4 main_v37 (broadcastInDim S800000x1 ![] bcast_S_S800000x1 : (⟨S_, .f32⟩ : BufTy).Contents (Elt F) → (⟨S800000x1, .f32⟩ : BufTy).Contents (Elt F)),
    StableHlo.binary main_v36 main_v37 main_v38 (cmpf .oge : (⟨S800000x1, .f32⟩ : BufTy).Contents (Elt F) → (⟨S800000x1, .f32⟩ : BufTy).Contents (Elt F) → (⟨S800000x1, .i1⟩ : BufTy).Contents (Elt F)),
    StableHlo.nullary main_cst_5 (constant S_ .f32 0x3E4CCCCD#32),
    StableHlo.unary main_cst_5 main_v39 (broadcastInDim S800000x1 ![] bcast_S_S800000x1 : (⟨S_, .f32⟩ : BufTy).Contents (Elt F) → (⟨S800000x1, .f32⟩ : BufTy).Contents (Elt F)),
    StableHlo.binary main_v39 main_v36 main_v40 (mulf : (⟨S800000x1, .f32⟩ : BufTy).Contents (Elt F) → (⟨S800000x1, .f32⟩ : BufTy).Contents (Elt F) → (⟨S800000x1, .f32⟩ : BufTy).Contents (Elt F)),
    StableHlo.TRef.ternary (.of main_v38 : StableHlo.TRef sig ⟨S800000x1, .i1⟩) (.of main_v36 : StableHlo.TRef sig ⟨S800000x1, .f32⟩) (.of main_v40 : StableHlo.TRef sig ⟨S800000x1, .f32⟩) main_call2.v0 select,
    StableHlo.unary main_v41 main_v42 (Host.exp : (⟨S800000x1, .f32⟩ : BufTy).Contents (Elt F) → (⟨S800000x1, .f32⟩ : BufTy).Contents (Elt F)),
    StableHlo.nullary main_cst_6 (constant S_ .f32 0x00000000#32),
    StableHlo.unary main_cst_6 main_v43 (broadcastInDim S50000x1 ![] bcast_S_S50000x1 : (⟨S_, .f32⟩ : BufTy).Contents (Elt F) → (⟨S50000x1, .f32⟩ : BufTy).Contents (Elt F)),
    StableHlo.unary main_v1 main_v44 (broadcastInDim S800000x1 ![0] bcast_S800000_S800000x1_0 : (⟨S800000, .i32⟩ : BufTy).Contents (Elt F) → (⟨S800000x1, .i32⟩ : BufTy).Contents (Elt F)),
    StableHlo.ternary main_v43 main_v44 main_v42 main_v45 ((fun x i u => Host.scatterAdd scatter_S50000x1_S800000x1_S800000x1_1_0_0_1 x i u) : (⟨S50000x1, .f32⟩ : BufTy).Contents (Elt F) → (⟨S800000x1, .i32⟩ : BufTy).Contents (Elt F) → (⟨S800000x1, .f32⟩ : BufTy).Contents (Elt F) → (⟨S50000x1, .f32⟩ : BufTy).Contents (Elt F)),
    StableHlo.binary main_v45 main_v19 main_v46 (addf : (⟨S50000x1, .f32⟩ : BufTy).Contents (Elt F) → (⟨S50000x1, .f32⟩ : BufTy).Contents (Elt F) → (⟨S50000x1, .f32⟩ : BufTy).Contents (Elt F)),
    StableHlo.nullary main_c_7 (constantI S_ 32 0#32),
    StableHlo.unary main_c_7 main_v47 (broadcastInDim S800000 ![] bcast_S_S800000 : (⟨S_, .i32⟩ : BufTy).Contents (Elt F) → (⟨S800000, .i32⟩ : BufTy).Contents (Elt F)),
    StableHlo.binary main_v3 main_v47 main_v48 (cmpi .slt : (⟨S800000, .i32⟩ : BufTy).Contents (Elt F) → (⟨S800000, .i32⟩ : BufTy).Contents (Elt F) → (⟨S800000, .i1⟩ : BufTy).Contents (Elt F)),
    StableHlo.nullary main_c_8 (constantI S_ 32 50000#32),
    StableHlo.unary main_c_8 main_v49 (broadcastInDim S800000 ![] bcast_S_S800000 : (⟨S_, .i32⟩ : BufTy).Contents (Elt F) → (⟨S800000, .i32⟩ : BufTy).Contents (Elt F)),
    StableHlo.binary main_v3 main_v49 main_v50 (addi : (⟨S800000, .i32⟩ : BufTy).Contents (Elt F) → (⟨S800000, .i32⟩ : BufTy).Contents (Elt F) → (⟨S800000, .i32⟩ : BufTy).Contents (Elt F)),
    StableHlo.ternary main_v48 main_v50 main_v3 main_v51 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v51 main_v52 (broadcastInDim S800000x1 ![0] bcast_S800000_S800000x1_0 : (⟨S800000, .i32⟩ : BufTy).Contents (Elt F) → (⟨S800000x1, .i32⟩ : BufTy).Contents (Elt F)),
    StableHlo.binary main_v8 main_v52 main_v53 ((fun x i => Host.gather gather_S50000x96_S800000x1_S800000x96_1_0_n_n_0_1_196 x i) : (⟨S50000x96, .f32⟩ : BufTy).Contents (Elt F) → (⟨S800000x1, .i32⟩ : BufTy).Contents (Elt F) → (⟨S800000x96, .f32⟩ : BufTy).Contents (Elt F)),
    StableHlo.unary main_v42 main_v54 (broadcastInDim S800000x96 ![0, 1] bcast_S800000x1_S800000x96_0_1 : (⟨S800000x1, .f32⟩ : BufTy).Contents (Elt F) → (⟨S800000x96, .f32⟩ : BufTy).Contents (Elt F)),
    StableHlo.binary main_v54 main_v53 main_v55 (mulf : (⟨S800000x96, .f32⟩ : BufTy).Contents (Elt F) → (⟨S800000x96, .f32⟩ : BufTy).Contents (Elt F) → (⟨S800000x96, .f32⟩ : BufTy).Contents (Elt F)),
    StableHlo.nullary main_cst_9 (constant S_ .f32 0x00000000#32),
    StableHlo.unary main_cst_9 main_v56 (broadcastInDim S50000x96 ![] bcast_S_S50000x96 : (⟨S_, .f32⟩ : BufTy).Contents (Elt F) → (⟨S50000x96, .f32⟩ : BufTy).Contents (Elt F)),
    StableHlo.unary main_v1 main_v57 (broadcastInDim S800000x1 ![0] bcast_S800000_S800000x1_0 : (⟨S800000, .i32⟩ : BufTy).Contents (Elt F) → (⟨S800000x1, .i32⟩ : BufTy).Contents (Elt F)),
    StableHlo.ternary main_v56 main_v57 main_v55 main_v58 ((fun x i u => Host.scatterAdd scatter_S50000x96_S800000x1_S800000x96_1_0_0_1 x i u) : (⟨S50000x96, .f32⟩ : BufTy).Contents (Elt F) → (⟨S800000x1, .i32⟩ : BufTy).Contents (Elt F) → (⟨S800000x96, .f32⟩ : BufTy).Contents (Elt F) → (⟨S50000x96, .f32⟩ : BufTy).Contents (Elt F)),
    StableHlo.unary main_v19 main_v59 (broadcastInDim S50000x96 ![0, 1] bcast_S50000x1_S50000x96_0_1 : (⟨S50000x1, .f32⟩ : BufTy).Contents (Elt F) → (⟨S50000x96, .f32⟩ : BufTy).Contents (Elt F)),
    StableHlo.binary main_v59 main_v8 main_v60 (mulf : (⟨S50000x96, .f32⟩ : BufTy).Contents (Elt F) → (⟨S50000x96, .f32⟩ : BufTy).Contents (Elt F) → (⟨S50000x96, .f32⟩ : BufTy).Contents (Elt F)),
    StableHlo.binary main_v58 main_v60 main_v61 (addf : (⟨S50000x96, .f32⟩ : BufTy).Contents (Elt F) → (⟨S50000x96, .f32⟩ : BufTy).Contents (Elt F) → (⟨S50000x96, .f32⟩ : BufTy).Contents (Elt F)),
    StableHlo.unary main_v46 main_v62 (broadcastInDim S50000x96 ![0, 1] bcast_S50000x1_S50000x96_0_1 : (⟨S50000x1, .f32⟩ : BufTy).Contents (Elt F) → (⟨S50000x96, .f32⟩ : BufTy).Contents (Elt F)),
    StableHlo.binary main_v61 main_v62 main_v63 (Host.divf : (⟨S50000x96, .f32⟩ : BufTy).Contents (Elt F) → (⟨S50000x96, .f32⟩ : BufTy).Contents (Elt F) → (⟨S50000x96, .f32⟩ : BufTy).Contents (Elt F)),
    StableHlo.TRef.nullary main_call3.cst (constant S_ .f32 0x00000000#32),
    StableHlo.TRef.unary main_call3.cst main_call3.v0 (broadcastInDim S50000x96 ![] bcast_S_S50000x96),
    StableHlo.TRef.binary (.of main_v63 : StableHlo.TRef sig ⟨S50000x96, .f32⟩) main_call3.v0 main_call3.v1 (cmpf .ogt),
    StableHlo.TRef.nullary main_call3.cst_0 (constant S_ .f32 0x00000000#32),
    StableHlo.TRef.unary main_call3.cst_0 main_call3.v2 (broadcastInDim S50000x96 ![] bcast_S_S50000x96),
    StableHlo.TRef.binary (.of main_v63 : StableHlo.TRef sig ⟨S50000x96, .f32⟩) main_call3.v2 main_call3.v3 (cmpf .ogt),
    StableHlo.TRef.nullary main_call3.cst_1 (constant S_ .f32 0x00000000#32),
    StableHlo.TRef.unary main_call3.cst_1 main_call3.call0.v0 id,
    StableHlo.TRef.unary main_call3.call0.v0 main_call3.call0.v1 (broadcastInDim S50000x96 ![] bcast_S_S50000x96),
    StableHlo.TRef.ternary main_call3.v3 main_call3.call0.v1 (.of main_v63 : StableHlo.TRef sig ⟨S50000x96, .f32⟩) main_call3.call0.v2 select,
    StableHlo.TRef.unary main_call3.call0.v2 main_call3.v5 Host.expm1,
    StableHlo.TRef.nullary main_call3.cst_2 (constant S_ .f32 0x3F800000#32),
    StableHlo.TRef.unary main_call3.cst_2 main_call3.v6 (broadcastInDim S50000x96 ![] bcast_S_S50000x96),
    StableHlo.TRef.binary main_call3.v6 main_call3.v5 main_call3.v7 mulf,
    StableHlo.TRef.ternary main_call3.v1 (.of main_v63 : StableHlo.TRef sig ⟨S50000x96, .f32⟩) main_call3.v7 main_call3.call1.v0 select ]

/-- The operations of hop 2. -/
def hop2 : List (HloOp τ sig (Elt F)) :=
  [ StableHlo.unary main_arg4 main_v65 (broadcastInDim S96x1 ![0] bcast_S96_S96x1_0 : (⟨S96, .f32⟩ : BufTy).Contents (Elt F) → (⟨S96x1, .f32⟩ : BufTy).Contents (Elt F)),
    StableHlo.binary main_v8 main_v65 main_v66 ((fun l r => Host.dotGeneral dot_S50000x96_S96x1_S50000x1_1_0_0_1_n_n none l r) : (⟨S50000x96, .f32⟩ : BufTy).Contents (Elt F) → (⟨S96x1, .f32⟩ : BufTy).Contents (Elt F) → (⟨S50000x1, .f32⟩ : BufTy).Contents (Elt F)),
    StableHlo.unary main_arg5 main_v67 (broadcastInDim S96x1 ![0] bcast_S96_S96x1_0 : (⟨S96, .f32⟩ : BufTy).Contents (Elt F) → (⟨S96x1, .f32⟩ : BufTy).Contents (Elt F)),
    StableHlo.binary main_v8 main_v67 main_v68 ((fun l r => Host.dotGeneral dot_S50000x96_S96x1_S50000x1_1_0_0_1_n_n none l r) : (⟨S50000x96, .f32⟩ : BufTy).Contents (Elt F) → (⟨S96x1, .f32⟩ : BufTy).Contents (Elt F) → (⟨S50000x1, .f32⟩ : BufTy).Contents (Elt F)),
    StableHlo.binary main_v66 main_v68 main_v69 (addf : (⟨S50000x1, .f32⟩ : BufTy).Contents (Elt F) → (⟨S50000x1, .f32⟩ : BufTy).Contents (Elt F) → (⟨S50000x1, .f32⟩ : BufTy).Contents (Elt F)),
    StableHlo.nullary main_cst_10 (constant S_ .f32 0x00000000#32),
    StableHlo.unary main_cst_10 main_v70 (broadcastInDim S50000x1 ![] bcast_S_S50000x1 : (⟨S_, .f32⟩ : BufTy).Contents (Elt F) → (⟨S50000x1, .f32⟩ : BufTy).Contents (Elt F)),
    StableHlo.binary main_v69 main_v70 main_v71 (cmpf .oge : (⟨S50000x1, .f32⟩ : BufTy).Contents (Elt F) → (⟨S50000x1, .f32⟩ : BufTy).Contents (Elt F) → (⟨S50000x1, .i1⟩ : BufTy).Contents (Elt F)),
    StableHlo.nullary main_cst_11 (constant S_ .f32 0x3E4CCCCD#32),
    StableHlo.unary main_cst_11 main_v72 (broadcastInDim S50000x1 ![] bcast_S_S50000x1 : (⟨S_, .f32⟩ : BufTy).Contents (Elt F) → (⟨S50000x1, .f32⟩ : BufTy).Contents (Elt F)),
    StableHlo.binary main_v72 main_v69 main_v73 (mulf : (⟨S50000x1, .f32⟩ : BufTy).Contents (Elt F) → (⟨S50000x1, .f32⟩ : BufTy).Contents (Elt F) → (⟨S50000x1, .f32⟩ : BufTy).Contents (Elt F)),
    StableHlo.TRef.ternary (.of main_v71 : StableHlo.TRef sig ⟨S50000x1, .i1⟩) (.of main_v69 : StableHlo.TRef sig ⟨S50000x1, .f32⟩) (.of main_v73 : StableHlo.TRef sig ⟨S50000x1, .f32⟩) main_call4.v0 select,
    StableHlo.unary main_v74 main_v75 (Host.exp : (⟨S50000x1, .f32⟩ : BufTy).Contents (Elt F) → (⟨S50000x1, .f32⟩ : BufTy).Contents (Elt F)),
    StableHlo.unary main_arg5 main_v76 (broadcastInDim S96x1 ![0] bcast_S96_S96x1_0 : (⟨S96, .f32⟩ : BufTy).Contents (Elt F) → (⟨S96x1, .f32⟩ : BufTy).Contents (Elt F)),
    StableHlo.binary main_v64 main_v76 main_v77 ((fun l r => Host.dotGeneral dot_S50000x96_S96x1_S50000x1_1_0_0_1_n_n none l r) : (⟨S50000x96, .f32⟩ : BufTy).Contents (Elt F) → (⟨S96x1, .f32⟩ : BufTy).Contents (Elt F) → (⟨S50000x1, .f32⟩ : BufTy).Contents (Elt F)),
    StableHlo.nullary main_c_12 (constantI S_ 32 0#32),
    StableHlo.unary main_c_12 main_v78 (broadcastInDim S800000 ![] bcast_S_S800000 : (⟨S_, .i32⟩ : BufTy).Contents (Elt F) → (⟨S800000, .i32⟩ : BufTy).Contents (Elt F)),
    StableHlo.binary main_v1 main_v78 main_v79 (cmpi .slt : (⟨S800000, .i32⟩ : BufTy).Contents (Elt F) → (⟨S800000, .i32⟩ : BufTy).Contents (Elt F) → (⟨S800000, .i1⟩ : BufTy).Contents (Elt F)),
    StableHlo.nullary main_c_13 (constantI S_ 32 50000#32),
    StableHlo.unary main_c_13 main_v80 (broadcastInDim S800000 ![] bcast_S_S800000 : (⟨S_, .i32⟩ : BufTy).Contents (Elt F) → (⟨S800000, .i32⟩ : BufTy).Contents (Elt F)),
    StableHlo.binary main_v1 main_v80 main_v81 (addi : (⟨S800000, .i32⟩ : BufTy).Contents (Elt F) → (⟨S800000, .i32⟩ : BufTy).Contents (Elt F) → (⟨S800000, .i32⟩ : BufTy).Contents (Elt F)),
    StableHlo.ternary main_v79 main_v81 main_v1 main_v82 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v82 main_v83 (broadcastInDim S800000x1 ![0] bcast_S800000_S800000x1_0 : (⟨S800000, .i32⟩ : BufTy).Contents (Elt F) → (⟨S800000x1, .i32⟩ : BufTy).Contents (Elt F)),
    StableHlo.binary main_v66 main_v83 main_v84 ((fun x i => Host.gather gather_S50000x1_S800000x1_S800000x1_1_0_n_n_0_1_11 x i) : (⟨S50000x1, .f32⟩ : BufTy).Contents (Elt F) → (⟨S800000x1, .i32⟩ : BufTy).Contents (Elt F) → (⟨S800000x1, .f32⟩ : BufTy).Contents (Elt F)),
    StableHlo.nullary main_c_14 (constantI S_ 32 0#32),
    StableHlo.unary main_c_14 main_v85 (broadcastInDim S800000 ![] bcast_S_S800000 : (⟨S_, .i32⟩ : BufTy).Contents (Elt F) → (⟨S800000, .i32⟩ : BufTy).Contents (Elt F)),
    StableHlo.binary main_v3 main_v85 main_v86 (cmpi .slt : (⟨S800000, .i32⟩ : BufTy).Contents (Elt F) → (⟨S800000, .i32⟩ : BufTy).Contents (Elt F) → (⟨S800000, .i1⟩ : BufTy).Contents (Elt F)),
    StableHlo.nullary main_c_15 (constantI S_ 32 50000#32),
    StableHlo.unary main_c_15 main_v87 (broadcastInDim S800000 ![] bcast_S_S800000 : (⟨S_, .i32⟩ : BufTy).Contents (Elt F) → (⟨S800000, .i32⟩ : BufTy).Contents (Elt F)),
    StableHlo.binary main_v3 main_v87 main_v88 (addi : (⟨S800000, .i32⟩ : BufTy).Contents (Elt F) → (⟨S800000, .i32⟩ : BufTy).Contents (Elt F) → (⟨S800000, .i32⟩ : BufTy).Contents (Elt F)),
    StableHlo.ternary main_v86 main_v88 main_v3 main_v89 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v89 main_v90 (broadcastInDim S800000x1 ![0] bcast_S800000_S800000x1_0 : (⟨S800000, .i32⟩ : BufTy).Contents (Elt F) → (⟨S800000x1, .i32⟩ : BufTy).Contents (Elt F)),
    StableHlo.binary main_v77 main_v90 main_v91 ((fun x i => Host.gather gather_S50000x1_S800000x1_S800000x1_1_0_n_n_0_1_11 x i) : (⟨S50000x1, .f32⟩ : BufTy).Contents (Elt F) → (⟨S800000x1, .i32⟩ : BufTy).Contents (Elt F) → (⟨S800000x1, .f32⟩ : BufTy).Contents (Elt F)),
    StableHlo.binary main_v84 main_v91 main_v92 (addf : (⟨S800000x1, .f32⟩ : BufTy).Contents (Elt F) → (⟨S800000x1, .f32⟩ : BufTy).Contents (Elt F) → (⟨S800000x1, .f32⟩ : BufTy).Contents (Elt F)),
    StableHlo.nullary main_cst_16 (constant S_ .f32 0x00000000#32),
    StableHlo.unary main_cst_16 main_v93 (broadcastInDim S800000x1 ![] bcast_S_S800000x1 : (⟨S_, .f32⟩ : BufTy).Contents (Elt F) → (⟨S800000x1, .f32⟩ : BufTy).Contents (Elt F)),
    StableHlo.binary main_v92 main_v93 main_v94 (cmpf .oge : (⟨S800000x1, .f32⟩ : BufTy).Contents (Elt F) → (⟨S800000x1, .f32⟩ : BufTy).Contents (Elt F) → (⟨S800000x1, .i1⟩ : BufTy).Contents (Elt F)),
    StableHlo.nullary main_cst_17 (constant S_ .f32 0x3E4CCCCD#32),
    StableHlo.unary main_cst_17 main_v95 (broadcastInDim S800000x1 ![] bcast_S_S800000x1 : (⟨S_, .f32⟩ : BufTy).Contents (Elt F) → (⟨S800000x1, .f32⟩ : BufTy).Contents (Elt F)),
    StableHlo.binary main_v95 main_v92 main_v96 (mulf : (⟨S800000x1, .f32⟩ : BufTy).Contents (Elt F) → (⟨S800000x1, .f32⟩ : BufTy).Contents (Elt F) → (⟨S800000x1, .f32⟩ : BufTy).Contents (Elt F)),
    StableHlo.TRef.ternary (.of main_v94 : StableHlo.TRef sig ⟨S800000x1, .i1⟩) (.of main_v92 : StableHlo.TRef sig ⟨S800000x1, .f32⟩) (.of main_v96 : StableHlo.TRef sig ⟨S800000x1, .f32⟩) main_call5.v0 select,
    StableHlo.unary main_v97 main_v98 (Host.exp : (⟨S800000x1, .f32⟩ : BufTy).Contents (Elt F) → (⟨S800000x1, .f32⟩ : BufTy).Contents (Elt F)),
    StableHlo.nullary main_cst_18 (constant S_ .f32 0x00000000#32),
    StableHlo.unary main_cst_18 main_v99 (broadcastInDim S50000x1 ![] bcast_S_S50000x1 : (⟨S_, .f32⟩ : BufTy).Contents (Elt F) → (⟨S50000x1, .f32⟩ : BufTy).Contents (Elt F)),
    StableHlo.unary main_v1 main_v100 (broadcastInDim S800000x1 ![0] bcast_S800000_S800000x1_0 : (⟨S800000, .i32⟩ : BufTy).Contents (Elt F) → (⟨S800000x1, .i32⟩ : BufTy).Contents (Elt F)),
    StableHlo.ternary main_v99 main_v100 main_v98 main_v101 ((fun x i u => Host.scatterAdd scatter_S50000x1_S800000x1_S800000x1_1_0_0_1 x i u) : (⟨S50000x1, .f32⟩ : BufTy).Contents (Elt F) → (⟨S800000x1, .i32⟩ : BufTy).Contents (Elt F) → (⟨S800000x1, .f32⟩ : BufTy).Contents (Elt F) → (⟨S50000x1, .f32⟩ : BufTy).Contents (Elt F)),
    StableHlo.binary main_v101 main_v75 main_v102 (addf : (⟨S50000x1, .f32⟩ : BufTy).Contents (Elt F) → (⟨S50000x1, .f32⟩ : BufTy).Contents (Elt F) → (⟨S50000x1, .f32⟩ : BufTy).Contents (Elt F)),
    StableHlo.nullary main_c_19 (constantI S_ 32 0#32),
    StableHlo.unary main_c_19 main_v103 (broadcastInDim S800000 ![] bcast_S_S800000 : (⟨S_, .i32⟩ : BufTy).Contents (Elt F) → (⟨S800000, .i32⟩ : BufTy).Contents (Elt F)),
    StableHlo.binary main_v3 main_v103 main_v104 (cmpi .slt : (⟨S800000, .i32⟩ : BufTy).Contents (Elt F) → (⟨S800000, .i32⟩ : BufTy).Contents (Elt F) → (⟨S800000, .i1⟩ : BufTy).Contents (Elt F)),
    StableHlo.nullary main_c_20 (constantI S_ 32 50000#32),
    StableHlo.unary main_c_20 main_v105 (broadcastInDim S800000 ![] bcast_S_S800000 : (⟨S_, .i32⟩ : BufTy).Contents (Elt F) → (⟨S800000, .i32⟩ : BufTy).Contents (Elt F)),
    StableHlo.binary main_v3 main_v105 main_v106 (addi : (⟨S800000, .i32⟩ : BufTy).Contents (Elt F) → (⟨S800000, .i32⟩ : BufTy).Contents (Elt F) → (⟨S800000, .i32⟩ : BufTy).Contents (Elt F)),
    StableHlo.ternary main_v104 main_v106 main_v3 main_v107 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v107 main_v108 (broadcastInDim S800000x1 ![0] bcast_S800000_S800000x1_0 : (⟨S800000, .i32⟩ : BufTy).Contents (Elt F) → (⟨S800000x1, .i32⟩ : BufTy).Contents (Elt F)),
    StableHlo.binary main_v64 main_v108 main_v109 ((fun x i => Host.gather gather_S50000x96_S800000x1_S800000x96_1_0_n_n_0_1_196 x i) : (⟨S50000x96, .f32⟩ : BufTy).Contents (Elt F) → (⟨S800000x1, .i32⟩ : BufTy).Contents (Elt F) → (⟨S800000x96, .f32⟩ : BufTy).Contents (Elt F)),
    StableHlo.unary main_v98 main_v110 (broadcastInDim S800000x96 ![0, 1] bcast_S800000x1_S800000x96_0_1 : (⟨S800000x1, .f32⟩ : BufTy).Contents (Elt F) → (⟨S800000x96, .f32⟩ : BufTy).Contents (Elt F)),
    StableHlo.binary main_v110 main_v109 main_v111 (mulf : (⟨S800000x96, .f32⟩ : BufTy).Contents (Elt F) → (⟨S800000x96, .f32⟩ : BufTy).Contents (Elt F) → (⟨S800000x96, .f32⟩ : BufTy).Contents (Elt F)),
    StableHlo.nullary main_cst_21 (constant S_ .f32 0x00000000#32),
    StableHlo.unary main_cst_21 main_v112 (broadcastInDim S50000x96 ![] bcast_S_S50000x96 : (⟨S_, .f32⟩ : BufTy).Contents (Elt F) → (⟨S50000x96, .f32⟩ : BufTy).Contents (Elt F)),
    StableHlo.unary main_v1 main_v113 (broadcastInDim S800000x1 ![0] bcast_S800000_S800000x1_0 : (⟨S800000, .i32⟩ : BufTy).Contents (Elt F) → (⟨S800000x1, .i32⟩ : BufTy).Contents (Elt F)),
    StableHlo.ternary main_v112 main_v113 main_v111 main_v114 ((fun x i u => Host.scatterAdd scatter_S50000x96_S800000x1_S800000x96_1_0_0_1 x i u) : (⟨S50000x96, .f32⟩ : BufTy).Contents (Elt F) → (⟨S800000x1, .i32⟩ : BufTy).Contents (Elt F) → (⟨S800000x96, .f32⟩ : BufTy).Contents (Elt F) → (⟨S50000x96, .f32⟩ : BufTy).Contents (Elt F)),
    StableHlo.unary main_v75 main_v115 (broadcastInDim S50000x96 ![0, 1] bcast_S50000x1_S50000x96_0_1 : (⟨S50000x1, .f32⟩ : BufTy).Contents (Elt F) → (⟨S50000x96, .f32⟩ : BufTy).Contents (Elt F)),
    StableHlo.binary main_v115 main_v8 main_v116 (mulf : (⟨S50000x96, .f32⟩ : BufTy).Contents (Elt F) → (⟨S50000x96, .f32⟩ : BufTy).Contents (Elt F) → (⟨S50000x96, .f32⟩ : BufTy).Contents (Elt F)),
    StableHlo.binary main_v114 main_v116 main_v117 (addf : (⟨S50000x96, .f32⟩ : BufTy).Contents (Elt F) → (⟨S50000x96, .f32⟩ : BufTy).Contents (Elt F) → (⟨S50000x96, .f32⟩ : BufTy).Contents (Elt F)),
    StableHlo.unary main_v102 main_v118 (broadcastInDim S50000x96 ![0, 1] bcast_S50000x1_S50000x96_0_1 : (⟨S50000x1, .f32⟩ : BufTy).Contents (Elt F) → (⟨S50000x96, .f32⟩ : BufTy).Contents (Elt F)),
    StableHlo.binary main_v117 main_v118 main_v119 (Host.divf : (⟨S50000x96, .f32⟩ : BufTy).Contents (Elt F) → (⟨S50000x96, .f32⟩ : BufTy).Contents (Elt F) → (⟨S50000x96, .f32⟩ : BufTy).Contents (Elt F)),
    StableHlo.TRef.nullary main_call6.cst (constant S_ .f32 0x00000000#32),
    StableHlo.TRef.unary main_call6.cst main_call6.v0 (broadcastInDim S50000x96 ![] bcast_S_S50000x96),
    StableHlo.TRef.binary (.of main_v119 : StableHlo.TRef sig ⟨S50000x96, .f32⟩) main_call6.v0 main_call6.v1 (cmpf .ogt),
    StableHlo.TRef.nullary main_call6.cst_0 (constant S_ .f32 0x00000000#32),
    StableHlo.TRef.unary main_call6.cst_0 main_call6.v2 (broadcastInDim S50000x96 ![] bcast_S_S50000x96),
    StableHlo.TRef.binary (.of main_v119 : StableHlo.TRef sig ⟨S50000x96, .f32⟩) main_call6.v2 main_call6.v3 (cmpf .ogt),
    StableHlo.TRef.nullary main_call6.cst_1 (constant S_ .f32 0x00000000#32),
    StableHlo.TRef.unary main_call6.cst_1 main_call6.call0.v0 id,
    StableHlo.TRef.unary main_call6.call0.v0 main_call6.call0.v1 (broadcastInDim S50000x96 ![] bcast_S_S50000x96),
    StableHlo.TRef.ternary main_call6.v3 main_call6.call0.v1 (.of main_v119 : StableHlo.TRef sig ⟨S50000x96, .f32⟩) main_call6.call0.v2 select,
    StableHlo.TRef.unary main_call6.call0.v2 main_call6.v5 Host.expm1,
    StableHlo.TRef.nullary main_call6.cst_2 (constant S_ .f32 0x3F800000#32),
    StableHlo.TRef.unary main_call6.cst_2 main_call6.v6 (broadcastInDim S50000x96 ![] bcast_S_S50000x96),
    StableHlo.TRef.binary main_call6.v6 main_call6.v5 main_call6.v7 mulf,
    StableHlo.TRef.ternary main_call6.v1 (.of main_v119 : StableHlo.TRef sig ⟨S50000x96, .f32⟩) main_call6.v7 main_call6.call1.v0 select ]

/-- The operations of hop 3. -/
def hop3 : List (HloOp τ sig (Elt F)) :=
  [ StableHlo.unary main_arg4 main_v121 (broadcastInDim S96x1 ![0] bcast_S96_S96x1_0 : (⟨S96, .f32⟩ : BufTy).Contents (Elt F) → (⟨S96x1, .f32⟩ : BufTy).Contents (Elt F)),
    StableHlo.binary main_v8 main_v121 main_v122 ((fun l r => Host.dotGeneral dot_S50000x96_S96x1_S50000x1_1_0_0_1_n_n none l r) : (⟨S50000x96, .f32⟩ : BufTy).Contents (Elt F) → (⟨S96x1, .f32⟩ : BufTy).Contents (Elt F) → (⟨S50000x1, .f32⟩ : BufTy).Contents (Elt F)),
    StableHlo.unary main_arg5 main_v123 (broadcastInDim S96x1 ![0] bcast_S96_S96x1_0 : (⟨S96, .f32⟩ : BufTy).Contents (Elt F) → (⟨S96x1, .f32⟩ : BufTy).Contents (Elt F)),
    StableHlo.binary main_v8 main_v123 main_v124 ((fun l r => Host.dotGeneral dot_S50000x96_S96x1_S50000x1_1_0_0_1_n_n none l r) : (⟨S50000x96, .f32⟩ : BufTy).Contents (Elt F) → (⟨S96x1, .f32⟩ : BufTy).Contents (Elt F) → (⟨S50000x1, .f32⟩ : BufTy).Contents (Elt F)),
    StableHlo.binary main_v122 main_v124 main_v125 (addf : (⟨S50000x1, .f32⟩ : BufTy).Contents (Elt F) → (⟨S50000x1, .f32⟩ : BufTy).Contents (Elt F) → (⟨S50000x1, .f32⟩ : BufTy).Contents (Elt F)),
    StableHlo.nullary main_cst_22 (constant S_ .f32 0x00000000#32),
    StableHlo.unary main_cst_22 main_v126 (broadcastInDim S50000x1 ![] bcast_S_S50000x1 : (⟨S_, .f32⟩ : BufTy).Contents (Elt F) → (⟨S50000x1, .f32⟩ : BufTy).Contents (Elt F)),
    StableHlo.binary main_v125 main_v126 main_v127 (cmpf .oge : (⟨S50000x1, .f32⟩ : BufTy).Contents (Elt F) → (⟨S50000x1, .f32⟩ : BufTy).Contents (Elt F) → (⟨S50000x1, .i1⟩ : BufTy).Contents (Elt F)),
    StableHlo.nullary main_cst_23 (constant S_ .f32 0x3E4CCCCD#32),
    StableHlo.unary main_cst_23 main_v128 (broadcastInDim S50000x1 ![] bcast_S_S50000x1 : (⟨S_, .f32⟩ : BufTy).Contents (Elt F) → (⟨S50000x1, .f32⟩ : BufTy).Contents (Elt F)),
    StableHlo.binary main_v128 main_v125 main_v129 (mulf : (⟨S50000x1, .f32⟩ : BufTy).Contents (Elt F) → (⟨S50000x1, .f32⟩ : BufTy).Contents (Elt F) → (⟨S50000x1, .f32⟩ : BufTy).Contents (Elt F)),
    StableHlo.TRef.ternary (.of main_v127 : StableHlo.TRef sig ⟨S50000x1, .i1⟩) (.of main_v125 : StableHlo.TRef sig ⟨S50000x1, .f32⟩) (.of main_v129 : StableHlo.TRef sig ⟨S50000x1, .f32⟩) main_call7.v0 select,
    StableHlo.unary main_v130 main_v131 (Host.exp : (⟨S50000x1, .f32⟩ : BufTy).Contents (Elt F) → (⟨S50000x1, .f32⟩ : BufTy).Contents (Elt F)),
    StableHlo.unary main_arg5 main_v132 (broadcastInDim S96x1 ![0] bcast_S96_S96x1_0 : (⟨S96, .f32⟩ : BufTy).Contents (Elt F) → (⟨S96x1, .f32⟩ : BufTy).Contents (Elt F)),
    StableHlo.binary main_v120 main_v132 main_v133 ((fun l r => Host.dotGeneral dot_S50000x96_S96x1_S50000x1_1_0_0_1_n_n none l r) : (⟨S50000x96, .f32⟩ : BufTy).Contents (Elt F) → (⟨S96x1, .f32⟩ : BufTy).Contents (Elt F) → (⟨S50000x1, .f32⟩ : BufTy).Contents (Elt F)),
    StableHlo.nullary main_c_24 (constantI S_ 32 0#32),
    StableHlo.unary main_c_24 main_v134 (broadcastInDim S800000 ![] bcast_S_S800000 : (⟨S_, .i32⟩ : BufTy).Contents (Elt F) → (⟨S800000, .i32⟩ : BufTy).Contents (Elt F)),
    StableHlo.binary main_v1 main_v134 main_v135 (cmpi .slt : (⟨S800000, .i32⟩ : BufTy).Contents (Elt F) → (⟨S800000, .i32⟩ : BufTy).Contents (Elt F) → (⟨S800000, .i1⟩ : BufTy).Contents (Elt F)),
    StableHlo.nullary main_c_25 (constantI S_ 32 50000#32),
    StableHlo.unary main_c_25 main_v136 (broadcastInDim S800000 ![] bcast_S_S800000 : (⟨S_, .i32⟩ : BufTy).Contents (Elt F) → (⟨S800000, .i32⟩ : BufTy).Contents (Elt F)),
    StableHlo.binary main_v1 main_v136 main_v137 (addi : (⟨S800000, .i32⟩ : BufTy).Contents (Elt F) → (⟨S800000, .i32⟩ : BufTy).Contents (Elt F) → (⟨S800000, .i32⟩ : BufTy).Contents (Elt F)),
    StableHlo.ternary main_v135 main_v137 main_v1 main_v138 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v138 main_v139 (broadcastInDim S800000x1 ![0] bcast_S800000_S800000x1_0 : (⟨S800000, .i32⟩ : BufTy).Contents (Elt F) → (⟨S800000x1, .i32⟩ : BufTy).Contents (Elt F)),
    StableHlo.binary main_v122 main_v139 main_v140 ((fun x i => Host.gather gather_S50000x1_S800000x1_S800000x1_1_0_n_n_0_1_11 x i) : (⟨S50000x1, .f32⟩ : BufTy).Contents (Elt F) → (⟨S800000x1, .i32⟩ : BufTy).Contents (Elt F) → (⟨S800000x1, .f32⟩ : BufTy).Contents (Elt F)),
    StableHlo.nullary main_c_26 (constantI S_ 32 0#32),
    StableHlo.unary main_c_26 main_v141 (broadcastInDim S800000 ![] bcast_S_S800000 : (⟨S_, .i32⟩ : BufTy).Contents (Elt F) → (⟨S800000, .i32⟩ : BufTy).Contents (Elt F)),
    StableHlo.binary main_v3 main_v141 main_v142 (cmpi .slt : (⟨S800000, .i32⟩ : BufTy).Contents (Elt F) → (⟨S800000, .i32⟩ : BufTy).Contents (Elt F) → (⟨S800000, .i1⟩ : BufTy).Contents (Elt F)),
    StableHlo.nullary main_c_27 (constantI S_ 32 50000#32),
    StableHlo.unary main_c_27 main_v143 (broadcastInDim S800000 ![] bcast_S_S800000 : (⟨S_, .i32⟩ : BufTy).Contents (Elt F) → (⟨S800000, .i32⟩ : BufTy).Contents (Elt F)),
    StableHlo.binary main_v3 main_v143 main_v144 (addi : (⟨S800000, .i32⟩ : BufTy).Contents (Elt F) → (⟨S800000, .i32⟩ : BufTy).Contents (Elt F) → (⟨S800000, .i32⟩ : BufTy).Contents (Elt F)),
    StableHlo.ternary main_v142 main_v144 main_v3 main_v145 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v145 main_v146 (broadcastInDim S800000x1 ![0] bcast_S800000_S800000x1_0 : (⟨S800000, .i32⟩ : BufTy).Contents (Elt F) → (⟨S800000x1, .i32⟩ : BufTy).Contents (Elt F)),
    StableHlo.binary main_v133 main_v146 main_v147 ((fun x i => Host.gather gather_S50000x1_S800000x1_S800000x1_1_0_n_n_0_1_11 x i) : (⟨S50000x1, .f32⟩ : BufTy).Contents (Elt F) → (⟨S800000x1, .i32⟩ : BufTy).Contents (Elt F) → (⟨S800000x1, .f32⟩ : BufTy).Contents (Elt F)),
    StableHlo.binary main_v140 main_v147 main_v148 (addf : (⟨S800000x1, .f32⟩ : BufTy).Contents (Elt F) → (⟨S800000x1, .f32⟩ : BufTy).Contents (Elt F) → (⟨S800000x1, .f32⟩ : BufTy).Contents (Elt F)),
    StableHlo.nullary main_cst_28 (constant S_ .f32 0x00000000#32),
    StableHlo.unary main_cst_28 main_v149 (broadcastInDim S800000x1 ![] bcast_S_S800000x1 : (⟨S_, .f32⟩ : BufTy).Contents (Elt F) → (⟨S800000x1, .f32⟩ : BufTy).Contents (Elt F)),
    StableHlo.binary main_v148 main_v149 main_v150 (cmpf .oge : (⟨S800000x1, .f32⟩ : BufTy).Contents (Elt F) → (⟨S800000x1, .f32⟩ : BufTy).Contents (Elt F) → (⟨S800000x1, .i1⟩ : BufTy).Contents (Elt F)),
    StableHlo.nullary main_cst_29 (constant S_ .f32 0x3E4CCCCD#32),
    StableHlo.unary main_cst_29 main_v151 (broadcastInDim S800000x1 ![] bcast_S_S800000x1 : (⟨S_, .f32⟩ : BufTy).Contents (Elt F) → (⟨S800000x1, .f32⟩ : BufTy).Contents (Elt F)),
    StableHlo.binary main_v151 main_v148 main_v152 (mulf : (⟨S800000x1, .f32⟩ : BufTy).Contents (Elt F) → (⟨S800000x1, .f32⟩ : BufTy).Contents (Elt F) → (⟨S800000x1, .f32⟩ : BufTy).Contents (Elt F)),
    StableHlo.TRef.ternary (.of main_v150 : StableHlo.TRef sig ⟨S800000x1, .i1⟩) (.of main_v148 : StableHlo.TRef sig ⟨S800000x1, .f32⟩) (.of main_v152 : StableHlo.TRef sig ⟨S800000x1, .f32⟩) main_call8.v0 select,
    StableHlo.unary main_v153 main_v154 (Host.exp : (⟨S800000x1, .f32⟩ : BufTy).Contents (Elt F) → (⟨S800000x1, .f32⟩ : BufTy).Contents (Elt F)),
    StableHlo.nullary main_cst_30 (constant S_ .f32 0x00000000#32),
    StableHlo.unary main_cst_30 main_v155 (broadcastInDim S50000x1 ![] bcast_S_S50000x1 : (⟨S_, .f32⟩ : BufTy).Contents (Elt F) → (⟨S50000x1, .f32⟩ : BufTy).Contents (Elt F)),
    StableHlo.unary main_v1 main_v156 (broadcastInDim S800000x1 ![0] bcast_S800000_S800000x1_0 : (⟨S800000, .i32⟩ : BufTy).Contents (Elt F) → (⟨S800000x1, .i32⟩ : BufTy).Contents (Elt F)),
    StableHlo.ternary main_v155 main_v156 main_v154 main_v157 ((fun x i u => Host.scatterAdd scatter_S50000x1_S800000x1_S800000x1_1_0_0_1 x i u) : (⟨S50000x1, .f32⟩ : BufTy).Contents (Elt F) → (⟨S800000x1, .i32⟩ : BufTy).Contents (Elt F) → (⟨S800000x1, .f32⟩ : BufTy).Contents (Elt F) → (⟨S50000x1, .f32⟩ : BufTy).Contents (Elt F)),
    StableHlo.binary main_v157 main_v131 main_v158 (addf : (⟨S50000x1, .f32⟩ : BufTy).Contents (Elt F) → (⟨S50000x1, .f32⟩ : BufTy).Contents (Elt F) → (⟨S50000x1, .f32⟩ : BufTy).Contents (Elt F)),
    StableHlo.nullary main_c_31 (constantI S_ 32 0#32),
    StableHlo.unary main_c_31 main_v159 (broadcastInDim S800000 ![] bcast_S_S800000 : (⟨S_, .i32⟩ : BufTy).Contents (Elt F) → (⟨S800000, .i32⟩ : BufTy).Contents (Elt F)),
    StableHlo.binary main_v3 main_v159 main_v160 (cmpi .slt : (⟨S800000, .i32⟩ : BufTy).Contents (Elt F) → (⟨S800000, .i32⟩ : BufTy).Contents (Elt F) → (⟨S800000, .i1⟩ : BufTy).Contents (Elt F)),
    StableHlo.nullary main_c_32 (constantI S_ 32 50000#32),
    StableHlo.unary main_c_32 main_v161 (broadcastInDim S800000 ![] bcast_S_S800000 : (⟨S_, .i32⟩ : BufTy).Contents (Elt F) → (⟨S800000, .i32⟩ : BufTy).Contents (Elt F)),
    StableHlo.binary main_v3 main_v161 main_v162 (addi : (⟨S800000, .i32⟩ : BufTy).Contents (Elt F) → (⟨S800000, .i32⟩ : BufTy).Contents (Elt F) → (⟨S800000, .i32⟩ : BufTy).Contents (Elt F)),
    StableHlo.ternary main_v160 main_v162 main_v3 main_v163 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v163 main_v164 (broadcastInDim S800000x1 ![0] bcast_S800000_S800000x1_0 : (⟨S800000, .i32⟩ : BufTy).Contents (Elt F) → (⟨S800000x1, .i32⟩ : BufTy).Contents (Elt F)),
    StableHlo.binary main_v120 main_v164 main_v165 ((fun x i => Host.gather gather_S50000x96_S800000x1_S800000x96_1_0_n_n_0_1_196 x i) : (⟨S50000x96, .f32⟩ : BufTy).Contents (Elt F) → (⟨S800000x1, .i32⟩ : BufTy).Contents (Elt F) → (⟨S800000x96, .f32⟩ : BufTy).Contents (Elt F)),
    StableHlo.unary main_v154 main_v166 (broadcastInDim S800000x96 ![0, 1] bcast_S800000x1_S800000x96_0_1 : (⟨S800000x1, .f32⟩ : BufTy).Contents (Elt F) → (⟨S800000x96, .f32⟩ : BufTy).Contents (Elt F)),
    StableHlo.binary main_v166 main_v165 main_v167 (mulf : (⟨S800000x96, .f32⟩ : BufTy).Contents (Elt F) → (⟨S800000x96, .f32⟩ : BufTy).Contents (Elt F) → (⟨S800000x96, .f32⟩ : BufTy).Contents (Elt F)),
    StableHlo.nullary main_cst_33 (constant S_ .f32 0x00000000#32),
    StableHlo.unary main_cst_33 main_v168 (broadcastInDim S50000x96 ![] bcast_S_S50000x96 : (⟨S_, .f32⟩ : BufTy).Contents (Elt F) → (⟨S50000x96, .f32⟩ : BufTy).Contents (Elt F)),
    StableHlo.unary main_v1 main_v169 (broadcastInDim S800000x1 ![0] bcast_S800000_S800000x1_0 : (⟨S800000, .i32⟩ : BufTy).Contents (Elt F) → (⟨S800000x1, .i32⟩ : BufTy).Contents (Elt F)),
    StableHlo.ternary main_v168 main_v169 main_v167 main_v170 ((fun x i u => Host.scatterAdd scatter_S50000x96_S800000x1_S800000x96_1_0_0_1 x i u) : (⟨S50000x96, .f32⟩ : BufTy).Contents (Elt F) → (⟨S800000x1, .i32⟩ : BufTy).Contents (Elt F) → (⟨S800000x96, .f32⟩ : BufTy).Contents (Elt F) → (⟨S50000x96, .f32⟩ : BufTy).Contents (Elt F)),
    StableHlo.unary main_v131 main_v171 (broadcastInDim S50000x96 ![0, 1] bcast_S50000x1_S50000x96_0_1 : (⟨S50000x1, .f32⟩ : BufTy).Contents (Elt F) → (⟨S50000x96, .f32⟩ : BufTy).Contents (Elt F)),
    StableHlo.binary main_v171 main_v8 main_v172 (mulf : (⟨S50000x96, .f32⟩ : BufTy).Contents (Elt F) → (⟨S50000x96, .f32⟩ : BufTy).Contents (Elt F) → (⟨S50000x96, .f32⟩ : BufTy).Contents (Elt F)),
    StableHlo.binary main_v170 main_v172 main_v173 (addf : (⟨S50000x96, .f32⟩ : BufTy).Contents (Elt F) → (⟨S50000x96, .f32⟩ : BufTy).Contents (Elt F) → (⟨S50000x96, .f32⟩ : BufTy).Contents (Elt F)),
    StableHlo.unary main_v158 main_v174 (broadcastInDim S50000x96 ![0, 1] bcast_S50000x1_S50000x96_0_1 : (⟨S50000x1, .f32⟩ : BufTy).Contents (Elt F) → (⟨S50000x96, .f32⟩ : BufTy).Contents (Elt F)),
    StableHlo.binary main_v173 main_v174 main_v175 (Host.divf : (⟨S50000x96, .f32⟩ : BufTy).Contents (Elt F) → (⟨S50000x96, .f32⟩ : BufTy).Contents (Elt F) → (⟨S50000x96, .f32⟩ : BufTy).Contents (Elt F)),
    StableHlo.TRef.nullary main_call9.cst (constant S_ .f32 0x00000000#32),
    StableHlo.TRef.unary main_call9.cst main_call9.v0 (broadcastInDim S50000x96 ![] bcast_S_S50000x96),
    StableHlo.TRef.binary (.of main_v175 : StableHlo.TRef sig ⟨S50000x96, .f32⟩) main_call9.v0 main_call9.v1 (cmpf .ogt),
    StableHlo.TRef.nullary main_call9.cst_0 (constant S_ .f32 0x00000000#32),
    StableHlo.TRef.unary main_call9.cst_0 main_call9.v2 (broadcastInDim S50000x96 ![] bcast_S_S50000x96),
    StableHlo.TRef.binary (.of main_v175 : StableHlo.TRef sig ⟨S50000x96, .f32⟩) main_call9.v2 main_call9.v3 (cmpf .ogt),
    StableHlo.TRef.nullary main_call9.cst_1 (constant S_ .f32 0x00000000#32),
    StableHlo.TRef.unary main_call9.cst_1 main_call9.call0.v0 id,
    StableHlo.TRef.unary main_call9.call0.v0 main_call9.call0.v1 (broadcastInDim S50000x96 ![] bcast_S_S50000x96),
    StableHlo.TRef.ternary main_call9.v3 main_call9.call0.v1 (.of main_v175 : StableHlo.TRef sig ⟨S50000x96, .f32⟩) main_call9.call0.v2 select,
    StableHlo.TRef.unary main_call9.call0.v2 main_call9.v5 Host.expm1,
    StableHlo.TRef.nullary main_call9.cst_2 (constant S_ .f32 0x3F800000#32),
    StableHlo.TRef.unary main_call9.cst_2 main_call9.v6 (broadcastInDim S50000x96 ![] bcast_S_S50000x96),
    StableHlo.TRef.binary main_call9.v6 main_call9.v5 main_call9.v7 mulf,
    StableHlo.TRef.ternary main_call9.v1 (.of main_v175 : StableHlo.TRef sig ⟨S50000x96, .f32⟩) main_call9.v7 main_call9.call1.v0 select ]

/-- The operations of hop 4. -/
def hop4 : List (HloOp τ sig (Elt F)) :=
  [ StableHlo.unary main_arg4 main_v177 (broadcastInDim S96x1 ![0] bcast_S96_S96x1_0 : (⟨S96, .f32⟩ : BufTy).Contents (Elt F) → (⟨S96x1, .f32⟩ : BufTy).Contents (Elt F)),
    StableHlo.binary main_v8 main_v177 main_v178 ((fun l r => Host.dotGeneral dot_S50000x96_S96x1_S50000x1_1_0_0_1_n_n none l r) : (⟨S50000x96, .f32⟩ : BufTy).Contents (Elt F) → (⟨S96x1, .f32⟩ : BufTy).Contents (Elt F) → (⟨S50000x1, .f32⟩ : BufTy).Contents (Elt F)),
    StableHlo.unary main_arg5 main_v179 (broadcastInDim S96x1 ![0] bcast_S96_S96x1_0 : (⟨S96, .f32⟩ : BufTy).Contents (Elt F) → (⟨S96x1, .f32⟩ : BufTy).Contents (Elt F)),
    StableHlo.binary main_v8 main_v179 main_v180 ((fun l r => Host.dotGeneral dot_S50000x96_S96x1_S50000x1_1_0_0_1_n_n none l r) : (⟨S50000x96, .f32⟩ : BufTy).Contents (Elt F) → (⟨S96x1, .f32⟩ : BufTy).Contents (Elt F) → (⟨S50000x1, .f32⟩ : BufTy).Contents (Elt F)),
    StableHlo.binary main_v178 main_v180 main_v181 (addf : (⟨S50000x1, .f32⟩ : BufTy).Contents (Elt F) → (⟨S50000x1, .f32⟩ : BufTy).Contents (Elt F) → (⟨S50000x1, .f32⟩ : BufTy).Contents (Elt F)),
    StableHlo.nullary main_cst_34 (constant S_ .f32 0x00000000#32),
    StableHlo.unary main_cst_34 main_v182 (broadcastInDim S50000x1 ![] bcast_S_S50000x1 : (⟨S_, .f32⟩ : BufTy).Contents (Elt F) → (⟨S50000x1, .f32⟩ : BufTy).Contents (Elt F)),
    StableHlo.binary main_v181 main_v182 main_v183 (cmpf .oge : (⟨S50000x1, .f32⟩ : BufTy).Contents (Elt F) → (⟨S50000x1, .f32⟩ : BufTy).Contents (Elt F) → (⟨S50000x1, .i1⟩ : BufTy).Contents (Elt F)),
    StableHlo.nullary main_cst_35 (constant S_ .f32 0x3E4CCCCD#32),
    StableHlo.unary main_cst_35 main_v184 (broadcastInDim S50000x1 ![] bcast_S_S50000x1 : (⟨S_, .f32⟩ : BufTy).Contents (Elt F) → (⟨S50000x1, .f32⟩ : BufTy).Contents (Elt F)),
    StableHlo.binary main_v184 main_v181 main_v185 (mulf : (⟨S50000x1, .f32⟩ : BufTy).Contents (Elt F) → (⟨S50000x1, .f32⟩ : BufTy).Contents (Elt F) → (⟨S50000x1, .f32⟩ : BufTy).Contents (Elt F)),
    StableHlo.TRef.ternary (.of main_v183 : StableHlo.TRef sig ⟨S50000x1, .i1⟩) (.of main_v181 : StableHlo.TRef sig ⟨S50000x1, .f32⟩) (.of main_v185 : StableHlo.TRef sig ⟨S50000x1, .f32⟩) main_call10.v0 select,
    StableHlo.unary main_v186 main_v187 (Host.exp : (⟨S50000x1, .f32⟩ : BufTy).Contents (Elt F) → (⟨S50000x1, .f32⟩ : BufTy).Contents (Elt F)),
    StableHlo.unary main_arg5 main_v188 (broadcastInDim S96x1 ![0] bcast_S96_S96x1_0 : (⟨S96, .f32⟩ : BufTy).Contents (Elt F) → (⟨S96x1, .f32⟩ : BufTy).Contents (Elt F)),
    StableHlo.binary main_v176 main_v188 main_v189 ((fun l r => Host.dotGeneral dot_S50000x96_S96x1_S50000x1_1_0_0_1_n_n none l r) : (⟨S50000x96, .f32⟩ : BufTy).Contents (Elt F) → (⟨S96x1, .f32⟩ : BufTy).Contents (Elt F) → (⟨S50000x1, .f32⟩ : BufTy).Contents (Elt F)),
    StableHlo.nullary main_c_36 (constantI S_ 32 0#32),
    StableHlo.unary main_c_36 main_v190 (broadcastInDim S800000 ![] bcast_S_S800000 : (⟨S_, .i32⟩ : BufTy).Contents (Elt F) → (⟨S800000, .i32⟩ : BufTy).Contents (Elt F)),
    StableHlo.binary main_v1 main_v190 main_v191 (cmpi .slt : (⟨S800000, .i32⟩ : BufTy).Contents (Elt F) → (⟨S800000, .i32⟩ : BufTy).Contents (Elt F) → (⟨S800000, .i1⟩ : BufTy).Contents (Elt F)),
    StableHlo.nullary main_c_37 (constantI S_ 32 50000#32),
    StableHlo.unary main_c_37 main_v192 (broadcastInDim S800000 ![] bcast_S_S800000 : (⟨S_, .i32⟩ : BufTy).Contents (Elt F) → (⟨S800000, .i32⟩ : BufTy).Contents (Elt F)),
    StableHlo.binary main_v1 main_v192 main_v193 (addi : (⟨S800000, .i32⟩ : BufTy).Contents (Elt F) → (⟨S800000, .i32⟩ : BufTy).Contents (Elt F) → (⟨S800000, .i32⟩ : BufTy).Contents (Elt F)),
    StableHlo.ternary main_v191 main_v193 main_v1 main_v194 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v194 main_v195 (broadcastInDim S800000x1 ![0] bcast_S800000_S800000x1_0 : (⟨S800000, .i32⟩ : BufTy).Contents (Elt F) → (⟨S800000x1, .i32⟩ : BufTy).Contents (Elt F)),
    StableHlo.binary main_v178 main_v195 main_v196 ((fun x i => Host.gather gather_S50000x1_S800000x1_S800000x1_1_0_n_n_0_1_11 x i) : (⟨S50000x1, .f32⟩ : BufTy).Contents (Elt F) → (⟨S800000x1, .i32⟩ : BufTy).Contents (Elt F) → (⟨S800000x1, .f32⟩ : BufTy).Contents (Elt F)),
    StableHlo.nullary main_c_38 (constantI S_ 32 0#32),
    StableHlo.unary main_c_38 main_v197 (broadcastInDim S800000 ![] bcast_S_S800000 : (⟨S_, .i32⟩ : BufTy).Contents (Elt F) → (⟨S800000, .i32⟩ : BufTy).Contents (Elt F)),
    StableHlo.binary main_v3 main_v197 main_v198 (cmpi .slt : (⟨S800000, .i32⟩ : BufTy).Contents (Elt F) → (⟨S800000, .i32⟩ : BufTy).Contents (Elt F) → (⟨S800000, .i1⟩ : BufTy).Contents (Elt F)),
    StableHlo.nullary main_c_39 (constantI S_ 32 50000#32),
    StableHlo.unary main_c_39 main_v199 (broadcastInDim S800000 ![] bcast_S_S800000 : (⟨S_, .i32⟩ : BufTy).Contents (Elt F) → (⟨S800000, .i32⟩ : BufTy).Contents (Elt F)),
    StableHlo.binary main_v3 main_v199 main_v200 (addi : (⟨S800000, .i32⟩ : BufTy).Contents (Elt F) → (⟨S800000, .i32⟩ : BufTy).Contents (Elt F) → (⟨S800000, .i32⟩ : BufTy).Contents (Elt F)),
    StableHlo.ternary main_v198 main_v200 main_v3 main_v201 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v201 main_v202 (broadcastInDim S800000x1 ![0] bcast_S800000_S800000x1_0 : (⟨S800000, .i32⟩ : BufTy).Contents (Elt F) → (⟨S800000x1, .i32⟩ : BufTy).Contents (Elt F)),
    StableHlo.binary main_v189 main_v202 main_v203 ((fun x i => Host.gather gather_S50000x1_S800000x1_S800000x1_1_0_n_n_0_1_11 x i) : (⟨S50000x1, .f32⟩ : BufTy).Contents (Elt F) → (⟨S800000x1, .i32⟩ : BufTy).Contents (Elt F) → (⟨S800000x1, .f32⟩ : BufTy).Contents (Elt F)),
    StableHlo.binary main_v196 main_v203 main_v204 (addf : (⟨S800000x1, .f32⟩ : BufTy).Contents (Elt F) → (⟨S800000x1, .f32⟩ : BufTy).Contents (Elt F) → (⟨S800000x1, .f32⟩ : BufTy).Contents (Elt F)),
    StableHlo.nullary main_cst_40 (constant S_ .f32 0x00000000#32),
    StableHlo.unary main_cst_40 main_v205 (broadcastInDim S800000x1 ![] bcast_S_S800000x1 : (⟨S_, .f32⟩ : BufTy).Contents (Elt F) → (⟨S800000x1, .f32⟩ : BufTy).Contents (Elt F)),
    StableHlo.binary main_v204 main_v205 main_v206 (cmpf .oge : (⟨S800000x1, .f32⟩ : BufTy).Contents (Elt F) → (⟨S800000x1, .f32⟩ : BufTy).Contents (Elt F) → (⟨S800000x1, .i1⟩ : BufTy).Contents (Elt F)),
    StableHlo.nullary main_cst_41 (constant S_ .f32 0x3E4CCCCD#32),
    StableHlo.unary main_cst_41 main_v207 (broadcastInDim S800000x1 ![] bcast_S_S800000x1 : (⟨S_, .f32⟩ : BufTy).Contents (Elt F) → (⟨S800000x1, .f32⟩ : BufTy).Contents (Elt F)),
    StableHlo.binary main_v207 main_v204 main_v208 (mulf : (⟨S800000x1, .f32⟩ : BufTy).Contents (Elt F) → (⟨S800000x1, .f32⟩ : BufTy).Contents (Elt F) → (⟨S800000x1, .f32⟩ : BufTy).Contents (Elt F)),
    StableHlo.TRef.ternary (.of main_v206 : StableHlo.TRef sig ⟨S800000x1, .i1⟩) (.of main_v204 : StableHlo.TRef sig ⟨S800000x1, .f32⟩) (.of main_v208 : StableHlo.TRef sig ⟨S800000x1, .f32⟩) main_call11.v0 select,
    StableHlo.unary main_v209 main_v210 (Host.exp : (⟨S800000x1, .f32⟩ : BufTy).Contents (Elt F) → (⟨S800000x1, .f32⟩ : BufTy).Contents (Elt F)),
    StableHlo.nullary main_cst_42 (constant S_ .f32 0x00000000#32),
    StableHlo.unary main_cst_42 main_v211 (broadcastInDim S50000x1 ![] bcast_S_S50000x1 : (⟨S_, .f32⟩ : BufTy).Contents (Elt F) → (⟨S50000x1, .f32⟩ : BufTy).Contents (Elt F)),
    StableHlo.unary main_v1 main_v212 (broadcastInDim S800000x1 ![0] bcast_S800000_S800000x1_0 : (⟨S800000, .i32⟩ : BufTy).Contents (Elt F) → (⟨S800000x1, .i32⟩ : BufTy).Contents (Elt F)),
    StableHlo.ternary main_v211 main_v212 main_v210 main_v213 ((fun x i u => Host.scatterAdd scatter_S50000x1_S800000x1_S800000x1_1_0_0_1 x i u) : (⟨S50000x1, .f32⟩ : BufTy).Contents (Elt F) → (⟨S800000x1, .i32⟩ : BufTy).Contents (Elt F) → (⟨S800000x1, .f32⟩ : BufTy).Contents (Elt F) → (⟨S50000x1, .f32⟩ : BufTy).Contents (Elt F)),
    StableHlo.binary main_v213 main_v187 main_v214 (addf : (⟨S50000x1, .f32⟩ : BufTy).Contents (Elt F) → (⟨S50000x1, .f32⟩ : BufTy).Contents (Elt F) → (⟨S50000x1, .f32⟩ : BufTy).Contents (Elt F)),
    StableHlo.nullary main_c_43 (constantI S_ 32 0#32),
    StableHlo.unary main_c_43 main_v215 (broadcastInDim S800000 ![] bcast_S_S800000 : (⟨S_, .i32⟩ : BufTy).Contents (Elt F) → (⟨S800000, .i32⟩ : BufTy).Contents (Elt F)),
    StableHlo.binary main_v3 main_v215 main_v216 (cmpi .slt : (⟨S800000, .i32⟩ : BufTy).Contents (Elt F) → (⟨S800000, .i32⟩ : BufTy).Contents (Elt F) → (⟨S800000, .i1⟩ : BufTy).Contents (Elt F)),
    StableHlo.nullary main_c_44 (constantI S_ 32 50000#32),
    StableHlo.unary main_c_44 main_v217 (broadcastInDim S800000 ![] bcast_S_S800000 : (⟨S_, .i32⟩ : BufTy).Contents (Elt F) → (⟨S800000, .i32⟩ : BufTy).Contents (Elt F)),
    StableHlo.binary main_v3 main_v217 main_v218 (addi : (⟨S800000, .i32⟩ : BufTy).Contents (Elt F) → (⟨S800000, .i32⟩ : BufTy).Contents (Elt F) → (⟨S800000, .i32⟩ : BufTy).Contents (Elt F)),
    StableHlo.ternary main_v216 main_v218 main_v3 main_v219 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v219 main_v220 (broadcastInDim S800000x1 ![0] bcast_S800000_S800000x1_0 : (⟨S800000, .i32⟩ : BufTy).Contents (Elt F) → (⟨S800000x1, .i32⟩ : BufTy).Contents (Elt F)),
    StableHlo.binary main_v176 main_v220 main_v221 ((fun x i => Host.gather gather_S50000x96_S800000x1_S800000x96_1_0_n_n_0_1_196 x i) : (⟨S50000x96, .f32⟩ : BufTy).Contents (Elt F) → (⟨S800000x1, .i32⟩ : BufTy).Contents (Elt F) → (⟨S800000x96, .f32⟩ : BufTy).Contents (Elt F)),
    StableHlo.unary main_v210 main_v222 (broadcastInDim S800000x96 ![0, 1] bcast_S800000x1_S800000x96_0_1 : (⟨S800000x1, .f32⟩ : BufTy).Contents (Elt F) → (⟨S800000x96, .f32⟩ : BufTy).Contents (Elt F)),
    StableHlo.binary main_v222 main_v221 main_v223 (mulf : (⟨S800000x96, .f32⟩ : BufTy).Contents (Elt F) → (⟨S800000x96, .f32⟩ : BufTy).Contents (Elt F) → (⟨S800000x96, .f32⟩ : BufTy).Contents (Elt F)),
    StableHlo.nullary main_cst_45 (constant S_ .f32 0x00000000#32),
    StableHlo.unary main_cst_45 main_v224 (broadcastInDim S50000x96 ![] bcast_S_S50000x96 : (⟨S_, .f32⟩ : BufTy).Contents (Elt F) → (⟨S50000x96, .f32⟩ : BufTy).Contents (Elt F)),
    StableHlo.unary main_v1 main_v225 (broadcastInDim S800000x1 ![0] bcast_S800000_S800000x1_0 : (⟨S800000, .i32⟩ : BufTy).Contents (Elt F) → (⟨S800000x1, .i32⟩ : BufTy).Contents (Elt F)),
    StableHlo.ternary main_v224 main_v225 main_v223 main_v226 ((fun x i u => Host.scatterAdd scatter_S50000x96_S800000x1_S800000x96_1_0_0_1 x i u) : (⟨S50000x96, .f32⟩ : BufTy).Contents (Elt F) → (⟨S800000x1, .i32⟩ : BufTy).Contents (Elt F) → (⟨S800000x96, .f32⟩ : BufTy).Contents (Elt F) → (⟨S50000x96, .f32⟩ : BufTy).Contents (Elt F)),
    StableHlo.unary main_v187 main_v227 (broadcastInDim S50000x96 ![0, 1] bcast_S50000x1_S50000x96_0_1 : (⟨S50000x1, .f32⟩ : BufTy).Contents (Elt F) → (⟨S50000x96, .f32⟩ : BufTy).Contents (Elt F)),
    StableHlo.binary main_v227 main_v8 main_v228 (mulf : (⟨S50000x96, .f32⟩ : BufTy).Contents (Elt F) → (⟨S50000x96, .f32⟩ : BufTy).Contents (Elt F) → (⟨S50000x96, .f32⟩ : BufTy).Contents (Elt F)),
    StableHlo.binary main_v226 main_v228 main_v229 (addf : (⟨S50000x96, .f32⟩ : BufTy).Contents (Elt F) → (⟨S50000x96, .f32⟩ : BufTy).Contents (Elt F) → (⟨S50000x96, .f32⟩ : BufTy).Contents (Elt F)),
    StableHlo.unary main_v214 main_v230 (broadcastInDim S50000x96 ![0, 1] bcast_S50000x1_S50000x96_0_1 : (⟨S50000x1, .f32⟩ : BufTy).Contents (Elt F) → (⟨S50000x96, .f32⟩ : BufTy).Contents (Elt F)),
    StableHlo.binary main_v229 main_v230 main_v231 (Host.divf : (⟨S50000x96, .f32⟩ : BufTy).Contents (Elt F) → (⟨S50000x96, .f32⟩ : BufTy).Contents (Elt F) → (⟨S50000x96, .f32⟩ : BufTy).Contents (Elt F)),
    StableHlo.TRef.nullary main_call12.cst (constant S_ .f32 0x00000000#32),
    StableHlo.TRef.unary main_call12.cst main_call12.v0 (broadcastInDim S50000x96 ![] bcast_S_S50000x96),
    StableHlo.TRef.binary (.of main_v231 : StableHlo.TRef sig ⟨S50000x96, .f32⟩) main_call12.v0 main_call12.v1 (cmpf .ogt),
    StableHlo.TRef.nullary main_call12.cst_0 (constant S_ .f32 0x00000000#32),
    StableHlo.TRef.unary main_call12.cst_0 main_call12.v2 (broadcastInDim S50000x96 ![] bcast_S_S50000x96),
    StableHlo.TRef.binary (.of main_v231 : StableHlo.TRef sig ⟨S50000x96, .f32⟩) main_call12.v2 main_call12.v3 (cmpf .ogt),
    StableHlo.TRef.nullary main_call12.cst_1 (constant S_ .f32 0x00000000#32),
    StableHlo.TRef.unary main_call12.cst_1 main_call12.call0.v0 id,
    StableHlo.TRef.unary main_call12.call0.v0 main_call12.call0.v1 (broadcastInDim S50000x96 ![] bcast_S_S50000x96),
    StableHlo.TRef.ternary main_call12.v3 main_call12.call0.v1 (.of main_v231 : StableHlo.TRef sig ⟨S50000x96, .f32⟩) main_call12.call0.v2 select,
    StableHlo.TRef.unary main_call12.call0.v2 main_call12.v5 Host.expm1,
    StableHlo.TRef.nullary main_call12.cst_2 (constant S_ .f32 0x3F800000#32),
    StableHlo.TRef.unary main_call12.cst_2 main_call12.v6 (broadcastInDim S50000x96 ![] bcast_S_S50000x96),
    StableHlo.TRef.binary main_call12.v6 main_call12.v5 main_call12.v7 mulf,
    StableHlo.TRef.ternary main_call12.v1 (.of main_v231 : StableHlo.TRef sig ⟨S50000x96, .f32⟩) main_call12.v7 main_call12.call1.v0 select ]

/-- The operations of hop 5. -/
def hop5 : List (HloOp τ sig (Elt F)) :=
  [ StableHlo.unary main_arg4 main_v233 (broadcastInDim S96x1 ![0] bcast_S96_S96x1_0 : (⟨S96, .f32⟩ : BufTy).Contents (Elt F) → (⟨S96x1, .f32⟩ : BufTy).Contents (Elt F)),
    StableHlo.binary main_v8 main_v233 main_v234 ((fun l r => Host.dotGeneral dot_S50000x96_S96x1_S50000x1_1_0_0_1_n_n none l r) : (⟨S50000x96, .f32⟩ : BufTy).Contents (Elt F) → (⟨S96x1, .f32⟩ : BufTy).Contents (Elt F) → (⟨S50000x1, .f32⟩ : BufTy).Contents (Elt F)),
    StableHlo.unary main_arg5 main_v235 (broadcastInDim S96x1 ![0] bcast_S96_S96x1_0 : (⟨S96, .f32⟩ : BufTy).Contents (Elt F) → (⟨S96x1, .f32⟩ : BufTy).Contents (Elt F)),
    StableHlo.binary main_v8 main_v235 main_v236 ((fun l r => Host.dotGeneral dot_S50000x96_S96x1_S50000x1_1_0_0_1_n_n none l r) : (⟨S50000x96, .f32⟩ : BufTy).Contents (Elt F) → (⟨S96x1, .f32⟩ : BufTy).Contents (Elt F) → (⟨S50000x1, .f32⟩ : BufTy).Contents (Elt F)),
    StableHlo.binary main_v234 main_v236 main_v237 (addf : (⟨S50000x1, .f32⟩ : BufTy).Contents (Elt F) → (⟨S50000x1, .f32⟩ : BufTy).Contents (Elt F) → (⟨S50000x1, .f32⟩ : BufTy).Contents (Elt F)),
    StableHlo.nullary main_cst_46 (constant S_ .f32 0x00000000#32),
    StableHlo.unary main_cst_46 main_v238 (broadcastInDim S50000x1 ![] bcast_S_S50000x1 : (⟨S_, .f32⟩ : BufTy).Contents (Elt F) → (⟨S50000x1, .f32⟩ : BufTy).Contents (Elt F)),
    StableHlo.binary main_v237 main_v238 main_v239 (cmpf .oge : (⟨S50000x1, .f32⟩ : BufTy).Contents (Elt F) → (⟨S50000x1, .f32⟩ : BufTy).Contents (Elt F) → (⟨S50000x1, .i1⟩ : BufTy).Contents (Elt F)),
    StableHlo.nullary main_cst_47 (constant S_ .f32 0x3E4CCCCD#32),
    StableHlo.unary main_cst_47 main_v240 (broadcastInDim S50000x1 ![] bcast_S_S50000x1 : (⟨S_, .f32⟩ : BufTy).Contents (Elt F) → (⟨S50000x1, .f32⟩ : BufTy).Contents (Elt F)),
    StableHlo.binary main_v240 main_v237 main_v241 (mulf : (⟨S50000x1, .f32⟩ : BufTy).Contents (Elt F) → (⟨S50000x1, .f32⟩ : BufTy).Contents (Elt F) → (⟨S50000x1, .f32⟩ : BufTy).Contents (Elt F)),
    StableHlo.TRef.ternary (.of main_v239 : StableHlo.TRef sig ⟨S50000x1, .i1⟩) (.of main_v237 : StableHlo.TRef sig ⟨S50000x1, .f32⟩) (.of main_v241 : StableHlo.TRef sig ⟨S50000x1, .f32⟩) main_call13.v0 select,
    StableHlo.unary main_v242 main_v243 (Host.exp : (⟨S50000x1, .f32⟩ : BufTy).Contents (Elt F) → (⟨S50000x1, .f32⟩ : BufTy).Contents (Elt F)),
    StableHlo.unary main_arg5 main_v244 (broadcastInDim S96x1 ![0] bcast_S96_S96x1_0 : (⟨S96, .f32⟩ : BufTy).Contents (Elt F) → (⟨S96x1, .f32⟩ : BufTy).Contents (Elt F)),
    StableHlo.binary main_v232 main_v244 main_v245 ((fun l r => Host.dotGeneral dot_S50000x96_S96x1_S50000x1_1_0_0_1_n_n none l r) : (⟨S50000x96, .f32⟩ : BufTy).Contents (Elt F) → (⟨S96x1, .f32⟩ : BufTy).Contents (Elt F) → (⟨S50000x1, .f32⟩ : BufTy).Contents (Elt F)),
    StableHlo.nullary main_c_48 (constantI S_ 32 0#32),
    StableHlo.unary main_c_48 main_v246 (broadcastInDim S800000 ![] bcast_S_S800000 : (⟨S_, .i32⟩ : BufTy).Contents (Elt F) → (⟨S800000, .i32⟩ : BufTy).Contents (Elt F)),
    StableHlo.binary main_v1 main_v246 main_v247 (cmpi .slt : (⟨S800000, .i32⟩ : BufTy).Contents (Elt F) → (⟨S800000, .i32⟩ : BufTy).Contents (Elt F) → (⟨S800000, .i1⟩ : BufTy).Contents (Elt F)),
    StableHlo.nullary main_c_49 (constantI S_ 32 50000#32),
    StableHlo.unary main_c_49 main_v248 (broadcastInDim S800000 ![] bcast_S_S800000 : (⟨S_, .i32⟩ : BufTy).Contents (Elt F) → (⟨S800000, .i32⟩ : BufTy).Contents (Elt F)),
    StableHlo.binary main_v1 main_v248 main_v249 (addi : (⟨S800000, .i32⟩ : BufTy).Contents (Elt F) → (⟨S800000, .i32⟩ : BufTy).Contents (Elt F) → (⟨S800000, .i32⟩ : BufTy).Contents (Elt F)),
    StableHlo.ternary main_v247 main_v249 main_v1 main_v250 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v250 main_v251 (broadcastInDim S800000x1 ![0] bcast_S800000_S800000x1_0 : (⟨S800000, .i32⟩ : BufTy).Contents (Elt F) → (⟨S800000x1, .i32⟩ : BufTy).Contents (Elt F)),
    StableHlo.binary main_v234 main_v251 main_v252 ((fun x i => Host.gather gather_S50000x1_S800000x1_S800000x1_1_0_n_n_0_1_11 x i) : (⟨S50000x1, .f32⟩ : BufTy).Contents (Elt F) → (⟨S800000x1, .i32⟩ : BufTy).Contents (Elt F) → (⟨S800000x1, .f32⟩ : BufTy).Contents (Elt F)),
    StableHlo.nullary main_c_50 (constantI S_ 32 0#32),
    StableHlo.unary main_c_50 main_v253 (broadcastInDim S800000 ![] bcast_S_S800000 : (⟨S_, .i32⟩ : BufTy).Contents (Elt F) → (⟨S800000, .i32⟩ : BufTy).Contents (Elt F)),
    StableHlo.binary main_v3 main_v253 main_v254 (cmpi .slt : (⟨S800000, .i32⟩ : BufTy).Contents (Elt F) → (⟨S800000, .i32⟩ : BufTy).Contents (Elt F) → (⟨S800000, .i1⟩ : BufTy).Contents (Elt F)),
    StableHlo.nullary main_c_51 (constantI S_ 32 50000#32),
    StableHlo.unary main_c_51 main_v255 (broadcastInDim S800000 ![] bcast_S_S800000 : (⟨S_, .i32⟩ : BufTy).Contents (Elt F) → (⟨S800000, .i32⟩ : BufTy).Contents (Elt F)),
    StableHlo.binary main_v3 main_v255 main_v256 (addi : (⟨S800000, .i32⟩ : BufTy).Contents (Elt F) → (⟨S800000, .i32⟩ : BufTy).Contents (Elt F) → (⟨S800000, .i32⟩ : BufTy).Contents (Elt F)),
    StableHlo.ternary main_v254 main_v256 main_v3 main_v257 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v257 main_v258 (broadcastInDim S800000x1 ![0] bcast_S800000_S800000x1_0 : (⟨S800000, .i32⟩ : BufTy).Contents (Elt F) → (⟨S800000x1, .i32⟩ : BufTy).Contents (Elt F)),
    StableHlo.binary main_v245 main_v258 main_v259 ((fun x i => Host.gather gather_S50000x1_S800000x1_S800000x1_1_0_n_n_0_1_11 x i) : (⟨S50000x1, .f32⟩ : BufTy).Contents (Elt F) → (⟨S800000x1, .i32⟩ : BufTy).Contents (Elt F) → (⟨S800000x1, .f32⟩ : BufTy).Contents (Elt F)),
    StableHlo.binary main_v252 main_v259 main_v260 (addf : (⟨S800000x1, .f32⟩ : BufTy).Contents (Elt F) → (⟨S800000x1, .f32⟩ : BufTy).Contents (Elt F) → (⟨S800000x1, .f32⟩ : BufTy).Contents (Elt F)),
    StableHlo.nullary main_cst_52 (constant S_ .f32 0x00000000#32),
    StableHlo.unary main_cst_52 main_v261 (broadcastInDim S800000x1 ![] bcast_S_S800000x1 : (⟨S_, .f32⟩ : BufTy).Contents (Elt F) → (⟨S800000x1, .f32⟩ : BufTy).Contents (Elt F)),
    StableHlo.binary main_v260 main_v261 main_v262 (cmpf .oge : (⟨S800000x1, .f32⟩ : BufTy).Contents (Elt F) → (⟨S800000x1, .f32⟩ : BufTy).Contents (Elt F) → (⟨S800000x1, .i1⟩ : BufTy).Contents (Elt F)),
    StableHlo.nullary main_cst_53 (constant S_ .f32 0x3E4CCCCD#32),
    StableHlo.unary main_cst_53 main_v263 (broadcastInDim S800000x1 ![] bcast_S_S800000x1 : (⟨S_, .f32⟩ : BufTy).Contents (Elt F) → (⟨S800000x1, .f32⟩ : BufTy).Contents (Elt F)),
    StableHlo.binary main_v263 main_v260 main_v264 (mulf : (⟨S800000x1, .f32⟩ : BufTy).Contents (Elt F) → (⟨S800000x1, .f32⟩ : BufTy).Contents (Elt F) → (⟨S800000x1, .f32⟩ : BufTy).Contents (Elt F)),
    StableHlo.TRef.ternary (.of main_v262 : StableHlo.TRef sig ⟨S800000x1, .i1⟩) (.of main_v260 : StableHlo.TRef sig ⟨S800000x1, .f32⟩) (.of main_v264 : StableHlo.TRef sig ⟨S800000x1, .f32⟩) main_call14.v0 select,
    StableHlo.unary main_v265 main_v266 (Host.exp : (⟨S800000x1, .f32⟩ : BufTy).Contents (Elt F) → (⟨S800000x1, .f32⟩ : BufTy).Contents (Elt F)),
    StableHlo.nullary main_cst_54 (constant S_ .f32 0x00000000#32),
    StableHlo.unary main_cst_54 main_v267 (broadcastInDim S50000x1 ![] bcast_S_S50000x1 : (⟨S_, .f32⟩ : BufTy).Contents (Elt F) → (⟨S50000x1, .f32⟩ : BufTy).Contents (Elt F)),
    StableHlo.unary main_v1 main_v268 (broadcastInDim S800000x1 ![0] bcast_S800000_S800000x1_0 : (⟨S800000, .i32⟩ : BufTy).Contents (Elt F) → (⟨S800000x1, .i32⟩ : BufTy).Contents (Elt F)),
    StableHlo.ternary main_v267 main_v268 main_v266 main_v269 ((fun x i u => Host.scatterAdd scatter_S50000x1_S800000x1_S800000x1_1_0_0_1 x i u) : (⟨S50000x1, .f32⟩ : BufTy).Contents (Elt F) → (⟨S800000x1, .i32⟩ : BufTy).Contents (Elt F) → (⟨S800000x1, .f32⟩ : BufTy).Contents (Elt F) → (⟨S50000x1, .f32⟩ : BufTy).Contents (Elt F)),
    StableHlo.binary main_v269 main_v243 main_v270 (addf : (⟨S50000x1, .f32⟩ : BufTy).Contents (Elt F) → (⟨S50000x1, .f32⟩ : BufTy).Contents (Elt F) → (⟨S50000x1, .f32⟩ : BufTy).Contents (Elt F)),
    StableHlo.nullary main_c_55 (constantI S_ 32 0#32),
    StableHlo.unary main_c_55 main_v271 (broadcastInDim S800000 ![] bcast_S_S800000 : (⟨S_, .i32⟩ : BufTy).Contents (Elt F) → (⟨S800000, .i32⟩ : BufTy).Contents (Elt F)),
    StableHlo.binary main_v3 main_v271 main_v272 (cmpi .slt : (⟨S800000, .i32⟩ : BufTy).Contents (Elt F) → (⟨S800000, .i32⟩ : BufTy).Contents (Elt F) → (⟨S800000, .i1⟩ : BufTy).Contents (Elt F)),
    StableHlo.nullary main_c_56 (constantI S_ 32 50000#32),
    StableHlo.unary main_c_56 main_v273 (broadcastInDim S800000 ![] bcast_S_S800000 : (⟨S_, .i32⟩ : BufTy).Contents (Elt F) → (⟨S800000, .i32⟩ : BufTy).Contents (Elt F)),
    StableHlo.binary main_v3 main_v273 main_v274 (addi : (⟨S800000, .i32⟩ : BufTy).Contents (Elt F) → (⟨S800000, .i32⟩ : BufTy).Contents (Elt F) → (⟨S800000, .i32⟩ : BufTy).Contents (Elt F)),
    StableHlo.ternary main_v272 main_v274 main_v3 main_v275 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v275 main_v276 (broadcastInDim S800000x1 ![0] bcast_S800000_S800000x1_0 : (⟨S800000, .i32⟩ : BufTy).Contents (Elt F) → (⟨S800000x1, .i32⟩ : BufTy).Contents (Elt F)),
    StableHlo.binary main_v232 main_v276 main_v277 ((fun x i => Host.gather gather_S50000x96_S800000x1_S800000x96_1_0_n_n_0_1_196 x i) : (⟨S50000x96, .f32⟩ : BufTy).Contents (Elt F) → (⟨S800000x1, .i32⟩ : BufTy).Contents (Elt F) → (⟨S800000x96, .f32⟩ : BufTy).Contents (Elt F)),
    StableHlo.unary main_v266 main_v278 (broadcastInDim S800000x96 ![0, 1] bcast_S800000x1_S800000x96_0_1 : (⟨S800000x1, .f32⟩ : BufTy).Contents (Elt F) → (⟨S800000x96, .f32⟩ : BufTy).Contents (Elt F)),
    StableHlo.binary main_v278 main_v277 main_v279 (mulf : (⟨S800000x96, .f32⟩ : BufTy).Contents (Elt F) → (⟨S800000x96, .f32⟩ : BufTy).Contents (Elt F) → (⟨S800000x96, .f32⟩ : BufTy).Contents (Elt F)),
    StableHlo.nullary main_cst_57 (constant S_ .f32 0x00000000#32),
    StableHlo.unary main_cst_57 main_v280 (broadcastInDim S50000x96 ![] bcast_S_S50000x96 : (⟨S_, .f32⟩ : BufTy).Contents (Elt F) → (⟨S50000x96, .f32⟩ : BufTy).Contents (Elt F)),
    StableHlo.unary main_v1 main_v281 (broadcastInDim S800000x1 ![0] bcast_S800000_S800000x1_0 : (⟨S800000, .i32⟩ : BufTy).Contents (Elt F) → (⟨S800000x1, .i32⟩ : BufTy).Contents (Elt F)),
    StableHlo.ternary main_v280 main_v281 main_v279 main_v282 ((fun x i u => Host.scatterAdd scatter_S50000x96_S800000x1_S800000x96_1_0_0_1 x i u) : (⟨S50000x96, .f32⟩ : BufTy).Contents (Elt F) → (⟨S800000x1, .i32⟩ : BufTy).Contents (Elt F) → (⟨S800000x96, .f32⟩ : BufTy).Contents (Elt F) → (⟨S50000x96, .f32⟩ : BufTy).Contents (Elt F)),
    StableHlo.unary main_v243 main_v283 (broadcastInDim S50000x96 ![0, 1] bcast_S50000x1_S50000x96_0_1 : (⟨S50000x1, .f32⟩ : BufTy).Contents (Elt F) → (⟨S50000x96, .f32⟩ : BufTy).Contents (Elt F)),
    StableHlo.binary main_v283 main_v8 main_v284 (mulf : (⟨S50000x96, .f32⟩ : BufTy).Contents (Elt F) → (⟨S50000x96, .f32⟩ : BufTy).Contents (Elt F) → (⟨S50000x96, .f32⟩ : BufTy).Contents (Elt F)),
    StableHlo.binary main_v282 main_v284 main_v285 (addf : (⟨S50000x96, .f32⟩ : BufTy).Contents (Elt F) → (⟨S50000x96, .f32⟩ : BufTy).Contents (Elt F) → (⟨S50000x96, .f32⟩ : BufTy).Contents (Elt F)),
    StableHlo.unary main_v270 main_v286 (broadcastInDim S50000x96 ![0, 1] bcast_S50000x1_S50000x96_0_1 : (⟨S50000x1, .f32⟩ : BufTy).Contents (Elt F) → (⟨S50000x96, .f32⟩ : BufTy).Contents (Elt F)),
    StableHlo.binary main_v285 main_v286 main_v287 (Host.divf : (⟨S50000x96, .f32⟩ : BufTy).Contents (Elt F) → (⟨S50000x96, .f32⟩ : BufTy).Contents (Elt F) → (⟨S50000x96, .f32⟩ : BufTy).Contents (Elt F)),
    StableHlo.TRef.nullary main_call15.cst (constant S_ .f32 0x00000000#32),
    StableHlo.TRef.unary main_call15.cst main_call15.v0 (broadcastInDim S50000x96 ![] bcast_S_S50000x96),
    StableHlo.TRef.binary (.of main_v287 : StableHlo.TRef sig ⟨S50000x96, .f32⟩) main_call15.v0 main_call15.v1 (cmpf .ogt),
    StableHlo.TRef.nullary main_call15.cst_0 (constant S_ .f32 0x00000000#32),
    StableHlo.TRef.unary main_call15.cst_0 main_call15.v2 (broadcastInDim S50000x96 ![] bcast_S_S50000x96),
    StableHlo.TRef.binary (.of main_v287 : StableHlo.TRef sig ⟨S50000x96, .f32⟩) main_call15.v2 main_call15.v3 (cmpf .ogt),
    StableHlo.TRef.nullary main_call15.cst_1 (constant S_ .f32 0x00000000#32),
    StableHlo.TRef.unary main_call15.cst_1 main_call15.call0.v0 id,
    StableHlo.TRef.unary main_call15.call0.v0 main_call15.call0.v1 (broadcastInDim S50000x96 ![] bcast_S_S50000x96),
    StableHlo.TRef.ternary main_call15.v3 main_call15.call0.v1 (.of main_v287 : StableHlo.TRef sig ⟨S50000x96, .f32⟩) main_call15.call0.v2 select,
    StableHlo.TRef.unary main_call15.call0.v2 main_call15.v5 Host.expm1,
    StableHlo.TRef.nullary main_call15.cst_2 (constant S_ .f32 0x3F800000#32),
    StableHlo.TRef.unary main_call15.cst_2 main_call15.v6 (broadcastInDim S50000x96 ![] bcast_S_S50000x96),
    StableHlo.TRef.binary main_call15.v6 main_call15.v5 main_call15.v7 mulf,
    StableHlo.TRef.ternary main_call15.v1 (.of main_v287 : StableHlo.TRef sig ⟨S50000x96, .f32⟩) main_call15.v7 main_call15.call1.v0 select ]

/-- The operations of hop 6. -/
def hop6 : List (HloOp τ sig (Elt F)) :=
  [ StableHlo.unary main_arg4 main_v289 (broadcastInDim S96x1 ![0] bcast_S96_S96x1_0 : (⟨S96, .f32⟩ : BufTy).Contents (Elt F) → (⟨S96x1, .f32⟩ : BufTy).Contents (Elt F)),
    StableHlo.binary main_v8 main_v289 main_v290 ((fun l r => Host.dotGeneral dot_S50000x96_S96x1_S50000x1_1_0_0_1_n_n none l r) : (⟨S50000x96, .f32⟩ : BufTy).Contents (Elt F) → (⟨S96x1, .f32⟩ : BufTy).Contents (Elt F) → (⟨S50000x1, .f32⟩ : BufTy).Contents (Elt F)),
    StableHlo.unary main_arg5 main_v291 (broadcastInDim S96x1 ![0] bcast_S96_S96x1_0 : (⟨S96, .f32⟩ : BufTy).Contents (Elt F) → (⟨S96x1, .f32⟩ : BufTy).Contents (Elt F)),
    StableHlo.binary main_v8 main_v291 main_v292 ((fun l r => Host.dotGeneral dot_S50000x96_S96x1_S50000x1_1_0_0_1_n_n none l r) : (⟨S50000x96, .f32⟩ : BufTy).Contents (Elt F) → (⟨S96x1, .f32⟩ : BufTy).Contents (Elt F) → (⟨S50000x1, .f32⟩ : BufTy).Contents (Elt F)),
    StableHlo.binary main_v290 main_v292 main_v293 (addf : (⟨S50000x1, .f32⟩ : BufTy).Contents (Elt F) → (⟨S50000x1, .f32⟩ : BufTy).Contents (Elt F) → (⟨S50000x1, .f32⟩ : BufTy).Contents (Elt F)),
    StableHlo.nullary main_cst_58 (constant S_ .f32 0x00000000#32),
    StableHlo.unary main_cst_58 main_v294 (broadcastInDim S50000x1 ![] bcast_S_S50000x1 : (⟨S_, .f32⟩ : BufTy).Contents (Elt F) → (⟨S50000x1, .f32⟩ : BufTy).Contents (Elt F)),
    StableHlo.binary main_v293 main_v294 main_v295 (cmpf .oge : (⟨S50000x1, .f32⟩ : BufTy).Contents (Elt F) → (⟨S50000x1, .f32⟩ : BufTy).Contents (Elt F) → (⟨S50000x1, .i1⟩ : BufTy).Contents (Elt F)),
    StableHlo.nullary main_cst_59 (constant S_ .f32 0x3E4CCCCD#32),
    StableHlo.unary main_cst_59 main_v296 (broadcastInDim S50000x1 ![] bcast_S_S50000x1 : (⟨S_, .f32⟩ : BufTy).Contents (Elt F) → (⟨S50000x1, .f32⟩ : BufTy).Contents (Elt F)),
    StableHlo.binary main_v296 main_v293 main_v297 (mulf : (⟨S50000x1, .f32⟩ : BufTy).Contents (Elt F) → (⟨S50000x1, .f32⟩ : BufTy).Contents (Elt F) → (⟨S50000x1, .f32⟩ : BufTy).Contents (Elt F)),
    StableHlo.TRef.ternary (.of main_v295 : StableHlo.TRef sig ⟨S50000x1, .i1⟩) (.of main_v293 : StableHlo.TRef sig ⟨S50000x1, .f32⟩) (.of main_v297 : StableHlo.TRef sig ⟨S50000x1, .f32⟩) main_call16.v0 select,
    StableHlo.unary main_v298 main_v299 (Host.exp : (⟨S50000x1, .f32⟩ : BufTy).Contents (Elt F) → (⟨S50000x1, .f32⟩ : BufTy).Contents (Elt F)),
    StableHlo.unary main_arg5 main_v300 (broadcastInDim S96x1 ![0] bcast_S96_S96x1_0 : (⟨S96, .f32⟩ : BufTy).Contents (Elt F) → (⟨S96x1, .f32⟩ : BufTy).Contents (Elt F)),
    StableHlo.binary main_v288 main_v300 main_v301 ((fun l r => Host.dotGeneral dot_S50000x96_S96x1_S50000x1_1_0_0_1_n_n none l r) : (⟨S50000x96, .f32⟩ : BufTy).Contents (Elt F) → (⟨S96x1, .f32⟩ : BufTy).Contents (Elt F) → (⟨S50000x1, .f32⟩ : BufTy).Contents (Elt F)),
    StableHlo.nullary main_c_60 (constantI S_ 32 0#32),
    StableHlo.unary main_c_60 main_v302 (broadcastInDim S800000 ![] bcast_S_S800000 : (⟨S_, .i32⟩ : BufTy).Contents (Elt F) → (⟨S800000, .i32⟩ : BufTy).Contents (Elt F)),
    StableHlo.binary main_v1 main_v302 main_v303 (cmpi .slt : (⟨S800000, .i32⟩ : BufTy).Contents (Elt F) → (⟨S800000, .i32⟩ : BufTy).Contents (Elt F) → (⟨S800000, .i1⟩ : BufTy).Contents (Elt F)),
    StableHlo.nullary main_c_61 (constantI S_ 32 50000#32),
    StableHlo.unary main_c_61 main_v304 (broadcastInDim S800000 ![] bcast_S_S800000 : (⟨S_, .i32⟩ : BufTy).Contents (Elt F) → (⟨S800000, .i32⟩ : BufTy).Contents (Elt F)),
    StableHlo.binary main_v1 main_v304 main_v305 (addi : (⟨S800000, .i32⟩ : BufTy).Contents (Elt F) → (⟨S800000, .i32⟩ : BufTy).Contents (Elt F) → (⟨S800000, .i32⟩ : BufTy).Contents (Elt F)),
    StableHlo.ternary main_v303 main_v305 main_v1 main_v306 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v306 main_v307 (broadcastInDim S800000x1 ![0] bcast_S800000_S800000x1_0 : (⟨S800000, .i32⟩ : BufTy).Contents (Elt F) → (⟨S800000x1, .i32⟩ : BufTy).Contents (Elt F)),
    StableHlo.binary main_v290 main_v307 main_v308 ((fun x i => Host.gather gather_S50000x1_S800000x1_S800000x1_1_0_n_n_0_1_11 x i) : (⟨S50000x1, .f32⟩ : BufTy).Contents (Elt F) → (⟨S800000x1, .i32⟩ : BufTy).Contents (Elt F) → (⟨S800000x1, .f32⟩ : BufTy).Contents (Elt F)),
    StableHlo.nullary main_c_62 (constantI S_ 32 0#32),
    StableHlo.unary main_c_62 main_v309 (broadcastInDim S800000 ![] bcast_S_S800000 : (⟨S_, .i32⟩ : BufTy).Contents (Elt F) → (⟨S800000, .i32⟩ : BufTy).Contents (Elt F)),
    StableHlo.binary main_v3 main_v309 main_v310 (cmpi .slt : (⟨S800000, .i32⟩ : BufTy).Contents (Elt F) → (⟨S800000, .i32⟩ : BufTy).Contents (Elt F) → (⟨S800000, .i1⟩ : BufTy).Contents (Elt F)),
    StableHlo.nullary main_c_63 (constantI S_ 32 50000#32),
    StableHlo.unary main_c_63 main_v311 (broadcastInDim S800000 ![] bcast_S_S800000 : (⟨S_, .i32⟩ : BufTy).Contents (Elt F) → (⟨S800000, .i32⟩ : BufTy).Contents (Elt F)),
    StableHlo.binary main_v3 main_v311 main_v312 (addi : (⟨S800000, .i32⟩ : BufTy).Contents (Elt F) → (⟨S800000, .i32⟩ : BufTy).Contents (Elt F) → (⟨S800000, .i32⟩ : BufTy).Contents (Elt F)),
    StableHlo.ternary main_v310 main_v312 main_v3 main_v313 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v313 main_v314 (broadcastInDim S800000x1 ![0] bcast_S800000_S800000x1_0 : (⟨S800000, .i32⟩ : BufTy).Contents (Elt F) → (⟨S800000x1, .i32⟩ : BufTy).Contents (Elt F)),
    StableHlo.binary main_v301 main_v314 main_v315 ((fun x i => Host.gather gather_S50000x1_S800000x1_S800000x1_1_0_n_n_0_1_11 x i) : (⟨S50000x1, .f32⟩ : BufTy).Contents (Elt F) → (⟨S800000x1, .i32⟩ : BufTy).Contents (Elt F) → (⟨S800000x1, .f32⟩ : BufTy).Contents (Elt F)),
    StableHlo.binary main_v308 main_v315 main_v316 (addf : (⟨S800000x1, .f32⟩ : BufTy).Contents (Elt F) → (⟨S800000x1, .f32⟩ : BufTy).Contents (Elt F) → (⟨S800000x1, .f32⟩ : BufTy).Contents (Elt F)),
    StableHlo.nullary main_cst_64 (constant S_ .f32 0x00000000#32),
    StableHlo.unary main_cst_64 main_v317 (broadcastInDim S800000x1 ![] bcast_S_S800000x1 : (⟨S_, .f32⟩ : BufTy).Contents (Elt F) → (⟨S800000x1, .f32⟩ : BufTy).Contents (Elt F)),
    StableHlo.binary main_v316 main_v317 main_v318 (cmpf .oge : (⟨S800000x1, .f32⟩ : BufTy).Contents (Elt F) → (⟨S800000x1, .f32⟩ : BufTy).Contents (Elt F) → (⟨S800000x1, .i1⟩ : BufTy).Contents (Elt F)),
    StableHlo.nullary main_cst_65 (constant S_ .f32 0x3E4CCCCD#32),
    StableHlo.unary main_cst_65 main_v319 (broadcastInDim S800000x1 ![] bcast_S_S800000x1 : (⟨S_, .f32⟩ : BufTy).Contents (Elt F) → (⟨S800000x1, .f32⟩ : BufTy).Contents (Elt F)),
    StableHlo.binary main_v319 main_v316 main_v320 (mulf : (⟨S800000x1, .f32⟩ : BufTy).Contents (Elt F) → (⟨S800000x1, .f32⟩ : BufTy).Contents (Elt F) → (⟨S800000x1, .f32⟩ : BufTy).Contents (Elt F)),
    StableHlo.TRef.ternary (.of main_v318 : StableHlo.TRef sig ⟨S800000x1, .i1⟩) (.of main_v316 : StableHlo.TRef sig ⟨S800000x1, .f32⟩) (.of main_v320 : StableHlo.TRef sig ⟨S800000x1, .f32⟩) main_call17.v0 select,
    StableHlo.unary main_v321 main_v322 (Host.exp : (⟨S800000x1, .f32⟩ : BufTy).Contents (Elt F) → (⟨S800000x1, .f32⟩ : BufTy).Contents (Elt F)),
    StableHlo.nullary main_cst_66 (constant S_ .f32 0x00000000#32),
    StableHlo.unary main_cst_66 main_v323 (broadcastInDim S50000x1 ![] bcast_S_S50000x1 : (⟨S_, .f32⟩ : BufTy).Contents (Elt F) → (⟨S50000x1, .f32⟩ : BufTy).Contents (Elt F)),
    StableHlo.unary main_v1 main_v324 (broadcastInDim S800000x1 ![0] bcast_S800000_S800000x1_0 : (⟨S800000, .i32⟩ : BufTy).Contents (Elt F) → (⟨S800000x1, .i32⟩ : BufTy).Contents (Elt F)),
    StableHlo.ternary main_v323 main_v324 main_v322 main_v325 ((fun x i u => Host.scatterAdd scatter_S50000x1_S800000x1_S800000x1_1_0_0_1 x i u) : (⟨S50000x1, .f32⟩ : BufTy).Contents (Elt F) → (⟨S800000x1, .i32⟩ : BufTy).Contents (Elt F) → (⟨S800000x1, .f32⟩ : BufTy).Contents (Elt F) → (⟨S50000x1, .f32⟩ : BufTy).Contents (Elt F)),
    StableHlo.binary main_v325 main_v299 main_v326 (addf : (⟨S50000x1, .f32⟩ : BufTy).Contents (Elt F) → (⟨S50000x1, .f32⟩ : BufTy).Contents (Elt F) → (⟨S50000x1, .f32⟩ : BufTy).Contents (Elt F)),
    StableHlo.nullary main_c_67 (constantI S_ 32 0#32),
    StableHlo.unary main_c_67 main_v327 (broadcastInDim S800000 ![] bcast_S_S800000 : (⟨S_, .i32⟩ : BufTy).Contents (Elt F) → (⟨S800000, .i32⟩ : BufTy).Contents (Elt F)),
    StableHlo.binary main_v3 main_v327 main_v328 (cmpi .slt : (⟨S800000, .i32⟩ : BufTy).Contents (Elt F) → (⟨S800000, .i32⟩ : BufTy).Contents (Elt F) → (⟨S800000, .i1⟩ : BufTy).Contents (Elt F)),
    StableHlo.nullary main_c_68 (constantI S_ 32 50000#32),
    StableHlo.unary main_c_68 main_v329 (broadcastInDim S800000 ![] bcast_S_S800000 : (⟨S_, .i32⟩ : BufTy).Contents (Elt F) → (⟨S800000, .i32⟩ : BufTy).Contents (Elt F)),
    StableHlo.binary main_v3 main_v329 main_v330 (addi : (⟨S800000, .i32⟩ : BufTy).Contents (Elt F) → (⟨S800000, .i32⟩ : BufTy).Contents (Elt F) → (⟨S800000, .i32⟩ : BufTy).Contents (Elt F)),
    StableHlo.ternary main_v328 main_v330 main_v3 main_v331 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v331 main_v332 (broadcastInDim S800000x1 ![0] bcast_S800000_S800000x1_0 : (⟨S800000, .i32⟩ : BufTy).Contents (Elt F) → (⟨S800000x1, .i32⟩ : BufTy).Contents (Elt F)),
    StableHlo.binary main_v288 main_v332 main_v333 ((fun x i => Host.gather gather_S50000x96_S800000x1_S800000x96_1_0_n_n_0_1_196 x i) : (⟨S50000x96, .f32⟩ : BufTy).Contents (Elt F) → (⟨S800000x1, .i32⟩ : BufTy).Contents (Elt F) → (⟨S800000x96, .f32⟩ : BufTy).Contents (Elt F)),
    StableHlo.unary main_v322 main_v334 (broadcastInDim S800000x96 ![0, 1] bcast_S800000x1_S800000x96_0_1 : (⟨S800000x1, .f32⟩ : BufTy).Contents (Elt F) → (⟨S800000x96, .f32⟩ : BufTy).Contents (Elt F)),
    StableHlo.binary main_v334 main_v333 main_v335 (mulf : (⟨S800000x96, .f32⟩ : BufTy).Contents (Elt F) → (⟨S800000x96, .f32⟩ : BufTy).Contents (Elt F) → (⟨S800000x96, .f32⟩ : BufTy).Contents (Elt F)),
    StableHlo.nullary main_cst_69 (constant S_ .f32 0x00000000#32),
    StableHlo.unary main_cst_69 main_v336 (broadcastInDim S50000x96 ![] bcast_S_S50000x96 : (⟨S_, .f32⟩ : BufTy).Contents (Elt F) → (⟨S50000x96, .f32⟩ : BufTy).Contents (Elt F)),
    StableHlo.unary main_v1 main_v337 (broadcastInDim S800000x1 ![0] bcast_S800000_S800000x1_0 : (⟨S800000, .i32⟩ : BufTy).Contents (Elt F) → (⟨S800000x1, .i32⟩ : BufTy).Contents (Elt F)),
    StableHlo.ternary main_v336 main_v337 main_v335 main_v338 ((fun x i u => Host.scatterAdd scatter_S50000x96_S800000x1_S800000x96_1_0_0_1 x i u) : (⟨S50000x96, .f32⟩ : BufTy).Contents (Elt F) → (⟨S800000x1, .i32⟩ : BufTy).Contents (Elt F) → (⟨S800000x96, .f32⟩ : BufTy).Contents (Elt F) → (⟨S50000x96, .f32⟩ : BufTy).Contents (Elt F)),
    StableHlo.unary main_v299 main_v339 (broadcastInDim S50000x96 ![0, 1] bcast_S50000x1_S50000x96_0_1 : (⟨S50000x1, .f32⟩ : BufTy).Contents (Elt F) → (⟨S50000x96, .f32⟩ : BufTy).Contents (Elt F)),
    StableHlo.binary main_v339 main_v8 main_v340 (mulf : (⟨S50000x96, .f32⟩ : BufTy).Contents (Elt F) → (⟨S50000x96, .f32⟩ : BufTy).Contents (Elt F) → (⟨S50000x96, .f32⟩ : BufTy).Contents (Elt F)),
    StableHlo.binary main_v338 main_v340 main_v341 (addf : (⟨S50000x96, .f32⟩ : BufTy).Contents (Elt F) → (⟨S50000x96, .f32⟩ : BufTy).Contents (Elt F) → (⟨S50000x96, .f32⟩ : BufTy).Contents (Elt F)),
    StableHlo.unary main_v326 main_v342 (broadcastInDim S50000x96 ![0, 1] bcast_S50000x1_S50000x96_0_1 : (⟨S50000x1, .f32⟩ : BufTy).Contents (Elt F) → (⟨S50000x96, .f32⟩ : BufTy).Contents (Elt F)),
    StableHlo.binary main_v341 main_v342 main_v343 (Host.divf : (⟨S50000x96, .f32⟩ : BufTy).Contents (Elt F) → (⟨S50000x96, .f32⟩ : BufTy).Contents (Elt F) → (⟨S50000x96, .f32⟩ : BufTy).Contents (Elt F)),
    StableHlo.TRef.nullary main_call18.cst (constant S_ .f32 0x00000000#32),
    StableHlo.TRef.unary main_call18.cst main_call18.v0 (broadcastInDim S50000x96 ![] bcast_S_S50000x96),
    StableHlo.TRef.binary (.of main_v343 : StableHlo.TRef sig ⟨S50000x96, .f32⟩) main_call18.v0 main_call18.v1 (cmpf .ogt),
    StableHlo.TRef.nullary main_call18.cst_0 (constant S_ .f32 0x00000000#32),
    StableHlo.TRef.unary main_call18.cst_0 main_call18.v2 (broadcastInDim S50000x96 ![] bcast_S_S50000x96),
    StableHlo.TRef.binary (.of main_v343 : StableHlo.TRef sig ⟨S50000x96, .f32⟩) main_call18.v2 main_call18.v3 (cmpf .ogt),
    StableHlo.TRef.nullary main_call18.cst_1 (constant S_ .f32 0x00000000#32),
    StableHlo.TRef.unary main_call18.cst_1 main_call18.call0.v0 id,
    StableHlo.TRef.unary main_call18.call0.v0 main_call18.call0.v1 (broadcastInDim S50000x96 ![] bcast_S_S50000x96),
    StableHlo.TRef.ternary main_call18.v3 main_call18.call0.v1 (.of main_v343 : StableHlo.TRef sig ⟨S50000x96, .f32⟩) main_call18.call0.v2 select,
    StableHlo.TRef.unary main_call18.call0.v2 main_call18.v5 Host.expm1,
    StableHlo.TRef.nullary main_call18.cst_2 (constant S_ .f32 0x3F800000#32),
    StableHlo.TRef.unary main_call18.cst_2 main_call18.v6 (broadcastInDim S50000x96 ![] bcast_S_S50000x96),
    StableHlo.TRef.binary main_call18.v6 main_call18.v5 main_call18.v7 mulf,
    StableHlo.TRef.ternary main_call18.v1 (.of main_v343 : StableHlo.TRef sig ⟨S50000x96, .f32⟩) main_call18.v7 main_call18.call1.v0 select ]

/-- The operations of hop 7. -/
def hop7 : List (HloOp τ sig (Elt F)) :=
  [ StableHlo.unary main_arg4 main_v345 (broadcastInDim S96x1 ![0] bcast_S96_S96x1_0 : (⟨S96, .f32⟩ : BufTy).Contents (Elt F) → (⟨S96x1, .f32⟩ : BufTy).Contents (Elt F)),
    StableHlo.binary main_v8 main_v345 main_v346 ((fun l r => Host.dotGeneral dot_S50000x96_S96x1_S50000x1_1_0_0_1_n_n none l r) : (⟨S50000x96, .f32⟩ : BufTy).Contents (Elt F) → (⟨S96x1, .f32⟩ : BufTy).Contents (Elt F) → (⟨S50000x1, .f32⟩ : BufTy).Contents (Elt F)),
    StableHlo.unary main_arg5 main_v347 (broadcastInDim S96x1 ![0] bcast_S96_S96x1_0 : (⟨S96, .f32⟩ : BufTy).Contents (Elt F) → (⟨S96x1, .f32⟩ : BufTy).Contents (Elt F)),
    StableHlo.binary main_v8 main_v347 main_v348 ((fun l r => Host.dotGeneral dot_S50000x96_S96x1_S50000x1_1_0_0_1_n_n none l r) : (⟨S50000x96, .f32⟩ : BufTy).Contents (Elt F) → (⟨S96x1, .f32⟩ : BufTy).Contents (Elt F) → (⟨S50000x1, .f32⟩ : BufTy).Contents (Elt F)),
    StableHlo.binary main_v346 main_v348 main_v349 (addf : (⟨S50000x1, .f32⟩ : BufTy).Contents (Elt F) → (⟨S50000x1, .f32⟩ : BufTy).Contents (Elt F) → (⟨S50000x1, .f32⟩ : BufTy).Contents (Elt F)),
    StableHlo.nullary main_cst_70 (constant S_ .f32 0x00000000#32),
    StableHlo.unary main_cst_70 main_v350 (broadcastInDim S50000x1 ![] bcast_S_S50000x1 : (⟨S_, .f32⟩ : BufTy).Contents (Elt F) → (⟨S50000x1, .f32⟩ : BufTy).Contents (Elt F)),
    StableHlo.binary main_v349 main_v350 main_v351 (cmpf .oge : (⟨S50000x1, .f32⟩ : BufTy).Contents (Elt F) → (⟨S50000x1, .f32⟩ : BufTy).Contents (Elt F) → (⟨S50000x1, .i1⟩ : BufTy).Contents (Elt F)),
    StableHlo.nullary main_cst_71 (constant S_ .f32 0x3E4CCCCD#32),
    StableHlo.unary main_cst_71 main_v352 (broadcastInDim S50000x1 ![] bcast_S_S50000x1 : (⟨S_, .f32⟩ : BufTy).Contents (Elt F) → (⟨S50000x1, .f32⟩ : BufTy).Contents (Elt F)),
    StableHlo.binary main_v352 main_v349 main_v353 (mulf : (⟨S50000x1, .f32⟩ : BufTy).Contents (Elt F) → (⟨S50000x1, .f32⟩ : BufTy).Contents (Elt F) → (⟨S50000x1, .f32⟩ : BufTy).Contents (Elt F)),
    StableHlo.TRef.ternary (.of main_v351 : StableHlo.TRef sig ⟨S50000x1, .i1⟩) (.of main_v349 : StableHlo.TRef sig ⟨S50000x1, .f32⟩) (.of main_v353 : StableHlo.TRef sig ⟨S50000x1, .f32⟩) main_call19.v0 select,
    StableHlo.unary main_v354 main_v355 (Host.exp : (⟨S50000x1, .f32⟩ : BufTy).Contents (Elt F) → (⟨S50000x1, .f32⟩ : BufTy).Contents (Elt F)),
    StableHlo.unary main_arg5 main_v356 (broadcastInDim S96x1 ![0] bcast_S96_S96x1_0 : (⟨S96, .f32⟩ : BufTy).Contents (Elt F) → (⟨S96x1, .f32⟩ : BufTy).Contents (Elt F)),
    StableHlo.binary main_v344 main_v356 main_v357 ((fun l r => Host.dotGeneral dot_S50000x96_S96x1_S50000x1_1_0_0_1_n_n none l r) : (⟨S50000x96, .f32⟩ : BufTy).Contents (Elt F) → (⟨S96x1, .f32⟩ : BufTy).Contents (Elt F) → (⟨S50000x1, .f32⟩ : BufTy).Contents (Elt F)),
    StableHlo.nullary main_c_72 (constantI S_ 32 0#32),
    StableHlo.unary main_c_72 main_v358 (broadcastInDim S800000 ![] bcast_S_S800000 : (⟨S_, .i32⟩ : BufTy).Contents (Elt F) → (⟨S800000, .i32⟩ : BufTy).Contents (Elt F)),
    StableHlo.binary main_v1 main_v358 main_v359 (cmpi .slt : (⟨S800000, .i32⟩ : BufTy).Contents (Elt F) → (⟨S800000, .i32⟩ : BufTy).Contents (Elt F) → (⟨S800000, .i1⟩ : BufTy).Contents (Elt F)),
    StableHlo.nullary main_c_73 (constantI S_ 32 50000#32),
    StableHlo.unary main_c_73 main_v360 (broadcastInDim S800000 ![] bcast_S_S800000 : (⟨S_, .i32⟩ : BufTy).Contents (Elt F) → (⟨S800000, .i32⟩ : BufTy).Contents (Elt F)),
    StableHlo.binary main_v1 main_v360 main_v361 (addi : (⟨S800000, .i32⟩ : BufTy).Contents (Elt F) → (⟨S800000, .i32⟩ : BufTy).Contents (Elt F) → (⟨S800000, .i32⟩ : BufTy).Contents (Elt F)),
    StableHlo.ternary main_v359 main_v361 main_v1 main_v362 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v362 main_v363 (broadcastInDim S800000x1 ![0] bcast_S800000_S800000x1_0 : (⟨S800000, .i32⟩ : BufTy).Contents (Elt F) → (⟨S800000x1, .i32⟩ : BufTy).Contents (Elt F)),
    StableHlo.binary main_v346 main_v363 main_v364 ((fun x i => Host.gather gather_S50000x1_S800000x1_S800000x1_1_0_n_n_0_1_11 x i) : (⟨S50000x1, .f32⟩ : BufTy).Contents (Elt F) → (⟨S800000x1, .i32⟩ : BufTy).Contents (Elt F) → (⟨S800000x1, .f32⟩ : BufTy).Contents (Elt F)),
    StableHlo.nullary main_c_74 (constantI S_ 32 0#32),
    StableHlo.unary main_c_74 main_v365 (broadcastInDim S800000 ![] bcast_S_S800000 : (⟨S_, .i32⟩ : BufTy).Contents (Elt F) → (⟨S800000, .i32⟩ : BufTy).Contents (Elt F)),
    StableHlo.binary main_v3 main_v365 main_v366 (cmpi .slt : (⟨S800000, .i32⟩ : BufTy).Contents (Elt F) → (⟨S800000, .i32⟩ : BufTy).Contents (Elt F) → (⟨S800000, .i1⟩ : BufTy).Contents (Elt F)),
    StableHlo.nullary main_c_75 (constantI S_ 32 50000#32),
    StableHlo.unary main_c_75 main_v367 (broadcastInDim S800000 ![] bcast_S_S800000 : (⟨S_, .i32⟩ : BufTy).Contents (Elt F) → (⟨S800000, .i32⟩ : BufTy).Contents (Elt F)),
    StableHlo.binary main_v3 main_v367 main_v368 (addi : (⟨S800000, .i32⟩ : BufTy).Contents (Elt F) → (⟨S800000, .i32⟩ : BufTy).Contents (Elt F) → (⟨S800000, .i32⟩ : BufTy).Contents (Elt F)),
    StableHlo.ternary main_v366 main_v368 main_v3 main_v369 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v369 main_v370 (broadcastInDim S800000x1 ![0] bcast_S800000_S800000x1_0 : (⟨S800000, .i32⟩ : BufTy).Contents (Elt F) → (⟨S800000x1, .i32⟩ : BufTy).Contents (Elt F)),
    StableHlo.binary main_v357 main_v370 main_v371 ((fun x i => Host.gather gather_S50000x1_S800000x1_S800000x1_1_0_n_n_0_1_11 x i) : (⟨S50000x1, .f32⟩ : BufTy).Contents (Elt F) → (⟨S800000x1, .i32⟩ : BufTy).Contents (Elt F) → (⟨S800000x1, .f32⟩ : BufTy).Contents (Elt F)),
    StableHlo.binary main_v364 main_v371 main_v372 (addf : (⟨S800000x1, .f32⟩ : BufTy).Contents (Elt F) → (⟨S800000x1, .f32⟩ : BufTy).Contents (Elt F) → (⟨S800000x1, .f32⟩ : BufTy).Contents (Elt F)),
    StableHlo.nullary main_cst_76 (constant S_ .f32 0x00000000#32),
    StableHlo.unary main_cst_76 main_v373 (broadcastInDim S800000x1 ![] bcast_S_S800000x1 : (⟨S_, .f32⟩ : BufTy).Contents (Elt F) → (⟨S800000x1, .f32⟩ : BufTy).Contents (Elt F)),
    StableHlo.binary main_v372 main_v373 main_v374 (cmpf .oge : (⟨S800000x1, .f32⟩ : BufTy).Contents (Elt F) → (⟨S800000x1, .f32⟩ : BufTy).Contents (Elt F) → (⟨S800000x1, .i1⟩ : BufTy).Contents (Elt F)),
    StableHlo.nullary main_cst_77 (constant S_ .f32 0x3E4CCCCD#32),
    StableHlo.unary main_cst_77 main_v375 (broadcastInDim S800000x1 ![] bcast_S_S800000x1 : (⟨S_, .f32⟩ : BufTy).Contents (Elt F) → (⟨S800000x1, .f32⟩ : BufTy).Contents (Elt F)),
    StableHlo.binary main_v375 main_v372 main_v376 (mulf : (⟨S800000x1, .f32⟩ : BufTy).Contents (Elt F) → (⟨S800000x1, .f32⟩ : BufTy).Contents (Elt F) → (⟨S800000x1, .f32⟩ : BufTy).Contents (Elt F)),
    StableHlo.TRef.ternary (.of main_v374 : StableHlo.TRef sig ⟨S800000x1, .i1⟩) (.of main_v372 : StableHlo.TRef sig ⟨S800000x1, .f32⟩) (.of main_v376 : StableHlo.TRef sig ⟨S800000x1, .f32⟩) main_call20.v0 select,
    StableHlo.unary main_v377 main_v378 (Host.exp : (⟨S800000x1, .f32⟩ : BufTy).Contents (Elt F) → (⟨S800000x1, .f32⟩ : BufTy).Contents (Elt F)),
    StableHlo.nullary main_cst_78 (constant S_ .f32 0x00000000#32),
    StableHlo.unary main_cst_78 main_v379 (broadcastInDim S50000x1 ![] bcast_S_S50000x1 : (⟨S_, .f32⟩ : BufTy).Contents (Elt F) → (⟨S50000x1, .f32⟩ : BufTy).Contents (Elt F)),
    StableHlo.unary main_v1 main_v380 (broadcastInDim S800000x1 ![0] bcast_S800000_S800000x1_0 : (⟨S800000, .i32⟩ : BufTy).Contents (Elt F) → (⟨S800000x1, .i32⟩ : BufTy).Contents (Elt F)),
    StableHlo.ternary main_v379 main_v380 main_v378 main_v381 ((fun x i u => Host.scatterAdd scatter_S50000x1_S800000x1_S800000x1_1_0_0_1 x i u) : (⟨S50000x1, .f32⟩ : BufTy).Contents (Elt F) → (⟨S800000x1, .i32⟩ : BufTy).Contents (Elt F) → (⟨S800000x1, .f32⟩ : BufTy).Contents (Elt F) → (⟨S50000x1, .f32⟩ : BufTy).Contents (Elt F)),
    StableHlo.binary main_v381 main_v355 main_v382 (addf : (⟨S50000x1, .f32⟩ : BufTy).Contents (Elt F) → (⟨S50000x1, .f32⟩ : BufTy).Contents (Elt F) → (⟨S50000x1, .f32⟩ : BufTy).Contents (Elt F)),
    StableHlo.nullary main_c_79 (constantI S_ 32 0#32),
    StableHlo.unary main_c_79 main_v383 (broadcastInDim S800000 ![] bcast_S_S800000 : (⟨S_, .i32⟩ : BufTy).Contents (Elt F) → (⟨S800000, .i32⟩ : BufTy).Contents (Elt F)),
    StableHlo.binary main_v3 main_v383 main_v384 (cmpi .slt : (⟨S800000, .i32⟩ : BufTy).Contents (Elt F) → (⟨S800000, .i32⟩ : BufTy).Contents (Elt F) → (⟨S800000, .i1⟩ : BufTy).Contents (Elt F)),
    StableHlo.nullary main_c_80 (constantI S_ 32 50000#32),
    StableHlo.unary main_c_80 main_v385 (broadcastInDim S800000 ![] bcast_S_S800000 : (⟨S_, .i32⟩ : BufTy).Contents (Elt F) → (⟨S800000, .i32⟩ : BufTy).Contents (Elt F)),
    StableHlo.binary main_v3 main_v385 main_v386 (addi : (⟨S800000, .i32⟩ : BufTy).Contents (Elt F) → (⟨S800000, .i32⟩ : BufTy).Contents (Elt F) → (⟨S800000, .i32⟩ : BufTy).Contents (Elt F)),
    StableHlo.ternary main_v384 main_v386 main_v3 main_v387 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v387 main_v388 (broadcastInDim S800000x1 ![0] bcast_S800000_S800000x1_0 : (⟨S800000, .i32⟩ : BufTy).Contents (Elt F) → (⟨S800000x1, .i32⟩ : BufTy).Contents (Elt F)),
    StableHlo.binary main_v344 main_v388 main_v389 ((fun x i => Host.gather gather_S50000x96_S800000x1_S800000x96_1_0_n_n_0_1_196 x i) : (⟨S50000x96, .f32⟩ : BufTy).Contents (Elt F) → (⟨S800000x1, .i32⟩ : BufTy).Contents (Elt F) → (⟨S800000x96, .f32⟩ : BufTy).Contents (Elt F)),
    StableHlo.unary main_v378 main_v390 (broadcastInDim S800000x96 ![0, 1] bcast_S800000x1_S800000x96_0_1 : (⟨S800000x1, .f32⟩ : BufTy).Contents (Elt F) → (⟨S800000x96, .f32⟩ : BufTy).Contents (Elt F)),
    StableHlo.binary main_v390 main_v389 main_v391 (mulf : (⟨S800000x96, .f32⟩ : BufTy).Contents (Elt F) → (⟨S800000x96, .f32⟩ : BufTy).Contents (Elt F) → (⟨S800000x96, .f32⟩ : BufTy).Contents (Elt F)),
    StableHlo.nullary main_cst_81 (constant S_ .f32 0x00000000#32),
    StableHlo.unary main_cst_81 main_v392 (broadcastInDim S50000x96 ![] bcast_S_S50000x96 : (⟨S_, .f32⟩ : BufTy).Contents (Elt F) → (⟨S50000x96, .f32⟩ : BufTy).Contents (Elt F)),
    StableHlo.unary main_v1 main_v393 (broadcastInDim S800000x1 ![0] bcast_S800000_S800000x1_0 : (⟨S800000, .i32⟩ : BufTy).Contents (Elt F) → (⟨S800000x1, .i32⟩ : BufTy).Contents (Elt F)),
    StableHlo.ternary main_v392 main_v393 main_v391 main_v394 ((fun x i u => Host.scatterAdd scatter_S50000x96_S800000x1_S800000x96_1_0_0_1 x i u) : (⟨S50000x96, .f32⟩ : BufTy).Contents (Elt F) → (⟨S800000x1, .i32⟩ : BufTy).Contents (Elt F) → (⟨S800000x96, .f32⟩ : BufTy).Contents (Elt F) → (⟨S50000x96, .f32⟩ : BufTy).Contents (Elt F)),
    StableHlo.unary main_v355 main_v395 (broadcastInDim S50000x96 ![0, 1] bcast_S50000x1_S50000x96_0_1 : (⟨S50000x1, .f32⟩ : BufTy).Contents (Elt F) → (⟨S50000x96, .f32⟩ : BufTy).Contents (Elt F)),
    StableHlo.binary main_v395 main_v8 main_v396 (mulf : (⟨S50000x96, .f32⟩ : BufTy).Contents (Elt F) → (⟨S50000x96, .f32⟩ : BufTy).Contents (Elt F) → (⟨S50000x96, .f32⟩ : BufTy).Contents (Elt F)),
    StableHlo.binary main_v394 main_v396 main_v397 (addf : (⟨S50000x96, .f32⟩ : BufTy).Contents (Elt F) → (⟨S50000x96, .f32⟩ : BufTy).Contents (Elt F) → (⟨S50000x96, .f32⟩ : BufTy).Contents (Elt F)),
    StableHlo.unary main_v382 main_v398 (broadcastInDim S50000x96 ![0, 1] bcast_S50000x1_S50000x96_0_1 : (⟨S50000x1, .f32⟩ : BufTy).Contents (Elt F) → (⟨S50000x96, .f32⟩ : BufTy).Contents (Elt F)),
    StableHlo.binary main_v397 main_v398 main_v399 (Host.divf : (⟨S50000x96, .f32⟩ : BufTy).Contents (Elt F) → (⟨S50000x96, .f32⟩ : BufTy).Contents (Elt F) → (⟨S50000x96, .f32⟩ : BufTy).Contents (Elt F)),
    StableHlo.TRef.nullary main_call21.cst (constant S_ .f32 0x00000000#32),
    StableHlo.TRef.unary main_call21.cst main_call21.v0 (broadcastInDim S50000x96 ![] bcast_S_S50000x96),
    StableHlo.TRef.binary (.of main_v399 : StableHlo.TRef sig ⟨S50000x96, .f32⟩) main_call21.v0 main_call21.v1 (cmpf .ogt),
    StableHlo.TRef.nullary main_call21.cst_0 (constant S_ .f32 0x00000000#32),
    StableHlo.TRef.unary main_call21.cst_0 main_call21.v2 (broadcastInDim S50000x96 ![] bcast_S_S50000x96),
    StableHlo.TRef.binary (.of main_v399 : StableHlo.TRef sig ⟨S50000x96, .f32⟩) main_call21.v2 main_call21.v3 (cmpf .ogt),
    StableHlo.TRef.nullary main_call21.cst_1 (constant S_ .f32 0x00000000#32),
    StableHlo.TRef.unary main_call21.cst_1 main_call21.call0.v0 id,
    StableHlo.TRef.unary main_call21.call0.v0 main_call21.call0.v1 (broadcastInDim S50000x96 ![] bcast_S_S50000x96),
    StableHlo.TRef.ternary main_call21.v3 main_call21.call0.v1 (.of main_v399 : StableHlo.TRef sig ⟨S50000x96, .f32⟩) main_call21.call0.v2 select,
    StableHlo.TRef.unary main_call21.call0.v2 main_call21.v5 Host.expm1,
    StableHlo.TRef.nullary main_call21.cst_2 (constant S_ .f32 0x3F800000#32),
    StableHlo.TRef.unary main_call21.cst_2 main_call21.v6 (broadcastInDim S50000x96 ![] bcast_S_S50000x96),
    StableHlo.TRef.binary main_call21.v6 main_call21.v5 main_call21.v7 mulf,
    StableHlo.TRef.ternary main_call21.v1 (.of main_v399 : StableHlo.TRef sig ⟨S50000x96, .f32⟩) main_call21.v7 main_call21.call1.v0 select ]

/-- The operations of hop 8. -/
def hop8 : List (HloOp τ sig (Elt F)) :=
  [ StableHlo.unary main_arg4 main_v401 (broadcastInDim S96x1 ![0] bcast_S96_S96x1_0 : (⟨S96, .f32⟩ : BufTy).Contents (Elt F) → (⟨S96x1, .f32⟩ : BufTy).Contents (Elt F)),
    StableHlo.binary main_v8 main_v401 main_v402 ((fun l r => Host.dotGeneral dot_S50000x96_S96x1_S50000x1_1_0_0_1_n_n none l r) : (⟨S50000x96, .f32⟩ : BufTy).Contents (Elt F) → (⟨S96x1, .f32⟩ : BufTy).Contents (Elt F) → (⟨S50000x1, .f32⟩ : BufTy).Contents (Elt F)),
    StableHlo.unary main_arg5 main_v403 (broadcastInDim S96x1 ![0] bcast_S96_S96x1_0 : (⟨S96, .f32⟩ : BufTy).Contents (Elt F) → (⟨S96x1, .f32⟩ : BufTy).Contents (Elt F)),
    StableHlo.binary main_v8 main_v403 main_v404 ((fun l r => Host.dotGeneral dot_S50000x96_S96x1_S50000x1_1_0_0_1_n_n none l r) : (⟨S50000x96, .f32⟩ : BufTy).Contents (Elt F) → (⟨S96x1, .f32⟩ : BufTy).Contents (Elt F) → (⟨S50000x1, .f32⟩ : BufTy).Contents (Elt F)),
    StableHlo.binary main_v402 main_v404 main_v405 (addf : (⟨S50000x1, .f32⟩ : BufTy).Contents (Elt F) → (⟨S50000x1, .f32⟩ : BufTy).Contents (Elt F) → (⟨S50000x1, .f32⟩ : BufTy).Contents (Elt F)),
    StableHlo.nullary main_cst_82 (constant S_ .f32 0x00000000#32),
    StableHlo.unary main_cst_82 main_v406 (broadcastInDim S50000x1 ![] bcast_S_S50000x1 : (⟨S_, .f32⟩ : BufTy).Contents (Elt F) → (⟨S50000x1, .f32⟩ : BufTy).Contents (Elt F)),
    StableHlo.binary main_v405 main_v406 main_v407 (cmpf .oge : (⟨S50000x1, .f32⟩ : BufTy).Contents (Elt F) → (⟨S50000x1, .f32⟩ : BufTy).Contents (Elt F) → (⟨S50000x1, .i1⟩ : BufTy).Contents (Elt F)),
    StableHlo.nullary main_cst_83 (constant S_ .f32 0x3E4CCCCD#32),
    StableHlo.unary main_cst_83 main_v408 (broadcastInDim S50000x1 ![] bcast_S_S50000x1 : (⟨S_, .f32⟩ : BufTy).Contents (Elt F) → (⟨S50000x1, .f32⟩ : BufTy).Contents (Elt F)),
    StableHlo.binary main_v408 main_v405 main_v409 (mulf : (⟨S50000x1, .f32⟩ : BufTy).Contents (Elt F) → (⟨S50000x1, .f32⟩ : BufTy).Contents (Elt F) → (⟨S50000x1, .f32⟩ : BufTy).Contents (Elt F)),
    StableHlo.TRef.ternary (.of main_v407 : StableHlo.TRef sig ⟨S50000x1, .i1⟩) (.of main_v405 : StableHlo.TRef sig ⟨S50000x1, .f32⟩) (.of main_v409 : StableHlo.TRef sig ⟨S50000x1, .f32⟩) main_call22.v0 select,
    StableHlo.unary main_v410 main_v411 (Host.exp : (⟨S50000x1, .f32⟩ : BufTy).Contents (Elt F) → (⟨S50000x1, .f32⟩ : BufTy).Contents (Elt F)),
    StableHlo.unary main_arg5 main_v412 (broadcastInDim S96x1 ![0] bcast_S96_S96x1_0 : (⟨S96, .f32⟩ : BufTy).Contents (Elt F) → (⟨S96x1, .f32⟩ : BufTy).Contents (Elt F)),
    StableHlo.binary main_v400 main_v412 main_v413 ((fun l r => Host.dotGeneral dot_S50000x96_S96x1_S50000x1_1_0_0_1_n_n none l r) : (⟨S50000x96, .f32⟩ : BufTy).Contents (Elt F) → (⟨S96x1, .f32⟩ : BufTy).Contents (Elt F) → (⟨S50000x1, .f32⟩ : BufTy).Contents (Elt F)),
    StableHlo.nullary main_c_84 (constantI S_ 32 0#32),
    StableHlo.unary main_c_84 main_v414 (broadcastInDim S800000 ![] bcast_S_S800000 : (⟨S_, .i32⟩ : BufTy).Contents (Elt F) → (⟨S800000, .i32⟩ : BufTy).Contents (Elt F)),
    StableHlo.binary main_v1 main_v414 main_v415 (cmpi .slt : (⟨S800000, .i32⟩ : BufTy).Contents (Elt F) → (⟨S800000, .i32⟩ : BufTy).Contents (Elt F) → (⟨S800000, .i1⟩ : BufTy).Contents (Elt F)),
    StableHlo.nullary main_c_85 (constantI S_ 32 50000#32),
    StableHlo.unary main_c_85 main_v416 (broadcastInDim S800000 ![] bcast_S_S800000 : (⟨S_, .i32⟩ : BufTy).Contents (Elt F) → (⟨S800000, .i32⟩ : BufTy).Contents (Elt F)),
    StableHlo.binary main_v1 main_v416 main_v417 (addi : (⟨S800000, .i32⟩ : BufTy).Contents (Elt F) → (⟨S800000, .i32⟩ : BufTy).Contents (Elt F) → (⟨S800000, .i32⟩ : BufTy).Contents (Elt F)),
    StableHlo.ternary main_v415 main_v417 main_v1 main_v418 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v418 main_v419 (broadcastInDim S800000x1 ![0] bcast_S800000_S800000x1_0 : (⟨S800000, .i32⟩ : BufTy).Contents (Elt F) → (⟨S800000x1, .i32⟩ : BufTy).Contents (Elt F)),
    StableHlo.binary main_v402 main_v419 main_v420 ((fun x i => Host.gather gather_S50000x1_S800000x1_S800000x1_1_0_n_n_0_1_11 x i) : (⟨S50000x1, .f32⟩ : BufTy).Contents (Elt F) → (⟨S800000x1, .i32⟩ : BufTy).Contents (Elt F) → (⟨S800000x1, .f32⟩ : BufTy).Contents (Elt F)),
    StableHlo.nullary main_c_86 (constantI S_ 32 0#32),
    StableHlo.unary main_c_86 main_v421 (broadcastInDim S800000 ![] bcast_S_S800000 : (⟨S_, .i32⟩ : BufTy).Contents (Elt F) → (⟨S800000, .i32⟩ : BufTy).Contents (Elt F)),
    StableHlo.binary main_v3 main_v421 main_v422 (cmpi .slt : (⟨S800000, .i32⟩ : BufTy).Contents (Elt F) → (⟨S800000, .i32⟩ : BufTy).Contents (Elt F) → (⟨S800000, .i1⟩ : BufTy).Contents (Elt F)),
    StableHlo.nullary main_c_87 (constantI S_ 32 50000#32),
    StableHlo.unary main_c_87 main_v423 (broadcastInDim S800000 ![] bcast_S_S800000 : (⟨S_, .i32⟩ : BufTy).Contents (Elt F) → (⟨S800000, .i32⟩ : BufTy).Contents (Elt F)),
    StableHlo.binary main_v3 main_v423 main_v424 (addi : (⟨S800000, .i32⟩ : BufTy).Contents (Elt F) → (⟨S800000, .i32⟩ : BufTy).Contents (Elt F) → (⟨S800000, .i32⟩ : BufTy).Contents (Elt F)),
    StableHlo.ternary main_v422 main_v424 main_v3 main_v425 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v425 main_v426 (broadcastInDim S800000x1 ![0] bcast_S800000_S800000x1_0 : (⟨S800000, .i32⟩ : BufTy).Contents (Elt F) → (⟨S800000x1, .i32⟩ : BufTy).Contents (Elt F)),
    StableHlo.binary main_v413 main_v426 main_v427 ((fun x i => Host.gather gather_S50000x1_S800000x1_S800000x1_1_0_n_n_0_1_11 x i) : (⟨S50000x1, .f32⟩ : BufTy).Contents (Elt F) → (⟨S800000x1, .i32⟩ : BufTy).Contents (Elt F) → (⟨S800000x1, .f32⟩ : BufTy).Contents (Elt F)),
    StableHlo.binary main_v420 main_v427 main_v428 (addf : (⟨S800000x1, .f32⟩ : BufTy).Contents (Elt F) → (⟨S800000x1, .f32⟩ : BufTy).Contents (Elt F) → (⟨S800000x1, .f32⟩ : BufTy).Contents (Elt F)),
    StableHlo.nullary main_cst_88 (constant S_ .f32 0x00000000#32),
    StableHlo.unary main_cst_88 main_v429 (broadcastInDim S800000x1 ![] bcast_S_S800000x1 : (⟨S_, .f32⟩ : BufTy).Contents (Elt F) → (⟨S800000x1, .f32⟩ : BufTy).Contents (Elt F)),
    StableHlo.binary main_v428 main_v429 main_v430 (cmpf .oge : (⟨S800000x1, .f32⟩ : BufTy).Contents (Elt F) → (⟨S800000x1, .f32⟩ : BufTy).Contents (Elt F) → (⟨S800000x1, .i1⟩ : BufTy).Contents (Elt F)),
    StableHlo.nullary main_cst_89 (constant S_ .f32 0x3E4CCCCD#32),
    StableHlo.unary main_cst_89 main_v431 (broadcastInDim S800000x1 ![] bcast_S_S800000x1 : (⟨S_, .f32⟩ : BufTy).Contents (Elt F) → (⟨S800000x1, .f32⟩ : BufTy).Contents (Elt F)),
    StableHlo.binary main_v431 main_v428 main_v432 (mulf : (⟨S800000x1, .f32⟩ : BufTy).Contents (Elt F) → (⟨S800000x1, .f32⟩ : BufTy).Contents (Elt F) → (⟨S800000x1, .f32⟩ : BufTy).Contents (Elt F)),
    StableHlo.TRef.ternary (.of main_v430 : StableHlo.TRef sig ⟨S800000x1, .i1⟩) (.of main_v428 : StableHlo.TRef sig ⟨S800000x1, .f32⟩) (.of main_v432 : StableHlo.TRef sig ⟨S800000x1, .f32⟩) main_call23.v0 select,
    StableHlo.unary main_v433 main_v434 (Host.exp : (⟨S800000x1, .f32⟩ : BufTy).Contents (Elt F) → (⟨S800000x1, .f32⟩ : BufTy).Contents (Elt F)),
    StableHlo.nullary main_cst_90 (constant S_ .f32 0x00000000#32),
    StableHlo.unary main_cst_90 main_v435 (broadcastInDim S50000x1 ![] bcast_S_S50000x1 : (⟨S_, .f32⟩ : BufTy).Contents (Elt F) → (⟨S50000x1, .f32⟩ : BufTy).Contents (Elt F)),
    StableHlo.unary main_v1 main_v436 (broadcastInDim S800000x1 ![0] bcast_S800000_S800000x1_0 : (⟨S800000, .i32⟩ : BufTy).Contents (Elt F) → (⟨S800000x1, .i32⟩ : BufTy).Contents (Elt F)),
    StableHlo.ternary main_v435 main_v436 main_v434 main_v437 ((fun x i u => Host.scatterAdd scatter_S50000x1_S800000x1_S800000x1_1_0_0_1 x i u) : (⟨S50000x1, .f32⟩ : BufTy).Contents (Elt F) → (⟨S800000x1, .i32⟩ : BufTy).Contents (Elt F) → (⟨S800000x1, .f32⟩ : BufTy).Contents (Elt F) → (⟨S50000x1, .f32⟩ : BufTy).Contents (Elt F)),
    StableHlo.binary main_v437 main_v411 main_v438 (addf : (⟨S50000x1, .f32⟩ : BufTy).Contents (Elt F) → (⟨S50000x1, .f32⟩ : BufTy).Contents (Elt F) → (⟨S50000x1, .f32⟩ : BufTy).Contents (Elt F)),
    StableHlo.nullary main_c_91 (constantI S_ 32 0#32),
    StableHlo.unary main_c_91 main_v439 (broadcastInDim S800000 ![] bcast_S_S800000 : (⟨S_, .i32⟩ : BufTy).Contents (Elt F) → (⟨S800000, .i32⟩ : BufTy).Contents (Elt F)),
    StableHlo.binary main_v3 main_v439 main_v440 (cmpi .slt : (⟨S800000, .i32⟩ : BufTy).Contents (Elt F) → (⟨S800000, .i32⟩ : BufTy).Contents (Elt F) → (⟨S800000, .i1⟩ : BufTy).Contents (Elt F)),
    StableHlo.nullary main_c_92 (constantI S_ 32 50000#32),
    StableHlo.unary main_c_92 main_v441 (broadcastInDim S800000 ![] bcast_S_S800000 : (⟨S_, .i32⟩ : BufTy).Contents (Elt F) → (⟨S800000, .i32⟩ : BufTy).Contents (Elt F)),
    StableHlo.binary main_v3 main_v441 main_v442 (addi : (⟨S800000, .i32⟩ : BufTy).Contents (Elt F) → (⟨S800000, .i32⟩ : BufTy).Contents (Elt F) → (⟨S800000, .i32⟩ : BufTy).Contents (Elt F)),
    StableHlo.ternary main_v440 main_v442 main_v3 main_v443 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v443 main_v444 (broadcastInDim S800000x1 ![0] bcast_S800000_S800000x1_0 : (⟨S800000, .i32⟩ : BufTy).Contents (Elt F) → (⟨S800000x1, .i32⟩ : BufTy).Contents (Elt F)),
    StableHlo.binary main_v400 main_v444 main_v445 ((fun x i => Host.gather gather_S50000x96_S800000x1_S800000x96_1_0_n_n_0_1_196 x i) : (⟨S50000x96, .f32⟩ : BufTy).Contents (Elt F) → (⟨S800000x1, .i32⟩ : BufTy).Contents (Elt F) → (⟨S800000x96, .f32⟩ : BufTy).Contents (Elt F)),
    StableHlo.unary main_v434 main_v446 (broadcastInDim S800000x96 ![0, 1] bcast_S800000x1_S800000x96_0_1 : (⟨S800000x1, .f32⟩ : BufTy).Contents (Elt F) → (⟨S800000x96, .f32⟩ : BufTy).Contents (Elt F)),
    StableHlo.binary main_v446 main_v445 main_v447 (mulf : (⟨S800000x96, .f32⟩ : BufTy).Contents (Elt F) → (⟨S800000x96, .f32⟩ : BufTy).Contents (Elt F) → (⟨S800000x96, .f32⟩ : BufTy).Contents (Elt F)),
    StableHlo.nullary main_cst_93 (constant S_ .f32 0x00000000#32),
    StableHlo.unary main_cst_93 main_v448 (broadcastInDim S50000x96 ![] bcast_S_S50000x96 : (⟨S_, .f32⟩ : BufTy).Contents (Elt F) → (⟨S50000x96, .f32⟩ : BufTy).Contents (Elt F)),
    StableHlo.unary main_v1 main_v449 (broadcastInDim S800000x1 ![0] bcast_S800000_S800000x1_0 : (⟨S800000, .i32⟩ : BufTy).Contents (Elt F) → (⟨S800000x1, .i32⟩ : BufTy).Contents (Elt F)),
    StableHlo.ternary main_v448 main_v449 main_v447 main_v450 ((fun x i u => Host.scatterAdd scatter_S50000x96_S800000x1_S800000x96_1_0_0_1 x i u) : (⟨S50000x96, .f32⟩ : BufTy).Contents (Elt F) → (⟨S800000x1, .i32⟩ : BufTy).Contents (Elt F) → (⟨S800000x96, .f32⟩ : BufTy).Contents (Elt F) → (⟨S50000x96, .f32⟩ : BufTy).Contents (Elt F)),
    StableHlo.unary main_v411 main_v451 (broadcastInDim S50000x96 ![0, 1] bcast_S50000x1_S50000x96_0_1 : (⟨S50000x1, .f32⟩ : BufTy).Contents (Elt F) → (⟨S50000x96, .f32⟩ : BufTy).Contents (Elt F)),
    StableHlo.binary main_v451 main_v8 main_v452 (mulf : (⟨S50000x96, .f32⟩ : BufTy).Contents (Elt F) → (⟨S50000x96, .f32⟩ : BufTy).Contents (Elt F) → (⟨S50000x96, .f32⟩ : BufTy).Contents (Elt F)),
    StableHlo.binary main_v450 main_v452 main_v453 (addf : (⟨S50000x96, .f32⟩ : BufTy).Contents (Elt F) → (⟨S50000x96, .f32⟩ : BufTy).Contents (Elt F) → (⟨S50000x96, .f32⟩ : BufTy).Contents (Elt F)),
    StableHlo.unary main_v438 main_v454 (broadcastInDim S50000x96 ![0, 1] bcast_S50000x1_S50000x96_0_1 : (⟨S50000x1, .f32⟩ : BufTy).Contents (Elt F) → (⟨S50000x96, .f32⟩ : BufTy).Contents (Elt F)),
    StableHlo.binary main_v453 main_v454 main_v455 (Host.divf : (⟨S50000x96, .f32⟩ : BufTy).Contents (Elt F) → (⟨S50000x96, .f32⟩ : BufTy).Contents (Elt F) → (⟨S50000x96, .f32⟩ : BufTy).Contents (Elt F)),
    StableHlo.TRef.nullary main_call24.cst (constant S_ .f32 0x00000000#32),
    StableHlo.TRef.unary main_call24.cst main_call24.v0 (broadcastInDim S50000x96 ![] bcast_S_S50000x96),
    StableHlo.TRef.binary (.of main_v455 : StableHlo.TRef sig ⟨S50000x96, .f32⟩) main_call24.v0 main_call24.v1 (cmpf .ogt),
    StableHlo.TRef.nullary main_call24.cst_0 (constant S_ .f32 0x00000000#32),
    StableHlo.TRef.unary main_call24.cst_0 main_call24.v2 (broadcastInDim S50000x96 ![] bcast_S_S50000x96),
    StableHlo.TRef.binary (.of main_v455 : StableHlo.TRef sig ⟨S50000x96, .f32⟩) main_call24.v2 main_call24.v3 (cmpf .ogt),
    StableHlo.TRef.nullary main_call24.cst_1 (constant S_ .f32 0x00000000#32),
    StableHlo.TRef.unary main_call24.cst_1 main_call24.call0.v0 id,
    StableHlo.TRef.unary main_call24.call0.v0 main_call24.call0.v1 (broadcastInDim S50000x96 ![] bcast_S_S50000x96),
    StableHlo.TRef.ternary main_call24.v3 main_call24.call0.v1 (.of main_v455 : StableHlo.TRef sig ⟨S50000x96, .f32⟩) main_call24.call0.v2 select,
    StableHlo.TRef.unary main_call24.call0.v2 main_call24.v5 Host.expm1,
    StableHlo.TRef.nullary main_call24.cst_2 (constant S_ .f32 0x3F800000#32),
    StableHlo.TRef.unary main_call24.cst_2 main_call24.v6 (broadcastInDim S50000x96 ![] bcast_S_S50000x96),
    StableHlo.TRef.binary main_call24.v6 main_call24.v5 main_call24.v7 mulf,
    StableHlo.TRef.ternary main_call24.v1 (.of main_v455 : StableHlo.TRef sig ⟨S50000x96, .f32⟩) main_call24.v7 main_call24.call1.v0 select ]

/-- The operations of hop 9. -/
def hop9 : List (HloOp τ sig (Elt F)) :=
  [ StableHlo.unary main_arg4 main_v457 (broadcastInDim S96x1 ![0] bcast_S96_S96x1_0 : (⟨S96, .f32⟩ : BufTy).Contents (Elt F) → (⟨S96x1, .f32⟩ : BufTy).Contents (Elt F)),
    StableHlo.binary main_v8 main_v457 main_v458 ((fun l r => Host.dotGeneral dot_S50000x96_S96x1_S50000x1_1_0_0_1_n_n none l r) : (⟨S50000x96, .f32⟩ : BufTy).Contents (Elt F) → (⟨S96x1, .f32⟩ : BufTy).Contents (Elt F) → (⟨S50000x1, .f32⟩ : BufTy).Contents (Elt F)),
    StableHlo.unary main_arg5 main_v459 (broadcastInDim S96x1 ![0] bcast_S96_S96x1_0 : (⟨S96, .f32⟩ : BufTy).Contents (Elt F) → (⟨S96x1, .f32⟩ : BufTy).Contents (Elt F)),
    StableHlo.binary main_v8 main_v459 main_v460 ((fun l r => Host.dotGeneral dot_S50000x96_S96x1_S50000x1_1_0_0_1_n_n none l r) : (⟨S50000x96, .f32⟩ : BufTy).Contents (Elt F) → (⟨S96x1, .f32⟩ : BufTy).Contents (Elt F) → (⟨S50000x1, .f32⟩ : BufTy).Contents (Elt F)),
    StableHlo.binary main_v458 main_v460 main_v461 (addf : (⟨S50000x1, .f32⟩ : BufTy).Contents (Elt F) → (⟨S50000x1, .f32⟩ : BufTy).Contents (Elt F) → (⟨S50000x1, .f32⟩ : BufTy).Contents (Elt F)),
    StableHlo.nullary main_cst_94 (constant S_ .f32 0x00000000#32),
    StableHlo.unary main_cst_94 main_v462 (broadcastInDim S50000x1 ![] bcast_S_S50000x1 : (⟨S_, .f32⟩ : BufTy).Contents (Elt F) → (⟨S50000x1, .f32⟩ : BufTy).Contents (Elt F)),
    StableHlo.binary main_v461 main_v462 main_v463 (cmpf .oge : (⟨S50000x1, .f32⟩ : BufTy).Contents (Elt F) → (⟨S50000x1, .f32⟩ : BufTy).Contents (Elt F) → (⟨S50000x1, .i1⟩ : BufTy).Contents (Elt F)),
    StableHlo.nullary main_cst_95 (constant S_ .f32 0x3E4CCCCD#32),
    StableHlo.unary main_cst_95 main_v464 (broadcastInDim S50000x1 ![] bcast_S_S50000x1 : (⟨S_, .f32⟩ : BufTy).Contents (Elt F) → (⟨S50000x1, .f32⟩ : BufTy).Contents (Elt F)),
    StableHlo.binary main_v464 main_v461 main_v465 (mulf : (⟨S50000x1, .f32⟩ : BufTy).Contents (Elt F) → (⟨S50000x1, .f32⟩ : BufTy).Contents (Elt F) → (⟨S50000x1, .f32⟩ : BufTy).Contents (Elt F)),
    StableHlo.TRef.ternary (.of main_v463 : StableHlo.TRef sig ⟨S50000x1, .i1⟩) (.of main_v461 : StableHlo.TRef sig ⟨S50000x1, .f32⟩) (.of main_v465 : StableHlo.TRef sig ⟨S50000x1, .f32⟩) main_call25.v0 select,
    StableHlo.unary main_v466 main_v467 (Host.exp : (⟨S50000x1, .f32⟩ : BufTy).Contents (Elt F) → (⟨S50000x1, .f32⟩ : BufTy).Contents (Elt F)),
    StableHlo.unary main_arg5 main_v468 (broadcastInDim S96x1 ![0] bcast_S96_S96x1_0 : (⟨S96, .f32⟩ : BufTy).Contents (Elt F) → (⟨S96x1, .f32⟩ : BufTy).Contents (Elt F)),
    StableHlo.binary main_v456 main_v468 main_v469 ((fun l r => Host.dotGeneral dot_S50000x96_S96x1_S50000x1_1_0_0_1_n_n none l r) : (⟨S50000x96, .f32⟩ : BufTy).Contents (Elt F) → (⟨S96x1, .f32⟩ : BufTy).Contents (Elt F) → (⟨S50000x1, .f32⟩ : BufTy).Contents (Elt F)),
    StableHlo.nullary main_c_96 (constantI S_ 32 0#32),
    StableHlo.unary main_c_96 main_v470 (broadcastInDim S800000 ![] bcast_S_S800000 : (⟨S_, .i32⟩ : BufTy).Contents (Elt F) → (⟨S800000, .i32⟩ : BufTy).Contents (Elt F)),
    StableHlo.binary main_v1 main_v470 main_v471 (cmpi .slt : (⟨S800000, .i32⟩ : BufTy).Contents (Elt F) → (⟨S800000, .i32⟩ : BufTy).Contents (Elt F) → (⟨S800000, .i1⟩ : BufTy).Contents (Elt F)),
    StableHlo.nullary main_c_97 (constantI S_ 32 50000#32),
    StableHlo.unary main_c_97 main_v472 (broadcastInDim S800000 ![] bcast_S_S800000 : (⟨S_, .i32⟩ : BufTy).Contents (Elt F) → (⟨S800000, .i32⟩ : BufTy).Contents (Elt F)),
    StableHlo.binary main_v1 main_v472 main_v473 (addi : (⟨S800000, .i32⟩ : BufTy).Contents (Elt F) → (⟨S800000, .i32⟩ : BufTy).Contents (Elt F) → (⟨S800000, .i32⟩ : BufTy).Contents (Elt F)),
    StableHlo.ternary main_v471 main_v473 main_v1 main_v474 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v474 main_v475 (broadcastInDim S800000x1 ![0] bcast_S800000_S800000x1_0 : (⟨S800000, .i32⟩ : BufTy).Contents (Elt F) → (⟨S800000x1, .i32⟩ : BufTy).Contents (Elt F)),
    StableHlo.binary main_v458 main_v475 main_v476 ((fun x i => Host.gather gather_S50000x1_S800000x1_S800000x1_1_0_n_n_0_1_11 x i) : (⟨S50000x1, .f32⟩ : BufTy).Contents (Elt F) → (⟨S800000x1, .i32⟩ : BufTy).Contents (Elt F) → (⟨S800000x1, .f32⟩ : BufTy).Contents (Elt F)),
    StableHlo.nullary main_c_98 (constantI S_ 32 0#32),
    StableHlo.unary main_c_98 main_v477 (broadcastInDim S800000 ![] bcast_S_S800000 : (⟨S_, .i32⟩ : BufTy).Contents (Elt F) → (⟨S800000, .i32⟩ : BufTy).Contents (Elt F)),
    StableHlo.binary main_v3 main_v477 main_v478 (cmpi .slt : (⟨S800000, .i32⟩ : BufTy).Contents (Elt F) → (⟨S800000, .i32⟩ : BufTy).Contents (Elt F) → (⟨S800000, .i1⟩ : BufTy).Contents (Elt F)),
    StableHlo.nullary main_c_99 (constantI S_ 32 50000#32),
    StableHlo.unary main_c_99 main_v479 (broadcastInDim S800000 ![] bcast_S_S800000 : (⟨S_, .i32⟩ : BufTy).Contents (Elt F) → (⟨S800000, .i32⟩ : BufTy).Contents (Elt F)),
    StableHlo.binary main_v3 main_v479 main_v480 (addi : (⟨S800000, .i32⟩ : BufTy).Contents (Elt F) → (⟨S800000, .i32⟩ : BufTy).Contents (Elt F) → (⟨S800000, .i32⟩ : BufTy).Contents (Elt F)),
    StableHlo.ternary main_v478 main_v480 main_v3 main_v481 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v481 main_v482 (broadcastInDim S800000x1 ![0] bcast_S800000_S800000x1_0 : (⟨S800000, .i32⟩ : BufTy).Contents (Elt F) → (⟨S800000x1, .i32⟩ : BufTy).Contents (Elt F)),
    StableHlo.binary main_v469 main_v482 main_v483 ((fun x i => Host.gather gather_S50000x1_S800000x1_S800000x1_1_0_n_n_0_1_11 x i) : (⟨S50000x1, .f32⟩ : BufTy).Contents (Elt F) → (⟨S800000x1, .i32⟩ : BufTy).Contents (Elt F) → (⟨S800000x1, .f32⟩ : BufTy).Contents (Elt F)),
    StableHlo.binary main_v476 main_v483 main_v484 (addf : (⟨S800000x1, .f32⟩ : BufTy).Contents (Elt F) → (⟨S800000x1, .f32⟩ : BufTy).Contents (Elt F) → (⟨S800000x1, .f32⟩ : BufTy).Contents (Elt F)),
    StableHlo.nullary main_cst_100 (constant S_ .f32 0x00000000#32),
    StableHlo.unary main_cst_100 main_v485 (broadcastInDim S800000x1 ![] bcast_S_S800000x1 : (⟨S_, .f32⟩ : BufTy).Contents (Elt F) → (⟨S800000x1, .f32⟩ : BufTy).Contents (Elt F)),
    StableHlo.binary main_v484 main_v485 main_v486 (cmpf .oge : (⟨S800000x1, .f32⟩ : BufTy).Contents (Elt F) → (⟨S800000x1, .f32⟩ : BufTy).Contents (Elt F) → (⟨S800000x1, .i1⟩ : BufTy).Contents (Elt F)),
    StableHlo.nullary main_cst_101 (constant S_ .f32 0x3E4CCCCD#32),
    StableHlo.unary main_cst_101 main_v487 (broadcastInDim S800000x1 ![] bcast_S_S800000x1 : (⟨S_, .f32⟩ : BufTy).Contents (Elt F) → (⟨S800000x1, .f32⟩ : BufTy).Contents (Elt F)),
    StableHlo.binary main_v487 main_v484 main_v488 (mulf : (⟨S800000x1, .f32⟩ : BufTy).Contents (Elt F) → (⟨S800000x1, .f32⟩ : BufTy).Contents (Elt F) → (⟨S800000x1, .f32⟩ : BufTy).Contents (Elt F)),
    StableHlo.TRef.ternary (.of main_v486 : StableHlo.TRef sig ⟨S800000x1, .i1⟩) (.of main_v484 : StableHlo.TRef sig ⟨S800000x1, .f32⟩) (.of main_v488 : StableHlo.TRef sig ⟨S800000x1, .f32⟩) main_call26.v0 select,
    StableHlo.unary main_v489 main_v490 (Host.exp : (⟨S800000x1, .f32⟩ : BufTy).Contents (Elt F) → (⟨S800000x1, .f32⟩ : BufTy).Contents (Elt F)),
    StableHlo.nullary main_cst_102 (constant S_ .f32 0x00000000#32),
    StableHlo.unary main_cst_102 main_v491 (broadcastInDim S50000x1 ![] bcast_S_S50000x1 : (⟨S_, .f32⟩ : BufTy).Contents (Elt F) → (⟨S50000x1, .f32⟩ : BufTy).Contents (Elt F)),
    StableHlo.unary main_v1 main_v492 (broadcastInDim S800000x1 ![0] bcast_S800000_S800000x1_0 : (⟨S800000, .i32⟩ : BufTy).Contents (Elt F) → (⟨S800000x1, .i32⟩ : BufTy).Contents (Elt F)),
    StableHlo.ternary main_v491 main_v492 main_v490 main_v493 ((fun x i u => Host.scatterAdd scatter_S50000x1_S800000x1_S800000x1_1_0_0_1 x i u) : (⟨S50000x1, .f32⟩ : BufTy).Contents (Elt F) → (⟨S800000x1, .i32⟩ : BufTy).Contents (Elt F) → (⟨S800000x1, .f32⟩ : BufTy).Contents (Elt F) → (⟨S50000x1, .f32⟩ : BufTy).Contents (Elt F)),
    StableHlo.binary main_v493 main_v467 main_v494 (addf : (⟨S50000x1, .f32⟩ : BufTy).Contents (Elt F) → (⟨S50000x1, .f32⟩ : BufTy).Contents (Elt F) → (⟨S50000x1, .f32⟩ : BufTy).Contents (Elt F)),
    StableHlo.nullary main_c_103 (constantI S_ 32 0#32),
    StableHlo.unary main_c_103 main_v495 (broadcastInDim S800000 ![] bcast_S_S800000 : (⟨S_, .i32⟩ : BufTy).Contents (Elt F) → (⟨S800000, .i32⟩ : BufTy).Contents (Elt F)),
    StableHlo.binary main_v3 main_v495 main_v496 (cmpi .slt : (⟨S800000, .i32⟩ : BufTy).Contents (Elt F) → (⟨S800000, .i32⟩ : BufTy).Contents (Elt F) → (⟨S800000, .i1⟩ : BufTy).Contents (Elt F)),
    StableHlo.nullary main_c_104 (constantI S_ 32 50000#32),
    StableHlo.unary main_c_104 main_v497 (broadcastInDim S800000 ![] bcast_S_S800000 : (⟨S_, .i32⟩ : BufTy).Contents (Elt F) → (⟨S800000, .i32⟩ : BufTy).Contents (Elt F)),
    StableHlo.binary main_v3 main_v497 main_v498 (addi : (⟨S800000, .i32⟩ : BufTy).Contents (Elt F) → (⟨S800000, .i32⟩ : BufTy).Contents (Elt F) → (⟨S800000, .i32⟩ : BufTy).Contents (Elt F)),
    StableHlo.ternary main_v496 main_v498 main_v3 main_v499 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v499 main_v500 (broadcastInDim S800000x1 ![0] bcast_S800000_S800000x1_0 : (⟨S800000, .i32⟩ : BufTy).Contents (Elt F) → (⟨S800000x1, .i32⟩ : BufTy).Contents (Elt F)),
    StableHlo.binary main_v456 main_v500 main_v501 ((fun x i => Host.gather gather_S50000x96_S800000x1_S800000x96_1_0_n_n_0_1_196 x i) : (⟨S50000x96, .f32⟩ : BufTy).Contents (Elt F) → (⟨S800000x1, .i32⟩ : BufTy).Contents (Elt F) → (⟨S800000x96, .f32⟩ : BufTy).Contents (Elt F)),
    StableHlo.unary main_v490 main_v502 (broadcastInDim S800000x96 ![0, 1] bcast_S800000x1_S800000x96_0_1 : (⟨S800000x1, .f32⟩ : BufTy).Contents (Elt F) → (⟨S800000x96, .f32⟩ : BufTy).Contents (Elt F)),
    StableHlo.binary main_v502 main_v501 main_v503 (mulf : (⟨S800000x96, .f32⟩ : BufTy).Contents (Elt F) → (⟨S800000x96, .f32⟩ : BufTy).Contents (Elt F) → (⟨S800000x96, .f32⟩ : BufTy).Contents (Elt F)),
    StableHlo.nullary main_cst_105 (constant S_ .f32 0x00000000#32),
    StableHlo.unary main_cst_105 main_v504 (broadcastInDim S50000x96 ![] bcast_S_S50000x96 : (⟨S_, .f32⟩ : BufTy).Contents (Elt F) → (⟨S50000x96, .f32⟩ : BufTy).Contents (Elt F)),
    StableHlo.unary main_v1 main_v505 (broadcastInDim S800000x1 ![0] bcast_S800000_S800000x1_0 : (⟨S800000, .i32⟩ : BufTy).Contents (Elt F) → (⟨S800000x1, .i32⟩ : BufTy).Contents (Elt F)),
    StableHlo.ternary main_v504 main_v505 main_v503 main_v506 ((fun x i u => Host.scatterAdd scatter_S50000x96_S800000x1_S800000x96_1_0_0_1 x i u) : (⟨S50000x96, .f32⟩ : BufTy).Contents (Elt F) → (⟨S800000x1, .i32⟩ : BufTy).Contents (Elt F) → (⟨S800000x96, .f32⟩ : BufTy).Contents (Elt F) → (⟨S50000x96, .f32⟩ : BufTy).Contents (Elt F)),
    StableHlo.unary main_v467 main_v507 (broadcastInDim S50000x96 ![0, 1] bcast_S50000x1_S50000x96_0_1 : (⟨S50000x1, .f32⟩ : BufTy).Contents (Elt F) → (⟨S50000x96, .f32⟩ : BufTy).Contents (Elt F)),
    StableHlo.binary main_v507 main_v8 main_v508 (mulf : (⟨S50000x96, .f32⟩ : BufTy).Contents (Elt F) → (⟨S50000x96, .f32⟩ : BufTy).Contents (Elt F) → (⟨S50000x96, .f32⟩ : BufTy).Contents (Elt F)),
    StableHlo.binary main_v506 main_v508 main_v509 (addf : (⟨S50000x96, .f32⟩ : BufTy).Contents (Elt F) → (⟨S50000x96, .f32⟩ : BufTy).Contents (Elt F) → (⟨S50000x96, .f32⟩ : BufTy).Contents (Elt F)),
    StableHlo.unary main_v494 main_v510 (broadcastInDim S50000x96 ![0, 1] bcast_S50000x1_S50000x96_0_1 : (⟨S50000x1, .f32⟩ : BufTy).Contents (Elt F) → (⟨S50000x96, .f32⟩ : BufTy).Contents (Elt F)),
    StableHlo.binary main_v509 main_v510 main_v511 (Host.divf : (⟨S50000x96, .f32⟩ : BufTy).Contents (Elt F) → (⟨S50000x96, .f32⟩ : BufTy).Contents (Elt F) → (⟨S50000x96, .f32⟩ : BufTy).Contents (Elt F)),
    StableHlo.TRef.nullary main_call27.cst (constant S_ .f32 0x00000000#32),
    StableHlo.TRef.unary main_call27.cst main_call27.v0 (broadcastInDim S50000x96 ![] bcast_S_S50000x96),
    StableHlo.TRef.binary (.of main_v511 : StableHlo.TRef sig ⟨S50000x96, .f32⟩) main_call27.v0 main_call27.v1 (cmpf .ogt),
    StableHlo.TRef.nullary main_call27.cst_0 (constant S_ .f32 0x00000000#32),
    StableHlo.TRef.unary main_call27.cst_0 main_call27.v2 (broadcastInDim S50000x96 ![] bcast_S_S50000x96),
    StableHlo.TRef.binary (.of main_v511 : StableHlo.TRef sig ⟨S50000x96, .f32⟩) main_call27.v2 main_call27.v3 (cmpf .ogt),
    StableHlo.TRef.nullary main_call27.cst_1 (constant S_ .f32 0x00000000#32),
    StableHlo.TRef.unary main_call27.cst_1 main_call27.call0.v0 id,
    StableHlo.TRef.unary main_call27.call0.v0 main_call27.call0.v1 (broadcastInDim S50000x96 ![] bcast_S_S50000x96),
    StableHlo.TRef.ternary main_call27.v3 main_call27.call0.v1 (.of main_v511 : StableHlo.TRef sig ⟨S50000x96, .f32⟩) main_call27.call0.v2 select,
    StableHlo.TRef.unary main_call27.call0.v2 main_call27.v5 Host.expm1,
    StableHlo.TRef.nullary main_call27.cst_2 (constant S_ .f32 0x3F800000#32),
    StableHlo.TRef.unary main_call27.cst_2 main_call27.v6 (broadcastInDim S50000x96 ![] bcast_S_S50000x96),
    StableHlo.TRef.binary main_call27.v6 main_call27.v5 main_call27.v7 mulf,
    StableHlo.TRef.ternary main_call27.v1 (.of main_v511 : StableHlo.TRef sig ⟨S50000x96, .f32⟩) main_call27.v7 main_call27.call1.v0 select ]

/-- The operations of hop 10. -/
def hop10 : List (HloOp τ sig (Elt F)) :=
  [ StableHlo.unary main_arg4 main_v513 (broadcastInDim S96x1 ![0] bcast_S96_S96x1_0 : (⟨S96, .f32⟩ : BufTy).Contents (Elt F) → (⟨S96x1, .f32⟩ : BufTy).Contents (Elt F)),
    StableHlo.binary main_v8 main_v513 main_v514 ((fun l r => Host.dotGeneral dot_S50000x96_S96x1_S50000x1_1_0_0_1_n_n none l r) : (⟨S50000x96, .f32⟩ : BufTy).Contents (Elt F) → (⟨S96x1, .f32⟩ : BufTy).Contents (Elt F) → (⟨S50000x1, .f32⟩ : BufTy).Contents (Elt F)),
    StableHlo.unary main_arg5 main_v515 (broadcastInDim S96x1 ![0] bcast_S96_S96x1_0 : (⟨S96, .f32⟩ : BufTy).Contents (Elt F) → (⟨S96x1, .f32⟩ : BufTy).Contents (Elt F)),
    StableHlo.binary main_v8 main_v515 main_v516 ((fun l r => Host.dotGeneral dot_S50000x96_S96x1_S50000x1_1_0_0_1_n_n none l r) : (⟨S50000x96, .f32⟩ : BufTy).Contents (Elt F) → (⟨S96x1, .f32⟩ : BufTy).Contents (Elt F) → (⟨S50000x1, .f32⟩ : BufTy).Contents (Elt F)),
    StableHlo.binary main_v514 main_v516 main_v517 (addf : (⟨S50000x1, .f32⟩ : BufTy).Contents (Elt F) → (⟨S50000x1, .f32⟩ : BufTy).Contents (Elt F) → (⟨S50000x1, .f32⟩ : BufTy).Contents (Elt F)),
    StableHlo.nullary main_cst_106 (constant S_ .f32 0x00000000#32),
    StableHlo.unary main_cst_106 main_v518 (broadcastInDim S50000x1 ![] bcast_S_S50000x1 : (⟨S_, .f32⟩ : BufTy).Contents (Elt F) → (⟨S50000x1, .f32⟩ : BufTy).Contents (Elt F)),
    StableHlo.binary main_v517 main_v518 main_v519 (cmpf .oge : (⟨S50000x1, .f32⟩ : BufTy).Contents (Elt F) → (⟨S50000x1, .f32⟩ : BufTy).Contents (Elt F) → (⟨S50000x1, .i1⟩ : BufTy).Contents (Elt F)),
    StableHlo.nullary main_cst_107 (constant S_ .f32 0x3E4CCCCD#32),
    StableHlo.unary main_cst_107 main_v520 (broadcastInDim S50000x1 ![] bcast_S_S50000x1 : (⟨S_, .f32⟩ : BufTy).Contents (Elt F) → (⟨S50000x1, .f32⟩ : BufTy).Contents (Elt F)),
    StableHlo.binary main_v520 main_v517 main_v521 (mulf : (⟨S50000x1, .f32⟩ : BufTy).Contents (Elt F) → (⟨S50000x1, .f32⟩ : BufTy).Contents (Elt F) → (⟨S50000x1, .f32⟩ : BufTy).Contents (Elt F)),
    StableHlo.TRef.ternary (.of main_v519 : StableHlo.TRef sig ⟨S50000x1, .i1⟩) (.of main_v517 : StableHlo.TRef sig ⟨S50000x1, .f32⟩) (.of main_v521 : StableHlo.TRef sig ⟨S50000x1, .f32⟩) main_call28.v0 select,
    StableHlo.unary main_v522 main_v523 (Host.exp : (⟨S50000x1, .f32⟩ : BufTy).Contents (Elt F) → (⟨S50000x1, .f32⟩ : BufTy).Contents (Elt F)),
    StableHlo.unary main_arg5 main_v524 (broadcastInDim S96x1 ![0] bcast_S96_S96x1_0 : (⟨S96, .f32⟩ : BufTy).Contents (Elt F) → (⟨S96x1, .f32⟩ : BufTy).Contents (Elt F)),
    StableHlo.binary main_v512 main_v524 main_v525 ((fun l r => Host.dotGeneral dot_S50000x96_S96x1_S50000x1_1_0_0_1_n_n none l r) : (⟨S50000x96, .f32⟩ : BufTy).Contents (Elt F) → (⟨S96x1, .f32⟩ : BufTy).Contents (Elt F) → (⟨S50000x1, .f32⟩ : BufTy).Contents (Elt F)),
    StableHlo.nullary main_c_108 (constantI S_ 32 0#32),
    StableHlo.unary main_c_108 main_v526 (broadcastInDim S800000 ![] bcast_S_S800000 : (⟨S_, .i32⟩ : BufTy).Contents (Elt F) → (⟨S800000, .i32⟩ : BufTy).Contents (Elt F)),
    StableHlo.binary main_v1 main_v526 main_v527 (cmpi .slt : (⟨S800000, .i32⟩ : BufTy).Contents (Elt F) → (⟨S800000, .i32⟩ : BufTy).Contents (Elt F) → (⟨S800000, .i1⟩ : BufTy).Contents (Elt F)),
    StableHlo.nullary main_c_109 (constantI S_ 32 50000#32),
    StableHlo.unary main_c_109 main_v528 (broadcastInDim S800000 ![] bcast_S_S800000 : (⟨S_, .i32⟩ : BufTy).Contents (Elt F) → (⟨S800000, .i32⟩ : BufTy).Contents (Elt F)),
    StableHlo.binary main_v1 main_v528 main_v529 (addi : (⟨S800000, .i32⟩ : BufTy).Contents (Elt F) → (⟨S800000, .i32⟩ : BufTy).Contents (Elt F) → (⟨S800000, .i32⟩ : BufTy).Contents (Elt F)),
    StableHlo.ternary main_v527 main_v529 main_v1 main_v530 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v530 main_v531 (broadcastInDim S800000x1 ![0] bcast_S800000_S800000x1_0 : (⟨S800000, .i32⟩ : BufTy).Contents (Elt F) → (⟨S800000x1, .i32⟩ : BufTy).Contents (Elt F)),
    StableHlo.binary main_v514 main_v531 main_v532 ((fun x i => Host.gather gather_S50000x1_S800000x1_S800000x1_1_0_n_n_0_1_11 x i) : (⟨S50000x1, .f32⟩ : BufTy).Contents (Elt F) → (⟨S800000x1, .i32⟩ : BufTy).Contents (Elt F) → (⟨S800000x1, .f32⟩ : BufTy).Contents (Elt F)),
    StableHlo.nullary main_c_110 (constantI S_ 32 0#32),
    StableHlo.unary main_c_110 main_v533 (broadcastInDim S800000 ![] bcast_S_S800000 : (⟨S_, .i32⟩ : BufTy).Contents (Elt F) → (⟨S800000, .i32⟩ : BufTy).Contents (Elt F)),
    StableHlo.binary main_v3 main_v533 main_v534 (cmpi .slt : (⟨S800000, .i32⟩ : BufTy).Contents (Elt F) → (⟨S800000, .i32⟩ : BufTy).Contents (Elt F) → (⟨S800000, .i1⟩ : BufTy).Contents (Elt F)),
    StableHlo.nullary main_c_111 (constantI S_ 32 50000#32),
    StableHlo.unary main_c_111 main_v535 (broadcastInDim S800000 ![] bcast_S_S800000 : (⟨S_, .i32⟩ : BufTy).Contents (Elt F) → (⟨S800000, .i32⟩ : BufTy).Contents (Elt F)),
    StableHlo.binary main_v3 main_v535 main_v536 (addi : (⟨S800000, .i32⟩ : BufTy).Contents (Elt F) → (⟨S800000, .i32⟩ : BufTy).Contents (Elt F) → (⟨S800000, .i32⟩ : BufTy).Contents (Elt F)),
    StableHlo.ternary main_v534 main_v536 main_v3 main_v537 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v537 main_v538 (broadcastInDim S800000x1 ![0] bcast_S800000_S800000x1_0 : (⟨S800000, .i32⟩ : BufTy).Contents (Elt F) → (⟨S800000x1, .i32⟩ : BufTy).Contents (Elt F)),
    StableHlo.binary main_v525 main_v538 main_v539 ((fun x i => Host.gather gather_S50000x1_S800000x1_S800000x1_1_0_n_n_0_1_11 x i) : (⟨S50000x1, .f32⟩ : BufTy).Contents (Elt F) → (⟨S800000x1, .i32⟩ : BufTy).Contents (Elt F) → (⟨S800000x1, .f32⟩ : BufTy).Contents (Elt F)),
    StableHlo.binary main_v532 main_v539 main_v540 (addf : (⟨S800000x1, .f32⟩ : BufTy).Contents (Elt F) → (⟨S800000x1, .f32⟩ : BufTy).Contents (Elt F) → (⟨S800000x1, .f32⟩ : BufTy).Contents (Elt F)),
    StableHlo.nullary main_cst_112 (constant S_ .f32 0x00000000#32),
    StableHlo.unary main_cst_112 main_v541 (broadcastInDim S800000x1 ![] bcast_S_S800000x1 : (⟨S_, .f32⟩ : BufTy).Contents (Elt F) → (⟨S800000x1, .f32⟩ : BufTy).Contents (Elt F)),
    StableHlo.binary main_v540 main_v541 main_v542 (cmpf .oge : (⟨S800000x1, .f32⟩ : BufTy).Contents (Elt F) → (⟨S800000x1, .f32⟩ : BufTy).Contents (Elt F) → (⟨S800000x1, .i1⟩ : BufTy).Contents (Elt F)),
    StableHlo.nullary main_cst_113 (constant S_ .f32 0x3E4CCCCD#32),
    StableHlo.unary main_cst_113 main_v543 (broadcastInDim S800000x1 ![] bcast_S_S800000x1 : (⟨S_, .f32⟩ : BufTy).Contents (Elt F) → (⟨S800000x1, .f32⟩ : BufTy).Contents (Elt F)),
    StableHlo.binary main_v543 main_v540 main_v544 (mulf : (⟨S800000x1, .f32⟩ : BufTy).Contents (Elt F) → (⟨S800000x1, .f32⟩ : BufTy).Contents (Elt F) → (⟨S800000x1, .f32⟩ : BufTy).Contents (Elt F)),
    StableHlo.TRef.ternary (.of main_v542 : StableHlo.TRef sig ⟨S800000x1, .i1⟩) (.of main_v540 : StableHlo.TRef sig ⟨S800000x1, .f32⟩) (.of main_v544 : StableHlo.TRef sig ⟨S800000x1, .f32⟩) main_call29.v0 select,
    StableHlo.unary main_v545 main_v546 (Host.exp : (⟨S800000x1, .f32⟩ : BufTy).Contents (Elt F) → (⟨S800000x1, .f32⟩ : BufTy).Contents (Elt F)),
    StableHlo.nullary main_cst_114 (constant S_ .f32 0x00000000#32),
    StableHlo.unary main_cst_114 main_v547 (broadcastInDim S50000x1 ![] bcast_S_S50000x1 : (⟨S_, .f32⟩ : BufTy).Contents (Elt F) → (⟨S50000x1, .f32⟩ : BufTy).Contents (Elt F)),
    StableHlo.unary main_v1 main_v548 (broadcastInDim S800000x1 ![0] bcast_S800000_S800000x1_0 : (⟨S800000, .i32⟩ : BufTy).Contents (Elt F) → (⟨S800000x1, .i32⟩ : BufTy).Contents (Elt F)),
    StableHlo.ternary main_v547 main_v548 main_v546 main_v549 ((fun x i u => Host.scatterAdd scatter_S50000x1_S800000x1_S800000x1_1_0_0_1 x i u) : (⟨S50000x1, .f32⟩ : BufTy).Contents (Elt F) → (⟨S800000x1, .i32⟩ : BufTy).Contents (Elt F) → (⟨S800000x1, .f32⟩ : BufTy).Contents (Elt F) → (⟨S50000x1, .f32⟩ : BufTy).Contents (Elt F)),
    StableHlo.binary main_v549 main_v523 main_v550 (addf : (⟨S50000x1, .f32⟩ : BufTy).Contents (Elt F) → (⟨S50000x1, .f32⟩ : BufTy).Contents (Elt F) → (⟨S50000x1, .f32⟩ : BufTy).Contents (Elt F)),
    StableHlo.nullary main_c_115 (constantI S_ 32 0#32),
    StableHlo.unary main_c_115 main_v551 (broadcastInDim S800000 ![] bcast_S_S800000 : (⟨S_, .i32⟩ : BufTy).Contents (Elt F) → (⟨S800000, .i32⟩ : BufTy).Contents (Elt F)),
    StableHlo.binary main_v3 main_v551 main_v552 (cmpi .slt : (⟨S800000, .i32⟩ : BufTy).Contents (Elt F) → (⟨S800000, .i32⟩ : BufTy).Contents (Elt F) → (⟨S800000, .i1⟩ : BufTy).Contents (Elt F)),
    StableHlo.nullary main_c_116 (constantI S_ 32 50000#32),
    StableHlo.unary main_c_116 main_v553 (broadcastInDim S800000 ![] bcast_S_S800000 : (⟨S_, .i32⟩ : BufTy).Contents (Elt F) → (⟨S800000, .i32⟩ : BufTy).Contents (Elt F)),
    StableHlo.binary main_v3 main_v553 main_v554 (addi : (⟨S800000, .i32⟩ : BufTy).Contents (Elt F) → (⟨S800000, .i32⟩ : BufTy).Contents (Elt F) → (⟨S800000, .i32⟩ : BufTy).Contents (Elt F)),
    StableHlo.ternary main_v552 main_v554 main_v3 main_v555 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v555 main_v556 (broadcastInDim S800000x1 ![0] bcast_S800000_S800000x1_0 : (⟨S800000, .i32⟩ : BufTy).Contents (Elt F) → (⟨S800000x1, .i32⟩ : BufTy).Contents (Elt F)),
    StableHlo.binary main_v512 main_v556 main_v557 ((fun x i => Host.gather gather_S50000x96_S800000x1_S800000x96_1_0_n_n_0_1_196 x i) : (⟨S50000x96, .f32⟩ : BufTy).Contents (Elt F) → (⟨S800000x1, .i32⟩ : BufTy).Contents (Elt F) → (⟨S800000x96, .f32⟩ : BufTy).Contents (Elt F)),
    StableHlo.unary main_v546 main_v558 (broadcastInDim S800000x96 ![0, 1] bcast_S800000x1_S800000x96_0_1 : (⟨S800000x1, .f32⟩ : BufTy).Contents (Elt F) → (⟨S800000x96, .f32⟩ : BufTy).Contents (Elt F)),
    StableHlo.binary main_v558 main_v557 main_v559 (mulf : (⟨S800000x96, .f32⟩ : BufTy).Contents (Elt F) → (⟨S800000x96, .f32⟩ : BufTy).Contents (Elt F) → (⟨S800000x96, .f32⟩ : BufTy).Contents (Elt F)),
    StableHlo.nullary main_cst_117 (constant S_ .f32 0x00000000#32),
    StableHlo.unary main_cst_117 main_v560 (broadcastInDim S50000x96 ![] bcast_S_S50000x96 : (⟨S_, .f32⟩ : BufTy).Contents (Elt F) → (⟨S50000x96, .f32⟩ : BufTy).Contents (Elt F)),
    StableHlo.unary main_v1 main_v561 (broadcastInDim S800000x1 ![0] bcast_S800000_S800000x1_0 : (⟨S800000, .i32⟩ : BufTy).Contents (Elt F) → (⟨S800000x1, .i32⟩ : BufTy).Contents (Elt F)),
    StableHlo.ternary main_v560 main_v561 main_v559 main_v562 ((fun x i u => Host.scatterAdd scatter_S50000x96_S800000x1_S800000x96_1_0_0_1 x i u) : (⟨S50000x96, .f32⟩ : BufTy).Contents (Elt F) → (⟨S800000x1, .i32⟩ : BufTy).Contents (Elt F) → (⟨S800000x96, .f32⟩ : BufTy).Contents (Elt F) → (⟨S50000x96, .f32⟩ : BufTy).Contents (Elt F)),
    StableHlo.unary main_v523 main_v563 (broadcastInDim S50000x96 ![0, 1] bcast_S50000x1_S50000x96_0_1 : (⟨S50000x1, .f32⟩ : BufTy).Contents (Elt F) → (⟨S50000x96, .f32⟩ : BufTy).Contents (Elt F)),
    StableHlo.binary main_v563 main_v8 main_v564 (mulf : (⟨S50000x96, .f32⟩ : BufTy).Contents (Elt F) → (⟨S50000x96, .f32⟩ : BufTy).Contents (Elt F) → (⟨S50000x96, .f32⟩ : BufTy).Contents (Elt F)),
    StableHlo.binary main_v562 main_v564 main_v565 (addf : (⟨S50000x96, .f32⟩ : BufTy).Contents (Elt F) → (⟨S50000x96, .f32⟩ : BufTy).Contents (Elt F) → (⟨S50000x96, .f32⟩ : BufTy).Contents (Elt F)),
    StableHlo.unary main_v550 main_v566 (broadcastInDim S50000x96 ![0, 1] bcast_S50000x1_S50000x96_0_1 : (⟨S50000x1, .f32⟩ : BufTy).Contents (Elt F) → (⟨S50000x96, .f32⟩ : BufTy).Contents (Elt F)),
    StableHlo.binary main_v565 main_v566 main_v567 (Host.divf : (⟨S50000x96, .f32⟩ : BufTy).Contents (Elt F) → (⟨S50000x96, .f32⟩ : BufTy).Contents (Elt F) → (⟨S50000x96, .f32⟩ : BufTy).Contents (Elt F)),
    StableHlo.TRef.nullary main_call30.cst (constant S_ .f32 0x00000000#32),
    StableHlo.TRef.unary main_call30.cst main_call30.v0 (broadcastInDim S50000x96 ![] bcast_S_S50000x96),
    StableHlo.TRef.binary (.of main_v567 : StableHlo.TRef sig ⟨S50000x96, .f32⟩) main_call30.v0 main_call30.v1 (cmpf .ogt),
    StableHlo.TRef.nullary main_call30.cst_0 (constant S_ .f32 0x00000000#32),
    StableHlo.TRef.unary main_call30.cst_0 main_call30.v2 (broadcastInDim S50000x96 ![] bcast_S_S50000x96),
    StableHlo.TRef.binary (.of main_v567 : StableHlo.TRef sig ⟨S50000x96, .f32⟩) main_call30.v2 main_call30.v3 (cmpf .ogt),
    StableHlo.TRef.nullary main_call30.cst_1 (constant S_ .f32 0x00000000#32),
    StableHlo.TRef.unary main_call30.cst_1 main_call30.call0.v0 id,
    StableHlo.TRef.unary main_call30.call0.v0 main_call30.call0.v1 (broadcastInDim S50000x96 ![] bcast_S_S50000x96),
    StableHlo.TRef.ternary main_call30.v3 main_call30.call0.v1 (.of main_v567 : StableHlo.TRef sig ⟨S50000x96, .f32⟩) main_call30.call0.v2 select,
    StableHlo.TRef.unary main_call30.call0.v2 main_call30.v5 Host.expm1,
    StableHlo.TRef.nullary main_call30.cst_2 (constant S_ .f32 0x3F800000#32),
    StableHlo.TRef.unary main_call30.cst_2 main_call30.v6 (broadcastInDim S50000x96 ![] bcast_S_S50000x96),
    StableHlo.TRef.binary main_call30.v6 main_call30.v5 main_call30.v7 mulf,
    StableHlo.TRef.ternary main_call30.v1 (.of main_v567 : StableHlo.TRef sig ⟨S50000x96, .f32⟩) main_call30.v7 main_call30.call1.v0 select ]

/-- The output projection's operations. -/
def post : List (HloOp τ sig (Elt F)) :=
  [ StableHlo.binary main_v568 main_arg6 main_v569 ((fun l r => Host.dotGeneral dot_S50000x96_S96x64_S50000x64_1_0_0_1_n_n none l r) : (⟨S50000x96, .f32⟩ : BufTy).Contents (Elt F) → (⟨S96x64, .f32⟩ : BufTy).Contents (Elt F) → (⟨S50000x64, .f32⟩ : BufTy).Contents (Elt F)),
    StableHlo.unary main_arg7 main_v570 (broadcastInDim S1x64 ![1] bcast_S64_S1x64_1 : (⟨S64, .f32⟩ : BufTy).Contents (Elt F) → (⟨S1x64, .f32⟩ : BufTy).Contents (Elt F)),
    StableHlo.unary main_v570 main_v571 (broadcastInDim S50000x64 ![0, 1] bcast_S1x64_S50000x64_0_1 : (⟨S1x64, .f32⟩ : BufTy).Contents (Elt F) → (⟨S50000x64, .f32⟩ : BufTy).Contents (Elt F)),
    StableHlo.binary main_v569 main_v571 main_v572 (addf : (⟨S50000x64, .f32⟩ : BufTy).Contents (Elt F) → (⟨S50000x64, .f32⟩ : BufTy).Contents (Elt F) → (⟨S50000x64, .f32⟩ : BufTy).Contents (Elt F)) ]

set_option maxRecDepth 65536 in
set_option maxHeartbeats 40000000 in
/-- The line is those stretches one after the other. -/
theorem ops_split : (ops : List (HloOp τ sig (Elt F))) = pre ++ hop1 ++ hop2 ++ hop3 ++ hop4 ++ hop5 ++ hop6 ++ hop7 ++ hop8 ++ hop9 ++ hop10 ++ post := rfl

/-- One hop (see the head of this file), spelled with the line's own operations. -/
def refHop (s t : (⟨S800000, .i32⟩ : BufTy).Contents (Elt F)) (x h : (⟨S50000x96, .f32⟩ : BufTy).Contents (Elt F)) (a1 a2 : (⟨S96, .f32⟩ : BufTy).Contents (Elt F)) : (⟨S50000x96, .f32⟩ : BufTy).Contents (Elt F) :=
  have u0 := (broadcastInDim S96x1 ![0] bcast_S96_S96x1_0 : (⟨S96, .f32⟩ : BufTy).Contents (Elt F) → (⟨S96x1, .f32⟩ : BufTy).Contents (Elt F)) a1
  have u1 := ((fun l r => Host.dotGeneral dot_S50000x96_S96x1_S50000x1_1_0_0_1_n_n none l r) : (⟨S50000x96, .f32⟩ : BufTy).Contents (Elt F) → (⟨S96x1, .f32⟩ : BufTy).Contents (Elt F) → (⟨S50000x1, .f32⟩ : BufTy).Contents (Elt F)) x u0
  have u2 := (broadcastInDim S96x1 ![0] bcast_S96_S96x1_0 : (⟨S96, .f32⟩ : BufTy).Contents (Elt F) → (⟨S96x1, .f32⟩ : BufTy).Contents (Elt F)) a2
  have u3 := ((fun l r => Host.dotGeneral dot_S50000x96_S96x1_S50000x1_1_0_0_1_n_n none l r) : (⟨S50000x96, .f32⟩ : BufTy).Contents (Elt F) → (⟨S96x1, .f32⟩ : BufTy).Contents (Elt F) → (⟨S50000x1, .f32⟩ : BufTy).Contents (Elt F)) x u2
  have u4 := (addf : (⟨S50000x1, .f32⟩ : BufTy).Contents (Elt F) → (⟨S50000x1, .f32⟩ : BufTy).Contents (Elt F) → (⟨S50000x1, .f32⟩ : BufTy).Contents (Elt F)) u1 u3
  have u5 : FVec F S_ .f32 := constant S_ .f32 0x00000000#32
  have u6 := (broadcastInDim S50000x1 ![] bcast_S_S50000x1 : (⟨S_, .f32⟩ : BufTy).Contents (Elt F) → (⟨S50000x1, .f32⟩ : BufTy).Contents (Elt F)) u5
  have u7 := (cmpf .oge : (⟨S50000x1, .f32⟩ : BufTy).Contents (Elt F) → (⟨S50000x1, .f32⟩ : BufTy).Contents (Elt F) → (⟨S50000x1, .i1⟩ : BufTy).Contents (Elt F)) u4 u6
  have u8 : FVec F S_ .f32 := constant S_ .f32 0x3E4CCCCD#32
  have u9 := (broadcastInDim S50000x1 ![] bcast_S_S50000x1 : (⟨S_, .f32⟩ : BufTy).Contents (Elt F) → (⟨S50000x1, .f32⟩ : BufTy).Contents (Elt F)) u8
  have u10 := (mulf : (⟨S50000x1, .f32⟩ : BufTy).Contents (Elt F) → (⟨S50000x1, .f32⟩ : BufTy).Contents (Elt F) → (⟨S50000x1, .f32⟩ : BufTy).Contents (Elt F)) u9 u4
  have u11 := (select) u7 u4 u10
  have u12 := (Host.exp : (⟨S50000x1, .f32⟩ : BufTy).Contents (Elt F) → (⟨S50000x1, .f32⟩ : BufTy).Contents (Elt F)) u11
  have u13 := (broadcastInDim S96x1 ![0] bcast_S96_S96x1_0 : (⟨S96, .f32⟩ : BufTy).Contents (Elt F) → (⟨S96x1, .f32⟩ : BufTy).Contents (Elt F)) a2
  have u14 := ((fun l r => Host.dotGeneral dot_S50000x96_S96x1_S50000x1_1_0_0_1_n_n none l r) : (⟨S50000x96, .f32⟩ : BufTy).Contents (Elt F) → (⟨S96x1, .f32⟩ : BufTy).Contents (Elt F) → (⟨S50000x1, .f32⟩ : BufTy).Contents (Elt F)) h u13
  have u15 : IVec S_ 32 := constantI S_ 32 0#32
  have u16 := (broadcastInDim S800000 ![] bcast_S_S800000 : (⟨S_, .i32⟩ : BufTy).Contents (Elt F) → (⟨S800000, .i32⟩ : BufTy).Contents (Elt F)) u15
  have u17 := (cmpi .slt : (⟨S800000, .i32⟩ : BufTy).Contents (Elt F) → (⟨S800000, .i32⟩ : BufTy).Contents (Elt F) → (⟨S800000, .i1⟩ : BufTy).Contents (Elt F)) s u16
  have u18 : IVec S_ 32 := constantI S_ 32 50000#32
  have u19 := (broadcastInDim S800000 ![] bcast_S_S800000 : (⟨S_, .i32⟩ : BufTy).Contents (Elt F) → (⟨S800000, .i32⟩ : BufTy).Contents (Elt F)) u18
  have u20 := (addi : (⟨S800000, .i32⟩ : BufTy).Contents (Elt F) → (⟨S800000, .i32⟩ : BufTy).Contents (Elt F) → (⟨S800000, .i32⟩ : BufTy).Contents (Elt F)) s u19
  have u21 := (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) u17 u20 s
  have u22 := (broadcastInDim S800000x1 ![0] bcast_S800000_S800000x1_0 : (⟨S800000, .i32⟩ : BufTy).Contents (Elt F) → (⟨S800000x1, .i32⟩ : BufTy).Contents (Elt F)) u21
  have u23 := ((fun x i => Host.gather gather_S50000x1_S800000x1_S800000x1_1_0_n_n_0_1_11 x i) : (⟨S50000x1, .f32⟩ : BufTy).Contents (Elt F) → (⟨S800000x1, .i32⟩ : BufTy).Contents (Elt F) → (⟨S800000x1, .f32⟩ : BufTy).Contents (Elt F)) u1 u22
  have u24 : IVec S_ 32 := constantI S_ 32 0#32
  have u25 := (broadcastInDim S800000 ![] bcast_S_S800000 : (⟨S_, .i32⟩ : BufTy).Contents (Elt F) → (⟨S800000, .i32⟩ : BufTy).Contents (Elt F)) u24
  have u26 := (cmpi .slt : (⟨S800000, .i32⟩ : BufTy).Contents (Elt F) → (⟨S800000, .i32⟩ : BufTy).Contents (Elt F) → (⟨S800000, .i1⟩ : BufTy).Contents (Elt F)) t u25
  have u27 : IVec S_ 32 := constantI S_ 32 50000#32
  have u28 := (broadcastInDim S800000 ![] bcast_S_S800000 : (⟨S_, .i32⟩ : BufTy).Contents (Elt F) → (⟨S800000, .i32⟩ : BufTy).Contents (Elt F)) u27
  have u29 := (addi : (⟨S800000, .i32⟩ : BufTy).Contents (Elt F) → (⟨S800000, .i32⟩ : BufTy).Contents (Elt F) → (⟨S800000, .i32⟩ : BufTy).Contents (Elt F)) t u28
  have u30 := (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) u26 u29 t
  have u31 := (broadcastInDim S800000x1 ![0] bcast_S800000_S800000x1_0 : (⟨S800000, .i32⟩ : BufTy).Contents (Elt F) → (⟨S800000x1, .i32⟩ : BufTy).Contents (Elt F)) u30
  have u32 := ((fun x i => Host.gather gather_S50000x1_S800000x1_S800000x1_1_0_n_n_0_1_11 x i) : (⟨S50000x1, .f32⟩ : BufTy).Contents (Elt F) → (⟨S800000x1, .i32⟩ : BufTy).Contents (Elt F) → (⟨S800000x1, .f32⟩ : BufTy).Contents (Elt F)) u14 u31
  have u33 := (addf : (⟨S800000x1, .f32⟩ : BufTy).Contents (Elt F) → (⟨S800000x1, .f32⟩ : BufTy).Contents (Elt F) → (⟨S800000x1, .f32⟩ : BufTy).Contents (Elt F)) u23 u32
  have u34 : FVec F S_ .f32 := constant S_ .f32 0x00000000#32
  have u35 := (broadcastInDim S800000x1 ![] bcast_S_S800000x1 : (⟨S_, .f32⟩ : BufTy).Contents (Elt F) → (⟨S800000x1, .f32⟩ : BufTy).Contents (Elt F)) u34
  have u36 := (cmpf .oge : (⟨S800000x1, .f32⟩ : BufTy).Contents (Elt F) → (⟨S800000x1, .f32⟩ : BufTy).Contents (Elt F) → (⟨S800000x1, .i1⟩ : BufTy).Contents (Elt F)) u33 u35
  have u37 : FVec F S_ .f32 := constant S_ .f32 0x3E4CCCCD#32
  have u38 := (broadcastInDim S800000x1 ![] bcast_S_S800000x1 : (⟨S_, .f32⟩ : BufTy).Contents (Elt F) → (⟨S800000x1, .f32⟩ : BufTy).Contents (Elt F)) u37
  have u39 := (mulf : (⟨S800000x1, .f32⟩ : BufTy).Contents (Elt F) → (⟨S800000x1, .f32⟩ : BufTy).Contents (Elt F) → (⟨S800000x1, .f32⟩ : BufTy).Contents (Elt F)) u38 u33
  have u40 := (select) u36 u33 u39
  have u41 := (Host.exp : (⟨S800000x1, .f32⟩ : BufTy).Contents (Elt F) → (⟨S800000x1, .f32⟩ : BufTy).Contents (Elt F)) u40
  have u42 : FVec F S_ .f32 := constant S_ .f32 0x00000000#32
  have u43 := (broadcastInDim S50000x1 ![] bcast_S_S50000x1 : (⟨S_, .f32⟩ : BufTy).Contents (Elt F) → (⟨S50000x1, .f32⟩ : BufTy).Contents (Elt F)) u42
  have u44 := (broadcastInDim S800000x1 ![0] bcast_S800000_S800000x1_0 : (⟨S800000, .i32⟩ : BufTy).Contents (Elt F) → (⟨S800000x1, .i32⟩ : BufTy).Contents (Elt F)) s
  have u45 := ((fun x i u => Host.scatterAdd scatter_S50000x1_S800000x1_S800000x1_1_0_0_1 x i u) : (⟨S50000x1, .f32⟩ : BufTy).Contents (Elt F) → (⟨S800000x1, .i32⟩ : BufTy).Contents (Elt F) → (⟨S800000x1, .f32⟩ : BufTy).Contents (Elt F) → (⟨S50000x1, .f32⟩ : BufTy).Contents (Elt F)) u43 u44 u41
  have u46 := (addf : (⟨S50000x1, .f32⟩ : BufTy).Contents (Elt F) → (⟨S50000x1, .f32⟩ : BufTy).Contents (Elt F) → (⟨S50000x1, .f32⟩ : BufTy).Contents (Elt F)) u45 u12
  have u47 : IVec S_ 32 := constantI S_ 32 0#32
  have u48 := (broadcastInDim S800000 ![] bcast_S_S800000 : (⟨S_, .i32⟩ : BufTy).Contents (Elt F) → (⟨S800000, .i32⟩ : BufTy).Contents (Elt F)) u47
  have u49 := (cmpi .slt : (⟨S800000, .i32⟩ : BufTy).Contents (Elt F) → (⟨S800000, .i32⟩ : BufTy).Contents (Elt F) → (⟨S800000, .i1⟩ : BufTy).Contents (Elt F)) t u48
  have u50 : IVec S_ 32 := constantI S_ 32 50000#32
  have u51 := (broadcastInDim S800000 ![] bcast_S_S800000 : (⟨S_, .i32⟩ : BufTy).Contents (Elt F) → (⟨S800000, .i32⟩ : BufTy).Contents (Elt F)) u50
  have u52 := (addi : (⟨S800000, .i32⟩ : BufTy).Contents (Elt F) → (⟨S800000, .i32⟩ : BufTy).Contents (Elt F) → (⟨S800000, .i32⟩ : BufTy).Contents (Elt F)) t u51
  have u53 := (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) u49 u52 t
  have u54 := (broadcastInDim S800000x1 ![0] bcast_S800000_S800000x1_0 : (⟨S800000, .i32⟩ : BufTy).Contents (Elt F) → (⟨S800000x1, .i32⟩ : BufTy).Contents (Elt F)) u53
  have u55 := ((fun x i => Host.gather gather_S50000x96_S800000x1_S800000x96_1_0_n_n_0_1_196 x i) : (⟨S50000x96, .f32⟩ : BufTy).Contents (Elt F) → (⟨S800000x1, .i32⟩ : BufTy).Contents (Elt F) → (⟨S800000x96, .f32⟩ : BufTy).Contents (Elt F)) h u54
  have u56 := (broadcastInDim S800000x96 ![0, 1] bcast_S800000x1_S800000x96_0_1 : (⟨S800000x1, .f32⟩ : BufTy).Contents (Elt F) → (⟨S800000x96, .f32⟩ : BufTy).Contents (Elt F)) u41
  have u57 := (mulf : (⟨S800000x96, .f32⟩ : BufTy).Contents (Elt F) → (⟨S800000x96, .f32⟩ : BufTy).Contents (Elt F) → (⟨S800000x96, .f32⟩ : BufTy).Contents (Elt F)) u56 u55
  have u58 : FVec F S_ .f32 := constant S_ .f32 0x00000000#32
  have u59 := (broadcastInDim S50000x96 ![] bcast_S_S50000x96 : (⟨S_, .f32⟩ : BufTy).Contents (Elt F) → (⟨S50000x96, .f32⟩ : BufTy).Contents (Elt F)) u58
  have u60 := (broadcastInDim S800000x1 ![0] bcast_S800000_S800000x1_0 : (⟨S800000, .i32⟩ : BufTy).Contents (Elt F) → (⟨S800000x1, .i32⟩ : BufTy).Contents (Elt F)) s
  have u61 := ((fun x i u => Host.scatterAdd scatter_S50000x96_S800000x1_S800000x96_1_0_0_1 x i u) : (⟨S50000x96, .f32⟩ : BufTy).Contents (Elt F) → (⟨S800000x1, .i32⟩ : BufTy).Contents (Elt F) → (⟨S800000x96, .f32⟩ : BufTy).Contents (Elt F) → (⟨S50000x96, .f32⟩ : BufTy).Contents (Elt F)) u59 u60 u57
  have u62 := (broadcastInDim S50000x96 ![0, 1] bcast_S50000x1_S50000x96_0_1 : (⟨S50000x1, .f32⟩ : BufTy).Contents (Elt F) → (⟨S50000x96, .f32⟩ : BufTy).Contents (Elt F)) u12
  have u63 := (mulf : (⟨S50000x96, .f32⟩ : BufTy).Contents (Elt F) → (⟨S50000x96, .f32⟩ : BufTy).Contents (Elt F) → (⟨S50000x96, .f32⟩ : BufTy).Contents (Elt F)) u62 x
  have u64 := (addf : (⟨S50000x96, .f32⟩ : BufTy).Contents (Elt F) → (⟨S50000x96, .f32⟩ : BufTy).Contents (Elt F) → (⟨S50000x96, .f32⟩ : BufTy).Contents (Elt F)) u61 u63
  have u65 := (broadcastInDim S50000x96 ![0, 1] bcast_S50000x1_S50000x96_0_1 : (⟨S50000x1, .f32⟩ : BufTy).Contents (Elt F) → (⟨S50000x96, .f32⟩ : BufTy).Contents (Elt F)) u46
  have u66 := (Host.divf : (⟨S50000x96, .f32⟩ : BufTy).Contents (Elt F) → (⟨S50000x96, .f32⟩ : BufTy).Contents (Elt F) → (⟨S50000x96, .f32⟩ : BufTy).Contents (Elt F)) u64 u65
  have u67 : FVec F S_ .f32 := constant S_ .f32 0x00000000#32
  have u68 := (broadcastInDim S50000x96 ![] bcast_S_S50000x96) u67
  have u69 := (cmpf (F := F) .ogt) u66 u68
  have u70 : FVec F S_ .f32 := constant S_ .f32 0x00000000#32
  have u71 := (broadcastInDim S50000x96 ![] bcast_S_S50000x96) u70
  have u72 := (cmpf (F := F) .ogt) u66 u71
  have u73 : FVec F S_ .f32 := constant S_ .f32 0x00000000#32
  have u74 := (id) u73
  have u75 := (broadcastInDim S50000x96 ![] bcast_S_S50000x96) u74
  have u76 := (select) u72 u75 u66
  have u77 := (Host.expm1 (F := F)) u76
  have u78 : FVec F S_ .f32 := constant S_ .f32 0x3F800000#32
  have u79 := (broadcastInDim S50000x96 ![] bcast_S_S50000x96) u78
  have u80 := (mulf (F := F)) u79 u77
  have u81 := (select) u69 u66 u80
  u81

/-- The projected features: the rectifier of x₀·W + b. -/
def refProj (x0 : (⟨S50000x256, .f32⟩ : BufTy).Contents (Elt F)) (w : (⟨S256x96, .f32⟩ : BufTy).Contents (Elt F)) (b : (⟨S96, .f32⟩ : BufTy).Contents (Elt F)) : (⟨S50000x96, .f32⟩ : BufTy).Contents (Elt F) :=
  have p0 := ((fun l r => Host.dotGeneral dot_S50000x256_S256x96_S50000x96_1_0_0_1_n_n none l r) : (⟨S50000x256, .f32⟩ : BufTy).Contents (Elt F) → (⟨S256x96, .f32⟩ : BufTy).Contents (Elt F) → (⟨S50000x96, .f32⟩ : BufTy).Contents (Elt F)) x0 w
  have p1 := (broadcastInDim S1x96 ![1] bcast_S96_S1x96_1 : (⟨S96, .f32⟩ : BufTy).Contents (Elt F) → (⟨S1x96, .f32⟩ : BufTy).Contents (Elt F)) b
  have p2 := (broadcastInDim S50000x96 ![0, 1] bcast_S1x96_S50000x96_0_1 : (⟨S1x96, .f32⟩ : BufTy).Contents (Elt F) → (⟨S50000x96, .f32⟩ : BufTy).Contents (Elt F)) p1
  have p3 := (addf : (⟨S50000x96, .f32⟩ : BufTy).Contents (Elt F) → (⟨S50000x96, .f32⟩ : BufTy).Contents (Elt F) → (⟨S50000x96, .f32⟩ : BufTy).Contents (Elt F)) p0 p2
  have p4 : FVec F S_ .f32 := constant S_ .f32 0x00000000#32
  have p5 := (broadcastInDim S50000x96 ![] bcast_S_S50000x96) p4
  have p6 := (maximumf (F := F)) p3 p5
  p6

/-- The output projection h·W + b. -/
def refOut (h : (⟨S50000x96, .f32⟩ : BufTy).Contents (Elt F)) (w : (⟨S96x64, .f32⟩ : BufTy).Contents (Elt F)) (b : (⟨S64, .f32⟩ : BufTy).Contents (Elt F)) : (⟨S50000x64, .f32⟩ : BufTy).Contents (Elt F) :=
  have q0 := ((fun l r => Host.dotGeneral dot_S50000x96_S96x64_S50000x64_1_0_0_1_n_n none l r) : (⟨S50000x96, .f32⟩ : BufTy).Contents (Elt F) → (⟨S96x64, .f32⟩ : BufTy).Contents (Elt F) → (⟨S50000x64, .f32⟩ : BufTy).Contents (Elt F)) h w
  have q1 := (broadcastInDim S1x64 ![1] bcast_S64_S1x64_1 : (⟨S64, .f32⟩ : BufTy).Contents (Elt F) → (⟨S1x64, .f32⟩ : BufTy).Contents (Elt F)) b
  have q2 := (broadcastInDim S50000x64 ![0, 1] bcast_S1x64_S50000x64_0_1 : (⟨S1x64, .f32⟩ : BufTy).Contents (Elt F) → (⟨S50000x64, .f32⟩ : BufTy).Contents (Elt F)) q1
  have q3 := (addf : (⟨S50000x64, .f32⟩ : BufTy).Contents (Elt F) → (⟨S50000x64, .f32⟩ : BufTy).Contents (Elt F) → (⟨S50000x64, .f32⟩ : BufTy).Contents (Elt F)) q0 q2
  q3

set_option maxRecDepth 16384 in
set_option maxHeartbeats 8000000 in
theorem pre_x (V : Valuation τ sig (Elt F)) :
    after pre V (Proc.devRef .tc main_v8) = refProj (V (Proc.devRef .tc main_arg0)) (V (Proc.devRef .tc main_arg2)) (V (Proc.devRef .tc main_arg3)) := by
  unfold pre
  after_results_simp
  rfl

set_option maxRecDepth 16384 in
set_option maxHeartbeats 8000000 in
theorem pre_main_arg0 (V : Valuation τ sig (Elt F)) : after pre V (Proc.devRef .tc main_arg0) = V (Proc.devRef .tc main_arg0) := by
  unfold pre
  after_results_simp

set_option maxRecDepth 16384 in
set_option maxHeartbeats 8000000 in
theorem pre_main_arg1 (V : Valuation τ sig (Elt F)) : after pre V (Proc.devRef .tc main_arg1) = V (Proc.devRef .tc main_arg1) := by
  unfold pre
  after_results_simp

set_option maxRecDepth 16384 in
set_option maxHeartbeats 8000000 in
theorem pre_main_arg2 (V : Valuation τ sig (Elt F)) : after pre V (Proc.devRef .tc main_arg2) = V (Proc.devRef .tc main_arg2) := by
  unfold pre
  after_results_simp

set_option maxRecDepth 16384 in
set_option maxHeartbeats 8000000 in
theorem pre_main_arg3 (V : Valuation τ sig (Elt F)) : after pre V (Proc.devRef .tc main_arg3) = V (Proc.devRef .tc main_arg3) := by
  unfold pre
  after_results_simp

set_option maxRecDepth 16384 in
set_option maxHeartbeats 8000000 in
theorem pre_main_arg4 (V : Valuation τ sig (Elt F)) : after pre V (Proc.devRef .tc main_arg4) = V (Proc.devRef .tc main_arg4) := by
  unfold pre
  after_results_simp

set_option maxRecDepth 16384 in
set_option maxHeartbeats 8000000 in
theorem pre_main_arg5 (V : Valuation τ sig (Elt F)) : after pre V (Proc.devRef .tc main_arg5) = V (Proc.devRef .tc main_arg5) := by
  unfold pre
  after_results_simp

set_option maxRecDepth 16384 in
set_option maxHeartbeats 8000000 in
theorem pre_main_arg6 (V : Valuation τ sig (Elt F)) : after pre V (Proc.devRef .tc main_arg6) = V (Proc.devRef .tc main_arg6) := by
  unfold pre
  after_results_simp

set_option maxRecDepth 16384 in
set_option maxHeartbeats 8000000 in
theorem pre_main_arg7 (V : Valuation τ sig (Elt F)) : after pre V (Proc.devRef .tc main_arg7) = V (Proc.devRef .tc main_arg7) := by
  unfold pre
  after_results_simp

set_option maxRecDepth 16384 in
set_option maxHeartbeats 8000000 in
/-- Hop 1 leaves the hop function of what it found in the buffer it writes last. -/
theorem hop1_out (V : Valuation τ sig (Elt F)) :
    after hop1 V (Proc.devRef .tc main_v64)
      = refHop (V (Proc.devRef .tc main_v1)) (V (Proc.devRef .tc main_v3)) (V (Proc.devRef .tc main_v8)) (V (Proc.devRef .tc main_v8)) (V (Proc.devRef .tc main_arg4)) (V (Proc.devRef .tc main_arg5)) := by
  unfold hop1
  after_results_simp
  rfl

set_option maxRecDepth 16384 in
set_option maxHeartbeats 8000000 in
theorem hop1_main_v1 (V : Valuation τ sig (Elt F)) : after hop1 V (Proc.devRef .tc main_v1) = V (Proc.devRef .tc main_v1) := by
  unfold hop1
  after_results_simp

set_option maxRecDepth 16384 in
set_option maxHeartbeats 8000000 in
theorem hop1_main_v3 (V : Valuation τ sig (Elt F)) : after hop1 V (Proc.devRef .tc main_v3) = V (Proc.devRef .tc main_v3) := by
  unfold hop1
  after_results_simp

set_option maxRecDepth 16384 in
set_option maxHeartbeats 8000000 in
theorem hop1_main_v8 (V : Valuation τ sig (Elt F)) : after hop1 V (Proc.devRef .tc main_v8) = V (Proc.devRef .tc main_v8) := by
  unfold hop1
  after_results_simp

set_option maxRecDepth 16384 in
set_option maxHeartbeats 8000000 in
theorem hop1_main_arg0 (V : Valuation τ sig (Elt F)) : after hop1 V (Proc.devRef .tc main_arg0) = V (Proc.devRef .tc main_arg0) := by
  unfold hop1
  after_results_simp

set_option maxRecDepth 16384 in
set_option maxHeartbeats 8000000 in
theorem hop1_main_arg1 (V : Valuation τ sig (Elt F)) : after hop1 V (Proc.devRef .tc main_arg1) = V (Proc.devRef .tc main_arg1) := by
  unfold hop1
  after_results_simp

set_option maxRecDepth 16384 in
set_option maxHeartbeats 8000000 in
theorem hop1_main_arg2 (V : Valuation τ sig (Elt F)) : after hop1 V (Proc.devRef .tc main_arg2) = V (Proc.devRef .tc main_arg2) := by
  unfold hop1
  after_results_simp

set_option maxRecDepth 16384 in
set_option maxHeartbeats 8000000 in
theorem hop1_main_arg3 (V : Valuation τ sig (Elt F)) : after hop1 V (Proc.devRef .tc main_arg3) = V (Proc.devRef .tc main_arg3) := by
  unfold hop1
  after_results_simp

set_option maxRecDepth 16384 in
set_option maxHeartbeats 8000000 in
theorem hop1_main_arg4 (V : Valuation τ sig (Elt F)) : after hop1 V (Proc.devRef .tc main_arg4) = V (Proc.devRef .tc main_arg4) := by
  unfold hop1
  after_results_simp

set_option maxRecDepth 16384 in
set_option maxHeartbeats 8000000 in
theorem hop1_main_arg5 (V : Valuation τ sig (Elt F)) : after hop1 V (Proc.devRef .tc main_arg5) = V (Proc.devRef .tc main_arg5) := by
  unfold hop1
  after_results_simp

set_option maxRecDepth 16384 in
set_option maxHeartbeats 8000000 in
theorem hop1_main_arg6 (V : Valuation τ sig (Elt F)) : after hop1 V (Proc.devRef .tc main_arg6) = V (Proc.devRef .tc main_arg6) := by
  unfold hop1
  after_results_simp

set_option maxRecDepth 16384 in
set_option maxHeartbeats 8000000 in
theorem hop1_main_arg7 (V : Valuation τ sig (Elt F)) : after hop1 V (Proc.devRef .tc main_arg7) = V (Proc.devRef .tc main_arg7) := by
  unfold hop1
  after_results_simp

set_option maxRecDepth 16384 in
set_option maxHeartbeats 8000000 in
/-- Hop 2 leaves the hop function of what it found in the buffer it writes last. -/
theorem hop2_out (V : Valuation τ sig (Elt F)) :
    after hop2 V (Proc.devRef .tc main_v120)
      = refHop (V (Proc.devRef .tc main_v1)) (V (Proc.devRef .tc main_v3)) (V (Proc.devRef .tc main_v8)) (V (Proc.devRef .tc main_v64)) (V (Proc.devRef .tc main_arg4)) (V (Proc.devRef .tc main_arg5)) := by
  unfold hop2
  after_results_simp
  rfl

set_option maxRecDepth 16384 in
set_option maxHeartbeats 8000000 in
theorem hop2_main_v1 (V : Valuation τ sig (Elt F)) : after hop2 V (Proc.devRef .tc main_v1) = V (Proc.devRef .tc main_v1) := by
  unfold hop2
  after_results_simp

set_option maxRecDepth 16384 in
set_option maxHeartbeats 8000000 in
theorem hop2_main_v3 (V : Valuation τ sig (Elt F)) : after hop2 V (Proc.devRef .tc main_v3) = V (Proc.devRef .tc main_v3) := by
  unfold hop2
  after_results_simp

set_option maxRecDepth 16384 in
set_option maxHeartbeats 8000000 in
theorem hop2_main_v8 (V : Valuation τ sig (Elt F)) : after hop2 V (Proc.devRef .tc main_v8) = V (Proc.devRef .tc main_v8) := by
  unfold hop2
  after_results_simp

set_option maxRecDepth 16384 in
set_option maxHeartbeats 8000000 in
theorem hop2_main_arg0 (V : Valuation τ sig (Elt F)) : after hop2 V (Proc.devRef .tc main_arg0) = V (Proc.devRef .tc main_arg0) := by
  unfold hop2
  after_results_simp

set_option maxRecDepth 16384 in
set_option maxHeartbeats 8000000 in
theorem hop2_main_arg1 (V : Valuation τ sig (Elt F)) : after hop2 V (Proc.devRef .tc main_arg1) = V (Proc.devRef .tc main_arg1) := by
  unfold hop2
  after_results_simp

set_option maxRecDepth 16384 in
set_option maxHeartbeats 8000000 in
theorem hop2_main_arg2 (V : Valuation τ sig (Elt F)) : after hop2 V (Proc.devRef .tc main_arg2) = V (Proc.devRef .tc main_arg2) := by
  unfold hop2
  after_results_simp

set_option maxRecDepth 16384 in
set_option maxHeartbeats 8000000 in
theorem hop2_main_arg3 (V : Valuation τ sig (Elt F)) : after hop2 V (Proc.devRef .tc main_arg3) = V (Proc.devRef .tc main_arg3) := by
  unfold hop2
  after_results_simp

set_option maxRecDepth 16384 in
set_option maxHeartbeats 8000000 in
theorem hop2_main_arg4 (V : Valuation τ sig (Elt F)) : after hop2 V (Proc.devRef .tc main_arg4) = V (Proc.devRef .tc main_arg4) := by
  unfold hop2
  after_results_simp

set_option maxRecDepth 16384 in
set_option maxHeartbeats 8000000 in
theorem hop2_main_arg5 (V : Valuation τ sig (Elt F)) : after hop2 V (Proc.devRef .tc main_arg5) = V (Proc.devRef .tc main_arg5) := by
  unfold hop2
  after_results_simp

set_option maxRecDepth 16384 in
set_option maxHeartbeats 8000000 in
theorem hop2_main_arg6 (V : Valuation τ sig (Elt F)) : after hop2 V (Proc.devRef .tc main_arg6) = V (Proc.devRef .tc main_arg6) := by
  unfold hop2
  after_results_simp

set_option maxRecDepth 16384 in
set_option maxHeartbeats 8000000 in
theorem hop2_main_arg7 (V : Valuation τ sig (Elt F)) : after hop2 V (Proc.devRef .tc main_arg7) = V (Proc.devRef .tc main_arg7) := by
  unfold hop2
  after_results_simp

set_option maxRecDepth 16384 in
set_option maxHeartbeats 8000000 in
/-- Hop 3 leaves the hop function of what it found in the buffer it writes last. -/
theorem hop3_out (V : Valuation τ sig (Elt F)) :
    after hop3 V (Proc.devRef .tc main_v176)
      = refHop (V (Proc.devRef .tc main_v1)) (V (Proc.devRef .tc main_v3)) (V (Proc.devRef .tc main_v8)) (V (Proc.devRef .tc main_v120)) (V (Proc.devRef .tc main_arg4)) (V (Proc.devRef .tc main_arg5)) := by
  unfold hop3
  after_results_simp
  rfl

set_option maxRecDepth 16384 in
set_option maxHeartbeats 8000000 in
theorem hop3_main_v1 (V : Valuation τ sig (Elt F)) : after hop3 V (Proc.devRef .tc main_v1) = V (Proc.devRef .tc main_v1) := by
  unfold hop3
  after_results_simp

set_option maxRecDepth 16384 in
set_option maxHeartbeats 8000000 in
theorem hop3_main_v3 (V : Valuation τ sig (Elt F)) : after hop3 V (Proc.devRef .tc main_v3) = V (Proc.devRef .tc main_v3) := by
  unfold hop3
  after_results_simp

set_option maxRecDepth 16384 in
set_option maxHeartbeats 8000000 in
theorem hop3_main_v8 (V : Valuation τ sig (Elt F)) : after hop3 V (Proc.devRef .tc main_v8) = V (Proc.devRef .tc main_v8) := by
  unfold hop3
  after_results_simp

set_option maxRecDepth 16384 in
set_option maxHeartbeats 8000000 in
theorem hop3_main_arg0 (V : Valuation τ sig (Elt F)) : after hop3 V (Proc.devRef .tc main_arg0) = V (Proc.devRef .tc main_arg0) := by
  unfold hop3
  after_results_simp

set_option maxRecDepth 16384 in
set_option maxHeartbeats 8000000 in
theorem hop3_main_arg1 (V : Valuation τ sig (Elt F)) : after hop3 V (Proc.devRef .tc main_arg1) = V (Proc.devRef .tc main_arg1) := by
  unfold hop3
  after_results_simp

set_option maxRecDepth 16384 in
set_option maxHeartbeats 8000000 in
theorem hop3_main_arg2 (V : Valuation τ sig (Elt F)) : after hop3 V (Proc.devRef .tc main_arg2) = V (Proc.devRef .tc main_arg2) := by
  unfold hop3
  after_results_simp

set_option maxRecDepth 16384 in
set_option maxHeartbeats 8000000 in
theorem hop3_main_arg3 (V : Valuation τ sig (Elt F)) : after hop3 V (Proc.devRef .tc main_arg3) = V (Proc.devRef .tc main_arg3) := by
  unfold hop3
  after_results_simp

set_option maxRecDepth 16384 in
set_option maxHeartbeats 8000000 in
theorem hop3_main_arg4 (V : Valuation τ sig (Elt F)) : after hop3 V (Proc.devRef .tc main_arg4) = V (Proc.devRef .tc main_arg4) := by
  unfold hop3
  after_results_simp

set_option maxRecDepth 16384 in
set_option maxHeartbeats 8000000 in
theorem hop3_main_arg5 (V : Valuation τ sig (Elt F)) : after hop3 V (Proc.devRef .tc main_arg5) = V (Proc.devRef .tc main_arg5) := by
  unfold hop3
  after_results_simp

set_option maxRecDepth 16384 in
set_option maxHeartbeats 8000000 in
theorem hop3_main_arg6 (V : Valuation τ sig (Elt F)) : after hop3 V (Proc.devRef .tc main_arg6) = V (Proc.devRef .tc main_arg6) := by
  unfold hop3
  after_results_simp

set_option maxRecDepth 16384 in
set_option maxHeartbeats 8000000 in
theorem hop3_main_arg7 (V : Valuation τ sig (Elt F)) : after hop3 V (Proc.devRef .tc main_arg7) = V (Proc.devRef .tc main_arg7) := by
  unfold hop3
  after_results_simp

set_option maxRecDepth 16384 in
set_option maxHeartbeats 8000000 in
/-- Hop 4 leaves the hop function of what it found in the buffer it writes last. -/
theorem hop4_out (V : Valuation τ sig (Elt F)) :
    after hop4 V (Proc.devRef .tc main_v232)
      = refHop (V (Proc.devRef .tc main_v1)) (V (Proc.devRef .tc main_v3)) (V (Proc.devRef .tc main_v8)) (V (Proc.devRef .tc main_v176)) (V (Proc.devRef .tc main_arg4)) (V (Proc.devRef .tc main_arg5)) := by
  unfold hop4
  after_results_simp
  rfl

set_option maxRecDepth 16384 in
set_option maxHeartbeats 8000000 in
theorem hop4_main_v1 (V : Valuation τ sig (Elt F)) : after hop4 V (Proc.devRef .tc main_v1) = V (Proc.devRef .tc main_v1) := by
  unfold hop4
  after_results_simp

set_option maxRecDepth 16384 in
set_option maxHeartbeats 8000000 in
theorem hop4_main_v3 (V : Valuation τ sig (Elt F)) : after hop4 V (Proc.devRef .tc main_v3) = V (Proc.devRef .tc main_v3) := by
  unfold hop4
  after_results_simp

set_option maxRecDepth 16384 in
set_option maxHeartbeats 8000000 in
theorem hop4_main_v8 (V : Valuation τ sig (Elt F)) : after hop4 V (Proc.devRef .tc main_v8) = V (Proc.devRef .tc main_v8) := by
  unfold hop4
  after_results_simp

set_option maxRecDepth 16384 in
set_option maxHeartbeats 8000000 in
theorem hop4_main_arg0 (V : Valuation τ sig (Elt F)) : after hop4 V (Proc.devRef .tc main_arg0) = V (Proc.devRef .tc main_arg0) := by
  unfold hop4
  after_results_simp

set_option maxRecDepth 16384 in
set_option maxHeartbeats 8000000 in
theorem hop4_main_arg1 (V : Valuation τ sig (Elt F)) : after hop4 V (Proc.devRef .tc main_arg1) = V (Proc.devRef .tc main_arg1) := by
  unfold hop4
  after_results_simp

set_option maxRecDepth 16384 in
set_option maxHeartbeats 8000000 in
theorem hop4_main_arg2 (V : Valuation τ sig (Elt F)) : after hop4 V (Proc.devRef .tc main_arg2) = V (Proc.devRef .tc main_arg2) := by
  unfold hop4
  after_results_simp

set_option maxRecDepth 16384 in
set_option maxHeartbeats 8000000 in
theorem hop4_main_arg3 (V : Valuation τ sig (Elt F)) : after hop4 V (Proc.devRef .tc main_arg3) = V (Proc.devRef .tc main_arg3) := by
  unfold hop4
  after_results_simp

set_option maxRecDepth 16384 in
set_option maxHeartbeats 8000000 in
theorem hop4_main_arg4 (V : Valuation τ sig (Elt F)) : after hop4 V (Proc.devRef .tc main_arg4) = V (Proc.devRef .tc main_arg4) := by
  unfold hop4
  after_results_simp

set_option maxRecDepth 16384 in
set_option maxHeartbeats 8000000 in
theorem hop4_main_arg5 (V : Valuation τ sig (Elt F)) : after hop4 V (Proc.devRef .tc main_arg5) = V (Proc.devRef .tc main_arg5) := by
  unfold hop4
  after_results_simp

set_option maxRecDepth 16384 in
set_option maxHeartbeats 8000000 in
theorem hop4_main_arg6 (V : Valuation τ sig (Elt F)) : after hop4 V (Proc.devRef .tc main_arg6) = V (Proc.devRef .tc main_arg6) := by
  unfold hop4
  after_results_simp

set_option maxRecDepth 16384 in
set_option maxHeartbeats 8000000 in
theorem hop4_main_arg7 (V : Valuation τ sig (Elt F)) : after hop4 V (Proc.devRef .tc main_arg7) = V (Proc.devRef .tc main_arg7) := by
  unfold hop4
  after_results_simp

set_option maxRecDepth 16384 in
set_option maxHeartbeats 8000000 in
/-- Hop 5 leaves the hop function of what it found in the buffer it writes last. -/
theorem hop5_out (V : Valuation τ sig (Elt F)) :
    after hop5 V (Proc.devRef .tc main_v288)
      = refHop (V (Proc.devRef .tc main_v1)) (V (Proc.devRef .tc main_v3)) (V (Proc.devRef .tc main_v8)) (V (Proc.devRef .tc main_v232)) (V (Proc.devRef .tc main_arg4)) (V (Proc.devRef .tc main_arg5)) := by
  unfold hop5
  after_results_simp
  rfl

set_option maxRecDepth 16384 in
set_option maxHeartbeats 8000000 in
theorem hop5_main_v1 (V : Valuation τ sig (Elt F)) : after hop5 V (Proc.devRef .tc main_v1) = V (Proc.devRef .tc main_v1) := by
  unfold hop5
  after_results_simp

set_option maxRecDepth 16384 in
set_option maxHeartbeats 8000000 in
theorem hop5_main_v3 (V : Valuation τ sig (Elt F)) : after hop5 V (Proc.devRef .tc main_v3) = V (Proc.devRef .tc main_v3) := by
  unfold hop5
  after_results_simp

set_option maxRecDepth 16384 in
set_option maxHeartbeats 8000000 in
theorem hop5_main_v8 (V : Valuation τ sig (Elt F)) : after hop5 V (Proc.devRef .tc main_v8) = V (Proc.devRef .tc main_v8) := by
  unfold hop5
  after_results_simp

set_option maxRecDepth 16384 in
set_option maxHeartbeats 8000000 in
theorem hop5_main_arg0 (V : Valuation τ sig (Elt F)) : after hop5 V (Proc.devRef .tc main_arg0) = V (Proc.devRef .tc main_arg0) := by
  unfold hop5
  after_results_simp

set_option maxRecDepth 16384 in
set_option maxHeartbeats 8000000 in
theorem hop5_main_arg1 (V : Valuation τ sig (Elt F)) : after hop5 V (Proc.devRef .tc main_arg1) = V (Proc.devRef .tc main_arg1) := by
  unfold hop5
  after_results_simp

set_option maxRecDepth 16384 in
set_option maxHeartbeats 8000000 in
theorem hop5_main_arg2 (V : Valuation τ sig (Elt F)) : after hop5 V (Proc.devRef .tc main_arg2) = V (Proc.devRef .tc main_arg2) := by
  unfold hop5
  after_results_simp

set_option maxRecDepth 16384 in
set_option maxHeartbeats 8000000 in
theorem hop5_main_arg3 (V : Valuation τ sig (Elt F)) : after hop5 V (Proc.devRef .tc main_arg3) = V (Proc.devRef .tc main_arg3) := by
  unfold hop5
  after_results_simp

set_option maxRecDepth 16384 in
set_option maxHeartbeats 8000000 in
theorem hop5_main_arg4 (V : Valuation τ sig (Elt F)) : after hop5 V (Proc.devRef .tc main_arg4) = V (Proc.devRef .tc main_arg4) := by
  unfold hop5
  after_results_simp

set_option maxRecDepth 16384 in
set_option maxHeartbeats 8000000 in
theorem hop5_main_arg5 (V : Valuation τ sig (Elt F)) : after hop5 V (Proc.devRef .tc main_arg5) = V (Proc.devRef .tc main_arg5) := by
  unfold hop5
  after_results_simp

set_option maxRecDepth 16384 in
set_option maxHeartbeats 8000000 in
theorem hop5_main_arg6 (V : Valuation τ sig (Elt F)) : after hop5 V (Proc.devRef .tc main_arg6) = V (Proc.devRef .tc main_arg6) := by
  unfold hop5
  after_results_simp

set_option maxRecDepth 16384 in
set_option maxHeartbeats 8000000 in
theorem hop5_main_arg7 (V : Valuation τ sig (Elt F)) : after hop5 V (Proc.devRef .tc main_arg7) = V (Proc.devRef .tc main_arg7) := by
  unfold hop5
  after_results_simp

set_option maxRecDepth 16384 in
set_option maxHeartbeats 8000000 in
/-- Hop 6 leaves the hop function of what it found in the buffer it writes last. -/
theorem hop6_out (V : Valuation τ sig (Elt F)) :
    after hop6 V (Proc.devRef .tc main_v344)
      = refHop (V (Proc.devRef .tc main_v1)) (V (Proc.devRef .tc main_v3)) (V (Proc.devRef .tc main_v8)) (V (Proc.devRef .tc main_v288)) (V (Proc.devRef .tc main_arg4)) (V (Proc.devRef .tc main_arg5)) := by
  unfold hop6
  after_results_simp
  rfl

set_option maxRecDepth 16384 in
set_option maxHeartbeats 8000000 in
theorem hop6_main_v1 (V : Valuation τ sig (Elt F)) : after hop6 V (Proc.devRef .tc main_v1) = V (Proc.devRef .tc main_v1) := by
  unfold hop6
  after_results_simp

set_option maxRecDepth 16384 in
set_option maxHeartbeats 8000000 in
theorem hop6_main_v3 (V : Valuation τ sig (Elt F)) : after hop6 V (Proc.devRef .tc main_v3) = V (Proc.devRef .tc main_v3) := by
  unfold hop6
  after_results_simp

set_option maxRecDepth 16384 in
set_option maxHeartbeats 8000000 in
theorem hop6_main_v8 (V : Valuation τ sig (Elt F)) : after hop6 V (Proc.devRef .tc main_v8) = V (Proc.devRef .tc main_v8) := by
  unfold hop6
  after_results_simp

set_option maxRecDepth 16384 in
set_option maxHeartbeats 8000000 in
theorem hop6_main_arg0 (V : Valuation τ sig (Elt F)) : after hop6 V (Proc.devRef .tc main_arg0) = V (Proc.devRef .tc main_arg0) := by
  unfold hop6
  after_results_simp

set_option maxRecDepth 16384 in
set_option maxHeartbeats 8000000 in
theorem hop6_main_arg1 (V : Valuation τ sig (Elt F)) : after hop6 V (Proc.devRef .tc main_arg1) = V (Proc.devRef .tc main_arg1) := by
  unfold hop6
  after_results_simp

set_option maxRecDepth 16384 in
set_option maxHeartbeats 8000000 in
theorem hop6_main_arg2 (V : Valuation τ sig (Elt F)) : after hop6 V (Proc.devRef .tc main_arg2) = V (Proc.devRef .tc main_arg2) := by
  unfold hop6
  after_results_simp

set_option maxRecDepth 16384 in
set_option maxHeartbeats 8000000 in
theorem hop6_main_arg3 (V : Valuation τ sig (Elt F)) : after hop6 V (Proc.devRef .tc main_arg3) = V (Proc.devRef .tc main_arg3) := by
  unfold hop6
  after_results_simp

set_option maxRecDepth 16384 in
set_option maxHeartbeats 8000000 in
theorem hop6_main_arg4 (V : Valuation τ sig (Elt F)) : after hop6 V (Proc.devRef .tc main_arg4) = V (Proc.devRef .tc main_arg4) := by
  unfold hop6
  after_results_simp

set_option maxRecDepth 16384 in
set_option maxHeartbeats 8000000 in
theorem hop6_main_arg5 (V : Valuation τ sig (Elt F)) : after hop6 V (Proc.devRef .tc main_arg5) = V (Proc.devRef .tc main_arg5) := by
  unfold hop6
  after_results_simp

set_option maxRecDepth 16384 in
set_option maxHeartbeats 8000000 in
theorem hop6_main_arg6 (V : Valuation τ sig (Elt F)) : after hop6 V (Proc.devRef .tc main_arg6) = V (Proc.devRef .tc main_arg6) := by
  unfold hop6
  after_results_simp

set_option maxRecDepth 16384 in
set_option maxHeartbeats 8000000 in
theorem hop6_main_arg7 (V : Valuation τ sig (Elt F)) : after hop6 V (Proc.devRef .tc main_arg7) = V (Proc.devRef .tc main_arg7) := by
  unfold hop6
  after_results_simp

set_option maxRecDepth 16384 in
set_option maxHeartbeats 8000000 in
/-- Hop 7 leaves the hop function of what it found in the buffer it writes last. -/
theorem hop7_out (V : Valuation τ sig (Elt F)) :
    after hop7 V (Proc.devRef .tc main_v400)
      = refHop (V (Proc.devRef .tc main_v1)) (V (Proc.devRef .tc main_v3)) (V (Proc.devRef .tc main_v8)) (V (Proc.devRef .tc main_v344)) (V (Proc.devRef .tc main_arg4)) (V (Proc.devRef .tc main_arg5)) := by
  unfold hop7
  after_results_simp
  rfl

set_option maxRecDepth 16384 in
set_option maxHeartbeats 8000000 in
theorem hop7_main_v1 (V : Valuation τ sig (Elt F)) : after hop7 V (Proc.devRef .tc main_v1) = V (Proc.devRef .tc main_v1) := by
  unfold hop7
  after_results_simp

set_option maxRecDepth 16384 in
set_option maxHeartbeats 8000000 in
theorem hop7_main_v3 (V : Valuation τ sig (Elt F)) : after hop7 V (Proc.devRef .tc main_v3) = V (Proc.devRef .tc main_v3) := by
  unfold hop7
  after_results_simp

set_option maxRecDepth 16384 in
set_option maxHeartbeats 8000000 in
theorem hop7_main_v8 (V : Valuation τ sig (Elt F)) : after hop7 V (Proc.devRef .tc main_v8) = V (Proc.devRef .tc main_v8) := by
  unfold hop7
  after_results_simp

set_option maxRecDepth 16384 in
set_option maxHeartbeats 8000000 in
theorem hop7_main_arg0 (V : Valuation τ sig (Elt F)) : after hop7 V (Proc.devRef .tc main_arg0) = V (Proc.devRef .tc main_arg0) := by
  unfold hop7
  after_results_simp

set_option maxRecDepth 16384 in
set_option maxHeartbeats 8000000 in
theorem hop7_main_arg1 (V : Valuation τ sig (Elt F)) : after hop7 V (Proc.devRef .tc main_arg1) = V (Proc.devRef .tc main_arg1) := by
  unfold hop7
  after_results_simp

set_option maxRecDepth 16384 in
set_option maxHeartbeats 8000000 in
theorem hop7_main_arg2 (V : Valuation τ sig (Elt F)) : after hop7 V (Proc.devRef .tc main_arg2) = V (Proc.devRef .tc main_arg2) := by
  unfold hop7
  after_results_simp

set_option maxRecDepth 16384 in
set_option maxHeartbeats 8000000 in
theorem hop7_main_arg3 (V : Valuation τ sig (Elt F)) : after hop7 V (Proc.devRef .tc main_arg3) = V (Proc.devRef .tc main_arg3) := by
  unfold hop7
  after_results_simp

set_option maxRecDepth 16384 in
set_option maxHeartbeats 8000000 in
theorem hop7_main_arg4 (V : Valuation τ sig (Elt F)) : after hop7 V (Proc.devRef .tc main_arg4) = V (Proc.devRef .tc main_arg4) := by
  unfold hop7
  after_results_simp

set_option maxRecDepth 16384 in
set_option maxHeartbeats 8000000 in
theorem hop7_main_arg5 (V : Valuation τ sig (Elt F)) : after hop7 V (Proc.devRef .tc main_arg5) = V (Proc.devRef .tc main_arg5) := by
  unfold hop7
  after_results_simp

set_option maxRecDepth 16384 in
set_option maxHeartbeats 8000000 in
theorem hop7_main_arg6 (V : Valuation τ sig (Elt F)) : after hop7 V (Proc.devRef .tc main_arg6) = V (Proc.devRef .tc main_arg6) := by
  unfold hop7
  after_results_simp

set_option maxRecDepth 16384 in
set_option maxHeartbeats 8000000 in
theorem hop7_main_arg7 (V : Valuation τ sig (Elt F)) : after hop7 V (Proc.devRef .tc main_arg7) = V (Proc.devRef .tc main_arg7) := by
  unfold hop7
  after_results_simp

set_option maxRecDepth 16384 in
set_option maxHeartbeats 8000000 in
/-- Hop 8 leaves the hop function of what it found in the buffer it writes last. -/
theorem hop8_out (V : Valuation τ sig (Elt F)) :
    after hop8 V (Proc.devRef .tc main_v456)
      = refHop (V (Proc.devRef .tc main_v1)) (V (Proc.devRef .tc main_v3)) (V (Proc.devRef .tc main_v8)) (V (Proc.devRef .tc main_v400)) (V (Proc.devRef .tc main_arg4)) (V (Proc.devRef .tc main_arg5)) := by
  unfold hop8
  after_results_simp
  rfl

set_option maxRecDepth 16384 in
set_option maxHeartbeats 8000000 in
theorem hop8_main_v1 (V : Valuation τ sig (Elt F)) : after hop8 V (Proc.devRef .tc main_v1) = V (Proc.devRef .tc main_v1) := by
  unfold hop8
  after_results_simp

set_option maxRecDepth 16384 in
set_option maxHeartbeats 8000000 in
theorem hop8_main_v3 (V : Valuation τ sig (Elt F)) : after hop8 V (Proc.devRef .tc main_v3) = V (Proc.devRef .tc main_v3) := by
  unfold hop8
  after_results_simp

set_option maxRecDepth 16384 in
set_option maxHeartbeats 8000000 in
theorem hop8_main_v8 (V : Valuation τ sig (Elt F)) : after hop8 V (Proc.devRef .tc main_v8) = V (Proc.devRef .tc main_v8) := by
  unfold hop8
  after_results_simp

set_option maxRecDepth 16384 in
set_option maxHeartbeats 8000000 in
theorem hop8_main_arg0 (V : Valuation τ sig (Elt F)) : after hop8 V (Proc.devRef .tc main_arg0) = V (Proc.devRef .tc main_arg0) := by
  unfold hop8
  after_results_simp

set_option maxRecDepth 16384 in
set_option maxHeartbeats 8000000 in
theorem hop8_main_arg1 (V : Valuation τ sig (Elt F)) : after hop8 V (Proc.devRef .tc main_arg1) = V (Proc.devRef .tc main_arg1) := by
  unfold hop8
  after_results_simp

set_option maxRecDepth 16384 in
set_option maxHeartbeats 8000000 in
theorem hop8_main_arg2 (V : Valuation τ sig (Elt F)) : after hop8 V (Proc.devRef .tc main_arg2) = V (Proc.devRef .tc main_arg2) := by
  unfold hop8
  after_results_simp

set_option maxRecDepth 16384 in
set_option maxHeartbeats 8000000 in
theorem hop8_main_arg3 (V : Valuation τ sig (Elt F)) : after hop8 V (Proc.devRef .tc main_arg3) = V (Proc.devRef .tc main_arg3) := by
  unfold hop8
  after_results_simp

set_option maxRecDepth 16384 in
set_option maxHeartbeats 8000000 in
theorem hop8_main_arg4 (V : Valuation τ sig (Elt F)) : after hop8 V (Proc.devRef .tc main_arg4) = V (Proc.devRef .tc main_arg4) := by
  unfold hop8
  after_results_simp

set_option maxRecDepth 16384 in
set_option maxHeartbeats 8000000 in
theorem hop8_main_arg5 (V : Valuation τ sig (Elt F)) : after hop8 V (Proc.devRef .tc main_arg5) = V (Proc.devRef .tc main_arg5) := by
  unfold hop8
  after_results_simp

set_option maxRecDepth 16384 in
set_option maxHeartbeats 8000000 in
theorem hop8_main_arg6 (V : Valuation τ sig (Elt F)) : after hop8 V (Proc.devRef .tc main_arg6) = V (Proc.devRef .tc main_arg6) := by
  unfold hop8
  after_results_simp

set_option maxRecDepth 16384 in
set_option maxHeartbeats 8000000 in
theorem hop8_main_arg7 (V : Valuation τ sig (Elt F)) : after hop8 V (Proc.devRef .tc main_arg7) = V (Proc.devRef .tc main_arg7) := by
  unfold hop8
  after_results_simp

set_option maxRecDepth 16384 in
set_option maxHeartbeats 8000000 in
/-- Hop 9 leaves the hop function of what it found in the buffer it writes last. -/
theorem hop9_out (V : Valuation τ sig (Elt F)) :
    after hop9 V (Proc.devRef .tc main_v512)
      = refHop (V (Proc.devRef .tc main_v1)) (V (Proc.devRef .tc main_v3)) (V (Proc.devRef .tc main_v8)) (V (Proc.devRef .tc main_v456)) (V (Proc.devRef .tc main_arg4)) (V (Proc.devRef .tc main_arg5)) := by
  unfold hop9
  after_results_simp
  rfl

set_option maxRecDepth 16384 in
set_option maxHeartbeats 8000000 in
theorem hop9_main_v1 (V : Valuation τ sig (Elt F)) : after hop9 V (Proc.devRef .tc main_v1) = V (Proc.devRef .tc main_v1) := by
  unfold hop9
  after_results_simp

set_option maxRecDepth 16384 in
set_option maxHeartbeats 8000000 in
theorem hop9_main_v3 (V : Valuation τ sig (Elt F)) : after hop9 V (Proc.devRef .tc main_v3) = V (Proc.devRef .tc main_v3) := by
  unfold hop9
  after_results_simp

set_option maxRecDepth 16384 in
set_option maxHeartbeats 8000000 in
theorem hop9_main_v8 (V : Valuation τ sig (Elt F)) : after hop9 V (Proc.devRef .tc main_v8) = V (Proc.devRef .tc main_v8) := by
  unfold hop9
  after_results_simp

set_option maxRecDepth 16384 in
set_option maxHeartbeats 8000000 in
theorem hop9_main_arg0 (V : Valuation τ sig (Elt F)) : after hop9 V (Proc.devRef .tc main_arg0) = V (Proc.devRef .tc main_arg0) := by
  unfold hop9
  after_results_simp

set_option maxRecDepth 16384 in
set_option maxHeartbeats 8000000 in
theorem hop9_main_arg1 (V : Valuation τ sig (Elt F)) : after hop9 V (Proc.devRef .tc main_arg1) = V (Proc.devRef .tc main_arg1) := by
  unfold hop9
  after_results_simp

set_option maxRecDepth 16384 in
set_option maxHeartbeats 8000000 in
theorem hop9_main_arg2 (V : Valuation τ sig (Elt F)) : after hop9 V (Proc.devRef .tc main_arg2) = V (Proc.devRef .tc main_arg2) := by
  unfold hop9
  after_results_simp

set_option maxRecDepth 16384 in
set_option maxHeartbeats 8000000 in
theorem hop9_main_arg3 (V : Valuation τ sig (Elt F)) : after hop9 V (Proc.devRef .tc main_arg3) = V (Proc.devRef .tc main_arg3) := by
  unfold hop9
  after_results_simp

set_option maxRecDepth 16384 in
set_option maxHeartbeats 8000000 in
theorem hop9_main_arg4 (V : Valuation τ sig (Elt F)) : after hop9 V (Proc.devRef .tc main_arg4) = V (Proc.devRef .tc main_arg4) := by
  unfold hop9
  after_results_simp

set_option maxRecDepth 16384 in
set_option maxHeartbeats 8000000 in
theorem hop9_main_arg5 (V : Valuation τ sig (Elt F)) : after hop9 V (Proc.devRef .tc main_arg5) = V (Proc.devRef .tc main_arg5) := by
  unfold hop9
  after_results_simp

set_option maxRecDepth 16384 in
set_option maxHeartbeats 8000000 in
theorem hop9_main_arg6 (V : Valuation τ sig (Elt F)) : after hop9 V (Proc.devRef .tc main_arg6) = V (Proc.devRef .tc main_arg6) := by
  unfold hop9
  after_results_simp

set_option maxRecDepth 16384 in
set_option maxHeartbeats 8000000 in
theorem hop9_main_arg7 (V : Valuation τ sig (Elt F)) : after hop9 V (Proc.devRef .tc main_arg7) = V (Proc.devRef .tc main_arg7) := by
  unfold hop9
  after_results_simp

set_option maxRecDepth 16384 in
set_option maxHeartbeats 8000000 in
/-- Hop 10 leaves the hop function of what it found in the buffer it writes last. -/
theorem hop10_out (V : Valuation τ sig (Elt F)) :
    after hop10 V (Proc.devRef .tc main_v568)
      = refHop (V (Proc.devRef .tc main_v1)) (V (Proc.devRef .tc main_v3)) (V (Proc.devRef .tc main_v8)) (V (Proc.devRef .tc main_v512)) (V (Proc.devRef .tc main_arg4)) (V (Proc.devRef .tc main_arg5)) := by
  unfold hop10
  after_results_simp
  rfl

set_option maxRecDepth 16384 in
set_option maxHeartbeats 8000000 in
theorem hop10_main_v1 (V : Valuation τ sig (Elt F)) : after hop10 V (Proc.devRef .tc main_v1) = V (Proc.devRef .tc main_v1) := by
  unfold hop10
  after_results_simp

set_option maxRecDepth 16384 in
set_option maxHeartbeats 8000000 in
theorem hop10_main_v3 (V : Valuation τ sig (Elt F)) : after hop10 V (Proc.devRef .tc main_v3) = V (Proc.devRef .tc main_v3) := by
  unfold hop10
  after_results_simp

set_option maxRecDepth 16384 in
set_option maxHeartbeats 8000000 in
theorem hop10_main_v8 (V : Valuation τ sig (Elt F)) : after hop10 V (Proc.devRef .tc main_v8) = V (Proc.devRef .tc main_v8) := by
  unfold hop10
  after_results_simp

set_option maxRecDepth 16384 in
set_option maxHeartbeats 8000000 in
theorem hop10_main_arg0 (V : Valuation τ sig (Elt F)) : after hop10 V (Proc.devRef .tc main_arg0) = V (Proc.devRef .tc main_arg0) := by
  unfold hop10
  after_results_simp

set_option maxRecDepth 16384 in
set_option maxHeartbeats 8000000 in
theorem hop10_main_arg1 (V : Valuation τ sig (Elt F)) : after hop10 V (Proc.devRef .tc main_arg1) = V (Proc.devRef .tc main_arg1) := by
  unfold hop10
  after_results_simp

set_option maxRecDepth 16384 in
set_option maxHeartbeats 8000000 in
theorem hop10_main_arg2 (V : Valuation τ sig (Elt F)) : after hop10 V (Proc.devRef .tc main_arg2) = V (Proc.devRef .tc main_arg2) := by
  unfold hop10
  after_results_simp

set_option maxRecDepth 16384 in
set_option maxHeartbeats 8000000 in
theorem hop10_main_arg3 (V : Valuation τ sig (Elt F)) : after hop10 V (Proc.devRef .tc main_arg3) = V (Proc.devRef .tc main_arg3) := by
  unfold hop10
  after_results_simp

set_option maxRecDepth 16384 in
set_option maxHeartbeats 8000000 in
theorem hop10_main_arg4 (V : Valuation τ sig (Elt F)) : after hop10 V (Proc.devRef .tc main_arg4) = V (Proc.devRef .tc main_arg4) := by
  unfold hop10
  after_results_simp

set_option maxRecDepth 16384 in
set_option maxHeartbeats 8000000 in
theorem hop10_main_arg5 (V : Valuation τ sig (Elt F)) : after hop10 V (Proc.devRef .tc main_arg5) = V (Proc.devRef .tc main_arg5) := by
  unfold hop10
  after_results_simp

set_option maxRecDepth 16384 in
set_option maxHeartbeats 8000000 in
theorem hop10_main_arg6 (V : Valuation τ sig (Elt F)) : after hop10 V (Proc.devRef .tc main_arg6) = V (Proc.devRef .tc main_arg6) := by
  unfold hop10
  after_results_simp

set_option maxRecDepth 16384 in
set_option maxHeartbeats 8000000 in
theorem hop10_main_arg7 (V : Valuation τ sig (Elt F)) : after hop10 V (Proc.devRef .tc main_arg7) = V (Proc.devRef .tc main_arg7) := by
  unfold hop10
  after_results_simp

set_option maxRecDepth 16384 in
set_option maxHeartbeats 8000000 in
theorem post_out (V : Valuation τ sig (Elt F)) :
    after post V (Proc.devRef .tc main_v572) = refOut (V (Proc.devRef .tc main_v568)) (V (Proc.devRef .tc main_arg6)) (V (Proc.devRef .tc main_arg7)) := by
  unfold post
  after_results_simp
  rfl

set_option maxRecDepth 16384 in
set_option maxHeartbeats 8000000 in
theorem post_main_arg0 (V : Valuation τ sig (Elt F)) : after post V (Proc.devRef .tc main_arg0) = V (Proc.devRef .tc main_arg0) := by
  unfold post
  after_results_simp

set_option maxRecDepth 16384 in
set_option maxHeartbeats 8000000 in
theorem post_main_arg1 (V : Valuation τ sig (Elt F)) : after post V (Proc.devRef .tc main_arg1) = V (Proc.devRef .tc main_arg1) := by
  unfold post
  after_results_simp

set_option maxRecDepth 16384 in
set_option maxHeartbeats 8000000 in
theorem post_main_arg2 (V : Valuation τ sig (Elt F)) : after post V (Proc.devRef .tc main_arg2) = V (Proc.devRef .tc main_arg2) := by
  unfold post
  after_results_simp

set_option maxRecDepth 16384 in
set_option maxHeartbeats 8000000 in
theorem post_main_arg3 (V : Valuation τ sig (Elt F)) : after post V (Proc.devRef .tc main_arg3) = V (Proc.devRef .tc main_arg3) := by
  unfold post
  after_results_simp

set_option maxRecDepth 16384 in
set_option maxHeartbeats 8000000 in
theorem post_main_arg4 (V : Valuation τ sig (Elt F)) : after post V (Proc.devRef .tc main_arg4) = V (Proc.devRef .tc main_arg4) := by
  unfold post
  after_results_simp

set_option maxRecDepth 16384 in
set_option maxHeartbeats 8000000 in
theorem post_main_arg5 (V : Valuation τ sig (Elt F)) : after post V (Proc.devRef .tc main_arg5) = V (Proc.devRef .tc main_arg5) := by
  unfold post
  after_results_simp

set_option maxRecDepth 16384 in
set_option maxHeartbeats 8000000 in
theorem post_main_arg6 (V : Valuation τ sig (Elt F)) : after post V (Proc.devRef .tc main_arg6) = V (Proc.devRef .tc main_arg6) := by
  unfold post
  after_results_simp

set_option maxRecDepth 16384 in
set_option maxHeartbeats 8000000 in
theorem post_main_arg7 (V : Valuation τ sig (Elt F)) : after post V (Proc.devRef .tc main_arg7) = V (Proc.devRef .tc main_arg7) := by
  unfold post
  after_results_simp

/-- The reference as one function of its arguments' arrays and the two index rows: the output projection of ten hops
    from the projected features. -/
def refAll (s t : (⟨S800000, .i32⟩ : BufTy).Contents (Elt F)) (x0 : (⟨S50000x256, .f32⟩ : BufTy).Contents (Elt F)) (w1 : (⟨S256x96, .f32⟩ : BufTy).Contents (Elt F)) (b1 a1 a2 : (⟨S96, .f32⟩ : BufTy).Contents (Elt F))
    (w2 : (⟨S96x64, .f32⟩ : BufTy).Contents (Elt F)) (b2 : (⟨S64, .f32⟩ : BufTy).Contents (Elt F)) : (⟨S50000x64, .f32⟩ : BufTy).Contents (Elt F) :=
  have x := refProj x0 w1 b1
  refOut (refHop s t x (refHop s t x (refHop s t x (refHop s t x (refHop s t x (refHop s t x (refHop s t x (refHop s t x (refHop s t x (refHop s t x x a1 a2) a1 a2) a1 a2) a1 a2) a1 a2) a1 a2) a1 a2) a1 a2) a1 a2) a1 a2) w2 b2

set_option maxRecDepth 16384 in
set_option maxHeartbeats 8000000 in
/-- The whole line's result, from any contents `V`: the reference's function of the arguments, the index rows being what
    the first stretch leaves. -/
theorem ref_value (V : Valuation τ sig (Elt F)) :
    after ops V (Proc.devRef .tc main_v572)
      = refAll (after pre V (Proc.devRef .tc main_v1)) (after pre V (Proc.devRef .tc main_v3)) (V (Proc.devRef .tc main_arg0)) (V (Proc.devRef .tc main_arg2)) (V (Proc.devRef .tc main_arg3))
          (V (Proc.devRef .tc main_arg4)) (V (Proc.devRef .tc main_arg5)) (V (Proc.devRef .tc main_arg6)) (V (Proc.devRef .tc main_arg7)) := by
  rw [ops_split]
  simp only [StableHlo.after_append]
  rw [post_out]
  rw [hop10_out, hop10_main_arg6, hop10_main_arg7]
  rw [hop9_out, hop9_main_v1, hop9_main_v3, hop9_main_v8, hop9_main_arg4, hop9_main_arg5, hop9_main_arg6, hop9_main_arg7]
  rw [hop8_out, hop8_main_v1, hop8_main_v3, hop8_main_v8, hop8_main_arg4, hop8_main_arg5, hop8_main_arg6, hop8_main_arg7]
  rw [hop7_out, hop7_main_v1, hop7_main_v3, hop7_main_v8, hop7_main_arg4, hop7_main_arg5, hop7_main_arg6, hop7_main_arg7]
  rw [hop6_out, hop6_main_v1, hop6_main_v3, hop6_main_v8, hop6_main_arg4, hop6_main_arg5, hop6_main_arg6, hop6_main_arg7]
  rw [hop5_out, hop5_main_v1, hop5_main_v3, hop5_main_v8, hop5_main_arg4, hop5_main_arg5, hop5_main_arg6, hop5_main_arg7]
  rw [hop4_out, hop4_main_v1, hop4_main_v3, hop4_main_v8, hop4_main_arg4, hop4_main_arg5, hop4_main_arg6, hop4_main_arg7]
  rw [hop3_out, hop3_main_v1, hop3_main_v3, hop3_main_v8, hop3_main_arg4, hop3_main_arg5, hop3_main_arg6, hop3_main_arg7]
  rw [hop2_out, hop2_main_v1, hop2_main_v3, hop2_main_v8, hop2_main_arg4, hop2_main_arg5, hop2_main_arg6, hop2_main_arg7]
  rw [hop1_out, hop1_main_v1, hop1_main_v3, hop1_main_v8, hop1_main_arg4, hop1_main_arg5, hop1_main_arg6, hop1_main_arg7]
  rw [pre_x, pre_main_arg4, pre_main_arg5, pre_main_arg6, pre_main_arg7]
  rfl

/-- No operation of the line writes argument 0. -/
theorem ref_arg0 (V : Valuation τ sig (Elt F)) : after ops V (Proc.devRef .tc main_arg0) = V (Proc.devRef .tc main_arg0) := by
  rw [ops_split]
  simp only [StableHlo.after_append]
  rw [post_main_arg0, hop10_main_arg0, hop9_main_arg0, hop8_main_arg0, hop7_main_arg0, hop6_main_arg0, hop5_main_arg0, hop4_main_arg0, hop3_main_arg0, hop2_main_arg0, hop1_main_arg0, pre_main_arg0]

/-- No operation of the line writes argument 1. -/
theorem ref_arg1 (V : Valuation τ sig (Elt F)) : after ops V (Proc.devRef .tc main_arg1) = V (Proc.devRef .tc main_arg1) := by
  rw [ops_split]
  simp only [StableHlo.after_append]
  rw [post_main_arg1, hop10_main_arg1, hop9_main_arg1, hop8_main_arg1, hop7_main_arg1, hop6_main_arg1, hop5_main_arg1, hop4_main_arg1, hop3_main_arg1, hop2_main_arg1, hop1_main_arg1, pre_main_arg1]

/-- No operation of the line writes argument 2. -/
theorem ref_arg2 (V : Valuation τ sig (Elt F)) : after ops V (Proc.devRef .tc main_arg2) = V (Proc.devRef .tc main_arg2) := by
  rw [ops_split]
  simp only [StableHlo.after_append]
  rw [post_main_arg2, hop10_main_arg2, hop9_main_arg2, hop8_main_arg2, hop7_main_arg2, hop6_main_arg2, hop5_main_arg2, hop4_main_arg2, hop3_main_arg2, hop2_main_arg2, hop1_main_arg2, pre_main_arg2]

/-- No operation of the line writes argument 3. -/
theorem ref_arg3 (V : Valuation τ sig (Elt F)) : after ops V (Proc.devRef .tc main_arg3) = V (Proc.devRef .tc main_arg3) := by
  rw [ops_split]
  simp only [StableHlo.after_append]
  rw [post_main_arg3, hop10_main_arg3, hop9_main_arg3, hop8_main_arg3, hop7_main_arg3, hop6_main_arg3, hop5_main_arg3, hop4_main_arg3, hop3_main_arg3, hop2_main_arg3, hop1_main_arg3, pre_main_arg3]

/-- No operation of the line writes argument 4. -/
theorem ref_arg4 (V : Valuation τ sig (Elt F)) : after ops V (Proc.devRef .tc main_arg4) = V (Proc.devRef .tc main_arg4) := by
  rw [ops_split]
  simp only [StableHlo.after_append]
  rw [post_main_arg4, hop10_main_arg4, hop9_main_arg4, hop8_main_arg4, hop7_main_arg4, hop6_main_arg4, hop5_main_arg4, hop4_main_arg4, hop3_main_arg4, hop2_main_arg4, hop1_main_arg4, pre_main_arg4]

/-- No operation of the line writes argument 5. -/
theorem ref_arg5 (V : Valuation τ sig (Elt F)) : after ops V (Proc.devRef .tc main_arg5) = V (Proc.devRef .tc main_arg5) := by
  rw [ops_split]
  simp only [StableHlo.after_append]
  rw [post_main_arg5, hop10_main_arg5, hop9_main_arg5, hop8_main_arg5, hop7_main_arg5, hop6_main_arg5, hop5_main_arg5, hop4_main_arg5, hop3_main_arg5, hop2_main_arg5, hop1_main_arg5, pre_main_arg5]

/-- No operation of the line writes argument 6. -/
theorem ref_arg6 (V : Valuation τ sig (Elt F)) : after ops V (Proc.devRef .tc main_arg6) = V (Proc.devRef .tc main_arg6) := by
  rw [ops_split]
  simp only [StableHlo.after_append]
  rw [post_main_arg6, hop10_main_arg6, hop9_main_arg6, hop8_main_arg6, hop7_main_arg6, hop6_main_arg6, hop5_main_arg6, hop4_main_arg6, hop3_main_arg6, hop2_main_arg6, hop1_main_arg6, pre_main_arg6]

/-- No operation of the line writes argument 7. -/
theorem ref_arg7 (V : Valuation τ sig (Elt F)) : after ops V (Proc.devRef .tc main_arg7) = V (Proc.devRef .tc main_arg7) := by
  rw [ops_split]
  simp only [StableHlo.after_append]
  rw [post_main_arg7, hop10_main_arg7, hop9_main_arg7, hop8_main_arg7, hop7_main_arg7, hop6_main_arg7, hop5_main_arg7, hop4_main_arg7, hop3_main_arg7, hop2_main_arg7, hop1_main_arg7, pre_main_arg7]

end Cert.ReferenceIdeal.RefHops

end
-- ==== Proof.RefRows.lean ====
/-
  The two index rows on the reference's side: its first stretch slices row 0 and row 1 out of the 2 × 800000 index argument
  and flattens each.
-/
import proofs.«105152_j14491219657222_1_alg».proof.Proof.RefHops

set_option maxRecDepth 16384

noncomputable section

namespace Cert.ReferenceIdeal.RefRows

open Cert.ReferenceIdeal Cert.ReferenceIdeal.Gen Cert.ReferenceIdeal.RefRun Cert.ReferenceIdeal.RefHops Idealize.ShloMosaic Idealize.ShloMosaic.TcCoe Idealize.SL.Sem Idealize.ShloMosaic.StableHlo

variable {F : FTy → Type} [FloatOps F]

/-- Row r of the 2 × 800000 index argument, flattened: what the first stretch leaves as an index row. -/
def idxRow0 (a : (⟨S2x800000, .i32⟩ : BufTy).Contents (Elt F)) : (⟨S800000, .i32⟩ : BufTy).Contents (Elt F) :=
  fun i => shapeCast S800000 (extractStridedSlice S1x800000 ![0, 0] a slices_S2x800000_S1x800000_0_0) shapeCasts_S1x800000_S800000 i
def idxRow1 (a : (⟨S2x800000, .i32⟩ : BufTy).Contents (Elt F)) : (⟨S800000, .i32⟩ : BufTy).Contents (Elt F) :=
  fun i => shapeCast S800000 (extractStridedSlice S1x800000 ![1, 0] a slices_S2x800000_S1x800000_1_0) shapeCasts_S1x800000_S800000 i

set_option maxHeartbeats 4000000 in
theorem pre_row0 (V : Valuation τ sig (Elt F)) : after pre V (Proc.devRef .tc main_v1) = idxRow0 (V (Proc.devRef .tc main_arg1)) := by
  unfold pre
  after_results_simp
  rfl

set_option maxHeartbeats 4000000 in
theorem pre_row1 (V : Valuation τ sig (Elt F)) : after pre V (Proc.devRef .tc main_v3) = idxRow1 (V (Proc.devRef .tc main_arg1)) := by
  unfold pre
  after_results_simp
  rfl

end Cert.ReferenceIdeal.RefRows

end
-- ==== Proof.KernelRun.lean ====
/-
  The idealized kernel's run with its result named. The program is twenty-two kernel launches among stretches of
  host operations; its generated frame walks the buffer contents from the launch memory across every stretch and
  every launch to the last boundary. The same walk, read at the result buffer as well as at the arguments, says:
  every weakly fair execution terminates, nothing faulting, with the result buffer holding the last boundary's
  contents for it and the arguments as launched.
-/
import proofs.«105152_j14491219657222_1_alg».proof.Proof.KernelIdealFrameP

set_option maxRecDepth 16384

noncomputable section

namespace Cert.KernelIdeal.Run

open Cert.KernelIdeal Cert.KernelIdeal.Gen Cert.KernelIdeal.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel from `m` terminates without a fault; the result buffer ends
    at the contents the last boundary gives it, the arguments end as launched. -/
theorem run_value : θ_run defs (onTc (τ := τ) (main (F := F))) ⟨m, fun _ => 0, ρ⟩ (fun r => ∀ c : Dev nD,
      r.2.mem ((c.tc : Thread nD τ).loc main_v422) = W67 m ρ c (Proc.devRef .tc main_v422)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W67 m ρ c b)
    (hfin := fun c s' => by
      iintro ⟨⟨Hh, -⟩, HSI⟩
      unfold StableHlo.held
      imodintro
      iapply (pointsTo_read_all (Pipeline.ucRefs τ sig) (fun b => (((c : Thread nD τ)).1, b)) (W67 m ρ c) s')
      isplitl [Hh] <;> iassumption)
    (hQ := fun s h c =>
      ⟨h c _ (mem_uc main_v422 (by decide)),
       (h c _ (mem_uc main_arg0 (by decide))).trans (W67_main_arg0 m ρ c),
       (h c _ (mem_uc main_arg1 (by decide))).trans (W67_main_arg1 m ρ c),
       (h c _ (mem_uc main_arg2 (by decide))).trans (W67_main_arg2 m ρ c),
       (h c _ (mem_uc main_arg3 (by decide))).trans (W67_main_arg3 m ρ c),
       (h c _ (mem_uc main_arg4 (by decide))).trans (W67_main_arg4 m ρ c),
       (h c _ (mem_uc main_arg5 (by decide))).trans (W67_main_arg5 m ρ c),
       (h c _ (mem_uc main_arg6 (by decide))).trans (W67_main_arg6 m ρ c),
       (h c _ (mem_uc main_arg7 (by decide))).trans (W67_main_arg7 m ρ c)⟩)

end Cert.KernelIdeal.Run

end
-- ==== Proof.KernelRows.lean ====
/-
  The two index rows on the kernel program's side: its first host stretch slices row 0 and row 1 out of the 2 × 800000
  index argument and flattens each.
-/
import proofs.«105152_j14491219657222_1_alg».proof.Proof.KernelIdealFrameP
import Idealize.ShloMosaic.Lib.StableHlo.Run

set_option maxRecDepth 16384

noncomputable section

namespace Cert.KernelIdeal.Rows

open Cert.KernelIdeal Cert.KernelIdeal.Gen Cert.KernelIdeal.GenP
open Idealize.ShloMosaic Idealize.ShloMosaic.TcCoe Idealize.ShloMosaic.StableHlo
open Idealize.SL Idealize.SL.Sem

variable {F : FTy → Type} [FloatOps F]

/-- Row r of the 2 × 800000 index argument, flattened: what the first stretch leaves as an index row. -/
def idxRow0 (a : (⟨S2x800000, .i32⟩ : BufTy).Contents (Elt F)) : (⟨S800000, .i32⟩ : BufTy).Contents (Elt F) :=
  fun i => shapeCast S800000 (extractStridedSlice S1x800000 ![0, 0] a slices_S2x800000_S1x800000_0_0) shapeCasts_S1x800000_S800000 i
def idxRow1 (a : (⟨S2x800000, .i32⟩ : BufTy).Contents (Elt F)) : (⟨S800000, .i32⟩ : BufTy).Contents (Elt F) :=
  fun i => shapeCast S800000 (extractStridedSlice S1x800000 ![1, 0] a slices_S2x800000_S1x800000_1_0) shapeCasts_S1x800000_S800000 i

variable (m : (ℓ : Loc nD τ sig) → Buf (Elt F) ℓ) (ρ : Dev nD → PrngReg)

set_option maxHeartbeats 4000000 in
theorem W1_row0 (c : Dev nD) : W1 m ρ c (Proc.devRef .tc main_v1) = idxRow0 (m ((c : Thread nD τ).loc main_arg1)) := by
  dsimp only [W1, hostOps0]
  after_results_simp
  rfl

set_option maxHeartbeats 4000000 in
theorem W1_row1 (c : Dev nD) : W1 m ρ c (Proc.devRef .tc main_v3) = idxRow1 (m ((c : Thread nD τ).loc main_arg1)) := by
  dsimp only [W1, hostOps0]
  after_results_simp
  rfl

end Cert.KernelIdeal.Rows

end
-- ==== Proof.KernelFns.lean ====
/-
  The two pointwise kernels of a hop, as functions of whole arrays, and each launch's payload as that function.

  The per-edge attention weight: for the two gathered scores a and b of an edge, exp (lrelu (a + b)), with
  lrelu v = v for v ≥ 0 and 0.2·v otherwise. The per-node normalization: for a numerator entry n of a node's
  row and that node's divisor d, elu (n / d), with elu v = v for v > 0 and exp v − 1 otherwise; the divisor is one
  column, read at the row's first entry whatever the column of n. Every launch of either kind computes its
  function entry by entry on the block it loads: the body's only other operations are casts of a block to its own
  shape and the spread of the divisor's column over the row.
-/
import proofs.«105152_j14491219657222_1_alg».proof.Proof.Gen.KernelIdeal.Skeleton
import Idealize.ShloMosaic.Lib.Pipeline.Value
import Idealize.ShloMosaic.Lib.ValueIdx

set_option maxRecDepth 16384

noncomputable section

namespace Cert.KernelIdeal.Fns

open Cert.KernelIdeal Cert.KernelIdeal.Gen
open Idealize.ShloMosaic Idealize.ShloMosaic.TcCoe Idealize.ShloMosaic.ValueIdx

variable {F : FTy → Type} [FloatOps F]

/-- One edge's attention weight from its two gathered scores: exp (lrelu (a + b)). -/
def edgeS (a b : Elt F .f32) : Elt F .f32 :=
  FloatOps.exp (Scalar.select (FloatOps.cmpf .oge (FloatOps.addf a b) (Scalar.ofBits .f32 0x00000000#32)) (FloatOps.addf a b)
    (FloatOps.mulf (Scalar.ofBits .f32 0x3E4CCCCD#32) (FloatOps.addf a b)))

/-- The whole padded edge array's weights, entry by entry. -/
def edgeW (a b : S6256x128.Idx → Elt F .f32) : S6256x128.Idx → Elt F .f32 := fun i => edgeS (a i) (b i)

/-- One entry's normalization: elu (n / d). -/
def normS (n d : Elt F .f32) : Elt F .f32 :=
  Scalar.select (FloatOps.cmpf .ogt (FloatOps.divf n d) (Scalar.ofBits .f32 0x00000000#32)) (FloatOps.divf n d)
    (FloatOps.subf (FloatOps.exp (FloatOps.divf n d)) (Scalar.ofBits .f32 0x3F800000#32))

/-- The whole node array's normalization: each entry against its row's divisor. -/
def normW (n : S50000x96.Idx → Elt F .f32) (d : S50000x1.Idx → Elt F .f32) : S50000x96.Idx → Elt F .f32 :=
  fun i => normS (n i) (d (ix2 (i 0) (0 : Fin 1)))

theorem pay1 (x0 x1 : Vec F S3128x128 .f32) : k1_pay1 x0 x1 = fun j => edgeS (x0 j) (x1 j) := by
  funext j
  unfold k1_pay1 edgeS
  simp only [shapeCast_self]
  rfl

theorem pay3 (x0 x1 : Vec F S3128x128 .f32) : k3_pay1 x0 x1 = fun j => edgeS (x0 j) (x1 j) := by
  funext j
  unfold k3_pay1 edgeS
  simp only [shapeCast_self]
  rfl

theorem pay5 (x0 x1 : Vec F S3128x128 .f32) : k5_pay1 x0 x1 = fun j => edgeS (x0 j) (x1 j) := by
  funext j
  unfold k5_pay1 edgeS
  simp only [shapeCast_self]
  rfl

theorem pay7 (x0 x1 : Vec F S3128x128 .f32) : k7_pay1 x0 x1 = fun j => edgeS (x0 j) (x1 j) := by
  funext j
  unfold k7_pay1 edgeS
  simp only [shapeCast_self]
  rfl

theorem pay9 (x0 x1 : Vec F S3128x128 .f32) : k9_pay1 x0 x1 = fun j => edgeS (x0 j) (x1 j) := by
  funext j
  unfold k9_pay1 edgeS
  simp only [shapeCast_self]
  rfl

theorem pay11 (x0 x1 : Vec F S3128x128 .f32) : k11_pay1 x0 x1 = fun j => edgeS (x0 j) (x1 j) := by
  funext j
  unfold k11_pay1 edgeS
  simp only [shapeCast_self]
  rfl

theorem pay13 (x0 x1 : Vec F S3128x128 .f32) : k13_pay1 x0 x1 = fun j => edgeS (x0 j) (x1 j) := by
  funext j
  unfold k13_pay1 edgeS
  simp only [shapeCast_self]
  rfl

theorem pay15 (x0 x1 : Vec F S3128x128 .f32) : k15_pay1 x0 x1 = fun j => edgeS (x0 j) (x1 j) := by
  funext j
  unfold k15_pay1 edgeS
  simp only [shapeCast_self]
  rfl

theorem pay17 (x0 x1 : Vec F S3128x128 .f32) : k17_pay1 x0 x1 = fun j => edgeS (x0 j) (x1 j) := by
  funext j
  unfold k17_pay1 edgeS
  simp only [shapeCast_self]
  rfl

theorem pay19 (x0 x1 : Vec F S3128x128 .f32) : k19_pay1 x0 x1 = fun j => edgeS (x0 j) (x1 j) := by
  funext j
  unfold k19_pay1 edgeS
  simp only [shapeCast_self]
  rfl

theorem pay2 (x0 : Vec F S2000x96 .f32) (x1 : Vec F S2000x1 .f32) :
    k2_pay1 x0 x1 = fun j => normS (x0 j) (x1 (ix2 (j 0) (0 : Fin 1))) := by
  funext j
  unfold k2_pay1
  simp only [shapeCast_self]
  have hb : broadcastTo S2000x96 x1 broadcasts_S2000x1_S2000x96 j = x1 (ix2 (j 0) (0 : Fin 1)) :=
    broadcastTo_apply x1 broadcasts_S2000x1_S2000x96 j (ix2 (j 0) (0 : Fin 1)) (fun a => by
      match a with
      | ⟨0, _⟩ => rfl
      | ⟨1, _⟩ => rfl)
  show normS (x0 j) (broadcastTo S2000x96 x1 broadcasts_S2000x1_S2000x96 j) = _
  rw [hb]

theorem pay4 (x0 : Vec F S2000x96 .f32) (x1 : Vec F S2000x1 .f32) :
    k4_pay1 x0 x1 = fun j => normS (x0 j) (x1 (ix2 (j 0) (0 : Fin 1))) := by
  funext j
  unfold k4_pay1
  simp only [shapeCast_self]
  have hb : broadcastTo S2000x96 x1 broadcasts_S2000x1_S2000x96 j = x1 (ix2 (j 0) (0 : Fin 1)) :=
    broadcastTo_apply x1 broadcasts_S2000x1_S2000x96 j (ix2 (j 0) (0 : Fin 1)) (fun a => by
      match a with
      | ⟨0, _⟩ => rfl
      | ⟨1, _⟩ => rfl)
  show normS (x0 j) (broadcastTo S2000x96 x1 broadcasts_S2000x1_S2000x96 j) = _
  rw [hb]

theorem pay6 (x0 : Vec F S2000x96 .f32) (x1 : Vec F S2000x1 .f32) :
    k6_pay1 x0 x1 = fun j => normS (x0 j) (x1 (ix2 (j 0) (0 : Fin 1))) := by
  funext j
  unfold k6_pay1
  simp only [shapeCast_self]
  have hb : broadcastTo S2000x96 x1 broadcasts_S2000x1_S2000x96 j = x1 (ix2 (j 0) (0 : Fin 1)) :=
    broadcastTo_apply x1 broadcasts_S2000x1_S2000x96 j (ix2 (j 0) (0 : Fin 1)) (fun a => by
      match a with
      | ⟨0, _⟩ => rfl
      | ⟨1, _⟩ => rfl)
  show normS (x0 j) (broadcastTo S2000x96 x1 broadcasts_S2000x1_S2000x96 j) = _
  rw [hb]

theorem pay8 (x0 : Vec F S2000x96 .f32) (x1 : Vec F S2000x1 .f32) :
    k8_pay1 x0 x1 = fun j => normS (x0 j) (x1 (ix2 (j 0) (0 : Fin 1))) := by
  funext j
  unfold k8_pay1
  simp only [shapeCast_self]
  have hb : broadcastTo S2000x96 x1 broadcasts_S2000x1_S2000x96 j = x1 (ix2 (j 0) (0 : Fin 1)) :=
    broadcastTo_apply x1 broadcasts_S2000x1_S2000x96 j (ix2 (j 0) (0 : Fin 1)) (fun a => by
      match a with
      | ⟨0, _⟩ => rfl
      | ⟨1, _⟩ => rfl)
  show normS (x0 j) (broadcastTo S2000x96 x1 broadcasts_S2000x1_S2000x96 j) = _
  rw [hb]

theorem pay10 (x0 : Vec F S2000x96 .f32) (x1 : Vec F S2000x1 .f32) :
    k10_pay1 x0 x1 = fun j => normS (x0 j) (x1 (ix2 (j 0) (0 : Fin 1))) := by
  funext j
  unfold k10_pay1
  simp only [shapeCast_self]
  have hb : broadcastTo S2000x96 x1 broadcasts_S2000x1_S2000x96 j = x1 (ix2 (j 0) (0 : Fin 1)) :=
    broadcastTo_apply x1 broadcasts_S2000x1_S2000x96 j (ix2 (j 0) (0 : Fin 1)) (fun a => by
      match a with
      | ⟨0, _⟩ => rfl
      | ⟨1, _⟩ => rfl)
  show normS (x0 j) (broadcastTo S2000x96 x1 broadcasts_S2000x1_S2000x96 j) = _
  rw [hb]

theorem pay12 (x0 : Vec F S2000x96 .f32) (x1 : Vec F S2000x1 .f32) :
    k12_pay1 x0 x1 = fun j => normS (x0 j) (x1 (ix2 (j 0) (0 : Fin 1))) := by
  funext j
  unfold k12_pay1
  simp only [shapeCast_self]
  have hb : broadcastTo S2000x96 x1 broadcasts_S2000x1_S2000x96 j = x1 (ix2 (j 0) (0 : Fin 1)) :=
    broadcastTo_apply x1 broadcasts_S2000x1_S2000x96 j (ix2 (j 0) (0 : Fin 1)) (fun a => by
      match a with
      | ⟨0, _⟩ => rfl
      | ⟨1, _⟩ => rfl)
  show normS (x0 j) (broadcastTo S2000x96 x1 broadcasts_S2000x1_S2000x96 j) = _
  rw [hb]

theorem pay14 (x0 : Vec F S2000x96 .f32) (x1 : Vec F S2000x1 .f32) :
    k14_pay1 x0 x1 = fun j => normS (x0 j) (x1 (ix2 (j 0) (0 : Fin 1))) := by
  funext j
  unfold k14_pay1
  simp only [shapeCast_self]
  have hb : broadcastTo S2000x96 x1 broadcasts_S2000x1_S2000x96 j = x1 (ix2 (j 0) (0 : Fin 1)) :=
    broadcastTo_apply x1 broadcasts_S2000x1_S2000x96 j (ix2 (j 0) (0 : Fin 1)) (fun a => by
      match a with
      | ⟨0, _⟩ => rfl
      | ⟨1, _⟩ => rfl)
  show normS (x0 j) (broadcastTo S2000x96 x1 broadcasts_S2000x1_S2000x96 j) = _
  rw [hb]

theorem pay16 (x0 : Vec F S2000x96 .f32) (x1 : Vec F S2000x1 .f32) :
    k16_pay1 x0 x1 = fun j => normS (x0 j) (x1 (ix2 (j 0) (0 : Fin 1))) := by
  funext j
  unfold k16_pay1
  simp only [shapeCast_self]
  have hb : broadcastTo S2000x96 x1 broadcasts_S2000x1_S2000x96 j = x1 (ix2 (j 0) (0 : Fin 1)) :=
    broadcastTo_apply x1 broadcasts_S2000x1_S2000x96 j (ix2 (j 0) (0 : Fin 1)) (fun a => by
      match a with
      | ⟨0, _⟩ => rfl
      | ⟨1, _⟩ => rfl)
  show normS (x0 j) (broadcastTo S2000x96 x1 broadcasts_S2000x1_S2000x96 j) = _
  rw [hb]

theorem pay18 (x0 : Vec F S2000x96 .f32) (x1 : Vec F S2000x1 .f32) :
    k18_pay1 x0 x1 = fun j => normS (x0 j) (x1 (ix2 (j 0) (0 : Fin 1))) := by
  funext j
  unfold k18_pay1
  simp only [shapeCast_self]
  have hb : broadcastTo S2000x96 x1 broadcasts_S2000x1_S2000x96 j = x1 (ix2 (j 0) (0 : Fin 1)) :=
    broadcastTo_apply x1 broadcasts_S2000x1_S2000x96 j (ix2 (j 0) (0 : Fin 1)) (fun a => by
      match a with
      | ⟨0, _⟩ => rfl
      | ⟨1, _⟩ => rfl)
  show normS (x0 j) (broadcastTo S2000x96 x1 broadcasts_S2000x1_S2000x96 j) = _
  rw [hb]

theorem pay20 (x0 : Vec F S2000x96 .f32) (x1 : Vec F S2000x1 .f32) :
    k20_pay1 x0 x1 = fun j => normS (x0 j) (x1 (ix2 (j 0) (0 : Fin 1))) := by
  funext j
  unfold k20_pay1
  simp only [shapeCast_self]
  have hb : broadcastTo S2000x96 x1 broadcasts_S2000x1_S2000x96 j = x1 (ix2 (j 0) (0 : Fin 1)) :=
    broadcastTo_apply x1 broadcasts_S2000x1_S2000x96 j (ix2 (j 0) (0 : Fin 1)) (fun a => by
      match a with
      | ⟨0, _⟩ => rfl
      | ⟨1, _⟩ => rfl)
  show normS (x0 j) (broadcastTo S2000x96 x1 broadcasts_S2000x1_S2000x96 j) = _
  rw [hb]

end Cert.KernelIdeal.Fns

end
-- ==== Proof.KernelHostFns.lean ====
/-
  The host side of the kernel program's hops, stretch by stretch, as functions of whole arrays, spelled with the
  program's own operations.

  With x the projected features, h the current features, a₁ and a₂ the attention vectors, s and t the index rows:
    selfW   — w₂ = exp (lrelu (Σ_k x[·,k]·a₁[k] + Σ_k x[·,k]·a₂[k])), one column, the row sums taken as lane sums;
    srcPad  — the score Σ_k x[·,k]·a₁[k] gathered at s (negative indices wrapped), flattened, padded with 768 zeros to
              800768 entries and laid out as 6256 rows of 128;
    tgtPad  — the same for Σ_k h[·,k]·a₂[k] gathered at t;
    hopDiv  — the padded weight array flattened, cut back to the 800000 edges, scatter-added by s onto zero, plus w₂;
    hopNum  — the edges' weights times the rows of h gathered at t, scatter-added by s onto zero, plus w₂·x.
-/
import proofs.«105152_j14491219657222_1_alg».proof.Proof.Gen.KernelIdeal.Launch
import proofs.«105152_j14491219657222_1_alg».proof.Proof.KernelFns

set_option maxRecDepth 16384

noncomputable section

namespace Cert.KernelIdeal.Fns

open Cert.KernelIdeal Cert.KernelIdeal.Gen
open Idealize.ShloMosaic Idealize.ShloMosaic.TcCoe

variable {F : FTy → Type} [FloatOps F]

/-- The self-loop weight column w₂. -/
def selfW (x : (⟨S50000x96, .f32⟩ : BufTy).Contents (Elt F)) (a1 a2 : (⟨S96, .f32⟩ : BufTy).Contents (Elt F)) : (⟨S50000x1, .f32⟩ : BufTy).Contents (Elt F) :=
  have u0 := (broadcastInDim S1x96 ![1] bcast_S96_S1x96_1 : (⟨S96, .f32⟩ : BufTy).Contents (Elt F) → (⟨S1x96, .f32⟩ : BufTy).Contents (Elt F)) a1
  have u1 := (broadcastInDim S50000x96 ![0, 1] bcast_S1x96_S50000x96_0_1 : (⟨S1x96, .f32⟩ : BufTy).Contents (Elt F) → (⟨S50000x96, .f32⟩ : BufTy).Contents (Elt F)) u0
  have u2 := (mulf : (⟨S50000x96, .f32⟩ : BufTy).Contents (Elt F) → (⟨S50000x96, .f32⟩ : BufTy).Contents (Elt F) → (⟨S50000x96, .f32⟩ : BufTy).Contents (Elt F)) x u1
  have u3 : FVec F S_ .f32 := constant S_ .f32 0x00000000#32
  have u4 := ((fun x v => Host.reduceAdd x v reducesTo_S50000x96_S50000_d1 h_S_) : (⟨S50000x96, .f32⟩ : BufTy).Contents (Elt F) → (⟨S_, .f32⟩ : BufTy).Contents (Elt F) → (⟨S50000, .f32⟩ : BufTy).Contents (Elt F)) u2 u3
  have u5 := (broadcastInDim S50000x1 ![0] bcast_S50000_S50000x1_0 : (⟨S50000, .f32⟩ : BufTy).Contents (Elt F) → (⟨S50000x1, .f32⟩ : BufTy).Contents (Elt F)) u4
  have u6 := (broadcastInDim S1x96 ![1] bcast_S96_S1x96_1 : (⟨S96, .f32⟩ : BufTy).Contents (Elt F) → (⟨S1x96, .f32⟩ : BufTy).Contents (Elt F)) a2
  have u7 := (broadcastInDim S50000x96 ![0, 1] bcast_S1x96_S50000x96_0_1 : (⟨S1x96, .f32⟩ : BufTy).Contents (Elt F) → (⟨S50000x96, .f32⟩ : BufTy).Contents (Elt F)) u6
  have u8 := (mulf : (⟨S50000x96, .f32⟩ : BufTy).Contents (Elt F) → (⟨S50000x96, .f32⟩ : BufTy).Contents (Elt F) → (⟨S50000x96, .f32⟩ : BufTy).Contents (Elt F)) x u7
  have u9 : FVec F S_ .f32 := constant S_ .f32 0x00000000#32
  have u10 := ((fun x v => Host.reduceAdd x v reducesTo_S50000x96_S50000_d1 h_S_) : (⟨S50000x96, .f32⟩ : BufTy).Contents (Elt F) → (⟨S_, .f32⟩ : BufTy).Contents (Elt F) → (⟨S50000, .f32⟩ : BufTy).Contents (Elt F)) u8 u9
  have u11 := (broadcastInDim S50000x1 ![0] bcast_S50000_S50000x1_0 : (⟨S50000, .f32⟩ : BufTy).Contents (Elt F) → (⟨S50000x1, .f32⟩ : BufTy).Contents (Elt F)) u10
  have u12 := (addf : (⟨S50000x1, .f32⟩ : BufTy).Contents (Elt F) → (⟨S50000x1, .f32⟩ : BufTy).Contents (Elt F) → (⟨S50000x1, .f32⟩ : BufTy).Contents (Elt F)) u5 u11
  have u13 : FVec F S_ .f32 := constant S_ .f32 0x00000000#32
  have u14 := (broadcastInDim S50000x1 ![] bcast_S_S50000x1 : (⟨S_, .f32⟩ : BufTy).Contents (Elt F) → (⟨S50000x1, .f32⟩ : BufTy).Contents (Elt F)) u13
  have u15 := (cmpf .oge : (⟨S50000x1, .f32⟩ : BufTy).Contents (Elt F) → (⟨S50000x1, .f32⟩ : BufTy).Contents (Elt F) → (⟨S50000x1, .i1⟩ : BufTy).Contents (Elt F)) u12 u14
  have u16 : FVec F S_ .f32 := constant S_ .f32 0x3E4CCCCD#32
  have u17 := (broadcastInDim S50000x1 ![] bcast_S_S50000x1 : (⟨S_, .f32⟩ : BufTy).Contents (Elt F) → (⟨S50000x1, .f32⟩ : BufTy).Contents (Elt F)) u16
  have u18 := (mulf : (⟨S50000x1, .f32⟩ : BufTy).Contents (Elt F) → (⟨S50000x1, .f32⟩ : BufTy).Contents (Elt F) → (⟨S50000x1, .f32⟩ : BufTy).Contents (Elt F)) u17 u12
  have u19 : (⟨S50000x1, .f32⟩ : BufTy).Contents (Elt F) := (select) u15 u12 u18
  have u20 := (Host.exp : (⟨S50000x1, .f32⟩ : BufTy).Contents (Elt F) → (⟨S50000x1, .f32⟩ : BufTy).Contents (Elt F)) u19
  u20

/-- The source scores, gathered, flattened and padded to the kernel's layout. -/
def srcPad (s : (⟨S800000, .i32⟩ : BufTy).Contents (Elt F)) (x : (⟨S50000x96, .f32⟩ : BufTy).Contents (Elt F)) (a1 : (⟨S96, .f32⟩ : BufTy).Contents (Elt F)) : (⟨S6256x128, .f32⟩ : BufTy).Contents (Elt F) :=
  have u0 := (broadcastInDim S1x96 ![1] bcast_S96_S1x96_1 : (⟨S96, .f32⟩ : BufTy).Contents (Elt F) → (⟨S1x96, .f32⟩ : BufTy).Contents (Elt F)) a1
  have u1 := (broadcastInDim S50000x96 ![0, 1] bcast_S1x96_S50000x96_0_1 : (⟨S1x96, .f32⟩ : BufTy).Contents (Elt F) → (⟨S50000x96, .f32⟩ : BufTy).Contents (Elt F)) u0
  have u2 := (mulf : (⟨S50000x96, .f32⟩ : BufTy).Contents (Elt F) → (⟨S50000x96, .f32⟩ : BufTy).Contents (Elt F) → (⟨S50000x96, .f32⟩ : BufTy).Contents (Elt F)) x u1
  have u3 : FVec F S_ .f32 := constant S_ .f32 0x00000000#32
  have u4 := ((fun x v => Host.reduceAdd x v reducesTo_S50000x96_S50000_d1 h_S_) : (⟨S50000x96, .f32⟩ : BufTy).Contents (Elt F) → (⟨S_, .f32⟩ : BufTy).Contents (Elt F) → (⟨S50000, .f32⟩ : BufTy).Contents (Elt F)) u2 u3
  have u5 := (broadcastInDim S50000x1 ![0] bcast_S50000_S50000x1_0 : (⟨S50000, .f32⟩ : BufTy).Contents (Elt F) → (⟨S50000x1, .f32⟩ : BufTy).Contents (Elt F)) u4
  have u6 : IVec S_ 32 := constantI S_ 32 0#32
  have u7 := (broadcastInDim S800000 ![] bcast_S_S800000 : (⟨S_, .i32⟩ : BufTy).Contents (Elt F) → (⟨S800000, .i32⟩ : BufTy).Contents (Elt F)) u6
  have u8 := (cmpi .slt : (⟨S800000, .i32⟩ : BufTy).Contents (Elt F) → (⟨S800000, .i32⟩ : BufTy).Contents (Elt F) → (⟨S800000, .i1⟩ : BufTy).Contents (Elt F)) s u7
  have u9 : IVec S_ 32 := constantI S_ 32 50000#32
  have u10 := (broadcastInDim S800000 ![] bcast_S_S800000 : (⟨S_, .i32⟩ : BufTy).Contents (Elt F) → (⟨S800000, .i32⟩ : BufTy).Contents (Elt F)) u9
  have u11 := (addi : (⟨S800000, .i32⟩ : BufTy).Contents (Elt F) → (⟨S800000, .i32⟩ : BufTy).Contents (Elt F) → (⟨S800000, .i32⟩ : BufTy).Contents (Elt F)) s u10
  have u12 := (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) u8 u11 s
  have u13 := (broadcastInDim S800000x1 ![0] bcast_S800000_S800000x1_0 : (⟨S800000, .i32⟩ : BufTy).Contents (Elt F) → (⟨S800000x1, .i32⟩ : BufTy).Contents (Elt F)) u12
  have u14 := ((fun x i => Host.gather gather_S50000x1_S800000x1_S800000x1_1_0_n_n_0_1_11 x i) : (⟨S50000x1, .f32⟩ : BufTy).Contents (Elt F) → (⟨S800000x1, .i32⟩ : BufTy).Contents (Elt F) → (⟨S800000x1, .f32⟩ : BufTy).Contents (Elt F)) u5 u13
  have u15 := shapeCast S800000 u14 shapeCasts_S800000x1_S800000
  have u16 : IVec S_ 32 := constantI S_ 32 0#32
  have u17 : (⟨S_, .f32⟩ : BufTy).Contents (Elt F) := (sitofp .f32) u16
  have u18 : (⟨S800768, .f32⟩ : BufTy).Contents (Elt F) := (fun x v => pad S800768 ![0] ![768] ![0] x v pads_S800000_S800768_07680 h_S_) u15 u17
  have u19 := shapeCast S6256x128 u18 shapeCasts_S800768_S6256x128
  u19

/-- The target scores of the current features, gathered, flattened and padded to the kernel's layout. -/
def tgtPad (t : (⟨S800000, .i32⟩ : BufTy).Contents (Elt F)) (h : (⟨S50000x96, .f32⟩ : BufTy).Contents (Elt F)) (a2 : (⟨S96, .f32⟩ : BufTy).Contents (Elt F)) : (⟨S6256x128, .f32⟩ : BufTy).Contents (Elt F) :=
  have u0 := (broadcastInDim S1x96 ![1] bcast_S96_S1x96_1 : (⟨S96, .f32⟩ : BufTy).Contents (Elt F) → (⟨S1x96, .f32⟩ : BufTy).Contents (Elt F)) a2
  have u1 := (broadcastInDim S50000x96 ![0, 1] bcast_S1x96_S50000x96_0_1 : (⟨S1x96, .f32⟩ : BufTy).Contents (Elt F) → (⟨S50000x96, .f32⟩ : BufTy).Contents (Elt F)) u0
  have u2 := (mulf : (⟨S50000x96, .f32⟩ : BufTy).Contents (Elt F) → (⟨S50000x96, .f32⟩ : BufTy).Contents (Elt F) → (⟨S50000x96, .f32⟩ : BufTy).Contents (Elt F)) h u1
  have u3 : FVec F S_ .f32 := constant S_ .f32 0x00000000#32
  have u4 := ((fun x v => Host.reduceAdd x v reducesTo_S50000x96_S50000_d1 h_S_) : (⟨S50000x96, .f32⟩ : BufTy).Contents (Elt F) → (⟨S_, .f32⟩ : BufTy).Contents (Elt F) → (⟨S50000, .f32⟩ : BufTy).Contents (Elt F)) u2 u3
  have u5 := (broadcastInDim S50000x1 ![0] bcast_S50000_S50000x1_0 : (⟨S50000, .f32⟩ : BufTy).Contents (Elt F) → (⟨S50000x1, .f32⟩ : BufTy).Contents (Elt F)) u4
  have u6 : IVec S_ 32 := constantI S_ 32 0#32
  have u7 := (broadcastInDim S800000 ![] bcast_S_S800000 : (⟨S_, .i32⟩ : BufTy).Contents (Elt F) → (⟨S800000, .i32⟩ : BufTy).Contents (Elt F)) u6
  have u8 := (cmpi .slt : (⟨S800000, .i32⟩ : BufTy).Contents (Elt F) → (⟨S800000, .i32⟩ : BufTy).Contents (Elt F) → (⟨S800000, .i1⟩ : BufTy).Contents (Elt F)) t u7
  have u9 : IVec S_ 32 := constantI S_ 32 50000#32
  have u10 := (broadcastInDim S800000 ![] bcast_S_S800000 : (⟨S_, .i32⟩ : BufTy).Contents (Elt F) → (⟨S800000, .i32⟩ : BufTy).Contents (Elt F)) u9
  have u11 := (addi : (⟨S800000, .i32⟩ : BufTy).Contents (Elt F) → (⟨S800000, .i32⟩ : BufTy).Contents (Elt F) → (⟨S800000, .i32⟩ : BufTy).Contents (Elt F)) t u10
  have u12 := (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) u8 u11 t
  have u13 := (broadcastInDim S800000x1 ![0] bcast_S800000_S800000x1_0 : (⟨S800000, .i32⟩ : BufTy).Contents (Elt F) → (⟨S800000x1, .i32⟩ : BufTy).Contents (Elt F)) u12
  have u14 := ((fun x i => Host.gather gather_S50000x1_S800000x1_S800000x1_1_0_n_n_0_1_11 x i) : (⟨S50000x1, .f32⟩ : BufTy).Contents (Elt F) → (⟨S800000x1, .i32⟩ : BufTy).Contents (Elt F) → (⟨S800000x1, .f32⟩ : BufTy).Contents (Elt F)) u5 u13
  have u15 := shapeCast S800000 u14 shapeCasts_S800000x1_S800000
  have u16 : IVec S_ 32 := constantI S_ 32 0#32
  have u17 : (⟨S_, .f32⟩ : BufTy).Contents (Elt F) := (sitofp .f32) u16
  have u18 : (⟨S800768, .f32⟩ : BufTy).Contents (Elt F) := (fun x v => pad S800768 ![0] ![768] ![0] x v pads_S800000_S800768_07680 h_S_) u15 u17
  have u19 := shapeCast S6256x128 u18 shapeCasts_S800768_S6256x128
  u19

/-- The divisor column: the edges' weights summed by source node, plus the self-loop weight. -/
def hopDiv (s : (⟨S800000, .i32⟩ : BufTy).Contents (Elt F)) (w2 : (⟨S50000x1, .f32⟩ : BufTy).Contents (Elt F)) (wpad : (⟨S6256x128, .f32⟩ : BufTy).Contents (Elt F)) : (⟨S50000x1, .f32⟩ : BufTy).Contents (Elt F) :=
  have u0 := shapeCast S800768 wpad shapeCasts_S6256x128_S800768
  have u1 := ((extractStridedSlice S800000 ![0] · slices_S800768_S800000_0) : (⟨S800768, .f32⟩ : BufTy).Contents (Elt F) → (⟨S800000, .f32⟩ : BufTy).Contents (Elt F)) u0
  have u2 := (broadcastInDim S800000x1 ![0] bcast_S800000_S800000x1_0 : (⟨S800000, .f32⟩ : BufTy).Contents (Elt F) → (⟨S800000x1, .f32⟩ : BufTy).Contents (Elt F)) u1
  have u3 : FVec F S_ .f32 := constant S_ .f32 0x00000000#32
  have u4 := (broadcastInDim S50000x1 ![] bcast_S_S50000x1 : (⟨S_, .f32⟩ : BufTy).Contents (Elt F) → (⟨S50000x1, .f32⟩ : BufTy).Contents (Elt F)) u3
  have u5 := (broadcastInDim S800000x1 ![0] bcast_S800000_S800000x1_0 : (⟨S800000, .i32⟩ : BufTy).Contents (Elt F) → (⟨S800000x1, .i32⟩ : BufTy).Contents (Elt F)) s
  have u6 := ((fun x i u => Host.scatterAdd scatter_S50000x1_S800000x1_S800000x1_1_0_0_1 x i u) : (⟨S50000x1, .f32⟩ : BufTy).Contents (Elt F) → (⟨S800000x1, .i32⟩ : BufTy).Contents (Elt F) → (⟨S800000x1, .f32⟩ : BufTy).Contents (Elt F) → (⟨S50000x1, .f32⟩ : BufTy).Contents (Elt F)) u4 u5 u2
  have u7 := (addf : (⟨S50000x1, .f32⟩ : BufTy).Contents (Elt F) → (⟨S50000x1, .f32⟩ : BufTy).Contents (Elt F) → (⟨S50000x1, .f32⟩ : BufTy).Contents (Elt F)) u6 w2
  u7

/-- The numerator rows: the weighted gathered rows summed by source node, plus the self-loop term. -/
def hopNum (s t : (⟨S800000, .i32⟩ : BufTy).Contents (Elt F)) (x h : (⟨S50000x96, .f32⟩ : BufTy).Contents (Elt F)) (w2 : (⟨S50000x1, .f32⟩ : BufTy).Contents (Elt F)) (wpad : (⟨S6256x128, .f32⟩ : BufTy).Contents (Elt F)) : (⟨S50000x96, .f32⟩ : BufTy).Contents (Elt F) :=
  have u0 := shapeCast S800768 wpad shapeCasts_S6256x128_S800768
  have u1 := ((extractStridedSlice S800000 ![0] · slices_S800768_S800000_0) : (⟨S800768, .f32⟩ : BufTy).Contents (Elt F) → (⟨S800000, .f32⟩ : BufTy).Contents (Elt F)) u0
  have u2 := (broadcastInDim S800000x1 ![0] bcast_S800000_S800000x1_0 : (⟨S800000, .f32⟩ : BufTy).Contents (Elt F) → (⟨S800000x1, .f32⟩ : BufTy).Contents (Elt F)) u1
  have u3 : IVec S_ 32 := constantI S_ 32 0#32
  have u4 := (broadcastInDim S800000 ![] bcast_S_S800000 : (⟨S_, .i32⟩ : BufTy).Contents (Elt F) → (⟨S800000, .i32⟩ : BufTy).Contents (Elt F)) u3
  have u5 := (cmpi .slt : (⟨S800000, .i32⟩ : BufTy).Contents (Elt F) → (⟨S800000, .i32⟩ : BufTy).Contents (Elt F) → (⟨S800000, .i1⟩ : BufTy).Contents (Elt F)) t u4
  have u6 : IVec S_ 32 := constantI S_ 32 50000#32
  have u7 := (broadcastInDim S800000 ![] bcast_S_S800000 : (⟨S_, .i32⟩ : BufTy).Contents (Elt F) → (⟨S800000, .i32⟩ : BufTy).Contents (Elt F)) u6
  have u8 := (addi : (⟨S800000, .i32⟩ : BufTy).Contents (Elt F) → (⟨S800000, .i32⟩ : BufTy).Contents (Elt F) → (⟨S800000, .i32⟩ : BufTy).Contents (Elt F)) t u7
  have u9 := (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) u5 u8 t
  have u10 := (broadcastInDim S800000x1 ![0] bcast_S800000_S800000x1_0 : (⟨S800000, .i32⟩ : BufTy).Contents (Elt F) → (⟨S800000x1, .i32⟩ : BufTy).Contents (Elt F)) u9
  have u11 := ((fun x i => Host.gather gather_S50000x96_S800000x1_S800000x96_1_0_n_n_0_1_196 x i) : (⟨S50000x96, .f32⟩ : BufTy).Contents (Elt F) → (⟨S800000x1, .i32⟩ : BufTy).Contents (Elt F) → (⟨S800000x96, .f32⟩ : BufTy).Contents (Elt F)) h u10
  have u12 := (broadcastInDim S800000x96 ![0, 1] bcast_S800000x1_S800000x96_0_1 : (⟨S800000x1, .f32⟩ : BufTy).Contents (Elt F) → (⟨S800000x96, .f32⟩ : BufTy).Contents (Elt F)) u2
  have u13 := (mulf : (⟨S800000x96, .f32⟩ : BufTy).Contents (Elt F) → (⟨S800000x96, .f32⟩ : BufTy).Contents (Elt F) → (⟨S800000x96, .f32⟩ : BufTy).Contents (Elt F)) u12 u11
  have u14 : FVec F S_ .f32 := constant S_ .f32 0x00000000#32
  have u15 := (broadcastInDim S50000x96 ![] bcast_S_S50000x96 : (⟨S_, .f32⟩ : BufTy).Contents (Elt F) → (⟨S50000x96, .f32⟩ : BufTy).Contents (Elt F)) u14
  have u16 := (broadcastInDim S800000x1 ![0] bcast_S800000_S800000x1_0 : (⟨S800000, .i32⟩ : BufTy).Contents (Elt F) → (⟨S800000x1, .i32⟩ : BufTy).Contents (Elt F)) s
  have u17 := ((fun x i u => Host.scatterAdd scatter_S50000x96_S800000x1_S800000x96_1_0_0_1 x i u) : (⟨S50000x96, .f32⟩ : BufTy).Contents (Elt F) → (⟨S800000x1, .i32⟩ : BufTy).Contents (Elt F) → (⟨S800000x96, .f32⟩ : BufTy).Contents (Elt F) → (⟨S50000x96, .f32⟩ : BufTy).Contents (Elt F)) u15 u16 u13
  have u18 := (broadcastInDim S50000x96 ![0, 1] bcast_S50000x1_S50000x96_0_1 : (⟨S50000x1, .f32⟩ : BufTy).Contents (Elt F) → (⟨S50000x96, .f32⟩ : BufTy).Contents (Elt F)) w2
  have u19 := (mulf : (⟨S50000x96, .f32⟩ : BufTy).Contents (Elt F) → (⟨S50000x96, .f32⟩ : BufTy).Contents (Elt F) → (⟨S50000x96, .f32⟩ : BufTy).Contents (Elt F)) u18 x
  have u20 := (addf : (⟨S50000x96, .f32⟩ : BufTy).Contents (Elt F) → (⟨S50000x96, .f32⟩ : BufTy).Contents (Elt F) → (⟨S50000x96, .f32⟩ : BufTy).Contents (Elt F)) u17 u19
  u20

/-- One hop of the kernel program: the normalization launch of the host numerator and divisor over the weight launch
    of the two padded score arrays. -/
def kerHop (s t : (⟨S800000, .i32⟩ : BufTy).Contents (Elt F)) (x h : (⟨S50000x96, .f32⟩ : BufTy).Contents (Elt F)) (w2 : (⟨S50000x1, .f32⟩ : BufTy).Contents (Elt F)) (spad : (⟨S6256x128, .f32⟩ : BufTy).Contents (Elt F)) (a2 : (⟨S96, .f32⟩ : BufTy).Contents (Elt F)) : (⟨S50000x96, .f32⟩ : BufTy).Contents (Elt F) :=
  have wpad := edgeW spad (tgtPad t h a2)
  normW (hopNum s t x h w2 wpad) (hopDiv s w2 wpad)

end Cert.KernelIdeal.Fns

end
-- ==== Proof.Reg1.lean ====
/-
  Launch 1 (the per-edge attention weight) on the whole array. Its grid has two points; point t loads rows
  3128·t … 3128·t + 3127 of both score arrays, all 128 columns, and writes the same rows of the weight array. The two
  blocks cover the 6256 rows, and a block of the result is the pointwise function of the same block of the inputs,
  so after the launch the weight array is the pointwise function of the two score arrays as the launch found them.
-/
import proofs.«105152_j14491219657222_1_alg».proof.Proof.KernelIdealFrameP
import proofs.«105152_j14491219657222_1_alg».proof.Proof.KernelFns
import Idealize.ShloMosaic.Lib.Pipeline.Value

set_option maxRecDepth 16384

noncomputable section

namespace Cert.KernelIdeal.Reg1

open Cert.KernelIdeal Cert.KernelIdeal.Gen Cert.KernelIdeal.GenP Cert.KernelIdeal.Fns
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- Decided over the two grid points: both inputs' blocks move with the output's, whose row index is the point
    and whose column index is 0. -/
theorem idx_facts : ∀ t : Fin cfg1.N, win1_0.index t (0 : Fin 2) = win1_2.index t (0 : Fin 2) + 0
    ∧ win1_0.index t (1 : Fin 2) = win1_2.index t (1 : Fin 2) + 0
    ∧ win1_1.index t (0 : Fin 2) = win1_2.index t (0 : Fin 2) + 0
    ∧ win1_1.index t (1 : Fin 2) = win1_2.index t (1 : Fin 2) + 0
    ∧ 0 ≤ win1_2.index t (0 : Fin 2) ∧ win1_2.index t (0 : Fin 2) ≤ 1
    ∧ 0 ≤ win1_2.index t (1 : Fin 2) ∧ win1_2.index t (1 : Fin 2) ≤ 0 :=
  (by decide +kernel : ∀ t : Fin grid1.N, _)

/-- Every row block is some point's. -/
theorem idx_onto : ∀ (q0 : Fin 2) (q1 : Fin 1), ∃ t : Fin cfg1.N, win1_2.index t = ![q0.val + 0, q1.val + 0] :=
  (by decide +kernel : ∀ (q0 : Fin 2) (q1 : Fin 1), ∃ t : Fin grid1.N, win1_2.index t = ![q0.val + 0, q1.val + 0])

/-- What point t writes back is block t of the pointwise function of the two arrays. -/
theorem flushed_eq (c : Dev nD) (t : Fin cfg1.N) :
    (dat1 V c).flushed 2 t = ((cfg1.win 2).blk t).view.read (Elt F) (edgeW (V c main_v31) (V c main_v46)) := by
  show (cfg1.win 2).cut (grid1.coords t) ((dat1 V c).after 2 t) = _
  rw [after1_2]
  unfold out1_2
  rw [View.canon_unit_zero hz]
  simp only [View.ld_unit_zero (S := S3128x128) hz]
  rw [pay1]
  obtain ⟨e0, e1, e2, e3, e4, e5, e6, e7⟩ := idx_facts t
  funext j
  show edgeS (V c main_v31 (((cfg1.win 0).blk t).view.emb j)) (V c main_v46 (((cfg1.win 1).blk t).view.emb j))
     = edgeS (V c main_v31 (((cfg1.win 2).blk t).view.emb j)) (V c main_v46 (((cfg1.win 2).blk t).view.emb j))
  have h0 : ((cfg1.win 0).blk t).view.emb j = ((cfg1.win 2).blk t).view.emb j := by
    funext a; apply Fin.ext
    match a with
    | ⟨0, _⟩ => show win1_0.index t (0 : Fin 2) * 3128 + 1 * (j 0).val = win1_2.index t (0 : Fin 2) * 3128 + 1 * (j 0).val; omega
    | ⟨1, _⟩ => show win1_0.index t (1 : Fin 2) * 128 + 1 * (j 1).val = win1_2.index t (1 : Fin 2) * 128 + 1 * (j 1).val; omega
  have h1 : ((cfg1.win 1).blk t).view.emb j = ((cfg1.win 2).blk t).view.emb j := by
    funext a; apply Fin.ext
    match a with
    | ⟨0, _⟩ => show win1_1.index t (0 : Fin 2) * 3128 + 1 * (j 0).val = win1_2.index t (0 : Fin 2) * 3128 + 1 * (j 0).val; omega
    | ⟨1, _⟩ => show win1_1.index t (1 : Fin 2) * 128 + 1 * (j 1).val = win1_2.index t (1 : Fin 2) * 128 + 1 * (j 1).val; omega
  rw [h0, h1] <;> rfl

/-- An entry is in point t's block iff each coordinate is in the block's range on its axis. -/
theorem mem_blk (t : Fin cfg1.N) (i : S6256x128.Idx) :
    i ∈ ((cfg1.win 2).blk t).view.set ↔ ∀ a : Fin 2, win1_2.index t a * S3128x128.size a ≤ (i a).val ∧ (i a).val < win1_2.index t a * S3128x128.size a + S3128x128.size a := by
  show i ∈ ((View.whole main_v47).slice (win1_2.rect t)).set ↔ _
  rw [View.set_slice_whole, Rect.mem_set_unit]
  exact Iff.rfl

/-- Row r is in the block of point r / 3128. -/
theorem cover (i : S6256x128.Idx) : ∃ t : Fin cfg1.N, (cfg1.win 2).flush t = true ∧ i ∈ ((cfg1.win 2).blk t).view.set := by
  have hi0 : (i 0).val < 6256 := (i 0).isLt
  have hi1 : (i 1).val < 128 := (i 1).isLt
  obtain ⟨t, ht⟩ := idx_onto ⟨(i 0).val / 3128, by omega⟩ ⟨(i 1).val / 128, by omega⟩
  have q0 : win1_2.index t (0 : Fin 2) = (i 0).val / 3128 + 0 := congrFun ht 0
  have q1 : win1_2.index t (1 : Fin 2) = (i 1).val / 128 + 0 := congrFun ht 1
  refine ⟨t, flush1_2 t, ?_⟩
  rw [mem_blk]
  intro a
  match a with
  | ⟨0, _⟩ => show win1_2.index t (0 : Fin 2) * 3128 ≤ (i 0).val ∧ (i 0).val < win1_2.index t (0 : Fin 2) * 3128 + 3128; omega
  | ⟨1, _⟩ => show win1_2.index t (1 : Fin 2) * 128 ≤ (i 1).val ∧ (i 1).val < win1_2.index t (1 : Fin 2) * 128 + 128; omega

/-- After the launch the weight array is the pointwise function of the two score arrays. -/
theorem final (c : Dev nD) : (dat1 V c).arrAt 2 cfg1.N = edgeW (V c main_v31) (V c main_v46) :=
  (dat1 V c).arrAt_eq_of_cover 2 _ (fun t _ => flushed_eq V c t) cover

end Cert.KernelIdeal.Reg1

end
-- ==== Proof.Reg2.lean ====
/-
  Launch 2 (the per-node normalization) on the whole array. Its grid has 25 points; point t loads rows
  2000·t … 2000·t + 1999 of the numerator (96 columns) and of the divisor (one column) and writes the same rows of
  the result. The 25 blocks cover the 50000 rows, and an entry of the result's block is the normalization of the
  numerator's entry against its row's divisor, so after the launch the result array is that function of the two
  arrays as the launch found them.
-/
import proofs.«105152_j14491219657222_1_alg».proof.Proof.KernelIdealFrameP
import proofs.«105152_j14491219657222_1_alg».proof.Proof.KernelFns
import Idealize.ShloMosaic.Lib.Pipeline.Value

set_option maxRecDepth 16384

noncomputable section

namespace Cert.KernelIdeal.Reg2

open Cert.KernelIdeal Cert.KernelIdeal.Gen Cert.KernelIdeal.GenP Cert.KernelIdeal.Fns
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- Decided over the 25 grid points: both inputs' blocks move with the output's, whose row index is the point and
    whose column index is 0. -/
theorem idx_facts : ∀ t : Fin cfg2.N, win2_0.index t (0 : Fin 2) = win2_2.index t (0 : Fin 2) + 0
    ∧ win2_0.index t (1 : Fin 2) = win2_2.index t (1 : Fin 2) + 0
    ∧ win2_1.index t (0 : Fin 2) = win2_2.index t (0 : Fin 2) + 0
    ∧ win2_1.index t (1 : Fin 2) = win2_2.index t (1 : Fin 2) + 0
    ∧ 0 ≤ win2_2.index t (0 : Fin 2) ∧ win2_2.index t (0 : Fin 2) ≤ 24
    ∧ 0 ≤ win2_2.index t (1 : Fin 2) ∧ win2_2.index t (1 : Fin 2) ≤ 0 :=
  (by decide +kernel : ∀ t : Fin grid2.N, _)

/-- Every row block is some point's. -/
theorem idx_onto : ∀ (q0 : Fin 25) (q1 : Fin 1), ∃ t : Fin cfg2.N, win2_2.index t = ![q0.val + 0, q1.val + 0] :=
  (by decide +kernel : ∀ (q0 : Fin 25) (q1 : Fin 1), ∃ t : Fin grid2.N, win2_2.index t = ![q0.val + 0, q1.val + 0])

/-- What point t writes back is block t of the normalization of the two arrays. -/
theorem flushed_eq (c : Dev nD) (t : Fin cfg2.N) :
    (dat2 V c).flushed 2 t = ((cfg2.win 2).blk t).view.read (Elt F) (normW (V c main_v69) (V c main_v54)) := by
  show (cfg2.win 2).cut (grid2.coords t) ((dat2 V c).after 2 t) = _
  rw [after2_2]
  unfold out2_2
  rw [View.canon_unit_zero hz]
  simp only [View.ld_unit_zero (S := S2000x96) hz, View.ld_unit_zero (S := S2000x1) hz]
  rw [pay2]
  obtain ⟨e0, e1, e2, e3, e4, e5, e6, e7⟩ := idx_facts t
  funext j
  show normS (V c main_v69 (((cfg2.win 0).blk t).view.emb j)) (V c main_v54 (((cfg2.win 1).blk t).view.emb (ix2 (j 0) (0 : Fin 1))))
     = normS (V c main_v69 (((cfg2.win 2).blk t).view.emb j)) (V c main_v54 (ix2 ((((cfg2.win 2).blk t).view.emb j) 0) (0 : Fin 1)))
  have h0 : ((cfg2.win 0).blk t).view.emb j = ((cfg2.win 2).blk t).view.emb j := by
    funext a; apply Fin.ext
    match a with
    | ⟨0, _⟩ => show win2_0.index t (0 : Fin 2) * 2000 + 1 * (j 0).val = win2_2.index t (0 : Fin 2) * 2000 + 1 * (j 0).val; omega
    | ⟨1, _⟩ => show win2_0.index t (1 : Fin 2) * 96 + 1 * (j 1).val = win2_2.index t (1 : Fin 2) * 96 + 1 * (j 1).val; omega
  have h1 : ((cfg2.win 1).blk t).view.emb (ix2 (j 0) (0 : Fin 1)) = ix2 ((((cfg2.win 2).blk t).view.emb j) 0) (0 : Fin 1) := by
    funext a; apply Fin.ext
    match a with
    | ⟨0, _⟩ => show win2_1.index t (0 : Fin 2) * 2000 + 1 * (j 0).val = win2_2.index t (0 : Fin 2) * 2000 + 1 * (j 0).val; omega
    | ⟨1, _⟩ => show win2_1.index t (1 : Fin 2) * 1 + 1 * 0 = 0; omega
  rw [h0, h1] <;> rfl

/-- An entry is in point t's block iff each coordinate is in the block's range on its axis. -/
theorem mem_blk (t : Fin cfg2.N) (i : S50000x96.Idx) :
    i ∈ ((cfg2.win 2).blk t).view.set ↔ ∀ a : Fin 2, win2_2.index t a * S2000x96.size a ≤ (i a).val ∧ (i a).val < win2_2.index t a * S2000x96.size a + S2000x96.size a := by
  show i ∈ ((View.whole main_v70).slice (win2_2.rect t)).set ↔ _
  rw [View.set_slice_whole, Rect.mem_set_unit]
  exact Iff.rfl

/-- Row r is in the block of point r / 2000. -/
theorem cover (i : S50000x96.Idx) : ∃ t : Fin cfg2.N, (cfg2.win 2).flush t = true ∧ i ∈ ((cfg2.win 2).blk t).view.set := by
  have hi0 : (i 0).val < 50000 := (i 0).isLt
  have hi1 : (i 1).val < 96 := (i 1).isLt
  obtain ⟨t, ht⟩ := idx_onto ⟨(i 0).val / 2000, by omega⟩ ⟨(i 1).val / 96, by omega⟩
  have q0 : win2_2.index t (0 : Fin 2) = (i 0).val / 2000 + 0 := congrFun ht 0
  have q1 : win2_2.index t (1 : Fin 2) = (i 1).val / 96 + 0 := congrFun ht 1
  refine ⟨t, flush2_2 t, ?_⟩
  rw [mem_blk]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 96 ≤ (i 1).val ∧ (i 1).val < win2_2.index t (1 : Fin 2) * 96 + 96; omega

/-- After the launch the result array is the normalization of the numerator array against the divisor column. -/
theorem final (c : Dev nD) : (dat2 V c).arrAt 2 cfg2.N = normW (V c main_v69) (V c main_v54) :=
  (dat2 V c).arrAt_eq_of_cover 2 _ (fun t _ => flushed_eq V c t) cover

end Cert.KernelIdeal.Reg2

end
-- ==== Proof.KHop1.lean ====
/-
  Hop 1 of the kernel program, from the buffer contents at its start to those at its end: the host stretch that
  gathers and pads the target scores (in the first hop also the self-loop weight and the padded source scores, which later hops reuse), the weight launch, the host stretch of the two scatter-adds, the
  normalization launch. Each stretch leaves its function of the buffers it reads and keeps the others; each launch
  writes its result array and keeps every other buffer. Chained: the features after the hop are the hop function of
  the features before it, and the index rows, the projected features, the self-loop weight, the padded source scores
  and the arguments are as before.
-/
import proofs.«105152_j14491219657222_1_alg».proof.Proof.KernelIdealFrameP
import proofs.«105152_j14491219657222_1_alg».proof.Proof.KernelHostFns
import proofs.«105152_j14491219657222_1_alg».proof.Proof.Reg1
import proofs.«105152_j14491219657222_1_alg».proof.Proof.Reg2
import Idealize.ShloMosaic.Lib.StableHlo.Run

set_option maxRecDepth 16384

noncomputable section

namespace Cert.KernelIdeal.KHop1

open Cert.KernelIdeal Cert.KernelIdeal.Gen Cert.KernelIdeal.GenP Cert.KernelIdeal.Fns
open Idealize.ShloMosaic Idealize.ShloMosaic.TcCoe Idealize.ShloMosaic.StableHlo
open Idealize.SL Idealize.SL.Sem

variable {F : FTy → Type} [FloatOps F]
variable (m : (ℓ : Loc nD τ sig) → Buf (Elt F) ℓ) (ρ : Dev nD → PrngReg)

set_option maxHeartbeats 4000000 in
theorem A_ht (c : Dev nD) : W9 m ρ c (Proc.devRef .tc main_v46) = tgtPad (W2 m ρ c (Proc.devRef .tc main_v3)) (W2 m ρ c (Proc.devRef .tc main_v4)) (W2 m ρ c (Proc.devRef .tc main_arg5)) := by
  dsimp only [W9, W8, W7, W6, W5, W4, W3, hostOps1, hostOps1_1, hostOps1_2, hostOps1_3, hostOps1_4, hostOps1_5, hostOps1_6]
  after_results_simp
  rfl

set_option maxHeartbeats 4000000 in
theorem A_w2 (c : Dev nD) : W9 m ρ c (Proc.devRef .tc main_v21) = selfW (W2 m ρ c (Proc.devRef .tc main_v4)) (W2 m ρ c (Proc.devRef .tc main_arg4)) (W2 m ρ c (Proc.devRef .tc main_arg5)) := by
  dsimp only [W9, W8, W7, W6, W5, W4, W3, hostOps1, hostOps1_1, hostOps1_2, hostOps1_3, hostOps1_4, hostOps1_5, hostOps1_6]
  after_results_simp
  rfl

set_option maxHeartbeats 4000000 in
theorem A_xs (c : Dev nD) : W9 m ρ c (Proc.devRef .tc main_v31) = srcPad (W2 m ρ c (Proc.devRef .tc main_v1)) (W2 m ρ c (Proc.devRef .tc main_v4)) (W2 m ρ c (Proc.devRef .tc main_arg4)) := by
  dsimp only [W9, W8, W7, W6, W5, W4, W3, hostOps1, hostOps1_1, hostOps1_2, hostOps1_3, hostOps1_4, hostOps1_5, hostOps1_6]
  after_results_simp
  rfl

set_option maxHeartbeats 4000000 in
theorem A_main_v1 (c : Dev nD) : W9 m ρ c (Proc.devRef .tc main_v1) = W2 m ρ c (Proc.devRef .tc main_v1) := by
  dsimp only [W9, W8, W7, W6, W5, W4, W3, hostOps1, hostOps1_1, hostOps1_2, hostOps1_3, hostOps1_4, hostOps1_5, hostOps1_6]
  after_results_simp

set_option maxHeartbeats 4000000 in
theorem A_main_v3 (c : Dev nD) : W9 m ρ c (Proc.devRef .tc main_v3) = W2 m ρ c (Proc.devRef .tc main_v3) := by
  dsimp only [W9, W8, W7, W6, W5, W4, W3, hostOps1, hostOps1_1, hostOps1_2, hostOps1_3, hostOps1_4, hostOps1_5, hostOps1_6]
  after_results_simp

set_option maxHeartbeats 4000000 in
theorem A_main_v4 (c : Dev nD) : W9 m ρ c (Proc.devRef .tc main_v4) = W2 m ρ c (Proc.devRef .tc main_v4) := by
  dsimp only [W9, W8, W7, W6, W5, W4, W3, hostOps1, hostOps1_1, hostOps1_2, hostOps1_3, hostOps1_4, hostOps1_5, hostOps1_6]
  after_results_simp

set_option maxHeartbeats 4000000 in
theorem A_main_arg5 (c : Dev nD) : W9 m ρ c (Proc.devRef .tc main_arg5) = W2 m ρ c (Proc.devRef .tc main_arg5) := by
  dsimp only [W9, W8, W7, W6, W5, W4, W3, hostOps1, hostOps1_1, hostOps1_2, hostOps1_3, hostOps1_4, hostOps1_5, hostOps1_6]
  after_results_simp

set_option maxHeartbeats 4000000 in
theorem A_main_arg6 (c : Dev nD) : W9 m ρ c (Proc.devRef .tc main_arg6) = W2 m ρ c (Proc.devRef .tc main_arg6) := by
  dsimp only [W9, W8, W7, W6, W5, W4, W3, hostOps1, hostOps1_1, hostOps1_2, hostOps1_3, hostOps1_4, hostOps1_5, hostOps1_6]
  after_results_simp

set_option maxHeartbeats 4000000 in
theorem A_main_arg7 (c : Dev nD) : W9 m ρ c (Proc.devRef .tc main_arg7) = W2 m ρ c (Proc.devRef .tc main_arg7) := by
  dsimp only [W9, W8, W7, W6, W5, W4, W3, hostOps1, hostOps1_1, hostOps1_2, hostOps1_3, hostOps1_4, hostOps1_5, hostOps1_6]
  after_results_simp

set_option maxHeartbeats 4000000 in
theorem A_main_arg4 (c : Dev nD) : W9 m ρ c (Proc.devRef .tc main_arg4) = W2 m ρ c (Proc.devRef .tc main_arg4) := by
  dsimp only [W9, W8, W7, W6, W5, W4, W3, hostOps1, hostOps1_1, hostOps1_2, hostOps1_3, hostOps1_4, hostOps1_5, hostOps1_6]
  after_results_simp

/-- The weight launch reads the padded source scores through an input window and leaves them as they were. -/
theorem E_main_v31 (c : Dev nD) : W10 m ρ c (Proc.devRef .tc main_v31) = W9 m ρ c (Proc.devRef .tc main_v31) :=
  (W10_arr m ρ c 0).trans (((dat1 (V9 m ρ) c).arrAt_in 0 rfl _).trans (A_eq1 (V9 m ρ) c 0))

theorem E_out (c : Dev nD) : W10 m ρ c (Proc.devRef .tc main_v47) = edgeW (W9 m ρ c (Proc.devRef .tc main_v31)) (W9 m ρ c (Proc.devRef .tc main_v46)) :=
  (W10_arr m ρ c 2).trans (Reg1.final (V9 m ρ) c)

set_option maxHeartbeats 4000000 in
theorem B_num (c : Dev nD) : W11 m ρ c (Proc.devRef .tc main_v69) = hopNum (W10 m ρ c (Proc.devRef .tc main_v1)) (W10 m ρ c (Proc.devRef .tc main_v3)) (W10 m ρ c (Proc.devRef .tc main_v4)) (W10 m ρ c (Proc.devRef .tc main_v4)) (W10 m ρ c (Proc.devRef .tc main_v21)) (W10 m ρ c (Proc.devRef .tc main_v47)) := by
  dsimp only [W11, hostOps2]
  after_results_simp
  rfl

set_option maxHeartbeats 4000000 in
theorem B_div (c : Dev nD) : W11 m ρ c (Proc.devRef .tc main_v54) = hopDiv (W10 m ρ c (Proc.devRef .tc main_v1)) (W10 m ρ c (Proc.devRef .tc main_v21)) (W10 m ρ c (Proc.devRef .tc main_v47)) := by
  dsimp only [W11, hostOps2]
  after_results_simp
  rfl

set_option maxHeartbeats 4000000 in
theorem B_main_v1 (c : Dev nD) : W11 m ρ c (Proc.devRef .tc main_v1) = W10 m ρ c (Proc.devRef .tc main_v1) := by
  dsimp only [W11, hostOps2]
  after_results_simp

set_option maxHeartbeats 4000000 in
theorem B_main_v3 (c : Dev nD) : W11 m ρ c (Proc.devRef .tc main_v3) = W10 m ρ c (Proc.devRef .tc main_v3) := by
  dsimp only [W11, hostOps2]
  after_results_simp

set_option maxHeartbeats 4000000 in
theorem B_main_v4 (c : Dev nD) : W11 m ρ c (Proc.devRef .tc main_v4) = W10 m ρ c (Proc.devRef .tc main_v4) := by
  dsimp only [W11, hostOps2]
  after_results_simp

set_option maxHeartbeats 4000000 in
theorem B_main_arg5 (c : Dev nD) : W11 m ρ c (Proc.devRef .tc main_arg5) = W10 m ρ c (Proc.devRef .tc main_arg5) := by
  dsimp only [W11, hostOps2]
  after_results_simp

set_option maxHeartbeats 4000000 in
theorem B_main_arg6 (c : Dev nD) : W11 m ρ c (Proc.devRef .tc main_arg6) = W10 m ρ c (Proc.devRef .tc main_arg6) := by
  dsimp only [W11, hostOps2]
  after_results_simp

set_option maxHeartbeats 4000000 in
theorem B_main_arg7 (c : Dev nD) : W11 m ρ c (Proc.devRef .tc main_arg7) = W10 m ρ c (Proc.devRef .tc main_arg7) := by
  dsimp only [W11, hostOps2]
  after_results_simp

set_option maxHeartbeats 4000000 in
theorem B_main_arg4 (c : Dev nD) : W11 m ρ c (Proc.devRef .tc main_arg4) = W10 m ρ c (Proc.devRef .tc main_arg4) := by
  dsimp only [W11, hostOps2]
  after_results_simp

set_option maxHeartbeats 4000000 in
theorem B_main_v21 (c : Dev nD) : W11 m ρ c (Proc.devRef .tc main_v21) = W10 m ρ c (Proc.devRef .tc main_v21) := by
  dsimp only [W11, hostOps2]
  after_results_simp

set_option maxHeartbeats 4000000 in
theorem B_main_v31 (c : Dev nD) : W11 m ρ c (Proc.devRef .tc main_v31) = W10 m ρ c (Proc.devRef .tc main_v31) := by
  dsimp only [W11, hostOps2]
  after_results_simp

theorem N_out (c : Dev nD) : W12 m ρ c (Proc.devRef .tc main_v70) = normW (W11 m ρ c (Proc.devRef .tc main_v69)) (W11 m ρ c (Proc.devRef .tc main_v54)) :=
  (W12_arr m ρ c 2).trans (Reg2.final (V11 m ρ) c)

/-- The features after hop 1 are the hop function of the contents at its start. -/
theorem out (c : Dev nD) : W12 m ρ c (Proc.devRef .tc main_v70)
    = kerHop (W2 m ρ c (Proc.devRef .tc main_v1)) (W2 m ρ c (Proc.devRef .tc main_v3)) (W2 m ρ c (Proc.devRef .tc main_v4)) (W2 m ρ c (Proc.devRef .tc main_v4)) (selfW (W2 m ρ c (Proc.devRef .tc main_v4)) (W2 m ρ c (Proc.devRef .tc main_arg4)) (W2 m ρ c (Proc.devRef .tc main_arg5))) (srcPad (W2 m ρ c (Proc.devRef .tc main_v1)) (W2 m ρ c (Proc.devRef .tc main_v4)) (W2 m ρ c (Proc.devRef .tc main_arg4))) (W2 m ρ c (Proc.devRef .tc main_arg5)) := by
  rw [N_out, B_num, B_div, E_out]
  rw [W10_of_ne m ρ c main_v1 (by decide), W10_of_ne m ρ c main_v3 (by decide), W10_of_ne m ρ c main_v4 (by decide), W10_of_ne m ρ c main_v21 (by decide)]
  rw [A_ht, A_w2, A_xs, A_main_v1, A_main_v3, A_main_v4]
  rfl

theorem keep_main_v1 (c : Dev nD) : W12 m ρ c (Proc.devRef .tc main_v1) = W2 m ρ c (Proc.devRef .tc main_v1) := by
  rw [W12_of_ne m ρ c main_v1 (by decide), B_main_v1, W10_of_ne m ρ c main_v1 (by decide), A_main_v1]

theorem keep_main_v3 (c : Dev nD) : W12 m ρ c (Proc.devRef .tc main_v3) = W2 m ρ c (Proc.devRef .tc main_v3) := by
  rw [W12_of_ne m ρ c main_v3 (by decide), B_main_v3, W10_of_ne m ρ c main_v3 (by decide), A_main_v3]

theorem keep_main_v4 (c : Dev nD) : W12 m ρ c (Proc.devRef .tc main_v4) = W2 m ρ c (Proc.devRef .tc main_v4) := by
  rw [W12_of_ne m ρ c main_v4 (by decide), B_main_v4, W10_of_ne m ρ c main_v4 (by decide), A_main_v4]

theorem keep_main_arg5 (c : Dev nD) : W12 m ρ c (Proc.devRef .tc main_arg5) = W2 m ρ c (Proc.devRef .tc main_arg5) := by
  rw [W12_of_ne m ρ c main_arg5 (by decide), B_main_arg5, W10_of_ne m ρ c main_arg5 (by decide), A_main_arg5]

theorem keep_main_arg6 (c : Dev nD) : W12 m ρ c (Proc.devRef .tc main_arg6) = W2 m ρ c (Proc.devRef .tc main_arg6) := by
  rw [W12_of_ne m ρ c main_arg6 (by decide), B_main_arg6, W10_of_ne m ρ c main_arg6 (by decide), A_main_arg6]

theorem keep_main_arg7 (c : Dev nD) : W12 m ρ c (Proc.devRef .tc main_arg7) = W2 m ρ c (Proc.devRef .tc main_arg7) := by
  rw [W12_of_ne m ρ c main_arg7 (by decide), B_main_arg7, W10_of_ne m ρ c main_arg7 (by decide), A_main_arg7]

theorem keep_main_arg4 (c : Dev nD) : W12 m ρ c (Proc.devRef .tc main_arg4) = W2 m ρ c (Proc.devRef .tc main_arg4) := by
  rw [W12_of_ne m ρ c main_arg4 (by decide), B_main_arg4, W10_of_ne m ρ c main_arg4 (by decide), A_main_arg4]

theorem keep_main_v21 (c : Dev nD) : W12 m ρ c (Proc.devRef .tc main_v21) = selfW (W2 m ρ c (Proc.devRef .tc main_v4)) (W2 m ρ c (Proc.devRef .tc main_arg4)) (W2 m ρ c (Proc.devRef .tc main_arg5)) := by
  rw [W12_of_ne m ρ c main_v21 (by decide), B_main_v21, W10_of_ne m ρ c main_v21 (by decide), A_w2]

theorem keep_main_v31 (c : Dev nD) : W12 m ρ c (Proc.devRef .tc main_v31) = srcPad (W2 m ρ c (Proc.devRef .tc main_v1)) (W2 m ρ c (Proc.devRef .tc main_v4)) (W2 m ρ c (Proc.devRef .tc main_arg4)) := by
  rw [W12_of_ne m ρ c main_v31 (by decide), B_main_v31, E_main_v31, A_xs]

end Cert.KernelIdeal.KHop1

end
-- ==== Proof.Reg3.lean ====
/-
  Launch 3 (the per-edge attention weight) on the whole array. Its grid has two points; point t loads rows
  3128·t … 3128·t + 3127 of both score arrays, all 128 columns, and writes the same rows of the weight array. The two
  blocks cover the 6256 rows, and a block of the result is the pointwise function of the same block of the inputs,
  so after the launch the weight array is the pointwise function of the two score arrays as the launch found them.
-/
import proofs.«105152_j14491219657222_1_alg».proof.Proof.KernelIdealFrameP
import proofs.«105152_j14491219657222_1_alg».proof.Proof.KernelFns
import Idealize.ShloMosaic.Lib.Pipeline.Value

set_option maxRecDepth 16384

noncomputable section

namespace Cert.KernelIdeal.Reg3

open Cert.KernelIdeal Cert.KernelIdeal.Gen Cert.KernelIdeal.GenP Cert.KernelIdeal.Fns
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- Decided over the two grid points: both inputs' blocks move with the output's, whose row index is the point
    and whose column index is 0. -/
theorem idx_facts : ∀ t : Fin cfg3.N, win3_0.index t (0 : Fin 2) = win3_2.index t (0 : Fin 2) + 0
    ∧ win3_0.index t (1 : Fin 2) = win3_2.index t (1 : Fin 2) + 0
    ∧ win3_1.index t (0 : Fin 2) = win3_2.index t (0 : Fin 2) + 0
    ∧ win3_1.index t (1 : Fin 2) = win3_2.index t (1 : Fin 2) + 0
    ∧ 0 ≤ win3_2.index t (0 : Fin 2) ∧ win3_2.index t (0 : Fin 2) ≤ 1
    ∧ 0 ≤ win3_2.index t (1 : Fin 2) ∧ win3_2.index t (1 : Fin 2) ≤ 0 :=
  (by decide +kernel : ∀ t : Fin grid3.N, _)

/-- Every row block is some point's. -/
theorem idx_onto : ∀ (q0 : Fin 2) (q1 : Fin 1), ∃ t : Fin cfg3.N, win3_2.index t = ![q0.val + 0, q1.val + 0] :=
  (by decide +kernel : ∀ (q0 : Fin 2) (q1 : Fin 1), ∃ t : Fin grid3.N, win3_2.index t = ![q0.val + 0, q1.val + 0])

/-- What point t writes back is block t of the pointwise function of the two arrays. -/
theorem flushed_eq (c : Dev nD) (t : Fin cfg3.N) :
    (dat3 V c).flushed 2 t = ((cfg3.win 2).blk t).view.read (Elt F) (edgeW (V c main_v31) (V c main_v85)) := by
  show (cfg3.win 2).cut (grid3.coords t) ((dat3 V c).after 2 t) = _
  rw [after3_2]
  unfold out3_2
  rw [View.canon_unit_zero hz]
  simp only [View.ld_unit_zero (S := S3128x128) hz]
  rw [pay3]
  obtain ⟨e0, e1, e2, e3, e4, e5, e6, e7⟩ := idx_facts t
  funext j
  show edgeS (V c main_v31 (((cfg3.win 0).blk t).view.emb j)) (V c main_v85 (((cfg3.win 1).blk t).view.emb j))
     = edgeS (V c main_v31 (((cfg3.win 2).blk t).view.emb j)) (V c main_v85 (((cfg3.win 2).blk t).view.emb j))
  have h0 : ((cfg3.win 0).blk t).view.emb j = ((cfg3.win 2).blk t).view.emb j := by
    funext a; apply Fin.ext
    match a with
    | ⟨0, _⟩ => show win3_0.index t (0 : Fin 2) * 3128 + 1 * (j 0).val = win3_2.index t (0 : Fin 2) * 3128 + 1 * (j 0).val; omega
    | ⟨1, _⟩ => show win3_0.index t (1 : Fin 2) * 128 + 1 * (j 1).val = win3_2.index t (1 : Fin 2) * 128 + 1 * (j 1).val; omega
  have h1 : ((cfg3.win 1).blk t).view.emb j = ((cfg3.win 2).blk t).view.emb j := by
    funext a; apply Fin.ext
    match a with
    | ⟨0, _⟩ => show win3_1.index t (0 : Fin 2) * 3128 + 1 * (j 0).val = win3_2.index t (0 : Fin 2) * 3128 + 1 * (j 0).val; omega
    | ⟨1, _⟩ => show win3_1.index t (1 : Fin 2) * 128 + 1 * (j 1).val = win3_2.index t (1 : Fin 2) * 128 + 1 * (j 1).val; omega
  rw [h0, h1] <;> rfl

/-- An entry is in point t's block iff each coordinate is in the block's range on its axis. -/
theorem mem_blk (t : Fin cfg3.N) (i : S6256x128.Idx) :
    i ∈ ((cfg3.win 2).blk t).view.set ↔ ∀ a : Fin 2, win3_2.index t a * S3128x128.size a ≤ (i a).val ∧ (i a).val < win3_2.index t a * S3128x128.size a + S3128x128.size a := by
  show i ∈ ((View.whole main_v86).slice (win3_2.rect t)).set ↔ _
  rw [View.set_slice_whole, Rect.mem_set_unit]
  exact Iff.rfl

/-- Row r is in the block of point r / 3128. -/
theorem cover (i : S6256x128.Idx) : ∃ t : Fin cfg3.N, (cfg3.win 2).flush t = true ∧ i ∈ ((cfg3.win 2).blk t).view.set := by
  have hi0 : (i 0).val < 6256 := (i 0).isLt
  have hi1 : (i 1).val < 128 := (i 1).isLt
  obtain ⟨t, ht⟩ := idx_onto ⟨(i 0).val / 3128, by omega⟩ ⟨(i 1).val / 128, by omega⟩
  have q0 : win3_2.index t (0 : Fin 2) = (i 0).val / 3128 + 0 := congrFun ht 0
  have q1 : win3_2.index t (1 : Fin 2) = (i 1).val / 128 + 0 := congrFun ht 1
  refine ⟨t, flush3_2 t, ?_⟩
  rw [mem_blk]
  intro a
  match a with
  | ⟨0, _⟩ => show win3_2.index t (0 : Fin 2) * 3128 ≤ (i 0).val ∧ (i 0).val < win3_2.index t (0 : Fin 2) * 3128 + 3128; omega
  | ⟨1, _⟩ => show win3_2.index t (1 : Fin 2) * 128 ≤ (i 1).val ∧ (i 1).val < win3_2.index t (1 : Fin 2) * 128 + 128; omega

/-- After the launch the weight array is the pointwise function of the two score arrays. -/
theorem final (c : Dev nD) : (dat3 V c).arrAt 2 cfg3.N = edgeW (V c main_v31) (V c main_v85) :=
  (dat3 V c).arrAt_eq_of_cover 2 _ (fun t _ => flushed_eq V c t) cover

end Cert.KernelIdeal.Reg3

end
-- ==== Proof.Reg4.lean ====
/-
  Launch 4 (the per-node normalization) on the whole array. Its grid has 25 points; point t loads rows
  2000·t … 2000·t + 1999 of the numerator (96 columns) and of the divisor (one column) and writes the same rows of
  the result. The 25 blocks cover the 50000 rows, and an entry of the result's block is the normalization of the
  numerator's entry against its row's divisor, so after the launch the result array is that function of the two
  arrays as the launch found them.
-/
import proofs.«105152_j14491219657222_1_alg».proof.Proof.KernelIdealFrameP
import proofs.«105152_j14491219657222_1_alg».proof.Proof.KernelFns
import Idealize.ShloMosaic.Lib.Pipeline.Value

set_option maxRecDepth 16384

noncomputable section

namespace Cert.KernelIdeal.Reg4

open Cert.KernelIdeal Cert.KernelIdeal.Gen Cert.KernelIdeal.GenP Cert.KernelIdeal.Fns
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- Decided over the 25 grid points: both inputs' blocks move with the output's, whose row index is the point and
    whose column index is 0. -/
theorem idx_facts : ∀ t : Fin cfg4.N, win4_0.index t (0 : Fin 2) = win4_2.index t (0 : Fin 2) + 0
    ∧ win4_0.index t (1 : Fin 2) = win4_2.index t (1 : Fin 2) + 0
    ∧ win4_1.index t (0 : Fin 2) = win4_2.index t (0 : Fin 2) + 0
    ∧ win4_1.index t (1 : Fin 2) = win4_2.index t (1 : Fin 2) + 0
    ∧ 0 ≤ win4_2.index t (0 : Fin 2) ∧ win4_2.index t (0 : Fin 2) ≤ 24
    ∧ 0 ≤ win4_2.index t (1 : Fin 2) ∧ win4_2.index t (1 : Fin 2) ≤ 0 :=
  (by decide +kernel : ∀ t : Fin grid4.N, _)

/-- Every row block is some point's. -/
theorem idx_onto : ∀ (q0 : Fin 25) (q1 : Fin 1), ∃ t : Fin cfg4.N, win4_2.index t = ![q0.val + 0, q1.val + 0] :=
  (by decide +kernel : ∀ (q0 : Fin 25) (q1 : Fin 1), ∃ t : Fin grid4.N, win4_2.index t = ![q0.val + 0, q1.val + 0])

/-- What point t writes back is block t of the normalization of the two arrays. -/
theorem flushed_eq (c : Dev nD) (t : Fin cfg4.N) :
    (dat4 V c).flushed 2 t = ((cfg4.win 2).blk t).view.read (Elt F) (normW (V c main_v108) (V c main_v93)) := by
  show (cfg4.win 2).cut (grid4.coords t) ((dat4 V c).after 2 t) = _
  rw [after4_2]
  unfold out4_2
  rw [View.canon_unit_zero hz]
  simp only [View.ld_unit_zero (S := S2000x96) hz, View.ld_unit_zero (S := S2000x1) hz]
  rw [pay4]
  obtain ⟨e0, e1, e2, e3, e4, e5, e6, e7⟩ := idx_facts t
  funext j
  show normS (V c main_v108 (((cfg4.win 0).blk t).view.emb j)) (V c main_v93 (((cfg4.win 1).blk t).view.emb (ix2 (j 0) (0 : Fin 1))))
     = normS (V c main_v108 (((cfg4.win 2).blk t).view.emb j)) (V c main_v93 (ix2 ((((cfg4.win 2).blk t).view.emb j) 0) (0 : Fin 1)))
  have h0 : ((cfg4.win 0).blk t).view.emb j = ((cfg4.win 2).blk t).view.emb j := by
    funext a; apply Fin.ext
    match a with
    | ⟨0, _⟩ => show win4_0.index t (0 : Fin 2) * 2000 + 1 * (j 0).val = win4_2.index t (0 : Fin 2) * 2000 + 1 * (j 0).val; omega
    | ⟨1, _⟩ => show win4_0.index t (1 : Fin 2) * 96 + 1 * (j 1).val = win4_2.index t (1 : Fin 2) * 96 + 1 * (j 1).val; omega
  have h1 : ((cfg4.win 1).blk t).view.emb (ix2 (j 0) (0 : Fin 1)) = ix2 ((((cfg4.win 2).blk t).view.emb j) 0) (0 : Fin 1) := by
    funext a; apply Fin.ext
    match a with
    | ⟨0, _⟩ => show win4_1.index t (0 : Fin 2) * 2000 + 1 * (j 0).val = win4_2.index t (0 : Fin 2) * 2000 + 1 * (j 0).val; omega
    | ⟨1, _⟩ => show win4_1.index t (1 : Fin 2) * 1 + 1 * 0 = 0; omega
  rw [h0, h1] <;> rfl

/-- An entry is in point t's block iff each coordinate is in the block's range on its axis. -/
theorem mem_blk (t : Fin cfg4.N) (i : S50000x96.Idx) :
    i ∈ ((cfg4.win 2).blk t).view.set ↔ ∀ a : Fin 2, win4_2.index t a * S2000x96.size a ≤ (i a).val ∧ (i a).val < win4_2.index t a * S2000x96.size a + S2000x96.size a := by
  show i ∈ ((View.whole main_v109).slice (win4_2.rect t)).set ↔ _
  rw [View.set_slice_whole, Rect.mem_set_unit]
  exact Iff.rfl

/-- Row r is in the block of point r / 2000. -/
theorem cover (i : S50000x96.Idx) : ∃ t : Fin cfg4.N, (cfg4.win 2).flush t = true ∧ i ∈ ((cfg4.win 2).blk t).view.set := by
  have hi0 : (i 0).val < 50000 := (i 0).isLt
  have hi1 : (i 1).val < 96 := (i 1).isLt
  obtain ⟨t, ht⟩ := idx_onto ⟨(i 0).val / 2000, by omega⟩ ⟨(i 1).val / 96, by omega⟩
  have q0 : win4_2.index t (0 : Fin 2) = (i 0).val / 2000 + 0 := congrFun ht 0
  have q1 : win4_2.index t (1 : Fin 2) = (i 1).val / 96 + 0 := congrFun ht 1
  refine ⟨t, flush4_2 t, ?_⟩
  rw [mem_blk]
  intro a
  match a with
  | ⟨0, _⟩ => show win4_2.index t (0 : Fin 2) * 2000 ≤ (i 0).val ∧ (i 0).val < win4_2.index t (0 : Fin 2) * 2000 + 2000; omega
  | ⟨1, _⟩ => show win4_2.index t (1 : Fin 2) * 96 ≤ (i 1).val ∧ (i 1).val < win4_2.index t (1 : Fin 2) * 96 + 96; omega

/-- After the launch the result array is the normalization of the numerator array against the divisor column. -/
theorem final (c : Dev nD) : (dat4 V c).arrAt 2 cfg4.N = normW (V c main_v108) (V c main_v93) :=
  (dat4 V c).arrAt_eq_of_cover 2 _ (fun t _ => flushed_eq V c t) cover

end Cert.KernelIdeal.Reg4

end
-- ==== Proof.KHop2.lean ====
/-
  Hop 2 of the kernel program, from the buffer contents at its start to those at its end: the host stretch that
  gathers and pads the target scores, the weight launch, the host stretch of the two scatter-adds, the
  normalization launch. Each stretch leaves its function of the buffers it reads and keeps the others; each launch
  writes its result array and keeps every other buffer. Chained: the features after the hop are the hop function of
  the features before it, and the index rows, the projected features, the self-loop weight, the padded source scores
  and the arguments are as before.
-/
import proofs.«105152_j14491219657222_1_alg».proof.Proof.KernelIdealFrameP
import proofs.«105152_j14491219657222_1_alg».proof.Proof.KernelHostFns
import proofs.«105152_j14491219657222_1_alg».proof.Proof.Reg3
import proofs.«105152_j14491219657222_1_alg».proof.Proof.Reg4
import Idealize.ShloMosaic.Lib.StableHlo.Run

set_option maxRecDepth 16384

noncomputable section

namespace Cert.KernelIdeal.KHop2

open Cert.KernelIdeal Cert.KernelIdeal.Gen Cert.KernelIdeal.GenP Cert.KernelIdeal.Fns
open Idealize.ShloMosaic Idealize.ShloMosaic.TcCoe Idealize.ShloMosaic.StableHlo
open Idealize.SL Idealize.SL.Sem

variable {F : FTy → Type} [FloatOps F]
variable (m : (ℓ : Loc nD τ sig) → Buf (Elt F) ℓ) (ρ : Dev nD → PrngReg)

set_option maxHeartbeats 4000000 in
theorem A_ht (c : Dev nD) : W15 m ρ c (Proc.devRef .tc main_v85) = tgtPad (W12 m ρ c (Proc.devRef .tc main_v3)) (W12 m ρ c (Proc.devRef .tc main_v70)) (W12 m ρ c (Proc.devRef .tc main_arg5)) := by
  dsimp only [W15, W14, W13, hostOps3, hostOps3_1, hostOps3_2]
  after_results_simp
  rfl

set_option maxHeartbeats 4000000 in
theorem A_main_v1 (c : Dev nD) : W15 m ρ c (Proc.devRef .tc main_v1) = W12 m ρ c (Proc.devRef .tc main_v1) := by
  dsimp only [W15, W14, W13, hostOps3, hostOps3_1, hostOps3_2]
  after_results_simp

set_option maxHeartbeats 4000000 in
theorem A_main_v3 (c : Dev nD) : W15 m ρ c (Proc.devRef .tc main_v3) = W12 m ρ c (Proc.devRef .tc main_v3) := by
  dsimp only [W15, W14, W13, hostOps3, hostOps3_1, hostOps3_2]
  after_results_simp

set_option maxHeartbeats 4000000 in
theorem A_main_v4 (c : Dev nD) : W15 m ρ c (Proc.devRef .tc main_v4) = W12 m ρ c (Proc.devRef .tc main_v4) := by
  dsimp only [W15, W14, W13, hostOps3, hostOps3_1, hostOps3_2]
  after_results_simp

set_option maxHeartbeats 4000000 in
theorem A_main_arg5 (c : Dev nD) : W15 m ρ c (Proc.devRef .tc main_arg5) = W12 m ρ c (Proc.devRef .tc main_arg5) := by
  dsimp only [W15, W14, W13, hostOps3, hostOps3_1, hostOps3_2]
  after_results_simp

set_option maxHeartbeats 4000000 in
theorem A_main_arg6 (c : Dev nD) : W15 m ρ c (Proc.devRef .tc main_arg6) = W12 m ρ c (Proc.devRef .tc main_arg6) := by
  dsimp only [W15, W14, W13, hostOps3, hostOps3_1, hostOps3_2]
  after_results_simp

set_option maxHeartbeats 4000000 in
theorem A_main_arg7 (c : Dev nD) : W15 m ρ c (Proc.devRef .tc main_arg7) = W12 m ρ c (Proc.devRef .tc main_arg7) := by
  dsimp only [W15, W14, W13, hostOps3, hostOps3_1, hostOps3_2]
  after_results_simp

set_option maxHeartbeats 4000000 in
theorem A_main_v21 (c : Dev nD) : W15 m ρ c (Proc.devRef .tc main_v21) = W12 m ρ c (Proc.devRef .tc main_v21) := by
  dsimp only [W15, W14, W13, hostOps3, hostOps3_1, hostOps3_2]
  after_results_simp

set_option maxHeartbeats 4000000 in
theorem A_main_v31 (c : Dev nD) : W15 m ρ c (Proc.devRef .tc main_v31) = W12 m ρ c (Proc.devRef .tc main_v31) := by
  dsimp only [W15, W14, W13, hostOps3, hostOps3_1, hostOps3_2]
  after_results_simp

set_option maxHeartbeats 4000000 in
theorem A_main_v70 (c : Dev nD) : W15 m ρ c (Proc.devRef .tc main_v70) = W12 m ρ c (Proc.devRef .tc main_v70) := by
  dsimp only [W15, W14, W13, hostOps3, hostOps3_1, hostOps3_2]
  after_results_simp

/-- The weight launch reads the padded source scores through an input window and leaves them as they were. -/
theorem E_main_v31 (c : Dev nD) : W16 m ρ c (Proc.devRef .tc main_v31) = W15 m ρ c (Proc.devRef .tc main_v31) :=
  (W16_arr m ρ c 0).trans (((dat3 (V15 m ρ) c).arrAt_in 0 rfl _).trans (A_eq3 (V15 m ρ) c 0))

theorem E_out (c : Dev nD) : W16 m ρ c (Proc.devRef .tc main_v86) = edgeW (W15 m ρ c (Proc.devRef .tc main_v31)) (W15 m ρ c (Proc.devRef .tc main_v85)) :=
  (W16_arr m ρ c 2).trans (Reg3.final (V15 m ρ) c)

set_option maxHeartbeats 4000000 in
theorem B_num (c : Dev nD) : W17 m ρ c (Proc.devRef .tc main_v108) = hopNum (W16 m ρ c (Proc.devRef .tc main_v1)) (W16 m ρ c (Proc.devRef .tc main_v3)) (W16 m ρ c (Proc.devRef .tc main_v4)) (W16 m ρ c (Proc.devRef .tc main_v70)) (W16 m ρ c (Proc.devRef .tc main_v21)) (W16 m ρ c (Proc.devRef .tc main_v86)) := by
  dsimp only [W17, hostOps4]
  after_results_simp
  rfl

set_option maxHeartbeats 4000000 in
theorem B_div (c : Dev nD) : W17 m ρ c (Proc.devRef .tc main_v93) = hopDiv (W16 m ρ c (Proc.devRef .tc main_v1)) (W16 m ρ c (Proc.devRef .tc main_v21)) (W16 m ρ c (Proc.devRef .tc main_v86)) := by
  dsimp only [W17, hostOps4]
  after_results_simp
  rfl

set_option maxHeartbeats 4000000 in
theorem B_main_v1 (c : Dev nD) : W17 m ρ c (Proc.devRef .tc main_v1) = W16 m ρ c (Proc.devRef .tc main_v1) := by
  dsimp only [W17, hostOps4]
  after_results_simp

set_option maxHeartbeats 4000000 in
theorem B_main_v3 (c : Dev nD) : W17 m ρ c (Proc.devRef .tc main_v3) = W16 m ρ c (Proc.devRef .tc main_v3) := by
  dsimp only [W17, hostOps4]
  after_results_simp

set_option maxHeartbeats 4000000 in
theorem B_main_v4 (c : Dev nD) : W17 m ρ c (Proc.devRef .tc main_v4) = W16 m ρ c (Proc.devRef .tc main_v4) := by
  dsimp only [W17, hostOps4]
  after_results_simp

set_option maxHeartbeats 4000000 in
theorem B_main_arg5 (c : Dev nD) : W17 m ρ c (Proc.devRef .tc main_arg5) = W16 m ρ c (Proc.devRef .tc main_arg5) := by
  dsimp only [W17, hostOps4]
  after_results_simp

set_option maxHeartbeats 4000000 in
theorem B_main_arg6 (c : Dev nD) : W17 m ρ c (Proc.devRef .tc main_arg6) = W16 m ρ c (Proc.devRef .tc main_arg6) := by
  dsimp only [W17, hostOps4]
  after_results_simp

set_option maxHeartbeats 4000000 in
theorem B_main_arg7 (c : Dev nD) : W17 m ρ c (Proc.devRef .tc main_arg7) = W16 m ρ c (Proc.devRef .tc main_arg7) := by
  dsimp only [W17, hostOps4]
  after_results_simp

set_option maxHeartbeats 4000000 in
theorem B_main_v21 (c : Dev nD) : W17 m ρ c (Proc.devRef .tc main_v21) = W16 m ρ c (Proc.devRef .tc main_v21) := by
  dsimp only [W17, hostOps4]
  after_results_simp

set_option maxHeartbeats 4000000 in
theorem B_main_v31 (c : Dev nD) : W17 m ρ c (Proc.devRef .tc main_v31) = W16 m ρ c (Proc.devRef .tc main_v31) := by
  dsimp only [W17, hostOps4]
  after_results_simp

theorem N_out (c : Dev nD) : W18 m ρ c (Proc.devRef .tc main_v109) = normW (W17 m ρ c (Proc.devRef .tc main_v108)) (W17 m ρ c (Proc.devRef .tc main_v93)) :=
  (W18_arr m ρ c 2).trans (Reg4.final (V17 m ρ) c)

/-- The features after hop 2 are the hop function of the contents at its start. -/
theorem out (c : Dev nD) : W18 m ρ c (Proc.devRef .tc main_v109)
    = kerHop (W12 m ρ c (Proc.devRef .tc main_v1)) (W12 m ρ c (Proc.devRef .tc main_v3)) (W12 m ρ c (Proc.devRef .tc main_v4)) (W12 m ρ c (Proc.devRef .tc main_v70)) (W12 m ρ c (Proc.devRef .tc main_v21)) (W12 m ρ c (Proc.devRef .tc main_v31)) (W12 m ρ c (Proc.devRef .tc main_arg5)) := by
  rw [N_out, B_num, B_div, E_out]
  rw [W16_of_ne m ρ c main_v1 (by decide), W16_of_ne m ρ c main_v3 (by decide), W16_of_ne m ρ c main_v4 (by decide), W16_of_ne m ρ c main_v70 (by decide), W16_of_ne m ρ c main_v21 (by decide)]
  rw [A_ht, A_main_v21, A_main_v31, A_main_v1, A_main_v3, A_main_v4, A_main_v70]
  rfl

theorem keep_main_v1 (c : Dev nD) : W18 m ρ c (Proc.devRef .tc main_v1) = W12 m ρ c (Proc.devRef .tc main_v1) := by
  rw [W18_of_ne m ρ c main_v1 (by decide), B_main_v1, W16_of_ne m ρ c main_v1 (by decide), A_main_v1]

theorem keep_main_v3 (c : Dev nD) : W18 m ρ c (Proc.devRef .tc main_v3) = W12 m ρ c (Proc.devRef .tc main_v3) := by
  rw [W18_of_ne m ρ c main_v3 (by decide), B_main_v3, W16_of_ne m ρ c main_v3 (by decide), A_main_v3]

theorem keep_main_v4 (c : Dev nD) : W18 m ρ c (Proc.devRef .tc main_v4) = W12 m ρ c (Proc.devRef .tc main_v4) := by
  rw [W18_of_ne m ρ c main_v4 (by decide), B_main_v4, W16_of_ne m ρ c main_v4 (by decide), A_main_v4]

theorem keep_main_arg5 (c : Dev nD) : W18 m ρ c (Proc.devRef .tc main_arg5) = W12 m ρ c (Proc.devRef .tc main_arg5) := by
  rw [W18_of_ne m ρ c main_arg5 (by decide), B_main_arg5, W16_of_ne m ρ c main_arg5 (by decide), A_main_arg5]

theorem keep_main_arg6 (c : Dev nD) : W18 m ρ c (Proc.devRef .tc main_arg6) = W12 m ρ c (Proc.devRef .tc main_arg6) := by
  rw [W18_of_ne m ρ c main_arg6 (by decide), B_main_arg6, W16_of_ne m ρ c main_arg6 (by decide), A_main_arg6]

theorem keep_main_arg7 (c : Dev nD) : W18 m ρ c (Proc.devRef .tc main_arg7) = W12 m ρ c (Proc.devRef .tc main_arg7) := by
  rw [W18_of_ne m ρ c main_arg7 (by decide), B_main_arg7, W16_of_ne m ρ c main_arg7 (by decide), A_main_arg7]

theorem keep_main_v21 (c : Dev nD) : W18 m ρ c (Proc.devRef .tc main_v21) = W12 m ρ c (Proc.devRef .tc main_v21) := by
  rw [W18_of_ne m ρ c main_v21 (by decide), B_main_v21, W16_of_ne m ρ c main_v21 (by decide), A_main_v21]

theorem keep_main_v31 (c : Dev nD) : W18 m ρ c (Proc.devRef .tc main_v31) = W12 m ρ c (Proc.devRef .tc main_v31) := by
  rw [W18_of_ne m ρ c main_v31 (by decide), B_main_v31, E_main_v31, A_main_v31]

end Cert.KernelIdeal.KHop2

end
-- ==== Proof.Reg5.lean ====
/-
  Launch 5 (the per-edge attention weight) on the whole array. Its grid has two points; point t loads rows
  3128·t … 3128·t + 3127 of both score arrays, all 128 columns, and writes the same rows of the weight array. The two
  blocks cover the 6256 rows, and a block of the result is the pointwise function of the same block of the inputs,
  so after the launch the weight array is the pointwise function of the two score arrays as the launch found them.
-/
import proofs.«105152_j14491219657222_1_alg».proof.Proof.KernelIdealFrameP
import proofs.«105152_j14491219657222_1_alg».proof.Proof.KernelFns
import Idealize.ShloMosaic.Lib.Pipeline.Value

set_option maxRecDepth 16384

noncomputable section

namespace Cert.KernelIdeal.Reg5

open Cert.KernelIdeal Cert.KernelIdeal.Gen Cert.KernelIdeal.GenP Cert.KernelIdeal.Fns
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- Decided over the two grid points: both inputs' blocks move with the output's, whose row index is the point
    and whose column index is 0. -/
theorem idx_facts : ∀ t : Fin cfg5.N, win5_0.index t (0 : Fin 2) = win5_2.index t (0 : Fin 2) + 0
    ∧ win5_0.index t (1 : Fin 2) = win5_2.index t (1 : Fin 2) + 0
    ∧ win5_1.index t (0 : Fin 2) = win5_2.index t (0 : Fin 2) + 0
    ∧ win5_1.index t (1 : Fin 2) = win5_2.index t (1 : Fin 2) + 0
    ∧ 0 ≤ win5_2.index t (0 : Fin 2) ∧ win5_2.index t (0 : Fin 2) ≤ 1
    ∧ 0 ≤ win5_2.index t (1 : Fin 2) ∧ win5_2.index t (1 : Fin 2) ≤ 0 :=
  (by decide +kernel : ∀ t : Fin grid5.N, _)

/-- Every row block is some point's. -/
theorem idx_onto : ∀ (q0 : Fin 2) (q1 : Fin 1), ∃ t : Fin cfg5.N, win5_2.index t = ![q0.val + 0, q1.val + 0] :=
  (by decide +kernel : ∀ (q0 : Fin 2) (q1 : Fin 1), ∃ t : Fin grid5.N, win5_2.index t = ![q0.val + 0, q1.val + 0])

/-- What point t writes back is block t of the pointwise function of the two arrays. -/
theorem flushed_eq (c : Dev nD) (t : Fin cfg5.N) :
    (dat5 V c).flushed 2 t = ((cfg5.win 2).blk t).view.read (Elt F) (edgeW (V c main_v31) (V c main_v124)) := by
  show (cfg5.win 2).cut (grid5.coords t) ((dat5 V c).after 2 t) = _
  rw [after5_2]
  unfold out5_2
  rw [View.canon_unit_zero hz]
  simp only [View.ld_unit_zero (S := S3128x128) hz]
  rw [pay5]
  obtain ⟨e0, e1, e2, e3, e4, e5, e6, e7⟩ := idx_facts t
  funext j
  show edgeS (V c main_v31 (((cfg5.win 0).blk t).view.emb j)) (V c main_v124 (((cfg5.win 1).blk t).view.emb j))
     = edgeS (V c main_v31 (((cfg5.win 2).blk t).view.emb j)) (V c main_v124 (((cfg5.win 2).blk t).view.emb j))
  have h0 : ((cfg5.win 0).blk t).view.emb j = ((cfg5.win 2).blk t).view.emb j := by
    funext a; apply Fin.ext
    match a with
    | ⟨0, _⟩ => show win5_0.index t (0 : Fin 2) * 3128 + 1 * (j 0).val = win5_2.index t (0 : Fin 2) * 3128 + 1 * (j 0).val; omega
    | ⟨1, _⟩ => show win5_0.index t (1 : Fin 2) * 128 + 1 * (j 1).val = win5_2.index t (1 : Fin 2) * 128 + 1 * (j 1).val; omega
  have h1 : ((cfg5.win 1).blk t).view.emb j = ((cfg5.win 2).blk t).view.emb j := by
    funext a; apply Fin.ext
    match a with
    | ⟨0, _⟩ => show win5_1.index t (0 : Fin 2) * 3128 + 1 * (j 0).val = win5_2.index t (0 : Fin 2) * 3128 + 1 * (j 0).val; omega
    | ⟨1, _⟩ => show win5_1.index t (1 : Fin 2) * 128 + 1 * (j 1).val = win5_2.index t (1 : Fin 2) * 128 + 1 * (j 1).val; omega
  rw [h0, h1] <;> rfl

/-- An entry is in point t's block iff each coordinate is in the block's range on its axis. -/
theorem mem_blk (t : Fin cfg5.N) (i : S6256x128.Idx) :
    i ∈ ((cfg5.win 2).blk t).view.set ↔ ∀ a : Fin 2, win5_2.index t a * S3128x128.size a ≤ (i a).val ∧ (i a).val < win5_2.index t a * S3128x128.size a + S3128x128.size a := by
  show i ∈ ((View.whole main_v125).slice (win5_2.rect t)).set ↔ _
  rw [View.set_slice_whole, Rect.mem_set_unit]
  exact Iff.rfl

/-- Row r is in the block of point r / 3128. -/
theorem cover (i : S6256x128.Idx) : ∃ t : Fin cfg5.N, (cfg5.win 2).flush t = true ∧ i ∈ ((cfg5.win 2).blk t).view.set := by
  have hi0 : (i 0).val < 6256 := (i 0).isLt
  have hi1 : (i 1).val < 128 := (i 1).isLt
  obtain ⟨t, ht⟩ := idx_onto ⟨(i 0).val / 3128, by omega⟩ ⟨(i 1).val / 128, by omega⟩
  have q0 : win5_2.index t (0 : Fin 2) = (i 0).val / 3128 + 0 := congrFun ht 0
  have q1 : win5_2.index t (1 : Fin 2) = (i 1).val / 128 + 0 := congrFun ht 1
  refine ⟨t, flush5_2 t, ?_⟩
  rw [mem_blk]
  intro a
  match a with
  | ⟨0, _⟩ => show win5_2.index t (0 : Fin 2) * 3128 ≤ (i 0).val ∧ (i 0).val < win5_2.index t (0 : Fin 2) * 3128 + 3128; omega
  | ⟨1, _⟩ => show win5_2.index t (1 : Fin 2) * 128 ≤ (i 1).val ∧ (i 1).val < win5_2.index t (1 : Fin 2) * 128 + 128; omega

/-- After the launch the weight array is the pointwise function of the two score arrays. -/
theorem final (c : Dev nD) : (dat5 V c).arrAt 2 cfg5.N = edgeW (V c main_v31) (V c main_v124) :=
  (dat5 V c).arrAt_eq_of_cover 2 _ (fun t _ => flushed_eq V c t) cover

end Cert.KernelIdeal.Reg5

end
-- ==== Proof.Reg6.lean ====
/-
  Launch 6 (the per-node normalization) on the whole array. Its grid has 25 points; point t loads rows
  2000·t … 2000·t + 1999 of the numerator (96 columns) and of the divisor (one column) and writes the same rows of
  the result. The 25 blocks cover the 50000 rows, and an entry of the result's block is the normalization of the
  numerator's entry against its row's divisor, so after the launch the result array is that function of the two
  arrays as the launch found them.
-/
import proofs.«105152_j14491219657222_1_alg».proof.Proof.KernelIdealFrameP
import proofs.«105152_j14491219657222_1_alg».proof.Proof.KernelFns
import Idealize.ShloMosaic.Lib.Pipeline.Value

set_option maxRecDepth 16384

noncomputable section

namespace Cert.KernelIdeal.Reg6

open Cert.KernelIdeal Cert.KernelIdeal.Gen Cert.KernelIdeal.GenP Cert.KernelIdeal.Fns
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- Decided over the 25 grid points: both inputs' blocks move with the output's, whose row index is the point and
    whose column index is 0. -/
theorem idx_facts : ∀ t : Fin cfg6.N, win6_0.index t (0 : Fin 2) = win6_2.index t (0 : Fin 2) + 0
    ∧ win6_0.index t (1 : Fin 2) = win6_2.index t (1 : Fin 2) + 0
    ∧ win6_1.index t (0 : Fin 2) = win6_2.index t (0 : Fin 2) + 0
    ∧ win6_1.index t (1 : Fin 2) = win6_2.index t (1 : Fin 2) + 0
    ∧ 0 ≤ win6_2.index t (0 : Fin 2) ∧ win6_2.index t (0 : Fin 2) ≤ 24
    ∧ 0 ≤ win6_2.index t (1 : Fin 2) ∧ win6_2.index t (1 : Fin 2) ≤ 0 :=
  (by decide +kernel : ∀ t : Fin grid6.N, _)

/-- Every row block is some point's. -/
theorem idx_onto : ∀ (q0 : Fin 25) (q1 : Fin 1), ∃ t : Fin cfg6.N, win6_2.index t = ![q0.val + 0, q1.val + 0] :=
  (by decide +kernel : ∀ (q0 : Fin 25) (q1 : Fin 1), ∃ t : Fin grid6.N, win6_2.index t = ![q0.val + 0, q1.val + 0])

/-- What point t writes back is block t of the normalization of the two arrays. -/
theorem flushed_eq (c : Dev nD) (t : Fin cfg6.N) :
    (dat6 V c).flushed 2 t = ((cfg6.win 2).blk t).view.read (Elt F) (normW (V c main_v147) (V c main_v132)) := by
  show (cfg6.win 2).cut (grid6.coords t) ((dat6 V c).after 2 t) = _
  rw [after6_2]
  unfold out6_2
  rw [View.canon_unit_zero hz]
  simp only [View.ld_unit_zero (S := S2000x96) hz, View.ld_unit_zero (S := S2000x1) hz]
  rw [pay6]
  obtain ⟨e0, e1, e2, e3, e4, e5, e6, e7⟩ := idx_facts t
  funext j
  show normS (V c main_v147 (((cfg6.win 0).blk t).view.emb j)) (V c main_v132 (((cfg6.win 1).blk t).view.emb (ix2 (j 0) (0 : Fin 1))))
     = normS (V c main_v147 (((cfg6.win 2).blk t).view.emb j)) (V c main_v132 (ix2 ((((cfg6.win 2).blk t).view.emb j) 0) (0 : Fin 1)))
  have h0 : ((cfg6.win 0).blk t).view.emb j = ((cfg6.win 2).blk t).view.emb j := by
    funext a; apply Fin.ext
    match a with
    | ⟨0, _⟩ => show win6_0.index t (0 : Fin 2) * 2000 + 1 * (j 0).val = win6_2.index t (0 : Fin 2) * 2000 + 1 * (j 0).val; omega
    | ⟨1, _⟩ => show win6_0.index t (1 : Fin 2) * 96 + 1 * (j 1).val = win6_2.index t (1 : Fin 2) * 96 + 1 * (j 1).val; omega
  have h1 : ((cfg6.win 1).blk t).view.emb (ix2 (j 0) (0 : Fin 1)) = ix2 ((((cfg6.win 2).blk t).view.emb j) 0) (0 : Fin 1) := by
    funext a; apply Fin.ext
    match a with
    | ⟨0, _⟩ => show win6_1.index t (0 : Fin 2) * 2000 + 1 * (j 0).val = win6_2.index t (0 : Fin 2) * 2000 + 1 * (j 0).val; omega
    | ⟨1, _⟩ => show win6_1.index t (1 : Fin 2) * 1 + 1 * 0 = 0; omega
  rw [h0, h1] <;> rfl

/-- An entry is in point t's block iff each coordinate is in the block's range on its axis. -/
theorem mem_blk (t : Fin cfg6.N) (i : S50000x96.Idx) :
    i ∈ ((cfg6.win 2).blk t).view.set ↔ ∀ a : Fin 2, win6_2.index t a * S2000x96.size a ≤ (i a).val ∧ (i a).val < win6_2.index t a * S2000x96.size a + S2000x96.size a := by
  show i ∈ ((View.whole main_v148).slice (win6_2.rect t)).set ↔ _
  rw [View.set_slice_whole, Rect.mem_set_unit]
  exact Iff.rfl

/-- Row r is in the block of point r / 2000. -/
theorem cover (i : S50000x96.Idx) : ∃ t : Fin cfg6.N, (cfg6.win 2).flush t = true ∧ i ∈ ((cfg6.win 2).blk t).view.set := by
  have hi0 : (i 0).val < 50000 := (i 0).isLt
  have hi1 : (i 1).val < 96 := (i 1).isLt
  obtain ⟨t, ht⟩ := idx_onto ⟨(i 0).val / 2000, by omega⟩ ⟨(i 1).val / 96, by omega⟩
  have q0 : win6_2.index t (0 : Fin 2) = (i 0).val / 2000 + 0 := congrFun ht 0
  have q1 : win6_2.index t (1 : Fin 2) = (i 1).val / 96 + 0 := congrFun ht 1
  refine ⟨t, flush6_2 t, ?_⟩
  rw [mem_blk]
  intro a
  match a with
  | ⟨0, _⟩ => show win6_2.index t (0 : Fin 2) * 2000 ≤ (i 0).val ∧ (i 0).val < win6_2.index t (0 : Fin 2) * 2000 + 2000; omega
  | ⟨1, _⟩ => show win6_2.index t (1 : Fin 2) * 96 ≤ (i 1).val ∧ (i 1).val < win6_2.index t (1 : Fin 2) * 96 + 96; omega

/-- After the launch the result array is the normalization of the numerator array against the divisor column. -/
theorem final (c : Dev nD) : (dat6 V c).arrAt 2 cfg6.N = normW (V c main_v147) (V c main_v132) :=
  (dat6 V c).arrAt_eq_of_cover 2 _ (fun t _ => flushed_eq V c t) cover

end Cert.KernelIdeal.Reg6

end
-- ==== Proof.KHop3.lean ====
/-
  Hop 3 of the kernel program, from the buffer contents at its start to those at its end: the host stretch that
  gathers and pads the target scores, the weight launch, the host stretch of the two scatter-adds, the
  normalization launch. Each stretch leaves its function of the buffers it reads and keeps the others; each launch
  writes its result array and keeps every other buffer. Chained: the features after the hop are the hop function of
  the features before it, and the index rows, the projected features, the self-loop weight, the padded source scores
  and the arguments are as before.
-/
import proofs.«105152_j14491219657222_1_alg».proof.Proof.KernelIdealFrameP
import proofs.«105152_j14491219657222_1_alg».proof.Proof.KernelHostFns
import proofs.«105152_j14491219657222_1_alg».proof.Proof.Reg5
import proofs.«105152_j14491219657222_1_alg».proof.Proof.Reg6
import Idealize.ShloMosaic.Lib.StableHlo.Run

set_option maxRecDepth 16384

noncomputable section

namespace Cert.KernelIdeal.KHop3

open Cert.KernelIdeal Cert.KernelIdeal.Gen Cert.KernelIdeal.GenP Cert.KernelIdeal.Fns
open Idealize.ShloMosaic Idealize.ShloMosaic.TcCoe Idealize.ShloMosaic.StableHlo
open Idealize.SL Idealize.SL.Sem

variable {F : FTy → Type} [FloatOps F]
variable (m : (ℓ : Loc nD τ sig) → Buf (Elt F) ℓ) (ρ : Dev nD → PrngReg)

set_option maxHeartbeats 4000000 in
theorem A_ht (c : Dev nD) : W21 m ρ c (Proc.devRef .tc main_v124) = tgtPad (W18 m ρ c (Proc.devRef .tc main_v3)) (W18 m ρ c (Proc.devRef .tc main_v109)) (W18 m ρ c (Proc.devRef .tc main_arg5)) := by
  dsimp only [W21, W20, W19, hostOps5, hostOps5_1, hostOps5_2]
  after_results_simp
  rfl

set_option maxHeartbeats 4000000 in
theorem A_main_v1 (c : Dev nD) : W21 m ρ c (Proc.devRef .tc main_v1) = W18 m ρ c (Proc.devRef .tc main_v1) := by
  dsimp only [W21, W20, W19, hostOps5, hostOps5_1, hostOps5_2]
  after_results_simp

set_option maxHeartbeats 4000000 in
theorem A_main_v3 (c : Dev nD) : W21 m ρ c (Proc.devRef .tc main_v3) = W18 m ρ c (Proc.devRef .tc main_v3) := by
  dsimp only [W21, W20, W19, hostOps5, hostOps5_1, hostOps5_2]
  after_results_simp

set_option maxHeartbeats 4000000 in
theorem A_main_v4 (c : Dev nD) : W21 m ρ c (Proc.devRef .tc main_v4) = W18 m ρ c (Proc.devRef .tc main_v4) := by
  dsimp only [W21, W20, W19, hostOps5, hostOps5_1, hostOps5_2]
  after_results_simp

set_option maxHeartbeats 4000000 in
theorem A_main_arg5 (c : Dev nD) : W21 m ρ c (Proc.devRef .tc main_arg5) = W18 m ρ c (Proc.devRef .tc main_arg5) := by
  dsimp only [W21, W20, W19, hostOps5, hostOps5_1, hostOps5_2]
  after_results_simp

set_option maxHeartbeats 4000000 in
theorem A_main_arg6 (c : Dev nD) : W21 m ρ c (Proc.devRef .tc main_arg6) = W18 m ρ c (Proc.devRef .tc main_arg6) := by
  dsimp only [W21, W20, W19, hostOps5, hostOps5_1, hostOps5_2]
  after_results_simp

set_option maxHeartbeats 4000000 in
theorem A_main_arg7 (c : Dev nD) : W21 m ρ c (Proc.devRef .tc main_arg7) = W18 m ρ c (Proc.devRef .tc main_arg7) := by
  dsimp only [W21, W20, W19, hostOps5, hostOps5_1, hostOps5_2]
  after_results_simp

set_option maxHeartbeats 4000000 in
theorem A_main_v21 (c : Dev nD) : W21 m ρ c (Proc.devRef .tc main_v21) = W18 m ρ c (Proc.devRef .tc main_v21) := by
  dsimp only [W21, W20, W19, hostOps5, hostOps5_1, hostOps5_2]
  after_results_simp

set_option maxHeartbeats 4000000 in
theorem A_main_v31 (c : Dev nD) : W21 m ρ c (Proc.devRef .tc main_v31) = W18 m ρ c (Proc.devRef .tc main_v31) := by
  dsimp only [W21, W20, W19, hostOps5, hostOps5_1, hostOps5_2]
  after_results_simp

set_option maxHeartbeats 4000000 in
theorem A_main_v109 (c : Dev nD) : W21 m ρ c (Proc.devRef .tc main_v109) = W18 m ρ c (Proc.devRef .tc main_v109) := by
  dsimp only [W21, W20, W19, hostOps5, hostOps5_1, hostOps5_2]
  after_results_simp

/-- The weight launch reads the padded source scores through an input window and leaves them as they were. -/
theorem E_main_v31 (c : Dev nD) : W22 m ρ c (Proc.devRef .tc main_v31) = W21 m ρ c (Proc.devRef .tc main_v31) :=
  (W22_arr m ρ c 0).trans (((dat5 (V21 m ρ) c).arrAt_in 0 rfl _).trans (A_eq5 (V21 m ρ) c 0))

theorem E_out (c : Dev nD) : W22 m ρ c (Proc.devRef .tc main_v125) = edgeW (W21 m ρ c (Proc.devRef .tc main_v31)) (W21 m ρ c (Proc.devRef .tc main_v124)) :=
  (W22_arr m ρ c 2).trans (Reg5.final (V21 m ρ) c)

set_option maxHeartbeats 4000000 in
theorem B_num (c : Dev nD) : W23 m ρ c (Proc.devRef .tc main_v147) = hopNum (W22 m ρ c (Proc.devRef .tc main_v1)) (W22 m ρ c (Proc.devRef .tc main_v3)) (W22 m ρ c (Proc.devRef .tc main_v4)) (W22 m ρ c (Proc.devRef .tc main_v109)) (W22 m ρ c (Proc.devRef .tc main_v21)) (W22 m ρ c (Proc.devRef .tc main_v125)) := by
  dsimp only [W23, hostOps6]
  after_results_simp
  rfl

set_option maxHeartbeats 4000000 in
theorem B_div (c : Dev nD) : W23 m ρ c (Proc.devRef .tc main_v132) = hopDiv (W22 m ρ c (Proc.devRef .tc main_v1)) (W22 m ρ c (Proc.devRef .tc main_v21)) (W22 m ρ c (Proc.devRef .tc main_v125)) := by
  dsimp only [W23, hostOps6]
  after_results_simp
  rfl

set_option maxHeartbeats 4000000 in
theorem B_main_v1 (c : Dev nD) : W23 m ρ c (Proc.devRef .tc main_v1) = W22 m ρ c (Proc.devRef .tc main_v1) := by
  dsimp only [W23, hostOps6]
  after_results_simp

set_option maxHeartbeats 4000000 in
theorem B_main_v3 (c : Dev nD) : W23 m ρ c (Proc.devRef .tc main_v3) = W22 m ρ c (Proc.devRef .tc main_v3) := by
  dsimp only [W23, hostOps6]
  after_results_simp

set_option maxHeartbeats 4000000 in
theorem B_main_v4 (c : Dev nD) : W23 m ρ c (Proc.devRef .tc main_v4) = W22 m ρ c (Proc.devRef .tc main_v4) := by
  dsimp only [W23, hostOps6]
  after_results_simp

set_option maxHeartbeats 4000000 in
theorem B_main_arg5 (c : Dev nD) : W23 m ρ c (Proc.devRef .tc main_arg5) = W22 m ρ c (Proc.devRef .tc main_arg5) := by
  dsimp only [W23, hostOps6]
  after_results_simp

set_option maxHeartbeats 4000000 in
theorem B_main_arg6 (c : Dev nD) : W23 m ρ c (Proc.devRef .tc main_arg6) = W22 m ρ c (Proc.devRef .tc main_arg6) := by
  dsimp only [W23, hostOps6]
  after_results_simp

set_option maxHeartbeats 4000000 in
theorem B_main_arg7 (c : Dev nD) : W23 m ρ c (Proc.devRef .tc main_arg7) = W22 m ρ c (Proc.devRef .tc main_arg7) := by
  dsimp only [W23, hostOps6]
  after_results_simp

set_option maxHeartbeats 4000000 in
theorem B_main_v21 (c : Dev nD) : W23 m ρ c (Proc.devRef .tc main_v21) = W22 m ρ c (Proc.devRef .tc main_v21) := by
  dsimp only [W23, hostOps6]
  after_results_simp

set_option maxHeartbeats 4000000 in
theorem B_main_v31 (c : Dev nD) : W23 m ρ c (Proc.devRef .tc main_v31) = W22 m ρ c (Proc.devRef .tc main_v31) := by
  dsimp only [W23, hostOps6]
  after_results_simp

theorem N_out (c : Dev nD) : W24 m ρ c (Proc.devRef .tc main_v148) = normW (W23 m ρ c (Proc.devRef .tc main_v147)) (W23 m ρ c (Proc.devRef .tc main_v132)) :=
  (W24_arr m ρ c 2).trans (Reg6.final (V23 m ρ) c)

/-- The features after hop 3 are the hop function of the contents at its start. -/
theorem out (c : Dev nD) : W24 m ρ c (Proc.devRef .tc main_v148)
    = kerHop (W18 m ρ c (Proc.devRef .tc main_v1)) (W18 m ρ c (Proc.devRef .tc main_v3)) (W18 m ρ c (Proc.devRef .tc main_v4)) (W18 m ρ c (Proc.devRef .tc main_v109)) (W18 m ρ c (Proc.devRef .tc main_v21)) (W18 m ρ c (Proc.devRef .tc main_v31)) (W18 m ρ c (Proc.devRef .tc main_arg5)) := by
  rw [N_out, B_num, B_div, E_out]
  rw [W22_of_ne m ρ c main_v1 (by decide), W22_of_ne m ρ c main_v3 (by decide), W22_of_ne m ρ c main_v4 (by decide), W22_of_ne m ρ c main_v109 (by decide), W22_of_ne m ρ c main_v21 (by decide)]
  rw [A_ht, A_main_v21, A_main_v31, A_main_v1, A_main_v3, A_main_v4, A_main_v109]
  rfl

theorem keep_main_v1 (c : Dev nD) : W24 m ρ c (Proc.devRef .tc main_v1) = W18 m ρ c (Proc.devRef .tc main_v1) := by
  rw [W24_of_ne m ρ c main_v1 (by decide), B_main_v1, W22_of_ne m ρ c main_v1 (by decide), A_main_v1]

theorem keep_main_v3 (c : Dev nD) : W24 m ρ c (Proc.devRef .tc main_v3) = W18 m ρ c (Proc.devRef .tc main_v3) := by
  rw [W24_of_ne m ρ c main_v3 (by decide), B_main_v3, W22_of_ne m ρ c main_v3 (by decide), A_main_v3]

theorem keep_main_v4 (c : Dev nD) : W24 m ρ c (Proc.devRef .tc main_v4) = W18 m ρ c (Proc.devRef .tc main_v4) := by
  rw [W24_of_ne m ρ c main_v4 (by decide), B_main_v4, W22_of_ne m ρ c main_v4 (by decide), A_main_v4]

theorem keep_main_arg5 (c : Dev nD) : W24 m ρ c (Proc.devRef .tc main_arg5) = W18 m ρ c (Proc.devRef .tc main_arg5) := by
  rw [W24_of_ne m ρ c main_arg5 (by decide), B_main_arg5, W22_of_ne m ρ c main_arg5 (by decide), A_main_arg5]

theorem keep_main_arg6 (c : Dev nD) : W24 m ρ c (Proc.devRef .tc main_arg6) = W18 m ρ c (Proc.devRef .tc main_arg6) := by
  rw [W24_of_ne m ρ c main_arg6 (by decide), B_main_arg6, W22_of_ne m ρ c main_arg6 (by decide), A_main_arg6]

theorem keep_main_arg7 (c : Dev nD) : W24 m ρ c (Proc.devRef .tc main_arg7) = W18 m ρ c (Proc.devRef .tc main_arg7) := by
  rw [W24_of_ne m ρ c main_arg7 (by decide), B_main_arg7, W22_of_ne m ρ c main_arg7 (by decide), A_main_arg7]

theorem keep_main_v21 (c : Dev nD) : W24 m ρ c (Proc.devRef .tc main_v21) = W18 m ρ c (Proc.devRef .tc main_v21) := by
  rw [W24_of_ne m ρ c main_v21 (by decide), B_main_v21, W22_of_ne m ρ c main_v21 (by decide), A_main_v21]

theorem keep_main_v31 (c : Dev nD) : W24 m ρ c (Proc.devRef .tc main_v31) = W18 m ρ c (Proc.devRef .tc main_v31) := by
  rw [W24_of_ne m ρ c main_v31 (by decide), B_main_v31, E_main_v31, A_main_v31]

end Cert.KernelIdeal.KHop3

end
-- ==== Proof.Reg7.lean ====
/-
  Launch 7 (the per-edge attention weight) on the whole array. Its grid has two points; point t loads rows
  3128·t … 3128·t + 3127 of both score arrays, all 128 columns, and writes the same rows of the weight array. The two
  blocks cover the 6256 rows, and a block of the result is the pointwise function of the same block of the inputs,
  so after the launch the weight array is the pointwise function of the two score arrays as the launch found them.
-/
import proofs.«105152_j14491219657222_1_alg».proof.Proof.KernelIdealFrameP
import proofs.«105152_j14491219657222_1_alg».proof.Proof.KernelFns
import Idealize.ShloMosaic.Lib.Pipeline.Value

set_option maxRecDepth 16384

noncomputable section

namespace Cert.KernelIdeal.Reg7

open Cert.KernelIdeal Cert.KernelIdeal.Gen Cert.KernelIdeal.GenP Cert.KernelIdeal.Fns
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- Decided over the two grid points: both inputs' blocks move with the output's, whose row index is the point
    and whose column index is 0. -/
theorem idx_facts : ∀ t : Fin cfg7.N, win7_0.index t (0 : Fin 2) = win7_2.index t (0 : Fin 2) + 0
    ∧ win7_0.index t (1 : Fin 2) = win7_2.index t (1 : Fin 2) + 0
    ∧ win7_1.index t (0 : Fin 2) = win7_2.index t (0 : Fin 2) + 0
    ∧ win7_1.index t (1 : Fin 2) = win7_2.index t (1 : Fin 2) + 0
    ∧ 0 ≤ win7_2.index t (0 : Fin 2) ∧ win7_2.index t (0 : Fin 2) ≤ 1
    ∧ 0 ≤ win7_2.index t (1 : Fin 2) ∧ win7_2.index t (1 : Fin 2) ≤ 0 :=
  (by decide +kernel : ∀ t : Fin grid7.N, _)

/-- Every row block is some point's. -/
theorem idx_onto : ∀ (q0 : Fin 2) (q1 : Fin 1), ∃ t : Fin cfg7.N, win7_2.index t = ![q0.val + 0, q1.val + 0] :=
  (by decide +kernel : ∀ (q0 : Fin 2) (q1 : Fin 1), ∃ t : Fin grid7.N, win7_2.index t = ![q0.val + 0, q1.val + 0])

/-- What point t writes back is block t of the pointwise function of the two arrays. -/
theorem flushed_eq (c : Dev nD) (t : Fin cfg7.N) :
    (dat7 V c).flushed 2 t = ((cfg7.win 2).blk t).view.read (Elt F) (edgeW (V c main_v31) (V c main_v163)) := by
  show (cfg7.win 2).cut (grid7.coords t) ((dat7 V c).after 2 t) = _
  rw [after7_2]
  unfold out7_2
  rw [View.canon_unit_zero hz]
  simp only [View.ld_unit_zero (S := S3128x128) hz]
  rw [pay7]
  obtain ⟨e0, e1, e2, e3, e4, e5, e6, e7⟩ := idx_facts t
  funext j
  show edgeS (V c main_v31 (((cfg7.win 0).blk t).view.emb j)) (V c main_v163 (((cfg7.win 1).blk t).view.emb j))
     = edgeS (V c main_v31 (((cfg7.win 2).blk t).view.emb j)) (V c main_v163 (((cfg7.win 2).blk t).view.emb j))
  have h0 : ((cfg7.win 0).blk t).view.emb j = ((cfg7.win 2).blk t).view.emb j := by
    funext a; apply Fin.ext
    match a with
    | ⟨0, _⟩ => show win7_0.index t (0 : Fin 2) * 3128 + 1 * (j 0).val = win7_2.index t (0 : Fin 2) * 3128 + 1 * (j 0).val; omega
    | ⟨1, _⟩ => show win7_0.index t (1 : Fin 2) * 128 + 1 * (j 1).val = win7_2.index t (1 : Fin 2) * 128 + 1 * (j 1).val; omega
  have h1 : ((cfg7.win 1).blk t).view.emb j = ((cfg7.win 2).blk t).view.emb j := by
    funext a; apply Fin.ext
    match a with
    | ⟨0, _⟩ => show win7_1.index t (0 : Fin 2) * 3128 + 1 * (j 0).val = win7_2.index t (0 : Fin 2) * 3128 + 1 * (j 0).val; omega
    | ⟨1, _⟩ => show win7_1.index t (1 : Fin 2) * 128 + 1 * (j 1).val = win7_2.index t (1 : Fin 2) * 128 + 1 * (j 1).val; omega
  rw [h0, h1] <;> rfl

/-- An entry is in point t's block iff each coordinate is in the block's range on its axis. -/
theorem mem_blk (t : Fin cfg7.N) (i : S6256x128.Idx) :
    i ∈ ((cfg7.win 2).blk t).view.set ↔ ∀ a : Fin 2, win7_2.index t a * S3128x128.size a ≤ (i a).val ∧ (i a).val < win7_2.index t a * S3128x128.size a + S3128x128.size a := by
  show i ∈ ((View.whole main_v164).slice (win7_2.rect t)).set ↔ _
  rw [View.set_slice_whole, Rect.mem_set_unit]
  exact Iff.rfl

/-- Row r is in the block of point r / 3128. -/
theorem cover (i : S6256x128.Idx) : ∃ t : Fin cfg7.N, (cfg7.win 2).flush t = true ∧ i ∈ ((cfg7.win 2).blk t).view.set := by
  have hi0 : (i 0).val < 6256 := (i 0).isLt
  have hi1 : (i 1).val < 128 := (i 1).isLt
  obtain ⟨t, ht⟩ := idx_onto ⟨(i 0).val / 3128, by omega⟩ ⟨(i 1).val / 128, by omega⟩
  have q0 : win7_2.index t (0 : Fin 2) = (i 0).val / 3128 + 0 := congrFun ht 0
  have q1 : win7_2.index t (1 : Fin 2) = (i 1).val / 128 + 0 := congrFun ht 1
  refine ⟨t, flush7_2 t, ?_⟩
  rw [mem_blk]
  intro a
  match a with
  | ⟨0, _⟩ => show win7_2.index t (0 : Fin 2) * 3128 ≤ (i 0).val ∧ (i 0).val < win7_2.index t (0 : Fin 2) * 3128 + 3128; omega
  | ⟨1, _⟩ => show win7_2.index t (1 : Fin 2) * 128 ≤ (i 1).val ∧ (i 1).val < win7_2.index t (1 : Fin 2) * 128 + 128; omega

/-- After the launch the weight array is the pointwise function of the two score arrays. -/
theorem final (c : Dev nD) : (dat7 V c).arrAt 2 cfg7.N = edgeW (V c main_v31) (V c main_v163) :=
  (dat7 V c).arrAt_eq_of_cover 2 _ (fun t _ => flushed_eq V c t) cover

end Cert.KernelIdeal.Reg7

end
-- ==== Proof.Reg8.lean ====
/-
  Launch 8 (the per-node normalization) on the whole array. Its grid has 25 points; point t loads rows
  2000·t … 2000·t + 1999 of the numerator (96 columns) and of the divisor (one column) and writes the same rows of
  the result. The 25 blocks cover the 50000 rows, and an entry of the result's block is the normalization of the
  numerator's entry against its row's divisor, so after the launch the result array is that function of the two
  arrays as the launch found them.
-/
import proofs.«105152_j14491219657222_1_alg».proof.Proof.KernelIdealFrameP
import proofs.«105152_j14491219657222_1_alg».proof.Proof.KernelFns
import Idealize.ShloMosaic.Lib.Pipeline.Value

set_option maxRecDepth 16384

noncomputable section

namespace Cert.KernelIdeal.Reg8

open Cert.KernelIdeal Cert.KernelIdeal.Gen Cert.KernelIdeal.GenP Cert.KernelIdeal.Fns
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- Decided over the 25 grid points: both inputs' blocks move with the output's, whose row index is the point and
    whose column index is 0. -/
theorem idx_facts : ∀ t : Fin cfg8.N, win8_0.index t (0 : Fin 2) = win8_2.index t (0 : Fin 2) + 0
    ∧ win8_0.index t (1 : Fin 2) = win8_2.index t (1 : Fin 2) + 0
    ∧ win8_1.index t (0 : Fin 2) = win8_2.index t (0 : Fin 2) + 0
    ∧ win8_1.index t (1 : Fin 2) = win8_2.index t (1 : Fin 2) + 0
    ∧ 0 ≤ win8_2.index t (0 : Fin 2) ∧ win8_2.index t (0 : Fin 2) ≤ 24
    ∧ 0 ≤ win8_2.index t (1 : Fin 2) ∧ win8_2.index t (1 : Fin 2) ≤ 0 :=
  (by decide +kernel : ∀ t : Fin grid8.N, _)

/-- Every row block is some point's. -/
theorem idx_onto : ∀ (q0 : Fin 25) (q1 : Fin 1), ∃ t : Fin cfg8.N, win8_2.index t = ![q0.val + 0, q1.val + 0] :=
  (by decide +kernel : ∀ (q0 : Fin 25) (q1 : Fin 1), ∃ t : Fin grid8.N, win8_2.index t = ![q0.val + 0, q1.val + 0])

/-- What point t writes back is block t of the normalization of the two arrays. -/
theorem flushed_eq (c : Dev nD) (t : Fin cfg8.N) :
    (dat8 V c).flushed 2 t = ((cfg8.win 2).blk t).view.read (Elt F) (normW (V c main_v186) (V c main_v171)) := by
  show (cfg8.win 2).cut (grid8.coords t) ((dat8 V c).after 2 t) = _
  rw [after8_2]
  unfold out8_2
  rw [View.canon_unit_zero hz]
  simp only [View.ld_unit_zero (S := S2000x96) hz, View.ld_unit_zero (S := S2000x1) hz]
  rw [pay8]
  obtain ⟨e0, e1, e2, e3, e4, e5, e6, e7⟩ := idx_facts t
  funext j
  show normS (V c main_v186 (((cfg8.win 0).blk t).view.emb j)) (V c main_v171 (((cfg8.win 1).blk t).view.emb (ix2 (j 0) (0 : Fin 1))))
     = normS (V c main_v186 (((cfg8.win 2).blk t).view.emb j)) (V c main_v171 (ix2 ((((cfg8.win 2).blk t).view.emb j) 0) (0 : Fin 1)))
  have h0 : ((cfg8.win 0).blk t).view.emb j = ((cfg8.win 2).blk t).view.emb j := by
    funext a; apply Fin.ext
    match a with
    | ⟨0, _⟩ => show win8_0.index t (0 : Fin 2) * 2000 + 1 * (j 0).val = win8_2.index t (0 : Fin 2) * 2000 + 1 * (j 0).val; omega
    | ⟨1, _⟩ => show win8_0.index t (1 : Fin 2) * 96 + 1 * (j 1).val = win8_2.index t (1 : Fin 2) * 96 + 1 * (j 1).val; omega
  have h1 : ((cfg8.win 1).blk t).view.emb (ix2 (j 0) (0 : Fin 1)) = ix2 ((((cfg8.win 2).blk t).view.emb j) 0) (0 : Fin 1) := by
    funext a; apply Fin.ext
    match a with
    | ⟨0, _⟩ => show win8_1.index t (0 : Fin 2) * 2000 + 1 * (j 0).val = win8_2.index t (0 : Fin 2) * 2000 + 1 * (j 0).val; omega
    | ⟨1, _⟩ => show win8_1.index t (1 : Fin 2) * 1 + 1 * 0 = 0; omega
  rw [h0, h1] <;> rfl

/-- An entry is in point t's block iff each coordinate is in the block's range on its axis. -/
theorem mem_blk (t : Fin cfg8.N) (i : S50000x96.Idx) :
    i ∈ ((cfg8.win 2).blk t).view.set ↔ ∀ a : Fin 2, win8_2.index t a * S2000x96.size a ≤ (i a).val ∧ (i a).val < win8_2.index t a * S2000x96.size a + S2000x96.size a := by
  show i ∈ ((View.whole main_v187).slice (win8_2.rect t)).set ↔ _
  rw [View.set_slice_whole, Rect.mem_set_unit]
  exact Iff.rfl

/-- Row r is in the block of point r / 2000. -/
theorem cover (i : S50000x96.Idx) : ∃ t : Fin cfg8.N, (cfg8.win 2).flush t = true ∧ i ∈ ((cfg8.win 2).blk t).view.set := by
  have hi0 : (i 0).val < 50000 := (i 0).isLt
  have hi1 : (i 1).val < 96 := (i 1).isLt
  obtain ⟨t, ht⟩ := idx_onto ⟨(i 0).val / 2000, by omega⟩ ⟨(i 1).val / 96, by omega⟩
  have q0 : win8_2.index t (0 : Fin 2) = (i 0).val / 2000 + 0 := congrFun ht 0
  have q1 : win8_2.index t (1 : Fin 2) = (i 1).val / 96 + 0 := congrFun ht 1
  refine ⟨t, flush8_2 t, ?_⟩
  rw [mem_blk]
  intro a
  match a with
  | ⟨0, _⟩ => show win8_2.index t (0 : Fin 2) * 2000 ≤ (i 0).val ∧ (i 0).val < win8_2.index t (0 : Fin 2) * 2000 + 2000; omega
  | ⟨1, _⟩ => show win8_2.index t (1 : Fin 2) * 96 ≤ (i 1).val ∧ (i 1).val < win8_2.index t (1 : Fin 2) * 96 + 96; omega

/-- After the launch the result array is the normalization of the numerator array against the divisor column. -/
theorem final (c : Dev nD) : (dat8 V c).arrAt 2 cfg8.N = normW (V c main_v186) (V c main_v171) :=
  (dat8 V c).arrAt_eq_of_cover 2 _ (fun t _ => flushed_eq V c t) cover

end Cert.KernelIdeal.Reg8

end
-- ==== Proof.KHop4.lean ====
/-
  Hop 4 of the kernel program, from the buffer contents at its start to those at its end: the host stretch that
  gathers and pads the target scores, the weight launch, the host stretch of the two scatter-adds, the
  normalization launch. Each stretch leaves its function of the buffers it reads and keeps the others; each launch
  writes its result array and keeps every other buffer. Chained: the features after the hop are the hop function of
  the features before it, and the index rows, the projected features, the self-loop weight, the padded source scores
  and the arguments are as before.
-/
import proofs.«105152_j14491219657222_1_alg».proof.Proof.KernelIdealFrameP
import proofs.«105152_j14491219657222_1_alg».proof.Proof.KernelHostFns
import proofs.«105152_j14491219657222_1_alg».proof.Proof.Reg7
import proofs.«105152_j14491219657222_1_alg».proof.Proof.Reg8
import Idealize.ShloMosaic.Lib.StableHlo.Run

set_option maxRecDepth 16384

noncomputable section

namespace Cert.KernelIdeal.KHop4

open Cert.KernelIdeal Cert.KernelIdeal.Gen Cert.KernelIdeal.GenP Cert.KernelIdeal.Fns
open Idealize.ShloMosaic Idealize.ShloMosaic.TcCoe Idealize.ShloMosaic.StableHlo
open Idealize.SL Idealize.SL.Sem

variable {F : FTy → Type} [FloatOps F]
variable (m : (ℓ : Loc nD τ sig) → Buf (Elt F) ℓ) (ρ : Dev nD → PrngReg)

set_option maxHeartbeats 4000000 in
theorem A_ht (c : Dev nD) : W27 m ρ c (Proc.devRef .tc main_v163) = tgtPad (W24 m ρ c (Proc.devRef .tc main_v3)) (W24 m ρ c (Proc.devRef .tc main_v148)) (W24 m ρ c (Proc.devRef .tc main_arg5)) := by
  dsimp only [W27, W26, W25, hostOps7, hostOps7_1, hostOps7_2]
  after_results_simp
  rfl

set_option maxHeartbeats 4000000 in
theorem A_main_v1 (c : Dev nD) : W27 m ρ c (Proc.devRef .tc main_v1) = W24 m ρ c (Proc.devRef .tc main_v1) := by
  dsimp only [W27, W26, W25, hostOps7, hostOps7_1, hostOps7_2]
  after_results_simp

set_option maxHeartbeats 4000000 in
theorem A_main_v3 (c : Dev nD) : W27 m ρ c (Proc.devRef .tc main_v3) = W24 m ρ c (Proc.devRef .tc main_v3) := by
  dsimp only [W27, W26, W25, hostOps7, hostOps7_1, hostOps7_2]
  after_results_simp

set_option maxHeartbeats 4000000 in
theorem A_main_v4 (c : Dev nD) : W27 m ρ c (Proc.devRef .tc main_v4) = W24 m ρ c (Proc.devRef .tc main_v4) := by
  dsimp only [W27, W26, W25, hostOps7, hostOps7_1, hostOps7_2]
  after_results_simp

set_option maxHeartbeats 4000000 in
theorem A_main_arg5 (c : Dev nD) : W27 m ρ c (Proc.devRef .tc main_arg5) = W24 m ρ c (Proc.devRef .tc main_arg5) := by
  dsimp only [W27, W26, W25, hostOps7, hostOps7_1, hostOps7_2]
  after_results_simp

set_option maxHeartbeats 4000000 in
theorem A_main_arg6 (c : Dev nD) : W27 m ρ c (Proc.devRef .tc main_arg6) = W24 m ρ c (Proc.devRef .tc main_arg6) := by
  dsimp only [W27, W26, W25, hostOps7, hostOps7_1, hostOps7_2]
  after_results_simp

set_option maxHeartbeats 4000000 in
theorem A_main_arg7 (c : Dev nD) : W27 m ρ c (Proc.devRef .tc main_arg7) = W24 m ρ c (Proc.devRef .tc main_arg7) := by
  dsimp only [W27, W26, W25, hostOps7, hostOps7_1, hostOps7_2]
  after_results_simp

set_option maxHeartbeats 4000000 in
theorem A_main_v21 (c : Dev nD) : W27 m ρ c (Proc.devRef .tc main_v21) = W24 m ρ c (Proc.devRef .tc main_v21) := by
  dsimp only [W27, W26, W25, hostOps7, hostOps7_1, hostOps7_2]
  after_results_simp

set_option maxHeartbeats 4000000 in
theorem A_main_v31 (c : Dev nD) : W27 m ρ c (Proc.devRef .tc main_v31) = W24 m ρ c (Proc.devRef .tc main_v31) := by
  dsimp only [W27, W26, W25, hostOps7, hostOps7_1, hostOps7_2]
  after_results_simp

set_option maxHeartbeats 4000000 in
theorem A_main_v148 (c : Dev nD) : W27 m ρ c (Proc.devRef .tc main_v148) = W24 m ρ c (Proc.devRef .tc main_v148) := by
  dsimp only [W27, W26, W25, hostOps7, hostOps7_1, hostOps7_2]
  after_results_simp

/-- The weight launch reads the padded source scores through an input window and leaves them as they were. -/
theorem E_main_v31 (c : Dev nD) : W28 m ρ c (Proc.devRef .tc main_v31) = W27 m ρ c (Proc.devRef .tc main_v31) :=
  (W28_arr m ρ c 0).trans (((dat7 (V27 m ρ) c).arrAt_in 0 rfl _).trans (A_eq7 (V27 m ρ) c 0))

theorem E_out (c : Dev nD) : W28 m ρ c (Proc.devRef .tc main_v164) = edgeW (W27 m ρ c (Proc.devRef .tc main_v31)) (W27 m ρ c (Proc.devRef .tc main_v163)) :=
  (W28_arr m ρ c 2).trans (Reg7.final (V27 m ρ) c)

set_option maxHeartbeats 4000000 in
theorem B_num (c : Dev nD) : W29 m ρ c (Proc.devRef .tc main_v186) = hopNum (W28 m ρ c (Proc.devRef .tc main_v1)) (W28 m ρ c (Proc.devRef .tc main_v3)) (W28 m ρ c (Proc.devRef .tc main_v4)) (W28 m ρ c (Proc.devRef .tc main_v148)) (W28 m ρ c (Proc.devRef .tc main_v21)) (W28 m ρ c (Proc.devRef .tc main_v164)) := by
  dsimp only [W29, hostOps8]
  after_results_simp
  rfl

set_option maxHeartbeats 4000000 in
theorem B_div (c : Dev nD) : W29 m ρ c (Proc.devRef .tc main_v171) = hopDiv (W28 m ρ c (Proc.devRef .tc main_v1)) (W28 m ρ c (Proc.devRef .tc main_v21)) (W28 m ρ c (Proc.devRef .tc main_v164)) := by
  dsimp only [W29, hostOps8]
  after_results_simp
  rfl

set_option maxHeartbeats 4000000 in
theorem B_main_v1 (c : Dev nD) : W29 m ρ c (Proc.devRef .tc main_v1) = W28 m ρ c (Proc.devRef .tc main_v1) := by
  dsimp only [W29, hostOps8]
  after_results_simp

set_option maxHeartbeats 4000000 in
theorem B_main_v3 (c : Dev nD) : W29 m ρ c (Proc.devRef .tc main_v3) = W28 m ρ c (Proc.devRef .tc main_v3) := by
  dsimp only [W29, hostOps8]
  after_results_simp

set_option maxHeartbeats 4000000 in
theorem B_main_v4 (c : Dev nD) : W29 m ρ c (Proc.devRef .tc main_v4) = W28 m ρ c (Proc.devRef .tc main_v4) := by
  dsimp only [W29, hostOps8]
  after_results_simp

set_option maxHeartbeats 4000000 in
theorem B_main_arg5 (c : Dev nD) : W29 m ρ c (Proc.devRef .tc main_arg5) = W28 m ρ c (Proc.devRef .tc main_arg5) := by
  dsimp only [W29, hostOps8]
  after_results_simp

set_option maxHeartbeats 4000000 in
theorem B_main_arg6 (c : Dev nD) : W29 m ρ c (Proc.devRef .tc main_arg6) = W28 m ρ c (Proc.devRef .tc main_arg6) := by
  dsimp only [W29, hostOps8]
  after_results_simp

set_option maxHeartbeats 4000000 in
theorem B_main_arg7 (c : Dev nD) : W29 m ρ c (Proc.devRef .tc main_arg7) = W28 m ρ c (Proc.devRef .tc main_arg7) := by
  dsimp only [W29, hostOps8]
  after_results_simp

set_option maxHeartbeats 4000000 in
theorem B_main_v21 (c : Dev nD) : W29 m ρ c (Proc.devRef .tc main_v21) = W28 m ρ c (Proc.devRef .tc main_v21) := by
  dsimp only [W29, hostOps8]
  after_results_simp

set_option maxHeartbeats 4000000 in
theorem B_main_v31 (c : Dev nD) : W29 m ρ c (Proc.devRef .tc main_v31) = W28 m ρ c (Proc.devRef .tc main_v31) := by
  dsimp only [W29, hostOps8]
  after_results_simp

theorem N_out (c : Dev nD) : W30 m ρ c (Proc.devRef .tc main_v187) = normW (W29 m ρ c (Proc.devRef .tc main_v186)) (W29 m ρ c (Proc.devRef .tc main_v171)) :=
  (W30_arr m ρ c 2).trans (Reg8.final (V29 m ρ) c)

/-- The features after hop 4 are the hop function of the contents at its start. -/
theorem out (c : Dev nD) : W30 m ρ c (Proc.devRef .tc main_v187)
    = kerHop (W24 m ρ c (Proc.devRef .tc main_v1)) (W24 m ρ c (Proc.devRef .tc main_v3)) (W24 m ρ c (Proc.devRef .tc main_v4)) (W24 m ρ c (Proc.devRef .tc main_v148)) (W24 m ρ c (Proc.devRef .tc main_v21)) (W24 m ρ c (Proc.devRef .tc main_v31)) (W24 m ρ c (Proc.devRef .tc main_arg5)) := by
  rw [N_out, B_num, B_div, E_out]
  rw [W28_of_ne m ρ c main_v1 (by decide), W28_of_ne m ρ c main_v3 (by decide), W28_of_ne m ρ c main_v4 (by decide), W28_of_ne m ρ c main_v148 (by decide), W28_of_ne m ρ c main_v21 (by decide)]
  rw [A_ht, A_main_v21, A_main_v31, A_main_v1, A_main_v3, A_main_v4, A_main_v148]
  rfl

theorem keep_main_v1 (c : Dev nD) : W30 m ρ c (Proc.devRef .tc main_v1) = W24 m ρ c (Proc.devRef .tc main_v1) := by
  rw [W30_of_ne m ρ c main_v1 (by decide), B_main_v1, W28_of_ne m ρ c main_v1 (by decide), A_main_v1]

theorem keep_main_v3 (c : Dev nD) : W30 m ρ c (Proc.devRef .tc main_v3) = W24 m ρ c (Proc.devRef .tc main_v3) := by
  rw [W30_of_ne m ρ c main_v3 (by decide), B_main_v3, W28_of_ne m ρ c main_v3 (by decide), A_main_v3]

theorem keep_main_v4 (c : Dev nD) : W30 m ρ c (Proc.devRef .tc main_v4) = W24 m ρ c (Proc.devRef .tc main_v4) := by
  rw [W30_of_ne m ρ c main_v4 (by decide), B_main_v4, W28_of_ne m ρ c main_v4 (by decide), A_main_v4]

theorem keep_main_arg5 (c : Dev nD) : W30 m ρ c (Proc.devRef .tc main_arg5) = W24 m ρ c (Proc.devRef .tc main_arg5) := by
  rw [W30_of_ne m ρ c main_arg5 (by decide), B_main_arg5, W28_of_ne m ρ c main_arg5 (by decide), A_main_arg5]

theorem keep_main_arg6 (c : Dev nD) : W30 m ρ c (Proc.devRef .tc main_arg6) = W24 m ρ c (Proc.devRef .tc main_arg6) := by
  rw [W30_of_ne m ρ c main_arg6 (by decide), B_main_arg6, W28_of_ne m ρ c main_arg6 (by decide), A_main_arg6]

theorem keep_main_arg7 (c : Dev nD) : W30 m ρ c (Proc.devRef .tc main_arg7) = W24 m ρ c (Proc.devRef .tc main_arg7) := by
  rw [W30_of_ne m ρ c main_arg7 (by decide), B_main_arg7, W28_of_ne m ρ c main_arg7 (by decide), A_main_arg7]

theorem keep_main_v21 (c : Dev nD) : W30 m ρ c (Proc.devRef .tc main_v21) = W24 m ρ c (Proc.devRef .tc main_v21) := by
  rw [W30_of_ne m ρ c main_v21 (by decide), B_main_v21, W28_of_ne m ρ c main_v21 (by decide), A_main_v21]

theorem keep_main_v31 (c : Dev nD) : W30 m ρ c (Proc.devRef .tc main_v31) = W24 m ρ c (Proc.devRef .tc main_v31) := by
  rw [W30_of_ne m ρ c main_v31 (by decide), B_main_v31, E_main_v31, A_main_v31]

end Cert.KernelIdeal.KHop4

end
-- ==== Proof.Reg9.lean ====
/-
  Launch 9 (the per-edge attention weight) on the whole array. Its grid has two points; point t loads rows
  3128·t … 3128·t + 3127 of both score arrays, all 128 columns, and writes the same rows of the weight array. The two
  blocks cover the 6256 rows, and a block of the result is the pointwise function of the same block of the inputs,
  so after the launch the weight array is the pointwise function of the two score arrays as the launch found them.
-/
import proofs.«105152_j14491219657222_1_alg».proof.Proof.KernelIdealFrameP
import proofs.«105152_j14491219657222_1_alg».proof.Proof.KernelFns
import Idealize.ShloMosaic.Lib.Pipeline.Value

set_option maxRecDepth 16384

noncomputable section

namespace Cert.KernelIdeal.Reg9

open Cert.KernelIdeal Cert.KernelIdeal.Gen Cert.KernelIdeal.GenP Cert.KernelIdeal.Fns
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- Decided over the two grid points: both inputs' blocks move with the output's, whose row index is the point
    and whose column index is 0. -/
theorem idx_facts : ∀ t : Fin cfg9.N, win9_0.index t (0 : Fin 2) = win9_2.index t (0 : Fin 2) + 0
    ∧ win9_0.index t (1 : Fin 2) = win9_2.index t (1 : Fin 2) + 0
    ∧ win9_1.index t (0 : Fin 2) = win9_2.index t (0 : Fin 2) + 0
    ∧ win9_1.index t (1 : Fin 2) = win9_2.index t (1 : Fin 2) + 0
    ∧ 0 ≤ win9_2.index t (0 : Fin 2) ∧ win9_2.index t (0 : Fin 2) ≤ 1
    ∧ 0 ≤ win9_2.index t (1 : Fin 2) ∧ win9_2.index t (1 : Fin 2) ≤ 0 :=
  (by decide +kernel : ∀ t : Fin grid9.N, _)

/-- Every row block is some point's. -/
theorem idx_onto : ∀ (q0 : Fin 2) (q1 : Fin 1), ∃ t : Fin cfg9.N, win9_2.index t = ![q0.val + 0, q1.val + 0] :=
  (by decide +kernel : ∀ (q0 : Fin 2) (q1 : Fin 1), ∃ t : Fin grid9.N, win9_2.index t = ![q0.val + 0, q1.val + 0])

/-- What point t writes back is block t of the pointwise function of the two arrays. -/
theorem flushed_eq (c : Dev nD) (t : Fin cfg9.N) :
    (dat9 V c).flushed 2 t = ((cfg9.win 2).blk t).view.read (Elt F) (edgeW (V c main_v31) (V c main_v202)) := by
  show (cfg9.win 2).cut (grid9.coords t) ((dat9 V c).after 2 t) = _
  rw [after9_2]
  unfold out9_2
  rw [View.canon_unit_zero hz]
  simp only [View.ld_unit_zero (S := S3128x128) hz]
  rw [pay9]
  obtain ⟨e0, e1, e2, e3, e4, e5, e6, e7⟩ := idx_facts t
  funext j
  show edgeS (V c main_v31 (((cfg9.win 0).blk t).view.emb j)) (V c main_v202 (((cfg9.win 1).blk t).view.emb j))
     = edgeS (V c main_v31 (((cfg9.win 2).blk t).view.emb j)) (V c main_v202 (((cfg9.win 2).blk t).view.emb j))
  have h0 : ((cfg9.win 0).blk t).view.emb j = ((cfg9.win 2).blk t).view.emb j := by
    funext a; apply Fin.ext
    match a with
    | ⟨0, _⟩ => show win9_0.index t (0 : Fin 2) * 3128 + 1 * (j 0).val = win9_2.index t (0 : Fin 2) * 3128 + 1 * (j 0).val; omega
    | ⟨1, _⟩ => show win9_0.index t (1 : Fin 2) * 128 + 1 * (j 1).val = win9_2.index t (1 : Fin 2) * 128 + 1 * (j 1).val; omega
  have h1 : ((cfg9.win 1).blk t).view.emb j = ((cfg9.win 2).blk t).view.emb j := by
    funext a; apply Fin.ext
    match a with
    | ⟨0, _⟩ => show win9_1.index t (0 : Fin 2) * 3128 + 1 * (j 0).val = win9_2.index t (0 : Fin 2) * 3128 + 1 * (j 0).val; omega
    | ⟨1, _⟩ => show win9_1.index t (1 : Fin 2) * 128 + 1 * (j 1).val = win9_2.index t (1 : Fin 2) * 128 + 1 * (j 1).val; omega
  rw [h0, h1] <;> rfl

/-- An entry is in point t's block iff each coordinate is in the block's range on its axis. -/
theorem mem_blk (t : Fin cfg9.N) (i : S6256x128.Idx) :
    i ∈ ((cfg9.win 2).blk t).view.set ↔ ∀ a : Fin 2, win9_2.index t a * S3128x128.size a ≤ (i a).val ∧ (i a).val < win9_2.index t a * S3128x128.size a + S3128x128.size a := by
  show i ∈ ((View.whole main_v203).slice (win9_2.rect t)).set ↔ _
  rw [View.set_slice_whole, Rect.mem_set_unit]
  exact Iff.rfl

/-- Row r is in the block of point r / 3128. -/
theorem cover (i : S6256x128.Idx) : ∃ t : Fin cfg9.N, (cfg9.win 2).flush t = true ∧ i ∈ ((cfg9.win 2).blk t).view.set := by
  have hi0 : (i 0).val < 6256 := (i 0).isLt
  have hi1 : (i 1).val < 128 := (i 1).isLt
  obtain ⟨t, ht⟩ := idx_onto ⟨(i 0).val / 3128, by omega⟩ ⟨(i 1).val / 128, by omega⟩
  have q0 : win9_2.index t (0 : Fin 2) = (i 0).val / 3128 + 0 := congrFun ht 0
  have q1 : win9_2.index t (1 : Fin 2) = (i 1).val / 128 + 0 := congrFun ht 1
  refine ⟨t, flush9_2 t, ?_⟩
  rw [mem_blk]
  intro a
  match a with
  | ⟨0, _⟩ => show win9_2.index t (0 : Fin 2) * 3128 ≤ (i 0).val ∧ (i 0).val < win9_2.index t (0 : Fin 2) * 3128 + 3128; omega
  | ⟨1, _⟩ => show win9_2.index t (1 : Fin 2) * 128 ≤ (i 1).val ∧ (i 1).val < win9_2.index t (1 : Fin 2) * 128 + 128; omega

/-- After the launch the weight array is the pointwise function of the two score arrays. -/
theorem final (c : Dev nD) : (dat9 V c).arrAt 2 cfg9.N = edgeW (V c main_v31) (V c main_v202) :=
  (dat9 V c).arrAt_eq_of_cover 2 _ (fun t _ => flushed_eq V c t) cover

end Cert.KernelIdeal.Reg9

end
-- ==== Proof.Reg10.lean ====
/-
  Launch 10 (the per-node normalization) on the whole array. Its grid has 25 points; point t loads rows
  2000·t … 2000·t + 1999 of the numerator (96 columns) and of the divisor (one column) and writes the same rows of
  the result. The 25 blocks cover the 50000 rows, and an entry of the result's block is the normalization of the
  numerator's entry against its row's divisor, so after the launch the result array is that function of the two
  arrays as the launch found them.
-/
import proofs.«105152_j14491219657222_1_alg».proof.Proof.KernelIdealFrameP
import proofs.«105152_j14491219657222_1_alg».proof.Proof.KernelFns
import Idealize.ShloMosaic.Lib.Pipeline.Value

set_option maxRecDepth 16384

noncomputable section

namespace Cert.KernelIdeal.Reg10

open Cert.KernelIdeal Cert.KernelIdeal.Gen Cert.KernelIdeal.GenP Cert.KernelIdeal.Fns
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- Decided over the 25 grid points: both inputs' blocks move with the output's, whose row index is the point and
    whose column index is 0. -/
theorem idx_facts : ∀ t : Fin cfg10.N, win10_0.index t (0 : Fin 2) = win10_2.index t (0 : Fin 2) + 0
    ∧ win10_0.index t (1 : Fin 2) = win10_2.index t (1 : Fin 2) + 0
    ∧ win10_1.index t (0 : Fin 2) = win10_2.index t (0 : Fin 2) + 0
    ∧ win10_1.index t (1 : Fin 2) = win10_2.index t (1 : Fin 2) + 0
    ∧ 0 ≤ win10_2.index t (0 : Fin 2) ∧ win10_2.index t (0 : Fin 2) ≤ 24
    ∧ 0 ≤ win10_2.index t (1 : Fin 2) ∧ win10_2.index t (1 : Fin 2) ≤ 0 :=
  (by decide +kernel : ∀ t : Fin grid10.N, _)

/-- Every row block is some point's. -/
theorem idx_onto : ∀ (q0 : Fin 25) (q1 : Fin 1), ∃ t : Fin cfg10.N, win10_2.index t = ![q0.val + 0, q1.val + 0] :=
  (by decide +kernel : ∀ (q0 : Fin 25) (q1 : Fin 1), ∃ t : Fin grid10.N, win10_2.index t = ![q0.val + 0, q1.val + 0])

/-- What point t writes back is block t of the normalization of the two arrays. -/
theorem flushed_eq (c : Dev nD) (t : Fin cfg10.N) :
    (dat10 V c).flushed 2 t = ((cfg10.win 2).blk t).view.read (Elt F) (normW (V c main_v225) (V c main_v210)) := by
  show (cfg10.win 2).cut (grid10.coords t) ((dat10 V c).after 2 t) = _
  rw [after10_2]
  unfold out10_2
  rw [View.canon_unit_zero hz]
  simp only [View.ld_unit_zero (S := S2000x96) hz, View.ld_unit_zero (S := S2000x1) hz]
  rw [pay10]
  obtain ⟨e0, e1, e2, e3, e4, e5, e6, e7⟩ := idx_facts t
  funext j
  show normS (V c main_v225 (((cfg10.win 0).blk t).view.emb j)) (V c main_v210 (((cfg10.win 1).blk t).view.emb (ix2 (j 0) (0 : Fin 1))))
     = normS (V c main_v225 (((cfg10.win 2).blk t).view.emb j)) (V c main_v210 (ix2 ((((cfg10.win 2).blk t).view.emb j) 0) (0 : Fin 1)))
  have h0 : ((cfg10.win 0).blk t).view.emb j = ((cfg10.win 2).blk t).view.emb j := by
    funext a; apply Fin.ext
    match a with
    | ⟨0, _⟩ => show win10_0.index t (0 : Fin 2) * 2000 + 1 * (j 0).val = win10_2.index t (0 : Fin 2) * 2000 + 1 * (j 0).val; omega
    | ⟨1, _⟩ => show win10_0.index t (1 : Fin 2) * 96 + 1 * (j 1).val = win10_2.index t (1 : Fin 2) * 96 + 1 * (j 1).val; omega
  have h1 : ((cfg10.win 1).blk t).view.emb (ix2 (j 0) (0 : Fin 1)) = ix2 ((((cfg10.win 2).blk t).view.emb j) 0) (0 : Fin 1) := by
    funext a; apply Fin.ext
    match a with
    | ⟨0, _⟩ => show win10_1.index t (0 : Fin 2) * 2000 + 1 * (j 0).val = win10_2.index t (0 : Fin 2) * 2000 + 1 * (j 0).val; omega
    | ⟨1, _⟩ => show win10_1.index t (1 : Fin 2) * 1 + 1 * 0 = 0; omega
  rw [h0, h1] <;> rfl

/-- An entry is in point t's block iff each coordinate is in the block's range on its axis. -/
theorem mem_blk (t : Fin cfg10.N) (i : S50000x96.Idx) :
    i ∈ ((cfg10.win 2).blk t).view.set ↔ ∀ a : Fin 2, win10_2.index t a * S2000x96.size a ≤ (i a).val ∧ (i a).val < win10_2.index t a * S2000x96.size a + S2000x96.size a := by
  show i ∈ ((View.whole main_v226).slice (win10_2.rect t)).set ↔ _
  rw [View.set_slice_whole, Rect.mem_set_unit]
  exact Iff.rfl

/-- Row r is in the block of point r / 2000. -/
theorem cover (i : S50000x96.Idx) : ∃ t : Fin cfg10.N, (cfg10.win 2).flush t = true ∧ i ∈ ((cfg10.win 2).blk t).view.set := by
  have hi0 : (i 0).val < 50000 := (i 0).isLt
  have hi1 : (i 1).val < 96 := (i 1).isLt
  obtain ⟨t, ht⟩ := idx_onto ⟨(i 0).val / 2000, by omega⟩ ⟨(i 1).val / 96, by omega⟩
  have q0 : win10_2.index t (0 : Fin 2) = (i 0).val / 2000 + 0 := congrFun ht 0
  have q1 : win10_2.index t (1 : Fin 2) = (i 1).val / 96 + 0 := congrFun ht 1
  refine ⟨t, flush10_2 t, ?_⟩
  rw [mem_blk]
  intro a
  match a with
  | ⟨0, _⟩ => show win10_2.index t (0 : Fin 2) * 2000 ≤ (i 0).val ∧ (i 0).val < win10_2.index t (0 : Fin 2) * 2000 + 2000; omega
  | ⟨1, _⟩ => show win10_2.index t (1 : Fin 2) * 96 ≤ (i 1).val ∧ (i 1).val < win10_2.index t (1 : Fin 2) * 96 + 96; omega

/-- After the launch the result array is the normalization of the numerator array against the divisor column. -/
theorem final (c : Dev nD) : (dat10 V c).arrAt 2 cfg10.N = normW (V c main_v225) (V c main_v210) :=
  (dat10 V c).arrAt_eq_of_cover 2 _ (fun t _ => flushed_eq V c t) cover

end Cert.KernelIdeal.Reg10

end
-- ==== Proof.KHop5.lean ====
/-
  Hop 5 of the kernel program, from the buffer contents at its start to those at its end: the host stretch that
  gathers and pads the target scores, the weight launch, the host stretch of the two scatter-adds, the
  normalization launch. Each stretch leaves its function of the buffers it reads and keeps the others; each launch
  writes its result array and keeps every other buffer. Chained: the features after the hop are the hop function of
  the features before it, and the index rows, the projected features, the self-loop weight, the padded source scores
  and the arguments are as before.
-/
import proofs.«105152_j14491219657222_1_alg».proof.Proof.KernelIdealFrameP
import proofs.«105152_j14491219657222_1_alg».proof.Proof.KernelHostFns
import proofs.«105152_j14491219657222_1_alg».proof.Proof.Reg9
import proofs.«105152_j14491219657222_1_alg».proof.Proof.Reg10
import Idealize.ShloMosaic.Lib.StableHlo.Run

set_option maxRecDepth 16384

noncomputable section

namespace Cert.KernelIdeal.KHop5

open Cert.KernelIdeal Cert.KernelIdeal.Gen Cert.KernelIdeal.GenP Cert.KernelIdeal.Fns
open Idealize.ShloMosaic Idealize.ShloMosaic.TcCoe Idealize.ShloMosaic.StableHlo
open Idealize.SL Idealize.SL.Sem

variable {F : FTy → Type} [FloatOps F]
variable (m : (ℓ : Loc nD τ sig) → Buf (Elt F) ℓ) (ρ : Dev nD → PrngReg)

set_option maxHeartbeats 4000000 in
theorem A_ht (c : Dev nD) : W33 m ρ c (Proc.devRef .tc main_v202) = tgtPad (W30 m ρ c (Proc.devRef .tc main_v3)) (W30 m ρ c (Proc.devRef .tc main_v187)) (W30 m ρ c (Proc.devRef .tc main_arg5)) := by
  dsimp only [W33, W32, W31, hostOps9, hostOps9_1, hostOps9_2]
  after_results_simp
  rfl

set_option maxHeartbeats 4000000 in
theorem A_main_v1 (c : Dev nD) : W33 m ρ c (Proc.devRef .tc main_v1) = W30 m ρ c (Proc.devRef .tc main_v1) := by
  dsimp only [W33, W32, W31, hostOps9, hostOps9_1, hostOps9_2]
  after_results_simp

set_option maxHeartbeats 4000000 in
theorem A_main_v3 (c : Dev nD) : W33 m ρ c (Proc.devRef .tc main_v3) = W30 m ρ c (Proc.devRef .tc main_v3) := by
  dsimp only [W33, W32, W31, hostOps9, hostOps9_1, hostOps9_2]
  after_results_simp

set_option maxHeartbeats 4000000 in
theorem A_main_v4 (c : Dev nD) : W33 m ρ c (Proc.devRef .tc main_v4) = W30 m ρ c (Proc.devRef .tc main_v4) := by
  dsimp only [W33, W32, W31, hostOps9, hostOps9_1, hostOps9_2]
  after_results_simp

set_option maxHeartbeats 4000000 in
theorem A_main_arg5 (c : Dev nD) : W33 m ρ c (Proc.devRef .tc main_arg5) = W30 m ρ c (Proc.devRef .tc main_arg5) := by
  dsimp only [W33, W32, W31, hostOps9, hostOps9_1, hostOps9_2]
  after_results_simp

set_option maxHeartbeats 4000000 in
theorem A_main_arg6 (c : Dev nD) : W33 m ρ c (Proc.devRef .tc main_arg6) = W30 m ρ c (Proc.devRef .tc main_arg6) := by
  dsimp only [W33, W32, W31, hostOps9, hostOps9_1, hostOps9_2]
  after_results_simp

set_option maxHeartbeats 4000000 in
theorem A_main_arg7 (c : Dev nD) : W33 m ρ c (Proc.devRef .tc main_arg7) = W30 m ρ c (Proc.devRef .tc main_arg7) := by
  dsimp only [W33, W32, W31, hostOps9, hostOps9_1, hostOps9_2]
  after_results_simp

set_option maxHeartbeats 4000000 in
theorem A_main_v21 (c : Dev nD) : W33 m ρ c (Proc.devRef .tc main_v21) = W30 m ρ c (Proc.devRef .tc main_v21) := by
  dsimp only [W33, W32, W31, hostOps9, hostOps9_1, hostOps9_2]
  after_results_simp

set_option maxHeartbeats 4000000 in
theorem A_main_v31 (c : Dev nD) : W33 m ρ c (Proc.devRef .tc main_v31) = W30 m ρ c (Proc.devRef .tc main_v31) := by
  dsimp only [W33, W32, W31, hostOps9, hostOps9_1, hostOps9_2]
  after_results_simp

set_option maxHeartbeats 4000000 in
theorem A_main_v187 (c : Dev nD) : W33 m ρ c (Proc.devRef .tc main_v187) = W30 m ρ c (Proc.devRef .tc main_v187) := by
  dsimp only [W33, W32, W31, hostOps9, hostOps9_1, hostOps9_2]
  after_results_simp

/-- The weight launch reads the padded source scores through an input window and leaves them as they were. -/
theorem E_main_v31 (c : Dev nD) : W34 m ρ c (Proc.devRef .tc main_v31) = W33 m ρ c (Proc.devRef .tc main_v31) :=
  (W34_arr m ρ c 0).trans (((dat9 (V33 m ρ) c).arrAt_in 0 rfl _).trans (A_eq9 (V33 m ρ) c 0))

theorem E_out (c : Dev nD) : W34 m ρ c (Proc.devRef .tc main_v203) = edgeW (W33 m ρ c (Proc.devRef .tc main_v31)) (W33 m ρ c (Proc.devRef .tc main_v202)) :=
  (W34_arr m ρ c 2).trans (Reg9.final (V33 m ρ) c)

set_option maxHeartbeats 4000000 in
theorem B_num (c : Dev nD) : W35 m ρ c (Proc.devRef .tc main_v225) = hopNum (W34 m ρ c (Proc.devRef .tc main_v1)) (W34 m ρ c (Proc.devRef .tc main_v3)) (W34 m ρ c (Proc.devRef .tc main_v4)) (W34 m ρ c (Proc.devRef .tc main_v187)) (W34 m ρ c (Proc.devRef .tc main_v21)) (W34 m ρ c (Proc.devRef .tc main_v203)) := by
  dsimp only [W35, hostOps10]
  after_results_simp
  rfl

set_option maxHeartbeats 4000000 in
theorem B_div (c : Dev nD) : W35 m ρ c (Proc.devRef .tc main_v210) = hopDiv (W34 m ρ c (Proc.devRef .tc main_v1)) (W34 m ρ c (Proc.devRef .tc main_v21)) (W34 m ρ c (Proc.devRef .tc main_v203)) := by
  dsimp only [W35, hostOps10]
  after_results_simp
  rfl

set_option maxHeartbeats 4000000 in
theorem B_main_v1 (c : Dev nD) : W35 m ρ c (Proc.devRef .tc main_v1) = W34 m ρ c (Proc.devRef .tc main_v1) := by
  dsimp only [W35, hostOps10]
  after_results_simp

set_option maxHeartbeats 4000000 in
theorem B_main_v3 (c : Dev nD) : W35 m ρ c (Proc.devRef .tc main_v3) = W34 m ρ c (Proc.devRef .tc main_v3) := by
  dsimp only [W35, hostOps10]
  after_results_simp

set_option maxHeartbeats 4000000 in
theorem B_main_v4 (c : Dev nD) : W35 m ρ c (Proc.devRef .tc main_v4) = W34 m ρ c (Proc.devRef .tc main_v4) := by
  dsimp only [W35, hostOps10]
  after_results_simp

set_option maxHeartbeats 4000000 in
theorem B_main_arg5 (c : Dev nD) : W35 m ρ c (Proc.devRef .tc main_arg5) = W34 m ρ c (Proc.devRef .tc main_arg5) := by
  dsimp only [W35, hostOps10]
  after_results_simp

set_option maxHeartbeats 4000000 in
theorem B_main_arg6 (c : Dev nD) : W35 m ρ c (Proc.devRef .tc main_arg6) = W34 m ρ c (Proc.devRef .tc main_arg6) := by
  dsimp only [W35, hostOps10]
  after_results_simp

set_option maxHeartbeats 4000000 in
theorem B_main_arg7 (c : Dev nD) : W35 m ρ c (Proc.devRef .tc main_arg7) = W34 m ρ c (Proc.devRef .tc main_arg7) := by
  dsimp only [W35, hostOps10]
  after_results_simp

set_option maxHeartbeats 4000000 in
theorem B_main_v21 (c : Dev nD) : W35 m ρ c (Proc.devRef .tc main_v21) = W34 m ρ c (Proc.devRef .tc main_v21) := by
  dsimp only [W35, hostOps10]
  after_results_simp

set_option maxHeartbeats 4000000 in
theorem B_main_v31 (c : Dev nD) : W35 m ρ c (Proc.devRef .tc main_v31) = W34 m ρ c (Proc.devRef .tc main_v31) := by
  dsimp only [W35, hostOps10]
  after_results_simp

theorem N_out (c : Dev nD) : W36 m ρ c (Proc.devRef .tc main_v226) = normW (W35 m ρ c (Proc.devRef .tc main_v225)) (W35 m ρ c (Proc.devRef .tc main_v210)) :=
  (W36_arr m ρ c 2).trans (Reg10.final (V35 m ρ) c)

/-- The features after hop 5 are the hop function of the contents at its start. -/
theorem out (c : Dev nD) : W36 m ρ c (Proc.devRef .tc main_v226)
    = kerHop (W30 m ρ c (Proc.devRef .tc main_v1)) (W30 m ρ c (Proc.devRef .tc main_v3)) (W30 m ρ c (Proc.devRef .tc main_v4)) (W30 m ρ c (Proc.devRef .tc main_v187)) (W30 m ρ c (Proc.devRef .tc main_v21)) (W30 m ρ c (Proc.devRef .tc main_v31)) (W30 m ρ c (Proc.devRef .tc main_arg5)) := by
  rw [N_out, B_num, B_div, E_out]
  rw [W34_of_ne m ρ c main_v1 (by decide), W34_of_ne m ρ c main_v3 (by decide), W34_of_ne m ρ c main_v4 (by decide), W34_of_ne m ρ c main_v187 (by decide), W34_of_ne m ρ c main_v21 (by decide)]
  rw [A_ht, A_main_v21, A_main_v31, A_main_v1, A_main_v3, A_main_v4, A_main_v187]
  rfl

theorem keep_main_v1 (c : Dev nD) : W36 m ρ c (Proc.devRef .tc main_v1) = W30 m ρ c (Proc.devRef .tc main_v1) := by
  rw [W36_of_ne m ρ c main_v1 (by decide), B_main_v1, W34_of_ne m ρ c main_v1 (by decide), A_main_v1]

theorem keep_main_v3 (c : Dev nD) : W36 m ρ c (Proc.devRef .tc main_v3) = W30 m ρ c (Proc.devRef .tc main_v3) := by
  rw [W36_of_ne m ρ c main_v3 (by decide), B_main_v3, W34_of_ne m ρ c main_v3 (by decide), A_main_v3]

theorem keep_main_v4 (c : Dev nD) : W36 m ρ c (Proc.devRef .tc main_v4) = W30 m ρ c (Proc.devRef .tc main_v4) := by
  rw [W36_of_ne m ρ c main_v4 (by decide), B_main_v4, W34_of_ne m ρ c main_v4 (by decide), A_main_v4]

theorem keep_main_arg5 (c : Dev nD) : W36 m ρ c (Proc.devRef .tc main_arg5) = W30 m ρ c (Proc.devRef .tc main_arg5) := by
  rw [W36_of_ne m ρ c main_arg5 (by decide), B_main_arg5, W34_of_ne m ρ c main_arg5 (by decide), A_main_arg5]

theorem keep_main_arg6 (c : Dev nD) : W36 m ρ c (Proc.devRef .tc main_arg6) = W30 m ρ c (Proc.devRef .tc main_arg6) := by
  rw [W36_of_ne m ρ c main_arg6 (by decide), B_main_arg6, W34_of_ne m ρ c main_arg6 (by decide), A_main_arg6]

theorem keep_main_arg7 (c : Dev nD) : W36 m ρ c (Proc.devRef .tc main_arg7) = W30 m ρ c (Proc.devRef .tc main_arg7) := by
  rw [W36_of_ne m ρ c main_arg7 (by decide), B_main_arg7, W34_of_ne m ρ c main_arg7 (by decide), A_main_arg7]

theorem keep_main_v21 (c : Dev nD) : W36 m ρ c (Proc.devRef .tc main_v21) = W30 m ρ c (Proc.devRef .tc main_v21) := by
  rw [W36_of_ne m ρ c main_v21 (by decide), B_main_v21, W34_of_ne m ρ c main_v21 (by decide), A_main_v21]

theorem keep_main_v31 (c : Dev nD) : W36 m ρ c (Proc.devRef .tc main_v31) = W30 m ρ c (Proc.devRef .tc main_v31) := by
  rw [W36_of_ne m ρ c main_v31 (by decide), B_main_v31, E_main_v31, A_main_v31]

end Cert.KernelIdeal.KHop5

end
-- ==== Proof.Reg11.lean ====
/-
  Launch 11 (the per-edge attention weight) on the whole array. Its grid has two points; point t loads rows
  3128·t … 3128·t + 3127 of both score arrays, all 128 columns, and writes the same rows of the weight array. The two
  blocks cover the 6256 rows, and a block of the result is the pointwise function of the same block of the inputs,
  so after the launch the weight array is the pointwise function of the two score arrays as the launch found them.
-/
import proofs.«105152_j14491219657222_1_alg».proof.Proof.KernelIdealFrameP
import proofs.«105152_j14491219657222_1_alg».proof.Proof.KernelFns
import Idealize.ShloMosaic.Lib.Pipeline.Value

set_option maxRecDepth 16384

noncomputable section

namespace Cert.KernelIdeal.Reg11

open Cert.KernelIdeal Cert.KernelIdeal.Gen Cert.KernelIdeal.GenP Cert.KernelIdeal.Fns
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- Decided over the two grid points: both inputs' blocks move with the output's, whose row index is the point
    and whose column index is 0. -/
theorem idx_facts : ∀ t : Fin cfg11.N, win11_0.index t (0 : Fin 2) = win11_2.index t (0 : Fin 2) + 0
    ∧ win11_0.index t (1 : Fin 2) = win11_2.index t (1 : Fin 2) + 0
    ∧ win11_1.index t (0 : Fin 2) = win11_2.index t (0 : Fin 2) + 0
    ∧ win11_1.index t (1 : Fin 2) = win11_2.index t (1 : Fin 2) + 0
    ∧ 0 ≤ win11_2.index t (0 : Fin 2) ∧ win11_2.index t (0 : Fin 2) ≤ 1
    ∧ 0 ≤ win11_2.index t (1 : Fin 2) ∧ win11_2.index t (1 : Fin 2) ≤ 0 :=
  (by decide +kernel : ∀ t : Fin grid11.N, _)

/-- Every row block is some point's. -/
theorem idx_onto : ∀ (q0 : Fin 2) (q1 : Fin 1), ∃ t : Fin cfg11.N, win11_2.index t = ![q0.val + 0, q1.val + 0] :=
  (by decide +kernel : ∀ (q0 : Fin 2) (q1 : Fin 1), ∃ t : Fin grid11.N, win11_2.index t = ![q0.val + 0, q1.val + 0])

/-- What point t writes back is block t of the pointwise function of the two arrays. -/
theorem flushed_eq (c : Dev nD) (t : Fin cfg11.N) :
    (dat11 V c).flushed 2 t = ((cfg11.win 2).blk t).view.read (Elt F) (edgeW (V c main_v31) (V c main_v241)) := by
  show (cfg11.win 2).cut (grid11.coords t) ((dat11 V c).after 2 t) = _
  rw [after11_2]
  unfold out11_2
  rw [View.canon_unit_zero hz]
  simp only [View.ld_unit_zero (S := S3128x128) hz]
  rw [pay11]
  obtain ⟨e0, e1, e2, e3, e4, e5, e6, e7⟩ := idx_facts t
  funext j
  show edgeS (V c main_v31 (((cfg11.win 0).blk t).view.emb j)) (V c main_v241 (((cfg11.win 1).blk t).view.emb j))
     = edgeS (V c main_v31 (((cfg11.win 2).blk t).view.emb j)) (V c main_v241 (((cfg11.win 2).blk t).view.emb j))
  have h0 : ((cfg11.win 0).blk t).view.emb j = ((cfg11.win 2).blk t).view.emb j := by
    funext a; apply Fin.ext
    match a with
    | ⟨0, _⟩ => show win11_0.index t (0 : Fin 2) * 3128 + 1 * (j 0).val = win11_2.index t (0 : Fin 2) * 3128 + 1 * (j 0).val; omega
    | ⟨1, _⟩ => show win11_0.index t (1 : Fin 2) * 128 + 1 * (j 1).val = win11_2.index t (1 : Fin 2) * 128 + 1 * (j 1).val; omega
  have h1 : ((cfg11.win 1).blk t).view.emb j = ((cfg11.win 2).blk t).view.emb j := by
    funext a; apply Fin.ext
    match a with
    | ⟨0, _⟩ => show win11_1.index t (0 : Fin 2) * 3128 + 1 * (j 0).val = win11_2.index t (0 : Fin 2) * 3128 + 1 * (j 0).val; omega
    | ⟨1, _⟩ => show win11_1.index t (1 : Fin 2) * 128 + 1 * (j 1).val = win11_2.index t (1 : Fin 2) * 128 + 1 * (j 1).val; omega
  rw [h0, h1] <;> rfl

/-- An entry is in point t's block iff each coordinate is in the block's range on its axis. -/
theorem mem_blk (t : Fin cfg11.N) (i : S6256x128.Idx) :
    i ∈ ((cfg11.win 2).blk t).view.set ↔ ∀ a : Fin 2, win11_2.index t a * S3128x128.size a ≤ (i a).val ∧ (i a).val < win11_2.index t a * S3128x128.size a + S3128x128.size a := by
  show i ∈ ((View.whole main_v242).slice (win11_2.rect t)).set ↔ _
  rw [View.set_slice_whole, Rect.mem_set_unit]
  exact Iff.rfl

/-- Row r is in the block of point r / 3128. -/
theorem cover (i : S6256x128.Idx) : ∃ t : Fin cfg11.N, (cfg11.win 2).flush t = true ∧ i ∈ ((cfg11.win 2).blk t).view.set := by
  have hi0 : (i 0).val < 6256 := (i 0).isLt
  have hi1 : (i 1).val < 128 := (i 1).isLt
  obtain ⟨t, ht⟩ := idx_onto ⟨(i 0).val / 3128, by omega⟩ ⟨(i 1).val / 128, by omega⟩
  have q0 : win11_2.index t (0 : Fin 2) = (i 0).val / 3128 + 0 := congrFun ht 0
  have q1 : win11_2.index t (1 : Fin 2) = (i 1).val / 128 + 0 := congrFun ht 1
  refine ⟨t, flush11_2 t, ?_⟩
  rw [mem_blk]
  intro a
  match a with
  | ⟨0, _⟩ => show win11_2.index t (0 : Fin 2) * 3128 ≤ (i 0).val ∧ (i 0).val < win11_2.index t (0 : Fin 2) * 3128 + 3128; omega
  | ⟨1, _⟩ => show win11_2.index t (1 : Fin 2) * 128 ≤ (i 1).val ∧ (i 1).val < win11_2.index t (1 : Fin 2) * 128 + 128; omega

/-- After the launch the weight array is the pointwise function of the two score arrays. -/
theorem final (c : Dev nD) : (dat11 V c).arrAt 2 cfg11.N = edgeW (V c main_v31) (V c main_v241) :=
  (dat11 V c).arrAt_eq_of_cover 2 _ (fun t _ => flushed_eq V c t) cover

end Cert.KernelIdeal.Reg11

end
-- ==== Proof.Reg12.lean ====
/-
  Launch 12 (the per-node normalization) on the whole array. Its grid has 25 points; point t loads rows
  2000·t … 2000·t + 1999 of the numerator (96 columns) and of the divisor (one column) and writes the same rows of
  the result. The 25 blocks cover the 50000 rows, and an entry of the result's block is the normalization of the
  numerator's entry against its row's divisor, so after the launch the result array is that function of the two
  arrays as the launch found them.
-/
import proofs.«105152_j14491219657222_1_alg».proof.Proof.KernelIdealFrameP
import proofs.«105152_j14491219657222_1_alg».proof.Proof.KernelFns
import Idealize.ShloMosaic.Lib.Pipeline.Value

set_option maxRecDepth 16384

noncomputable section

namespace Cert.KernelIdeal.Reg12

open Cert.KernelIdeal Cert.KernelIdeal.Gen Cert.KernelIdeal.GenP Cert.KernelIdeal.Fns
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- Decided over the 25 grid points: both inputs' blocks move with the output's, whose row index is the point and
    whose column index is 0. -/
theorem idx_facts : ∀ t : Fin cfg12.N, win12_0.index t (0 : Fin 2) = win12_2.index t (0 : Fin 2) + 0
    ∧ win12_0.index t (1 : Fin 2) = win12_2.index t (1 : Fin 2) + 0
    ∧ win12_1.index t (0 : Fin 2) = win12_2.index t (0 : Fin 2) + 0
    ∧ win12_1.index t (1 : Fin 2) = win12_2.index t (1 : Fin 2) + 0
    ∧ 0 ≤ win12_2.index t (0 : Fin 2) ∧ win12_2.index t (0 : Fin 2) ≤ 24
    ∧ 0 ≤ win12_2.index t (1 : Fin 2) ∧ win12_2.index t (1 : Fin 2) ≤ 0 :=
  (by decide +kernel : ∀ t : Fin grid12.N, _)

/-- Every row block is some point's. -/
theorem idx_onto : ∀ (q0 : Fin 25) (q1 : Fin 1), ∃ t : Fin cfg12.N, win12_2.index t = ![q0.val + 0, q1.val + 0] :=
  (by decide +kernel : ∀ (q0 : Fin 25) (q1 : Fin 1), ∃ t : Fin grid12.N, win12_2.index t = ![q0.val + 0, q1.val + 0])

/-- What point t writes back is block t of the normalization of the two arrays. -/
theorem flushed_eq (c : Dev nD) (t : Fin cfg12.N) :
    (dat12 V c).flushed 2 t = ((cfg12.win 2).blk t).view.read (Elt F) (normW (V c main_v264) (V c main_v249)) := by
  show (cfg12.win 2).cut (grid12.coords t) ((dat12 V c).after 2 t) = _
  rw [after12_2]
  unfold out12_2
  rw [View.canon_unit_zero hz]
  simp only [View.ld_unit_zero (S := S2000x96) hz, View.ld_unit_zero (S := S2000x1) hz]
  rw [pay12]
  obtain ⟨e0, e1, e2, e3, e4, e5, e6, e7⟩ := idx_facts t
  funext j
  show normS (V c main_v264 (((cfg12.win 0).blk t).view.emb j)) (V c main_v249 (((cfg12.win 1).blk t).view.emb (ix2 (j 0) (0 : Fin 1))))
     = normS (V c main_v264 (((cfg12.win 2).blk t).view.emb j)) (V c main_v249 (ix2 ((((cfg12.win 2).blk t).view.emb j) 0) (0 : Fin 1)))
  have h0 : ((cfg12.win 0).blk t).view.emb j = ((cfg12.win 2).blk t).view.emb j := by
    funext a; apply Fin.ext
    match a with
    | ⟨0, _⟩ => show win12_0.index t (0 : Fin 2) * 2000 + 1 * (j 0).val = win12_2.index t (0 : Fin 2) * 2000 + 1 * (j 0).val; omega
    | ⟨1, _⟩ => show win12_0.index t (1 : Fin 2) * 96 + 1 * (j 1).val = win12_2.index t (1 : Fin 2) * 96 + 1 * (j 1).val; omega
  have h1 : ((cfg12.win 1).blk t).view.emb (ix2 (j 0) (0 : Fin 1)) = ix2 ((((cfg12.win 2).blk t).view.emb j) 0) (0 : Fin 1) := by
    funext a; apply Fin.ext
    match a with
    | ⟨0, _⟩ => show win12_1.index t (0 : Fin 2) * 2000 + 1 * (j 0).val = win12_2.index t (0 : Fin 2) * 2000 + 1 * (j 0).val; omega
    | ⟨1, _⟩ => show win12_1.index t (1 : Fin 2) * 1 + 1 * 0 = 0; omega
  rw [h0, h1] <;> rfl

/-- An entry is in point t's block iff each coordinate is in the block's range on its axis. -/
theorem mem_blk (t : Fin cfg12.N) (i : S50000x96.Idx) :
    i ∈ ((cfg12.win 2).blk t).view.set ↔ ∀ a : Fin 2, win12_2.index t a * S2000x96.size a ≤ (i a).val ∧ (i a).val < win12_2.index t a * S2000x96.size a + S2000x96.size a := by
  show i ∈ ((View.whole main_v265).slice (win12_2.rect t)).set ↔ _
  rw [View.set_slice_whole, Rect.mem_set_unit]
  exact Iff.rfl

/-- Row r is in the block of point r / 2000. -/
theorem cover (i : S50000x96.Idx) : ∃ t : Fin cfg12.N, (cfg12.win 2).flush t = true ∧ i ∈ ((cfg12.win 2).blk t).view.set := by
  have hi0 : (i 0).val < 50000 := (i 0).isLt
  have hi1 : (i 1).val < 96 := (i 1).isLt
  obtain ⟨t, ht⟩ := idx_onto ⟨(i 0).val / 2000, by omega⟩ ⟨(i 1).val / 96, by omega⟩
  have q0 : win12_2.index t (0 : Fin 2) = (i 0).val / 2000 + 0 := congrFun ht 0
  have q1 : win12_2.index t (1 : Fin 2) = (i 1).val / 96 + 0 := congrFun ht 1
  refine ⟨t, flush12_2 t, ?_⟩
  rw [mem_blk]
  intro a
  match a with
  | ⟨0, _⟩ => show win12_2.index t (0 : Fin 2) * 2000 ≤ (i 0).val ∧ (i 0).val < win12_2.index t (0 : Fin 2) * 2000 + 2000; omega
  | ⟨1, _⟩ => show win12_2.index t (1 : Fin 2) * 96 ≤ (i 1).val ∧ (i 1).val < win12_2.index t (1 : Fin 2) * 96 + 96; omega

/-- After the launch the result array is the normalization of the numerator array against the divisor column. -/
theorem final (c : Dev nD) : (dat12 V c).arrAt 2 cfg12.N = normW (V c main_v264) (V c main_v249) :=
  (dat12 V c).arrAt_eq_of_cover 2 _ (fun t _ => flushed_eq V c t) cover

end Cert.KernelIdeal.Reg12

end
-- ==== Proof.KHop6.lean ====
/-
  Hop 6 of the kernel program, from the buffer contents at its start to those at its end: the host stretch that
  gathers and pads the target scores, the weight launch, the host stretch of the two scatter-adds, the
  normalization launch. Each stretch leaves its function of the buffers it reads and keeps the others; each launch
  writes its result array and keeps every other buffer. Chained: the features after the hop are the hop function of
  the features before it, and the index rows, the projected features, the self-loop weight, the padded source scores
  and the arguments are as before.
-/
import proofs.«105152_j14491219657222_1_alg».proof.Proof.KernelIdealFrameP
import proofs.«105152_j14491219657222_1_alg».proof.Proof.KernelHostFns
import proofs.«105152_j14491219657222_1_alg».proof.Proof.Reg11
import proofs.«105152_j14491219657222_1_alg».proof.Proof.Reg12
import Idealize.ShloMosaic.Lib.StableHlo.Run

set_option maxRecDepth 16384

noncomputable section

namespace Cert.KernelIdeal.KHop6

open Cert.KernelIdeal Cert.KernelIdeal.Gen Cert.KernelIdeal.GenP Cert.KernelIdeal.Fns
open Idealize.ShloMosaic Idealize.ShloMosaic.TcCoe Idealize.ShloMosaic.StableHlo
open Idealize.SL Idealize.SL.Sem

variable {F : FTy → Type} [FloatOps F]
variable (m : (ℓ : Loc nD τ sig) → Buf (Elt F) ℓ) (ρ : Dev nD → PrngReg)

set_option maxHeartbeats 4000000 in
theorem A_ht (c : Dev nD) : W39 m ρ c (Proc.devRef .tc main_v241) = tgtPad (W36 m ρ c (Proc.devRef .tc main_v3)) (W36 m ρ c (Proc.devRef .tc main_v226)) (W36 m ρ c (Proc.devRef .tc main_arg5)) := by
  dsimp only [W39, W38, W37, hostOps11, hostOps11_1, hostOps11_2]
  after_results_simp
  rfl

set_option maxHeartbeats 4000000 in
theorem A_main_v1 (c : Dev nD) : W39 m ρ c (Proc.devRef .tc main_v1) = W36 m ρ c (Proc.devRef .tc main_v1) := by
  dsimp only [W39, W38, W37, hostOps11, hostOps11_1, hostOps11_2]
  after_results_simp

set_option maxHeartbeats 4000000 in
theorem A_main_v3 (c : Dev nD) : W39 m ρ c (Proc.devRef .tc main_v3) = W36 m ρ c (Proc.devRef .tc main_v3) := by
  dsimp only [W39, W38, W37, hostOps11, hostOps11_1, hostOps11_2]
  after_results_simp

set_option maxHeartbeats 4000000 in
theorem A_main_v4 (c : Dev nD) : W39 m ρ c (Proc.devRef .tc main_v4) = W36 m ρ c (Proc.devRef .tc main_v4) := by
  dsimp only [W39, W38, W37, hostOps11, hostOps11_1, hostOps11_2]
  after_results_simp

set_option maxHeartbeats 4000000 in
theorem A_main_arg5 (c : Dev nD) : W39 m ρ c (Proc.devRef .tc main_arg5) = W36 m ρ c (Proc.devRef .tc main_arg5) := by
  dsimp only [W39, W38, W37, hostOps11, hostOps11_1, hostOps11_2]
  after_results_simp

set_option maxHeartbeats 4000000 in
theorem A_main_arg6 (c : Dev nD) : W39 m ρ c (Proc.devRef .tc main_arg6) = W36 m ρ c (Proc.devRef .tc main_arg6) := by
  dsimp only [W39, W38, W37, hostOps11, hostOps11_1, hostOps11_2]
  after_results_simp

set_option maxHeartbeats 4000000 in
theorem A_main_arg7 (c : Dev nD) : W39 m ρ c (Proc.devRef .tc main_arg7) = W36 m ρ c (Proc.devRef .tc main_arg7) := by
  dsimp only [W39, W38, W37, hostOps11, hostOps11_1, hostOps11_2]
  after_results_simp

set_option maxHeartbeats 4000000 in
theorem A_main_v21 (c : Dev nD) : W39 m ρ c (Proc.devRef .tc main_v21) = W36 m ρ c (Proc.devRef .tc main_v21) := by
  dsimp only [W39, W38, W37, hostOps11, hostOps11_1, hostOps11_2]
  after_results_simp

set_option maxHeartbeats 4000000 in
theorem A_main_v31 (c : Dev nD) : W39 m ρ c (Proc.devRef .tc main_v31) = W36 m ρ c (Proc.devRef .tc main_v31) := by
  dsimp only [W39, W38, W37, hostOps11, hostOps11_1, hostOps11_2]
  after_results_simp

set_option maxHeartbeats 4000000 in
theorem A_main_v226 (c : Dev nD) : W39 m ρ c (Proc.devRef .tc main_v226) = W36 m ρ c (Proc.devRef .tc main_v226) := by
  dsimp only [W39, W38, W37, hostOps11, hostOps11_1, hostOps11_2]
  after_results_simp

/-- The weight launch reads the padded source scores through an input window and leaves them as they were. -/
theorem E_main_v31 (c : Dev nD) : W40 m ρ c (Proc.devRef .tc main_v31) = W39 m ρ c (Proc.devRef .tc main_v31) :=
  (W40_arr m ρ c 0).trans (((dat11 (V39 m ρ) c).arrAt_in 0 rfl _).trans (A_eq11 (V39 m ρ) c 0))

theorem E_out (c : Dev nD) : W40 m ρ c (Proc.devRef .tc main_v242) = edgeW (W39 m ρ c (Proc.devRef .tc main_v31)) (W39 m ρ c (Proc.devRef .tc main_v241)) :=
  (W40_arr m ρ c 2).trans (Reg11.final (V39 m ρ) c)

set_option maxHeartbeats 4000000 in
theorem B_num (c : Dev nD) : W41 m ρ c (Proc.devRef .tc main_v264) = hopNum (W40 m ρ c (Proc.devRef .tc main_v1)) (W40 m ρ c (Proc.devRef .tc main_v3)) (W40 m ρ c (Proc.devRef .tc main_v4)) (W40 m ρ c (Proc.devRef .tc main_v226)) (W40 m ρ c (Proc.devRef .tc main_v21)) (W40 m ρ c (Proc.devRef .tc main_v242)) := by
  dsimp only [W41, hostOps12]
  after_results_simp
  rfl

set_option maxHeartbeats 4000000 in
theorem B_div (c : Dev nD) : W41 m ρ c (Proc.devRef .tc main_v249) = hopDiv (W40 m ρ c (Proc.devRef .tc main_v1)) (W40 m ρ c (Proc.devRef .tc main_v21)) (W40 m ρ c (Proc.devRef .tc main_v242)) := by
  dsimp only [W41, hostOps12]
  after_results_simp
  rfl

set_option maxHeartbeats 4000000 in
theorem B_main_v1 (c : Dev nD) : W41 m ρ c (Proc.devRef .tc main_v1) = W40 m ρ c (Proc.devRef .tc main_v1) := by
  dsimp only [W41, hostOps12]
  after_results_simp

set_option maxHeartbeats 4000000 in
theorem B_main_v3 (c : Dev nD) : W41 m ρ c (Proc.devRef .tc main_v3) = W40 m ρ c (Proc.devRef .tc main_v3) := by
  dsimp only [W41, hostOps12]
  after_results_simp

set_option maxHeartbeats 4000000 in
theorem B_main_v4 (c : Dev nD) : W41 m ρ c (Proc.devRef .tc main_v4) = W40 m ρ c (Proc.devRef .tc main_v4) := by
  dsimp only [W41, hostOps12]
  after_results_simp

set_option maxHeartbeats 4000000 in
theorem B_main_arg5 (c : Dev nD) : W41 m ρ c (Proc.devRef .tc main_arg5) = W40 m ρ c (Proc.devRef .tc main_arg5) := by
  dsimp only [W41, hostOps12]
  after_results_simp

set_option maxHeartbeats 4000000 in
theorem B_main_arg6 (c : Dev nD) : W41 m ρ c (Proc.devRef .tc main_arg6) = W40 m ρ c (Proc.devRef .tc main_arg6) := by
  dsimp only [W41, hostOps12]
  after_results_simp

set_option maxHeartbeats 4000000 in
theorem B_main_arg7 (c : Dev nD) : W41 m ρ c (Proc.devRef .tc main_arg7) = W40 m ρ c (Proc.devRef .tc main_arg7) := by
  dsimp only [W41, hostOps12]
  after_results_simp

set_option maxHeartbeats 4000000 in
theorem B_main_v21 (c : Dev nD) : W41 m ρ c (Proc.devRef .tc main_v21) = W40 m ρ c (Proc.devRef .tc main_v21) := by
  dsimp only [W41, hostOps12]
  after_results_simp

set_option maxHeartbeats 4000000 in
theorem B_main_v31 (c : Dev nD) : W41 m ρ c (Proc.devRef .tc main_v31) = W40 m ρ c (Proc.devRef .tc main_v31) := by
  dsimp only [W41, hostOps12]
  after_results_simp

theorem N_out (c : Dev nD) : W42 m ρ c (Proc.devRef .tc main_v265) = normW (W41 m ρ c (Proc.devRef .tc main_v264)) (W41 m ρ c (Proc.devRef .tc main_v249)) :=
  (W42_arr m ρ c 2).trans (Reg12.final (V41 m ρ) c)

/-- The features after hop 6 are the hop function of the contents at its start. -/
theorem out (c : Dev nD) : W42 m ρ c (Proc.devRef .tc main_v265)
    = kerHop (W36 m ρ c (Proc.devRef .tc main_v1)) (W36 m ρ c (Proc.devRef .tc main_v3)) (W36 m ρ c (Proc.devRef .tc main_v4)) (W36 m ρ c (Proc.devRef .tc main_v226)) (W36 m ρ c (Proc.devRef .tc main_v21)) (W36 m ρ c (Proc.devRef .tc main_v31)) (W36 m ρ c (Proc.devRef .tc main_arg5)) := by
  rw [N_out, B_num, B_div, E_out]
  rw [W40_of_ne m ρ c main_v1 (by decide), W40_of_ne m ρ c main_v3 (by decide), W40_of_ne m ρ c main_v4 (by decide), W40_of_ne m ρ c main_v226 (by decide), W40_of_ne m ρ c main_v21 (by decide)]
  rw [A_ht, A_main_v21, A_main_v31, A_main_v1, A_main_v3, A_main_v4, A_main_v226]
  rfl

theorem keep_main_v1 (c : Dev nD) : W42 m ρ c (Proc.devRef .tc main_v1) = W36 m ρ c (Proc.devRef .tc main_v1) := by
  rw [W42_of_ne m ρ c main_v1 (by decide), B_main_v1, W40_of_ne m ρ c main_v1 (by decide), A_main_v1]

theorem keep_main_v3 (c : Dev nD) : W42 m ρ c (Proc.devRef .tc main_v3) = W36 m ρ c (Proc.devRef .tc main_v3) := by
  rw [W42_of_ne m ρ c main_v3 (by decide), B_main_v3, W40_of_ne m ρ c main_v3 (by decide), A_main_v3]

theorem keep_main_v4 (c : Dev nD) : W42 m ρ c (Proc.devRef .tc main_v4) = W36 m ρ c (Proc.devRef .tc main_v4) := by
  rw [W42_of_ne m ρ c main_v4 (by decide), B_main_v4, W40_of_ne m ρ c main_v4 (by decide), A_main_v4]

theorem keep_main_arg5 (c : Dev nD) : W42 m ρ c (Proc.devRef .tc main_arg5) = W36 m ρ c (Proc.devRef .tc main_arg5) := by
  rw [W42_of_ne m ρ c main_arg5 (by decide), B_main_arg5, W40_of_ne m ρ c main_arg5 (by decide), A_main_arg5]

theorem keep_main_arg6 (c : Dev nD) : W42 m ρ c (Proc.devRef .tc main_arg6) = W36 m ρ c (Proc.devRef .tc main_arg6) := by
  rw [W42_of_ne m ρ c main_arg6 (by decide), B_main_arg6, W40_of_ne m ρ c main_arg6 (by decide), A_main_arg6]

theorem keep_main_arg7 (c : Dev nD) : W42 m ρ c (Proc.devRef .tc main_arg7) = W36 m ρ c (Proc.devRef .tc main_arg7) := by
  rw [W42_of_ne m ρ c main_arg7 (by decide), B_main_arg7, W40_of_ne m ρ c main_arg7 (by decide), A_main_arg7]

theorem keep_main_v21 (c : Dev nD) : W42 m ρ c (Proc.devRef .tc main_v21) = W36 m ρ c (Proc.devRef .tc main_v21) := by
  rw [W42_of_ne m ρ c main_v21 (by decide), B_main_v21, W40_of_ne m ρ c main_v21 (by decide), A_main_v21]

theorem keep_main_v31 (c : Dev nD) : W42 m ρ c (Proc.devRef .tc main_v31) = W36 m ρ c (Proc.devRef .tc main_v31) := by
  rw [W42_of_ne m ρ c main_v31 (by decide), B_main_v31, E_main_v31, A_main_v31]

end Cert.KernelIdeal.KHop6

end
-- ==== Proof.Reg13.lean ====
/-
  Launch 13 (the per-edge attention weight) on the whole array. Its grid has two points; point t loads rows
  3128·t … 3128·t + 3127 of both score arrays, all 128 columns, and writes the same rows of the weight array. The two
  blocks cover the 6256 rows, and a block of the result is the pointwise function of the same block of the inputs,
  so after the launch the weight array is the pointwise function of the two score arrays as the launch found them.
-/
import proofs.«105152_j14491219657222_1_alg».proof.Proof.KernelIdealFrameP
import proofs.«105152_j14491219657222_1_alg».proof.Proof.KernelFns
import Idealize.ShloMosaic.Lib.Pipeline.Value

set_option maxRecDepth 16384

noncomputable section

namespace Cert.KernelIdeal.Reg13

open Cert.KernelIdeal Cert.KernelIdeal.Gen Cert.KernelIdeal.GenP Cert.KernelIdeal.Fns
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- Decided over the two grid points: both inputs' blocks move with the output's, whose row index is the point
    and whose column index is 0. -/
theorem idx_facts : ∀ t : Fin cfg13.N, win13_0.index t (0 : Fin 2) = win13_2.index t (0 : Fin 2) + 0
    ∧ win13_0.index t (1 : Fin 2) = win13_2.index t (1 : Fin 2) + 0
    ∧ win13_1.index t (0 : Fin 2) = win13_2.index t (0 : Fin 2) + 0
    ∧ win13_1.index t (1 : Fin 2) = win13_2.index t (1 : Fin 2) + 0
    ∧ 0 ≤ win13_2.index t (0 : Fin 2) ∧ win13_2.index t (0 : Fin 2) ≤ 1
    ∧ 0 ≤ win13_2.index t (1 : Fin 2) ∧ win13_2.index t (1 : Fin 2) ≤ 0 :=
  (by decide +kernel : ∀ t : Fin grid13.N, _)

/-- Every row block is some point's. -/
theorem idx_onto : ∀ (q0 : Fin 2) (q1 : Fin 1), ∃ t : Fin cfg13.N, win13_2.index t = ![q0.val + 0, q1.val + 0] :=
  (by decide +kernel : ∀ (q0 : Fin 2) (q1 : Fin 1), ∃ t : Fin grid13.N, win13_2.index t = ![q0.val + 0, q1.val + 0])

/-- What point t writes back is block t of the pointwise function of the two arrays. -/
theorem flushed_eq (c : Dev nD) (t : Fin cfg13.N) :
    (dat13 V c).flushed 2 t = ((cfg13.win 2).blk t).view.read (Elt F) (edgeW (V c main_v31) (V c main_v280)) := by
  show (cfg13.win 2).cut (grid13.coords t) ((dat13 V c).after 2 t) = _
  rw [after13_2]
  unfold out13_2
  rw [View.canon_unit_zero hz]
  simp only [View.ld_unit_zero (S := S3128x128) hz]
  rw [pay13]
  obtain ⟨e0, e1, e2, e3, e4, e5, e6, e7⟩ := idx_facts t
  funext j
  show edgeS (V c main_v31 (((cfg13.win 0).blk t).view.emb j)) (V c main_v280 (((cfg13.win 1).blk t).view.emb j))
     = edgeS (V c main_v31 (((cfg13.win 2).blk t).view.emb j)) (V c main_v280 (((cfg13.win 2).blk t).view.emb j))
  have h0 : ((cfg13.win 0).blk t).view.emb j = ((cfg13.win 2).blk t).view.emb j := by
    funext a; apply Fin.ext
    match a with
    | ⟨0, _⟩ => show win13_0.index t (0 : Fin 2) * 3128 + 1 * (j 0).val = win13_2.index t (0 : Fin 2) * 3128 + 1 * (j 0).val; omega
    | ⟨1, _⟩ => show win13_0.index t (1 : Fin 2) * 128 + 1 * (j 1).val = win13_2.index t (1 : Fin 2) * 128 + 1 * (j 1).val; omega
  have h1 : ((cfg13.win 1).blk t).view.emb j = ((cfg13.win 2).blk t).view.emb j := by
    funext a; apply Fin.ext
    match a with
    | ⟨0, _⟩ => show win13_1.index t (0 : Fin 2) * 3128 + 1 * (j 0).val = win13_2.index t (0 : Fin 2) * 3128 + 1 * (j 0).val; omega
    | ⟨1, _⟩ => show win13_1.index t (1 : Fin 2) * 128 + 1 * (j 1).val = win13_2.index t (1 : Fin 2) * 128 + 1 * (j 1).val; omega
  rw [h0, h1] <;> rfl

/-- An entry is in point t's block iff each coordinate is in the block's range on its axis. -/
theorem mem_blk (t : Fin cfg13.N) (i : S6256x128.Idx) :
    i ∈ ((cfg13.win 2).blk t).view.set ↔ ∀ a : Fin 2, win13_2.index t a * S3128x128.size a ≤ (i a).val ∧ (i a).val < win13_2.index t a * S3128x128.size a + S3128x128.size a := by
  show i ∈ ((View.whole main_v281).slice (win13_2.rect t)).set ↔ _
  rw [View.set_slice_whole, Rect.mem_set_unit]
  exact Iff.rfl

/-- Row r is in the block of point r / 3128. -/
theorem cover (i : S6256x128.Idx) : ∃ t : Fin cfg13.N, (cfg13.win 2).flush t = true ∧ i ∈ ((cfg13.win 2).blk t).view.set := by
  have hi0 : (i 0).val < 6256 := (i 0).isLt
  have hi1 : (i 1).val < 128 := (i 1).isLt
  obtain ⟨t, ht⟩ := idx_onto ⟨(i 0).val / 3128, by omega⟩ ⟨(i 1).val / 128, by omega⟩
  have q0 : win13_2.index t (0 : Fin 2) = (i 0).val / 3128 + 0 := congrFun ht 0
  have q1 : win13_2.index t (1 : Fin 2) = (i 1).val / 128 + 0 := congrFun ht 1
  refine ⟨t, flush13_2 t, ?_⟩
  rw [mem_blk]
  intro a
  match a with
  | ⟨0, _⟩ => show win13_2.index t (0 : Fin 2) * 3128 ≤ (i 0).val ∧ (i 0).val < win13_2.index t (0 : Fin 2) * 3128 + 3128; omega
  | ⟨1, _⟩ => show win13_2.index t (1 : Fin 2) * 128 ≤ (i 1).val ∧ (i 1).val < win13_2.index t (1 : Fin 2) * 128 + 128; omega

/-- After the launch the weight array is the pointwise function of the two score arrays. -/
theorem final (c : Dev nD) : (dat13 V c).arrAt 2 cfg13.N = edgeW (V c main_v31) (V c main_v280) :=
  (dat13 V c).arrAt_eq_of_cover 2 _ (fun t _ => flushed_eq V c t) cover

end Cert.KernelIdeal.Reg13

end
-- ==== Proof.Reg14.lean ====
/-
  Launch 14 (the per-node normalization) on the whole array. Its grid has 25 points; point t loads rows
  2000·t … 2000·t + 1999 of the numerator (96 columns) and of the divisor (one column) and writes the same rows of
  the result. The 25 blocks cover the 50000 rows, and an entry of the result's block is the normalization of the
  numerator's entry against its row's divisor, so after the launch the result array is that function of the two
  arrays as the launch found them.
-/
import proofs.«105152_j14491219657222_1_alg».proof.Proof.KernelIdealFrameP
import proofs.«105152_j14491219657222_1_alg».proof.Proof.KernelFns
import Idealize.ShloMosaic.Lib.Pipeline.Value

set_option maxRecDepth 16384

noncomputable section

namespace Cert.KernelIdeal.Reg14

open Cert.KernelIdeal Cert.KernelIdeal.Gen Cert.KernelIdeal.GenP Cert.KernelIdeal.Fns
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- Decided over the 25 grid points: both inputs' blocks move with the output's, whose row index is the point and
    whose column index is 0. -/
theorem idx_facts : ∀ t : Fin cfg14.N, win14_0.index t (0 : Fin 2) = win14_2.index t (0 : Fin 2) + 0
    ∧ win14_0.index t (1 : Fin 2) = win14_2.index t (1 : Fin 2) + 0
    ∧ win14_1.index t (0 : Fin 2) = win14_2.index t (0 : Fin 2) + 0
    ∧ win14_1.index t (1 : Fin 2) = win14_2.index t (1 : Fin 2) + 0
    ∧ 0 ≤ win14_2.index t (0 : Fin 2) ∧ win14_2.index t (0 : Fin 2) ≤ 24
    ∧ 0 ≤ win14_2.index t (1 : Fin 2) ∧ win14_2.index t (1 : Fin 2) ≤ 0 :=
  (by decide +kernel : ∀ t : Fin grid14.N, _)

/-- Every row block is some point's. -/
theorem idx_onto : ∀ (q0 : Fin 25) (q1 : Fin 1), ∃ t : Fin cfg14.N, win14_2.index t = ![q0.val + 0, q1.val + 0] :=
  (by decide +kernel : ∀ (q0 : Fin 25) (q1 : Fin 1), ∃ t : Fin grid14.N, win14_2.index t = ![q0.val + 0, q1.val + 0])

/-- What point t writes back is block t of the normalization of the two arrays. -/
theorem flushed_eq (c : Dev nD) (t : Fin cfg14.N) :
    (dat14 V c).flushed 2 t = ((cfg14.win 2).blk t).view.read (Elt F) (normW (V c main_v303) (V c main_v288)) := by
  show (cfg14.win 2).cut (grid14.coords t) ((dat14 V c).after 2 t) = _
  rw [after14_2]
  unfold out14_2
  rw [View.canon_unit_zero hz]
  simp only [View.ld_unit_zero (S := S2000x96) hz, View.ld_unit_zero (S := S2000x1) hz]
  rw [pay14]
  obtain ⟨e0, e1, e2, e3, e4, e5, e6, e7⟩ := idx_facts t
  funext j
  show normS (V c main_v303 (((cfg14.win 0).blk t).view.emb j)) (V c main_v288 (((cfg14.win 1).blk t).view.emb (ix2 (j 0) (0 : Fin 1))))
     = normS (V c main_v303 (((cfg14.win 2).blk t).view.emb j)) (V c main_v288 (ix2 ((((cfg14.win 2).blk t).view.emb j) 0) (0 : Fin 1)))
  have h0 : ((cfg14.win 0).blk t).view.emb j = ((cfg14.win 2).blk t).view.emb j := by
    funext a; apply Fin.ext
    match a with
    | ⟨0, _⟩ => show win14_0.index t (0 : Fin 2) * 2000 + 1 * (j 0).val = win14_2.index t (0 : Fin 2) * 2000 + 1 * (j 0).val; omega
    | ⟨1, _⟩ => show win14_0.index t (1 : Fin 2) * 96 + 1 * (j 1).val = win14_2.index t (1 : Fin 2) * 96 + 1 * (j 1).val; omega
  have h1 : ((cfg14.win 1).blk t).view.emb (ix2 (j 0) (0 : Fin 1)) = ix2 ((((cfg14.win 2).blk t).view.emb j) 0) (0 : Fin 1) := by
    funext a; apply Fin.ext
    match a with
    | ⟨0, _⟩ => show win14_1.index t (0 : Fin 2) * 2000 + 1 * (j 0).val = win14_2.index t (0 : Fin 2) * 2000 + 1 * (j 0).val; omega
    | ⟨1, _⟩ => show win14_1.index t (1 : Fin 2) * 1 + 1 * 0 = 0; omega
  rw [h0, h1] <;> rfl

/-- An entry is in point t's block iff each coordinate is in the block's range on its axis. -/
theorem mem_blk (t : Fin cfg14.N) (i : S50000x96.Idx) :
    i ∈ ((cfg14.win 2).blk t).view.set ↔ ∀ a : Fin 2, win14_2.index t a * S2000x96.size a ≤ (i a).val ∧ (i a).val < win14_2.index t a * S2000x96.size a + S2000x96.size a := by
  show i ∈ ((View.whole main_v304).slice (win14_2.rect t)).set ↔ _
  rw [View.set_slice_whole, Rect.mem_set_unit]
  exact Iff.rfl

/-- Row r is in the block of point r / 2000. -/
theorem cover (i : S50000x96.Idx) : ∃ t : Fin cfg14.N, (cfg14.win 2).flush t = true ∧ i ∈ ((cfg14.win 2).blk t).view.set := by
  have hi0 : (i 0).val < 50000 := (i 0).isLt
  have hi1 : (i 1).val < 96 := (i 1).isLt
  obtain ⟨t, ht⟩ := idx_onto ⟨(i 0).val / 2000, by omega⟩ ⟨(i 1).val / 96, by omega⟩
  have q0 : win14_2.index t (0 : Fin 2) = (i 0).val / 2000 + 0 := congrFun ht 0
  have q1 : win14_2.index t (1 : Fin 2) = (i 1).val / 96 + 0 := congrFun ht 1
  refine ⟨t, flush14_2 t, ?_⟩
  rw [mem_blk]
  intro a
  match a with
  | ⟨0, _⟩ => show win14_2.index t (0 : Fin 2) * 2000 ≤ (i 0).val ∧ (i 0).val < win14_2.index t (0 : Fin 2) * 2000 + 2000; omega
  | ⟨1, _⟩ => show win14_2.index t (1 : Fin 2) * 96 ≤ (i 1).val ∧ (i 1).val < win14_2.index t (1 : Fin 2) * 96 + 96; omega

/-- After the launch the result array is the normalization of the numerator array against the divisor column. -/
theorem final (c : Dev nD) : (dat14 V c).arrAt 2 cfg14.N = normW (V c main_v303) (V c main_v288) :=
  (dat14 V c).arrAt_eq_of_cover 2 _ (fun t _ => flushed_eq V c t) cover

end Cert.KernelIdeal.Reg14

end
-- ==== Proof.KHop7.lean ====
/-
  Hop 7 of the kernel program, from the buffer contents at its start to those at its end: the host stretch that
  gathers and pads the target scores, the weight launch, the host stretch of the two scatter-adds, the
  normalization launch. Each stretch leaves its function of the buffers it reads and keeps the others; each launch
  writes its result array and keeps every other buffer. Chained: the features after the hop are the hop function of
  the features before it, and the index rows, the projected features, the self-loop weight, the padded source scores
  and the arguments are as before.
-/
import proofs.«105152_j14491219657222_1_alg».proof.Proof.KernelIdealFrameP
import proofs.«105152_j14491219657222_1_alg».proof.Proof.KernelHostFns
import proofs.«105152_j14491219657222_1_alg».proof.Proof.Reg13
import proofs.«105152_j14491219657222_1_alg».proof.Proof.Reg14
import Idealize.ShloMosaic.Lib.StableHlo.Run

set_option maxRecDepth 16384

noncomputable section

namespace Cert.KernelIdeal.KHop7

open Cert.KernelIdeal Cert.KernelIdeal.Gen Cert.KernelIdeal.GenP Cert.KernelIdeal.Fns
open Idealize.ShloMosaic Idealize.ShloMosaic.TcCoe Idealize.ShloMosaic.StableHlo
open Idealize.SL Idealize.SL.Sem

variable {F : FTy → Type} [FloatOps F]
variable (m : (ℓ : Loc nD τ sig) → Buf (Elt F) ℓ) (ρ : Dev nD → PrngReg)

set_option maxHeartbeats 4000000 in
theorem A_ht (c : Dev nD) : W45 m ρ c (Proc.devRef .tc main_v280) = tgtPad (W42 m ρ c (Proc.devRef .tc main_v3)) (W42 m ρ c (Proc.devRef .tc main_v265)) (W42 m ρ c (Proc.devRef .tc main_arg5)) := by
  dsimp only [W45, W44, W43, hostOps13, hostOps13_1, hostOps13_2]
  after_results_simp
  rfl

set_option maxHeartbeats 4000000 in
theorem A_main_v1 (c : Dev nD) : W45 m ρ c (Proc.devRef .tc main_v1) = W42 m ρ c (Proc.devRef .tc main_v1) := by
  dsimp only [W45, W44, W43, hostOps13, hostOps13_1, hostOps13_2]
  after_results_simp

set_option maxHeartbeats 4000000 in
theorem A_main_v3 (c : Dev nD) : W45 m ρ c (Proc.devRef .tc main_v3) = W42 m ρ c (Proc.devRef .tc main_v3) := by
  dsimp only [W45, W44, W43, hostOps13, hostOps13_1, hostOps13_2]
  after_results_simp

set_option maxHeartbeats 4000000 in
theorem A_main_v4 (c : Dev nD) : W45 m ρ c (Proc.devRef .tc main_v4) = W42 m ρ c (Proc.devRef .tc main_v4) := by
  dsimp only [W45, W44, W43, hostOps13, hostOps13_1, hostOps13_2]
  after_results_simp

set_option maxHeartbeats 4000000 in
theorem A_main_arg5 (c : Dev nD) : W45 m ρ c (Proc.devRef .tc main_arg5) = W42 m ρ c (Proc.devRef .tc main_arg5) := by
  dsimp only [W45, W44, W43, hostOps13, hostOps13_1, hostOps13_2]
  after_results_simp

set_option maxHeartbeats 4000000 in
theorem A_main_arg6 (c : Dev nD) : W45 m ρ c (Proc.devRef .tc main_arg6) = W42 m ρ c (Proc.devRef .tc main_arg6) := by
  dsimp only [W45, W44, W43, hostOps13, hostOps13_1, hostOps13_2]
  after_results_simp

set_option maxHeartbeats 4000000 in
theorem A_main_arg7 (c : Dev nD) : W45 m ρ c (Proc.devRef .tc main_arg7) = W42 m ρ c (Proc.devRef .tc main_arg7) := by
  dsimp only [W45, W44, W43, hostOps13, hostOps13_1, hostOps13_2]
  after_results_simp

set_option maxHeartbeats 4000000 in
theorem A_main_v21 (c : Dev nD) : W45 m ρ c (Proc.devRef .tc main_v21) = W42 m ρ c (Proc.devRef .tc main_v21) := by
  dsimp only [W45, W44, W43, hostOps13, hostOps13_1, hostOps13_2]
  after_results_simp

set_option maxHeartbeats 4000000 in
theorem A_main_v31 (c : Dev nD) : W45 m ρ c (Proc.devRef .tc main_v31) = W42 m ρ c (Proc.devRef .tc main_v31) := by
  dsimp only [W45, W44, W43, hostOps13, hostOps13_1, hostOps13_2]
  after_results_simp

set_option maxHeartbeats 4000000 in
theorem A_main_v265 (c : Dev nD) : W45 m ρ c (Proc.devRef .tc main_v265) = W42 m ρ c (Proc.devRef .tc main_v265) := by
  dsimp only [W45, W44, W43, hostOps13, hostOps13_1, hostOps13_2]
  after_results_simp

/-- The weight launch reads the padded source scores through an input window and leaves them as they were. -/
theorem E_main_v31 (c : Dev nD) : W46 m ρ c (Proc.devRef .tc main_v31) = W45 m ρ c (Proc.devRef .tc main_v31) :=
  (W46_arr m ρ c 0).trans (((dat13 (V45 m ρ) c).arrAt_in 0 rfl _).trans (A_eq13 (V45 m ρ) c 0))

theorem E_out (c : Dev nD) : W46 m ρ c (Proc.devRef .tc main_v281) = edgeW (W45 m ρ c (Proc.devRef .tc main_v31)) (W45 m ρ c (Proc.devRef .tc main_v280)) :=
  (W46_arr m ρ c 2).trans (Reg13.final (V45 m ρ) c)

set_option maxHeartbeats 4000000 in
theorem B_num (c : Dev nD) : W47 m ρ c (Proc.devRef .tc main_v303) = hopNum (W46 m ρ c (Proc.devRef .tc main_v1)) (W46 m ρ c (Proc.devRef .tc main_v3)) (W46 m ρ c (Proc.devRef .tc main_v4)) (W46 m ρ c (Proc.devRef .tc main_v265)) (W46 m ρ c (Proc.devRef .tc main_v21)) (W46 m ρ c (Proc.devRef .tc main_v281)) := by
  dsimp only [W47, hostOps14]
  after_results_simp
  rfl

set_option maxHeartbeats 4000000 in
theorem B_div (c : Dev nD) : W47 m ρ c (Proc.devRef .tc main_v288) = hopDiv (W46 m ρ c (Proc.devRef .tc main_v1)) (W46 m ρ c (Proc.devRef .tc main_v21)) (W46 m ρ c (Proc.devRef .tc main_v281)) := by
  dsimp only [W47, hostOps14]
  after_results_simp
  rfl

set_option maxHeartbeats 4000000 in
theorem B_main_v1 (c : Dev nD) : W47 m ρ c (Proc.devRef .tc main_v1) = W46 m ρ c (Proc.devRef .tc main_v1) := by
  dsimp only [W47, hostOps14]
  after_results_simp

set_option maxHeartbeats 4000000 in
theorem B_main_v3 (c : Dev nD) : W47 m ρ c (Proc.devRef .tc main_v3) = W46 m ρ c (Proc.devRef .tc main_v3) := by
  dsimp only [W47, hostOps14]
  after_results_simp

set_option maxHeartbeats 4000000 in
theorem B_main_v4 (c : Dev nD) : W47 m ρ c (Proc.devRef .tc main_v4) = W46 m ρ c (Proc.devRef .tc main_v4) := by
  dsimp only [W47, hostOps14]
  after_results_simp

set_option maxHeartbeats 4000000 in
theorem B_main_arg5 (c : Dev nD) : W47 m ρ c (Proc.devRef .tc main_arg5) = W46 m ρ c (Proc.devRef .tc main_arg5) := by
  dsimp only [W47, hostOps14]
  after_results_simp

set_option maxHeartbeats 4000000 in
theorem B_main_arg6 (c : Dev nD) : W47 m ρ c (Proc.devRef .tc main_arg6) = W46 m ρ c (Proc.devRef .tc main_arg6) := by
  dsimp only [W47, hostOps14]
  after_results_simp

set_option maxHeartbeats 4000000 in
theorem B_main_arg7 (c : Dev nD) : W47 m ρ c (Proc.devRef .tc main_arg7) = W46 m ρ c (Proc.devRef .tc main_arg7) := by
  dsimp only [W47, hostOps14]
  after_results_simp

set_option maxHeartbeats 4000000 in
theorem B_main_v21 (c : Dev nD) : W47 m ρ c (Proc.devRef .tc main_v21) = W46 m ρ c (Proc.devRef .tc main_v21) := by
  dsimp only [W47, hostOps14]
  after_results_simp

set_option maxHeartbeats 4000000 in
theorem B_main_v31 (c : Dev nD) : W47 m ρ c (Proc.devRef .tc main_v31) = W46 m ρ c (Proc.devRef .tc main_v31) := by
  dsimp only [W47, hostOps14]
  after_results_simp

theorem N_out (c : Dev nD) : W48 m ρ c (Proc.devRef .tc main_v304) = normW (W47 m ρ c (Proc.devRef .tc main_v303)) (W47 m ρ c (Proc.devRef .tc main_v288)) :=
  (W48_arr m ρ c 2).trans (Reg14.final (V47 m ρ) c)

/-- The features after hop 7 are the hop function of the contents at its start. -/
theorem out (c : Dev nD) : W48 m ρ c (Proc.devRef .tc main_v304)
    = kerHop (W42 m ρ c (Proc.devRef .tc main_v1)) (W42 m ρ c (Proc.devRef .tc main_v3)) (W42 m ρ c (Proc.devRef .tc main_v4)) (W42 m ρ c (Proc.devRef .tc main_v265)) (W42 m ρ c (Proc.devRef .tc main_v21)) (W42 m ρ c (Proc.devRef .tc main_v31)) (W42 m ρ c (Proc.devRef .tc main_arg5)) := by
  rw [N_out, B_num, B_div, E_out]
  rw [W46_of_ne m ρ c main_v1 (by decide), W46_of_ne m ρ c main_v3 (by decide), W46_of_ne m ρ c main_v4 (by decide), W46_of_ne m ρ c main_v265 (by decide), W46_of_ne m ρ c main_v21 (by decide)]
  rw [A_ht, A_main_v21, A_main_v31, A_main_v1, A_main_v3, A_main_v4, A_main_v265]
  rfl

theorem keep_main_v1 (c : Dev nD) : W48 m ρ c (Proc.devRef .tc main_v1) = W42 m ρ c (Proc.devRef .tc main_v1) := by
  rw [W48_of_ne m ρ c main_v1 (by decide), B_main_v1, W46_of_ne m ρ c main_v1 (by decide), A_main_v1]

theorem keep_main_v3 (c : Dev nD) : W48 m ρ c (Proc.devRef .tc main_v3) = W42 m ρ c (Proc.devRef .tc main_v3) := by
  rw [W48_of_ne m ρ c main_v3 (by decide), B_main_v3, W46_of_ne m ρ c main_v3 (by decide), A_main_v3]

theorem keep_main_v4 (c : Dev nD) : W48 m ρ c (Proc.devRef .tc main_v4) = W42 m ρ c (Proc.devRef .tc main_v4) := by
  rw [W48_of_ne m ρ c main_v4 (by decide), B_main_v4, W46_of_ne m ρ c main_v4 (by decide), A_main_v4]

theorem keep_main_arg5 (c : Dev nD) : W48 m ρ c (Proc.devRef .tc main_arg5) = W42 m ρ c (Proc.devRef .tc main_arg5) := by
  rw [W48_of_ne m ρ c main_arg5 (by decide), B_main_arg5, W46_of_ne m ρ c main_arg5 (by decide), A_main_arg5]

theorem keep_main_arg6 (c : Dev nD) : W48 m ρ c (Proc.devRef .tc main_arg6) = W42 m ρ c (Proc.devRef .tc main_arg6) := by
  rw [W48_of_ne m ρ c main_arg6 (by decide), B_main_arg6, W46_of_ne m ρ c main_arg6 (by decide), A_main_arg6]

theorem keep_main_arg7 (c : Dev nD) : W48 m ρ c (Proc.devRef .tc main_arg7) = W42 m ρ c (Proc.devRef .tc main_arg7) := by
  rw [W48_of_ne m ρ c main_arg7 (by decide), B_main_arg7, W46_of_ne m ρ c main_arg7 (by decide), A_main_arg7]

theorem keep_main_v21 (c : Dev nD) : W48 m ρ c (Proc.devRef .tc main_v21) = W42 m ρ c (Proc.devRef .tc main_v21) := by
  rw [W48_of_ne m ρ c main_v21 (by decide), B_main_v21, W46_of_ne m ρ c main_v21 (by decide), A_main_v21]

theorem keep_main_v31 (c : Dev nD) : W48 m ρ c (Proc.devRef .tc main_v31) = W42 m ρ c (Proc.devRef .tc main_v31) := by
  rw [W48_of_ne m ρ c main_v31 (by decide), B_main_v31, E_main_v31, A_main_v31]

end Cert.KernelIdeal.KHop7

end
-- ==== Proof.Reg15.lean ====
/-
  Launch 15 (the per-edge attention weight) on the whole array. Its grid has two points; point t loads rows
  3128·t … 3128·t + 3127 of both score arrays, all 128 columns, and writes the same rows of the weight array. The two
  blocks cover the 6256 rows, and a block of the result is the pointwise function of the same block of the inputs,
  so after the launch the weight array is the pointwise function of the two score arrays as the launch found them.
-/
import proofs.«105152_j14491219657222_1_alg».proof.Proof.KernelIdealFrameP
import proofs.«105152_j14491219657222_1_alg».proof.Proof.KernelFns
import Idealize.ShloMosaic.Lib.Pipeline.Value

set_option maxRecDepth 16384

noncomputable section

namespace Cert.KernelIdeal.Reg15

open Cert.KernelIdeal Cert.KernelIdeal.Gen Cert.KernelIdeal.GenP Cert.KernelIdeal.Fns
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- Decided over the two grid points: both inputs' blocks move with the output's, whose row index is the point
    and whose column index is 0. -/
theorem idx_facts : ∀ t : Fin cfg15.N, win15_0.index t (0 : Fin 2) = win15_2.index t (0 : Fin 2) + 0
    ∧ win15_0.index t (1 : Fin 2) = win15_2.index t (1 : Fin 2) + 0
    ∧ win15_1.index t (0 : Fin 2) = win15_2.index t (0 : Fin 2) + 0
    ∧ win15_1.index t (1 : Fin 2) = win15_2.index t (1 : Fin 2) + 0
    ∧ 0 ≤ win15_2.index t (0 : Fin 2) ∧ win15_2.index t (0 : Fin 2) ≤ 1
    ∧ 0 ≤ win15_2.index t (1 : Fin 2) ∧ win15_2.index t (1 : Fin 2) ≤ 0 :=
  (by decide +kernel : ∀ t : Fin grid15.N, _)

/-- Every row block is some point's. -/
theorem idx_onto : ∀ (q0 : Fin 2) (q1 : Fin 1), ∃ t : Fin cfg15.N, win15_2.index t = ![q0.val + 0, q1.val + 0] :=
  (by decide +kernel : ∀ (q0 : Fin 2) (q1 : Fin 1), ∃ t : Fin grid15.N, win15_2.index t = ![q0.val + 0, q1.val + 0])

/-- What point t writes back is block t of the pointwise function of the two arrays. -/
theorem flushed_eq (c : Dev nD) (t : Fin cfg15.N) :
    (dat15 V c).flushed 2 t = ((cfg15.win 2).blk t).view.read (Elt F) (edgeW (V c main_v31) (V c main_v319)) := by
  show (cfg15.win 2).cut (grid15.coords t) ((dat15 V c).after 2 t) = _
  rw [after15_2]
  unfold out15_2
  rw [View.canon_unit_zero hz]
  simp only [View.ld_unit_zero (S := S3128x128) hz]
  rw [pay15]
  obtain ⟨e0, e1, e2, e3, e4, e5, e6, e7⟩ := idx_facts t
  funext j
  show edgeS (V c main_v31 (((cfg15.win 0).blk t).view.emb j)) (V c main_v319 (((cfg15.win 1).blk t).view.emb j))
     = edgeS (V c main_v31 (((cfg15.win 2).blk t).view.emb j)) (V c main_v319 (((cfg15.win 2).blk t).view.emb j))
  have h0 : ((cfg15.win 0).blk t).view.emb j = ((cfg15.win 2).blk t).view.emb j := by
    funext a; apply Fin.ext
    match a with
    | ⟨0, _⟩ => show win15_0.index t (0 : Fin 2) * 3128 + 1 * (j 0).val = win15_2.index t (0 : Fin 2) * 3128 + 1 * (j 0).val; omega
    | ⟨1, _⟩ => show win15_0.index t (1 : Fin 2) * 128 + 1 * (j 1).val = win15_2.index t (1 : Fin 2) * 128 + 1 * (j 1).val; omega
  have h1 : ((cfg15.win 1).blk t).view.emb j = ((cfg15.win 2).blk t).view.emb j := by
    funext a; apply Fin.ext
    match a with
    | ⟨0, _⟩ => show win15_1.index t (0 : Fin 2) * 3128 + 1 * (j 0).val = win15_2.index t (0 : Fin 2) * 3128 + 1 * (j 0).val; omega
    | ⟨1, _⟩ => show win15_1.index t (1 : Fin 2) * 128 + 1 * (j 1).val = win15_2.index t (1 : Fin 2) * 128 + 1 * (j 1).val; omega
  rw [h0, h1] <;> rfl

/-- An entry is in point t's block iff each coordinate is in the block's range on its axis. -/
theorem mem_blk (t : Fin cfg15.N) (i : S6256x128.Idx) :
    i ∈ ((cfg15.win 2).blk t).view.set ↔ ∀ a : Fin 2, win15_2.index t a * S3128x128.size a ≤ (i a).val ∧ (i a).val < win15_2.index t a * S3128x128.size a + S3128x128.size a := by
  show i ∈ ((View.whole main_v320).slice (win15_2.rect t)).set ↔ _
  rw [View.set_slice_whole, Rect.mem_set_unit]
  exact Iff.rfl

/-- Row r is in the block of point r / 3128. -/
theorem cover (i : S6256x128.Idx) : ∃ t : Fin cfg15.N, (cfg15.win 2).flush t = true ∧ i ∈ ((cfg15.win 2).blk t).view.set := by
  have hi0 : (i 0).val < 6256 := (i 0).isLt
  have hi1 : (i 1).val < 128 := (i 1).isLt
  obtain ⟨t, ht⟩ := idx_onto ⟨(i 0).val / 3128, by omega⟩ ⟨(i 1).val / 128, by omega⟩
  have q0 : win15_2.index t (0 : Fin 2) = (i 0).val / 3128 + 0 := congrFun ht 0
  have q1 : win15_2.index t (1 : Fin 2) = (i 1).val / 128 + 0 := congrFun ht 1
  refine ⟨t, flush15_2 t, ?_⟩
  rw [mem_blk]
  intro a
  match a with
  | ⟨0, _⟩ => show win15_2.index t (0 : Fin 2) * 3128 ≤ (i 0).val ∧ (i 0).val < win15_2.index t (0 : Fin 2) * 3128 + 3128; omega
  | ⟨1, _⟩ => show win15_2.index t (1 : Fin 2) * 128 ≤ (i 1).val ∧ (i 1).val < win15_2.index t (1 : Fin 2) * 128 + 128; omega

/-- After the launch the weight array is the pointwise function of the two score arrays. -/
theorem final (c : Dev nD) : (dat15 V c).arrAt 2 cfg15.N = edgeW (V c main_v31) (V c main_v319) :=
  (dat15 V c).arrAt_eq_of_cover 2 _ (fun t _ => flushed_eq V c t) cover

end Cert.KernelIdeal.Reg15

end
-- ==== Proof.Reg16.lean ====
/-
  Launch 16 (the per-node normalization) on the whole array. Its grid has 25 points; point t loads rows
  2000·t … 2000·t + 1999 of the numerator (96 columns) and of the divisor (one column) and writes the same rows of
  the result. The 25 blocks cover the 50000 rows, and an entry of the result's block is the normalization of the
  numerator's entry against its row's divisor, so after the launch the result array is that function of the two
  arrays as the launch found them.
-/
import proofs.«105152_j14491219657222_1_alg».proof.Proof.KernelIdealFrameP
import proofs.«105152_j14491219657222_1_alg».proof.Proof.KernelFns
import Idealize.ShloMosaic.Lib.Pipeline.Value

set_option maxRecDepth 16384

noncomputable section

namespace Cert.KernelIdeal.Reg16

open Cert.KernelIdeal Cert.KernelIdeal.Gen Cert.KernelIdeal.GenP Cert.KernelIdeal.Fns
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- Decided over the 25 grid points: both inputs' blocks move with the output's, whose row index is the point and
    whose column index is 0. -/
theorem idx_facts : ∀ t : Fin cfg16.N, win16_0.index t (0 : Fin 2) = win16_2.index t (0 : Fin 2) + 0
    ∧ win16_0.index t (1 : Fin 2) = win16_2.index t (1 : Fin 2) + 0
    ∧ win16_1.index t (0 : Fin 2) = win16_2.index t (0 : Fin 2) + 0
    ∧ win16_1.index t (1 : Fin 2) = win16_2.index t (1 : Fin 2) + 0
    ∧ 0 ≤ win16_2.index t (0 : Fin 2) ∧ win16_2.index t (0 : Fin 2) ≤ 24
    ∧ 0 ≤ win16_2.index t (1 : Fin 2) ∧ win16_2.index t (1 : Fin 2) ≤ 0 :=
  (by decide +kernel : ∀ t : Fin grid16.N, _)

/-- Every row block is some point's. -/
theorem idx_onto : ∀ (q0 : Fin 25) (q1 : Fin 1), ∃ t : Fin cfg16.N, win16_2.index t = ![q0.val + 0, q1.val + 0] :=
  (by decide +kernel : ∀ (q0 : Fin 25) (q1 : Fin 1), ∃ t : Fin grid16.N, win16_2.index t = ![q0.val + 0, q1.val + 0])

/-- What point t writes back is block t of the normalization of the two arrays. -/
theorem flushed_eq (c : Dev nD) (t : Fin cfg16.N) :
    (dat16 V c).flushed 2 t = ((cfg16.win 2).blk t).view.read (Elt F) (normW (V c main_v342) (V c main_v327)) := by
  show (cfg16.win 2).cut (grid16.coords t) ((dat16 V c).after 2 t) = _
  rw [after16_2]
  unfold out16_2
  rw [View.canon_unit_zero hz]
  simp only [View.ld_unit_zero (S := S2000x96) hz, View.ld_unit_zero (S := S2000x1) hz]
  rw [pay16]
  obtain ⟨e0, e1, e2, e3, e4, e5, e6, e7⟩ := idx_facts t
  funext j
  show normS (V c main_v342 (((cfg16.win 0).blk t).view.emb j)) (V c main_v327 (((cfg16.win 1).blk t).view.emb (ix2 (j 0) (0 : Fin 1))))
     = normS (V c main_v342 (((cfg16.win 2).blk t).view.emb j)) (V c main_v327 (ix2 ((((cfg16.win 2).blk t).view.emb j) 0) (0 : Fin 1)))
  have h0 : ((cfg16.win 0).blk t).view.emb j = ((cfg16.win 2).blk t).view.emb j := by
    funext a; apply Fin.ext
    match a with
    | ⟨0, _⟩ => show win16_0.index t (0 : Fin 2) * 2000 + 1 * (j 0).val = win16_2.index t (0 : Fin 2) * 2000 + 1 * (j 0).val; omega
    | ⟨1, _⟩ => show win16_0.index t (1 : Fin 2) * 96 + 1 * (j 1).val = win16_2.index t (1 : Fin 2) * 96 + 1 * (j 1).val; omega
  have h1 : ((cfg16.win 1).blk t).view.emb (ix2 (j 0) (0 : Fin 1)) = ix2 ((((cfg16.win 2).blk t).view.emb j) 0) (0 : Fin 1) := by
    funext a; apply Fin.ext
    match a with
    | ⟨0, _⟩ => show win16_1.index t (0 : Fin 2) * 2000 + 1 * (j 0).val = win16_2.index t (0 : Fin 2) * 2000 + 1 * (j 0).val; omega
    | ⟨1, _⟩ => show win16_1.index t (1 : Fin 2) * 1 + 1 * 0 = 0; omega
  rw [h0, h1] <;> rfl

/-- An entry is in point t's block iff each coordinate is in the block's range on its axis. -/
theorem mem_blk (t : Fin cfg16.N) (i : S50000x96.Idx) :
    i ∈ ((cfg16.win 2).blk t).view.set ↔ ∀ a : Fin 2, win16_2.index t a * S2000x96.size a ≤ (i a).val ∧ (i a).val < win16_2.index t a * S2000x96.size a + S2000x96.size a := by
  show i ∈ ((View.whole main_v343).slice (win16_2.rect t)).set ↔ _
  rw [View.set_slice_whole, Rect.mem_set_unit]
  exact Iff.rfl

/-- Row r is in the block of point r / 2000. -/
theorem cover (i : S50000x96.Idx) : ∃ t : Fin cfg16.N, (cfg16.win 2).flush t = true ∧ i ∈ ((cfg16.win 2).blk t).view.set := by
  have hi0 : (i 0).val < 50000 := (i 0).isLt
  have hi1 : (i 1).val < 96 := (i 1).isLt
  obtain ⟨t, ht⟩ := idx_onto ⟨(i 0).val / 2000, by omega⟩ ⟨(i 1).val / 96, by omega⟩
  have q0 : win16_2.index t (0 : Fin 2) = (i 0).val / 2000 + 0 := congrFun ht 0
  have q1 : win16_2.index t (1 : Fin 2) = (i 1).val / 96 + 0 := congrFun ht 1
  refine ⟨t, flush16_2 t, ?_⟩
  rw [mem_blk]
  intro a
  match a with
  | ⟨0, _⟩ => show win16_2.index t (0 : Fin 2) * 2000 ≤ (i 0).val ∧ (i 0).val < win16_2.index t (0 : Fin 2) * 2000 + 2000; omega
  | ⟨1, _⟩ => show win16_2.index t (1 : Fin 2) * 96 ≤ (i 1).val ∧ (i 1).val < win16_2.index t (1 : Fin 2) * 96 + 96; omega

/-- After the launch the result array is the normalization of the numerator array against the divisor column. -/
theorem final (c : Dev nD) : (dat16 V c).arrAt 2 cfg16.N = normW (V c main_v342) (V c main_v327) :=
  (dat16 V c).arrAt_eq_of_cover 2 _ (fun t _ => flushed_eq V c t) cover

end Cert.KernelIdeal.Reg16

end
-- ==== Proof.KHop8.lean ====
/-
  Hop 8 of the kernel program, from the buffer contents at its start to those at its end: the host stretch that
  gathers and pads the target scores, the weight launch, the host stretch of the two scatter-adds, the
  normalization launch. Each stretch leaves its function of the buffers it reads and keeps the others; each launch
  writes its result array and keeps every other buffer. Chained: the features after the hop are the hop function of
  the features before it, and the index rows, the projected features, the self-loop weight, the padded source scores
  and the arguments are as before.
-/
import proofs.«105152_j14491219657222_1_alg».proof.Proof.KernelIdealFrameP
import proofs.«105152_j14491219657222_1_alg».proof.Proof.KernelHostFns
import proofs.«105152_j14491219657222_1_alg».proof.Proof.Reg15
import proofs.«105152_j14491219657222_1_alg».proof.Proof.Reg16
import Idealize.ShloMosaic.Lib.StableHlo.Run

set_option maxRecDepth 16384

noncomputable section

namespace Cert.KernelIdeal.KHop8

open Cert.KernelIdeal Cert.KernelIdeal.Gen Cert.KernelIdeal.GenP Cert.KernelIdeal.Fns
open Idealize.ShloMosaic Idealize.ShloMosaic.TcCoe Idealize.ShloMosaic.StableHlo
open Idealize.SL Idealize.SL.Sem

variable {F : FTy → Type} [FloatOps F]
variable (m : (ℓ : Loc nD τ sig) → Buf (Elt F) ℓ) (ρ : Dev nD → PrngReg)

set_option maxHeartbeats 4000000 in
theorem A_ht (c : Dev nD) : W51 m ρ c (Proc.devRef .tc main_v319) = tgtPad (W48 m ρ c (Proc.devRef .tc main_v3)) (W48 m ρ c (Proc.devRef .tc main_v304)) (W48 m ρ c (Proc.devRef .tc main_arg5)) := by
  dsimp only [W51, W50, W49, hostOps15, hostOps15_1, hostOps15_2]
  after_results_simp
  rfl

set_option maxHeartbeats 4000000 in
theorem A_main_v1 (c : Dev nD) : W51 m ρ c (Proc.devRef .tc main_v1) = W48 m ρ c (Proc.devRef .tc main_v1) := by
  dsimp only [W51, W50, W49, hostOps15, hostOps15_1, hostOps15_2]
  after_results_simp

set_option maxHeartbeats 4000000 in
theorem A_main_v3 (c : Dev nD) : W51 m ρ c (Proc.devRef .tc main_v3) = W48 m ρ c (Proc.devRef .tc main_v3) := by
  dsimp only [W51, W50, W49, hostOps15, hostOps15_1, hostOps15_2]
  after_results_simp

set_option maxHeartbeats 4000000 in
theorem A_main_v4 (c : Dev nD) : W51 m ρ c (Proc.devRef .tc main_v4) = W48 m ρ c (Proc.devRef .tc main_v4) := by
  dsimp only [W51, W50, W49, hostOps15, hostOps15_1, hostOps15_2]
  after_results_simp

set_option maxHeartbeats 4000000 in
theorem A_main_arg5 (c : Dev nD) : W51 m ρ c (Proc.devRef .tc main_arg5) = W48 m ρ c (Proc.devRef .tc main_arg5) := by
  dsimp only [W51, W50, W49, hostOps15, hostOps15_1, hostOps15_2]
  after_results_simp

set_option maxHeartbeats 4000000 in
theorem A_main_arg6 (c : Dev nD) : W51 m ρ c (Proc.devRef .tc main_arg6) = W48 m ρ c (Proc.devRef .tc main_arg6) := by
  dsimp only [W51, W50, W49, hostOps15, hostOps15_1, hostOps15_2]
  after_results_simp

set_option maxHeartbeats 4000000 in
theorem A_main_arg7 (c : Dev nD) : W51 m ρ c (Proc.devRef .tc main_arg7) = W48 m ρ c (Proc.devRef .tc main_arg7) := by
  dsimp only [W51, W50, W49, hostOps15, hostOps15_1, hostOps15_2]
  after_results_simp

set_option maxHeartbeats 4000000 in
theorem A_main_v21 (c : Dev nD) : W51 m ρ c (Proc.devRef .tc main_v21) = W48 m ρ c (Proc.devRef .tc main_v21) := by
  dsimp only [W51, W50, W49, hostOps15, hostOps15_1, hostOps15_2]
  after_results_simp

set_option maxHeartbeats 4000000 in
theorem A_main_v31 (c : Dev nD) : W51 m ρ c (Proc.devRef .tc main_v31) = W48 m ρ c (Proc.devRef .tc main_v31) := by
  dsimp only [W51, W50, W49, hostOps15, hostOps15_1, hostOps15_2]
  after_results_simp

set_option maxHeartbeats 4000000 in
theorem A_main_v304 (c : Dev nD) : W51 m ρ c (Proc.devRef .tc main_v304) = W48 m ρ c (Proc.devRef .tc main_v304) := by
  dsimp only [W51, W50, W49, hostOps15, hostOps15_1, hostOps15_2]
  after_results_simp

/-- The weight launch reads the padded source scores through an input window and leaves them as they were. -/
theorem E_main_v31 (c : Dev nD) : W52 m ρ c (Proc.devRef .tc main_v31) = W51 m ρ c (Proc.devRef .tc main_v31) :=
  (W52_arr m ρ c 0).trans (((dat15 (V51 m ρ) c).arrAt_in 0 rfl _).trans (A_eq15 (V51 m ρ) c 0))

theorem E_out (c : Dev nD) : W52 m ρ c (Proc.devRef .tc main_v320) = edgeW (W51 m ρ c (Proc.devRef .tc main_v31)) (W51 m ρ c (Proc.devRef .tc main_v319)) :=
  (W52_arr m ρ c 2).trans (Reg15.final (V51 m ρ) c)

set_option maxHeartbeats 4000000 in
theorem B_num (c : Dev nD) : W53 m ρ c (Proc.devRef .tc main_v342) = hopNum (W52 m ρ c (Proc.devRef .tc main_v1)) (W52 m ρ c (Proc.devRef .tc main_v3)) (W52 m ρ c (Proc.devRef .tc main_v4)) (W52 m ρ c (Proc.devRef .tc main_v304)) (W52 m ρ c (Proc.devRef .tc main_v21)) (W52 m ρ c (Proc.devRef .tc main_v320)) := by
  dsimp only [W53, hostOps16]
  after_results_simp
  rfl

set_option maxHeartbeats 4000000 in
theorem B_div (c : Dev nD) : W53 m ρ c (Proc.devRef .tc main_v327) = hopDiv (W52 m ρ c (Proc.devRef .tc main_v1)) (W52 m ρ c (Proc.devRef .tc main_v21)) (W52 m ρ c (Proc.devRef .tc main_v320)) := by
  dsimp only [W53, hostOps16]
  after_results_simp
  rfl

set_option maxHeartbeats 4000000 in
theorem B_main_v1 (c : Dev nD) : W53 m ρ c (Proc.devRef .tc main_v1) = W52 m ρ c (Proc.devRef .tc main_v1) := by
  dsimp only [W53, hostOps16]
  after_results_simp

set_option maxHeartbeats 4000000 in
theorem B_main_v3 (c : Dev nD) : W53 m ρ c (Proc.devRef .tc main_v3) = W52 m ρ c (Proc.devRef .tc main_v3) := by
  dsimp only [W53, hostOps16]
  after_results_simp

set_option maxHeartbeats 4000000 in
theorem B_main_v4 (c : Dev nD) : W53 m ρ c (Proc.devRef .tc main_v4) = W52 m ρ c (Proc.devRef .tc main_v4) := by
  dsimp only [W53, hostOps16]
  after_results_simp

set_option maxHeartbeats 4000000 in
theorem B_main_arg5 (c : Dev nD) : W53 m ρ c (Proc.devRef .tc main_arg5) = W52 m ρ c (Proc.devRef .tc main_arg5) := by
  dsimp only [W53, hostOps16]
  after_results_simp

set_option maxHeartbeats 4000000 in
theorem B_main_arg6 (c : Dev nD) : W53 m ρ c (Proc.devRef .tc main_arg6) = W52 m ρ c (Proc.devRef .tc main_arg6) := by
  dsimp only [W53, hostOps16]
  after_results_simp

set_option maxHeartbeats 4000000 in
theorem B_main_arg7 (c : Dev nD) : W53 m ρ c (Proc.devRef .tc main_arg7) = W52 m ρ c (Proc.devRef .tc main_arg7) := by
  dsimp only [W53, hostOps16]
  after_results_simp

set_option maxHeartbeats 4000000 in
theorem B_main_v21 (c : Dev nD) : W53 m ρ c (Proc.devRef .tc main_v21) = W52 m ρ c (Proc.devRef .tc main_v21) := by
  dsimp only [W53, hostOps16]
  after_results_simp

set_option maxHeartbeats 4000000 in
theorem B_main_v31 (c : Dev nD) : W53 m ρ c (Proc.devRef .tc main_v31) = W52 m ρ c (Proc.devRef .tc main_v31) := by
  dsimp only [W53, hostOps16]
  after_results_simp

theorem N_out (c : Dev nD) : W54 m ρ c (Proc.devRef .tc main_v343) = normW (W53 m ρ c (Proc.devRef .tc main_v342)) (W53 m ρ c (Proc.devRef .tc main_v327)) :=
  (W54_arr m ρ c 2).trans (Reg16.final (V53 m ρ) c)

/-- The features after hop 8 are the hop function of the contents at its start. -/
theorem out (c : Dev nD) : W54 m ρ c (Proc.devRef .tc main_v343)
    = kerHop (W48 m ρ c (Proc.devRef .tc main_v1)) (W48 m ρ c (Proc.devRef .tc main_v3)) (W48 m ρ c (Proc.devRef .tc main_v4)) (W48 m ρ c (Proc.devRef .tc main_v304)) (W48 m ρ c (Proc.devRef .tc main_v21)) (W48 m ρ c (Proc.devRef .tc main_v31)) (W48 m ρ c (Proc.devRef .tc main_arg5)) := by
  rw [N_out, B_num, B_div, E_out]
  rw [W52_of_ne m ρ c main_v1 (by decide), W52_of_ne m ρ c main_v3 (by decide), W52_of_ne m ρ c main_v4 (by decide), W52_of_ne m ρ c main_v304 (by decide), W52_of_ne m ρ c main_v21 (by decide)]
  rw [A_ht, A_main_v21, A_main_v31, A_main_v1, A_main_v3, A_main_v4, A_main_v304]
  rfl

theorem keep_main_v1 (c : Dev nD) : W54 m ρ c (Proc.devRef .tc main_v1) = W48 m ρ c (Proc.devRef .tc main_v1) := by
  rw [W54_of_ne m ρ c main_v1 (by decide), B_main_v1, W52_of_ne m ρ c main_v1 (by decide), A_main_v1]

theorem keep_main_v3 (c : Dev nD) : W54 m ρ c (Proc.devRef .tc main_v3) = W48 m ρ c (Proc.devRef .tc main_v3) := by
  rw [W54_of_ne m ρ c main_v3 (by decide), B_main_v3, W52_of_ne m ρ c main_v3 (by decide), A_main_v3]

theorem keep_main_v4 (c : Dev nD) : W54 m ρ c (Proc.devRef .tc main_v4) = W48 m ρ c (Proc.devRef .tc main_v4) := by
  rw [W54_of_ne m ρ c main_v4 (by decide), B_main_v4, W52_of_ne m ρ c main_v4 (by decide), A_main_v4]

theorem keep_main_arg5 (c : Dev nD) : W54 m ρ c (Proc.devRef .tc main_arg5) = W48 m ρ c (Proc.devRef .tc main_arg5) := by
  rw [W54_of_ne m ρ c main_arg5 (by decide), B_main_arg5, W52_of_ne m ρ c main_arg5 (by decide), A_main_arg5]

theorem keep_main_arg6 (c : Dev nD) : W54 m ρ c (Proc.devRef .tc main_arg6) = W48 m ρ c (Proc.devRef .tc main_arg6) := by
  rw [W54_of_ne m ρ c main_arg6 (by decide), B_main_arg6, W52_of_ne m ρ c main_arg6 (by decide), A_main_arg6]

theorem keep_main_arg7 (c : Dev nD) : W54 m ρ c (Proc.devRef .tc main_arg7) = W48 m ρ c (Proc.devRef .tc main_arg7) := by
  rw [W54_of_ne m ρ c main_arg7 (by decide), B_main_arg7, W52_of_ne m ρ c main_arg7 (by decide), A_main_arg7]

theorem keep_main_v21 (c : Dev nD) : W54 m ρ c (Proc.devRef .tc main_v21) = W48 m ρ c (Proc.devRef .tc main_v21) := by
  rw [W54_of_ne m ρ c main_v21 (by decide), B_main_v21, W52_of_ne m ρ c main_v21 (by decide), A_main_v21]

theorem keep_main_v31 (c : Dev nD) : W54 m ρ c (Proc.devRef .tc main_v31) = W48 m ρ c (Proc.devRef .tc main_v31) := by
  rw [W54_of_ne m ρ c main_v31 (by decide), B_main_v31, E_main_v31, A_main_v31]

end Cert.KernelIdeal.KHop8

end
-- ==== Proof.Reg17.lean ====
/-
  Launch 17 (the per-edge attention weight) on the whole array. Its grid has two points; point t loads rows
  3128·t … 3128·t + 3127 of both score arrays, all 128 columns, and writes the same rows of the weight array. The two
  blocks cover the 6256 rows, and a block of the result is the pointwise function of the same block of the inputs,
  so after the launch the weight array is the pointwise function of the two score arrays as the launch found them.
-/
import proofs.«105152_j14491219657222_1_alg».proof.Proof.KernelIdealFrameP
import proofs.«105152_j14491219657222_1_alg».proof.Proof.KernelFns
import Idealize.ShloMosaic.Lib.Pipeline.Value

set_option maxRecDepth 16384

noncomputable section

namespace Cert.KernelIdeal.Reg17

open Cert.KernelIdeal Cert.KernelIdeal.Gen Cert.KernelIdeal.GenP Cert.KernelIdeal.Fns
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- Decided over the two grid points: both inputs' blocks move with the output's, whose row index is the point
    and whose column index is 0. -/
theorem idx_facts : ∀ t : Fin cfg17.N, win17_0.index t (0 : Fin 2) = win17_2.index t (0 : Fin 2) + 0
    ∧ win17_0.index t (1 : Fin 2) = win17_2.index t (1 : Fin 2) + 0
    ∧ win17_1.index t (0 : Fin 2) = win17_2.index t (0 : Fin 2) + 0
    ∧ win17_1.index t (1 : Fin 2) = win17_2.index t (1 : Fin 2) + 0
    ∧ 0 ≤ win17_2.index t (0 : Fin 2) ∧ win17_2.index t (0 : Fin 2) ≤ 1
    ∧ 0 ≤ win17_2.index t (1 : Fin 2) ∧ win17_2.index t (1 : Fin 2) ≤ 0 :=
  (by decide +kernel : ∀ t : Fin grid17.N, _)

/-- Every row block is some point's. -/
theorem idx_onto : ∀ (q0 : Fin 2) (q1 : Fin 1), ∃ t : Fin cfg17.N, win17_2.index t = ![q0.val + 0, q1.val + 0] :=
  (by decide +kernel : ∀ (q0 : Fin 2) (q1 : Fin 1), ∃ t : Fin grid17.N, win17_2.index t = ![q0.val + 0, q1.val + 0])

/-- What point t writes back is block t of the pointwise function of the two arrays. -/
theorem flushed_eq (c : Dev nD) (t : Fin cfg17.N) :
    (dat17 V c).flushed 2 t = ((cfg17.win 2).blk t).view.read (Elt F) (edgeW (V c main_v31) (V c main_v358)) := by
  show (cfg17.win 2).cut (grid17.coords t) ((dat17 V c).after 2 t) = _
  rw [after17_2]
  unfold out17_2
  rw [View.canon_unit_zero hz]
  simp only [View.ld_unit_zero (S := S3128x128) hz]
  rw [pay17]
  obtain ⟨e0, e1, e2, e3, e4, e5, e6, e7⟩ := idx_facts t
  funext j
  show edgeS (V c main_v31 (((cfg17.win 0).blk t).view.emb j)) (V c main_v358 (((cfg17.win 1).blk t).view.emb j))
     = edgeS (V c main_v31 (((cfg17.win 2).blk t).view.emb j)) (V c main_v358 (((cfg17.win 2).blk t).view.emb j))
  have h0 : ((cfg17.win 0).blk t).view.emb j = ((cfg17.win 2).blk t).view.emb j := by
    funext a; apply Fin.ext
    match a with
    | ⟨0, _⟩ => show win17_0.index t (0 : Fin 2) * 3128 + 1 * (j 0).val = win17_2.index t (0 : Fin 2) * 3128 + 1 * (j 0).val; omega
    | ⟨1, _⟩ => show win17_0.index t (1 : Fin 2) * 128 + 1 * (j 1).val = win17_2.index t (1 : Fin 2) * 128 + 1 * (j 1).val; omega
  have h1 : ((cfg17.win 1).blk t).view.emb j = ((cfg17.win 2).blk t).view.emb j := by
    funext a; apply Fin.ext
    match a with
    | ⟨0, _⟩ => show win17_1.index t (0 : Fin 2) * 3128 + 1 * (j 0).val = win17_2.index t (0 : Fin 2) * 3128 + 1 * (j 0).val; omega
    | ⟨1, _⟩ => show win17_1.index t (1 : Fin 2) * 128 + 1 * (j 1).val = win17_2.index t (1 : Fin 2) * 128 + 1 * (j 1).val; omega
  rw [h0, h1] <;> rfl

/-- An entry is in point t's block iff each coordinate is in the block's range on its axis. -/
theorem mem_blk (t : Fin cfg17.N) (i : S6256x128.Idx) :
    i ∈ ((cfg17.win 2).blk t).view.set ↔ ∀ a : Fin 2, win17_2.index t a * S3128x128.size a ≤ (i a).val ∧ (i a).val < win17_2.index t a * S3128x128.size a + S3128x128.size a := by
  show i ∈ ((View.whole main_v359).slice (win17_2.rect t)).set ↔ _
  rw [View.set_slice_whole, Rect.mem_set_unit]
  exact Iff.rfl

/-- Row r is in the block of point r / 3128. -/
theorem cover (i : S6256x128.Idx) : ∃ t : Fin cfg17.N, (cfg17.win 2).flush t = true ∧ i ∈ ((cfg17.win 2).blk t).view.set := by
  have hi0 : (i 0).val < 6256 := (i 0).isLt
  have hi1 : (i 1).val < 128 := (i 1).isLt
  obtain ⟨t, ht⟩ := idx_onto ⟨(i 0).val / 3128, by omega⟩ ⟨(i 1).val / 128, by omega⟩
  have q0 : win17_2.index t (0 : Fin 2) = (i 0).val / 3128 + 0 := congrFun ht 0
  have q1 : win17_2.index t (1 : Fin 2) = (i 1).val / 128 + 0 := congrFun ht 1
  refine ⟨t, flush17_2 t, ?_⟩
  rw [mem_blk]
  intro a
  match a with
  | ⟨0, _⟩ => show win17_2.index t (0 : Fin 2) * 3128 ≤ (i 0).val ∧ (i 0).val < win17_2.index t (0 : Fin 2) * 3128 + 3128; omega
  | ⟨1, _⟩ => show win17_2.index t (1 : Fin 2) * 128 ≤ (i 1).val ∧ (i 1).val < win17_2.index t (1 : Fin 2) * 128 + 128; omega

/-- After the launch the weight array is the pointwise function of the two score arrays. -/
theorem final (c : Dev nD) : (dat17 V c).arrAt 2 cfg17.N = edgeW (V c main_v31) (V c main_v358) :=
  (dat17 V c).arrAt_eq_of_cover 2 _ (fun t _ => flushed_eq V c t) cover

end Cert.KernelIdeal.Reg17

end
-- ==== Proof.Reg18.lean ====
/-
  Launch 18 (the per-node normalization) on the whole array. Its grid has 25 points; point t loads rows
  2000·t … 2000·t + 1999 of the numerator (96 columns) and of the divisor (one column) and writes the same rows of
  the result. The 25 blocks cover the 50000 rows, and an entry of the result's block is the normalization of the
  numerator's entry against its row's divisor, so after the launch the result array is that function of the two
  arrays as the launch found them.
-/
import proofs.«105152_j14491219657222_1_alg».proof.Proof.KernelIdealFrameP
import proofs.«105152_j14491219657222_1_alg».proof.Proof.KernelFns
import Idealize.ShloMosaic.Lib.Pipeline.Value

set_option maxRecDepth 16384

noncomputable section

namespace Cert.KernelIdeal.Reg18

open Cert.KernelIdeal Cert.KernelIdeal.Gen Cert.KernelIdeal.GenP Cert.KernelIdeal.Fns
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- Decided over the 25 grid points: both inputs' blocks move with the output's, whose row index is the point and
    whose column index is 0. -/
theorem idx_facts : ∀ t : Fin cfg18.N, win18_0.index t (0 : Fin 2) = win18_2.index t (0 : Fin 2) + 0
    ∧ win18_0.index t (1 : Fin 2) = win18_2.index t (1 : Fin 2) + 0
    ∧ win18_1.index t (0 : Fin 2) = win18_2.index t (0 : Fin 2) + 0
    ∧ win18_1.index t (1 : Fin 2) = win18_2.index t (1 : Fin 2) + 0
    ∧ 0 ≤ win18_2.index t (0 : Fin 2) ∧ win18_2.index t (0 : Fin 2) ≤ 24
    ∧ 0 ≤ win18_2.index t (1 : Fin 2) ∧ win18_2.index t (1 : Fin 2) ≤ 0 :=
  (by decide +kernel : ∀ t : Fin grid18.N, _)

/-- Every row block is some point's. -/
theorem idx_onto : ∀ (q0 : Fin 25) (q1 : Fin 1), ∃ t : Fin cfg18.N, win18_2.index t = ![q0.val + 0, q1.val + 0] :=
  (by decide +kernel : ∀ (q0 : Fin 25) (q1 : Fin 1), ∃ t : Fin grid18.N, win18_2.index t = ![q0.val + 0, q1.val + 0])

/-- What point t writes back is block t of the normalization of the two arrays. -/
theorem flushed_eq (c : Dev nD) (t : Fin cfg18.N) :
    (dat18 V c).flushed 2 t = ((cfg18.win 2).blk t).view.read (Elt F) (normW (V c main_v381) (V c main_v366)) := by
  show (cfg18.win 2).cut (grid18.coords t) ((dat18 V c).after 2 t) = _
  rw [after18_2]
  unfold out18_2
  rw [View.canon_unit_zero hz]
  simp only [View.ld_unit_zero (S := S2000x96) hz, View.ld_unit_zero (S := S2000x1) hz]
  rw [pay18]
  obtain ⟨e0, e1, e2, e3, e4, e5, e6, e7⟩ := idx_facts t
  funext j
  show normS (V c main_v381 (((cfg18.win 0).blk t).view.emb j)) (V c main_v366 (((cfg18.win 1).blk t).view.emb (ix2 (j 0) (0 : Fin 1))))
     = normS (V c main_v381 (((cfg18.win 2).blk t).view.emb j)) (V c main_v366 (ix2 ((((cfg18.win 2).blk t).view.emb j) 0) (0 : Fin 1)))
  have h0 : ((cfg18.win 0).blk t).view.emb j = ((cfg18.win 2).blk t).view.emb j := by
    funext a; apply Fin.ext
    match a with
    | ⟨0, _⟩ => show win18_0.index t (0 : Fin 2) * 2000 + 1 * (j 0).val = win18_2.index t (0 : Fin 2) * 2000 + 1 * (j 0).val; omega
    | ⟨1, _⟩ => show win18_0.index t (1 : Fin 2) * 96 + 1 * (j 1).val = win18_2.index t (1 : Fin 2) * 96 + 1 * (j 1).val; omega
  have h1 : ((cfg18.win 1).blk t).view.emb (ix2 (j 0) (0 : Fin 1)) = ix2 ((((cfg18.win 2).blk t).view.emb j) 0) (0 : Fin 1) := by
    funext a; apply Fin.ext
    match a with
    | ⟨0, _⟩ => show win18_1.index t (0 : Fin 2) * 2000 + 1 * (j 0).val = win18_2.index t (0 : Fin 2) * 2000 + 1 * (j 0).val; omega
    | ⟨1, _⟩ => show win18_1.index t (1 : Fin 2) * 1 + 1 * 0 = 0; omega
  rw [h0, h1] <;> rfl

/-- An entry is in point t's block iff each coordinate is in the block's range on its axis. -/
theorem mem_blk (t : Fin cfg18.N) (i : S50000x96.Idx) :
    i ∈ ((cfg18.win 2).blk t).view.set ↔ ∀ a : Fin 2, win18_2.index t a * S2000x96.size a ≤ (i a).val ∧ (i a).val < win18_2.index t a * S2000x96.size a + S2000x96.size a := by
  show i ∈ ((View.whole main_v382).slice (win18_2.rect t)).set ↔ _
  rw [View.set_slice_whole, Rect.mem_set_unit]
  exact Iff.rfl

/-- Row r is in the block of point r / 2000. -/
theorem cover (i : S50000x96.Idx) : ∃ t : Fin cfg18.N, (cfg18.win 2).flush t = true ∧ i ∈ ((cfg18.win 2).blk t).view.set := by
  have hi0 : (i 0).val < 50000 := (i 0).isLt
  have hi1 : (i 1).val < 96 := (i 1).isLt
  obtain ⟨t, ht⟩ := idx_onto ⟨(i 0).val / 2000, by omega⟩ ⟨(i 1).val / 96, by omega⟩
  have q0 : win18_2.index t (0 : Fin 2) = (i 0).val / 2000 + 0 := congrFun ht 0
  have q1 : win18_2.index t (1 : Fin 2) = (i 1).val / 96 + 0 := congrFun ht 1
  refine ⟨t, flush18_2 t, ?_⟩
  rw [mem_blk]
  intro a
  match a with
  | ⟨0, _⟩ => show win18_2.index t (0 : Fin 2) * 2000 ≤ (i 0).val ∧ (i 0).val < win18_2.index t (0 : Fin 2) * 2000 + 2000; omega
  | ⟨1, _⟩ => show win18_2.index t (1 : Fin 2) * 96 ≤ (i 1).val ∧ (i 1).val < win18_2.index t (1 : Fin 2) * 96 + 96; omega

/-- After the launch the result array is the normalization of the numerator array against the divisor column. -/
theorem final (c : Dev nD) : (dat18 V c).arrAt 2 cfg18.N = normW (V c main_v381) (V c main_v366) :=
  (dat18 V c).arrAt_eq_of_cover 2 _ (fun t _ => flushed_eq V c t) cover

end Cert.KernelIdeal.Reg18

end
-- ==== Proof.KHop9.lean ====
/-
  Hop 9 of the kernel program, from the buffer contents at its start to those at its end: the host stretch that
  gathers and pads the target scores, the weight launch, the host stretch of the two scatter-adds, the
  normalization launch. Each stretch leaves its function of the buffers it reads and keeps the others; each launch
  writes its result array and keeps every other buffer. Chained: the features after the hop are the hop function of
  the features before it, and the index rows, the projected features, the self-loop weight, the padded source scores
  and the arguments are as before.
-/
import proofs.«105152_j14491219657222_1_alg».proof.Proof.KernelIdealFrameP
import proofs.«105152_j14491219657222_1_alg».proof.Proof.KernelHostFns
import proofs.«105152_j14491219657222_1_alg».proof.Proof.Reg17
import proofs.«105152_j14491219657222_1_alg».proof.Proof.Reg18
import Idealize.ShloMosaic.Lib.StableHlo.Run

set_option maxRecDepth 16384

noncomputable section

namespace Cert.KernelIdeal.KHop9

open Cert.KernelIdeal Cert.KernelIdeal.Gen Cert.KernelIdeal.GenP Cert.KernelIdeal.Fns
open Idealize.ShloMosaic Idealize.ShloMosaic.TcCoe Idealize.ShloMosaic.StableHlo
open Idealize.SL Idealize.SL.Sem

variable {F : FTy → Type} [FloatOps F]
variable (m : (ℓ : Loc nD τ sig) → Buf (Elt F) ℓ) (ρ : Dev nD → PrngReg)

set_option maxHeartbeats 4000000 in
theorem A_ht (c : Dev nD) : W57 m ρ c (Proc.devRef .tc main_v358) = tgtPad (W54 m ρ c (Proc.devRef .tc main_v3)) (W54 m ρ c (Proc.devRef .tc main_v343)) (W54 m ρ c (Proc.devRef .tc main_arg5)) := by
  dsimp only [W57, W56, W55, hostOps17, hostOps17_1, hostOps17_2]
  after_results_simp
  rfl

set_option maxHeartbeats 4000000 in
theorem A_main_v1 (c : Dev nD) : W57 m ρ c (Proc.devRef .tc main_v1) = W54 m ρ c (Proc.devRef .tc main_v1) := by
  dsimp only [W57, W56, W55, hostOps17, hostOps17_1, hostOps17_2]
  after_results_simp

set_option maxHeartbeats 4000000 in
theorem A_main_v3 (c : Dev nD) : W57 m ρ c (Proc.devRef .tc main_v3) = W54 m ρ c (Proc.devRef .tc main_v3) := by
  dsimp only [W57, W56, W55, hostOps17, hostOps17_1, hostOps17_2]
  after_results_simp

set_option maxHeartbeats 4000000 in
theorem A_main_v4 (c : Dev nD) : W57 m ρ c (Proc.devRef .tc main_v4) = W54 m ρ c (Proc.devRef .tc main_v4) := by
  dsimp only [W57, W56, W55, hostOps17, hostOps17_1, hostOps17_2]
  after_results_simp

set_option maxHeartbeats 4000000 in
theorem A_main_arg5 (c : Dev nD) : W57 m ρ c (Proc.devRef .tc main_arg5) = W54 m ρ c (Proc.devRef .tc main_arg5) := by
  dsimp only [W57, W56, W55, hostOps17, hostOps17_1, hostOps17_2]
  after_results_simp

set_option maxHeartbeats 4000000 in
theorem A_main_arg6 (c : Dev nD) : W57 m ρ c (Proc.devRef .tc main_arg6) = W54 m ρ c (Proc.devRef .tc main_arg6) := by
  dsimp only [W57, W56, W55, hostOps17, hostOps17_1, hostOps17_2]
  after_results_simp

set_option maxHeartbeats 4000000 in
theorem A_main_arg7 (c : Dev nD) : W57 m ρ c (Proc.devRef .tc main_arg7) = W54 m ρ c (Proc.devRef .tc main_arg7) := by
  dsimp only [W57, W56, W55, hostOps17, hostOps17_1, hostOps17_2]
  after_results_simp

set_option maxHeartbeats 4000000 in
theorem A_main_v21 (c : Dev nD) : W57 m ρ c (Proc.devRef .tc main_v21) = W54 m ρ c (Proc.devRef .tc main_v21) := by
  dsimp only [W57, W56, W55, hostOps17, hostOps17_1, hostOps17_2]
  after_results_simp

set_option maxHeartbeats 4000000 in
theorem A_main_v31 (c : Dev nD) : W57 m ρ c (Proc.devRef .tc main_v31) = W54 m ρ c (Proc.devRef .tc main_v31) := by
  dsimp only [W57, W56, W55, hostOps17, hostOps17_1, hostOps17_2]
  after_results_simp

set_option maxHeartbeats 4000000 in
theorem A_main_v343 (c : Dev nD) : W57 m ρ c (Proc.devRef .tc main_v343) = W54 m ρ c (Proc.devRef .tc main_v343) := by
  dsimp only [W57, W56, W55, hostOps17, hostOps17_1, hostOps17_2]
  after_results_simp

/-- The weight launch reads the padded source scores through an input window and leaves them as they were. -/
theorem E_main_v31 (c : Dev nD) : W58 m ρ c (Proc.devRef .tc main_v31) = W57 m ρ c (Proc.devRef .tc main_v31) :=
  (W58_arr m ρ c 0).trans (((dat17 (V57 m ρ) c).arrAt_in 0 rfl _).trans (A_eq17 (V57 m ρ) c 0))

theorem E_out (c : Dev nD) : W58 m ρ c (Proc.devRef .tc main_v359) = edgeW (W57 m ρ c (Proc.devRef .tc main_v31)) (W57 m ρ c (Proc.devRef .tc main_v358)) :=
  (W58_arr m ρ c 2).trans (Reg17.final (V57 m ρ) c)

set_option maxHeartbeats 4000000 in
theorem B_num (c : Dev nD) : W59 m ρ c (Proc.devRef .tc main_v381) = hopNum (W58 m ρ c (Proc.devRef .tc main_v1)) (W58 m ρ c (Proc.devRef .tc main_v3)) (W58 m ρ c (Proc.devRef .tc main_v4)) (W58 m ρ c (Proc.devRef .tc main_v343)) (W58 m ρ c (Proc.devRef .tc main_v21)) (W58 m ρ c (Proc.devRef .tc main_v359)) := by
  dsimp only [W59, hostOps18]
  after_results_simp
  rfl

set_option maxHeartbeats 4000000 in
theorem B_div (c : Dev nD) : W59 m ρ c (Proc.devRef .tc main_v366) = hopDiv (W58 m ρ c (Proc.devRef .tc main_v1)) (W58 m ρ c (Proc.devRef .tc main_v21)) (W58 m ρ c (Proc.devRef .tc main_v359)) := by
  dsimp only [W59, hostOps18]
  after_results_simp
  rfl

set_option maxHeartbeats 4000000 in
theorem B_main_v1 (c : Dev nD) : W59 m ρ c (Proc.devRef .tc main_v1) = W58 m ρ c (Proc.devRef .tc main_v1) := by
  dsimp only [W59, hostOps18]
  after_results_simp

set_option maxHeartbeats 4000000 in
theorem B_main_v3 (c : Dev nD) : W59 m ρ c (Proc.devRef .tc main_v3) = W58 m ρ c (Proc.devRef .tc main_v3) := by
  dsimp only [W59, hostOps18]
  after_results_simp

set_option maxHeartbeats 4000000 in
theorem B_main_v4 (c : Dev nD) : W59 m ρ c (Proc.devRef .tc main_v4) = W58 m ρ c (Proc.devRef .tc main_v4) := by
  dsimp only [W59, hostOps18]
  after_results_simp

set_option maxHeartbeats 4000000 in
theorem B_main_arg5 (c : Dev nD) : W59 m ρ c (Proc.devRef .tc main_arg5) = W58 m ρ c (Proc.devRef .tc main_arg5) := by
  dsimp only [W59, hostOps18]
  after_results_simp

set_option maxHeartbeats 4000000 in
theorem B_main_arg6 (c : Dev nD) : W59 m ρ c (Proc.devRef .tc main_arg6) = W58 m ρ c (Proc.devRef .tc main_arg6) := by
  dsimp only [W59, hostOps18]
  after_results_simp

set_option maxHeartbeats 4000000 in
theorem B_main_arg7 (c : Dev nD) : W59 m ρ c (Proc.devRef .tc main_arg7) = W58 m ρ c (Proc.devRef .tc main_arg7) := by
  dsimp only [W59, hostOps18]
  after_results_simp

set_option maxHeartbeats 4000000 in
theorem B_main_v21 (c : Dev nD) : W59 m ρ c (Proc.devRef .tc main_v21) = W58 m ρ c (Proc.devRef .tc main_v21) := by
  dsimp only [W59, hostOps18]
  after_results_simp

set_option maxHeartbeats 4000000 in
theorem B_main_v31 (c : Dev nD) : W59 m ρ c (Proc.devRef .tc main_v31) = W58 m ρ c (Proc.devRef .tc main_v31) := by
  dsimp only [W59, hostOps18]
  after_results_simp

theorem N_out (c : Dev nD) : W60 m ρ c (Proc.devRef .tc main_v382) = normW (W59 m ρ c (Proc.devRef .tc main_v381)) (W59 m ρ c (Proc.devRef .tc main_v366)) :=
  (W60_arr m ρ c 2).trans (Reg18.final (V59 m ρ) c)

/-- The features after hop 9 are the hop function of the contents at its start. -/
theorem out (c : Dev nD) : W60 m ρ c (Proc.devRef .tc main_v382)
    = kerHop (W54 m ρ c (Proc.devRef .tc main_v1)) (W54 m ρ c (Proc.devRef .tc main_v3)) (W54 m ρ c (Proc.devRef .tc main_v4)) (W54 m ρ c (Proc.devRef .tc main_v343)) (W54 m ρ c (Proc.devRef .tc main_v21)) (W54 m ρ c (Proc.devRef .tc main_v31)) (W54 m ρ c (Proc.devRef .tc main_arg5)) := by
  rw [N_out, B_num, B_div, E_out]
  rw [W58_of_ne m ρ c main_v1 (by decide), W58_of_ne m ρ c main_v3 (by decide), W58_of_ne m ρ c main_v4 (by decide), W58_of_ne m ρ c main_v343 (by decide), W58_of_ne m ρ c main_v21 (by decide)]
  rw [A_ht, A_main_v21, A_main_v31, A_main_v1, A_main_v3, A_main_v4, A_main_v343]
  rfl

theorem keep_main_v1 (c : Dev nD) : W60 m ρ c (Proc.devRef .tc main_v1) = W54 m ρ c (Proc.devRef .tc main_v1) := by
  rw [W60_of_ne m ρ c main_v1 (by decide), B_main_v1, W58_of_ne m ρ c main_v1 (by decide), A_main_v1]

theorem keep_main_v3 (c : Dev nD) : W60 m ρ c (Proc.devRef .tc main_v3) = W54 m ρ c (Proc.devRef .tc main_v3) := by
  rw [W60_of_ne m ρ c main_v3 (by decide), B_main_v3, W58_of_ne m ρ c main_v3 (by decide), A_main_v3]

theorem keep_main_v4 (c : Dev nD) : W60 m ρ c (Proc.devRef .tc main_v4) = W54 m ρ c (Proc.devRef .tc main_v4) := by
  rw [W60_of_ne m ρ c main_v4 (by decide), B_main_v4, W58_of_ne m ρ c main_v4 (by decide), A_main_v4]

theorem keep_main_arg5 (c : Dev nD) : W60 m ρ c (Proc.devRef .tc main_arg5) = W54 m ρ c (Proc.devRef .tc main_arg5) := by
  rw [W60_of_ne m ρ c main_arg5 (by decide), B_main_arg5, W58_of_ne m ρ c main_arg5 (by decide), A_main_arg5]

theorem keep_main_arg6 (c : Dev nD) : W60 m ρ c (Proc.devRef .tc main_arg6) = W54 m ρ c (Proc.devRef .tc main_arg6) := by
  rw [W60_of_ne m ρ c main_arg6 (by decide), B_main_arg6, W58_of_ne m ρ c main_arg6 (by decide), A_main_arg6]

theorem keep_main_arg7 (c : Dev nD) : W60 m ρ c (Proc.devRef .tc main_arg7) = W54 m ρ c (Proc.devRef .tc main_arg7) := by
  rw [W60_of_ne m ρ c main_arg7 (by decide), B_main_arg7, W58_of_ne m ρ c main_arg7 (by decide), A_main_arg7]

theorem keep_main_v21 (c : Dev nD) : W60 m ρ c (Proc.devRef .tc main_v21) = W54 m ρ c (Proc.devRef .tc main_v21) := by
  rw [W60_of_ne m ρ c main_v21 (by decide), B_main_v21, W58_of_ne m ρ c main_v21 (by decide), A_main_v21]

theorem keep_main_v31 (c : Dev nD) : W60 m ρ c (Proc.devRef .tc main_v31) = W54 m ρ c (Proc.devRef .tc main_v31) := by
  rw [W60_of_ne m ρ c main_v31 (by decide), B_main_v31, E_main_v31, A_main_v31]

end Cert.KernelIdeal.KHop9

end
-- ==== Proof.Reg19.lean ====
/-
  Launch 19 (the per-edge attention weight) on the whole array. Its grid has two points; point t loads rows
  3128·t … 3128·t + 3127 of both score arrays, all 128 columns, and writes the same rows of the weight array. The two
  blocks cover the 6256 rows, and a block of the result is the pointwise function of the same block of the inputs,
  so after the launch the weight array is the pointwise function of the two score arrays as the launch found them.
-/
import proofs.«105152_j14491219657222_1_alg».proof.Proof.KernelIdealFrameP
import proofs.«105152_j14491219657222_1_alg».proof.Proof.KernelFns
import Idealize.ShloMosaic.Lib.Pipeline.Value

set_option maxRecDepth 16384

noncomputable section

namespace Cert.KernelIdeal.Reg19

open Cert.KernelIdeal Cert.KernelIdeal.Gen Cert.KernelIdeal.GenP Cert.KernelIdeal.Fns
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- Decided over the two grid points: both inputs' blocks move with the output's, whose row index is the point
    and whose column index is 0. -/
theorem idx_facts : ∀ t : Fin cfg19.N, win19_0.index t (0 : Fin 2) = win19_2.index t (0 : Fin 2) + 0
    ∧ win19_0.index t (1 : Fin 2) = win19_2.index t (1 : Fin 2) + 0
    ∧ win19_1.index t (0 : Fin 2) = win19_2.index t (0 : Fin 2) + 0
    ∧ win19_1.index t (1 : Fin 2) = win19_2.index t (1 : Fin 2) + 0
    ∧ 0 ≤ win19_2.index t (0 : Fin 2) ∧ win19_2.index t (0 : Fin 2) ≤ 1
    ∧ 0 ≤ win19_2.index t (1 : Fin 2) ∧ win19_2.index t (1 : Fin 2) ≤ 0 :=
  (by decide +kernel : ∀ t : Fin grid19.N, _)

/-- Every row block is some point's. -/
theorem idx_onto : ∀ (q0 : Fin 2) (q1 : Fin 1), ∃ t : Fin cfg19.N, win19_2.index t = ![q0.val + 0, q1.val + 0] :=
  (by decide +kernel : ∀ (q0 : Fin 2) (q1 : Fin 1), ∃ t : Fin grid19.N, win19_2.index t = ![q0.val + 0, q1.val + 0])

/-- What point t writes back is block t of the pointwise function of the two arrays. -/
theorem flushed_eq (c : Dev nD) (t : Fin cfg19.N) :
    (dat19 V c).flushed 2 t = ((cfg19.win 2).blk t).view.read (Elt F) (edgeW (V c main_v31) (V c main_v397)) := by
  show (cfg19.win 2).cut (grid19.coords t) ((dat19 V c).after 2 t) = _
  rw [after19_2]
  unfold out19_2
  rw [View.canon_unit_zero hz]
  simp only [View.ld_unit_zero (S := S3128x128) hz]
  rw [pay19]
  obtain ⟨e0, e1, e2, e3, e4, e5, e6, e7⟩ := idx_facts t
  funext j
  show edgeS (V c main_v31 (((cfg19.win 0).blk t).view.emb j)) (V c main_v397 (((cfg19.win 1).blk t).view.emb j))
     = edgeS (V c main_v31 (((cfg19.win 2).blk t).view.emb j)) (V c main_v397 (((cfg19.win 2).blk t).view.emb j))
  have h0 : ((cfg19.win 0).blk t).view.emb j = ((cfg19.win 2).blk t).view.emb j := by
    funext a; apply Fin.ext
    match a with
    | ⟨0, _⟩ => show win19_0.index t (0 : Fin 2) * 3128 + 1 * (j 0).val = win19_2.index t (0 : Fin 2) * 3128 + 1 * (j 0).val; omega
    | ⟨1, _⟩ => show win19_0.index t (1 : Fin 2) * 128 + 1 * (j 1).val = win19_2.index t (1 : Fin 2) * 128 + 1 * (j 1).val; omega
  have h1 : ((cfg19.win 1).blk t).view.emb j = ((cfg19.win 2).blk t).view.emb j := by
    funext a; apply Fin.ext
    match a with
    | ⟨0, _⟩ => show win19_1.index t (0 : Fin 2) * 3128 + 1 * (j 0).val = win19_2.index t (0 : Fin 2) * 3128 + 1 * (j 0).val; omega
    | ⟨1, _⟩ => show win19_1.index t (1 : Fin 2) * 128 + 1 * (j 1).val = win19_2.index t (1 : Fin 2) * 128 + 1 * (j 1).val; omega
  rw [h0, h1] <;> rfl

/-- An entry is in point t's block iff each coordinate is in the block's range on its axis. -/
theorem mem_blk (t : Fin cfg19.N) (i : S6256x128.Idx) :
    i ∈ ((cfg19.win 2).blk t).view.set ↔ ∀ a : Fin 2, win19_2.index t a * S3128x128.size a ≤ (i a).val ∧ (i a).val < win19_2.index t a * S3128x128.size a + S3128x128.size a := by
  show i ∈ ((View.whole main_v398).slice (win19_2.rect t)).set ↔ _
  rw [View.set_slice_whole, Rect.mem_set_unit]
  exact Iff.rfl

/-- Row r is in the block of point r / 3128. -/
theorem cover (i : S6256x128.Idx) : ∃ t : Fin cfg19.N, (cfg19.win 2).flush t = true ∧ i ∈ ((cfg19.win 2).blk t).view.set := by
  have hi0 : (i 0).val < 6256 := (i 0).isLt
  have hi1 : (i 1).val < 128 := (i 1).isLt
  obtain ⟨t, ht⟩ := idx_onto ⟨(i 0).val / 3128, by omega⟩ ⟨(i 1).val / 128, by omega⟩
  have q0 : win19_2.index t (0 : Fin 2) = (i 0).val / 3128 + 0 := congrFun ht 0
  have q1 : win19_2.index t (1 : Fin 2) = (i 1).val / 128 + 0 := congrFun ht 1
  refine ⟨t, flush19_2 t, ?_⟩
  rw [mem_blk]
  intro a
  match a with
  | ⟨0, _⟩ => show win19_2.index t (0 : Fin 2) * 3128 ≤ (i 0).val ∧ (i 0).val < win19_2.index t (0 : Fin 2) * 3128 + 3128; omega
  | ⟨1, _⟩ => show win19_2.index t (1 : Fin 2) * 128 ≤ (i 1).val ∧ (i 1).val < win19_2.index t (1 : Fin 2) * 128 + 128; omega

/-- After the launch the weight array is the pointwise function of the two score arrays. -/
theorem final (c : Dev nD) : (dat19 V c).arrAt 2 cfg19.N = edgeW (V c main_v31) (V c main_v397) :=
  (dat19 V c).arrAt_eq_of_cover 2 _ (fun t _ => flushed_eq V c t) cover

end Cert.KernelIdeal.Reg19

end
-- ==== Proof.Reg20.lean ====
/-
  Launch 20 (the per-node normalization) on the whole array. Its grid has 25 points; point t loads rows
  2000·t … 2000·t + 1999 of the numerator (96 columns) and of the divisor (one column) and writes the same rows of
  the result. The 25 blocks cover the 50000 rows, and an entry of the result's block is the normalization of the
  numerator's entry against its row's divisor, so after the launch the result array is that function of the two
  arrays as the launch found them.
-/
import proofs.«105152_j14491219657222_1_alg».proof.Proof.KernelIdealFrameP
import proofs.«105152_j14491219657222_1_alg».proof.Proof.KernelFns
import Idealize.ShloMosaic.Lib.Pipeline.Value

set_option maxRecDepth 16384

noncomputable section

namespace Cert.KernelIdeal.Reg20

open Cert.KernelIdeal Cert.KernelIdeal.Gen Cert.KernelIdeal.GenP Cert.KernelIdeal.Fns
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- Decided over the 25 grid points: both inputs' blocks move with the output's, whose row index is the point and
    whose column index is 0. -/
theorem idx_facts : ∀ t : Fin cfg20.N, win20_0.index t (0 : Fin 2) = win20_2.index t (0 : Fin 2) + 0
    ∧ win20_0.index t (1 : Fin 2) = win20_2.index t (1 : Fin 2) + 0
    ∧ win20_1.index t (0 : Fin 2) = win20_2.index t (0 : Fin 2) + 0
    ∧ win20_1.index t (1 : Fin 2) = win20_2.index t (1 : Fin 2) + 0
    ∧ 0 ≤ win20_2.index t (0 : Fin 2) ∧ win20_2.index t (0 : Fin 2) ≤ 24
    ∧ 0 ≤ win20_2.index t (1 : Fin 2) ∧ win20_2.index t (1 : Fin 2) ≤ 0 :=
  (by decide +kernel : ∀ t : Fin grid20.N, _)

/-- Every row block is some point's. -/
theorem idx_onto : ∀ (q0 : Fin 25) (q1 : Fin 1), ∃ t : Fin cfg20.N, win20_2.index t = ![q0.val + 0, q1.val + 0] :=
  (by decide +kernel : ∀ (q0 : Fin 25) (q1 : Fin 1), ∃ t : Fin grid20.N, win20_2.index t = ![q0.val + 0, q1.val + 0])

/-- What point t writes back is block t of the normalization of the two arrays. -/
theorem flushed_eq (c : Dev nD) (t : Fin cfg20.N) :
    (dat20 V c).flushed 2 t = ((cfg20.win 2).blk t).view.read (Elt F) (normW (V c main_v420) (V c main_v405)) := by
  show (cfg20.win 2).cut (grid20.coords t) ((dat20 V c).after 2 t) = _
  rw [after20_2]
  unfold out20_2
  rw [View.canon_unit_zero hz]
  simp only [View.ld_unit_zero (S := S2000x96) hz, View.ld_unit_zero (S := S2000x1) hz]
  rw [pay20]
  obtain ⟨e0, e1, e2, e3, e4, e5, e6, e7⟩ := idx_facts t
  funext j
  show normS (V c main_v420 (((cfg20.win 0).blk t).view.emb j)) (V c main_v405 (((cfg20.win 1).blk t).view.emb (ix2 (j 0) (0 : Fin 1))))
     = normS (V c main_v420 (((cfg20.win 2).blk t).view.emb j)) (V c main_v405 (ix2 ((((cfg20.win 2).blk t).view.emb j) 0) (0 : Fin 1)))
  have h0 : ((cfg20.win 0).blk t).view.emb j = ((cfg20.win 2).blk t).view.emb j := by
    funext a; apply Fin.ext
    match a with
    | ⟨0, _⟩ => show win20_0.index t (0 : Fin 2) * 2000 + 1 * (j 0).val = win20_2.index t (0 : Fin 2) * 2000 + 1 * (j 0).val; omega
    | ⟨1, _⟩ => show win20_0.index t (1 : Fin 2) * 96 + 1 * (j 1).val = win20_2.index t (1 : Fin 2) * 96 + 1 * (j 1).val; omega
  have h1 : ((cfg20.win 1).blk t).view.emb (ix2 (j 0) (0 : Fin 1)) = ix2 ((((cfg20.win 2).blk t).view.emb j) 0) (0 : Fin 1) := by
    funext a; apply Fin.ext
    match a with
    | ⟨0, _⟩ => show win20_1.index t (0 : Fin 2) * 2000 + 1 * (j 0).val = win20_2.index t (0 : Fin 2) * 2000 + 1 * (j 0).val; omega
    | ⟨1, _⟩ => show win20_1.index t (1 : Fin 2) * 1 + 1 * 0 = 0; omega
  rw [h0, h1] <;> rfl

/-- An entry is in point t's block iff each coordinate is in the block's range on its axis. -/
theorem mem_blk (t : Fin cfg20.N) (i : S50000x96.Idx) :
    i ∈ ((cfg20.win 2).blk t).view.set ↔ ∀ a : Fin 2, win20_2.index t a * S2000x96.size a ≤ (i a).val ∧ (i a).val < win20_2.index t a * S2000x96.size a + S2000x96.size a := by
  show i ∈ ((View.whole main_v421).slice (win20_2.rect t)).set ↔ _
  rw [View.set_slice_whole, Rect.mem_set_unit]
  exact Iff.rfl

/-- Row r is in the block of point r / 2000. -/
theorem cover (i : S50000x96.Idx) : ∃ t : Fin cfg20.N, (cfg20.win 2).flush t = true ∧ i ∈ ((cfg20.win 2).blk t).view.set := by
  have hi0 : (i 0).val < 50000 := (i 0).isLt
  have hi1 : (i 1).val < 96 := (i 1).isLt
  obtain ⟨t, ht⟩ := idx_onto ⟨(i 0).val / 2000, by omega⟩ ⟨(i 1).val / 96, by omega⟩
  have q0 : win20_2.index t (0 : Fin 2) = (i 0).val / 2000 + 0 := congrFun ht 0
  have q1 : win20_2.index t (1 : Fin 2) = (i 1).val / 96 + 0 := congrFun ht 1
  refine ⟨t, flush20_2 t, ?_⟩
  rw [mem_blk]
  intro a
  match a with
  | ⟨0, _⟩ => show win20_2.index t (0 : Fin 2) * 2000 ≤ (i 0).val ∧ (i 0).val < win20_2.index t (0 : Fin 2) * 2000 + 2000; omega
  | ⟨1, _⟩ => show win20_2.index t (1 : Fin 2) * 96 ≤ (i 1).val ∧ (i 1).val < win20_2.index t (1 : Fin 2) * 96 + 96; omega

/-- After the launch the result array is the normalization of the numerator array against the divisor column. -/
theorem final (c : Dev nD) : (dat20 V c).arrAt 2 cfg20.N = normW (V c main_v420) (V c main_v405) :=
  (dat20 V c).arrAt_eq_of_cover 2 _ (fun t _ => flushed_eq V c t) cover

end Cert.KernelIdeal.Reg20

end
-- ==== Proof.KHop10.lean ====
/-
  Hop 10 of the kernel program, from the buffer contents at its start to those at its end: the host stretch that
  gathers and pads the target scores, the weight launch, the host stretch of the two scatter-adds, the
  normalization launch. Each stretch leaves its function of the buffers it reads and keeps the others; each launch
  writes its result array and keeps every other buffer. Chained: the features after the hop are the hop function of
  the features before it, and the index rows, the projected features, the self-loop weight, the padded source scores
  and the arguments are as before.
-/
import proofs.«105152_j14491219657222_1_alg».proof.Proof.KernelIdealFrameP
import proofs.«105152_j14491219657222_1_alg».proof.Proof.KernelHostFns
import proofs.«105152_j14491219657222_1_alg».proof.Proof.Reg19
import proofs.«105152_j14491219657222_1_alg».proof.Proof.Reg20
import Idealize.ShloMosaic.Lib.StableHlo.Run

set_option maxRecDepth 16384

noncomputable section

namespace Cert.KernelIdeal.KHop10

open Cert.KernelIdeal Cert.KernelIdeal.Gen Cert.KernelIdeal.GenP Cert.KernelIdeal.Fns
open Idealize.ShloMosaic Idealize.ShloMosaic.TcCoe Idealize.ShloMosaic.StableHlo
open Idealize.SL Idealize.SL.Sem

variable {F : FTy → Type} [FloatOps F]
variable (m : (ℓ : Loc nD τ sig) → Buf (Elt F) ℓ) (ρ : Dev nD → PrngReg)

set_option maxHeartbeats 4000000 in
theorem A_ht (c : Dev nD) : W63 m ρ c (Proc.devRef .tc main_v397) = tgtPad (W60 m ρ c (Proc.devRef .tc main_v3)) (W60 m ρ c (Proc.devRef .tc main_v382)) (W60 m ρ c (Proc.devRef .tc main_arg5)) := by
  dsimp only [W63, W62, W61, hostOps19, hostOps19_1, hostOps19_2]
  after_results_simp
  rfl

set_option maxHeartbeats 4000000 in
theorem A_main_v1 (c : Dev nD) : W63 m ρ c (Proc.devRef .tc main_v1) = W60 m ρ c (Proc.devRef .tc main_v1) := by
  dsimp only [W63, W62, W61, hostOps19, hostOps19_1, hostOps19_2]
  after_results_simp

set_option maxHeartbeats 4000000 in
theorem A_main_v3 (c : Dev nD) : W63 m ρ c (Proc.devRef .tc main_v3) = W60 m ρ c (Proc.devRef .tc main_v3) := by
  dsimp only [W63, W62, W61, hostOps19, hostOps19_1, hostOps19_2]
  after_results_simp

set_option maxHeartbeats 4000000 in
theorem A_main_v4 (c : Dev nD) : W63 m ρ c (Proc.devRef .tc main_v4) = W60 m ρ c (Proc.devRef .tc main_v4) := by
  dsimp only [W63, W62, W61, hostOps19, hostOps19_1, hostOps19_2]
  after_results_simp

set_option maxHeartbeats 4000000 in
theorem A_main_arg5 (c : Dev nD) : W63 m ρ c (Proc.devRef .tc main_arg5) = W60 m ρ c (Proc.devRef .tc main_arg5) := by
  dsimp only [W63, W62, W61, hostOps19, hostOps19_1, hostOps19_2]
  after_results_simp

set_option maxHeartbeats 4000000 in
theorem A_main_arg6 (c : Dev nD) : W63 m ρ c (Proc.devRef .tc main_arg6) = W60 m ρ c (Proc.devRef .tc main_arg6) := by
  dsimp only [W63, W62, W61, hostOps19, hostOps19_1, hostOps19_2]
  after_results_simp

set_option maxHeartbeats 4000000 in
theorem A_main_arg7 (c : Dev nD) : W63 m ρ c (Proc.devRef .tc main_arg7) = W60 m ρ c (Proc.devRef .tc main_arg7) := by
  dsimp only [W63, W62, W61, hostOps19, hostOps19_1, hostOps19_2]
  after_results_simp

set_option maxHeartbeats 4000000 in
theorem A_main_v21 (c : Dev nD) : W63 m ρ c (Proc.devRef .tc main_v21) = W60 m ρ c (Proc.devRef .tc main_v21) := by
  dsimp only [W63, W62, W61, hostOps19, hostOps19_1, hostOps19_2]
  after_results_simp

set_option maxHeartbeats 4000000 in
theorem A_main_v31 (c : Dev nD) : W63 m ρ c (Proc.devRef .tc main_v31) = W60 m ρ c (Proc.devRef .tc main_v31) := by
  dsimp only [W63, W62, W61, hostOps19, hostOps19_1, hostOps19_2]
  after_results_simp

set_option maxHeartbeats 4000000 in
theorem A_main_v382 (c : Dev nD) : W63 m ρ c (Proc.devRef .tc main_v382) = W60 m ρ c (Proc.devRef .tc main_v382) := by
  dsimp only [W63, W62, W61, hostOps19, hostOps19_1, hostOps19_2]
  after_results_simp

/-- The weight launch reads the padded source scores through an input window and leaves them as they were. -/
theorem E_main_v31 (c : Dev nD) : W64 m ρ c (Proc.devRef .tc main_v31) = W63 m ρ c (Proc.devRef .tc main_v31) :=
  (W64_arr m ρ c 0).trans (((dat19 (V63 m ρ) c).arrAt_in 0 rfl _).trans (A_eq19 (V63 m ρ) c 0))

theorem E_out (c : Dev nD) : W64 m ρ c (Proc.devRef .tc main_v398) = edgeW (W63 m ρ c (Proc.devRef .tc main_v31)) (W63 m ρ c (Proc.devRef .tc main_v397)) :=
  (W64_arr m ρ c 2).trans (Reg19.final (V63 m ρ) c)

set_option maxHeartbeats 4000000 in
theorem B_num (c : Dev nD) : W65 m ρ c (Proc.devRef .tc main_v420) = hopNum (W64 m ρ c (Proc.devRef .tc main_v1)) (W64 m ρ c (Proc.devRef .tc main_v3)) (W64 m ρ c (Proc.devRef .tc main_v4)) (W64 m ρ c (Proc.devRef .tc main_v382)) (W64 m ρ c (Proc.devRef .tc main_v21)) (W64 m ρ c (Proc.devRef .tc main_v398)) := by
  dsimp only [W65, hostOps20]
  after_results_simp
  rfl

set_option maxHeartbeats 4000000 in
theorem B_div (c : Dev nD) : W65 m ρ c (Proc.devRef .tc main_v405) = hopDiv (W64 m ρ c (Proc.devRef .tc main_v1)) (W64 m ρ c (Proc.devRef .tc main_v21)) (W64 m ρ c (Proc.devRef .tc main_v398)) := by
  dsimp only [W65, hostOps20]
  after_results_simp
  rfl

set_option maxHeartbeats 4000000 in
theorem B_main_v1 (c : Dev nD) : W65 m ρ c (Proc.devRef .tc main_v1) = W64 m ρ c (Proc.devRef .tc main_v1) := by
  dsimp only [W65, hostOps20]
  after_results_simp

set_option maxHeartbeats 4000000 in
theorem B_main_v3 (c : Dev nD) : W65 m ρ c (Proc.devRef .tc main_v3) = W64 m ρ c (Proc.devRef .tc main_v3) := by
  dsimp only [W65, hostOps20]
  after_results_simp

set_option maxHeartbeats 4000000 in
theorem B_main_v4 (c : Dev nD) : W65 m ρ c (Proc.devRef .tc main_v4) = W64 m ρ c (Proc.devRef .tc main_v4) := by
  dsimp only [W65, hostOps20]
  after_results_simp

set_option maxHeartbeats 4000000 in
theorem B_main_arg5 (c : Dev nD) : W65 m ρ c (Proc.devRef .tc main_arg5) = W64 m ρ c (Proc.devRef .tc main_arg5) := by
  dsimp only [W65, hostOps20]
  after_results_simp

set_option maxHeartbeats 4000000 in
theorem B_main_arg6 (c : Dev nD) : W65 m ρ c (Proc.devRef .tc main_arg6) = W64 m ρ c (Proc.devRef .tc main_arg6) := by
  dsimp only [W65, hostOps20]
  after_results_simp

set_option maxHeartbeats 4000000 in
theorem B_main_arg7 (c : Dev nD) : W65 m ρ c (Proc.devRef .tc main_arg7) = W64 m ρ c (Proc.devRef .tc main_arg7) := by
  dsimp only [W65, hostOps20]
  after_results_simp

set_option maxHeartbeats 4000000 in
theorem B_main_v21 (c : Dev nD) : W65 m ρ c (Proc.devRef .tc main_v21) = W64 m ρ c (Proc.devRef .tc main_v21) := by
  dsimp only [W65, hostOps20]
  after_results_simp

set_option maxHeartbeats 4000000 in
theorem B_main_v31 (c : Dev nD) : W65 m ρ c (Proc.devRef .tc main_v31) = W64 m ρ c (Proc.devRef .tc main_v31) := by
  dsimp only [W65, hostOps20]
  after_results_simp

theorem N_out (c : Dev nD) : W66 m ρ c (Proc.devRef .tc main_v421) = normW (W65 m ρ c (Proc.devRef .tc main_v420)) (W65 m ρ c (Proc.devRef .tc main_v405)) :=
  (W66_arr m ρ c 2).trans (Reg20.final (V65 m ρ) c)

/-- The features after hop 10 are the hop function of the contents at its start. -/
theorem out (c : Dev nD) : W66 m ρ c (Proc.devRef .tc main_v421)
    = kerHop (W60 m ρ c (Proc.devRef .tc main_v1)) (W60 m ρ c (Proc.devRef .tc main_v3)) (W60 m ρ c (Proc.devRef .tc main_v4)) (W60 m ρ c (Proc.devRef .tc main_v382)) (W60 m ρ c (Proc.devRef .tc main_v21)) (W60 m ρ c (Proc.devRef .tc main_v31)) (W60 m ρ c (Proc.devRef .tc main_arg5)) := by
  rw [N_out, B_num, B_div, E_out]
  rw [W64_of_ne m ρ c main_v1 (by decide), W64_of_ne m ρ c main_v3 (by decide), W64_of_ne m ρ c main_v4 (by decide), W64_of_ne m ρ c main_v382 (by decide), W64_of_ne m ρ c main_v21 (by decide)]
  rw [A_ht, A_main_v21, A_main_v31, A_main_v1, A_main_v3, A_main_v4, A_main_v382]
  rfl

theorem keep_main_v1 (c : Dev nD) : W66 m ρ c (Proc.devRef .tc main_v1) = W60 m ρ c (Proc.devRef .tc main_v1) := by
  rw [W66_of_ne m ρ c main_v1 (by decide), B_main_v1, W64_of_ne m ρ c main_v1 (by decide), A_main_v1]

theorem keep_main_v3 (c : Dev nD) : W66 m ρ c (Proc.devRef .tc main_v3) = W60 m ρ c (Proc.devRef .tc main_v3) := by
  rw [W66_of_ne m ρ c main_v3 (by decide), B_main_v3, W64_of_ne m ρ c main_v3 (by decide), A_main_v3]

theorem keep_main_v4 (c : Dev nD) : W66 m ρ c (Proc.devRef .tc main_v4) = W60 m ρ c (Proc.devRef .tc main_v4) := by
  rw [W66_of_ne m ρ c main_v4 (by decide), B_main_v4, W64_of_ne m ρ c main_v4 (by decide), A_main_v4]

theorem keep_main_arg5 (c : Dev nD) : W66 m ρ c (Proc.devRef .tc main_arg5) = W60 m ρ c (Proc.devRef .tc main_arg5) := by
  rw [W66_of_ne m ρ c main_arg5 (by decide), B_main_arg5, W64_of_ne m ρ c main_arg5 (by decide), A_main_arg5]

theorem keep_main_arg6 (c : Dev nD) : W66 m ρ c (Proc.devRef .tc main_arg6) = W60 m ρ c (Proc.devRef .tc main_arg6) := by
  rw [W66_of_ne m ρ c main_arg6 (by decide), B_main_arg6, W64_of_ne m ρ c main_arg6 (by decide), A_main_arg6]

theorem keep_main_arg7 (c : Dev nD) : W66 m ρ c (Proc.devRef .tc main_arg7) = W60 m ρ c (Proc.devRef .tc main_arg7) := by
  rw [W66_of_ne m ρ c main_arg7 (by decide), B_main_arg7, W64_of_ne m ρ c main_arg7 (by decide), A_main_arg7]

theorem keep_main_v21 (c : Dev nD) : W66 m ρ c (Proc.devRef .tc main_v21) = W60 m ρ c (Proc.devRef .tc main_v21) := by
  rw [W66_of_ne m ρ c main_v21 (by decide), B_main_v21, W64_of_ne m ρ c main_v21 (by decide), A_main_v21]

theorem keep_main_v31 (c : Dev nD) : W66 m ρ c (Proc.devRef .tc main_v31) = W60 m ρ c (Proc.devRef .tc main_v31) := by
  rw [W66_of_ne m ρ c main_v31 (by decide), B_main_v31, E_main_v31, A_main_v31]

end Cert.KernelIdeal.KHop10

end
-- ==== Proof.KernelChain.lean ====
/-
  The kernel program's ten hops chained. Hop j's features are the hop function of hop j−1's, the index rows, the
  projected features and the attention vectors are kept from the first launch's exit on, and the self-loop weight and
  the padded source scores, computed once in the first hop, are kept through the others: the features entering the last
  launch are the hop iterated ten times from the projected features, with those two arrays computed once.
-/
import proofs.«105152_j14491219657222_1_alg».proof.Proof.KHop1
import proofs.«105152_j14491219657222_1_alg».proof.Proof.KHop2
import proofs.«105152_j14491219657222_1_alg».proof.Proof.KHop3
import proofs.«105152_j14491219657222_1_alg».proof.Proof.KHop4
import proofs.«105152_j14491219657222_1_alg».proof.Proof.KHop5
import proofs.«105152_j14491219657222_1_alg».proof.Proof.KHop6
import proofs.«105152_j14491219657222_1_alg».proof.Proof.KHop7
import proofs.«105152_j14491219657222_1_alg».proof.Proof.KHop8
import proofs.«105152_j14491219657222_1_alg».proof.Proof.KHop9
import proofs.«105152_j14491219657222_1_alg».proof.Proof.KHop10

set_option maxRecDepth 16384

noncomputable section

namespace Cert.KernelIdeal.Chain

open Cert.KernelIdeal Cert.KernelIdeal.Gen Cert.KernelIdeal.GenP Cert.KernelIdeal.Fns
open Idealize.ShloMosaic Idealize.ShloMosaic.TcCoe Idealize.ShloMosaic.StableHlo
open Idealize.SL Idealize.SL.Sem

variable {F : FTy → Type} [FloatOps F]

/-- Ten hops from the projected features, the self-loop weight and the padded source scores computed once. -/
def kerIter (s t : (⟨S800000, .i32⟩ : BufTy).Contents (Elt F)) (x : (⟨S50000x96, .f32⟩ : BufTy).Contents (Elt F)) (a1 a2 : (⟨S96, .f32⟩ : BufTy).Contents (Elt F)) : (⟨S50000x96, .f32⟩ : BufTy).Contents (Elt F) :=
  have w2 := selfW x a1 a2
  have sp := srcPad s x a1
  (kerHop s t x (kerHop s t x (kerHop s t x (kerHop s t x (kerHop s t x (kerHop s t x (kerHop s t x (kerHop s t x (kerHop s t x (kerHop s t x x w2 sp a2) w2 sp a2) w2 sp a2) w2 sp a2) w2 sp a2) w2 sp a2) w2 sp a2) w2 sp a2) w2 sp a2) w2 sp a2)

variable (m : (ℓ : Loc nD τ sig) → Buf (Elt F) ℓ) (ρ : Dev nD → PrngReg)

set_option maxHeartbeats 4000000 in
/-- The features entering the last launch. -/
theorem hops_value (c : Dev nD) : W66 m ρ c (Proc.devRef .tc main_v421)
    = kerIter (W2 m ρ c (Proc.devRef .tc main_v1)) (W2 m ρ c (Proc.devRef .tc main_v3)) (W2 m ρ c (Proc.devRef .tc main_v4)) (W2 m ρ c (Proc.devRef .tc main_arg4)) (W2 m ρ c (Proc.devRef .tc main_arg5)) := by
  rw [KHop10.out m ρ c]
  rw [KHop9.out m ρ c, KHop9.keep_main_v1 m ρ c, KHop9.keep_main_v3 m ρ c, KHop9.keep_main_v4 m ρ c, KHop9.keep_main_v21 m ρ c, KHop9.keep_main_v31 m ρ c, KHop9.keep_main_arg5 m ρ c]
  rw [KHop8.out m ρ c, KHop8.keep_main_v1 m ρ c, KHop8.keep_main_v3 m ρ c, KHop8.keep_main_v4 m ρ c, KHop8.keep_main_v21 m ρ c, KHop8.keep_main_v31 m ρ c, KHop8.keep_main_arg5 m ρ c]
  rw [KHop7.out m ρ c, KHop7.keep_main_v1 m ρ c, KHop7.keep_main_v3 m ρ c, KHop7.keep_main_v4 m ρ c, KHop7.keep_main_v21 m ρ c, KHop7.keep_main_v31 m ρ c, KHop7.keep_main_arg5 m ρ c]
  rw [KHop6.out m ρ c, KHop6.keep_main_v1 m ρ c, KHop6.keep_main_v3 m ρ c, KHop6.keep_main_v4 m ρ c, KHop6.keep_main_v21 m ρ c, KHop6.keep_main_v31 m ρ c, KHop6.keep_main_arg5 m ρ c]
  rw [KHop5.out m ρ c, KHop5.keep_main_v1 m ρ c, KHop5.keep_main_v3 m ρ c, KHop5.keep_main_v4 m ρ c, KHop5.keep_main_v21 m ρ c, KHop5.keep_main_v31 m ρ c, KHop5.keep_main_arg5 m ρ c]
  rw [KHop4.out m ρ c, KHop4.keep_main_v1 m ρ c, KHop4.keep_main_v3 m ρ c, KHop4.keep_main_v4 m ρ c, KHop4.keep_main_v21 m ρ c, KHop4.keep_main_v31 m ρ c, KHop4.keep_main_arg5 m ρ c]
  rw [KHop3.out m ρ c, KHop3.keep_main_v1 m ρ c, KHop3.keep_main_v3 m ρ c, KHop3.keep_main_v4 m ρ c, KHop3.keep_main_v21 m ρ c, KHop3.keep_main_v31 m ρ c, KHop3.keep_main_arg5 m ρ c]
  rw [KHop2.out m ρ c, KHop2.keep_main_v1 m ρ c, KHop2.keep_main_v3 m ρ c, KHop2.keep_main_v4 m ρ c, KHop2.keep_main_v21 m ρ c, KHop2.keep_main_v31 m ρ c, KHop2.keep_main_arg5 m ρ c]
  rw [KHop1.out m ρ c, KHop1.keep_main_v1 m ρ c, KHop1.keep_main_v3 m ρ c, KHop1.keep_main_v4 m ρ c, KHop1.keep_main_v21 m ρ c, KHop1.keep_main_v31 m ρ c, KHop1.keep_main_arg5 m ρ c]
  rfl

/-- Argument 6 is kept from the first launch's exit to the last launch's entry. -/
theorem keep_main_arg6 (c : Dev nD) : W66 m ρ c (Proc.devRef .tc main_arg6) = W2 m ρ c (Proc.devRef .tc main_arg6) := by
  rw [KHop10.keep_main_arg6 m ρ c, KHop9.keep_main_arg6 m ρ c, KHop8.keep_main_arg6 m ρ c, KHop7.keep_main_arg6 m ρ c, KHop6.keep_main_arg6 m ρ c, KHop5.keep_main_arg6 m ρ c, KHop4.keep_main_arg6 m ρ c, KHop3.keep_main_arg6 m ρ c, KHop2.keep_main_arg6 m ρ c, KHop1.keep_main_arg6 m ρ c]

/-- Argument 7 is kept from the first launch's exit to the last launch's entry. -/
theorem keep_main_arg7 (c : Dev nD) : W66 m ρ c (Proc.devRef .tc main_arg7) = W2 m ρ c (Proc.devRef .tc main_arg7) := by
  rw [KHop10.keep_main_arg7 m ρ c, KHop9.keep_main_arg7 m ρ c, KHop8.keep_main_arg7 m ρ c, KHop7.keep_main_arg7 m ρ c, KHop6.keep_main_arg7 m ρ c, KHop5.keep_main_arg7 m ρ c, KHop4.keep_main_arg7 m ρ c, KHop3.keep_main_arg7 m ρ c, KHop2.keep_main_arg7 m ρ c, KHop1.keep_main_arg7 m ρ c]

end Cert.KernelIdeal.Chain

end
-- ==== Proof.LibMatmulRows.lean ====
/-
  A matrix product into a zero accumulator, read at one row and one column.

  For an `M × K` matrix `l` and a `K × N` matrix `r` contracted along the one shared axis, the entry of
  `l · r` at row `p` and column `j` is `∑ k, l[p,k] · r[k,j]`.  At the exact values the product unit's result
  is the accumulator plus the sum over the contraction index of the operands' products; the accumulator is
  the zero word, and the contraction index — a one-axis multi-index — is identified with its one
  coordinate `k : Fin K`.  The dimension numbers enter only through four coordinate facts (which axis of
  each operand is the output's and which is the contracted one), so the lemma serves every plain
  row-by-column product whatever the name of its dimension record.
-/
import Idealize.ShloMosaic.PureOps.Ideal.Laws
import Idealize.ShloMosaic.Lib.ValueIdx

noncomputable section

open scoped BigOperators

namespace Cert.LibMatmulRows

open Idealize.ShloMosaic Idealize.ShloMosaic.ValueIdx

/-- `(l · r)[p, j] = ∑ k, l[p,k] · r[k,j]` for a product into the zero accumulator whose left operand index at
    output `i` and contraction position `q` is `(i 0, q)` and whose right operand index is `(q, i 1)`. -/
theorem matmul_zero_apply {M K N : ℕ} {φ₁ φ₂ : FTy}
    (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (prec : Option ContractPrecision) (l : FVec Ideal ⟨2, ![M, K]⟩ φ₁) (r : FVec Ideal ⟨2, ![K, N]⟩ φ₂)
    (p : Fin M) (j : Fin N) :
    matmul D prec l r (constant (F := Ideal) ⟨2, ![M, N]⟩ .f32 0x00000000#32) (ix2 p j)
      = ∑ k : Fin K, l (ix2 p k) * r (ix2 k j) := by
  show FloatOps.matmul D prec l r (constant (F := Ideal) ⟨2, ![M, N]⟩ .f32 0x00000000#32) (ix2 p j) = _
  rw [Ideal.matmul_constant_zero_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

end Cert.LibMatmulRows

end
-- ==== Proof.LibHostRows.lean ====
/-
  Host-side row operations read at one entry, at the exact values.

  * A `dot_general` of an `M × K` by a `K × N` matrix along the one shared axis: entry `(p, j)` is
    `∑ k, l[p,k] · r[k,j]` — at the exact values the host's product has no accumulator, no rounding and no order.
  * A vector of length `C` viewed as one row and that row spread over `R` rows: entry `(p, k)` is the vector's `k`.
  * A vector of length `C` re-laid as a `1 × C` block: entry `(0, k)` is the vector's `k`.
-/
import Idealize.ShloMosaic.PureOps.Ideal.Laws
import Idealize.ShloMosaic.Lib.ValueIdx
import Idealize.ShloMosaic.Lib.Pipeline.Value

noncomputable section

open scoped BigOperators

namespace Cert.LibHostRows

open Idealize.ShloMosaic Idealize.ShloMosaic.ValueIdx

/-- `(l · r)[p, j] = ∑ k, l[p,k] · r[k,j]` for the host's product whose left operand index at output `i` and
    contraction position `q` is `(i 0, q)` and whose right operand index is `(q, i 1)`. -/
theorem hostDot_apply {M K N : ℕ} {φ₁ φ₂ : FTy}
    (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (prec : Option ContractPrecision) (l : FVec Ideal ⟨2, ![M, K]⟩ φ₁) (r : FVec Ideal ⟨2, ![K, N]⟩ φ₂)
    (p : Fin M) (j : Fin N) :
    Host.dotGeneral (F := Ideal) D prec l r (ix2 p j) = ∑ k : Fin K, l (ix2 p k) * r (ix2 k j) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

/-- A vector viewed as one row, the row spread over `R` rows: entry `(p, k)` is the vector's entry `k`. -/
theorem rowOfVec_spread_apply {α : Type} {R C : ℕ} (hC : C ≠ 1) (b : (⟨1, ![C]⟩ : Shape).Idx → α)
    (h1 : (⟨1, ![C]⟩ : Shape).BroadcastsInDim ⟨2, ![1, C]⟩ ![1])
    (h2 : (⟨2, ![1, C]⟩ : Shape).BroadcastsInDim ⟨2, ![R, C]⟩ ![0, 1]) (p : Fin R) (k : Fin C) :
    broadcastInDim ⟨2, ![R, C]⟩ ![0, 1] h2 (broadcastInDim ⟨2, ![1, C]⟩ ![1] h1 b) (ix2 p k) = b (ix1 k) := by
  rw [broadcastInDim_apply ![0, 1] h2 _ (ix2 p k) (ix2 (0 : Fin 1) k) (fun a => match a with
    | ⟨0, _⟩ => by show 0 = if (1 : Nat) = 1 then 0 else _; rw [if_pos rfl]
    | ⟨1, _⟩ => by show k.val = if C = 1 then 0 else k.val; rw [if_neg hC])]
  exact broadcastInDim_apply ![1] h1 b (ix2 (0 : Fin 1) k) (ix1 k) (fun a => match a with
    | ⟨0, _⟩ => by show k.val = if C = 1 then 0 else k.val; rw [if_neg hC])

/-- A vector re-laid as a one-row block: entry `(0, k)` is the vector's entry `k` (the same row-major position). -/
theorem rowOfVec_cast_apply {α : Type} {C : ℕ} (b : (⟨1, ![C]⟩ : Shape).Idx → α)
    (h : (⟨1, ![C]⟩ : Shape).ShapeCasts ⟨2, ![1, C]⟩) (k : Fin C) :
    shapeCast ⟨2, ![1, C]⟩ b h (ix2 (0 : Fin 1) k) = b (ix1 k) :=
  shapeCast_apply b h (ix2 (0 : Fin 1) k) (ix1 k) (by
    rw [Shape.rowMajor_val_one, Shape.rowMajor_val_two]
    show k.val = 0 * C + k.val
    omega)

end Cert.LibHostRows

end
-- ==== Proof.Reg0.lean ====
/-
  Launch 0 (the dense projection with its rectifier) on the whole array, at the exact values. Its grid has 25 points; point t
  loads rows 2000·t … 2000·t + 1999 of the 256-column input, the whole 256 × 96 weight matrix and the whole bias vector, and
  writes the same rows of the 96-column result. At row p and column q of its block the body leaves
  max (Σ_k x[p,k]·w[k,q] + b[q], 0) : the product unit's sum into a zero accumulator (the casts to the narrower format are the
  identity at the exact values), the bias spread over the rows, the rectifier. The reference's projection of the whole
  arrays reads the same at the entry (2000·t + p, q), and the 25 blocks cover the 50000 rows: after the launch the result
  array IS the reference's function of the three arrays as the launch found them.
-/
import proofs.«105152_j14491219657222_1_alg».proof.Proof.KernelIdealFrameP
import proofs.«105152_j14491219657222_1_alg».proof.Proof.RefHops
import proofs.«105152_j14491219657222_1_alg».proof.Proof.LibMatmulRows
import proofs.«105152_j14491219657222_1_alg».proof.Proof.LibHostRows
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Reg0

open Cert.KernelIdeal Cert.KernelIdeal.Gen Cert.KernelIdeal.GenP
open Idealize.ShloMosaic Idealize.ShloMosaic.TcCoe Idealize.ShloMosaic.Tactic Idealize.ShloMosaic.ValueIdx
open Idealize.SL Idealize.SL.Sem
open Idealize.ShloMosaic.Pipeline (Dat Cfg Window)
open Cert.ReferenceIdeal.RefHops (refProj)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The entry both sides compute. -/
def projS (x : Fin 256 → EReal) (w : Fin 256 → EReal) (b : EReal) : EReal := max ((∑ k : Fin 256, x k * w k) + b) 0

/-- The body's payload at row p, column q of its block. -/
theorem pay_apply (x : FVec Ideal S2000x256 .f32) (w : FVec Ideal S256x96 .f32) (b : FVec Ideal S96 .f32) (p : Fin 2000) (q : Fin 96) :
    k0_pay1 (F := Ideal) x w b (ix2 p q) = projS (fun k => x (ix2 p k)) (fun k => w (ix2 k q)) (b (ix1 q)) := by
  unfold k0_pay1 projS
  have hm := Cert.LibMatmulRows.matmul_zero_apply (M := 2000) (K := 256) (N := 96) dot_S2000x256_S256x96_S2000x96_1_0_0_1_n_n
    (by decide) (by decide)
    (fun i q => by simp [DotDims.lhsIdx, dot_S2000x256_S256x96_S2000x96_1_0_0_1_n_n]; rfl)
    (fun i q => by simp [DotDims.lhsIdx, dot_S2000x256_S256x96_S2000x96_1_0_0_1_n_n]; rfl)
    (fun i q => by simp [DotDims.rhsIdx, dot_S2000x256_S256x96_S2000x96_1_0_0_1_n_n]; rfl)
    (fun i q => by simp [DotDims.rhsIdx, dot_S2000x256_S256x96_S2000x96_1_0_0_1_n_n]; rfl)
    none (truncf .bf16 x bitsLt_bf16_f32) (truncf .bf16 w bitsLt_bf16_f32) p q
  have hb : broadcastTo S2000x96 (shapeCast S1x96 b shapeCasts_S96_S1x96) broadcasts_S1x96_S2000x96 (ix2 p q) = b (ix1 q) :=
    (broadcastTo_apply _ broadcasts_S1x96_S2000x96 (ix2 p q) (ix2 (0 : Fin 1) q) (fun a => by
      match a with
      | ⟨0, _⟩ => rfl
      | ⟨1, _⟩ => rfl)).trans (Cert.LibHostRows.rowOfVec_cast_apply b shapeCasts_S96_S1x96 q)
  show FloatOps.maximumf (FloatOps.addf (matmul dot_S2000x256_S256x96_S2000x96_1_0_0_1_n_n none (truncf .bf16 x bitsLt_bf16_f32) (truncf .bf16 w bitsLt_bf16_f32) (constant S2000x96 .f32 0x00000000#32) (ix2 p q))
      (broadcastTo S2000x96 (shapeCast S1x96 b shapeCasts_S96_S1x96) broadcasts_S1x96_S2000x96 (ix2 p q))) (Scalar.ofBits .f32 0x00000000#32) = _
  rw [hm, hb]
  simp only [Ideal.maximumf_def, Ideal.addf_def, Scalar.ofBits, Ideal.ofBits_def, Ideal.ofBits_zero_f32]
  rfl

/-- The reference's function at row P, column q. -/
theorem ref_apply (X : FVec Ideal S50000x256 .f32) (W : FVec Ideal S256x96 .f32) (B : FVec Ideal S96 .f32) (P : Fin 50000) (q : Fin 96) :
    refProj (F := Ideal) X W B (ix2 P q) = projS (fun k => X (ix2 P k)) (fun k => W (ix2 k q)) (B (ix1 q)) := by
  unfold refProj projS
  have hd := Cert.LibHostRows.hostDot_apply (M := 50000) (K := 256) (N := 96) Cert.ReferenceIdeal.dot_S50000x256_S256x96_S50000x96_1_0_0_1_n_n
    (by decide) (by decide)
    (fun i q => by simp [DotDims.lhsIdx, Cert.ReferenceIdeal.dot_S50000x256_S256x96_S50000x96_1_0_0_1_n_n]; rfl)
    (fun i q => by simp [DotDims.lhsIdx, Cert.ReferenceIdeal.dot_S50000x256_S256x96_S50000x96_1_0_0_1_n_n]; rfl)
    (fun i q => by simp [DotDims.rhsIdx, Cert.ReferenceIdeal.dot_S50000x256_S256x96_S50000x96_1_0_0_1_n_n]; rfl)
    (fun i q => by simp [DotDims.rhsIdx, Cert.ReferenceIdeal.dot_S50000x256_S256x96_S50000x96_1_0_0_1_n_n]; rfl)
    none X W P q
  have hb := Cert.LibHostRows.rowOfVec_spread_apply (R := 50000) (C := 96) (by decide) B Cert.ReferenceIdeal.Facts₀.bcast_S96_S1x96_1 Cert.ReferenceIdeal.Facts₀.bcast_S1x96_S50000x96_0_1 P q
  show FloatOps.maximumf (FloatOps.addf (Host.dotGeneral Cert.ReferenceIdeal.dot_S50000x256_S256x96_S50000x96_1_0_0_1_n_n none X W (ix2 P q))
        (broadcastInDim Cert.ReferenceIdeal.S50000x96 ![0, 1] Cert.ReferenceIdeal.Facts₀.bcast_S1x96_S50000x96_0_1 (broadcastInDim Cert.ReferenceIdeal.S1x96 ![1] Cert.ReferenceIdeal.Facts₀.bcast_S96_S1x96_1 B) (ix2 P q)))
      (broadcastInDim Cert.ReferenceIdeal.S50000x96 ![] Cert.ReferenceIdeal.Facts₀.bcast_S_S50000x96 (constant (F := Ideal) Cert.ReferenceIdeal.S_ .f32 0x00000000#32) (ix2 P q)) = _
  rw [hd, hb]
  simp only [broadcastInDim, constant, Ideal.maximumf_def, Ideal.addf_def, Ideal.ofBits_def, Ideal.ofBits_zero_f32]

/-- A block of the inputs against the whole arrays: if the block's rows are rows r·2000 … of X and the other two blocks are
    the whole arrays, the payload at an entry of the block is the reference's function at the corresponding entry. -/
theorem block_eq (X : FVec Ideal S50000x256 .f32) (W : FVec Ideal S256x96 .f32) (B : FVec Ideal S96 .f32)
    (x : FVec Ideal S2000x256 .f32) (w : FVec Ideal S256x96 .f32) (b : FVec Ideal S96 .f32) (r : Nat)
    (hx : ∀ (p : Fin 2000) (k : Fin 256) (P : Fin 50000), P.val = r * 2000 + p.val → x (ix2 p k) = X (ix2 P k))
    (hw : ∀ (k : Fin 256) (q : Fin 96), w (ix2 k q) = W (ix2 k q)) (hb : ∀ q : Fin 96, b (ix1 q) = B (ix1 q))
    (j : S2000x96.Idx) (J : S50000x96.Idx) (hJ0 : (J 0).val = r * 2000 + (j 0).val) (hJ1 : (J 1).val = (j 1).val) :
    k0_pay1 (F := Ideal) x w b j = refProj (F := Ideal) X W B J := by
  obtain ⟨p, q, rfl⟩ : ∃ (p : Fin 2000) (q : Fin 96), j = ix2 p q := ⟨j 0, j 1, eq_ix2 j⟩
  obtain ⟨P, Q, rfl⟩ : ∃ (P : Fin 50000) (Q : Fin 96), J = ix2 P Q := ⟨J 0, J 1, eq_ix2 J⟩
  have hQ : Q = q := Fin.ext hJ1
  subst hQ
  rw [pay_apply, ref_apply]
  have e1 : (fun k => x (ix2 p k)) = fun k => X (ix2 P k) := funext fun k => hx p k P hJ0
  have e2 : (fun k => w (ix2 k Q)) = fun k => W (ix2 k Q) := funext fun k => hw k Q
  rw [e1, e2, hb Q]

/-- Decided over the 25 grid points: the input rows' block moves with the output's, the weight and bias blocks stay. -/
theorem idx_facts : ∀ t : Fin cfg0.N, win0_0.index t (0 : Fin 2) = win0_3.index t (0 : Fin 2) + 0
    ∧ win0_0.index t (1 : Fin 2) = 0
    ∧ win0_1.index t (0 : Fin 2) = 0 ∧ win0_1.index t (1 : Fin 2) = 0
    ∧ win0_2.index t (0 : Fin 1) = 0
    ∧ win0_3.index t (0 : Fin 2) ≤ 24 ∧ win0_3.index t (1 : Fin 2) = 0 :=
  (by decide +kernel : ∀ t : Fin grid0.N, _)

theorem idx_onto : ∀ (q0 : Fin 25) (q1 : Fin 1), ∃ t : Fin cfg0.N, win0_3.index t = ![q0.val + 0, q1.val + 0] :=
  (by decide +kernel : ∀ (q0 : Fin 25) (q1 : Fin 1), ∃ t : Fin grid0.N, win0_3.index t = ![q0.val + 0, q1.val + 0])

/-- What point t writes back is block t of the reference's function of the three arrays. -/
theorem flushed_eq (c : Dev nD) (t : Fin cfg0.N) :
    (dat0 V c).flushed 3 t = ((cfg0.win 3).blk t).view.read (Elt Ideal) (refProj (F := Ideal) (V c main_arg0) (V c main_arg2) (V c main_arg3)) := by
  show (cfg0.win 3).cut (grid0.coords t) ((dat0 V c).after 3 t) = _
  rw [after0_3]
  unfold out0_3
  rw [View.canon_unit_zero hz2]
  simp only [View.ld_unit_zero (S := S2000x256) hz2, View.ld_unit_zero (S := S256x96) hz2, View.ld_unit_zero (S := S96) hz1]
  obtain ⟨e0, e1, e2, e3, e4, e5, e6⟩ := idx_facts t
  funext j
  refine block_eq (V c main_arg0) (V c main_arg2) (V c main_arg3) (iblk0 V c 0 t) (iblk0 V c 1 t) (iblk0 V c 2 t) (win0_3.index t (0 : Fin 2))
    (fun p k P hP => ?_) (fun k q => ?_) (fun q => ?_) j (((cfg0.win 3).blk t).view.emb j) ?_ ?_
  · show V c main_arg0 (((cfg0.win 0).blk t).view.emb (ix2 p k)) = V c main_arg0 (ix2 P k)
    refine congrArg (V c main_arg0) (funext fun a => Fin.ext ?_)
    match a with
    | ⟨0, _⟩ => show win0_0.index t (0 : Fin 2) * 2000 + 1 * p.val = P.val; omega
    | ⟨1, _⟩ => show win0_0.index t (1 : Fin 2) * 256 + 1 * k.val = k.val; omega
  · show V c main_arg2 (((cfg0.win 1).blk t).view.emb (ix2 k q)) = V c main_arg2 (ix2 k q)
    refine congrArg (V c main_arg2) (funext fun a => Fin.ext ?_)
    match a with
    | ⟨0, _⟩ => show win0_1.index t (0 : Fin 2) * 256 + 1 * k.val = k.val; omega
    | ⟨1, _⟩ => show win0_1.index t (1 : Fin 2) * 96 + 1 * q.val = q.val; omega
  · show V c main_arg3 (((cfg0.win 2).blk t).view.emb (ix1 q)) = V c main_arg3 (ix1 q)
    refine congrArg (V c main_arg3) (funext fun a => Fin.ext ?_)
    match a with
    | ⟨0, _⟩ => show win0_2.index t (0 : Fin 1) * 96 + 1 * q.val = q.val; omega
  · show win0_3.index t (0 : Fin 2) * 2000 + 1 * (j 0).val = win0_3.index t (0 : Fin 2) * 2000 + (j 0).val; omega
  · show win0_3.index t (1 : Fin 2) * 96 + 1 * (j 1).val = (j 1).val; omega

theorem mem_blk (t : Fin cfg0.N) (i : S50000x96.Idx) :
    i ∈ ((cfg0.win 3).blk t).view.set ↔ ∀ a : Fin 2, win0_3.index t a * S2000x96.size a ≤ (i a).val ∧ (i a).val < win0_3.index t a * S2000x96.size a + S2000x96.size a := by
  show i ∈ ((View.whole main_v4).slice (win0_3.rect t)).set ↔ _
  rw [View.set_slice_whole, Rect.mem_set_unit]
  exact Iff.rfl

theorem cover (i : S50000x96.Idx) : ∃ t : Fin cfg0.N, (cfg0.win 3).flush t = true ∧ i ∈ ((cfg0.win 3).blk t).view.set := by
  have hi0 : (i 0).val < 50000 := (i 0).isLt
  have hi1 : (i 1).val < 96 := (i 1).isLt
  obtain ⟨t, ht⟩ := idx_onto ⟨(i 0).val / 2000, by omega⟩ ⟨(i 1).val / 96, by omega⟩
  have q0 : win0_3.index t (0 : Fin 2) = (i 0).val / 2000 + 0 := congrFun ht 0
  have q1 : win0_3.index t (1 : Fin 2) = (i 1).val / 96 + 0 := congrFun ht 1
  refine ⟨t, flush0_3 t, ?_⟩
  rw [mem_blk]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 96 ≤ (i 1).val ∧ (i 1).val < win0_3.index t (1 : Fin 2) * 96 + 96; omega

/-- After the launch the result array is the reference's function of the three arrays. -/
theorem final (c : Dev nD) : (dat0 V c).arrAt 3 cfg0.N = refProj (F := Ideal) (V c main_arg0) (V c main_arg2) (V c main_arg3) :=
  (dat0 V c).arrAt_eq_of_cover 3 _ (fun t _ => flushed_eq V c t) cover

end Cert.KernelIdeal.Reg0

end
-- ==== Proof.Reg21.lean ====
/-
  Launch 21 (the dense output projection) on the whole array, at the exact values. Its grid has 25 points; point t
  loads rows 2000·t … 2000·t + 1999 of the 96-column input, the whole 96 × 64 weight matrix and the whole bias vector, and
  writes the same rows of the 64-column result. At row p and column q of its block the body leaves
  Σ_k x[p,k]·w[k,q] + b[q] : the product unit's sum into a zero accumulator (the casts to the narrower format are the
  identity at the exact values), the bias spread over the rows. The reference's output projection of the whole
  arrays reads the same at the entry (2000·t + p, q), and the 25 blocks cover the 50000 rows: after the launch the result
  array IS the reference's function of the three arrays as the launch found them.
-/
import proofs.«105152_j14491219657222_1_alg».proof.Proof.KernelIdealFrameP
import proofs.«105152_j14491219657222_1_alg».proof.Proof.RefHops
import proofs.«105152_j14491219657222_1_alg».proof.Proof.LibMatmulRows
import proofs.«105152_j14491219657222_1_alg».proof.Proof.LibHostRows
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Reg21

open Cert.KernelIdeal Cert.KernelIdeal.Gen Cert.KernelIdeal.GenP
open Idealize.ShloMosaic Idealize.ShloMosaic.TcCoe Idealize.ShloMosaic.Tactic Idealize.ShloMosaic.ValueIdx
open Idealize.SL Idealize.SL.Sem
open Idealize.ShloMosaic.Pipeline (Dat Cfg Window)
open Cert.ReferenceIdeal.RefHops (refOut)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The entry both sides compute. -/
def projS (x : Fin 96 → EReal) (w : Fin 96 → EReal) (b : EReal) : EReal := (∑ k : Fin 96, x k * w k) + b

/-- The body's payload at row p, column q of its block. -/
theorem pay_apply (x : FVec Ideal S2000x96 .f32) (w : FVec Ideal S96x64 .f32) (b : FVec Ideal S64 .f32) (p : Fin 2000) (q : Fin 64) :
    k21_pay1 (F := Ideal) x w b (ix2 p q) = projS (fun k => x (ix2 p k)) (fun k => w (ix2 k q)) (b (ix1 q)) := by
  unfold k21_pay1 projS
  simp only [shapeCast_self]
  have hm := Cert.LibMatmulRows.matmul_zero_apply (M := 2000) (K := 96) (N := 64) dot_S2000x96_S96x64_S2000x64_1_0_0_1_n_n
    (by decide) (by decide)
    (fun i q => by simp [DotDims.lhsIdx, dot_S2000x96_S96x64_S2000x64_1_0_0_1_n_n]; rfl)
    (fun i q => by simp [DotDims.lhsIdx, dot_S2000x96_S96x64_S2000x64_1_0_0_1_n_n]; rfl)
    (fun i q => by simp [DotDims.rhsIdx, dot_S2000x96_S96x64_S2000x64_1_0_0_1_n_n]; rfl)
    (fun i q => by simp [DotDims.rhsIdx, dot_S2000x96_S96x64_S2000x64_1_0_0_1_n_n]; rfl)
    none (truncf .bf16 x bitsLt_bf16_f32) (truncf .bf16 w bitsLt_bf16_f32) p q
  have hb : broadcastTo S2000x64 (shapeCast S1x64 b shapeCasts_S64_S1x64) broadcasts_S1x64_S2000x64 (ix2 p q) = b (ix1 q) :=
    (broadcastTo_apply _ broadcasts_S1x64_S2000x64 (ix2 p q) (ix2 (0 : Fin 1) q) (fun a => by
      match a with
      | ⟨0, _⟩ => rfl
      | ⟨1, _⟩ => rfl)).trans (Cert.LibHostRows.rowOfVec_cast_apply b shapeCasts_S64_S1x64 q)
  show FloatOps.addf (matmul dot_S2000x96_S96x64_S2000x64_1_0_0_1_n_n none (truncf .bf16 x bitsLt_bf16_f32) (truncf .bf16 w bitsLt_bf16_f32) (constant S2000x64 .f32 0x00000000#32) (ix2 p q))
      (broadcastTo S2000x64 (shapeCast S1x64 b shapeCasts_S64_S1x64) broadcasts_S1x64_S2000x64 (ix2 p q)) = _
  rw [hm, hb]
  simp only [Ideal.addf_def] <;> rfl

/-- The reference's function at row P, column q. -/
theorem ref_apply (X : FVec Ideal S50000x96 .f32) (W : FVec Ideal S96x64 .f32) (B : FVec Ideal S64 .f32) (P : Fin 50000) (q : Fin 64) :
    refOut (F := Ideal) X W B (ix2 P q) = projS (fun k => X (ix2 P k)) (fun k => W (ix2 k q)) (B (ix1 q)) := by
  unfold refOut projS
  have hd := Cert.LibHostRows.hostDot_apply (M := 50000) (K := 96) (N := 64) Cert.ReferenceIdeal.dot_S50000x96_S96x64_S50000x64_1_0_0_1_n_n
    (by decide) (by decide)
    (fun i q => by simp [DotDims.lhsIdx, Cert.ReferenceIdeal.dot_S50000x96_S96x64_S50000x64_1_0_0_1_n_n]; rfl)
    (fun i q => by simp [DotDims.lhsIdx, Cert.ReferenceIdeal.dot_S50000x96_S96x64_S50000x64_1_0_0_1_n_n]; rfl)
    (fun i q => by simp [DotDims.rhsIdx, Cert.ReferenceIdeal.dot_S50000x96_S96x64_S50000x64_1_0_0_1_n_n]; rfl)
    (fun i q => by simp [DotDims.rhsIdx, Cert.ReferenceIdeal.dot_S50000x96_S96x64_S50000x64_1_0_0_1_n_n]; rfl)
    none X W P q
  have hb := Cert.LibHostRows.rowOfVec_spread_apply (R := 50000) (C := 64) (by decide) B Cert.ReferenceIdeal.Facts₀.bcast_S64_S1x64_1 Cert.ReferenceIdeal.Facts₀.bcast_S1x64_S50000x64_0_1 P q
  show FloatOps.addf (Host.dotGeneral Cert.ReferenceIdeal.dot_S50000x96_S96x64_S50000x64_1_0_0_1_n_n none X W (ix2 P q))
        (broadcastInDim Cert.ReferenceIdeal.S50000x64 ![0, 1] Cert.ReferenceIdeal.Facts₀.bcast_S1x64_S50000x64_0_1 (broadcastInDim Cert.ReferenceIdeal.S1x64 ![1] Cert.ReferenceIdeal.Facts₀.bcast_S64_S1x64_1 B) (ix2 P q)) = _
  rw [hd, hb]
  simp only [Ideal.addf_def] <;> rfl

/-- A block of the inputs against the whole arrays: if the block's rows are rows r·2000 … of X and the other two blocks are
    the whole arrays, the payload at an entry of the block is the reference's function at the corresponding entry. -/
theorem block_eq (X : FVec Ideal S50000x96 .f32) (W : FVec Ideal S96x64 .f32) (B : FVec Ideal S64 .f32)
    (x : FVec Ideal S2000x96 .f32) (w : FVec Ideal S96x64 .f32) (b : FVec Ideal S64 .f32) (r : Nat)
    (hx : ∀ (p : Fin 2000) (k : Fin 96) (P : Fin 50000), P.val = r * 2000 + p.val → x (ix2 p k) = X (ix2 P k))
    (hw : ∀ (k : Fin 96) (q : Fin 64), w (ix2 k q) = W (ix2 k q)) (hb : ∀ q : Fin 64, b (ix1 q) = B (ix1 q))
    (j : S2000x64.Idx) (J : S50000x64.Idx) (hJ0 : (J 0).val = r * 2000 + (j 0).val) (hJ1 : (J 1).val = (j 1).val) :
    k21_pay1 (F := Ideal) x w b j = refOut (F := Ideal) X W B J := by
  obtain ⟨p, q, rfl⟩ : ∃ (p : Fin 2000) (q : Fin 64), j = ix2 p q := ⟨j 0, j 1, eq_ix2 j⟩
  obtain ⟨P, Q, rfl⟩ : ∃ (P : Fin 50000) (Q : Fin 64), J = ix2 P Q := ⟨J 0, J 1, eq_ix2 J⟩
  have hQ : Q = q := Fin.ext hJ1
  subst hQ
  rw [pay_apply, ref_apply]
  have e1 : (fun k => x (ix2 p k)) = fun k => X (ix2 P k) := funext fun k => hx p k P hJ0
  have e2 : (fun k => w (ix2 k Q)) = fun k => W (ix2 k Q) := funext fun k => hw k Q
  rw [e1, e2, hb Q]

/-- Decided over the 25 grid points: the input rows' block moves with the output's, the weight and bias blocks stay. -/
theorem idx_facts : ∀ t : Fin cfg21.N, win21_0.index t (0 : Fin 2) = win21_3.index t (0 : Fin 2) + 0
    ∧ win21_0.index t (1 : Fin 2) = 0
    ∧ win21_1.index t (0 : Fin 2) = 0 ∧ win21_1.index t (1 : Fin 2) = 0
    ∧ win21_2.index t (0 : Fin 1) = 0
    ∧ win21_3.index t (0 : Fin 2) ≤ 24 ∧ win21_3.index t (1 : Fin 2) = 0 :=
  (by decide +kernel : ∀ t : Fin grid21.N, _)

theorem idx_onto : ∀ (q0 : Fin 25) (q1 : Fin 1), ∃ t : Fin cfg21.N, win21_3.index t = ![q0.val + 0, q1.val + 0] :=
  (by decide +kernel : ∀ (q0 : Fin 25) (q1 : Fin 1), ∃ t : Fin grid21.N, win21_3.index t = ![q0.val + 0, q1.val + 0])

/-- What point t writes back is block t of the reference's function of the three arrays. -/
theorem flushed_eq (c : Dev nD) (t : Fin cfg21.N) :
    (dat21 V c).flushed 3 t = ((cfg21.win 3).blk t).view.read (Elt Ideal) (refOut (F := Ideal) (V c main_v421) (V c main_arg6) (V c main_arg7)) := by
  show (cfg21.win 3).cut (grid21.coords t) ((dat21 V c).after 3 t) = _
  rw [after21_3]
  unfold out21_3
  rw [View.canon_unit_zero hz2]
  simp only [View.ld_unit_zero (S := S2000x96) hz2, View.ld_unit_zero (S := S96x64) hz2, View.ld_unit_zero (S := S64) hz1]
  obtain ⟨e0, e1, e2, e3, e4, e5, e6⟩ := idx_facts t
  funext j
  refine block_eq (V c main_v421) (V c main_arg6) (V c main_arg7) (iblk21 V c 0 t) (iblk21 V c 1 t) (iblk21 V c 2 t) (win21_3.index t (0 : Fin 2))
    (fun p k P hP => ?_) (fun k q => ?_) (fun q => ?_) j (((cfg21.win 3).blk t).view.emb j) ?_ ?_
  · show V c main_v421 (((cfg21.win 0).blk t).view.emb (ix2 p k)) = V c main_v421 (ix2 P k)
    refine congrArg (V c main_v421) (funext fun a => Fin.ext ?_)
    match a with
    | ⟨0, _⟩ => show win21_0.index t (0 : Fin 2) * 2000 + 1 * p.val = P.val; omega
    | ⟨1, _⟩ => show win21_0.index t (1 : Fin 2) * 96 + 1 * k.val = k.val; omega
  · show V c main_arg6 (((cfg21.win 1).blk t).view.emb (ix2 k q)) = V c main_arg6 (ix2 k q)
    refine congrArg (V c main_arg6) (funext fun a => Fin.ext ?_)
    match a with
    | ⟨0, _⟩ => show win21_1.index t (0 : Fin 2) * 96 + 1 * k.val = k.val; omega
    | ⟨1, _⟩ => show win21_1.index t (1 : Fin 2) * 64 + 1 * q.val = q.val; omega
  · show V c main_arg7 (((cfg21.win 2).blk t).view.emb (ix1 q)) = V c main_arg7 (ix1 q)
    refine congrArg (V c main_arg7) (funext fun a => Fin.ext ?_)
    match a with
    | ⟨0, _⟩ => show win21_2.index t (0 : Fin 1) * 64 + 1 * q.val = q.val; omega
  · show win21_3.index t (0 : Fin 2) * 2000 + 1 * (j 0).val = win21_3.index t (0 : Fin 2) * 2000 + (j 0).val; omega
  · show win21_3.index t (1 : Fin 2) * 64 + 1 * (j 1).val = (j 1).val; omega

theorem mem_blk (t : Fin cfg21.N) (i : S50000x64.Idx) :
    i ∈ ((cfg21.win 3).blk t).view.set ↔ ∀ a : Fin 2, win21_3.index t a * S2000x64.size a ≤ (i a).val ∧ (i a).val < win21_3.index t a * S2000x64.size a + S2000x64.size a := by
  show i ∈ ((View.whole main_v422).slice (win21_3.rect t)).set ↔ _
  rw [View.set_slice_whole, Rect.mem_set_unit]
  exact Iff.rfl

theorem cover (i : S50000x64.Idx) : ∃ t : Fin cfg21.N, (cfg21.win 3).flush t = true ∧ i ∈ ((cfg21.win 3).blk t).view.set := by
  have hi0 : (i 0).val < 50000 := (i 0).isLt
  have hi1 : (i 1).val < 64 := (i 1).isLt
  obtain ⟨t, ht⟩ := idx_onto ⟨(i 0).val / 2000, by omega⟩ ⟨(i 1).val / 64, by omega⟩
  have q0 : win21_3.index t (0 : Fin 2) = (i 0).val / 2000 + 0 := congrFun ht 0
  have q1 : win21_3.index t (1 : Fin 2) = (i 1).val / 64 + 0 := congrFun ht 1
  refine ⟨t, flush21_3 t, ?_⟩
  rw [mem_blk]
  intro a
  match a with
  | ⟨0, _⟩ => show win21_3.index t (0 : Fin 2) * 2000 ≤ (i 0).val ∧ (i 0).val < win21_3.index t (0 : Fin 2) * 2000 + 2000; omega
  | ⟨1, _⟩ => show win21_3.index t (1 : Fin 2) * 64 ≤ (i 1).val ∧ (i 1).val < win21_3.index t (1 : Fin 2) * 64 + 64; omega

/-- After the launch the result array is the reference's function of the three arrays. -/
theorem final (c : Dev nD) : (dat21 V c).arrAt 3 cfg21.N = refOut (F := Ideal) (V c main_v421) (V c main_arg6) (V c main_arg7) :=
  (dat21 V c).arrAt_eq_of_cover 3 _ (fun t _ => flushed_eq V c t) cover

end Cert.KernelIdeal.Reg21

end
-- ==== Proof.KernelWhole.lean ====
/-
  The idealized kernel program's result as one function of its arguments, at the exact values. The last launch leaves
  the reference's output projection of the features it finds, of the weight matrix and of the bias; those features are
  ten hops from the projected features (the chain of the hop modules); the projected features are what the first launch
  leaves, the reference's projection of the arguments; the index rows are what the first host stretch leaves; and every
  argument a later stretch or launch reads is as launched.
-/
import proofs.«105152_j14491219657222_1_alg».proof.Proof.KernelChain
import proofs.«105152_j14491219657222_1_alg».proof.Proof.Reg0
import proofs.«105152_j14491219657222_1_alg».proof.Proof.Reg21

set_option maxRecDepth 16384

noncomputable section

namespace Cert.KernelIdeal.Whole

open Cert.KernelIdeal Cert.KernelIdeal.Gen Cert.KernelIdeal.GenP Cert.KernelIdeal.Fns Cert.KernelIdeal.Chain
open Idealize.ShloMosaic Idealize.ShloMosaic.TcCoe Idealize.ShloMosaic.StableHlo
open Idealize.SL Idealize.SL.Sem
open Cert.ReferenceIdeal.RefHops (refProj refOut)

variable (m : (ℓ : Loc nD τ sig) → Buf (Elt Ideal) ℓ) (ρ : Dev nD → PrngReg)

theorem W1_main_arg0 (c : Dev nD) : W1 m ρ c (Proc.devRef .tc main_arg0) = m ((c : Thread nD τ).loc main_arg0) := by
  dsimp only [W1, hostOps0]
  after_results_simp

theorem W1_main_arg2 (c : Dev nD) : W1 m ρ c (Proc.devRef .tc main_arg2) = m ((c : Thread nD τ).loc main_arg2) := by
  dsimp only [W1, hostOps0]
  after_results_simp

theorem W1_main_arg3 (c : Dev nD) : W1 m ρ c (Proc.devRef .tc main_arg3) = m ((c : Thread nD τ).loc main_arg3) := by
  dsimp only [W1, hostOps0]
  after_results_simp

theorem W1_main_arg4 (c : Dev nD) : W1 m ρ c (Proc.devRef .tc main_arg4) = m ((c : Thread nD τ).loc main_arg4) := by
  dsimp only [W1, hostOps0]
  after_results_simp

theorem W1_main_arg5 (c : Dev nD) : W1 m ρ c (Proc.devRef .tc main_arg5) = m ((c : Thread nD τ).loc main_arg5) := by
  dsimp only [W1, hostOps0]
  after_results_simp

theorem W1_main_arg6 (c : Dev nD) : W1 m ρ c (Proc.devRef .tc main_arg6) = m ((c : Thread nD τ).loc main_arg6) := by
  dsimp only [W1, hostOps0]
  after_results_simp

theorem W1_main_arg7 (c : Dev nD) : W1 m ρ c (Proc.devRef .tc main_arg7) = m ((c : Thread nD τ).loc main_arg7) := by
  dsimp only [W1, hostOps0]
  after_results_simp

/-- The first launch leaves the reference's projection of the arguments. -/
theorem first_value (c : Dev nD) : W2 m ρ c (Proc.devRef .tc main_v4) = refProj (F := Ideal) (m ((c : Thread nD τ).loc main_arg0)) (m ((c : Thread nD τ).loc main_arg2)) (m ((c : Thread nD τ).loc main_arg3)) := by
  refine ((W2_arr m ρ c 3).trans (Reg0.final (V1 m ρ) c)).trans ?_
  show refProj (F := Ideal) (W1 m ρ c (Proc.devRef .tc main_arg0)) (W1 m ρ c (Proc.devRef .tc main_arg2)) (W1 m ρ c (Proc.devRef .tc main_arg3)) = _
  rw [W1_main_arg0, W1_main_arg2, W1_main_arg3]

/-- The result buffer at the last boundary, as a function of the arguments and of the two index rows the first stretch
    leaves. -/
theorem ker_value (c : Dev nD) : W67 m ρ c (Proc.devRef .tc main_v422)
    = refOut (F := Ideal)
        (kerIter (W1 m ρ c (Proc.devRef .tc main_v1)) (W1 m ρ c (Proc.devRef .tc main_v3))
          (refProj (F := Ideal) (m ((c : Thread nD τ).loc main_arg0)) (m ((c : Thread nD τ).loc main_arg2)) (m ((c : Thread nD τ).loc main_arg3))) (m ((c : Thread nD τ).loc main_arg4)) (m ((c : Thread nD τ).loc main_arg5)))
        (m ((c : Thread nD τ).loc main_arg6)) (m ((c : Thread nD τ).loc main_arg7)) := by
  refine ((W67_arr m ρ c 3).trans (Reg21.final (V66 m ρ) c)).trans ?_
  show refOut (F := Ideal) (W66 m ρ c (Proc.devRef .tc main_v421)) (W66 m ρ c (Proc.devRef .tc main_arg6)) (W66 m ρ c (Proc.devRef .tc main_arg7)) = _
  rw [hops_value m ρ c, keep_main_arg6 m ρ c, keep_main_arg7 m ρ c]
  rw [first_value m ρ c, W2_of_ne m ρ c main_v1 (by decide), W2_of_ne m ρ c main_v3 (by decide), W2_of_ne m ρ c main_arg4 (by decide), W2_of_ne m ρ c main_arg5 (by decide), W2_of_ne m ρ c main_arg6 (by decide), W2_of_ne m ρ c main_arg7 (by decide)]
  rw [W1_main_arg4, W1_main_arg5, W1_main_arg6, W1_main_arg7]

end Cert.KernelIdeal.Whole

end
-- ==== Proof.LibEluForms.lean ====
/-
  The exponential linear unit in its two spellings, at the exact values.

  For an entry v the unit is  v  when v > 0  and  exp v − 1  otherwise. A kernel writes exactly that: one comparison
  with a splat zero, the exponential minus a splat one, one select. A host program that calls the library routine
  spells it with a guard inside: the select's other branch is  1 · expm1 (w)  where  w = 0  when v > 0 and  w = v
  otherwise — the guard keeps the exponential from overflowing on the branch that is then thrown away. The outer
  select takes that branch only when v > 0 fails, where w = v; on the extended reals expm1 w is exp w − 1, the
  pattern 0x3F800000 is the number one and one is neutral for the product, so the two spellings are one function on
  whole arrays of any shape, with no condition on the entries.
-/
import Idealize.ShloMosaic.PureOps.Ideal
import Idealize.ShloMosaic.PureOps.Ideal.Laws

noncomputable section

namespace LibEluForms

open Idealize.ShloMosaic

/-- The single-precision pattern 0x3F800000 (sign 0, exponent 127, fraction 0) denotes the number one. -/
theorem ofBits_one_f32 : Ideal.ofBits .f32 0x3F800000#32 = (1 : EReal) := by
  simp [Ideal.ofBits, Ideal.ieee, -EReal.coe_mul]; norm_num

/-- On one value, whatever the comparison bit `c` is: the guarded spelling's select is the plain one's. -/
theorem elu_scalar (c : BitVec 1) (v : EReal) :
    Scalar.select c v ((1 : EReal) * (Ideal.exp (Scalar.select c (0 : EReal) v) - 1))
      = Scalar.select c v (Ideal.exp v - 1) := by
  unfold Scalar.select
  by_cases h : c = 1
  · simp only [h, if_true]
  · simp only [h, if_false, one_mul]

/-- On whole arrays of any shape: the host routine's guarded spelling of the unit is the kernel's plain one. -/
theorem hostElu_eq {t : Shape}
    (h0 h1 h2 h3 : (⟨0, ![]⟩ : Shape).BroadcastsInDim t (![] : Fin 0 → Fin t.rank)) (v : FVec Ideal t .f32) :
    select (cmpf (F := Ideal) .ogt v (broadcastInDim t ![] h0 (constant (F := Ideal) ⟨0, ![]⟩ .f32 0x00000000#32))) v
        (mulf (F := Ideal) (broadcastInDim t ![] h1 (constant (F := Ideal) ⟨0, ![]⟩ .f32 0x3F800000#32))
          (Host.expm1 (F := Ideal)
            (select (cmpf (F := Ideal) .ogt v (broadcastInDim t ![] h2 (constant (F := Ideal) ⟨0, ![]⟩ .f32 0x00000000#32)))
              (broadcastInDim t ![] h3 (id (constant (F := Ideal) ⟨0, ![]⟩ .f32 0x00000000#32))) v)))
      = select (cmpf (F := Ideal) .ogt v (broadcast t (Scalar.ofBits (F := Ideal) .f32 0x00000000#32))) v
          (subf (F := Ideal) (exp (F := Ideal) v) (broadcast t (Scalar.ofBits (F := Ideal) .f32 0x3F800000#32))) := by
  funext i
  simp only [select, cmpf, mulf, subf, exp, Host.expm1, broadcastInDim, broadcast, constant, id, Scalar.ofBits,
    Ideal.mulf_def, Ideal.subf_def, Ideal.exp_def, Ideal.hostUnary_expm1_def, Ideal.ofBits_def, ofBits_one_f32,
    Ideal.ofBits_zero_f32]
  exact elu_scalar _ _

end LibEluForms

end
-- ==== Proof.BridgeLaws.lean ====
/-
  The laws that join the kernel program's spelling of a hop to the reference's, at the exact values.

  Normalization. The reference divides the numerator array by the divisor column spread over the 96 columns and
  applies the library's guarded exponential linear unit; the kernel's launch computes, entry by entry, the plain unit
  of the entry divided by its row's divisor. The guarded and the plain unit are one function (LibEluForms), the host's
  quotient is the kernel's, and the spread column read at (p, k) is the column's entry of row p.
-/
import proofs.«105152_j14491219657222_1_alg».proof.Proof.KernelFns
import proofs.«105152_j14491219657222_1_alg».proof.Proof.LibEluForms
import Idealize.ShloMosaic.PureOps.Ideal.Laws
import Idealize.ShloMosaic.Lib.Pipeline.Value
import Idealize.ShloMosaic.Lib.ValueIdx
import Idealize.ShloMosaic.Lib.KernelVsHost

set_option maxRecDepth 16384

noncomputable section

namespace Cert.BridgeLaws

open Cert.KernelIdeal Cert.KernelIdeal.Fns
open Idealize.ShloMosaic Idealize.ShloMosaic.TcCoe Idealize.ShloMosaic.ValueIdx

/-- A column of 50000 entries spread over 96 columns, read at an entry: the column's entry of that row. -/
theorem spread_col_apply {α : Type} (hb : (⟨2, ![50000, 1]⟩ : Shape).BroadcastsInDim ⟨2, ![50000, 96]⟩ ![0, 1])
    (d : (⟨2, ![50000, 1]⟩ : Shape).Idx → α) (i : (⟨2, ![50000, 96]⟩ : Shape).Idx) :
    broadcastInDim ⟨2, ![50000, 96]⟩ ![0, 1] hb d i = d (ix2 (i 0) (0 : Fin 1)) :=
  broadcastInDim_apply ![0, 1] hb d i (ix2 (i 0) (0 : Fin 1)) (fun a => match a with
    | ⟨0, _⟩ => by show (i 0).val = if (50000 : Nat) = 1 then 0 else (i 0).val; rw [if_neg (by decide)]
    | ⟨1, _⟩ => by show 0 = if (1 : Nat) = 1 then 0 else _; rw [if_pos rfl])

/-- The reference's guarded unit of the quotient by the spread divisor is the kernel's whole-array normalization. -/
theorem norm_bridge
    (h0 h1 h2 h3 : (⟨0, ![]⟩ : Shape).BroadcastsInDim ⟨2, ![50000, 96]⟩ (![] : Fin 0 → Fin 2))
    (hb : (⟨2, ![50000, 1]⟩ : Shape).BroadcastsInDim ⟨2, ![50000, 96]⟩ ![0, 1])
    (num : FVec Ideal ⟨2, ![50000, 96]⟩ .f32) (div : FVec Ideal ⟨2, ![50000, 1]⟩ .f32) :
    (let v := Host.divf (F := Ideal) num (broadcastInDim ⟨2, ![50000, 96]⟩ ![0, 1] hb div)
     select (cmpf (F := Ideal) .ogt v (broadcastInDim ⟨2, ![50000, 96]⟩ ![] h0 (constant (F := Ideal) ⟨0, ![]⟩ .f32 0x00000000#32))) v
        (mulf (F := Ideal) (broadcastInDim ⟨2, ![50000, 96]⟩ ![] h1 (constant (F := Ideal) ⟨0, ![]⟩ .f32 0x3F800000#32))
          (Host.expm1 (F := Ideal)
            (select (cmpf (F := Ideal) .ogt v (broadcastInDim ⟨2, ![50000, 96]⟩ ![] h2 (constant (F := Ideal) ⟨0, ![]⟩ .f32 0x00000000#32)))
              (broadcastInDim ⟨2, ![50000, 96]⟩ ![] h3 (id (constant (F := Ideal) ⟨0, ![]⟩ .f32 0x00000000#32))) v))))
      = normW (F := Ideal) num div := by
  dsimp only
  rw [LibEluForms.hostElu_eq]
  funext i
  simp only [select, cmpf, subf, exp, broadcast, Host.divf, normW, normS,
    Ideal.hostDivf_def, Ideal.divf_def]
  rw [spread_col_apply hb div i]

/-! ## The padded layout

  The kernel program flattens the two gathered score columns (800000 × 1) to vectors, pads each with 768 entries to
  800768, lays them out as 6256 rows of 128 for the weight launch, and afterwards flattens the weight array, cuts it
  back to the first 800000 entries and views them as a column again. Every step keeps the row-major position of an
  entry, the launch is entry by entry, and an entry below 800000 is inside the unpadded vector: the column that comes
  back holds, at edge e, the weight of the two scores of edge e — what the reference computes directly. -/

/-- Entry `(e, 0)` of an 800000 × 1 column flattened is entry `e` of the vector. -/
theorem flat_col_apply {α : Type} (hc1 : (⟨2, ![800000, 1]⟩ : Shape).ShapeCasts ⟨1, ![800000]⟩)
    (g : (⟨2, ![800000, 1]⟩ : Shape).Idx → α) (i : (⟨2, ![800000, 1]⟩ : Shape).Idx) :
    shapeCast ⟨1, ![800000]⟩ g hc1 (ix1 (i 0)) = g i :=
  shapeCast_apply g hc1 (ix1 (i 0)) i (by
    rw [Shape.rowMajor_val_two, Shape.rowMajor_val_one]
    have h1 : (i 1).val < 1 := (i 1).isLt
    show (i 0).val * 1 + (i 1).val = (i 0).val
    omega)

theorem weights_bridge
    (hb : (⟨1, ![800000]⟩ : Shape).BroadcastsInDim ⟨2, ![800000, 1]⟩ ![0])
    (hsl : (⟨1, ![800768]⟩ : Shape).Slices ![0] ⟨1, ![800000]⟩)
    (hc3 : (⟨2, ![6256, 128]⟩ : Shape).ShapeCasts ⟨1, ![800768]⟩)
    (hc2 : (⟨1, ![800768]⟩ : Shape).ShapeCasts ⟨2, ![6256, 128]⟩)
    (hp : (⟨1, ![800000]⟩ : Shape).Pads ![0] ![768] ![0] ⟨1, ![800768]⟩) (hu : 0 < (⟨0, ![]⟩ : Shape).numel)
    (hc1 : (⟨2, ![800000, 1]⟩ : Shape).ShapeCasts ⟨1, ![800000]⟩)
    (h00 h02 : (⟨0, ![]⟩ : Shape).BroadcastsInDim ⟨2, ![800000, 1]⟩ (![] : Fin 0 → Fin 2))
    (g1 g2 : FVec Ideal ⟨2, ![800000, 1]⟩ .f32) (z1 z2 : FVec Ideal ⟨0, ![]⟩ .f32) :
    broadcastInDim ⟨2, ![800000, 1]⟩ ![0] hb
        (extractStridedSlice ⟨1, ![800000]⟩ ![0]
          (shapeCast ⟨1, ![800768]⟩
            (edgeW (F := Ideal)
              (shapeCast ⟨2, ![6256, 128]⟩ (pad ⟨1, ![800768]⟩ ![0] ![768] ![0] (shapeCast ⟨1, ![800000]⟩ g1 hc1) z1 hp hu) hc2)
              (shapeCast ⟨2, ![6256, 128]⟩ (pad ⟨1, ![800768]⟩ ![0] ![768] ![0] (shapeCast ⟨1, ![800000]⟩ g2 hc1) z2 hp hu) hc2))
            hc3) hsl)
      = Host.exp (F := Ideal)
          (select (cmpf (F := Ideal) .oge (addf (F := Ideal) g1 g2) (broadcastInDim ⟨2, ![800000, 1]⟩ ![] h00 (constant (F := Ideal) ⟨0, ![]⟩ .f32 0x00000000#32)))
            (addf (F := Ideal) g1 g2)
            (mulf (F := Ideal) (broadcastInDim ⟨2, ![800000, 1]⟩ ![] h02 (constant (F := Ideal) ⟨0, ![]⟩ .f32 0x3E4CCCCD#32)) (addf (F := Ideal) g1 g2))) := by
  funext i
  have hi0 : (i 0).val < 800768 := lt_trans (i 0).isLt (by decide)
  refine (broadcastInDim_apply ![0] hb _ i (ix1 (i 0)) (fun a => match a with
    | ⟨0, _⟩ => by show (i 0).val = if (800000 : Nat) = 1 then 0 else (i 0).val; rw [if_neg (by decide)])).trans ?_
  refine (extractStridedSlice_apply ![0] _ hsl (ix1 (i 0)) (ix1 (⟨(i 0).val, hi0⟩ : Fin 800768)) (fun a => match a with
    | ⟨0, _⟩ => by show (i 0).val = 0 + (i 0).val; omega)).trans ?_
  have hA : ∀ (P : (⟨1, ![800768]⟩ : Shape).Idx → Ideal .f32) (k : (⟨1, ![800768]⟩ : Shape).Idx),
      (shapeCast ⟨2, ![6256, 128]⟩ P hc2) (Shape.reshapeEquiv hc3 k) = P k :=
    fun P k => congrFun (shapeCast_shapeCast P hc2 hc3) k
  have hP : ∀ (g : FVec Ideal ⟨2, ![800000, 1]⟩ .f32) (z : FVec Ideal ⟨0, ![]⟩ .f32),
      pad ⟨1, ![800768]⟩ ![0] ![768] ![0] (shapeCast ⟨1, ![800000]⟩ g hc1) z hp hu (ix1 (⟨(i 0).val, hi0⟩ : Fin 800768)) = g i :=
    fun g z => (pad_apply_of_inside ![0] ![768] ![0] _ z hp hu (ix1 (⟨(i 0).val, hi0⟩ : Fin 800768)) (ix1 (i 0)) (fun a => match a with
      | ⟨0, _⟩ => by show (i 0).val = 0 + (i 0).val * (0 + 1); omega)).trans (flat_col_apply hc1 g i)
  show edgeS (F := Ideal) ((shapeCast ⟨2, ![6256, 128]⟩ _ hc2) (Shape.reshapeEquiv hc3 _)) ((shapeCast ⟨2, ![6256, 128]⟩ _ hc2) (Shape.reshapeEquiv hc3 _)) = _
  rw [hA, hA, hP, hP]
  simp only [edgeS, Host.exp, select, cmpf, addf, mulf, broadcastInDim, constant, Scalar.ofBits,
    Ideal.exp_def, Ideal.hostUnary_exp_def]

end Cert.BridgeLaws

end
-- ==== Proof.BridgeRowDot.lean ====
/-
  The row-by-vector product, spelled two ways, at the exact values.

  Fix a 50000 × 96 array y and a vector a of length 96.

  * One spelling views a as a single row, repeats that row 50000 times, multiplies it into y entry by entry, adds each
    row's 96 products starting from zero, and views the 50000 sums as a 50000 × 1 column.
  * The other views a as a 96 × 1 column and contracts y's second axis against the column's first axis.

  At row p (and the one column 0) both read ∑_{k < 96} y[p,k] · a[k]: in the first the repeated row read at (p, k) is
  a[k], the initial value is zero and the exact sum has no order; in the second the contraction at (p, 0) is
  ∑_k y[p,k] · c[k,0] and the column c read at (k, 0) is a[k]. So the two arrays are equal.
-/
import proofs.«105152_j14491219657222_1_alg».proof.KernelIdeal
import proofs.«105152_j14491219657222_1_alg».proof.ReferenceIdeal
import proofs.«105152_j14491219657222_1_alg».proof.Proof.LibHostRows
import Idealize.ShloMosaic.PureOps.Ideal.Laws
import Idealize.ShloMosaic.Lib.Pipeline.Value
import Idealize.ShloMosaic.Lib.ValueIdx
import Idealize.ShloMosaic.Lib.IdealHost

noncomputable section

open scoped BigOperators

namespace Cert.BridgeRowDot

open Idealize.ShloMosaic Idealize.ShloMosaic.ValueIdx

variable [Cert.KernelIdeal.Facts₀] [Cert.ReferenceIdeal.Facts₀]

/-! ### The contraction's index maps, coordinate by coordinate

  The contraction pairs axis 1 of the left operand with axis 0 of the right one; the result's axes are the left
  operand's axis 0 and the right operand's axis 1. -/

/-- The dimension record of the 50000 × 96 by 96 × 1 contraction. -/
abbrev refDot := Cert.ReferenceIdeal.dot_S50000x96_S96x1_S50000x1_1_0_0_1_n_n

/-- One axis is contracted. -/
theorem refDot_rank : refDot.contr.rank = 1 := rfl

/-- The contracted axis has 96 positions. -/
theorem refDot_size : refDot.contr.size ⟨0, by rw [refDot_rank]; exact Nat.one_pos⟩ = 96 := rfl

/-- The left operand's row coordinate is the result's row coordinate. -/
theorem refDot_l0 (j : (⟨2, ![50000, 1]⟩ : Shape).Idx) (q : refDot.contr.Idx) :
    (refDot.lhsIdx j q 0).val = (j 0).val := by
  simp [DotDims.lhsIdx, refDot, Cert.ReferenceIdeal.dot_S50000x96_S96x1_S50000x1_1_0_0_1_n_n]; rfl

/-- The left operand's column coordinate is the contraction position. -/
theorem refDot_l1 (j : (⟨2, ![50000, 1]⟩ : Shape).Idx) (q : refDot.contr.Idx) :
    (refDot.lhsIdx j q 1).val = (q ⟨0, by rw [refDot_rank]; exact Nat.one_pos⟩).val :=
  DotDims.lhsIdx_val_of_single refDot rfl j q

/-- The right operand's row coordinate is the contraction position. -/
theorem refDot_r0 (j : (⟨2, ![50000, 1]⟩ : Shape).Idx) (q : refDot.contr.Idx) :
    (refDot.rhsIdx j q 0).val = (q ⟨0, by rw [refDot_rank]; exact Nat.one_pos⟩).val :=
  DotDims.rhsIdx_val_of_single refDot rfl j q

/-- The right operand's column coordinate is the result's column coordinate: both lie below 1, so both are 0. -/
theorem refDot_r1 (j : (⟨2, ![50000, 1]⟩ : Shape).Idx) (q : refDot.contr.Idx) :
    (refDot.rhsIdx j q 1).val = (j 1).val := by
  have h1 : (refDot.rhsIdx j q 1).val < 1 := (refDot.rhsIdx j q 1).isLt
  have h2 : (j 1).val < 1 := (j 1).isLt
  omega

/-! ### The row sum's indices and the column view -/

/-- Dropping the second axis of a 50000 × 96 array leaves its 50000 rows. -/
theorem reduces_rows : Shape.Reduces (⟨2, ![50000, 96]⟩ : Shape) [1] ⟨1, ![50000]⟩ := by decide

/-- Inserting the coordinate `k` of the dropped axis into the row index `p` gives the entry `(p, k)`. -/
theorem lift_row (h : Shape.Reduces (⟨2, ![50000, 96]⟩ : Shape) [1] ⟨1, ![50000]⟩) (p : Fin 50000) (k : Fin 96) :
    h.lift (ix1 p) k = ix2 p k :=
  funext fun c => Fin.ext (by
    match c with
    | ⟨0, _⟩ => rfl
    | ⟨1, _⟩ => rfl)

/-- A vector of length 96 viewed as a 96 × 1 column: entry `(k, j)` is the vector's entry `k`. -/
theorem colOfVec_apply {α : Type} (b : (⟨1, ![96]⟩ : Shape).Idx → α)
    (h : (⟨1, ![96]⟩ : Shape).BroadcastsInDim ⟨2, ![96, 1]⟩ ![0]) (k : Fin 96) (j : Fin 1) :
    broadcastInDim ⟨2, ![96, 1]⟩ ![0] h b (ix2 k j) = b (ix1 k) :=
  broadcastInDim_apply ![0] h b (ix2 k j) (ix1 k) (fun c => match c with
    | ⟨0, _⟩ => by show k.val = if (96 : Nat) = 1 then 0 else k.val; rw [if_neg (by decide)])

/-! ### The two spellings agree -/

/-- The column of row sums of `y` times the repeated row `a` is the contraction of `y` with the column `a`:
    at row `p` both are `∑ k, y[p,k] · a[k]`. -/
theorem rowdot_bridge (y : FVec Ideal Cert.KernelIdeal.S50000x96 .f32) (a : FVec Ideal Cert.KernelIdeal.S96 .f32) :
    broadcastInDim Cert.KernelIdeal.S50000x1 ![0] Cert.KernelIdeal.Facts₀.bcast_S50000_S50000x1_0
        (Host.reduceAdd (F := Ideal)
          (mulf (F := Ideal) y (broadcastInDim Cert.KernelIdeal.S50000x96 ![0, 1] Cert.KernelIdeal.Facts₀.bcast_S1x96_S50000x96_0_1
            (broadcastInDim Cert.KernelIdeal.S1x96 ![1] Cert.KernelIdeal.Facts₀.bcast_S96_S1x96_1 a)))
          (constant (F := Ideal) Cert.KernelIdeal.S_ .f32 0x00000000#32)
          Cert.KernelIdeal.Facts₀.reducesTo_S50000x96_S50000_d1 Cert.KernelIdeal.Facts₀.h_S_)
      = Host.dotGeneral (F := Ideal) Cert.ReferenceIdeal.dot_S50000x96_S96x1_S50000x1_1_0_0_1_n_n none y
          (broadcastInDim Cert.ReferenceIdeal.S96x1 ![0] Cert.ReferenceIdeal.Facts₀.bcast_S96_S96x1_0 a) := by
  funext i
  obtain ⟨p, j, rfl⟩ : ∃ (p : Fin 50000) (j : Fin 1), i = ix2 p j := ⟨i 0, i 1, eq_ix2 i⟩
  -- the column view of the sums, read at (p, j), is the sum of row p
  refine (broadcastInDim_apply ![0] Cert.KernelIdeal.Facts₀.bcast_S50000_S50000x1_0 _ (ix2 p j) (ix1 p) (fun c => match c with
    | ⟨0, _⟩ => by show p.val = if (50000 : Nat) = 1 then 0 else p.val; rw [if_neg (by decide)])).trans ?_
  -- which is zero plus the sum over k of the products at (p, k)
  rw [hostReduceAdd_apply,
    Ideal.hostReduceAdd_single Cert.KernelIdeal.Facts₀.reducesTo_S50000x96_S50000_d1 reduces_rows,
    constant_apply, Ideal.ofBits_zero_f32, zero_add]
  -- the contraction at (p, j) is the sum over k of y[p,k] times the column at (k, j)
  rw [Cert.LibHostRows.hostDot_apply (M := 50000) (K := 96) (N := 1) refDot refDot_rank refDot_size
    refDot_l0 refDot_l1 refDot_r0 refDot_r1
    none y (broadcastInDim Cert.ReferenceIdeal.S96x1 ![0] Cert.ReferenceIdeal.Facts₀.bcast_S96_S96x1_0 a) p j]
  -- term by term: the repeated row at (p, k) and the column at (k, j) are both a[k]
  refine Finset.sum_congr rfl fun (k : Fin 96) _ => ?_
  rw [mulf_apply, lift_row reduces_rows p k]
  refine congrArg (y (ix2 p k) * ·) ?_
  exact (Cert.LibHostRows.rowOfVec_spread_apply (by decide : (96 : ℕ) ≠ 1) a _ _ p k).trans
    (colOfVec_apply a _ k j).symm

end Cert.BridgeRowDot

end
-- ==== Proof.HopBridge.lean ====
/-
  One hop of the kernel program is one hop of the reference, at the exact values, as functions of the index rows, the
  projected features, the current features and the two attention vectors. Three laws carry it: a lane sum of the
  products with a spread vector is the row against the vector's column (the three score columns); the padded layout
  around the weight launch returns the per-edge weight of the two gathered scores; the normalization launch of numerator
  and divisor is the guarded unit of their quotient. Everything else — the wrapped indices, the gathers, the scatter-adds,
  the self-loop term — is the same operation on both sides. Ten hops follow by using the one-hop statement ten times, and
  with the two dense projections the whole kernel program's function is the reference's.
-/
import proofs.«105152_j14491219657222_1_alg».proof.Proof.KernelChain
import proofs.«105152_j14491219657222_1_alg».proof.Proof.RefHops
import proofs.«105152_j14491219657222_1_alg».proof.Proof.BridgeLaws
import proofs.«105152_j14491219657222_1_alg».proof.Proof.BridgeRowDot

set_option maxRecDepth 16384

noncomputable section

namespace Cert.HopBridge

open Cert.KernelIdeal.Fns Cert.KernelIdeal.Chain Cert.ReferenceIdeal.RefHops Cert.BridgeLaws Cert.BridgeRowDot
open Idealize.ShloMosaic Idealize.ShloMosaic.TcCoe

set_option maxHeartbeats 4000000 in
theorem hop_bridge (s t : (⟨Cert.KernelIdeal.S800000, .i32⟩ : BufTy).Contents (Elt Ideal)) (x h : (⟨Cert.KernelIdeal.S50000x96, .f32⟩ : BufTy).Contents (Elt Ideal)) (a1 a2 : (⟨Cert.KernelIdeal.S96, .f32⟩ : BufTy).Contents (Elt Ideal)) :
    kerHop (F := Ideal) s t x h (selfW x a1 a2) (srcPad s x a1) a2 = refHop (F := Ideal) s t x h a1 a2 := by
  unfold kerHop refHop hopNum hopDiv tgtPad selfW srcPad
  dsimp only
  rw [← norm_bridge Cert.ReferenceIdeal.Facts₀.bcast_S_S50000x96 Cert.ReferenceIdeal.Facts₀.bcast_S_S50000x96 Cert.ReferenceIdeal.Facts₀.bcast_S_S50000x96 Cert.ReferenceIdeal.Facts₀.bcast_S_S50000x96 Cert.ReferenceIdeal.Facts₀.bcast_S50000x1_S50000x96_0_1]
  rw [weights_bridge _ _ _ _ _ _ _ Cert.ReferenceIdeal.Facts₀.bcast_S_S800000x1 Cert.ReferenceIdeal.Facts₀.bcast_S_S800000x1]
  have hrd : ∀ (y : FVec Ideal Cert.KernelIdeal.S50000x96 .f32) (a : FVec Ideal Cert.KernelIdeal.S96 .f32),
      broadcastInDim Cert.KernelIdeal.S50000x1 ![0] Cert.KernelIdeal.Gen.bcast_S50000_S50000x1_0
        (Host.reduceAdd (F := Ideal)
          (mulf (F := Ideal) y (broadcastInDim Cert.KernelIdeal.S50000x96 ![0, 1] Cert.KernelIdeal.Gen.bcast_S1x96_S50000x96_0_1
            (broadcastInDim Cert.KernelIdeal.S1x96 ![1] Cert.KernelIdeal.Gen.bcast_S96_S1x96_1 a)))
          (constant (F := Ideal) Cert.KernelIdeal.S_ .f32 0x00000000#32)
          Cert.KernelIdeal.Gen.reducesTo_S50000x96_S50000_d1 Cert.KernelIdeal.Gen.h_S_)
      = Host.dotGeneral (F := Ideal) Cert.ReferenceIdeal.dot_S50000x96_S96x1_S50000x1_1_0_0_1_n_n none y
          (broadcastInDim Cert.ReferenceIdeal.S96x1 ![0] Cert.ReferenceIdeal.Facts₀.bcast_S96_S96x1_0 a) := fun y a => rowdot_bridge y a
  simp only [hrd]
  rfl

set_option maxHeartbeats 4000000 in
/-- Ten hops. -/
theorem iter_bridge (s t : (⟨Cert.KernelIdeal.S800000, .i32⟩ : BufTy).Contents (Elt Ideal)) (x : (⟨Cert.KernelIdeal.S50000x96, .f32⟩ : BufTy).Contents (Elt Ideal)) (a1 a2 : (⟨Cert.KernelIdeal.S96, .f32⟩ : BufTy).Contents (Elt Ideal)) :
    kerIter (F := Ideal) s t x a1 a2 = (refHop s t x (refHop s t x (refHop s t x (refHop s t x (refHop s t x (refHop s t x (refHop s t x (refHop s t x (refHop s t x (refHop s t x x a1 a2) a1 a2) a1 a2) a1 a2) a1 a2) a1 a2) a1 a2) a1 a2) a1 a2) a1 a2) := by
  unfold kerIter
  dsimp only
  simp only [hop_bridge]

/-- The whole function: the output projection of ten kernel hops from the projection is the reference's function. -/
theorem whole_bridge (s t : (⟨Cert.KernelIdeal.S800000, .i32⟩ : BufTy).Contents (Elt Ideal)) (x0 : (⟨Cert.KernelIdeal.S50000x256, .f32⟩ : BufTy).Contents (Elt Ideal)) (w1 : (⟨Cert.KernelIdeal.S256x96, .f32⟩ : BufTy).Contents (Elt Ideal)) (b1 a1 a2 : (⟨Cert.KernelIdeal.S96, .f32⟩ : BufTy).Contents (Elt Ideal)) (w2 : (⟨Cert.KernelIdeal.S96x64, .f32⟩ : BufTy).Contents (Elt Ideal)) (b2 : (⟨Cert.KernelIdeal.S64, .f32⟩ : BufTy).Contents (Elt Ideal)) :
    refOut (F := Ideal) (kerIter (F := Ideal) s t (refProj (F := Ideal) x0 w1 b1) a1 a2) w2 b2
      = refAll (F := Ideal) s t x0 w1 b1 a1 a2 w2 b2 := by
  rw [iter_bridge]
  rfl

end Cert.HopBridge

end
-- ==== Proof.lean ====
/-
  The certificate of a graph-attention forward pass against its plain reference: a dense projection with a
  rectifier, ten message-passing hops over 800000 edges and 50000 nodes, and an output projection. The kernel
  program runs the two projections, the per-edge attention weight and the per-node normalization as twenty-two
  tiled launches among host gathers and scatter-adds; the reference is one line of host operations.

  The two printed kernel programs terminate with their arguments unchanged by their frame certificates (the generated
  ones, in the copies that elaborate); the reference by its run read back: its arguments are buffers no operation of its
  line writes. The idealization rewrote nothing, so its sanction is trivial. At the exact values both results are ONE
  function of the arguments — the output projection of ten hops from the projected features, the two index rows sliced
  out of the index argument: the reference's line computes it stretch by stretch; the kernel program's launches each
  leave their whole-array function (blocks cover the arrays), its host stretches leave theirs, and hop by hop the two
  spellings agree by three laws (a lane sum against a column product, the padded layout around the weight launch, the
  guarded against the plain exponential linear unit). No law needs the inputs finite: sums are only regrouped, never
  distributed, so the precondition is not opened.
-/
import proofs.«105152_j14491219657222_1_alg».proof.Defs
import proofs.«105152_j14491219657222_1_alg».proof.Proof.Gen.Kernel
import proofs.«105152_j14491219657222_1_alg».proof.Proof.KernelFrameP
import proofs.«105152_j14491219657222_1_alg».proof.Proof.Gen.KernelIdeal
import proofs.«105152_j14491219657222_1_alg».proof.Proof.KernelIdealFrameP
import proofs.«105152_j14491219657222_1_alg».proof.Proof.Gen.ReferenceIdeal
import proofs.«105152_j14491219657222_1_alg».proof.Proof.Gen.Pre_finite_inputs
import proofs.«105152_j14491219657222_1_alg».proof.Proof.RefRun
import proofs.«105152_j14491219657222_1_alg».proof.Proof.RefHops
import proofs.«105152_j14491219657222_1_alg».proof.Proof.RefRows
import proofs.«105152_j14491219657222_1_alg».proof.Proof.KernelRun
import proofs.«105152_j14491219657222_1_alg».proof.Proof.KernelRows
import proofs.«105152_j14491219657222_1_alg».proof.Proof.KernelWhole
import proofs.«105152_j14491219657222_1_alg».proof.Proof.HopBridge
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

theorem frame_k : Cert.frame_Kernel (hKernel := Cert.Kernel.Gen.facts) (hPre_finite_inputs := Cert.Pre_finite_inputs.Gen.facts) :=
  fun m ρ _ => Cert.Kernel.GenP.frame m ρ

theorem frame_ki : Cert.frame_KernelIdeal (hKernelIdeal := Cert.KernelIdeal.Gen.facts) (hPre_finite_inputs := Cert.Pre_finite_inputs.Gen.facts) :=
  fun m ρ _ => Cert.KernelIdeal.GenP.frame m ρ

/-- The reference's arguments are written by none of its operations: each ends at the fold of the line over the launch
    contents, which at an argument's buffer is the launch contents. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono
    (fun _ h c => ⟨(h c _).trans (Cert.ReferenceIdeal.RefHops.ref_arg0 _), (h c _).trans (Cert.ReferenceIdeal.RefHops.ref_arg1 _),
      (h c _).trans (Cert.ReferenceIdeal.RefHops.ref_arg2 _), (h c _).trans (Cert.ReferenceIdeal.RefHops.ref_arg3 _),
      (h c _).trans (Cert.ReferenceIdeal.RefHops.ref_arg4 _), (h c _).trans (Cert.ReferenceIdeal.RefHops.ref_arg5 _),
      (h c _).trans (Cert.ReferenceIdeal.RefHops.ref_arg6 _), (h c _).trans (Cert.ReferenceIdeal.RefHops.ref_arg7 _)⟩)
    (Cert.ReferenceIdeal.RefRun.run_main (F := Ideal) m ρ)

theorem preserves : Cert.preserves_Kernel_KernelIdeal := trivial

/-- The kernel program's result at the last boundary is the reference's function of its arguments. -/
theorem kernel_total (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    Cert.KernelIdeal.GenP.W67 m ρ c (Proc.devRef .tc Cert.KernelIdeal.main_v422)
      = Cert.ReferenceIdeal.RefHops.refAll (F := Ideal)
      (Cert.KernelIdeal.Rows.idxRow0 (F := Ideal) (m ((c.tc : Thread Cert.KernelIdeal.nD Cert.KernelIdeal.τ).loc Cert.KernelIdeal.main_arg1))) (Cert.KernelIdeal.Rows.idxRow1 (F := Ideal) (m ((c.tc : Thread Cert.KernelIdeal.nD Cert.KernelIdeal.τ).loc Cert.KernelIdeal.main_arg1)))
      (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) := by
  rw [Cert.KernelIdeal.Whole.ker_value m ρ c, Cert.KernelIdeal.Rows.W1_row0 m ρ c, Cert.KernelIdeal.Rows.W1_row1 m ρ c]
  exact Cert.HopBridge.whole_bridge _ _ _ _ _ _ _ _ _

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.RefHops.refAll (F := Ideal)
      (Cert.KernelIdeal.Rows.idxRow0 (F := Ideal) (m ((c.tc : Thread Cert.KernelIdeal.nD Cert.KernelIdeal.τ).loc Cert.KernelIdeal.main_arg1))) (Cert.KernelIdeal.Rows.idxRow1 (F := Ideal) (m ((c.tc : Thread Cert.KernelIdeal.nD Cert.KernelIdeal.τ).loc Cert.KernelIdeal.main_arg1)))
      (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun r h c => ⟨(h c).1.trans (kernel_total m ρ c), (h c).2⟩)
      (Cert.KernelIdeal.Run.run_value (F := Ideal) m ρ)
  · refine (θ_run Cert.ReferenceIdeal.defs _ _).mono (fun r h c => ⟨?_,
      (h c _).trans (Cert.ReferenceIdeal.RefHops.ref_arg0 _), (h c _).trans (Cert.ReferenceIdeal.RefHops.ref_arg1 _),
      (h c _).trans (Cert.ReferenceIdeal.RefHops.ref_arg2 _), (h c _).trans (Cert.ReferenceIdeal.RefHops.ref_arg3 _),
      (h c _).trans (Cert.ReferenceIdeal.RefHops.ref_arg4 _), (h c _).trans (Cert.ReferenceIdeal.RefHops.ref_arg5 _),
      (h c _).trans (Cert.ReferenceIdeal.RefHops.ref_arg6 _), (h c _).trans (Cert.ReferenceIdeal.RefHops.ref_arg7 _)⟩)
      (Cert.ReferenceIdeal.RefRun.run_main (F := Ideal) m' ρ')
    refine (h c Cert.ReferenceIdeal.main_v572).trans ?_
    rw [Cert.ReferenceIdeal.RefHops.ref_value, Cert.ReferenceIdeal.RefRows.pre_row0, Cert.ReferenceIdeal.RefRows.pre_row1]
    obtain ⟨h0, h1, h2, h3, h4, h5, h6, h7⟩ := hagree c
    show Cert.ReferenceIdeal.RefHops.refAll (F := Ideal)
      (Cert.ReferenceIdeal.RefRows.idxRow0 (F := Ideal) (m' ((c.tc : Thread Cert.ReferenceIdeal.nD Cert.ReferenceIdeal.τ).loc Cert.ReferenceIdeal.main_arg1)))
      (Cert.ReferenceIdeal.RefRows.idxRow1 (F := Ideal) (m' ((c.tc : Thread Cert.ReferenceIdeal.nD Cert.ReferenceIdeal.τ).loc Cert.ReferenceIdeal.main_arg1)))
      (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7)) = _
    rw [h0, h1, h2, h3, h4, h5, h6, h7]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
